-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x128x10000x1 : Shape := ⟨4, ![1, 128, 10000, 1]⟩
abbrev S2x1x10000x32 : Shape := ⟨4, ![2, 1, 10000, 32]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S1x128x10000x1 : S_.BroadcastsInDim S1x128x10000x1 (![] : Fin 0 → Fin S1x128x10000x1.rank)
  reducesTo_S1x128x10000x1_S_d0_1_2_3 : S1x128x10000x1.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S2x1x10000x32 : S_.BroadcastsInDim S2x1x10000x32 (![] : Fin 0 → Fin S2x1x10000x32.rank)
  reducesTo_S2x1x10000x32_S_d0_1_2_3 : S2x1x10000x32.ReducesTo [0, 1, 2, 3] S_

variable [Facts]

def fn_part1 {F : FTy → Type} [FloatOps F] (main_arg1 : IVec S2x1x10000x32 32) (main_arg5 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x1x10000x32 32 := broadcastInDim S2x1x10000x32 ![] bcast_S_S2x1x10000x32 main_c_8
  let main_v25 : IVec S2x1x10000x32 1 := cmpi .sge main_arg1 main_v24
  let main_c_9 : IVec S_ 32 := constantI S_ 32 9999#32
  let main_v26 : IVec S2x1x10000x32 32 := broadcastInDim S2x1x10000x32 ![] bcast_S_S2x1x10000x32 main_c_9
  let main_v27 : IVec S2x1x10000x32 1 := cmpi .sle main_arg1 main_v26
  let main_v28 : IVec S2x1x10000x32 1 := andi main_v25 main_v27
  let main_c_10 : IVec S_ 1 := constantI S_ 1 1#1
  let main_v29 : IVec S_ 1 := (fun x v => Host.reduce IntOp.andi x v reducesTo_S2x1x10000x32_S_d0_1_2_3 h_S_) main_v28 main_c_10
  let main_v30 : IVec S_ 1 := andi main_v23 main_v29
  main_v30

def fn {F : FTy → Type} [FloatOps F] (main_arg0 : FVec F S1x128x10000x1 .f32) (main_arg1 : IVec S2x1x10000x32 32) (main_arg2 : FVec F S128x128 .f32) (main_arg3 : FVec F S128 .f32) (main_arg4 : FVec F S128x256 .f32) (main_arg5 : FVec F S128 .f32) : IVec S_ 1 :=
  let main_v0 : FVec F S1x128x10000x1 .f32 := Host.absf main_arg0
  let main_cst : FVec F S_ .f32 := constant S_ .f32 0x7F800000#32
  let main_v1 : FVec F S1x128x10000x1 .f32 := broadcastInDim S1x128x10000x1 ![] bcast_S_S1x128x10000x1 main_cst
  let main_v2 : IVec S1x128x10000x1 1 := cmpf .olt main_v0 main_v1
  let main_c : IVec S_ 1 := constantI S_ 1 1#1
  let main_v3 : IVec S_ 1 := (fun x v => Host.reduce IntOp.andi x v reducesTo_S1x128x10000x1_S_d0_1_2_3 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg5 main_v13 main_v16
-- ==== Kernel.lean ====
abbrev S1x128x10000x1 : Shape := ⟨4, ![1, 128, 10000, 1]⟩
abbrev S2x1x10000x32 : Shape := ⟨4, ![2, 1, 10000, 32]⟩
abbrev S128x128 : Shape := ⟨2, ![128, 128]⟩
abbrev S128 : Shape := ⟨1, ![128]⟩
abbrev S128x256 : Shape := ⟨2, ![128, 256]⟩
abbrev S128x10000 : Shape := ⟨2, ![128, 10000]⟩
abbrev S10000x128 : Shape := ⟨2, ![10000, 128]⟩
abbrev S1x1x10000x32 : Shape := ⟨4, ![1, 1, 10000, 32]⟩
abbrev S10000x32 : Shape := ⟨2, ![10000, 32]⟩
abbrev S320000 : Shape := ⟨1, ![320000]⟩
abbrev S_ : Shape := ⟨0, ![]⟩
abbrev S327680 : Shape := ⟨1, ![327680]⟩
abbrev S32x80x128 : Shape := ⟨3, ![32, 80, 128]⟩
abbrev S1x128 : Shape := ⟨2, ![1, 128]⟩
abbrev S10240x128 : Shape := ⟨2, ![10240, 128]⟩
abbrev S80x128 : Shape := ⟨2, ![80, 128]⟩
abbrev S4x64x128 : Shape := ⟨3, ![4, 64, 128]⟩
abbrev S2x4x128 : Shape := ⟨3, ![2, 4, 128]⟩
abbrev S1x80x128 : Shape := ⟨3, ![1, 80, 128]⟩
abbrev S640x128 : Shape := ⟨2, ![640, 128]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S1x4x128 : Shape := ⟨3, ![1, 4, 128]⟩
abbrev S4x128 : Shape := ⟨2, ![4, 128]⟩
abbrev S1x16 : Shape := ⟨2, ![1, 16]⟩
abbrev S16 : Shape := ⟨1, ![16]⟩
abbrev S1x1x16 : Shape := ⟨3, ![1, 1, 16]⟩

abbrev nBuf : Table → Nat
  | .hbm => 25
  | .local .tc .vmem => 12
  | .shared => 1
  | .local .scVector .vmem => 3
  | _ => 0

abbrev bufTy : (tb : Table) → Fin (nBuf tb) → BufTy
  | .hbm, ⟨0, _⟩ => ⟨S1x128x10000x1, .f32⟩
  | .hbm, ⟨1, _⟩ => ⟨S2x1x10000x32, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S128x10000, .f32⟩
  | .hbm, ⟨7, _⟩ => ⟨S10000x128, .f32⟩
  | .hbm, ⟨8, _⟩ => ⟨S1x1x10000x32, .i32⟩
  | .hbm, ⟨9, _⟩ => ⟨S10000x32, .i32⟩
  | .hbm, ⟨10, _⟩ => ⟨S320000, .i32⟩
  | .hbm, ⟨11, _⟩ => ⟨S_, .i32⟩
  | .hbm, ⟨12, _⟩ => ⟨S_, .i32⟩
  | .hbm, ⟨13, _⟩ => ⟨S327680, .i32⟩
  | .hbm, ⟨14, _⟩ => ⟨S32x80x128, .i32⟩
  | .hbm, ⟨15, _⟩ => ⟨S1x128, .f32⟩
  | .hbm, ⟨16, _⟩ => ⟨S10240x128, .f32⟩
  | .hbm, ⟨17, _⟩ => ⟨S128x128, .f32⟩
  | .hbm, ⟨18, _⟩ => ⟨S1x128, .f32⟩
  | .hbm, ⟨19, _⟩ => ⟨S10000x128, .f32⟩
  | .hbm, ⟨20, _⟩ => ⟨S10240x128, .f32⟩
  | .hbm, ⟨21, _⟩ => ⟨S128x128, .f32⟩
  | .hbm, ⟨22, _⟩ => ⟨S10000x128, .f32⟩
  | .hbm, ⟨23, _⟩ => ⟨S128x10000, .f32⟩
  | .hbm, ⟨24, _⟩ => ⟨S1x128x10000x1, .f32⟩
  | .local .tc .vmem, ⟨0, _⟩ => ⟨S10000x128, .f32⟩
  | .local .tc .vmem, ⟨1, _⟩ => ⟨S128x128, .f32⟩
  | .local .tc .vmem, ⟨2, _⟩ => ⟨S1x128, .f32⟩
  | .local .tc .vmem, ⟨3, _⟩ => ⟨S10240x128, .f32⟩
  | .local .tc .vmem, ⟨4, _⟩ => ⟨S10000x128, .f32⟩
  | .local .tc .vmem, ⟨5, _⟩ => ⟨S128x128, .f32⟩
  | .local .tc .vmem, ⟨6, _⟩ => ⟨S1x128, .f32⟩
  | .local .tc .vmem, ⟨7, _⟩ => ⟨S10000x128, .f32⟩
  | .local .tc .vmem, ⟨8, _⟩ => ⟨S10000x128, .f32⟩
  | .local .tc .vmem, ⟨9, _⟩ => ⟨S10240x128, .f32⟩
  | .local .tc .vmem, ⟨10, _⟩ => ⟨S128x128, .f32⟩
  | .local .tc .vmem, ⟨11, _⟩ => ⟨S10000x128, .f32⟩
  | .shared, ⟨0, _⟩ => ⟨S10240x128, .f32⟩
  | .local .scVector .vmem, ⟨0, _⟩ => ⟨S80x128, .i32⟩
  | .local .scVector .vmem, ⟨1, _⟩ => ⟨S4x64x128, .f32⟩
  | .local .scVector .vmem, ⟨2, _⟩ => ⟨S2x4x128, .f32⟩
  | _, _ => ⟨S1x128x10000x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | _ => false

abbrev sig : RefSig :=
  ofTables nBuf rfl bufTy 5 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v8_scv : Ref sig .scVector := ⟨.hbm, 16, rfl⟩
abbrev main_v6_scv : Ref sig .scVector := ⟨.hbm, 14, rfl⟩
abbrev main_v12_scv : Ref sig .scVector := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc3_stg0_0 : Ref sig .tc := ⟨.vmem, 8, rfl⟩
abbrev cc3_stg1_0 : Ref sig .tc := ⟨.vmem, 9, rfl⟩
abbrev cc3_stg2_0 : Ref sig .tc := ⟨.vmem, 10, rfl⟩
abbrev cc3_stg3_0 : Ref sig .tc := ⟨.vmem, 11, rfl⟩
abbrev cc2_scratch3 : Ref sig .scVector := ⟨.shared, 0, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc3_sem0_0 : DmaSem sig := 16
abbrev cc3_sem1_0 : DmaSem sig := 17
abbrev cc3_sem2_0 : DmaSem sig := 18
abbrev cc3_sem3_0 : DmaSem sig := 19
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10240x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S10000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨2, ![2, 16], ![false, false]⟩

def k2_off1 (i : grid2.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_37_r0 : BitVec 32 := 0#32
  let c0_i32_38_r0 : BitVec 32 := 0#32
  ![v1.toNat, 0, 0]
def k2_off2 (i : grid2.Coords) : Fin 2 → Nat :=
  let arg1 : BitVec 32 := BitVec.ofNat 32 (i 1).val
  let c640_i32_0 : BitVec 32 := 640#32
  let v3 : BitVec 32 := Scalar.muli arg1 c640_i32_0
  let c0_i32_37_r1 : BitVec 32 := 0#32
  ![v3.toNat, 0]
@[reducible] def k2_t1_loop : Scf.Loop 32 :=
  let c0_i32_19 : BitVec 32 := 0#32
  let c40_i32 : BitVec 32 := 40#32
  let v19 : BitVec 32 := Scalar.addi c0_i32_19 c40_i32
  let c1_i32_20 : BitVec 32 := 1#32
  ⟨c0_i32_19, v19, c1_i32_20⟩
def k2_cond1 (k2_t1 : Fin k2_t1_loop.trips) : BitVec 1 :=
  let c0_i32_19 : BitVec 32 := 0#32
  let c1_i32_20 : BitVec 32 := 1#32
  let arg15 : BitVec 32 := Scf.iv c0_i32_19 c1_i32_20 k2_t1
  let c2_i32_37 : BitVec 32 := 2#32
  let v36 : BitVec 32 := Scalar.muli arg15 c2_i32_37
  let c0_i32_38 : BitVec 32 := 0#32
  let v37 : BitVec 32 := Scalar.addi v36 c0_i32_38
  let c2_i32_39 : BitVec 32 := 2#32
  let v38 : BitVec 1 := Scalar.cmpi .sge v37 c2_i32_39
  let v39 : BitVec 32 := Scalar.extui v38
  let c0_i32_40 : BitVec 32 := 0#32
  let v40 : BitVec 1 := Scalar.cmpi .ne v39 c0_i32_40
  v40

def k2_off3 (i : grid2.Coords) (k2_t1 : Fin k2_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c320_i32_648 : BitVec 32 := 320#32
  let v765 : BitVec 32 := Scalar.muli v1 c320_i32_648
  let c0_i32_19 : BitVec 32 := 0#32
  let c1_i32_20 : BitVec 32 := 1#32
  let arg15 : BitVec 32 := Scf.iv c0_i32_19 c1_i32_20 k2_t1
  let c2_i32_37 : BitVec 32 := 2#32
  let v36 : BitVec 32 := Scalar.muli arg15 c2_i32_37
  let c0_i32_38 : BitVec 32 := 0#32
  let v37 : BitVec 32 := Scalar.addi v36 c0_i32_38
  let c2_i32_647 : BitVec 32 := 2#32
  let v764 : BitVec 32 := Scalar.subi v37 c2_i32_647
  let c4_i32_649 : BitVec 32 := 4#32
  let v766 : BitVec 32 := Scalar.muli v764 c4_i32_649
  let v767 : BitVec 32 := Scalar.addi v765 v766
  let c0_i32_653 : BitVec 32 := 0#32
  ![v767.toNat, 0]
def k2_cond2 (k2_t1 : Fin k2_t1_loop.trips) : BitVec 1 :=
  let c0_i32_19 : BitVec 32 := 0#32
  let c1_i32_20 : BitVec 32 := 1#32
  let arg15 : BitVec 32 := Scf.iv c0_i32_19 c1_i32_20 k2_t1
  let c2_i32_37 : BitVec 32 := 2#32
  let v36 : BitVec 32 := Scalar.muli arg15 c2_i32_37
  let c0_i32_38 : BitVec 32 := 0#32
  let v37 : BitVec 32 := Scalar.addi v36 c0_i32_38
  let c2_i32_41 : BitVec 32 := 2#32
  let v41 : BitVec 32 := Scalar.muli v37 c2_i32_41
  let c0_i32_42 : BitVec 32 := 0#32
  let v42 : BitVec 32 := Scalar.addi v41 c0_i32_42
  let c3_i32 : BitVec 32 := 3#32
  let v43 : BitVec 32 := Scalar.addi v42 c3_i32
  let c160_i32 : BitVec 32 := 160#32
  let v44 : BitVec 1 := Scalar.cmpi .slt v43 c160_i32
  let v45 : BitVec 32 := Scalar.extui v44
  let c0_i32_43 : BitVec 32 := 0#32
  let v46 : BitVec 1 := Scalar.cmpi .ne v45 c0_i32_43
  v46

def k2_off4 (k2_t1 : Fin k2_t1_loop.trips) : Fin 2 → Nat :=
  let c0_i32_19 : BitVec 32 := 0#32
  let c1_i32_20 : BitVec 32 := 1#32
  let arg15 : BitVec 32 := Scf.iv c0_i32_19 c1_i32_20 k2_t1
  let c2_i32_647 : BitVec 32 := 2#32
  let v764 : BitVec 32 := Scalar.muli arg15 c2_i32_647
  let c1_i32_648 : BitVec 32 := 1#32
  let v765 : BitVec 32 := Scalar.addi v764 c1_i32_648
  let c64_i32_652 : BitVec 32 := 64#32
  ![v765.toNat, 64]
def k2_off5 (k2_t1 : Fin k2_t1_loop.trips) (c0_i32_38 : BitVec 32) : Fin 2 → Nat :=
  let c0_i32_19 : BitVec 32 := 0#32
  let c1_i32_20 : BitVec 32 := 1#32
  let arg15 : BitVec 32 := Scf.iv c0_i32_19 c1_i32_20 k2_t1
  let c2_i32_37 : BitVec 32 := 2#32
  let v36 : BitVec 32 := Scalar.muli arg15 c2_i32_37
  let v37 : BitVec 32 := Scalar.addi v36 c0_i32_38
  let c0_i32_47 : BitVec 32 := 0#32
  ![v37.toNat, 0]
@[reducible] def k2_t2_loop : Scf.Loop 32 :=
  let c1_i32_84 : BitVec 32 := 1#32
  let c31_i32 : BitVec 32 := 31#32
  let v92 : BitVec 32 := Scalar.addi c1_i32_84 c31_i32
  let c1_i32_85 : BitVec 32 := 1#32
  ⟨c1_i32_84, v92, c1_i32_85⟩
def k2_off6 (k2_t2 : Fin k2_t2_loop.trips) : Fin 2 → Nat :=
  let c0_i32_647 : BitVec 32 := 0#32
  let c1_i32_84 : BitVec 32 := 1#32
  let c1_i32_85 : BitVec 32 := 1#32
  let arg16 : BitVec 32 := Scf.iv c1_i32_84 c1_i32_85 k2_t2
  let v764 : BitVec 32 := Scalar.addi c0_i32_647 arg16
  let v767 : Index := Scalar.indexCast v764
  let c0_650 : Index := 0#32
  ![v767.toNat, 0]
def k2_off7 (k2_t2 : Fin k2_t2_loop.trips) : Fin 2 → Nat :=
  let c0_i32_651 : BitVec 32 := 0#32
  let c1_i32_84 : BitVec 32 := 1#32
  let c1_i32_85 : BitVec 32 := 1#32
  let arg16 : BitVec 32 := Scf.iv c1_i32_84 c1_i32_85 k2_t2
  let v771 : BitVec 32 := Scalar.addi c0_i32_651 arg16
  let v774 : Index := Scalar.indexCast v771
  let c16_654 : Index := 16#32
  ![v774.toNat, 16]
def k2_off8 (k2_t2 : Fin k2_t2_loop.trips) : Fin 2 → Nat :=
  let c0_i32_655 : BitVec 32 := 0#32
  let c1_i32_84 : BitVec 32 := 1#32
  let c1_i32_85 : BitVec 32 := 1#32
  let arg16 : BitVec 32 := Scf.iv c1_i32_84 c1_i32_85 k2_t2
  let v778 : BitVec 32 := Scalar.addi c0_i32_655 arg16
  let v781 : Index := Scalar.indexCast v778
  let c32_658 : Index := 32#32
  ![v781.toNat, 32]
def k2_off9 (k2_t2 : Fin k2_t2_loop.trips) : Fin 2 → Nat :=
  let c0_i32_659 : BitVec 32 := 0#32
  let c1_i32_84 : BitVec 32 := 1#32
  let c1_i32_85 : BitVec 32 := 1#32
  let arg16 : BitVec 32 := Scf.iv c1_i32_84 c1_i32_85 k2_t2
  let v785 : BitVec 32 := Scalar.addi c0_i32_659 arg16
  let v788 : Index := Scalar.indexCast v785
  let c48_662 : Index := 48#32
  ![v788.toNat, 48]
def k2_off10 (k2_t2 : Fin k2_t2_loop.trips) : Fin 2 → Nat :=
  let c0_i32_663 : BitVec 32 := 0#32
  let c1_i32_84 : BitVec 32 := 1#32
  let c1_i32_85 : BitVec 32 := 1#32
  let arg16 : BitVec 32 := Scf.iv c1_i32_84 c1_i32_85 k2_t2
  let v792 : BitVec 32 := Scalar.addi c0_i32_663 arg16
  let v795 : Index := Scalar.indexCast v792
  let c64_666 : Index := 64#32
  ![v795.toNat, 64]
def k2_off11 (k2_t2 : Fin k2_t2_loop.trips) : Fin 2 → Nat :=
  let c0_i32_667 : BitVec 32 := 0#32
  let c1_i32_84 : BitVec 32 := 1#32
  let c1_i32_85 : BitVec 32 := 1#32
  let arg16 : BitVec 32 := Scf.iv c1_i32_84 c1_i32_85 k2_t2
  let v799 : BitVec 32 := Scalar.addi c0_i32_667 arg16
  let v802 : Index := Scalar.indexCast v799
  let c80_670 : Index := 80#32
  ![v802.toNat, 80]
def k2_off12 (k2_t2 : Fin k2_t2_loop.trips) : Fin 2 → Nat :=
  let c0_i32_671 : BitVec 32 := 0#32
  let c1_i32_84 : BitVec 32 := 1#32
  let c1_i32_85 : BitVec 32 := 1#32
  let arg16 : BitVec 32 := Scf.iv c1_i32_84 c1_i32_85 k2_t2
  let v806 : BitVec 32 := Scalar.addi c0_i32_671 arg16
  let v809 : Index := Scalar.indexCast v806
  let c96_674 : Index := 96#32
  ![v809.toNat, 96]
def k2_off13 (k2_t2 : Fin k2_t2_loop.trips) : Fin 2 → Nat :=
  let c0_i32_675 : BitVec 32 := 0#32
  let c1_i32_84 : BitVec 32 := 1#32
  let c1_i32_85 : BitVec 32 := 1#32
  let arg16 : BitVec 32 := Scf.iv c1_i32_84 c1_i32_85 k2_t2
  let v813 : BitVec 32 := Scalar.addi c0_i32_675 arg16
  let v816 : Index := Scalar.indexCast v813
  let c112_678 : Index := 112#32
  ![v816.toNat, 112]
@[reducible] def k2_t3_loop : Scf.Loop 32 :=
  let c1_i32_151 : BitVec 32 := 1#32
  let c31_i32_152 : BitVec 32 := 31#32
  let v174 : BitVec 32 := Scalar.addi c1_i32_151 c31_i32_152
  let c1_i32_153 : BitVec 32 := 1#32
  ⟨c1_i32_151, v174, c1_i32_153⟩
def k2_off14 (k2_t3 : Fin k2_t3_loop.trips) : Fin 2 → Nat :=
  let c32_i32_647 : BitVec 32 := 32#32
  let c1_i32_151 : BitVec 32 := 1#32
  let c1_i32_153 : BitVec 32 := 1#32
  let arg16 : BitVec 32 := Scf.iv c1_i32_151 c1_i32_153 k2_t3
  let v764 : BitVec 32 := Scalar.addi c32_i32_647 arg16
  let v767 : Index := Scalar.indexCast v764
  let c0_650 : Index := 0#32
  ![v767.toNat, 0]
def k2_off15 (k2_t3 : Fin k2_t3_loop.trips) : Fin 2 → Nat :=
  let c32_i32_651 : BitVec 32 := 32#32
  let c1_i32_151 : BitVec 32 := 1#32
  let c1_i32_153 : BitVec 32 := 1#32
  let arg16 : BitVec 32 := Scf.iv c1_i32_151 c1_i32_153 k2_t3
  let v771 : BitVec 32 := Scalar.addi c32_i32_651 arg16
  let v774 : Index := Scalar.indexCast v771
  let c16_654 : Index := 16#32
  ![v774.toNat, 16]
def k2_off16 (k2_t3 : Fin k2_t3_loop.trips) : Fin 2 → Nat :=
  let c32_i32_655 : BitVec 32 := 32#32
  let c1_i32_151 : BitVec 32 := 1#32
  let c1_i32_153 : BitVec 32 := 1#32
  let arg16 : BitVec 32 := Scf.iv c1_i32_151 c1_i32_153 k2_t3
  let v778 : BitVec 32 := Scalar.addi c32_i32_655 arg16
  let v781 : Index := Scalar.indexCast v778
  let c32_658 : Index := 32#32
  ![v781.toNat, 32]
def k2_off17 (k2_t3 : Fin k2_t3_loop.trips) : Fin 2 → Nat :=
  let c32_i32_659 : BitVec 32 := 32#32
  let c1_i32_151 : BitVec 32 := 1#32
  let c1_i32_153 : BitVec 32 := 1#32
  let arg16 : BitVec 32 := Scf.iv c1_i32_151 c1_i32_153 k2_t3
  let v785 : BitVec 32 := Scalar.addi c32_i32_659 arg16
  let v788 : Index := Scalar.indexCast v785
  let c48_662 : Index := 48#32
  ![v788.toNat, 48]
def k2_off18 (k2_t3 : Fin k2_t3_loop.trips) : Fin 2 → Nat :=
  let c32_i32_663 : BitVec 32 := 32#32
  let c1_i32_151 : BitVec 32 := 1#32
  let c1_i32_153 : BitVec 32 := 1#32
  let arg16 : BitVec 32 := Scf.iv c1_i32_151 c1_i32_153 k2_t3
  let v792 : BitVec 32 := Scalar.addi c32_i32_663 arg16
  let v795 : Index := Scalar.indexCast v792
  let c64_666 : Index := 64#32
  ![v795.toNat, 64]
def k2_off19 (k2_t3 : Fin k2_t3_loop.trips) : Fin 2 → Nat :=
  let c32_i32_667 : BitVec 32 := 32#32
  let c1_i32_151 : BitVec 32 := 1#32
  let c1_i32_153 : BitVec 32 := 1#32
  let arg16 : BitVec 32 := Scf.iv c1_i32_151 c1_i32_153 k2_t3
  let v799 : BitVec 32 := Scalar.addi c32_i32_667 arg16
  let v802 : Index := Scalar.indexCast v799
  let c80_670 : Index := 80#32
  ![v802.toNat, 80]
def k2_off20 (k2_t3 : Fin k2_t3_loop.trips) : Fin 2 → Nat :=
  let c32_i32_671 : BitVec 32 := 32#32
  let c1_i32_151 : BitVec 32 := 1#32
  let c1_i32_153 : BitVec 32 := 1#32
  let arg16 : BitVec 32 := Scf.iv c1_i32_151 c1_i32_153 k2_t3
  let v806 : BitVec 32 := Scalar.addi c32_i32_671 arg16
  let v809 : Index := Scalar.indexCast v806
  let c96_674 : Index := 96#32
  ![v809.toNat, 96]
def k2_off21 (k2_t3 : Fin k2_t3_loop.trips) : Fin 2 → Nat :=
  let c32_i32_675 : BitVec 32 := 32#32
  let c1_i32_151 : BitVec 32 := 1#32
  let c1_i32_153 : BitVec 32 := 1#32
  let arg16 : BitVec 32 := Scf.iv c1_i32_151 c1_i32_153 k2_t3
  let v813 : BitVec 32 := Scalar.addi c32_i32_675 arg16
  let v816 : Index := Scalar.indexCast v813
  let c112_678 : Index := 112#32
  ![v816.toNat, 112]
def k2_cond3 (k2_t1 : Fin k2_t1_loop.trips) : BitVec 1 :=
  let c0_i32_19 : BitVec 32 := 0#32
  let c1_i32_20 : BitVec 32 := 1#32
  let arg15 : BitVec 32 := Scf.iv c0_i32_19 c1_i32_20 k2_t1
  let c2_i32_37 : BitVec 32 := 2#32
  let v36 : BitVec 32 := Scalar.muli arg15 c2_i32_37
  let c0_i32_38 : BitVec 32 := 0#32
  let v37 : BitVec 32 := Scalar.addi v36 c0_i32_38
  let c2_i32_179 : BitVec 32 := 2#32
  let v216 : BitVec 32 := Scalar.muli v37 c2_i32_179
  let c1_i32_180 : BitVec 32 := 1#32
  let v217 : BitVec 32 := Scalar.addi v216 c1_i32_180
  let c3_i32_181 : BitVec 32 := 3#32
  let v218 : BitVec 32 := Scalar.addi v217 c3_i32_181
  let c160_i32_182 : BitVec 32 := 160#32
  let v219 : BitVec 1 := Scalar.cmpi .slt v218 c160_i32_182
  let v220 : BitVec 32 := Scalar.extui v219
  let c0_i32_183 : BitVec 32 := 0#32
  let v221 : BitVec 1 := Scalar.cmpi .ne v220 c0_i32_183
  v221

def k2_off22 (k2_t1 : Fin k2_t1_loop.trips) : Fin 2 → Nat :=
  let c0_i32_19 : BitVec 32 := 0#32
  let c1_i32_20 : BitVec 32 := 1#32
  let arg15 : BitVec 32 := Scf.iv c0_i32_19 c1_i32_20 k2_t1
  let c2_i32_647 : BitVec 32 := 2#32
  let v764 : BitVec 32 := Scalar.muli arg15 c2_i32_647
  let c2_i32_648 : BitVec 32 := 2#32
  let v765 : BitVec 32 := Scalar.addi v764 c2_i32_648
  let c0_i32_652 : BitVec 32 := 0#32
  ![v765.toNat, 0]
def k2_off23 (k2_t1 : Fin k2_t1_loop.trips) (c0_i32_38 : BitVec 32) : Fin 2 → Nat :=
  let c0_i32_19 : BitVec 32 := 0#32
  let c1_i32_20 : BitVec 32 := 1#32
  let arg15 : BitVec 32 := Scf.iv c0_i32_19 c1_i32_20 k2_t1
  let c2_i32_37 : BitVec 32 := 2#32
  let v36 : BitVec 32 := Scalar.muli arg15 c2_i32_37
  let v37 : BitVec 32 := Scalar.addi v36 c0_i32_38
  let c64_i32_187 : BitVec 32 := 64#32
  ![v37.toNat, 64]
@[reducible] def k2_t4_loop : Scf.Loop 32 :=
  let c1_i32_231 : BitVec 32 := 1#32
  let c31_i32_232 : BitVec 32 := 31#32
  let v267 : BitVec 32 := Scalar.addi c1_i32_231 c31_i32_232
  let c1_i32_233 : BitVec 32 := 1#32
  ⟨c1_i32_231, v267, c1_i32_233⟩
def k2_off24 (k2_t4 : Fin k2_t4_loop.trips) : Fin 2 → Nat :=
  let c0_i32_647 : BitVec 32 := 0#32
  let c1_i32_231 : BitVec 32 := 1#32
  let c1_i32_233 : BitVec 32 := 1#32
  let arg16 : BitVec 32 := Scf.iv c1_i32_231 c1_i32_233 k2_t4
  let v764 : BitVec 32 := Scalar.addi c0_i32_647 arg16
  let v767 : Index := Scalar.indexCast v764
  let c0_650 : Index := 0#32
  ![v767.toNat, 0]
def k2_off25 (k2_t4 : Fin k2_t4_loop.trips) : Fin 2 → Nat :=
  let c0_i32_651 : BitVec 32 := 0#32
  let c1_i32_231 : BitVec 32 := 1#32
  let c1_i32_233 : BitVec 32 := 1#32
  let arg16 : BitVec 32 := Scf.iv c1_i32_231 c1_i32_233 k2_t4
  let v771 : BitVec 32 := Scalar.addi c0_i32_651 arg16
  let v774 : Index := Scalar.indexCast v771
  let c16_654 : Index := 16#32
  ![v774.toNat, 16]
def k2_off26 (k2_t4 : Fin k2_t4_loop.trips) : Fin 2 → Nat :=
  let c0_i32_655 : BitVec 32 := 0#32
  let c1_i32_231 : BitVec 32 := 1#32
  let c1_i32_233 : BitVec 32 := 1#32
  let arg16 : BitVec 32 := Scf.iv c1_i32_231 c1_i32_233 k2_t4
  let v778 : BitVec 32 := Scalar.addi c0_i32_655 arg16
  let v781 : Index := Scalar.indexCast v778
  let c32_658 : Index := 32#32
  ![v781.toNat, 32]
def k2_off27 (k2_t4 : Fin k2_t4_loop.trips) : Fin 2 → Nat :=
  let c0_i32_659 : BitVec 32 := 0#32
  let c1_i32_231 : BitVec 32 := 1#32
  let c1_i32_233 : BitVec 32 := 1#32
  let arg16 : BitVec 32 := Scf.iv c1_i32_231 c1_i32_233 k2_t4
  let v785 : BitVec 32 := Scalar.addi c0_i32_659 arg16
  let v788 : Index := Scalar.indexCast v785
  let c48_662 : Index := 48#32
  ![v788.toNat, 48]
def k2_off28 (k2_t4 : Fin k2_t4_loop.trips) : Fin 2 → Nat :=
  let c0_i32_663 : BitVec 32 := 0#32
  let c1_i32_231 : BitVec 32 := 1#32
  let c1_i32_233 : BitVec 32 := 1#32
  let arg16 : BitVec 32 := Scf.iv c1_i32_231 c1_i32_233 k2_t4
  let v792 : BitVec 32 := Scalar.addi c0_i32_663 arg16
  let v795 : Index := Scalar.indexCast v792
  let c64_666 : Index := 64#32
  ![v795.toNat, 64]
def k2_off29 (k2_t4 : Fin k2_t4_loop.trips) : Fin 2 → Nat :=
  let c0_i32_667 : BitVec 32 := 0#32
  let c1_i32_231 : BitVec 32 := 1#32
  let c1_i32_233 : BitVec 32 := 1#32
  let arg16 : BitVec 32 := Scf.iv c1_i32_231 c1_i32_233 k2_t4
  let v799 : BitVec 32 := Scalar.addi c0_i32_667 arg16
  let v802 : Index := Scalar.indexCast v799
  let c80_670 : Index := 80#32
  ![v802.toNat, 80]
def k2_off30 (k2_t4 : Fin k2_t4_loop.trips) : Fin 2 → Nat :=
  let c0_i32_671 : BitVec 32 := 0#32
  let c1_i32_231 : BitVec 32 := 1#32
  let c1_i32_233 : BitVec 32 := 1#32
  let arg16 : BitVec 32 := Scf.iv c1_i32_231 c1_i32_233 k2_t4
  let v806 : BitVec 32 := Scalar.addi c0_i32_671 arg16
  let v809 : Index := Scalar.indexCast v806
  let c96_674 : Index := 96#32
  ![v809.toNat, 96]
def k2_off31 (k2_t4 : Fin k2_t4_loop.trips) : Fin 2 → Nat :=
  let c0_i32_675 : BitVec 32 := 0#32
  let c1_i32_231 : BitVec 32 := 1#32
  let c1_i32_233 : BitVec 32 := 1#32
  let arg16 : BitVec 32 := Scf.iv c1_i32_231 c1_i32_233 k2_t4
  let v813 : BitVec 32 := Scalar.addi c0_i32_675 arg16
  let v816 : Index := Scalar.indexCast v813
  let c112_678 : Index := 112#32
  ![v816.toNat, 112]
@[reducible] def k2_t5_loop : Scf.Loop 32 :=
  let c1_i32_300 : BitVec 32 := 1#32
  let c31_i32_301 : BitVec 32 := 31#32
  let v349 : BitVec 32 := Scalar.addi c1_i32_300 c31_i32_301
  let c1_i32_302 : BitVec 32 := 1#32
  ⟨c1_i32_300, v349, c1_i32_302⟩
def k2_off32 (k2_t5 : Fin k2_t5_loop.trips) : Fin 2 → Nat :=
  let c32_i32_647 : BitVec 32 := 32#32
  let c1_i32_300 : BitVec 32 := 1#32
  let c1_i32_302 : BitVec 32 := 1#32
  let arg16 : BitVec 32 := Scf.iv c1_i32_300 c1_i32_302 k2_t5
  let v764 : BitVec 32 := Scalar.addi c32_i32_647 arg16
  let v767 : Index := Scalar.indexCast v764
  let c0_650 : Index := 0#32
  ![v767.toNat, 0]
def k2_off33 (k2_t5 : Fin k2_t5_loop.trips) : Fin 2 → Nat :=
  let c32_i32_651 : BitVec 32 := 32#32
  let c1_i32_300 : BitVec 32 := 1#32
  let c1_i32_302 : BitVec 32 := 1#32
  let arg16 : BitVec 32 := Scf.iv c1_i32_300 c1_i32_302 k2_t5
  let v771 : BitVec 32 := Scalar.addi c32_i32_651 arg16
  let v774 : Index := Scalar.indexCast v771
  let c16_654 : Index := 16#32
  ![v774.toNat, 16]
def k2_off34 (k2_t5 : Fin k2_t5_loop.trips) : Fin 2 → Nat :=
  let c32_i32_655 : BitVec 32 := 32#32
  let c1_i32_300 : BitVec 32 := 1#32
  let c1_i32_302 : BitVec 32 := 1#32
  let arg16 : BitVec 32 := Scf.iv c1_i32_300 c1_i32_302 k2_t5
  let v778 : BitVec 32 := Scalar.addi c32_i32_655 arg16
  let v781 : Index := Scalar.indexCast v778
  let c32_658 : Index := 32#32
  ![v781.toNat, 32]
def k2_off35 (k2_t5 : Fin k2_t5_loop.trips) : Fin 2 → Nat :=
  let c32_i32_659 : BitVec 32 := 32#32
  let c1_i32_300 : BitVec 32 := 1#32
  let c1_i32_302 : BitVec 32 := 1#32
  let arg16 : BitVec 32 := Scf.iv c1_i32_300 c1_i32_302 k2_t5
  let v785 : BitVec 32 := Scalar.addi c32_i32_659 arg16
  let v788 : Index := Scalar.indexCast v785
  let c48_662 : Index := 48#32
  ![v788.toNat, 48]
def k2_off36 (k2_t5 : Fin k2_t5_loop.trips) : Fin 2 → Nat :=
  let c32_i32_663 : BitVec 32 := 32#32
  let c1_i32_300 : BitVec 32 := 1#32
  let c1_i32_302 : BitVec 32 := 1#32
  let arg16 : BitVec 32 := Scf.iv c1_i32_300 c1_i32_302 k2_t5
  let v792 : BitVec 32 := Scalar.addi c32_i32_663 arg16
  let v795 : Index := Scalar.indexCast v792
  let c64_666 : Index := 64#32
  ![v795.toNat, 64]
def k2_off37 (k2_t5 : Fin k2_t5_loop.trips) : Fin 2 → Nat :=
  let c32_i32_667 : BitVec 32 := 32#32
  let c1_i32_300 : BitVec 32 := 1#32
  let c1_i32_302 : BitVec 32 := 1#32
  let arg16 : BitVec 32 := Scf.iv c1_i32_300 c1_i32_302 k2_t5
  let v799 : BitVec 32 := Scalar.addi c32_i32_667 arg16
  let v802 : Index := Scalar.indexCast v799
  let c80_670 : Index := 80#32
  ![v802.toNat, 80]
def k2_off38 (k2_t5 : Fin k2_t5_loop.trips) : Fin 2 → Nat :=
  let c32_i32_671 : BitVec 32 := 32#32
  let c1_i32_300 : BitVec 32 := 1#32
  let c1_i32_302 : BitVec 32 := 1#32
  let arg16 : BitVec 32 := Scf.iv c1_i32_300 c1_i32_302 k2_t5
  let v806 : BitVec 32 := Scalar.addi c32_i32_671 arg16
  let v809 : Index := Scalar.indexCast v806
  let c96_674 : Index := 96#32
  ![v809.toNat, 96]
def k2_off39 (k2_t5 : Fin k2_t5_loop.trips) : Fin 2 → Nat :=
  let c32_i32_675 : BitVec 32 := 32#32
  let c1_i32_300 : BitVec 32 := 1#32
  let c1_i32_302 : BitVec 32 := 1#32
  let arg16 : BitVec 32 := Scf.iv c1_i32_300 c1_i32_302 k2_t5
  let v813 : BitVec 32 := Scalar.addi c32_i32_675 arg16
  let v816 : Index := Scalar.indexCast v813
  let c112_678 : Index := 112#32
  ![v816.toNat, 112]
def k2_off40 (i : grid2.Coords) (k2_t1 : Fin k2_t1_loop.trips) (c0_i32_38 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c320_i32_328 : BitVec 32 := 320#32
  let v391 : BitVec 32 := Scalar.muli v1 c320_i32_328
  let c0_i32_19 : BitVec 32 := 0#32
  let c1_i32_20 : BitVec 32 := 1#32
  let arg15 : BitVec 32 := Scf.iv c0_i32_19 c1_i32_20 k2_t1
  let c2_i32_37 : BitVec 32 := 2#32
  let v36 : BitVec 32 := Scalar.muli arg15 c2_i32_37
  let v37 : BitVec 32 := Scalar.addi v36 c0_i32_38
  let c4_i32 : BitVec 32 := 4#32
  let v392 : BitVec 32 := Scalar.muli v37 c4_i32
  let v393 : BitVec 32 := Scalar.addi v391 v392
  let c0_i32_332 : BitVec 32 := 0#32
  ![v393.toNat, 0]
def k2_cond4 (k2_t1 : Fin k2_t1_loop.trips) : BitVec 1 :=
  let c0_i32_19 : BitVec 32 := 0#32
  let c1_i32_20 : BitVec 32 := 1#32
  let arg15 : BitVec 32 := Scf.iv c0_i32_19 c1_i32_20 k2_t1
  let c2_i32_336 : BitVec 32 := 2#32
  let v400 : BitVec 32 := Scalar.muli arg15 c2_i32_336
  let c1_i32_337 : BitVec 32 := 1#32
  let v401 : BitVec 32 := Scalar.addi v400 c1_i32_337
  let c2_i32_338 : BitVec 32 := 2#32
  let v402 : BitVec 1 := Scalar.cmpi .sge v401 c2_i32_338
  let v403 : BitVec 32 := Scalar.extui v402
  let c0_i32_339 : BitVec 32 := 0#32
  let v404 : BitVec 1 := Scalar.cmpi .ne v403 c0_i32_339
  v404

def k2_off41 (i : grid2.Coords) (k2_t1 : Fin k2_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c320_i32_648 : BitVec 32 := 320#32
  let v765 : BitVec 32 := Scalar.muli v1 c320_i32_648
  let c0_i32_19 : BitVec 32 := 0#32
  let c1_i32_20 : BitVec 32 := 1#32
  let arg15 : BitVec 32 := Scf.iv c0_i32_19 c1_i32_20 k2_t1
  let c2_i32_336 : BitVec 32 := 2#32
  let v400 : BitVec 32 := Scalar.muli arg15 c2_i32_336
  let c1_i32_337 : BitVec 32 := 1#32
  let v401 : BitVec 32 := Scalar.addi v400 c1_i32_337
  let c2_i32_647 : BitVec 32 := 2#32
  let v764 : BitVec 32 := Scalar.subi v401 c2_i32_647
  let c4_i32_649 : BitVec 32 := 4#32
  let v766 : BitVec 32 := Scalar.muli v764 c4_i32_649
  let v767 : BitVec 32 := Scalar.addi v765 v766
  let c0_i32_653 : BitVec 32 := 0#32
  ![v767.toNat, 0]
def k2_cond5 (k2_t1 : Fin k2_t1_loop.trips) : BitVec 1 :=
  let c0_i32_19 : BitVec 32 := 0#32
  let c1_i32_20 : BitVec 32 := 1#32
  let arg15 : BitVec 32 := Scf.iv c0_i32_19 c1_i32_20 k2_t1
  let c2_i32_336 : BitVec 32 := 2#32
  let v400 : BitVec 32 := Scalar.muli arg15 c2_i32_336
  let c1_i32_337 : BitVec 32 := 1#32
  let v401 : BitVec 32 := Scalar.addi v400 c1_i32_337
  let c2_i32_340 : BitVec 32 := 2#32
  let v405 : BitVec 32 := Scalar.muli v401 c2_i32_340
  let c0_i32_341 : BitVec 32 := 0#32
  let v406 : BitVec 32 := Scalar.addi v405 c0_i32_341
  let c3_i32_342 : BitVec 32 := 3#32
  let v407 : BitVec 32 := Scalar.addi v406 c3_i32_342
  let c160_i32_343 : BitVec 32 := 160#32
  let v408 : BitVec 1 := Scalar.cmpi .slt v407 c160_i32_343
  let v409 : BitVec 32 := Scalar.extui v408
  let c0_i32_344 : BitVec 32 := 0#32
  let v410 : BitVec 1 := Scalar.cmpi .ne v409 c0_i32_344
  v410

def k2_off42 (k2_t1 : Fin k2_t1_loop.trips) : Fin 2 → Nat :=
  let c0_i32_19 : BitVec 32 := 0#32
  let c1_i32_20 : BitVec 32 := 1#32
  let arg15 : BitVec 32 := Scf.iv c0_i32_19 c1_i32_20 k2_t1
  let c2_i32_647 : BitVec 32 := 2#32
  let v764 : BitVec 32 := Scalar.muli arg15 c2_i32_647
  let c2_i32_648 : BitVec 32 := 2#32
  let v765 : BitVec 32 := Scalar.addi v764 c2_i32_648
  let c64_i32_652 : BitVec 32 := 64#32
  ![v765.toNat, 64]
@[reducible] def k2_t6_loop : Scf.Loop 32 :=
  let c1_i32_392 : BitVec 32 := 1#32
  let c31_i32_393 : BitVec 32 := 31#32
  let v456 : BitVec 32 := Scalar.addi c1_i32_392 c31_i32_393
  let c1_i32_394 : BitVec 32 := 1#32
  ⟨c1_i32_392, v456, c1_i32_394⟩
def k2_off43 (k2_t6 : Fin k2_t6_loop.trips) : Fin 2 → Nat :=
  let c0_i32_647 : BitVec 32 := 0#32
  let c1_i32_392 : BitVec 32 := 1#32
  let c1_i32_394 : BitVec 32 := 1#32
  let arg16 : BitVec 32 := Scf.iv c1_i32_392 c1_i32_394 k2_t6
  let v764 : BitVec 32 := Scalar.addi c0_i32_647 arg16
  let v767 : Index := Scalar.indexCast v764
  let c0_650 : Index := 0#32
  ![v767.toNat, 0]
def k2_off44 (k2_t6 : Fin k2_t6_loop.trips) : Fin 2 → Nat :=
  let c0_i32_651 : BitVec 32 := 0#32
  let c1_i32_392 : BitVec 32 := 1#32
  let c1_i32_394 : BitVec 32 := 1#32
  let arg16 : BitVec 32 := Scf.iv c1_i32_392 c1_i32_394 k2_t6
  let v771 : BitVec 32 := Scalar.addi c0_i32_651 arg16
  let v774 : Index := Scalar.indexCast v771
  let c16_654 : Index := 16#32
  ![v774.toNat, 16]
def k2_off45 (k2_t6 : Fin k2_t6_loop.trips) : Fin 2 → Nat :=
  let c0_i32_655 : BitVec 32 := 0#32
  let c1_i32_392 : BitVec 32 := 1#32
  let c1_i32_394 : BitVec 32 := 1#32
  let arg16 : BitVec 32 := Scf.iv c1_i32_392 c1_i32_394 k2_t6
  let v778 : BitVec 32 := Scalar.addi c0_i32_655 arg16
  let v781 : Index := Scalar.indexCast v778
  let c32_658 : Index := 32#32
  ![v781.toNat, 32]
def k2_off46 (k2_t6 : Fin k2_t6_loop.trips) : Fin 2 → Nat :=
  let c0_i32_659 : BitVec 32 := 0#32
  let c1_i32_392 : BitVec 32 := 1#32
  let c1_i32_394 : BitVec 32 := 1#32
  let arg16 : BitVec 32 := Scf.iv c1_i32_392 c1_i32_394 k2_t6
  let v785 : BitVec 32 := Scalar.addi c0_i32_659 arg16
  let v788 : Index := Scalar.indexCast v785
  let c48_662 : Index := 48#32
  ![v788.toNat, 48]
def k2_off47 (k2_t6 : Fin k2_t6_loop.trips) : Fin 2 → Nat :=
  let c0_i32_663 : BitVec 32 := 0#32
  let c1_i32_392 : BitVec 32 := 1#32
  let c1_i32_394 : BitVec 32 := 1#32
  let arg16 : BitVec 32 := Scf.iv c1_i32_392 c1_i32_394 k2_t6
  let v792 : BitVec 32 := Scalar.addi c0_i32_663 arg16
  let v795 : Index := Scalar.indexCast v792
  let c64_666 : Index := 64#32
  ![v795.toNat, 64]
def k2_off48 (k2_t6 : Fin k2_t6_loop.trips) : Fin 2 → Nat :=
  let c0_i32_667 : BitVec 32 := 0#32
  let c1_i32_392 : BitVec 32 := 1#32
  let c1_i32_394 : BitVec 32 := 1#32
  let arg16 : BitVec 32 := Scf.iv c1_i32_392 c1_i32_394 k2_t6
  let v799 : BitVec 32 := Scalar.addi c0_i32_667 arg16
  let v802 : Index := Scalar.indexCast v799
  let c80_670 : Index := 80#32
  ![v802.toNat, 80]
def k2_off49 (k2_t6 : Fin k2_t6_loop.trips) : Fin 2 → Nat :=
  let c0_i32_671 : BitVec 32 := 0#32
  let c1_i32_392 : BitVec 32 := 1#32
  let c1_i32_394 : BitVec 32 := 1#32
  let arg16 : BitVec 32 := Scf.iv c1_i32_392 c1_i32_394 k2_t6
  let v806 : BitVec 32 := Scalar.addi c0_i32_671 arg16
  let v809 : Index := Scalar.indexCast v806
  let c96_674 : Index := 96#32
  ![v809.toNat, 96]
def k2_off50 (k2_t6 : Fin k2_t6_loop.trips) : Fin 2 → Nat :=
  let c0_i32_675 : BitVec 32 := 0#32
  let c1_i32_392 : BitVec 32 := 1#32
  let c1_i32_394 : BitVec 32 := 1#32
  let arg16 : BitVec 32 := Scf.iv c1_i32_392 c1_i32_394 k2_t6
  let v813 : BitVec 32 := Scalar.addi c0_i32_675 arg16
  let v816 : Index := Scalar.indexCast v813
  let c112_678 : Index := 112#32
  ![v816.toNat, 112]
@[reducible] def k2_t7_loop : Scf.Loop 32 :=
  let c1_i32_461 : BitVec 32 := 1#32
  let c31_i32_462 : BitVec 32 := 31#32
  let v538 : BitVec 32 := Scalar.addi c1_i32_461 c31_i32_462
  let c1_i32_463 : BitVec 32 := 1#32
  ⟨c1_i32_461, v538, c1_i32_463⟩
def k2_off51 (k2_t7 : Fin k2_t7_loop.trips) : Fin 2 → Nat :=
  let c32_i32_647 : BitVec 32 := 32#32
  let c1_i32_461 : BitVec 32 := 1#32
  let c1_i32_463 : BitVec 32 := 1#32
  let arg16 : BitVec 32 := Scf.iv c1_i32_461 c1_i32_463 k2_t7
  let v764 : BitVec 32 := Scalar.addi c32_i32_647 arg16
  let v767 : Index := Scalar.indexCast v764
  let c0_650 : Index := 0#32
  ![v767.toNat, 0]
def k2_off52 (k2_t7 : Fin k2_t7_loop.trips) : Fin 2 → Nat :=
  let c32_i32_651 : BitVec 32 := 32#32
  let c1_i32_461 : BitVec 32 := 1#32
  let c1_i32_463 : BitVec 32 := 1#32
  let arg16 : BitVec 32 := Scf.iv c1_i32_461 c1_i32_463 k2_t7
  let v771 : BitVec 32 := Scalar.addi c32_i32_651 arg16
  let v774 : Index := Scalar.indexCast v771
  let c16_654 : Index := 16#32
  ![v774.toNat, 16]
def k2_off53 (k2_t7 : Fin k2_t7_loop.trips) : Fin 2 → Nat :=
  let c32_i32_655 : BitVec 32 := 32#32
  let c1_i32_461 : BitVec 32 := 1#32
  let c1_i32_463 : BitVec 32 := 1#32
  let arg16 : BitVec 32 := Scf.iv c1_i32_461 c1_i32_463 k2_t7
  let v778 : BitVec 32 := Scalar.addi c32_i32_655 arg16
  let v781 : Index := Scalar.indexCast v778
  let c32_658 : Index := 32#32
  ![v781.toNat, 32]
def k2_off54 (k2_t7 : Fin k2_t7_loop.trips) : Fin 2 → Nat :=
  let c32_i32_659 : BitVec 32 := 32#32
  let c1_i32_461 : BitVec 32 := 1#32
  let c1_i32_463 : BitVec 32 := 1#32
  let arg16 : BitVec 32 := Scf.iv c1_i32_461 c1_i32_463 k2_t7
  let v785 : BitVec 32 := Scalar.addi c32_i32_659 arg16
  let v788 : Index := Scalar.indexCast v785
  let c48_662 : Index := 48#32
  ![v788.toNat, 48]
def k2_off55 (k2_t7 : Fin k2_t7_loop.trips) : Fin 2 → Nat :=
  let c32_i32_663 : BitVec 32 := 32#32
  let c1_i32_461 : BitVec 32 := 1#32
  let c1_i32_463 : BitVec 32 := 1#32
  let arg16 : BitVec 32 := Scf.iv c1_i32_461 c1_i32_463 k2_t7
  let v792 : BitVec 32 := Scalar.addi c32_i32_663 arg16
  let v795 : Index := Scalar.indexCast v792
  let c64_666 : Index := 64#32
  ![v795.toNat, 64]
def k2_off56 (k2_t7 : Fin k2_t7_loop.trips) : Fin 2 → Nat :=
  let c32_i32_667 : BitVec 32 := 32#32
  let c1_i32_461 : BitVec 32 := 1#32
  let c1_i32_463 : BitVec 32 := 1#32
  let arg16 : BitVec 32 := Scf.iv c1_i32_461 c1_i32_463 k2_t7
  let v799 : BitVec 32 := Scalar.addi c32_i32_667 arg16
  let v802 : Index := Scalar.indexCast v799
  let c80_670 : Index := 80#32
  ![v802.toNat, 80]
def k2_off57 (k2_t7 : Fin k2_t7_loop.trips) : Fin 2 → Nat :=
  let c32_i32_671 : BitVec 32 := 32#32
  let c1_i32_461 : BitVec 32 := 1#32
  let c1_i32_463 : BitVec 32 := 1#32
  let arg16 : BitVec 32 := Scf.iv c1_i32_461 c1_i32_463 k2_t7
  let v806 : BitVec 32 := Scalar.addi c32_i32_671 arg16
  let v809 : Index := Scalar.indexCast v806
  let c96_674 : Index := 96#32
  ![v809.toNat, 96]
def k2_off58 (k2_t7 : Fin k2_t7_loop.trips) : Fin 2 → Nat :=
  let c32_i32_675 : BitVec 32 := 32#32
  let c1_i32_461 : BitVec 32 := 1#32
  let c1_i32_463 : BitVec 32 := 1#32
  let arg16 : BitVec 32 := Scf.iv c1_i32_461 c1_i32_463 k2_t7
  let v813 : BitVec 32 := Scalar.addi c32_i32_675 arg16
  let v816 : Index := Scalar.indexCast v813
  let c112_678 : Index := 112#32
  ![v816.toNat, 112]
def k2_cond6 (k2_t1 : Fin k2_t1_loop.trips) : BitVec 1 :=
  let c0_i32_19 : BitVec 32 := 0#32
  let c1_i32_20 : BitVec 32 := 1#32
  let arg15 : BitVec 32 := Scf.iv c0_i32_19 c1_i32_20 k2_t1
  let c2_i32_336 : BitVec 32 := 2#32
  let v400 : BitVec 32 := Scalar.muli arg15 c2_i32_336
  let c1_i32_337 : BitVec 32 := 1#32
  let v401 : BitVec 32 := Scalar.addi v400 c1_i32_337
  let c2_i32_489 : BitVec 32 := 2#32
  let v580 : BitVec 32 := Scalar.muli v401 c2_i32_489
  let c1_i32_490 : BitVec 32 := 1#32
  let v581 : BitVec 32 := Scalar.addi v580 c1_i32_490
  let c3_i32_491 : BitVec 32 := 3#32
  let v582 : BitVec 32 := Scalar.addi v581 c3_i32_491
  let c160_i32_492 : BitVec 32 := 160#32
  let v583 : BitVec 1 := Scalar.cmpi .slt v582 c160_i32_492
  let v584 : BitVec 32 := Scalar.extui v583
  let c0_i32_493 : BitVec 32 := 0#32
  let v585 : BitVec 1 := Scalar.cmpi .ne v584 c0_i32_493
  v585

def k2_off59 (k2_t1 : Fin k2_t1_loop.trips) : Fin 2 → Nat :=
  let c0_i32_19 : BitVec 32 := 0#32
  let c1_i32_20 : BitVec 32 := 1#32
  let arg15 : BitVec 32 := Scf.iv c0_i32_19 c1_i32_20 k2_t1
  let c2_i32_647 : BitVec 32 := 2#32
  let v764 : BitVec 32 := Scalar.muli arg15 c2_i32_647
  let c3_i32_648 : BitVec 32 := 3#32
  let v765 : BitVec 32 := Scalar.addi v764 c3_i32_648
  let c0_i32_652 : BitVec 32 := 0#32
  ![v765.toNat, 0]
@[reducible] def k2_t8_loop : Scf.Loop 32 :=
  let c1_i32_541 : BitVec 32 := 1#32
  let c31_i32_542 : BitVec 32 := 31#32
  let v631 : BitVec 32 := Scalar.addi c1_i32_541 c31_i32_542
  let c1_i32_543 : BitVec 32 := 1#32
  ⟨c1_i32_541, v631, c1_i32_543⟩
def k2_off60 (k2_t8 : Fin k2_t8_loop.trips) : Fin 2 → Nat :=
  let c0_i32_647 : BitVec 32 := 0#32
  let c1_i32_541 : BitVec 32 := 1#32
  let c1_i32_543 : BitVec 32 := 1#32
  let arg16 : BitVec 32 := Scf.iv c1_i32_541 c1_i32_543 k2_t8
  let v764 : BitVec 32 := Scalar.addi c0_i32_647 arg16
  let v767 : Index := Scalar.indexCast v764
  let c0_650 : Index := 0#32
  ![v767.toNat, 0]
def k2_off61 (k2_t8 : Fin k2_t8_loop.trips) : Fin 2 → Nat :=
  let c0_i32_651 : BitVec 32 := 0#32
  let c1_i32_541 : BitVec 32 := 1#32
  let c1_i32_543 : BitVec 32 := 1#32
  let arg16 : BitVec 32 := Scf.iv c1_i32_541 c1_i32_543 k2_t8
  let v771 : BitVec 32 := Scalar.addi c0_i32_651 arg16
  let v774 : Index := Scalar.indexCast v771
  let c16_654 : Index := 16#32
  ![v774.toNat, 16]
def k2_off62 (k2_t8 : Fin k2_t8_loop.trips) : Fin 2 → Nat :=
  let c0_i32_655 : BitVec 32 := 0#32
  let c1_i32_541 : BitVec 32 := 1#32
  let c1_i32_543 : BitVec 32 := 1#32
  let arg16 : BitVec 32 := Scf.iv c1_i32_541 c1_i32_543 k2_t8
  let v778 : BitVec 32 := Scalar.addi c0_i32_655 arg16
  let v781 : Index := Scalar.indexCast v778
  let c32_658 : Index := 32#32
  ![v781.toNat, 32]
def k2_off63 (k2_t8 : Fin k2_t8_loop.trips) : Fin 2 → Nat :=
  let c0_i32_659 : BitVec 32 := 0#32
  let c1_i32_541 : BitVec 32 := 1#32
  let c1_i32_543 : BitVec 32 := 1#32
  let arg16 : BitVec 32 := Scf.iv c1_i32_541 c1_i32_543 k2_t8
  let v785 : BitVec 32 := Scalar.addi c0_i32_659 arg16
  let v788 : Index := Scalar.indexCast v785
  let c48_662 : Index := 48#32
  ![v788.toNat, 48]
def k2_off64 (k2_t8 : Fin k2_t8_loop.trips) : Fin 2 → Nat :=
  let c0_i32_663 : BitVec 32 := 0#32
  let c1_i32_541 : BitVec 32 := 1#32
  let c1_i32_543 : BitVec 32 := 1#32
  let arg16 : BitVec 32 := Scf.iv c1_i32_541 c1_i32_543 k2_t8
  let v792 : BitVec 32 := Scalar.addi c0_i32_663 arg16
  let v795 : Index := Scalar.indexCast v792
  let c64_666 : Index := 64#32
  ![v795.toNat, 64]
def k2_off65 (k2_t8 : Fin k2_t8_loop.trips) : Fin 2 → Nat :=
  let c0_i32_667 : BitVec 32 := 0#32
  let c1_i32_541 : BitVec 32 := 1#32
  let c1_i32_543 : BitVec 32 := 1#32
  let arg16 : BitVec 32 := Scf.iv c1_i32_541 c1_i32_543 k2_t8
  let v799 : BitVec 32 := Scalar.addi c0_i32_667 arg16
  let v802 : Index := Scalar.indexCast v799
  let c80_670 : Index := 80#32
  ![v802.toNat, 80]
def k2_off66 (k2_t8 : Fin k2_t8_loop.trips) : Fin 2 → Nat :=
  let c0_i32_671 : BitVec 32 := 0#32
  let c1_i32_541 : BitVec 32 := 1#32
  let c1_i32_543 : BitVec 32 := 1#32
  let arg16 : BitVec 32 := Scf.iv c1_i32_541 c1_i32_543 k2_t8
  let v806 : BitVec 32 := Scalar.addi c0_i32_671 arg16
  let v809 : Index := Scalar.indexCast v806
  let c96_674 : Index := 96#32
  ![v809.toNat, 96]
def k2_off67 (k2_t8 : Fin k2_t8_loop.trips) : Fin 2 → Nat :=
  let c0_i32_675 : BitVec 32 := 0#32
  let c1_i32_541 : BitVec 32 := 1#32
  let c1_i32_543 : BitVec 32 := 1#32
  let arg16 : BitVec 32 := Scf.iv c1_i32_541 c1_i32_543 k2_t8
  let v813 : BitVec 32 := Scalar.addi c0_i32_675 arg16
  let v816 : Index := Scalar.indexCast v813
  let c112_678 : Index := 112#32
  ![v816.toNat, 112]
@[reducible] def k2_t9_loop : Scf.Loop 32 :=
  let c1_i32_610 : BitVec 32 := 1#32
  let c31_i32_611 : BitVec 32 := 31#32
  let v713 : BitVec 32 := Scalar.addi c1_i32_610 c31_i32_611
  let c1_i32_612 : BitVec 32 := 1#32
  ⟨c1_i32_610, v713, c1_i32_612⟩
def k2_off68 (k2_t9 : Fin k2_t9_loop.trips) : Fin 2 → Nat :=
  let c32_i32_647 : BitVec 32 := 32#32
  let c1_i32_610 : BitVec 32 := 1#32
  let c1_i32_612 : BitVec 32 := 1#32
  let arg16 : BitVec 32 := Scf.iv c1_i32_610 c1_i32_612 k2_t9
  let v764 : BitVec 32 := Scalar.addi c32_i32_647 arg16
  let v767 : Index := Scalar.indexCast v764
  let c0_650 : Index := 0#32
  ![v767.toNat, 0]
def k2_off69 (k2_t9 : Fin k2_t9_loop.trips) : Fin 2 → Nat :=
  let c32_i32_651 : BitVec 32 := 32#32
  let c1_i32_610 : BitVec 32 := 1#32
  let c1_i32_612 : BitVec 32 := 1#32
  let arg16 : BitVec 32 := Scf.iv c1_i32_610 c1_i32_612 k2_t9
  let v771 : BitVec 32 := Scalar.addi c32_i32_651 arg16
  let v774 : Index := Scalar.indexCast v771
  let c16_654 : Index := 16#32
  ![v774.toNat, 16]
def k2_off70 (k2_t9 : Fin k2_t9_loop.trips) : Fin 2 → Nat :=
  let c32_i32_655 : BitVec 32 := 32#32
  let c1_i32_610 : BitVec 32 := 1#32
  let c1_i32_612 : BitVec 32 := 1#32
  let arg16 : BitVec 32 := Scf.iv c1_i32_610 c1_i32_612 k2_t9
  let v778 : BitVec 32 := Scalar.addi c32_i32_655 arg16
  let v781 : Index := Scalar.indexCast v778
  let c32_658 : Index := 32#32
  ![v781.toNat, 32]
def k2_off71 (k2_t9 : Fin k2_t9_loop.trips) : Fin 2 → Nat :=
  let c32_i32_659 : BitVec 32 := 32#32
  let c1_i32_610 : BitVec 32 := 1#32
  let c1_i32_612 : BitVec 32 := 1#32
  let arg16 : BitVec 32 := Scf.iv c1_i32_610 c1_i32_612 k2_t9
  let v785 : BitVec 32 := Scalar.addi c32_i32_659 arg16
  let v788 : Index := Scalar.indexCast v785
  let c48_662 : Index := 48#32
  ![v788.toNat, 48]
def k2_off72 (k2_t9 : Fin k2_t9_loop.trips) : Fin 2 → Nat :=
  let c32_i32_663 : BitVec 32 := 32#32
  let c1_i32_610 : BitVec 32 := 1#32
  let c1_i32_612 : BitVec 32 := 1#32
  let arg16 : BitVec 32 := Scf.iv c1_i32_610 c1_i32_612 k2_t9
  let v792 : BitVec 32 := Scalar.addi c32_i32_663 arg16
  let v795 : Index := Scalar.indexCast v792
  let c64_666 : Index := 64#32
  ![v795.toNat, 64]
def k2_off73 (k2_t9 : Fin k2_t9_loop.trips) : Fin 2 → Nat :=
  let c32_i32_667 : BitVec 32 := 32#32
  let c1_i32_610 : BitVec 32 := 1#32
  let c1_i32_612 : BitVec 32 := 1#32
  let arg16 : BitVec 32 := Scf.iv c1_i32_610 c1_i32_612 k2_t9
  let v799 : BitVec 32 := Scalar.addi c32_i32_667 arg16
  let v802 : Index := Scalar.indexCast v799
  let c80_670 : Index := 80#32
  ![v802.toNat, 80]
def k2_off74 (k2_t9 : Fin k2_t9_loop.trips) : Fin 2 → Nat :=
  let c32_i32_671 : BitVec 32 := 32#32
  let c1_i32_610 : BitVec 32 := 1#32
  let c1_i32_612 : BitVec 32 := 1#32
  let arg16 : BitVec 32 := Scf.iv c1_i32_610 c1_i32_612 k2_t9
  let v806 : BitVec 32 := Scalar.addi c32_i32_671 arg16
  let v809 : Index := Scalar.indexCast v806
  let c96_674 : Index := 96#32
  ![v809.toNat, 96]
def k2_off75 (k2_t9 : Fin k2_t9_loop.trips) : Fin 2 → Nat :=
  let c32_i32_675 : BitVec 32 := 32#32
  let c1_i32_610 : BitVec 32 := 1#32
  let c1_i32_612 : BitVec 32 := 1#32
  let arg16 : BitVec 32 := Scf.iv c1_i32_610 c1_i32_612 k2_t9
  let v813 : BitVec 32 := Scalar.addi c32_i32_675 arg16
  let v816 : Index := Scalar.indexCast v813
  let c112_678 : Index := 112#32
  ![v816.toNat, 112]
def k2_off76 (i : grid2.Coords) (c312_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c320_i32 : BitVec 32 := 320#32
  let v20 : BitVec 32 := Scalar.muli v1 c320_i32
  let v21 : BitVec 32 := Scalar.addi v20 c312_i32
  let c0_i32_25 : BitVec 32 := 0#32
  ![v21.toNat, 0]
abbrev grid3 : Pipeline.Grid := .none

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S10240x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S10000x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x128x10000x1_S128x10000 : S1x128x10000x1.ShapeCasts S128x10000
  transposes_S128x10000_S10000x128_1_0 : S128x10000.Transposes [1, 0] S10000x128
  slices_S2x1x10000x32_S1x1x10000x32_0_0_0_0 : S2x1x10000x32.Slices ![0, 0, 0, 0] S1x1x10000x32
  shapeCasts_S1x1x10000x32_S10000x32 : S1x1x10000x32.ShapeCasts S10000x32
  shapeCasts_S10000x32_S320000 : S10000x32.ShapeCasts S320000
  pads_S320000_S327680_076800 : S320000.Pads (![0] : Fin 1 → Nat) ![7680] ![0] S327680
  h_S_ : 0 < S_.numel
  shapeCasts_S327680_S32x80x128 : S327680.ShapeCasts S32x80x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10240x128_S10000x128_0_0 : ∀ a, (![0, 0] : Fin 2 → Nat) a + S10000x128.size a ≤ S10240x128.size a
  slices_S128x256_S128x128_0_0 : S128x256.Slices ![0, 0] S128x128
  shapeCasts_S128x128_S128x128 : S128x128.ShapeCasts S128x128
  squeezes_S1x80x128_S80x128 : S1x80x128.Squeezes S80x128
  inb_S4x64x128_S1x64x128_0_0_0 : ∀ a, (![0, 0, 0] : Fin 3 → Nat) a + S1x64x128.size a ≤ S4x64x128.size a
  squeezes_S1x64x128_S64x128 : S1x64x128.Squeezes S64x128
  inb_S80x128_S1x64_0_0 : ∀ a, (![0, 0] : Fin 2 → Nat) a + S1x64.size a ≤ S80x128.size a
  squeezes_S1x64_S64 : S1x64.Squeezes S64
  inb_S10240x128_S10240x128_0_0 : ∀ a, (![0, 0] : Fin 2 → Nat) a + S10240x128.size a ≤ S10240x128.size a
  gathers_S10240x128_S64x128 : S10240x128.Gathers 0 S64x128
  inb_S4x64x128_S1x64x128_1_0_0 : ∀ a, (![1, 0, 0] : Fin 3 → Nat) a + S1x64x128.size a ≤ S4x64x128.size a
  inb_S80x128_S1x64_0_64 : ∀ a, (![0, 64] : Fin 2 → Nat) a + S1x64.size a ≤ S80x128.size a
  inb_S4x64x128_S1x64x128_2_0_0 : ∀ a, (![2, 0, 0] : Fin 3 → Nat) a + S1x64x128.size a ≤ S4x64x128.size a
  inb_S80x128_S1x64_1_0 : ∀ a, (![1, 0] : Fin 2 → Nat) a + S1x64.size a ≤ S80x128.size a
  inb_S2x4x128_S1x4x128_0_0_0 : ∀ a, (![0, 0, 0] : Fin 3 → Nat) a + S1x4x128.size a ≤ S2x4x128.size a
  squeezes_S1x4x128_S4x128 : S1x4x128.Squeezes S4x128
  inb_S4x64x128_S1x64x128_3_0_0 : ∀ a, (![3, 0, 0] : Fin 3 → Nat) a + S1x64x128.size a ≤ S4x64x128.size a
  inb_S64x128_S1x16_0_0 : ∀ a, (![0, 0] : Fin 2 → Nat) a + S1x16.size a ≤ S64x128.size a
  h_S1x16 : 0 < S1x16.numel
  shapeCasts_S1x16_S16 : S1x16.ShapeCasts S16
  inb_S64x128_S1x16_0_16 : ∀ a, (![0, 16] : Fin 2 → Nat) a + S1x16.size a ≤ S64x128.size a
  inb_S64x128_S1x16_0_32 : ∀ a, (![0, 32] : Fin 2 → Nat) a + S1x16.size a ≤ S64x128.size a
  inb_S64x128_S1x16_0_48 : ∀ a, (![0, 48] : Fin 2 → Nat) a + S1x16.size a ≤ S64x128.size a
  inb_S64x128_S1x16_0_64 : ∀ a, (![0, 64] : Fin 2 → Nat) a + S1x16.size a ≤ S64x128.size a
  inb_S64x128_S1x16_0_80 : ∀ a, (![0, 80] : Fin 2 → Nat) a + S1x16.size a ≤ S64x128.size a
  inb_S64x128_S1x16_0_96 : ∀ a, (![0, 96] : Fin 2 → Nat) a + S1x16.size a ≤ S64x128.size a
  inb_S64x128_S1x16_0_112 : ∀ a, (![0, 112] : Fin 2 → Nat) a + S1x16.size a ≤ S64x128.size a
  inb_S2x4x128_S1x1x16_0_0_0 : ∀ a, (![0, 0, 0] : Fin 3 → Nat) a + S1x1x16.size a ≤ S2x4x128.size a
  h_S1x1x16 : 0 < S1x1x16.numel
  shapeCasts_S1x1x16_S16 : S1x1x16.ShapeCasts S16
  shapeCasts_S16_S1x1x16 : S16.ShapeCasts S1x1x16
  inb_S2x4x128_S1x1x16_0_0_16 : ∀ a, (![0, 0, 16] : Fin 3 → Nat) a + S1x1x16.size a ≤ S2x4x128.size a
  inb_S2x4x128_S1x1x16_0_0_32 : ∀ a, (![0, 0, 32] : Fin 3 → Nat) a + S1x1x16.size a ≤ S2x4x128.size a
  inb_S2x4x128_S1x1x16_0_0_48 : ∀ a, (![0, 0, 48] : Fin 3 → Nat) a + S1x1x16.size a ≤ S2x4x128.size a
  inb_S2x4x128_S1x1x16_0_0_64 : ∀ a, (![0, 0, 64] : Fin 3 → Nat) a + S1x1x16.size a ≤ S2x4x128.size a
  inb_S2x4x128_S1x1x16_0_0_80 : ∀ a, (![0, 0, 80] : Fin 3 → Nat) a + S1x1x16.size a ≤ S2x4x128.size a
  inb_S2x4x128_S1x1x16_0_0_96 : ∀ a, (![0, 0, 96] : Fin 3 → Nat) a + S1x1x16.size a ≤ S2x4x128.size a
  inb_S2x4x128_S1x1x16_0_0_112 : ∀ a, (![0, 0, 112] : Fin 3 → Nat) a + S1x1x16.size a ≤ S2x4x128.size a
  inb_S64x128_S1x16_32_0 : ∀ a, (![32, 0] : Fin 2 → Nat) a + S1x16.size a ≤ S64x128.size a
  inb_S64x128_S1x16_32_16 : ∀ a, (![32, 16] : Fin 2 → Nat) a + S1x16.size a ≤ S64x128.size a
  inb_S64x128_S1x16_32_32 : ∀ a, (![32, 32] : Fin 2 → Nat) a + S1x16.size a ≤ S64x128.size a
  inb_S64x128_S1x16_32_48 : ∀ a, (![32, 48] : Fin 2 → Nat) a + S1x16.size a ≤ S64x128.size a
  inb_S64x128_S1x16_32_64 : ∀ a, (![32, 64] : Fin 2 → Nat) a + S1x16.size a ≤ S64x128.size a
  inb_S64x128_S1x16_32_80 : ∀ a, (![32, 80] : Fin 2 → Nat) a + S1x16.size a ≤ S64x128.size a
  inb_S64x128_S1x16_32_96 : ∀ a, (![32, 96] : Fin 2 → Nat) a + S1x16.size a ≤ S64x128.size a
  inb_S64x128_S1x16_32_112 : ∀ a, (![32, 112] : Fin 2 → Nat) a + S1x16.size a ≤ S64x128.size a
  inb_S2x4x128_S1x1x16_0_1_0 : ∀ a, (![0, 1, 0] : Fin 3 → Nat) a + S1x1x16.size a ≤ S2x4x128.size a
  inb_S2x4x128_S1x1x16_0_1_16 : ∀ a, (![0, 1, 16] : Fin 3 → Nat) a + S1x1x16.size a ≤ S2x4x128.size a
  inb_S2x4x128_S1x1x16_0_1_32 : ∀ a, (![0, 1, 32] : Fin 3 → Nat) a + S1x1x16.size a ≤ S2x4x128.size a
  inb_S2x4x128_S1x1x16_0_1_48 : ∀ a, (![0, 1, 48] : Fin 3 → Nat) a + S1x1x16.size a ≤ S2x4x128.size a
  inb_S2x4x128_S1x1x16_0_1_64 : ∀ a, (![0, 1, 64] : Fin 3 → Nat) a + S1x1x16.size a ≤ S2x4x128.size a
  inb_S2x4x128_S1x1x16_0_1_80 : ∀ a, (![0, 1, 80] : Fin 3 → Nat) a + S1x1x16.size a ≤ S2x4x128.size a
  inb_S2x4x128_S1x1x16_0_1_96 : ∀ a, (![0, 1, 96] : Fin 3 → Nat) a + S1x1x16.size a ≤ S2x4x128.size a
  inb_S2x4x128_S1x1x16_0_1_112 : ∀ a, (![0, 1, 112] : Fin 3 → Nat) a + S1x1x16.size a ≤ S2x4x128.size a
  inb_S2x4x128_S1x1x16_0_2_0 : ∀ a, (![0, 2, 0] : Fin 3 → Nat) a + S1x1x16.size a ≤ S2x4x128.size a
  inb_S2x4x128_S1x1x16_0_2_16 : ∀ a, (![0, 2, 16] : Fin 3 → Nat) a + S1x1x16.size a ≤ S2x4x128.size a
  inb_S2x4x128_S1x1x16_0_2_32 : ∀ a, (![0, 2, 32] : Fin 3 → Nat) a + S1x1x16.size a ≤ S2x4x128.size a
  inb_S2x4x128_S1x1x16_0_2_48 : ∀ a, (![0, 2, 48] : Fin 3 → Nat) a + S1x1x16.size a ≤ S2x4x128.size a
  inb_S2x4x128_S1x1x16_0_2_64 : ∀ a, (![0, 2, 64] : Fin 3 → Nat) a + S1x1x16.size a ≤ S2x4x128.size a
  inb_S2x4x128_S1x1x16_0_2_80 : ∀ a, (![0, 2, 80] : Fin 3 → Nat) a + S1x1x16.size a ≤ S2x4x128.size a
  inb_S2x4x128_S1x1x16_0_2_96 : ∀ a, (![0, 2, 96] : Fin 3 → Nat) a + S1x1x16.size a ≤ S2x4x128.size a
  inb_S2x4x128_S1x1x16_0_2_112 : ∀ a, (![0, 2, 112] : Fin 3 → Nat) a + S1x1x16.size a ≤ S2x4x128.size a
  inb_S2x4x128_S1x1x16_0_3_0 : ∀ a, (![0, 3, 0] : Fin 3 → Nat) a + S1x1x16.size a ≤ S2x4x128.size a
  inb_S2x4x128_S1x1x16_0_3_16 : ∀ a, (![0, 3, 16] : Fin 3 → Nat) a + S1x1x16.size a ≤ S2x4x128.size a
  inb_S2x4x128_S1x1x16_0_3_32 : ∀ a, (![0, 3, 32] : Fin 3 → Nat) a + S1x1x16.size a ≤ S2x4x128.size a
  inb_S2x4x128_S1x1x16_0_3_48 : ∀ a, (![0, 3, 48] : Fin 3 → Nat) a + S1x1x16.size a ≤ S2x4x128.size a
  inb_S2x4x128_S1x1x16_0_3_64 : ∀ a, (![0, 3, 64] : Fin 3 → Nat) a + S1x1x16.size a ≤ S2x4x128.size a
  inb_S2x4x128_S1x1x16_0_3_80 : ∀ a, (![0, 3, 80] : Fin 3 → Nat) a + S1x1x16.size a ≤ S2x4x128.size a
  inb_S2x4x128_S1x1x16_0_3_96 : ∀ a, (![0, 3, 96] : Fin 3 → Nat) a + S1x1x16.size a ≤ S2x4x128.size a
  inb_S2x4x128_S1x1x16_0_3_112 : ∀ a, (![0, 3, 112] : Fin 3 → Nat) a + S1x1x16.size a ≤ S2x4x128.size a
  inb_S2x4x128_S1x4x128_1_0_0 : ∀ a, (![1, 0, 0] : Fin 3 → Nat) a + S1x4x128.size a ≤ S2x4x128.size a
  inb_S2x4x128_S1x1x16_1_0_0 : ∀ a, (![1, 0, 0] : Fin 3 → Nat) a + S1x1x16.size a ≤ S2x4x128.size a
  inb_S2x4x128_S1x1x16_1_0_16 : ∀ a, (![1, 0, 16] : Fin 3 → Nat) a + S1x1x16.size a ≤ S2x4x128.size a
  inb_S2x4x128_S1x1x16_1_0_32 : ∀ a, (![1, 0, 32] : Fin 3 → Nat) a + S1x1x16.size a ≤ S2x4x128.size a
  inb_S2x4x128_S1x1x16_1_0_48 : ∀ a, (![1, 0, 48] : Fin 3 → Nat) a + S1x1x16.size a ≤ S2x4x128.size a
  inb_S2x4x128_S1x1x16_1_0_64 : ∀ a, (![1, 0, 64] : Fin 3 → Nat) a + S1x1x16.size a ≤ S2x4x128.size a
  inb_S2x4x128_S1x1x16_1_0_80 : ∀ a, (![1, 0, 80] : Fin 3 → Nat) a + S1x1x16.size a ≤ S2x4x128.size a
  inb_S2x4x128_S1x1x16_1_0_96 : ∀ a, (![1, 0, 96] : Fin 3 → Nat) a + S1x1x16.size a ≤ S2x4x128.size a
  inb_S2x4x128_S1x1x16_1_0_112 : ∀ a, (![1, 0, 112] : Fin 3 → Nat) a + S1x1x16.size a ≤ S2x4x128.size a
  inb_S2x4x128_S1x1x16_1_1_0 : ∀ a, (![1, 1, 0] : Fin 3 → Nat) a + S1x1x16.size a ≤ S2x4x128.size a
  inb_S2x4x128_S1x1x16_1_1_16 : ∀ a, (![1, 1, 16] : Fin 3 → Nat) a + S1x1x16.size a ≤ S2x4x128.size a
  inb_S2x4x128_S1x1x16_1_1_32 : ∀ a, (![1, 1, 32] : Fin 3 → Nat) a + S1x1x16.size a ≤ S2x4x128.size a
  inb_S2x4x128_S1x1x16_1_1_48 : ∀ a, (![1, 1, 48] : Fin 3 → Nat) a + S1x1x16.size a ≤ S2x4x128.size a
  inb_S2x4x128_S1x1x16_1_1_64 : ∀ a, (![1, 1, 64] : Fin 3 → Nat) a + S1x1x16.size a ≤ S2x4x128.size a
  inb_S2x4x128_S1x1x16_1_1_80 : ∀ a, (![1, 1, 80] : Fin 3 → Nat) a + S1x1x16.size a ≤ S2x4x128.size a
  inb_S2x4x128_S1x1x16_1_1_96 : ∀ a, (![1, 1, 96] : Fin 3 → Nat) a + S1x1x16.size a ≤ S2x4x128.size a
  inb_S2x4x128_S1x1x16_1_1_112 : ∀ a, (![1, 1, 112] : Fin 3 → Nat) a + S1x1x16.size a ≤ S2x4x128.size a
  inb_S2x4x128_S1x1x16_1_2_0 : ∀ a, (![1, 2, 0] : Fin 3 → Nat) a + S1x1x16.size a ≤ S2x4x128.size a
  inb_S2x4x128_S1x1x16_1_2_16 : ∀ a, (![1, 2, 16] : Fin 3 → Nat) a + S1x1x16.size a ≤ S2x4x128.size a
  inb_S2x4x128_S1x1x16_1_2_32 : ∀ a, (![1, 2, 32] : Fin 3 → Nat) a + S1x1x16.size a ≤ S2x4x128.size a
  inb_S2x4x128_S1x1x16_1_2_48 : ∀ a, (![1, 2, 48] : Fin 3 → Nat) a + S1x1x16.size a ≤ S2x4x128.size a
  inb_S2x4x128_S1x1x16_1_2_64 : ∀ a, (![1, 2, 64] : Fin 3 → Nat) a + S1x1x16.size a ≤ S2x4x128.size a
  inb_S2x4x128_S1x1x16_1_2_80 : ∀ a, (![1, 2, 80] : Fin 3 → Nat) a + S1x1x16.size a ≤ S2x4x128.size a
  inb_S2x4x128_S1x1x16_1_2_96 : ∀ a, (![1, 2, 96] : Fin 3 → Nat) a + S1x1x16.size a ≤ S2x4x128.size a
  inb_S2x4x128_S1x1x16_1_2_112 : ∀ a, (![1, 2, 112] : Fin 3 → Nat) a + S1x1x16.size a ≤ S2x4x128.size a
  inb_S2x4x128_S1x1x16_1_3_0 : ∀ a, (![1, 3, 0] : Fin 3 → Nat) a + S1x1x16.size a ≤ S2x4x128.size a
  inb_S2x4x128_S1x1x16_1_3_16 : ∀ a, (![1, 3, 16] : Fin 3 → Nat) a + S1x1x16.size a ≤ S2x4x128.size a
  inb_S2x4x128_S1x1x16_1_3_32 : ∀ a, (![1, 3, 32] : Fin 3 → Nat) a + S1x1x16.size a ≤ S2x4x128.size a
  inb_S2x4x128_S1x1x16_1_3_48 : ∀ a, (![1, 3, 48] : Fin 3 → Nat) a + S1x1x16.size a ≤ S2x4x128.size a
  inb_S2x4x128_S1x1x16_1_3_64 : ∀ a, (![1, 3, 64] : Fin 3 → Nat) a + S1x1x16.size a ≤ S2x4x128.size a
  inb_S2x4x128_S1x1x16_1_3_80 : ∀ a, (![1, 3, 80] : Fin 3 → Nat) a + S1x1x16.size a ≤ S2x4x128.size a
  inb_S2x4x128_S1x1x16_1_3_96 : ∀ a, (![1, 3, 96] : Fin 3 → Nat) a + S1x1x16.size a ≤ S2x4x128.size a
  inb_S2x4x128_S1x1x16_1_3_112 : ∀ a, (![1, 3, 112] : Fin 3 → Nat) a + S1x1x16.size a ≤ S2x4x128.size a
  slices_S128x256_S128x128_0_128 : S128x256.Slices ![0, 128] S128x128
  transposes_S10000x128_S128x10000_1_0 : S10000x128.Transposes [1, 0] S128x10000
  shapeCasts_S128x10000_S1x128x10000x1 : S128x10000.ShapeCasts S1x128x10000x1
  dot_S10000x128_S128x128_S10000x128_1_1_0_0_n_n_wf : DotDims.WF S10000x128 S128x128 S10000x128 [1] [1] [0] [0] [] []
  hcc2_scratch4 : 8 + S_.numel ≤ 20
  hcc2_scratch5 : 9 + S_.numel ≤ 20
  hcc2_scratch6 : 10 + S_.numel ≤ 20
  hcc2_scratch7 : 11 + S_.numel ≤ 20
  hcc2_scratch8 : 12 + S_.numel ≤ 20
  hcc2_scratch9 : 13 + S_.numel ≤ 20
  hcc2_scoped0 : 14 + S_.numel ≤ 20
  hcc2_scoped1 : 15 + S_.numel ≤ 20
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage1_0 : ∀ j, (stage1_0 j).IsWhole
  hstage1_1 : ∀ j, (stage1_1 j).IsWhole
  hstage1_2 : ∀ j, (stage1_2 j).IsWhole
  hstage1_3 : ∀ j, (stage1_3 j).IsWhole
  hcore2 : grid2.bound 0 ≤ τ.nSC
  hsub2 : grid2.bound 1 ≤ τ.nSub
  k2_off1_inb : ∀ i : grid2.Coords, ∀ a, (k2_off1 i) a + S1x80x128.size a ≤ S32x80x128.size a
  k2_off2_inb : ∀ i : grid2.Coords, ∀ a, (k2_off2 i) a + S640x128.size a ≤ S10240x128.size a
  k2_t1_ok : k2_t1_loop.OK
  k2_off3_inb : ∀ (i : grid2.Coords) (k2_t1 : Fin k2_t1_loop.trips), ∀ (k2_h1 : k2_cond1 k2_t1 = 1#1), ∀ a, (k2_off3 i k2_t1) a + S4x128.size a ≤ S10240x128.size a
  k2_off4_inb : ∀ k2_t1 : Fin k2_t1_loop.trips, ∀ (k2_h2 : k2_cond2 k2_t1 = 1#1), ∀ a, (k2_off4 k2_t1) a + S1x64.size a ≤ S80x128.size a
  k2_off5_inb : ∀ k2_t1 : Fin k2_t1_loop.trips, ∀ (r : Fin 2), ∀ a, (k2_off5 k2_t1 (BitVec.ofNat 32 r.val)) a + S1x64.size a ≤ S80x128.size a
  k2_t2_ok : k2_t2_loop.OK
  k2_off6_inb : ∀ k2_t2 : Fin k2_t2_loop.trips, ∀ a, (k2_off6 k2_t2) a + S1x16.size a ≤ S64x128.size a
  k2_off7_inb : ∀ k2_t2 : Fin k2_t2_loop.trips, ∀ a, (k2_off7 k2_t2) a + S1x16.size a ≤ S64x128.size a
  k2_off8_inb : ∀ k2_t2 : Fin k2_t2_loop.trips, ∀ a, (k2_off8 k2_t2) a + S1x16.size a ≤ S64x128.size a
  k2_off9_inb : ∀ k2_t2 : Fin k2_t2_loop.trips, ∀ a, (k2_off9 k2_t2) a + S1x16.size a ≤ S64x128.size a
  k2_off10_inb : ∀ k2_t2 : Fin k2_t2_loop.trips, ∀ a, (k2_off10 k2_t2) a + S1x16.size a ≤ S64x128.size a
  k2_off11_inb : ∀ k2_t2 : Fin k2_t2_loop.trips, ∀ a, (k2_off11 k2_t2) a + S1x16.size a ≤ S64x128.size a
  k2_off12_inb : ∀ k2_t2 : Fin k2_t2_loop.trips, ∀ a, (k2_off12 k2_t2) a + S1x16.size a ≤ S64x128.size a
  k2_off13_inb : ∀ k2_t2 : Fin k2_t2_loop.trips, ∀ a, (k2_off13 k2_t2) a + S1x16.size a ≤ S64x128.size a
  k2_t3_ok : k2_t3_loop.OK
  k2_off14_inb : ∀ k2_t3 : Fin k2_t3_loop.trips, ∀ a, (k2_off14 k2_t3) a + S1x16.size a ≤ S64x128.size a
  k2_off15_inb : ∀ k2_t3 : Fin k2_t3_loop.trips, ∀ a, (k2_off15 k2_t3) a + S1x16.size a ≤ S64x128.size a
  k2_off16_inb : ∀ k2_t3 : Fin k2_t3_loop.trips, ∀ a, (k2_off16 k2_t3) a + S1x16.size a ≤ S64x128.size a
  k2_off17_inb : ∀ k2_t3 : Fin k2_t3_loop.trips, ∀ a, (k2_off17 k2_t3) a + S1x16.size a ≤ S64x128.size a
  k2_off18_inb : ∀ k2_t3 : Fin k2_t3_loop.trips, ∀ a, (k2_off18 k2_t3) a + S1x16.size a ≤ S64x128.size a
  k2_off19_inb : ∀ k2_t3 : Fin k2_t3_loop.trips, ∀ a, (k2_off19 k2_t3) a + S1x16.size a ≤ S64x128.size a
  k2_off20_inb : ∀ k2_t3 : Fin k2_t3_loop.trips, ∀ a, (k2_off20 k2_t3) a + S1x16.size a ≤ S64x128.size a
  k2_off21_inb : ∀ k2_t3 : Fin k2_t3_loop.trips, ∀ a, (k2_off21 k2_t3) a + S1x16.size a ≤ S64x128.size a
  k2_off22_inb : ∀ k2_t1 : Fin k2_t1_loop.trips, ∀ (k2_h3 : k2_cond3 k2_t1 = 1#1), ∀ a, (k2_off22 k2_t1) a + S1x64.size a ≤ S80x128.size a
  k2_off23_inb : ∀ k2_t1 : Fin k2_t1_loop.trips, ∀ (r : Fin 2), ∀ a, (k2_off23 k2_t1 (BitVec.ofNat 32 r.val)) a + S1x64.size a ≤ S80x128.size a
  k2_t4_ok : k2_t4_loop.OK
  k2_off24_inb : ∀ k2_t4 : Fin k2_t4_loop.trips, ∀ a, (k2_off24 k2_t4) a + S1x16.size a ≤ S64x128.size a
  k2_off25_inb : ∀ k2_t4 : Fin k2_t4_loop.trips, ∀ a, (k2_off25 k2_t4) a + S1x16.size a ≤ S64x128.size a
  k2_off26_inb : ∀ k2_t4 : Fin k2_t4_loop.trips, ∀ a, (k2_off26 k2_t4) a + S1x16.size a ≤ S64x128.size a
  k2_off27_inb : ∀ k2_t4 : Fin k2_t4_loop.trips, ∀ a, (k2_off27 k2_t4) a + S1x16.size a ≤ S64x128.size a
  k2_off28_inb : ∀ k2_t4 : Fin k2_t4_loop.trips, ∀ a, (k2_off28 k2_t4) a + S1x16.size a ≤ S64x128.size a
  k2_off29_inb : ∀ k2_t4 : Fin k2_t4_loop.trips, ∀ a, (k2_off29 k2_t4) a + S1x16.size a ≤ S64x128.size a
  k2_off30_inb : ∀ k2_t4 : Fin k2_t4_loop.trips, ∀ a, (k2_off30 k2_t4) a + S1x16.size a ≤ S64x128.size a
  k2_off31_inb : ∀ k2_t4 : Fin k2_t4_loop.trips, ∀ a, (k2_off31 k2_t4) a + S1x16.size a ≤ S64x128.size a
  k2_t5_ok : k2_t5_loop.OK
  k2_off32_inb : ∀ k2_t5 : Fin k2_t5_loop.trips, ∀ a, (k2_off32 k2_t5) a + S1x16.size a ≤ S64x128.size a
  k2_off33_inb : ∀ k2_t5 : Fin k2_t5_loop.trips, ∀ a, (k2_off33 k2_t5) a + S1x16.size a ≤ S64x128.size a
  k2_off34_inb : ∀ k2_t5 : Fin k2_t5_loop.trips, ∀ a, (k2_off34 k2_t5) a + S1x16.size a ≤ S64x128.size a
  k2_off35_inb : ∀ k2_t5 : Fin k2_t5_loop.trips, ∀ a, (k2_off35 k2_t5) a + S1x16.size a ≤ S64x128.size a
  k2_off36_inb : ∀ k2_t5 : Fin k2_t5_loop.trips, ∀ a, (k2_off36 k2_t5) a + S1x16.size a ≤ S64x128.size a
  k2_off37_inb : ∀ k2_t5 : Fin k2_t5_loop.trips, ∀ a, (k2_off37 k2_t5) a + S1x16.size a ≤ S64x128.size a
  k2_off38_inb : ∀ k2_t5 : Fin k2_t5_loop.trips, ∀ a, (k2_off38 k2_t5) a + S1x16.size a ≤ S64x128.size a
  k2_off39_inb : ∀ k2_t5 : Fin k2_t5_loop.trips, ∀ a, (k2_off39 k2_t5) a + S1x16.size a ≤ S64x128.size a
  k2_off40_inb : ∀ (i : grid2.Coords) (k2_t1 : Fin k2_t1_loop.trips), ∀ (r : Fin 2), ∀ a, (k2_off40 i k2_t1 (BitVec.ofNat 32 r.val)) a + S4x128.size a ≤ S10240x128.size a
  k2_off41_inb : ∀ (i : grid2.Coords) (k2_t1 : Fin k2_t1_loop.trips), ∀ (k2_h4 : k2_cond4 k2_t1 = 1#1), ∀ a, (k2_off41 i k2_t1) a + S4x128.size a ≤ S10240x128.size a
  k2_off42_inb : ∀ k2_t1 : Fin k2_t1_loop.trips, ∀ (k2_h5 : k2_cond5 k2_t1 = 1#1), ∀ a, (k2_off42 k2_t1) a + S1x64.size a ≤ S80x128.size a
  k2_t6_ok : k2_t6_loop.OK
  k2_off43_inb : ∀ k2_t6 : Fin k2_t6_loop.trips, ∀ a, (k2_off43 k2_t6) a + S1x16.size a ≤ S64x128.size a
  k2_off44_inb : ∀ k2_t6 : Fin k2_t6_loop.trips, ∀ a, (k2_off44 k2_t6) a + S1x16.size a ≤ S64x128.size a
  k2_off45_inb : ∀ k2_t6 : Fin k2_t6_loop.trips, ∀ a, (k2_off45 k2_t6) a + S1x16.size a ≤ S64x128.size a
  k2_off46_inb : ∀ k2_t6 : Fin k2_t6_loop.trips, ∀ a, (k2_off46 k2_t6) a + S1x16.size a ≤ S64x128.size a
  k2_off47_inb : ∀ k2_t6 : Fin k2_t6_loop.trips, ∀ a, (k2_off47 k2_t6) a + S1x16.size a ≤ S64x128.size a
  k2_off48_inb : ∀ k2_t6 : Fin k2_t6_loop.trips, ∀ a, (k2_off48 k2_t6) a + S1x16.size a ≤ S64x128.size a
  k2_off49_inb : ∀ k2_t6 : Fin k2_t6_loop.trips, ∀ a, (k2_off49 k2_t6) a + S1x16.size a ≤ S64x128.size a
  k2_off50_inb : ∀ k2_t6 : Fin k2_t6_loop.trips, ∀ a, (k2_off50 k2_t6) a + S1x16.size a ≤ S64x128.size a
  k2_t7_ok : k2_t7_loop.OK
  k2_off51_inb : ∀ k2_t7 : Fin k2_t7_loop.trips, ∀ a, (k2_off51 k2_t7) a + S1x16.size a ≤ S64x128.size a
  k2_off52_inb : ∀ k2_t7 : Fin k2_t7_loop.trips, ∀ a, (k2_off52 k2_t7) a + S1x16.size a ≤ S64x128.size a
  k2_off53_inb : ∀ k2_t7 : Fin k2_t7_loop.trips, ∀ a, (k2_off53 k2_t7) a + S1x16.size a ≤ S64x128.size a
  k2_off54_inb : ∀ k2_t7 : Fin k2_t7_loop.trips, ∀ a, (k2_off54 k2_t7) a + S1x16.size a ≤ S64x128.size a
  k2_off55_inb : ∀ k2_t7 : Fin k2_t7_loop.trips, ∀ a, (k2_off55 k2_t7) a + S1x16.size a ≤ S64x128.size a
  k2_off56_inb : ∀ k2_t7 : Fin k2_t7_loop.trips, ∀ a, (k2_off56 k2_t7) a + S1x16.size a ≤ S64x128.size a
  k2_off57_inb : ∀ k2_t7 : Fin k2_t7_loop.trips, ∀ a, (k2_off57 k2_t7) a + S1x16.size a ≤ S64x128.size a
  k2_off58_inb : ∀ k2_t7 : Fin k2_t7_loop.trips, ∀ a, (k2_off58 k2_t7) a + S1x16.size a ≤ S64x128.size a
  k2_off59_inb : ∀ k2_t1 : Fin k2_t1_loop.trips, ∀ (k2_h6 : k2_cond6 k2_t1 = 1#1), ∀ a, (k2_off59 k2_t1) a + S1x64.size a ≤ S80x128.size a
  k2_t8_ok : k2_t8_loop.OK
  k2_off60_inb : ∀ k2_t8 : Fin k2_t8_loop.trips, ∀ a, (k2_off60 k2_t8) a + S1x16.size a ≤ S64x128.size a
  k2_off61_inb : ∀ k2_t8 : Fin k2_t8_loop.trips, ∀ a, (k2_off61 k2_t8) a + S1x16.size a ≤ S64x128.size a
  k2_off62_inb : ∀ k2_t8 : Fin k2_t8_loop.trips, ∀ a, (k2_off62 k2_t8) a + S1x16.size a ≤ S64x128.size a
  k2_off63_inb : ∀ k2_t8 : Fin k2_t8_loop.trips, ∀ a, (k2_off63 k2_t8) a + S1x16.size a ≤ S64x128.size a
  k2_off64_inb : ∀ k2_t8 : Fin k2_t8_loop.trips, ∀ a, (k2_off64 k2_t8) a + S1x16.size a ≤ S64x128.size a
  k2_off65_inb : ∀ k2_t8 : Fin k2_t8_loop.trips, ∀ a, (k2_off65 k2_t8) a + S1x16.size a ≤ S64x128.size a
  k2_off66_inb : ∀ k2_t8 : Fin k2_t8_loop.trips, ∀ a, (k2_off66 k2_t8) a + S1x16.size a ≤ S64x128.size a
  k2_off67_inb : ∀ k2_t8 : Fin k2_t8_loop.trips, ∀ a, (k2_off67 k2_t8) a + S1x16.size a ≤ S64x128.size a
  k2_t9_ok : k2_t9_loop.OK
  k2_off68_inb : ∀ k2_t9 : Fin k2_t9_loop.trips, ∀ a, (k2_off68 k2_t9) a + S1x16.size a ≤ S64x128.size a
  k2_off69_inb : ∀ k2_t9 : Fin k2_t9_loop.trips, ∀ a, (k2_off69 k2_t9) a + S1x16.size a ≤ S64x128.size a
  k2_off70_inb : ∀ k2_t9 : Fin k2_t9_loop.trips, ∀ a, (k2_off70 k2_t9) a + S1x16.size a ≤ S64x128.size a
  k2_off71_inb : ∀ k2_t9 : Fin k2_t9_loop.trips, ∀ a, (k2_off71 k2_t9) a + S1x16.size a ≤ S64x128.size a
  k2_off72_inb : ∀ k2_t9 : Fin k2_t9_loop.trips, ∀ a, (k2_off72 k2_t9) a + S1x16.size a ≤ S64x128.size a
  k2_off73_inb : ∀ k2_t9 : Fin k2_t9_loop.trips, ∀ a, (k2_off73 k2_t9) a + S1x16.size a ≤ S64x128.size a
  k2_off74_inb : ∀ k2_t9 : Fin k2_t9_loop.trips, ∀ a, (k2_off74 k2_t9) a + S1x16.size a ≤ S64x128.size a
  k2_off75_inb : ∀ k2_t9 : Fin k2_t9_loop.trips, ∀ a, (k2_off75 k2_t9) a + S1x16.size a ≤ S64x128.size a
  k2_off76_inb : ∀ i : grid2.Coords, ∀ (r : Fin 2), ∀ a, (k2_off76 i (BitVec.ofNat 32 (312 + 4 * r.val))) a + S4x128.size a ≤ S10240x128.size a
  hstage3_0 : ∀ j, (stage3_0 j).IsWhole
  hstage3_1 : ∀ j, (stage3_1 j).IsWhole
  hstage3_2 : ∀ j, (stage3_2 j).IsWhole
  hstage3_3 : ∀ j, (stage3_3 j).IsWhole

variable [Facts₀]

abbrev cc2_scratch4 : DmaSems sig S_ := SemArray.consecutive 8 S_ hcc2_scratch4
abbrev cc2_scratch5 : DmaSems sig S_ := SemArray.consecutive 9 S_ hcc2_scratch5
abbrev cc2_scratch6 : DmaSems sig S_ := SemArray.consecutive 10 S_ hcc2_scratch6
abbrev cc2_scratch7 : DmaSems sig S_ := SemArray.consecutive 11 S_ hcc2_scratch7
abbrev cc2_scratch8 : DmaSems sig S_ := SemArray.consecutive 12 S_ hcc2_scratch8
abbrev cc2_scratch9 : DmaSems sig S_ := SemArray.consecutive 13 S_ hcc2_scratch9
abbrev cc2_scoped0 : DmaSems sig S_ := SemArray.consecutive 14 S_ hcc2_scoped0
abbrev cc2_scoped1 : DmaSems sig S_ := SemArray.consecutive 15 S_ hcc2_scoped1
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf

abbrev win0_0 : Pipeline.Window sig grid0 :=
  Pipeline.Window.whole (Memref.whole main_v1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v7) false false (stage0_2 0) (sem0_2 0) (Memref.isWhole_whole _) (hstage0_2 0)

abbrev win0_3 : Pipeline.Window sig grid0 :=
  Pipeline.Window.whole (Memref.whole main_v8) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.whole (Memref.whole main_v1) false false (stage1_0 0) (sem1_0 0) (Memref.isWhole_whole _) (hstage1_0 0)

abbrev win1_1 : Pipeline.Window sig grid1 :=
  Pipeline.Window.whole (Memref.whole main_v9) false false (stage1_1 0) (sem1_1 0) (Memref.isWhole_whole _) (hstage1_1 0)

abbrev win1_2 : Pipeline.Window sig grid1 :=
  Pipeline.Window.whole (Memref.whole main_v10) false false (stage1_2 0) (sem1_2 0) (Memref.isWhole_whole _) (hstage1_2 0)

abbrev win1_3 : Pipeline.Window sig grid1 :=
  Pipeline.Window.whole (Memref.whole main_v11) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win3_0 : Pipeline.Window sig grid3 :=
  Pipeline.Window.whole (Memref.whole main_v11) false false (stage3_0 0) (sem3_0 0) (Memref.isWhole_whole _) (hstage3_0 0)

abbrev win3_1 : Pipeline.Window sig grid3 :=
  Pipeline.Window.whole (Memref.whole main_v12) false false (stage3_1 0) (sem3_1 0) (Memref.isWhole_whole _) (hstage3_1 0)

abbrev win3_2 : Pipeline.Window sig grid3 :=
  Pipeline.Window.whole (Memref.whole main_v13) false false (stage3_2 0) (sem3_2 0) (Memref.isWhole_whole _) (hstage3_2 0)

abbrev win3_3 : Pipeline.Window sig grid3 :=
  Pipeline.Window.whole (Memref.whole main_v14) true false (stage3_3 0) (sem3_3 0) (Memref.isWhole_whole _) (hstage3_3 0)

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1x128x10000x1 : Shape := ⟨4, ![1, 128, 10000, 1]⟩
abbrev S2x1x10000x32 : Shape := ⟨4, ![2, 1, 10000, 32]⟩
abbrev S128x128 : Shape := ⟨2, ![128, 128]⟩
abbrev S128 : Shape := ⟨1, ![128]⟩
abbrev S128x256 : Shape := ⟨2, ![128, 256]⟩
abbrev S1x1x10000x32 : Shape := ⟨4, ![1, 1, 10000, 32]⟩
abbrev S1x10000x32 : Shape := ⟨3, ![1, 10000, 32]⟩
abbrev S1x128x10000 : Shape := ⟨3, ![1, 128, 10000]⟩
abbrev S_ : Shape := ⟨0, ![]⟩
abbrev S1x10000x32x1 : Shape := ⟨4, ![1, 10000, 32, 1]⟩
abbrev S1 : Shape := ⟨1, ![1]⟩
abbrev S1x1x1x1 : Shape := ⟨4, ![1, 1, 1, 1]⟩
abbrev S1x128x10000x32 : Shape := ⟨4, ![1, 128, 10000, 32]⟩
abbrev S1x10000x32x128 : Shape := ⟨4, ![1, 10000, 32, 128]⟩
abbrev S1x128x1x1 : Shape := ⟨4, ![1, 128, 1, 1]⟩
abbrev S1x256x10000x1 : Shape := ⟨4, ![1, 256, 10000, 1]⟩
abbrev S1x10000x1x128 : Shape := ⟨4, ![1, 10000, 1, 128]⟩

abbrev nBuf : Space → Nat
  | .hbm => 52
  | .vmem => 0
  | .smem => 0
  | _ => 0

abbrev bufTy : (tb : Table) → Fin (tcTables nBuf tb) → BufTy
  | .hbm, ⟨0, _⟩ => ⟨S1x128x10000x1, .f32⟩
  | .hbm, ⟨1, _⟩ => ⟨S2x1x10000x32, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S1x1x10000x32, .i32⟩
  | .hbm, ⟨7, _⟩ => ⟨S1x10000x32, .i32⟩
  | .hbm, ⟨8, _⟩ => ⟨S1x128x10000, .f32⟩
  | .hbm, ⟨9, _⟩ => ⟨S_, .i32⟩
  | .hbm, ⟨10, _⟩ => ⟨S1x10000x32, .i32⟩
  | .hbm, ⟨11, _⟩ => ⟨S1x10000x32, .i1⟩
  | .hbm, ⟨12, _⟩ => ⟨S_, .i32⟩
  | .hbm, ⟨13, _⟩ => ⟨S1x10000x32, .i32⟩
  | .hbm, ⟨14, _⟩ => ⟨S1x10000x32, .i32⟩
  | .hbm, ⟨15, _⟩ => ⟨S1x10000x32, .i32⟩
  | .hbm, ⟨16, _⟩ => ⟨S1x10000x32x1, .i32⟩
  | .hbm, ⟨17, _⟩ => ⟨S1, .i32⟩
  | .hbm, ⟨18, _⟩ => ⟨S_, .i32⟩
  | .hbm, ⟨19, _⟩ => ⟨S1x10000x32x1, .i32⟩
  | .hbm, ⟨20, _⟩ => ⟨S1x10000x32x1, .i1⟩
  | .hbm, ⟨21, _⟩ => ⟨S1x1x1x1, .i32⟩
  | .hbm, ⟨22, _⟩ => ⟨S1x10000x32x1, .i32⟩
  | .hbm, ⟨23, _⟩ => ⟨S1x10000x32x1, .i1⟩
  | .hbm, ⟨24, _⟩ => ⟨S1x10000x32x1, .i1⟩
  | .hbm, ⟨25, _⟩ => ⟨S_, .i1⟩
  | .hbm, ⟨26, _⟩ => ⟨S1x10000x32, .i1⟩
  | .hbm, ⟨27, _⟩ => ⟨S1x128x10000x32, .f32⟩
  | .hbm, ⟨28, _⟩ => ⟨S1x128x10000x32, .i1⟩
  | .hbm, ⟨29, _⟩ => ⟨S_, .f32⟩
  | .hbm, ⟨30, _⟩ => ⟨S1x128x10000x32, .f32⟩
  | .hbm, ⟨31, _⟩ => ⟨S1x128x10000x32, .f32⟩
  | .hbm, ⟨32, _⟩ => ⟨S1x10000x32x128, .f32⟩
  | .hbm, ⟨33, _⟩ => ⟨S1x128x10000x32, .f32⟩
  | .hbm, ⟨34, _⟩ => ⟨S1x128x1x1, .f32⟩
  | .hbm, ⟨35, _⟩ => ⟨S1x128x10000x32, .f32⟩
  | .hbm, ⟨36, _⟩ => ⟨S1x128x10000x32, .f32⟩
  | .hbm, ⟨37, _⟩ => ⟨S_, .f32⟩
  | .hbm, ⟨38, _⟩ => ⟨S1x128x10000x32, .f32⟩
  | .hbm, ⟨39, _⟩ => ⟨S1x128x10000x32, .f32⟩
  | .hbm, ⟨40, _⟩ => ⟨S_, .f32⟩
  | .hbm, ⟨41, _⟩ => ⟨S1x128x10000, .f32⟩
  | .hbm, ⟨42, _⟩ => ⟨S1x128x10000x1, .f32⟩
  | .hbm, ⟨43, _⟩ => ⟨S1x256x10000x1, .f32⟩
  | .hbm, ⟨44, _⟩ => ⟨S1x10000x1x128, .f32⟩
  | .hbm, ⟨45, _⟩ => ⟨S1x128x10000x1, .f32⟩
  | .hbm, ⟨46, _⟩ => ⟨S1x128x1x1, .f32⟩
  | .hbm, ⟨47, _⟩ => ⟨S1x128x10000x1, .f32⟩
  | .hbm, ⟨48, _⟩ => ⟨S1x128x10000x1, .f32⟩
  | .hbm, ⟨49, _⟩ => ⟨S_, .f32⟩
  | .hbm, ⟨50, _⟩ => ⟨S1x128x10000x1, .f32⟩
  | .hbm, ⟨51, _⟩ => ⟨S1x128x10000x1, .f32⟩
  | _, _ => ⟨S1x128x10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_cst : Ref sig .tc := ⟨.hbm, 37, rfl⟩
abbrev main_call1_v0 : Ref sig .tc := ⟨.hbm, 38, rfl⟩
abbrev main_v9 : Ref sig .tc := ⟨.hbm, 39, rfl⟩
abbrev main_cst : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_call2_cst : Ref sig .tc := ⟨.hbm, 49, rfl⟩
abbrev main_call2_v0 : Ref sig .tc := ⟨.hbm, 50, rfl⟩
abbrev main_v18 : Ref sig .tc := ⟨.hbm, 51, rfl⟩

abbrev nD : Nat := 1
abbrev τ : Topo := Topo.v7x

variable {F : FTy → Type} [FloatOps F]

class Facts₀ : Prop where
  slices_S2x1x10000x32_S1x1x10000x32_0_0_0_0 : S2x1x10000x32.Slices ![0, 0, 0, 0] S1x1x10000x32
  shapeCasts_S1x1x10000x32_S1x10000x32 : S1x1x10000x32.ShapeCasts S1x10000x32
  shapeCasts_S1x128x10000x1_S1x128x10000 : S1x128x10000x1.ShapeCasts S1x128x10000
  bcast_S_S1x10000x32 : S_.BroadcastsInDim S1x10000x32 (![] : Fin 0 → Fin S1x10000x32.rank)
  bcast_S1x10000x32_S1x10000x32x1_0_1_2 : S1x10000x32.BroadcastsInDim S1x10000x32x1 (![0, 1, 2] : Fin 3 → Fin S1x10000x32x1.rank)
  bcast_S_S1x10000x32x1 : S_.BroadcastsInDim S1x10000x32x1 (![] : Fin 0 → Fin S1x10000x32x1.rank)
  bcast_S1_S1x1x1x1_3 : S1.BroadcastsInDim S1x1x1x1 (![3] : Fin 1 → Fin S1x1x1x1.rank)
  bcast_S1x1x1x1_S1x10000x32x1_0_1_2_3 : S1x1x1x1.BroadcastsInDim S1x10000x32x1 (![0, 1, 2, 3] : Fin 4 → Fin S1x10000x32x1.rank)
  reducesTo_S1x10000x32x1_S1x10000x32_d3 : S1x10000x32x1.ReducesTo [3] S1x10000x32
  h_S_ : 0 < S_.numel
  bcast_S1x10000x32_S1x128x10000x32_0_2_3 : S1x10000x32.BroadcastsInDim S1x128x10000x32 (![0, 2, 3] : Fin 3 → Fin S1x128x10000x32.rank)
  bcast_S_S1x128x10000x32 : S_.BroadcastsInDim S1x128x10000x32 (![] : Fin 0 → Fin S1x128x10000x32.rank)
  transposes_S1x10000x32x128_S1x128x10000x32_0_3_1_2 : S1x10000x32x128.Transposes [0, 3, 1, 2] S1x128x10000x32
  bcast_S128_S1x128x1x1_1 : S128.BroadcastsInDim S1x128x1x1 (![1] : Fin 1 → Fin S1x128x1x1.rank)
  bcast_S1x128x1x1_S1x128x10000x32_0_1_2_3 : S1x128x1x1.BroadcastsInDim S1x128x10000x32 (![0, 1, 2, 3] : Fin 4 → Fin S1x128x10000x32.rank)
  reducesTo_S1x128x10000x32_S1x128x10000_d3 : S1x128x10000x32.ReducesTo [3] S1x128x10000
  bcast_S1x128x10000_S1x128x10000x1_0_1_2 : S1x128x10000.BroadcastsInDim S1x128x10000x1 (![0, 1, 2] : Fin 3 → Fin S1x128x10000x1.rank)
  concatenates_S1x128x10000x1_S1x128x10000x1_S1x256x10000x1_d1 : Shape.Concatenates [S1x128x10000x1, S1x128x10000x1] S1x256x10000x1 1
  transposes_S1x10000x1x128_S1x128x10000x1_0_3_1_2 : S1x10000x1x128.Transposes [0, 3, 1, 2] S1x128x10000x1
  bcast_S1x128x1x1_S1x128x10000x1_0_1_2_3 : S1x128x1x1.BroadcastsInDim S1x128x10000x1 (![0, 1, 2, 3] : Fin 4 → Fin S1x128x10000x1.rank)
  bcast_S_S1x128x10000x1 : S_.BroadcastsInDim S1x128x10000x1 (![] : Fin 0 → Fin S1x128x10000x1.rank)
  gather_S1x128x10000_S1x10000x32x1_S1x128x10000x32_1_2_0_0_2_3_11281_wf : GatherDims.WF S1x128x10000 S1x10000x32x1 S1x128x10000x32 [1] [2] [0] [2] [0] 3 ![1, 128, 1]
  dot_S1x128x10000x32_S128x128_S1x10000x32x128_1_1_023_0_n_n_wf : DotDims.WF S1x128x10000x32 S128x128 S1x10000x32x128 [1] [1] [0, 2, 3] [0] [] []
  dot_S1x256x10000x1_S128x256_S1x10000x1x128_1_1_023_0_n_n_wf : DotDims.WF S1x256x10000x1 S128x256 S1x10000x1x128 [1] [1] [0, 2, 3] [0] [] []

variable [Facts₀]

def gather_S1x128x10000_S1x10000x32x1_S1x128x10000x32_1_2_0_0_2_3_11281 : GatherDims S1x128x10000 S1x10000x32x1 S1x128x10000x32 where
  offsetDims := [1]
  collapsedSliceDims := [2]
  operandBatchingDims := [0]
  startIndicesBatchingDims := [0]
  startIndexMap := [2]
  indexVectorDim := 3
  sliceSizes := ![1, 128, 1]
  wf := gather_S1x128x10000_S1x10000x32x1_S1x128x10000x32_1_2_0_0_2_3_11281_wf
def dot_S1x128x10000x32_S128x128_S1x10000x32x128_1_1_023_0_n_n : DotDims S1x128x10000x32 S128x128 S1x10000x32x128 where
  lhsContracting := [1]
  rhsContracting := [1]
  lhsNonContracting := [0, 2, 3]
  rhsNonContracting := [0]
  lhsBatch := []
  rhsBatch := []
  wf := dot_S1x128x10000x32_S128x128_S1x10000x32x128_1_1_023_0_n_n_wf
def dot_S1x256x10000x1_S128x256_S1x10000x1x128_1_1_023_0_n_n : DotDims S1x256x10000x1 S128x256 S1x10000x1x128 where
  lhsContracting := [1]
  rhsContracting := [1]
  lhsNonContracting := [0, 2, 3]
  rhsNonContracting := [0]
  lhsBatch := []
  rhsBatch := []
  wf := dot_S1x256x10000x1_S128x256_S1x10000x1x128_1_1_023_0_n_n_wf

class Facts : Prop extends Facts₀ where

variable [Facts]
-- ==== Proof.KI.Common.lean ====
/-
  The idealized kernel as the SparseCore launch theorem sees it: the label table of its three TensorCore pallas_calls,
  the one vector-subcore call, and the ghost state the proof uses — the launch handshakes' rounds, the subcore
  barrier cells' rounds, the TensorCore pipelines' staging cells' rounds, and the transfers' counters.
-/
import proofs.«208586_g21955872817707_cont_8to1_688_77_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.Frame
import Idealize.ShloMosaic.Lib.Tactic
import proofs.«208586_g21955872817707_cont_8to1_688_77_alg».proof.Proof.Gen.KernelIdeal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the staging cells' rounds, the counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipelines' staging cells' rounds library. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

-- the transfers' counters are found by instance
example : CountersIn UU := inferInstance

/-- The prefetched tables' admissible contents: no pallas_call has a table. -/
abbrev adm : (p : Fin 3) → (pcfgs (F := F) p).Adm := fun p => (cfgs p).toPCfg_adm

/-- What rides beside the TensorCore's unscoped buffers through a stretch of @main before SparseCore call `n`: the
    generator register at some state, and what the TensorCore owes the launch protocol, its recorded waits at or below
    level `8 n`. -/
def Rest (d : Dev nD) (n : ℕ) : sProp 𝕄 :=
  iprop((∃ r, prngReg d r) ∗ ∃ W, ⌜(K (F := F)).WBelow (T d) W (8 * n)⌝ ∗ owes (T d) ((K (F := F)).Otc d n) W)

/-- The TensorCore's arrays: every unscoped buffer of the device. -/
abbrev UC : Finset (DevRef τ sig) := Pipeline.ucRefs τ sig

end Cert.KernelIdeal.Hand

end
-- ==== Proof.KI.Main.lean ====
/-
  @main of the idealized kernel as a chain of items: stretches of host operations, the three TensorCore
  pallas_calls and the SparseCore call, in order.
-/
import proofs.«208586_g21955872817707_cont_8to1_688_77_alg».proof.Proof.KI.Common

noncomputable section

namespace Cert.KernelIdeal.Hand

open Cert.KernelIdeal Cert.KernelIdeal.Gen
open Idealize.ShloMosaic Idealize.SL.Sem

variable {F : FTy → Type} [FloatOps F]

/-- x reshaped and transposed to nodes × channels; the first slice of edge_index flattened; the pad value. -/
abbrev hostOps0a : List (HloOp τ sig (Elt F)) :=
  [ StableHlo.reshape main_arg0 main_v0 rfl shapeCasts_S1x128x10000x1_S128x10000,
    StableHlo.unary main_v0 main_v1 ((transpose S10000x128 [1, 0] · transposes_S128x10000_S10000x128_1_0) : (⟨S128x10000, .f32⟩ : BufTy).Contents (Elt F) → (⟨S10000x128, .f32⟩ : BufTy).Contents (Elt F)),
    StableHlo.unary main_arg1 main_v2 ((extractStridedSlice S1x1x10000x32 ![0, 0, 0, 0] · slices_S2x1x10000x32_S1x1x10000x32_0_0_0_0) : (⟨S2x1x10000x32, .i32⟩ : BufTy).Contents (Elt F) → (⟨S1x1x10000x32, .i32⟩ : BufTy).Contents (Elt F)),
    StableHlo.reshape main_v2 main_v3 rfl shapeCasts_S1x1x10000x32_S10000x32,
    StableHlo.reshape main_v3 main_v4 rfl shapeCasts_S10000x32_S320000,
    StableHlo.nullary main_c (constantI S_ 32 0#32) ]
/-- The flattened indices padded with 7680 zeros. -/
abbrev hostOps0b : List (HloOp τ sig (Elt F)) :=
  [ StableHlo.TRef.unary (.of main_c : StableHlo.TRef sig ⟨S_, .i32⟩) main_call0.v0 id,
    StableHlo.TRef.binary (.of main_v4 : StableHlo.TRef sig ⟨S320000, .i32⟩) main_call0.v0 main_call0.v1 (fun x v => pad S327680 ![0] ![7680] ![0] x v pads_S320000_S327680_076800 h_S_) ]
/-- The padded indices as 32 × 80 × 128; b1 as a row. -/
abbrev hostOps0c : List (HloOp τ sig (Elt F)) :=
  [ StableHlo.reshape main_v5 main_v6 rfl shapeCasts_S327680_S32x80x128,
    StableHlo.reshape main_arg3 main_v7 rfl shapeCasts_S128_S1x128 ]
/-- The first half of w2's columns; b2 as a row. -/
abbrev hostOps1 : List (HloOp τ sig (Elt F)) :=
  [ StableHlo.unary main_arg4 main_v9 ((extractStridedSlice S128x128 ![0, 0] · slices_S128x256_S128x128_0_0) : (⟨S128x256, .f32⟩ : BufTy).Contents (Elt F) → (⟨S128x128, .f32⟩ : BufTy).Contents (Elt F)),
    StableHlo.reshape main_arg5 main_v10 rfl shapeCasts_S128_S1x128 ]
/-- The second half of w2's columns. -/
abbrev hostOps2 : List (HloOp τ sig (Elt F)) :=
  [ StableHlo.unary main_arg4 main_v13 ((extractStridedSlice S128x128 ![0, 128] · slices_S128x256_S128x128_0_128) : (⟨S128x256, .f32⟩ : BufTy).Contents (Elt F) → (⟨S128x128, .f32⟩ : BufTy).Contents (Elt F)) ]
/-- The result transposed back to channels × nodes and reshaped. -/
abbrev hostOps3 : List (HloOp τ sig (Elt F)) :=
  [ StableHlo.unary main_v14 main_v15 ((transpose S128x10000 [1, 0] · transposes_S10000x128_S128x10000_1_0) : (⟨S10000x128, .f32⟩ : BufTy).Contents (Elt F) → (⟨S128x10000, .f32⟩ : BufTy).Contents (Elt F)),
    StableHlo.reshape main_v15 main_v16 rfl shapeCasts_S128x10000_S1x128x10000x1 ]

/-- @main is the chain of these items. -/
theorem main_chain (d : Dev nD) : main (F := F) d = (Pipeline.chain
  [ StableHlo.seq hostOps0a,
    StableHlo.seq hostOps0b,
    StableHlo.seq hostOps0c,
    Prog.lift (.customCall (SparseCore.inner (Pipeline.entry 0)) ()),
    StableHlo.seq hostOps1,
    Prog.lift (.customCall (SparseCore.inner (Pipeline.entry 1)) ()),
    (sc (F := F)).run d 0,
    StableHlo.seq hostOps2,
    Prog.lift (.customCall (SparseCore.inner (Pipeline.entry 2)) ()),
    StableHlo.seq hostOps3 ] : Prog (TpuEff nD τ sig (Elt F) (SparseCore.Sig (Pipeline.Sig Λ₀ (Fin 3) fun p => (pcfgs (F := F) p).Adm) 1) .tc) PUnit) := by
  chain_rfl

/-! ## Every host operation touches TensorCore buffers only, and allocates none -/

theorem hostOps0a_sub : (hostOps0a : List (HloOp τ sig (Elt F))).Forall fun op => op.bufs ⊆ StableHlo.tcRefs τ sig :=
  ⟨StableHlo.reshape_bufs_sub .., StableHlo.unary_bufs_sub .., StableHlo.unary_bufs_sub .., StableHlo.reshape_bufs_sub .., StableHlo.reshape_bufs_sub .., StableHlo.nullary_bufs_sub ..⟩
theorem hostOps0b_sub : (hostOps0b : List (HloOp τ sig (Elt F))).Forall fun op => op.bufs ⊆ StableHlo.tcRefs τ sig :=
  ⟨StableHlo.unary_bufs_sub .., StableHlo.binary_bufs_sub ..⟩
theorem hostOps0c_sub : (hostOps0c : List (HloOp τ sig (Elt F))).Forall fun op => op.bufs ⊆ StableHlo.tcRefs τ sig :=
  ⟨StableHlo.reshape_bufs_sub .., StableHlo.reshape_bufs_sub ..⟩
theorem hostOps1_sub : (hostOps1 : List (HloOp τ sig (Elt F))).Forall fun op => op.bufs ⊆ StableHlo.tcRefs τ sig :=
  ⟨StableHlo.unary_bufs_sub .., StableHlo.reshape_bufs_sub ..⟩
theorem hostOps2_sub : (hostOps2 : List (HloOp τ sig (Elt F))).Forall fun op => op.bufs ⊆ StableHlo.tcRefs τ sig :=
  StableHlo.unary_bufs_sub ..
theorem hostOps3_sub : (hostOps3 : List (HloOp τ sig (Elt F))).Forall fun op => op.bufs ⊆ StableHlo.tcRefs τ sig :=
  ⟨StableHlo.unary_bufs_sub .., StableHlo.reshape_bufs_sub ..⟩

theorem hostOps0a_fresh : (hostOps0a : List (HloOp τ sig (Elt F))).Forall fun op => op.fresh = ∅ := by
  simp only [List.Forall]; repeat' constructor
theorem hostOps0b_fresh : (hostOps0b : List (HloOp τ sig (Elt F))).Forall fun op => op.fresh = ∅ := by
  simp only [List.Forall]; repeat' constructor
theorem hostOps0c_fresh : (hostOps0c : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

end Cert.KernelIdeal.Hand

end
-- ==== Proof.KI.RegionSpec.lean ====
/-
  What entering one of the three TensorCore pallas_calls as a region of its pipeline does to the TensorCore's
  thread state: the statement the regions' proofs and @main's proof meet at.
-/
import proofs.«208586_g21955872817707_cont_8to1_688_77_alg».proof.Proof.KI.Main

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-- The staging cells' ghost state of pipeline `p` on device `d`, as the launch deals it. -/
abbrev pipeGhost (p : Fin 3) (d : Dev nD) : sProp 𝕄 :=
  iprop(Pipeline.cellsGhost (Pipeline.pin (pcfgs (F := F)) adm) EP p d ∗ Pipeline.toksInit (Pipeline.pin (pcfgs (F := F)) adm) EP p d)

/-- What entering pallas_call `p` as a region does, before SparseCore call `n`: from the boundary, every unscoped
    buffer at contents `Wv`, the ride-along and the pipeline's ghost state, to the same at contents related to
    `Wv` by `Exit`. -/
def RegionSpec (p : Fin 3) (n : ℕ) (Exit : Valuation τ sig (Elt F) → Valuation τ sig (Elt F) → Prop) : Prop :=
  ∀ (d : Dev nD) (Wv : Valuation τ sig (Elt F)) (Φ : PUnit → sProp 𝕄),
    iprop(levAts (K (F := F)).L (K (F := F)).lev ∗ boundary (T d) ∗ held (T d) UC Wv ∗ Rest d n ∗ pipeGhost p d
        ∗ (∀ Wv', ⌜Exit Wv Wv'⌝ -∗ (boundary (T d) ∗ held (T d) UC Wv' ∗ Rest d n) -∗ Φ ⟨⟩))
      ⊢ wp frame (wpE ((K (F := F)).defs (D (F := F))) 𝒱 (T d) none) Set.univ (Prog.lift (.customCall (SparseCore.inner (Pipeline.entry p)) ())) Φ

end Cert.KernelIdeal.Hand

end
-- ==== Proof.KI.Hmain.lean ====
/-
  @main on the TensorCore, inside the SparseCore launch: the host stretches by the straight-line rule, each
  pallas_call entered as a region of its pipeline, the SparseCore call by the launch protocol's rule.
-/
import proofs.«208586_g21955872817707_cont_8to1_688_77_alg».proof.Proof.KI.RegionSpec

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)
variable (P : (K (F := F)).Pay (nD := nD) (Val := Elt F) (Name := ℕ) (U := UU))

/-! ## The TensorCore's handshake state, its debt apart -/

/-- What the TensorCore owes the launch protocol before call `n`, its recorded waits at or below level `8 n`. -/
def tcOwes (d : Dev nD) (n : ℕ) : sProp 𝕄 :=
  iprop(∃ W, ⌜(K (F := F)).WBelow (T d) W (8 * n)⌝ ∗ owes (T d) ((K (F := F)).Otc d n) W)

theorem Rest_eq (d : Dev nD) (n : ℕ) : (Rest (F := F) d n : sProp 𝕄)
    = iprop((∃ r, prngReg d r) ∗ ∃ W, ⌜(K (F := F)).WBelow (SparseCore.T d) W (8 * n)⌝ ∗ owes (SparseCore.T d) ((K (F := F)).Otc d n) W) := rfl

/-! ## The buffers' contents along @main -/

/-- Device `d`'s buffers at launch. -/
abbrev W0 (d : Dev nD) : Valuation τ sig (Elt F) := fun b => m (d, b)
/-- After the host operations before the first pallas_call. -/
abbrev W1 (d : Dev nD) : Valuation τ sig (Elt F) :=
  StableHlo.after hostOps0c (StableHlo.after hostOps0b (StableHlo.after hostOps0a (W0 m d)))

/-- The three arrays the SparseCore call works on: z, the padded indices, the node maxima. -/
abbrev C3 : Finset (DevRef τ sig) := {Proc.devRef .tc main_v8, Proc.devRef .tc main_v6, Proc.devRef .tc main_v12}

theorem C3_sub : (C3 : Finset (DevRef τ sig)) ⊆ UC := by decide

theorem sub_UC {ops : List (HloOp τ sig (Elt F))} (h : ops.Forall fun op => op.bufs ⊆ StableHlo.tcRefs τ sig) :
    ∀ op ∈ ops, op.bufs ⊆ UC :=
  fun op ho => Pipeline.sub_ucRefs op ((List.forall_iff_forall_mem.mp h) op ho)
theorem fresh_mem {ops : List (HloOp τ sig (Elt F))} (h : ops.Forall fun op => op.fresh = ∅) :
    ∀ op ∈ ops, op.fresh = ∅ := fun op ho => (List.forall_iff_forall_mem.mp h) op ho

/-- The launch's unscoped buffers are the TensorCore's arrays held at the launch contents. -/
theorem unscoped_held (d : Dev nD) :
    (unscopedBufs d (fun b => m ((SparseCore.T d).loc b)) : sProp 𝕄) = held (SparseCore.T d) UC (W0 m d) :=
  Pipeline.unscopedBufs_held (Ix := HIx 1) (Name := ℕ) (U := UU) (Lvl := ℕ) d (W0 m d)

/-- The ghost state the launch deals TensorCore `d`: its three pipelines' staging cells'. -/
abbrev G (d : Dev nD) : sProp 𝕄 := iprop(pipeGhost 0 d ∗ pipeGhost 1 d ∗ pipeGhost 2 d)

section Main

variable (Exit0 Exit1 Exit3 : Valuation τ sig (Elt F) → Valuation τ sig (Elt F) → Prop)
variable (PreCall : Dev nD → Valuation τ sig (Elt F) → Prop)
variable (PostCall : Dev nD → Valuation τ sig (Elt F) → Valuation τ sig (Elt F) → Prop)
variable (Fin' : Dev nD → Valuation τ sig (Elt F) → Prop)

/-- What @main leaves the claim: every unscoped buffer at contents the run's relations determine. -/
def FIN (d : Dev nD) : sProp 𝕄 := iprop(∃ Wn, ⌜Fin' d Wn⌝ ∗ held (T d) UC Wn)

theorem hmain_of
    (h0 : RegionSpec (F := F) 0 0 Exit0) (h1 : RegionSpec (F := F) 1 0 Exit1) (h3 : RegionSpec (F := F) 2 1 Exit3)
    (hpre : ∀ d Wa Wb Wc, Exit0 (W1 m d) Wa → Wb = StableHlo.after hostOps1 Wa → Exit1 Wb Wc → PreCall d Wc)
    (hcall : ∀ d Wv, PreCall d Wv → (held (T d) C3 Wv : sProp 𝕄) ⊢ bigSep Finset.univ fun c : Fin ((K (F := F)).nCore 0) => P.st 0 d c)
    (hret : ∀ d Wv, PreCall d Wv → (bigSep Finset.univ fun c : Fin ((K (F := F)).nCore 0) => P.dn 0 d c)
      ⊢ (iprop(∃ Wv', ⌜PostCall d Wv Wv'⌝ ∗ held (T d) C3 Wv') : sProp 𝕄))
    (hpostC3 : ∀ d Wv Wv', PostCall d Wv Wv' → ∀ b ∈ UC \ C3, Wv' b = Wv b)
    (hfin : ∀ d Wa Wb Wc Wd We Wf Wg, Exit0 (W1 m d) Wa → Wb = StableHlo.after hostOps1 Wa → Exit1 Wb Wc → PostCall d Wc Wd →
      We = StableHlo.after hostOps2 Wd → Exit3 We Wf → Wg = StableHlo.after hostOps3 Wf → Fin' d Wg)
    (κ : GSem nD τ sig → ℕ) (d : Dev nD) :
    iprop((K (F := F)).ctx EH P κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN Fin' d) := by
  unfold SparseCore.Cfg.tcRes SparseCore.Cfg.tcSt
  rw [unscoped_held m d]
  rw [main_chain]
  simp only [Pipeline.chain_cons, Pipeline.chain_nil]
  iintro ⟨#Hctx, ⟨Howes, Htail⟩, ⟨Hb, Hheld, -, Hprng⟩, ⟨Hg0, Hg1, Hg2⟩⟩
  ihave Hlev := (SparseCore.Cfg.ctx_levAts κ) $$ Hctx
  -- the host operations before the first pallas_call
  iapply (StableHlo.wp_seq 𝒱 none Set.univ d UC _ hostOps0a (sub_UC hostOps0a_sub) (fresh_mem hostOps0a_fresh) (W0 m d)) $$ [Hb Hheld]
  · isplitl [Hb] <;> iassumption
  iintro ⟨Hb, Hheld⟩
  iapply (StableHlo.wp_seq 𝒱 none Set.univ d UC _ hostOps0b (sub_UC hostOps0b_sub) (fresh_mem hostOps0b_fresh) _) $$ [Hb Hheld]
  · isplitl [Hb] <;> iassumption
  iintro ⟨Hb, Hheld⟩
  iapply (StableHlo.wp_seq 𝒱 none Set.univ d UC _ hostOps0c (sub_UC hostOps0c_sub) (fresh_mem hostOps0c_fresh) _) $$ [Hb Hheld]
  · isplitl [Hb] <;> iassumption
  iintro ⟨Hb, Hheld⟩
  -- the first pallas_call: z
  rw [wp_bind]
  iapply (h0 d (W1 m d) _)
  isplitr; · iapply (SparseCore.Cfg.ctx_levAts κ); iexact Hctx
  isplitl [Hb]; · iexact Hb
  isplitl [Hheld]; · iexact Hheld
  isplitl [Hprng Howes]
  · unfold Rest
    isplitl [Hprng]; · iexists _; iexact Hprng
    iexact Howes
  isplitl [Hg0]; · iexact Hg0
  iintro %Wa %hEa ⟨Hb, Hheld, Hrest⟩
  -- the host operations before the second pallas_call, and it: p
  iapply (StableHlo.wp_seq 𝒱 none Set.univ d UC _ hostOps1 (sub_UC hostOps1_sub) (fresh_mem hostOps1_fresh) Wa) $$ [Hb Hheld]
  · isplitl [Hb] <;> iassumption
  iintro ⟨Hb, Hheld⟩
  rw [wp_bind]
  iapply (h1 d (StableHlo.after hostOps1 Wa) _)
  isplitr; · iexact Hlev
  isplitl [Hb]; · iexact Hb
  isplitl [Hheld]; · iexact Hheld
  isplitl [Hrest]; · iexact Hrest
  isplitl [Hg1]; · iexact Hg1
  iintro %Wc %hEc ⟨Hb, Hheld, Hrest⟩
  have hPre : PreCall d Wc := hpre d Wa _ Wc hEa rfl hEc
  -- the SparseCore call: z, the indices and the maxima's array out of the unscoped buffers, and back
  ihave Hsp := (Entails.of_eq (StableHlo.held_sub_split (SparseCore.T d) C3_sub Wc)) $$ Hheld
  icases Hsp with ⟨Hc3, Hother⟩
  ihave Hr := (Entails.of_eq (Rest_eq (F := F) d 0)) $$ Hrest
  icases Hr with ⟨Hprng, Howes⟩
  rw [wp_bind]
  iapply ((K (F := F)).wp_run (D (F := F)) 𝒱 (EH := EH) (P := P) κ d 0)
  isplitr; · iexact Hctx
  isplitl [Howes Htail]
  · unfold SparseCore.Cfg.tcSt
    isplitl [Howes]; · iexact Howes
    iexact Htail
  isplitl [Hc3]; · iapply (hcall d Wc hPre); iexact Hc3
  iintro ⟨Hst, Hdn⟩
  ihave Hdn' := (hret d Wc hPre) $$ Hdn
  icases Hdn' with ⟨%Wd', %hPost, Hc3⟩
  ihave Hother' := (Entails.of_eq (StableHlo.held_congr (SparseCore.T d) (S := UC \ C3) (V := Wc) (V' := Wd')
    (fun b hb => (hpostC3 d Wc Wd' hPost b hb).symm))) $$ Hother
  ihave Hheld := (Entails.of_eq (StableHlo.held_sub_split (SparseCore.T d) C3_sub Wd').symm) $$ [Hc3 Hother']
  · isplitl [Hc3] <;> iassumption
  ihave Hst' := (Entails.of_eq (show ((K (F := F)).tcSt EH d ((0 : Fin 1).val + 1) : sProp 𝕄)
      = iprop((∃ W, ⌜(K (F := F)).WBelow (SparseCore.T d) W (8 * 1)⌝ ∗ owes (SparseCore.T d) ((K (F := F)).Otc d 1) W) ∗ _) from rfl)) $$ Hst
  icases Hst' with ⟨Howes, Htail⟩
  -- the host operation before the last pallas_call, it, and the host operations after it
  iapply (StableHlo.wp_seq 𝒱 none Set.univ d UC _ hostOps2 (sub_UC hostOps2_sub) (fresh_mem hostOps2_fresh) Wd') $$ [Hb Hheld]
  · isplitl [Hb] <;> iassumption
  iintro ⟨Hb, Hheld⟩
  rw [wp_bind]
  iapply (h3 d (StableHlo.after hostOps2 Wd') _)
  isplitr; · iexact Hlev
  isplitl [Hb]; · iexact Hb
  isplitl [Hheld]; · iexact Hheld
  isplitl [Hprng Howes]
  · iapply (Entails.of_eq (Rest_eq (F := F) d 1).symm)
    isplitl [Hprng]; · iexact Hprng
    iexact Howes
  isplitl [Hg2]; · iexact Hg2
  iintro %Wf %hEf ⟨Hb, Hheld, Hrest⟩
  iapply (StableHlo.wp_seq 𝒱 none Set.univ d UC _ hostOps3 (sub_UC hostOps3_sub) (fresh_mem hostOps3_fresh) Wf) $$ [Hb Hheld]
  · isplitl [Hb] <;> iassumption
  iintro ⟨Hb, Hheld⟩
  rw [wp_pure]
  ihave Hr := (Entails.of_eq (Rest_eq (F := F) d 1)) $$ Hrest
  icases Hr with ⟨Hprng, Howes⟩
  imodintro
  isplitl [Howes Htail]
  · isplitl [Howes]; · iexact Howes
    iexact Htail
  unfold FIN
  iexists (StableHlo.after hostOps3 Wf); isplitr
  · ipureintro; exact hfin d Wa _ Wc Wd' _ Wf _ hEa rfl hEc hPost rfl hEf rfl
  iexact Hheld

end Main

end Cert.KernelIdeal.Hand

end
-- ==== Proof.KI.Launch.lean ====
/-
  The whole program's run from the SparseCore launch theorem: the launch element of the ghost state (the
  handshakes' rounds, the barrier cells', the TensorCore pipelines' staging cells'), how the TensorCores' final
  assertions read the final memory, and the run — every weakly fair execution of all the threads terminates and
  every final memory holds, on each device, contents the run's relations determine.
-/
import proofs.«208586_g21955872817707_cont_8to1_688_77_alg».proof.Proof.KI.Hmain
import proofs.«208586_g21955872817707_cont_8to1_688_77_alg».proof.Proof.Gen.KernelIdeal.Launch

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-! ## The launch element -/

/-- The staging cells' rounds at launch. -/
abbrev pInit : UP := initOf (Pipeline.cells cfgs cellOf_inj) (Pipeline.launchToks cfgs cellOf_inj)

/-- The ghost state's launch element: the handshakes' rounds, the barrier cells' (`bInit`), the staging cells'. -/
def u₀ (bInit : UB) : UU := (initOf (K (F := F)).hsCells (K (F := F)).hsToks, (bInit, (pInit, 1)))

omit [FloatOps F] in
theorem ownU_split3 (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU (((1 : UH), (b, (p, (1 : Counters)))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (ownU (((1 : UH), (b, (p, (1 : Counters)))) : UU) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op (p, (1 : Counters))))))
  iintro H
  ihave H' := h1 $$ H
  icases H' with ⟨HH, Hr⟩
  ihave H'' := h2 $$ Hr
  icases H'' with ⟨HB, HP⟩
  isplitl [HH]; · iexact HH
  isplitl [HB]; · iexact HB
  iexact HP

omit [FloatOps F] in
theorem bigSep_P3 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

theorem ghost_join1 (d : Dev nD) :
    iprop((bigSep Finset.univ fun p : Fin 3 => Pipeline.cellsGhost (Pipeline.pin (pcfgs (F := F)) adm) (EP (F := F)) p d)
      ∗ (bigSep Finset.univ fun p : Fin 3 => (Pipeline.toksInit (Pipeline.pin (pcfgs (F := F)) adm) (EP (F := F)) p d : sProp 𝕄)))
    ⊢ G (F := F) d := by
  rw [bigSep_P3, bigSep_P3]
  iintro ⟨⟨A0, A1, A2⟩, ⟨B0, B1, B2⟩⟩
  isplitl [A0 B0]; · isplitl [A0] <;> iassumption
  isplitl [A1 B1]; · isplitl [A1] <;> iassumption
  isplitl [A2] <;> iassumption

theorem ghost_join :
    iprop((bigSep Finset.univ fun d : Dev nD => bigSep Finset.univ fun p : Fin 3 => Pipeline.cellsGhost (Pipeline.pin (pcfgs (F := F)) adm) (EP (F := F)) p d)
      ∗ (bigSep Finset.univ fun d : Dev nD => bigSep Finset.univ fun p : Fin 3 => (Pipeline.toksInit (Pipeline.pin (pcfgs (F := F)) adm) (EP (F := F)) p d : sProp 𝕄)))
    ⊢ bigSep Finset.univ fun d : Dev nD => G (F := F) d := by
  rw [← bigSep_sep']
  exact bigSep_mono fun d _ => ghost_join1 (F := F) d

/-- The staging cells' ghost state, every device's three pipelines', from the staging cells' rounds at launch. -/
theorem ghost_deal : (BI.own (EP (F := F) pInit) : sProp 𝕄) ⊢ |==> bigSep Finset.univ fun d : Dev nD => G (F := F) d := by
  iintro H
  imod (Pipeline.fund_ghost (Pipeline.pin (pcfgs (F := F)) adm) (EP (F := F)) cellOf_inj) $$ H with ⟨Hc, Ht⟩
  imodintro
  iapply (ghost_join (F := F))
  isplitl [Hc] <;> iassumption

variable (m : (ℓ : Loc nD τ sig) → Buf (Elt F) ℓ) (ρ : Dev nD → PrngReg)
variable (P : (K (F := F)).Pay (nD := nD) (Val := Elt F) (Name := ℕ) (U := UU))

/-- The launch element: the handshakes' rounds stay; the staging cells' ghost state goes to the TensorCores; the
    barrier cells' (with the credit for the tiles' arrivals and the free semaphores) make what the tiles' proofs consume. -/
theorem hu₀_of (bInit : UB)
    (kits : iprop(BI.own (EB (F := F) bInit) ∗ P.oxCred ∗ (K (F := F)).freeSems0)
      ⊢ |={Set.univ}=> (bigSep Finset.univ fun thr : Thread nD τ => bigSep Finset.univ fun q : Fin 1 => P.x q thr : sProp 𝕄)) :
    iprop(ownU (u₀ (F := F) bInit) ∗ P.oxCred ∗ (K (F := F)).freeSems0)
      ⊢ |={Set.univ}=> iprop(BI.own (EH (initOf (K (F := F)).hsCells (K (F := F)).hsToks)) ∗ (bigSep Finset.univ fun d : Dev nD => G (F := F) d)
          ∗ (bigSep Finset.univ fun thr : Thread nD τ => bigSep Finset.univ fun q : Fin 1 => P.x q thr : sProp 𝕄)) := by
  unfold u₀
  iintro ⟨Hu, Hcred, Hfree⟩
  ihave H := (ownU_split3 (F := F) _ _ _) $$ Hu
  icases H with ⟨HH, HB, HP⟩
  imod (ghost_deal (F := F)) $$ HP with HG
  imod kits $$ [HB Hcred Hfree] with Hx
  · isplitl [HB]; · iexact HB
    isplitl [Hcred] <;> iassumption
  imodintro
  isplitl [HH]; · iexact HH
  isplitl [HG]; · iexact HG
  iexact Hx

/-! ## Reading the final memory -/

variable (Fin' : Dev nD → Valuation τ sig (Elt F) → Prop)

/-- What a final state shows on device `d`: every unscoped buffer at contents the run's relations determine. -/
def fq (d : Dev nD) (s' : Phys nD τ sig (Elt F)) : Prop :=
  ∃ Wn, Fin' d Wn ∧ ∀ b ∈ UC, s'.mem.mem ((d, b) : Loc nD τ sig) = Wn b

theorem hfin_of (d : Dev nD) (s' : Phys nD τ sig (Elt F)) : iprop(FIN Fin' d ∗ SI s') ⊢ (⌜fq Fin' d s'⌝ : sProp 𝕄) := by
  unfold FIN StableHlo.held
  iintro ⟨⟨%Wn, %hWn, Hh⟩, HSI⟩
  ihave Hr := (pointsTo_read_all UC (fun b => ((d, b) : Loc nD τ sig)) Wn s') $$ [Hh HSI]
  · isplitl [Hh] <;> iassumption
  icases Hr with ⟨%h, -⟩
  ipureintro; exact ⟨Wn, hWn, h⟩

/-! ## The run -/

section Run

variable (Exit0 Exit1 Exit3 : Valuation τ sig (Elt F) → Valuation τ sig (Elt F) → Prop)
variable (PreCall : Dev nD → Valuation τ sig (Elt F) → Prop)
variable (PostCall : Dev nD → Valuation τ sig (Elt F) → Valuation τ sig (Elt F) → Prop)

/-- Every weakly fair execution of the device's threads — the TensorCore's @main, the sequencers, the tiles — from
    memory `m` with zero counters terminates, nothing faulting, and every final memory holds on each device contents
    the run's relations determine. -/
theorem run_of [∀ e, Nonempty (Elt F e)] [P.IsStorable] (hheld : P.held = ∅) (bInit : UB)
    (htile : (K (F := F)).TileObl (D (F := F)) 𝒱 P v₀ 0)
    (hvec : (K (F := F)).VecSplit P 0)
    (kits : iprop(BI.own (EB (F := F) bInit) ∗ P.oxCred ∗ (K (F := F)).freeSems0)
      ⊢ |={Set.univ}=> (bigSep Finset.univ fun thr : Thread nD τ => bigSep Finset.univ fun q : Fin 1 => P.x q thr : sProp 𝕄))
    (h0 : RegionSpec (F := F) 0 0 Exit0) (h1 : RegionSpec (F := F) 1 0 Exit1) (h3 : RegionSpec (F := F) 2 1 Exit3)
    (hpre : ∀ d Wa Wb Wc, Exit0 (W1 m d) Wa → Wb = StableHlo.after hostOps1 Wa → Exit1 Wb Wc → PreCall d Wc)
    (hcall : ∀ d Wv, PreCall d Wv → (held (SparseCore.T d) C3 Wv : sProp 𝕄) ⊢ bigSep Finset.univ fun c : Fin ((K (F := F)).nCore 0) => P.st 0 d c)
    (hret : ∀ d Wv, PreCall d Wv → (bigSep Finset.univ fun c : Fin ((K (F := F)).nCore 0) => P.dn 0 d c)
      ⊢ (iprop(∃ Wv', ⌜PostCall d Wv Wv'⌝ ∗ held (SparseCore.T d) C3 Wv') : sProp 𝕄))
    (hpostC3 : ∀ d Wv Wv', PostCall d Wv Wv' → ∀ b ∈ UC \ C3, Wv' b = Wv b)
    (hfin : ∀ d Wa Wb Wc Wd We Wf Wg, Exit0 (W1 m d) Wa → Wb = StableHlo.after hostOps1 Wa → Exit1 Wb Wc → PostCall d Wc Wd →
      We = StableHlo.after hostOps2 Wd → Exit3 We Wf → Wg = StableHlo.after hostOps3 Wf → Fin' d Wg) :
    θ_run (Cert.KernelIdeal.defs (F := F)) (Cert.KernelIdeal.threads (F := F)) ⟨m, fun _ => 0, ρ⟩
      (fun r => ∀ d : Dev nD, ∃ Wn, Fin' d Wn ∧ ∀ b ∈ UC, r.2.mem ((d, b) : Loc nD τ sig) = Wn b) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => hvec)
    m ρ main (fun d => G (F := F) d) (FIN Fin') (u₀ (F := F) bInit) (hu₀_of P bInit kits)
    (hmain_of m ρ P Exit0 Exit1 Exit3 PreCall PostCall Fin' h0 h1 h3 hpre hcall hret hpostC3 hfin)
    (fq Fin') (hfin_of Fin') _ (fun _ h => h) hheld

end Run

end Cert.KernelIdeal.Hand

end
-- ==== Proof.KI.TilePay.lean ====
/-
  What the launch handshakes of the vector-subcore call carry: the call's operands per SparseCore, each tile's rows of
  them, the results, and the subcore barrier's cells — their schedule, whose duties hand every tile a read share of each
  staged slice of the SparseCore's shared copy of z —, what each tile owes them and its kit for them.
-/
import proofs.«208586_g21955872817707_cont_8to1_688_77_alg».proof.Proof.KI.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## The arrays -/

abbrev zLoc (d : Dev nD) : Loc nD τ sig := (SparseCore.T d).loc main_v8
abbrev iLoc (d : Dev nD) : Loc nD τ sig := (SparseCore.T d).loc main_v6
abbrev mLoc (d : Dev nD) : Loc nD τ sig := (SparseCore.T d).loc main_v12
/-- SparseCore c's shared copy of z, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The SparseCore of the call's core number. -/
abbrev coreOf (c : Fin ((K (F := F)).nCore 0)) : Fin τ.nSC := (K (F := F)).core 0 c
theorem nSub_eq : τ.nSub = 16 := rfl
theorem bound_one : grid2.bound 1 = 16 := rfl

/-! ## Indices -/

/-- An index of a rank-two shape from its row and column. -/
def ix2 {n m : ℕ} (r : Fin n) (c : Fin m) : (⟨2, ![n, m]⟩ : Shape).Idx
  | ⟨0, _⟩ => r
  | ⟨1, _⟩ => c
/-- An index of a rank-three shape. -/
def ix3 {n m l : ℕ} (a : Fin n) (b : Fin m) (c : Fin l) : (⟨3, ![n, m, l]⟩ : Shape).Idx
  | ⟨0, _⟩ => a
  | ⟨1, _⟩ => b
  | ⟨2, _⟩ => c

theorem hle_rows : ∀ a, S10000x128.size a ≤ S10240x128.size a := by decide
/-- The first 10000 rows of a 10240-row array. -/
def emb (y : S10000x128.Idx) : S10240x128.Idx := fun a => ⟨(y a).val, lt_of_lt_of_le (y a).isLt (hle_rows a)⟩

/-! ## The rows -/

theorem hdiv16 : 16 ∣ S10240x128.size 0 := ⟨640, rfl⟩
theorem hdiv32 : 32 ∣ S10240x128.size 0 := ⟨320, rfl⟩
theorem hdivI : 32 ∣ S32x80x128.size 0 := ⟨1, rfl⟩

/-- Rows [640 s, +640) of a 10240-row array: the slice tile s stages. -/
abbrev zSlice (s : Fin 16) : Finset S10240x128.Idx := (Rect.part (s := S10240x128) (a₀ := 0) hdiv16 s).set
/-- Rows [320 w, +320): worker w's rows of the result. -/
abbrev mTile (w : Fin 32) : Finset S10240x128.Idx := (Rect.part (s := S10240x128) (a₀ := 0) hdiv32 w).set
/-- Row w of the index array: worker w's index words. -/
abbrev iTile (w : Fin 32) : Finset S32x80x128.Idx := (Rect.part (s := S32x80x128) (a₀ := 0) hdivI w).set

/-- The worker number of tile s of core c. -/
def wid (c : Fin 2) (s : Fin 16) : Fin 32 := ⟨16 * c.val + s.val, by omega⟩

/-- Core c's rows of the result, of the index array. -/
def mRows (c : Fin 2) : Finset S10240x128.Idx := (Finset.univ : Finset (Fin 16)).biUnion fun s => mTile (wid c s)
def idxRows (c : Fin 2) : Finset S32x80x128.Idx := (Finset.univ : Finset (Fin 16)).biUnion fun s => iTile (wid c s)

/-- The two halves of the full share: both SparseCores read all of z. -/
def coreShare (c : Fin 2) : PosShare TreeShare := if c.val = 0 then fullShare.left else fullShare.right

/-! ## The value -/

section Value
variable [FloatOps F]

/-- The kernel's fold over a node's rows: row 0's value, then maximumf with rows 1, 2, … in order. -/
def foldMax (z : ℕ → F .f32) : ℕ → F .f32
  | 0 => z 0
  | k + 1 => FloatOps.maximumf (foldMax z k) (z (k + 1))

/-- Node n of worker w: its k-th index word. -/
def nodeWord (I : S32x80x128.Idx → BitVec 32) (w : Fin 32) (n : Fin 320) (k : ℕ) : BitVec 32 :=
  I (ix3 w ⟨n.val / 4, by omega⟩ ⟨32 * (n.val % 4) + k % 32, by omega⟩)

/-- The node's value at channel ch: the fold over its 32 gathered rows of z. -/
def nodeVal (Zf : S10000x128.Idx → F .f32) (I : S32x80x128.Idx → BitVec 32) (hI : ∀ j, (I j).toNat < 10000)
    (w : Fin 32) (n : Fin 320) (ch : Fin 128) : F .f32 :=
  foldMax (fun k => Zf (ix2 ⟨(nodeWord I w n k).toNat, hI _⟩ ch)) 31

/-- Worker w's rows of the result hold its nodes' values (under the switch v: at v := False the statement is vacuous, which is
    what a proof of termination and of the resources' return needs of it). -/
def TileSpec (v : Prop) (Zf : S10000x128.Idx → F .f32) (I : S32x80x128.Idx → BitVec 32) (w : Fin 32) (Mf : S10240x128.Idx → F .f32) : Prop :=
  v → ∀ hI : ∀ j, (I j).toNat < 10000, ∀ (n : Fin 320) (ch : Fin 128), Mf (ix2 ⟨320 * w.val + n.val, by omega⟩ ch) = nodeVal Zf I hI w n ch

/-- Core c's rows of the result hold its workers' nodes' values. -/
def MaxSpec (v : Prop) (Zf : S10000x128.Idx → F .f32) (I : S32x80x128.Idx → BitVec 32) (c : Fin 2) (Mf : S10240x128.Idx → F .f32) : Prop :=
  ∀ s : Fin 16, TileSpec v Zf I (wid c s) Mf

end Value

/-- Contents that are z on the rows below 10000 of a set of rows. -/
def ZOn (Zf : S10000x128.Idx → Elt F .f32) (R : Finset S10240x128.Idx) (Z : S10240x128.Idx → Elt F .f32) : Prop :=
  ∀ y, emb y ∈ R → Z (emb y) = Zf y

/-! ## The barrier cells -/

section Cells
variable [FloatOps F]

/-- Tile (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- A staged slice of the shared copy: z on its rows below 10000, held at a share. -/
def stagedSlice (Zf : S10000x128.Idx → Elt F .f32) (d : Dev nD) (c : Fin τ.nSC) (n : Fin 16) (q : PosShare TreeShare) : sProp 𝕄 :=
  iprop(∃ f : Buf (Elt F) (shLoc d c), ⌜ZOn Zf (zSlice n) f⌝ ∗ shLoc d c ↦[zSlice n]{q} f)

/-- What tile n's duty in tile j's round hands over: read share j of the slice tile n staged. -/
def bPay (Zf : S10000x128.Idx → Elt F .f32) (g : GSem nD τ sig) (n : ℕ) : sProp 𝕄 :=
  match g with
  | ((d, .scVector c j), _) => if h : n < 16 then stagedSlice Zf d c ⟨n, h⟩ (shareTok fullShare 16 (Fin.cast nSub_eq j)) else iprop(emp)
  | _ => iprop(emp)

/-- The barrier cells' schedule: one round on each, of one unit duty per tile of the SparseCore (named by its number). -/
def bRd (Zf : S10000x128.Idx → Elt F .f32) : Rounds.Schedule (GSem nD τ sig) ℕ 𝕄 where
  duties g r := if isBar g ∧ r = 0 then (Finset.univ : Finset (Fin τ.nSub)).image Fin.val else ∅
  amount _ _ _ := 1
  payload g _ n := bPay Zf g n
  amount_pos _ _ _ _ := Nat.one_pos

instance stagedSlice_storable (Zf : S10000x128.Idx → Elt F .f32) (d : Dev nD) (c : Fin τ.nSC) (n : Fin 16) (q : PosShare TreeShare) :
    BI.Storable (upEmb : UEmb _ 𝕄) (stagedSlice Zf d c n q) := by unfold stagedSlice; infer_instance

instance bRd_payload_storable (Zf : S10000x128.Idx → Elt F .f32) (g : GSem nD τ sig) (r n : ℕ) : BI.Storable (upEmb : UEmb _ 𝕄) ((bRd Zf).payload g r n) := by
  show BI.Storable upEmb (bPay Zf g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (Zf : S10000x128.Idx → Elt F .f32) (d : Dev nD) (c : Fin τ.nSC) (j : Fin τ.nSub) :
    (bRd Zf).duties (bcell d c j) 0 = (Finset.univ : Finset (Fin τ.nSub)).image Fin.val := by
  simp [bRd, isBar]
omit [FloatOps F] in
theorem bRd_mem₀ (Zf : S10000x128.Idx → Elt F .f32) (d : Dev nD) (c : Fin τ.nSC) (j i : Fin τ.nSub) : i.val ∈ (bRd Zf).duties (bcell d c j) 0 := by
  rw [bRd_duties₀]; exact Finset.mem_image_of_mem _ (Finset.mem_univ i)
omit [FloatOps F] in
theorem bRd_expect (Zf : S10000x128.Idx → Elt F .f32) (d : Dev nD) (c : Fin τ.nSC) (j : Fin τ.nSub) : 0 + grid2.bound 1 = (bRd Zf).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid2.bound 1), tallyAt (bcell d c (j.castLE hsub2)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid2.bound 1), g = bcell d c (j.castLE hsub2) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile (c, i)'s barrier kit: every tile's cell invariant of its SparseCore and that each has reached round 0, its own
    position at the origin of round 0, its duty token in every tile's round 0, and the credit for the sixteen units of its
    own round. -/
def bkit (Zf : S10000x128.Idx → Elt F .f32) (d : Dev nD) (c : Fin τ.nSC) (i : Fin τ.nSub) : sProp 𝕄 :=
  iprop((∃ κ : GSem nD τ sig → ℕ, bigSep Finset.univ fun j : Fin (grid2.bound 1) =>
      cellInv EB (bRd Zf) (κ (bcell d c (j.castLE hsub2))) (bcell d c (j.castLE hsub2)))
    ∗ (bigSep Finset.univ fun j : Fin (grid2.bound 1) => dutyTok EB (bcell d c (j.castLE hsub2)) 0 i.val)
    ∗ (bigSep Finset.univ fun j : Fin (grid2.bound 1) => reached EB (bcell d c (j.castLE hsub2)) 0)
    ∗ atPos EB (bcell d c i) 0 ∅ 0
    ∗ cred (tallyAt (bcell d c i) (some 0) (grid2.bound 1)))

/-! ## What the handshakes carry -/

variable (v : Prop) (Zf : S10000x128.Idx → Elt F .f32) (I : (d : Dev nD) → Buf (Elt F) (iLoc d))

/-- All of z at a share: contents that are z on the rows below 10000. -/
def zPts (d : Dev nD) (R : Finset S10240x128.Idx) (q : PosShare TreeShare) : sProp 𝕄 :=
  iprop(∃ Z : Buf (Elt F) (zLoc d), ⌜ZOn Zf R Z⌝ ∗ zLoc d ↦[R]{q} Z)

/-- What SparseCore c is handed at the start: z at its half share, its rows of the index array, its rows of the result. -/
def stC (d : Dev nD) (c : Fin 2) : sProp 𝕄 :=
  iprop(zPts Zf d Finset.univ (coreShare c) ∗ (iLoc d ↦[idxRows c]{fullShare} I d) ∗ ∃ M0 : Buf (Elt F) (mLoc d), mLoc d ↦[mRows c]{fullShare} M0)
/-- and hands back: its rows of the result at its nodes' values. -/
def dnC (d : Dev nD) (c : Fin 2) : sProp 𝕄 :=
  iprop(zPts Zf d Finset.univ (coreShare c) ∗ (iLoc d ↦[idxRows c]{fullShare} I d)
    ∗ ∃ Mf : Buf (Elt F) (mLoc d), ⌜MaxSpec v Zf (I d) c Mf⌝ ∗ mLoc d ↦[mRows c]{fullShare} Mf)
/-- What tile s of SparseCore c is handed: its slice of z at the core's share, its index words, its rows of the result,
    its slice of the shared copy. -/
def goC (d : Dev nD) (c : Fin 2) (sc : Fin τ.nSC) (s : Fin 16) : sProp 𝕄 :=
  iprop(zPts Zf d (zSlice s) (coreShare c) ∗ (iLoc d ↦[iTile (wid c s)]{fullShare} I d)
    ∗ (∃ M0 : Buf (Elt F) (mLoc d), mLoc d ↦[mTile (wid c s)]{fullShare} M0)
    ∗ ∃ f : Buf (Elt F) (shLoc d sc), shLoc d sc ↦[zSlice s]{fullShare} f)
/-- and hands back: its rows of the result at its nodes' values, its read share of the whole shared copy and the
    remainder of its own slice. -/
def tdC (d : Dev nD) (c : Fin 2) (sc : Fin τ.nSC) (s : Fin 16) : sProp 𝕄 :=
  iprop(zPts Zf d (zSlice s) (coreShare c) ∗ (iLoc d ↦[iTile (wid c s)]{fullShare} I d)
    ∗ (∃ Mf : Buf (Elt F) (mLoc d), ⌜TileSpec v Zf (I d) (wid c s) Mf⌝ ∗ mLoc d ↦[mTile (wid c s)]{fullShare} Mf)
    ∗ (∃ g : Buf (Elt F) (shLoc d sc), shLoc d sc ↦{shareTok fullShare 16 s} g)
    ∗ ∃ f : Buf (Elt F) (shLoc d sc), shLoc d sc ↦[zSlice s]{shareDrop fullShare 16} f)

def P : (K (F := F)).Pay (nD := nD) (Val := Elt F) (Name := ℕ) (U := UU) where
  st := fun q d c => match q with | 0 => stC Zf I d (Fin.cast nCore_zero c)
  dn := fun q d c => match q with | 0 => dnC v Zf I d (Fin.cast nCore_zero c)
  go := fun q d c i => match q with | 0 => goC Zf I d (Fin.cast nCore_zero c) (coreOf c) (Fin.cast nSub_zero i)
  td := fun q d c i => match q with | 0 => tdC v Zf I d (Fin.cast nCore_zero c) (coreOf c) (Fin.cast nSub_zero i)
  x := fun _ thr => match thr with
    | (d, .scVector c i) => bkit Zf d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub2) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P v Zf I).IsStorable where
  st q d c := match q with
    | 0 => by show BI.Storable (upEmb : UEmb _ 𝕄) (stC Zf I d (Fin.cast nCore_zero c)); unfold stC zPts; infer_instance
  dn q d c := match q with
    | 0 => by show BI.Storable (upEmb : UEmb _ 𝕄) (dnC v Zf I d (Fin.cast nCore_zero c)); unfold dnC zPts; infer_instance
  go q d c i := match q with
    | 0 => by show BI.Storable (upEmb : UEmb _ 𝕄) (goC Zf I d (Fin.cast nCore_zero c) (coreOf c) (Fin.cast nSub_zero i)); unfold goC zPts; infer_instance
  td q d c i := match q with
    | 0 => by show BI.Storable (upEmb : UEmb _ 𝕄) (tdC v Zf I d (Fin.cast nCore_zero c) (coreOf c) (Fin.cast nSub_zero i)); unfold tdC zPts; infer_instance

theorem st_eq (d : Dev nD) (c : Fin ((K (F := F)).nCore 0)) : (P v Zf I).st 0 d c = stC Zf I d (Fin.cast nCore_zero c) := rfl
theorem dn_eq (d : Dev nD) (c : Fin ((K (F := F)).nCore 0)) : (P v Zf I).dn 0 d c = dnC v Zf I d (Fin.cast nCore_zero c) := rfl
theorem go_eq (d : Dev nD) (c : Fin ((K (F := F)).nCore 0)) (i : Fin ((K (F := F)).nSub 0)) :
    (P v Zf I).go 0 d c i = goC Zf I d (Fin.cast nCore_zero c) (coreOf c) (Fin.cast nSub_zero i) := rfl
theorem td_eq (d : Dev nD) (c : Fin ((K (F := F)).nCore 0)) (i : Fin ((K (F := F)).nSub 0)) :
    (P v Zf I).td 0 d c i = tdC v Zf I d (Fin.cast nCore_zero c) (coreOf c) (Fin.cast nSub_zero i) := rfl
theorem x_V (d : Dev nD) (c : Fin τ.nSC) (i : Fin τ.nSub) : (P v Zf I).x 0 (V d c i) = bkit Zf d c i := rfl
theorem ox_V (d : Dev nD) (c : Fin τ.nSC) (i : Fin τ.nSub) : (P v Zf I).ox 0 (V d c i) = oxV d c := rfl

end Cells

end Cert.KernelIdeal.Hand

end
-- ==== Proof.KI.TileSplit.lean ====
/-
  How a SparseCore's operands split among its sixteen tiles and its results gather from theirs; and how the whole arrays
  split between the two SparseCores and come back.
-/
import proofs.«208586_g21955872817707_cont_8to1_688_77_alg».proof.Proof.KI.TilePay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

/-! ## Rows: disjoint, covering -/

theorem zSlice_disjoint : ∀ i ∈ (Finset.univ : Finset (Fin 16)), ∀ j ∈ (Finset.univ : Finset (Fin 16)), i ≠ j → Disjoint (zSlice i) (zSlice j) :=
  fun _ _ _ _ h => Rect.part_disjoint hdiv16 h
theorem zSlice_cover : (Finset.univ : Finset (Fin 16)).biUnion zSlice = Finset.univ := Rect.biUnion_part hdiv16

theorem wid_injective (c : Fin 2) : Function.Injective (wid c) := fun a b h => by
  have := congrArg Fin.val h; simp only [wid] at this; exact Fin.ext (by omega)
theorem wid_ne (s s' : Fin 16) : wid 0 s ≠ wid 1 s' := fun h => by
  have := congrArg Fin.val h; simp only [wid] at this; omega

theorem mTile_disjoint (c : Fin 2) : ∀ i ∈ (Finset.univ : Finset (Fin 16)), ∀ j ∈ (Finset.univ : Finset (Fin 16)), i ≠ j → Disjoint (mTile (wid c i)) (mTile (wid c j)) :=
  fun _ _ _ _ h => Rect.part_disjoint hdiv32 fun e => h (wid_injective c e)
theorem iTile_disjoint (c : Fin 2) : ∀ i ∈ (Finset.univ : Finset (Fin 16)), ∀ j ∈ (Finset.univ : Finset (Fin 16)), i ≠ j → Disjoint (iTile (wid c i)) (iTile (wid c j)) :=
  fun _ _ _ _ h => Rect.part_disjoint hdivI fun e => h (wid_injective c e)

theorem wid_surj (w : Fin 32) : ∃ (c : Fin 2) (s : Fin 16), wid c s = w :=
  ⟨⟨w.val / 16, by omega⟩, ⟨w.val % 16, Nat.mod_lt _ (by decide)⟩, Fin.ext (by simp only [wid]; omega)⟩

theorem cores_ne {c c' : Fin 2} (h : c ≠ c') (s s' : Fin 16) : wid c s ≠ wid c' s' := fun e => by
  have := congrArg Fin.val e; simp only [wid] at this
  exact h (Fin.ext (by omega))

theorem mRows_disjoint : ∀ i ∈ (Finset.univ : Finset (Fin 2)), ∀ j ∈ (Finset.univ : Finset (Fin 2)), i ≠ j → Disjoint (mRows i) (mRows j) := by
  intro i _ j _ h
  unfold mRows
  rw [Finset.disjoint_biUnion_left]; intro s _
  rw [Finset.disjoint_biUnion_right]; intro s' _
  exact Rect.part_disjoint hdiv32 (cores_ne h s s')
theorem idxRows_disjoint : ∀ i ∈ (Finset.univ : Finset (Fin 2)), ∀ j ∈ (Finset.univ : Finset (Fin 2)), i ≠ j → Disjoint (idxRows i) (idxRows j) := by
  intro i _ j _ h
  unfold idxRows
  rw [Finset.disjoint_biUnion_left]; intro s _
  rw [Finset.disjoint_biUnion_right]; intro s' _
  exact Rect.part_disjoint hdivI (cores_ne h s s')
theorem mRows_cover : (Finset.univ : Finset (Fin 2)).biUnion mRows = Finset.univ := by
  ext i
  simp only [Finset.mem_biUnion, Finset.mem_univ, true_and, iff_true, mRows]
  obtain ⟨w, hw⟩ := Rect.exists_mem_part hdiv32 i
  obtain ⟨c, s, rfl⟩ := wid_surj w
  exact ⟨c, s, hw⟩
theorem idxRows_cover : (Finset.univ : Finset (Fin 2)).biUnion idxRows = Finset.univ := by
  ext i
  simp only [Finset.mem_biUnion, Finset.mem_univ, true_and, iff_true, idxRows]
  obtain ⟨w, hw⟩ := Rect.exists_mem_part hdivI i
  obtain ⟨c, s, rfl⟩ := wid_surj w
  exact ⟨c, s, hw⟩

/-- A node's row of the result lies among its worker's rows. -/
theorem mem_mTile (w : Fin 32) (n : Fin 320) (ch : Fin 128) (h : 320 * w.val + n.val < 10240) :
    (ix2 ⟨320 * w.val + n.val, h⟩ ch : S10240x128.Idx) ∈ mTile w := by
  refine Rect.mem_set_unit.mpr fun a => ?_
  unfold Shape.partIx Shape.partSize
  match a with
  | ⟨0, _⟩ => simp [ix2]; omega
  | ⟨1, _⟩ => simp [ix2]

/-! ## Joining rows held at contents of their own -/

theorem rows_join {ℓ : Loc nD τ sig} {T : Type} [DecidableEq T] (S : Finset T) (Kf : T → Finset (Idx ℓ)) (q : PosShare TreeShare)
    (φ : T → Buf (Elt F) ℓ → Prop) (f₀ : Buf (Elt F) ℓ) (hd : ∀ t ∈ S, ∀ t' ∈ S, t ≠ t' → Disjoint (Kf t) (Kf t')) :
    bigSep S (fun t => iprop(∃ f : Buf (Elt F) ℓ, ⌜φ t f⌝ ∗ ℓ ↦[Kf t]{q} f))
      ⊢ (iprop(∃ g : Buf (Elt F) ℓ, ⌜∀ t ∈ S, ∃ f, φ t f ∧ ∀ i ∈ Kf t, g i = f i⌝ ∗ ℓ ↦[S.biUnion Kf]{q} g) : sProp 𝕄) := by
  haveI : Nonempty (Buf (Elt F) ℓ) := ⟨f₀⟩
  refine (bigSep_exists_pi S (fun t (f : Buf (Elt F) ℓ) => iprop(⌜φ t f⌝ ∗ ℓ ↦[Kf t]{q} f))).trans ?_
  iintro ⟨%fs, H⟩
  ihave H' := (bigSep_pure_sep S (fun t => φ t (fs t)) (fun t => (ℓ ↦[Kf t]{q} fs t : sProp 𝕄))) $$ H
  icases H' with ⟨%hφ, H⟩
  ihave H'' := (pointsTo_biUnion_join S Kf fs f₀ hd) $$ H
  icases H'' with ⟨%g, %hg, Hg⟩
  iexists g; isplitr
  · ipureintro; exact fun t ht => ⟨fs t, hφ t ht, hg t ht⟩
  · iexact Hg

/-- Read tokens held at contents of their own agree with the remainder's and join it. -/
theorem toks_agree {ℓ : Loc nD τ sig} (R : Finset (Idx ℓ)) (q₀ : PosShare TreeShare) {T : Type} [DecidableEq T] (qs : T → PosShare TreeShare)
    (f : Buf (Elt F) ℓ) (s : Finset T) :
    iprop((ℓ ↦[R]{q₀} f) ∗ bigSep s (fun i => iprop(∃ g : Buf (Elt F) ℓ, ℓ ↦[R]{qs i} g)))
      ⊢ (iprop((ℓ ↦[R]{q₀} f) ∗ bigSep s (fun i => ℓ ↦[R]{qs i} f)) : sProp 𝕄) := by
  induction s using Finset.induction_on with
  | empty => rw [bigSep_empty, bigSep_empty]
  | insert a s ha ih =>
    rw [SparseCore.bigSep_insert' ha, SparseCore.bigSep_insert' ha]
    iintro ⟨Hd, ⟨%g, Ha⟩, Hs⟩
    ihave Hag := (persistent_entails_right pointsTo_agree) $$ [Hd Ha]
    · isplitl [Hd]; · iexact Hd
      iexact Ha
    icases Hag with ⟨%hag, Hd, Ha⟩
    ihave Ha' := (Entails.of_eq (pointsTo_congr (f := g) (g := f) fun i hi => (hag i (Finset.mem_inter.mpr ⟨hi, hi⟩)).1.symm)) $$ Ha
    ihave H := ih $$ [Hd Hs]
    · isplitl [Hd]; · iexact Hd
      iexact Hs
    icases H with ⟨Hd, Hs⟩
    isplitl [Hd]; · iexact Hd
    isplitl [Ha']; · iexact Ha'
    iexact Hs

theorem toks_join_ex {ℓ : Loc nD τ sig} (R : Finset (Idx ℓ)) (q : PosShare TreeShare) (n : ℕ) (f : Buf (Elt F) ℓ) :
    iprop((ℓ ↦[R]{shareDrop q n} f) ∗ bigSep Finset.univ (fun i : Fin n => iprop(∃ g : Buf (Elt F) ℓ, ℓ ↦[R]{shareTok q n i} g)))
      ⊢ (ℓ ↦[R]{q} f : sProp 𝕄) :=
  (toks_agree R (shareDrop q n) (fun i : Fin n => shareTok q n i) f Finset.univ).trans (pointsTo_toks_join q n)

/-! ## The two SparseCores' shares of the arrays -/

section Cores
variable [FloatOps F]
variable (v : Prop) (Zf : S10000x128.Idx → Elt F .f32) (I : (d : Dev nD) → Buf (Elt F) (iLoc d))

omit [FloatOps F] in
theorem coreShare_zero : coreShare 0 = fullShare.left := rfl
omit [FloatOps F] in
theorem coreShare_one : coreShare 1 = fullShare.right := rfl

omit [FloatOps F] in
theorem ZOn_mono {R R' : Finset S10240x128.Idx} {Z : S10240x128.Idx → Elt F .f32} (h : R' ⊆ R) (hZ : ZOn Zf R Z) : ZOn Zf R' Z :=
  fun y hy => hZ y (h hy)

theorem tileSpec_congr {w : Fin 32} {f g : S10240x128.Idx → F .f32} (h : ∀ i ∈ mTile w, g i = f i) (hf : TileSpec v Zf (I 0) w f) : TileSpec v Zf (I 0) w g :=
  fun hv hI n ch => (h _ (mem_mTile w n ch _)).trans (hf hv hI n ch)

omit [FloatOps F] in
theorem two_cores {ℓ : Loc nD τ sig} (Kf : Fin 2 → Finset (Idx ℓ)) (hd : ∀ i ∈ (Finset.univ : Finset (Fin 2)), ∀ j ∈ (Finset.univ : Finset (Fin 2)), i ≠ j → Disjoint (Kf i) (Kf j))
    (hc : (Finset.univ : Finset (Fin 2)).biUnion Kf = Finset.univ) (q : PosShare TreeShare) (f : Buf (Elt F) ℓ) :
    (ℓ ↦{q} f : sProp 𝕄) = iprop((ℓ ↦[Kf 0]{q} f) ∗ ℓ ↦[Kf 1]{q} f) := by
  rw [← bigSep_univ_two (fun c : Fin 2 => (ℓ ↦[Kf c]{q} f : sProp 𝕄)), ← pointsTo_biUnion Finset.univ Kf hd, hc]

/-- The three arrays whole are the two SparseCores' start payloads. -/
theorem toCores (d : Dev nD) (Z : Buf (Elt F) (zLoc d)) (hZ : ZOn Zf Finset.univ Z) (M0 : Buf (Elt F) (mLoc d)) :
    iprop((zLoc d ↦{fullShare} Z) ∗ (iLoc d ↦{fullShare} I d) ∗ (mLoc d ↦{fullShare} M0))
      ⊢ (iprop(stC Zf I d 0 ∗ stC Zf I d 1) : sProp 𝕄) := by
  unfold stC zPts
  rw [coreShare_zero, coreShare_one]
  iintro ⟨Hz, Hi, Hm⟩
  ihave Hz' := (pointsTo_share (PosShare.mem_left_op_right fullShare)).1 $$ Hz
  icases Hz' with ⟨Hz0, Hz1⟩
  ihave Hi' := (Entails.of_eq (two_cores (F := F) (ℓ := iLoc d) idxRows idxRows_disjoint idxRows_cover fullShare (I d))) $$ Hi
  ihave Hm' := (Entails.of_eq (two_cores (F := F) (ℓ := mLoc d) mRows mRows_disjoint mRows_cover fullShare M0)) $$ Hm
  icases Hi' with ⟨Hi0, Hi1⟩
  icases Hm' with ⟨Hm0, Hm1⟩
  isplitl [Hz0 Hi0 Hm0]
  · isplitl [Hz0]
    · iexists Z; isplitr; · ipureintro; exact hZ
      iexact Hz0
    isplitl [Hi0]; · iexact Hi0
    iexists M0; iexact Hm0
  · isplitl [Hz1]
    · iexists Z; isplitr; · ipureintro; exact hZ
      iexact Hz1
    isplitl [Hi1]; · iexact Hi1
    iexists M0; iexact Hm1

/-- The two SparseCores' done payloads are the three arrays whole again: z as it was on its first 10000 rows, the index
    array unchanged, the result at every node's value. -/
theorem fromCores (d : Dev nD) :
    iprop(dnC v Zf I d 0 ∗ dnC v Zf I d 1)
      ⊢ (iprop((∃ Z : Buf (Elt F) (zLoc d), ⌜ZOn Zf Finset.univ Z⌝ ∗ zLoc d ↦{fullShare} Z) ∗ (iLoc d ↦{fullShare} I d)
          ∗ ∃ Mf : Buf (Elt F) (mLoc d), ⌜MaxSpec v Zf (I d) 0 Mf ∧ MaxSpec v Zf (I d) 1 Mf⌝ ∗ mLoc d ↦{fullShare} Mf) : sProp 𝕄) := by
  unfold dnC zPts
  rw [coreShare_zero, coreShare_one]
  iintro ⟨⟨⟨%Z0, %hZ0, Hz0⟩, Hi0, %M0, %hM0, Hm0⟩, ⟨%Z1, -, Hz1⟩, Hi1, %M1, %hM1, Hm1⟩
  isplitl [Hz0 Hz1]
  · ihave Hag := (persistent_entails_right pointsTo_agree) $$ [Hz0 Hz1]
    · isplitl [Hz0]; · iexact Hz0
      iexact Hz1
    icases Hag with ⟨%hag, Hz0, Hz1⟩
    ihave Hz1' := (Entails.of_eq (pointsTo_congr (f := Z1) (g := Z0) fun i hi => (hag i (Finset.mem_inter.mpr ⟨hi, hi⟩)).1.symm)) $$ Hz1
    iexists Z0; isplitr; · ipureintro; exact hZ0
    iapply (pointsTo_share (PosShare.mem_left_op_right fullShare)).2
    isplitl [Hz0]; · iexact Hz0
    iexact Hz1'
  isplitl [Hi0 Hi1]
  · iapply (Entails.of_eq (two_cores (F := F) (ℓ := iLoc d) idxRows idxRows_disjoint idxRows_cover fullShare (I d)).symm)
    isplitl [Hi0]; · iexact Hi0
    iexact Hi1
  · ihave H := (rows_join (F := F) (ℓ := mLoc d) Finset.univ mRows fullShare (fun c Mf => MaxSpec v Zf (I d) c Mf) M0 mRows_disjoint) $$ [Hm0 Hm1]
    · rw [bigSep_univ_two]
      isplitl [Hm0]
      · iexists M0; isplitr; · ipureintro; exact hM0
        iexact Hm0
      · iexists M1; isplitr; · ipureintro; exact hM1
        iexact Hm1
    icases H with ⟨%g, %hg, Hg⟩
    rw [mRows_cover]
    iexists g; isplitr
    swap; · iexact Hg
    ipureintro
    have key : ∀ c : Fin 2, MaxSpec v Zf (I d) c g := fun c s => by
      obtain ⟨f, hf, hgf⟩ := hg c (Finset.mem_univ c)
      obtain rfl : d = 0 := Subsingleton.elim _ _
      exact tileSpec_congr v Zf I (fun i hi => hgf i (Finset.mem_biUnion.mpr ⟨s, Finset.mem_univ s, hi⟩)) (hf s)
    exact ⟨key 0, key 1⟩

end Cores

/-! ## A SparseCore's operands among its tiles -/

section VecSplit
variable [FloatOps F]
variable (v : Prop) (Zf : S10000x128.Idx → Elt F .f32) (I : (d : Dev nD) → Buf (Elt F) (iLoc d))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The shared copy is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
theorem pts_slices {ℓ : Loc nD τ sig} (Kf : Fin 16 → Finset (Idx ℓ)) (hd : ∀ i ∈ (Finset.univ : Finset (Fin 16)), ∀ j ∈ (Finset.univ : Finset (Fin 16)), i ≠ j → Disjoint (Kf i) (Kf j))
    (q : PosShare TreeShare) (f : Buf (Elt F) ℓ) :
    (ℓ ↦[Finset.univ.biUnion Kf]{q} f : sProp 𝕄) = bigSep Finset.univ fun s : Fin 16 => ℓ ↦[Kf s]{q} f :=
  pointsTo_biUnion Finset.univ Kf hd

omit [FloatOps F] in
theorem bigSep_mono' {J : Type} {s : Finset J} {Φ Ψ : J → sProp 𝕄} (h : ∀ i ∈ s, Φ i ⊢ Ψ i) : bigSep s Φ ⊢ bigSep s Ψ := bigSep_mono h

theorem vecSplit : (K (F := F)).VecSplit (P v Zf I) 0 := by
  intro d c
  rw [st_eq, dn_eq]
  simp only [go_eq, td_eq]
  generalize hc2 : Fin.cast nCore_zero c = c2
  rw [bigSep_tasks (F := F) (fun s => goC Zf I d c2 (coreOf c) s), bigSep_tasks (F := F) (fun s => tdC v Zf I d c2 (coreOf c) s)]
  unfold stC dnC goC tdC zPts mRows idxRows
  rw [bigSep_sep', bigSep_sep', bigSep_sep', bigSep_sep', bigSep_sep', bigSep_sep', bigSep_sep', ownBufs_S]
  iintro ⟨⟨⟨%Z, %hZ, Hz⟩, Hi, %M0, Hm⟩, ⟨%fsh, Hsh⟩, Hrest⟩; imodintro
  isplitl [Hz Hi Hm Hsh]
  · isplitl [Hz]
    · ihave Hz' := (Entails.of_eq (show (zLoc d ↦{coreShare c2} Z : sProp 𝕄) = bigSep Finset.univ fun s : Fin 16 => zLoc d ↦[zSlice s]{coreShare c2} Z from by
        rw [← pts_slices (F := F) (ℓ := zLoc d) zSlice zSlice_disjoint, zSlice_cover])) $$ Hz
      iapply (bigSep_mono' (F := F) (Φ := fun s : Fin 16 => (zLoc d ↦[zSlice s]{coreShare c2} Z : sProp 𝕄))
        (Ψ := fun s : Fin 16 => iprop(∃ Z' : Buf (Elt F) (zLoc d), ⌜ZOn Zf (zSlice s) Z'⌝ ∗ zLoc d ↦[zSlice s]{coreShare c2} Z'))
        fun s _ => by
          iintro H; iexists Z; isplitr
          · ipureintro; exact ZOn_mono Zf (Finset.subset_univ _) hZ
          · iexact H)
      iexact Hz'
    isplitl [Hi]
    · iapply (Entails.of_eq (pts_slices (F := F) (ℓ := iLoc d) (fun s => iTile (wid c2 s)) (iTile_disjoint c2) fullShare (I d)))
      iexact Hi
    isplitl [Hm]
    · ihave Hm' := (Entails.of_eq (pts_slices (F := F) (ℓ := mLoc d) (fun s => mTile (wid c2 s)) (mTile_disjoint c2) fullShare M0)) $$ Hm
      iapply (SparseCore.ent (bigSep_mono (Φ := fun s : Fin 16 => (mLoc d ↦[mTile (wid c2 s)]{fullShare} M0 : sProp 𝕄))
        (Ψ := fun s : Fin 16 => iprop(∃ M : Buf (Elt F) (mLoc d), mLoc d ↦[mTile (wid c2 s)]{fullShare} M))
        fun s _ => BI.BIClass.exists_intro (Φ := fun M : Buf (Elt F) (mLoc d) => (mLoc d ↦[mTile (wid c2 s)]{fullShare} M : sProp 𝕄)) M0))
      iexact Hm'
    · ihave Hsh' := (Entails.of_eq (show (shLoc d (coreOf c) ↦{fullShare} fsh : sProp 𝕄) = bigSep Finset.univ fun s : Fin 16 => shLoc d (coreOf c) ↦[zSlice s]{fullShare} fsh from by
        rw [← pts_slices (F := F) (ℓ := shLoc d (coreOf c)) zSlice zSlice_disjoint, zSlice_cover])) $$ Hsh
      iapply (SparseCore.ent (bigSep_mono (Φ := fun s : Fin 16 => (shLoc d (coreOf c) ↦[zSlice s]{fullShare} fsh : sProp 𝕄))
        (Ψ := fun s : Fin 16 => iprop(∃ f : Buf (Elt F) (shLoc d (coreOf c)), shLoc d (coreOf c) ↦[zSlice s]{fullShare} f))
        fun s _ => BI.BIClass.exists_intro (Φ := fun f : Buf (Elt F) (shLoc d (coreOf c)) => (shLoc d (coreOf c) ↦[zSlice s]{fullShare} f : sProp 𝕄)) fsh))
      iexact Hsh'
  iintro ⟨Hz, Hi, Hm, Htok, Hdrop⟩
  isplitr [Htok Hdrop Hrest]
  · isplitl [Hz]
    · ihave H := (rows_join (F := F) (ℓ := zLoc d) Finset.univ zSlice (coreShare c2) (fun s Z' => ZOn Zf (zSlice s) Z') Z zSlice_disjoint) $$ Hz
      icases H with ⟨%g, %hg, Hg⟩
      rw [zSlice_cover]
      iexists g; isplitr
      swap; · iexact Hg
      ipureintro
      intro y _
      obtain ⟨s, hs⟩ := Rect.exists_mem_part hdiv16 (emb y)
      obtain ⟨f, hf, hgf⟩ := hg s (Finset.mem_univ s)
      exact (hgf _ hs).trans (hf y hs)
    isplitl [Hi]
    · iapply (Entails.of_eq (pts_slices (F := F) (ℓ := iLoc d) (fun s => iTile (wid c2 s)) (iTile_disjoint c2) fullShare (I d)).symm)
      iexact Hi
    · ihave H := (rows_join (F := F) (ℓ := mLoc d) Finset.univ (fun s => mTile (wid c2 s)) fullShare (fun s Mf => TileSpec v Zf (I d) (wid c2 s) Mf) M0 (mTile_disjoint c2)) $$ Hm
      icases H with ⟨%g, %hg, Hg⟩
      iexists g; isplitr
      swap; · iexact Hg
      ipureintro
      intro s
      obtain ⟨f, hf, hgf⟩ := hg s (Finset.mem_univ s)
      obtain rfl : d = 0 := Subsingleton.elim _ _
      exact tileSpec_congr v Zf I hgf hf
  · isplitl [Htok Hdrop]
    · ihave H := (rows_join (F := F) (ℓ := shLoc d (coreOf c)) Finset.univ zSlice (shareDrop fullShare 16) (fun _ _ => True) fsh zSlice_disjoint) $$ [Hdrop]
      · iapply (bigSep_mono' (F := F) (Φ := fun s : Fin 16 => iprop(∃ f : Buf (Elt F) (shLoc d (coreOf c)), shLoc d (coreOf c) ↦[zSlice s]{shareDrop fullShare 16} f))
          (Ψ := fun s : Fin 16 => iprop(∃ f : Buf (Elt F) (shLoc d (coreOf c)), ⌜True⌝ ∗ shLoc d (coreOf c) ↦[zSlice s]{shareDrop fullShare 16} f))
          fun s _ => by
            iintro ⟨%f, H⟩; iexists f; isplitr
            · ipureintro; trivial
            · iexact H)
        iexact Hdrop
      icases H with ⟨%g, -, Hg⟩
      rw [zSlice_cover]
      iexists g
      iapply (toks_join_ex (F := F) (ℓ := shLoc d (coreOf c)) Finset.univ fullShare 16 g)
      isplitl [Hg]; · iexact Hg
      iexact Htok
    · iexact Hrest

end VecSplit

end Cert.KernelIdeal.Hand

end
-- ==== Proof.KI.TileKits.lean ====
/-
  The barrier cells' part of the launch element: their invariants allocated over the free barrier semaphores, and each
  tile dealt its kit — its position, its duty tokens, the credit for its own round.
-/
import proofs.«208586_g21955872817707_cont_8to1_688_77_alg».proof.Proof.KI.TilePay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid2.bound 1) => (bcell x.1.1 x.1.2.1 (x.2.castLE hsub2), 0, x.1.2.2.val)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd Zf) g 0)
    ⊢ |={Set.univ}=> iprop(∃ κ : GSem nD τ sig → ℕ, bigSep bCells fun g => cellInv EB (bRd Zf) (κ g) g) := by
  refine (Rounds.bodies_intro EB (bRd Zf) bCells).trans ((inv_alloc_family bCells (Rounds.body EB (bRd Zf)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P v Zf I).oxCred : sProp 𝕄)
    ⊢ bigSep Finset.univ fun dci : DCI => cred (tallyAt (bcell₃ dci) (some 0) (grid2.bound 1)) := by
  unfold SparseCore.Cfg.Pay.oxCred
  rw [SparseCore.Cfg.bigSep_threads (fun thr : Thread nD τ => (cred ((P v Zf I).oxFrom 0 thr) : sProp 𝕄))]
  refine sep_elim_right.trans (sep_elim_right.trans ?_)
  rw [bigSep_univ_prod, bigSep_univ_prod (fun dci : DCI => (cred (tallyAt (bcell₃ dci) (some 0) (grid2.bound 1)) : sProp 𝕄))]
  refine bigSep_mono fun d _ => ?_
  rw [bigSep_univ_prod, bigSep_univ_prod (fun ci : Fin τ.nSC × Fin τ.nSub => (cred (tallyAt (bcell₃ (d, ci)) (some 0) (grid2.bound 1)) : sProp 𝕄))]
  refine bigSep_mono fun c _ => ?_
  dsimp only
  have hox : ∀ i, (P v Zf I).oxFrom 0 (V d c i) = oxV d c := fun i => by
    rw [show (0 : ℕ) = (0 : Fin 1).val from rfl, (P v Zf I).oxFrom_step, (P v Zf I).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {J : Type} [DecidableEq J] {R : sProp 𝕄} [BI.Persistent R] {s : Finset J} {Φ Ψ : J → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid2.bound 1) => dutyTok EB (bcell dci.1 dci.2.1 (j.castLE hsub2)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P v Zf I).x q (SparseCore.T d)) = iprop(emp) :=
  bigSep_univ_of_subsingleton (0 : Fin 1)
theorem Px_S (d : Dev nD) (c : Fin τ.nSC) : (bigSep Finset.univ fun q : Fin 1 => (P v Zf I).x q (S d c)) = iprop(emp) :=
  bigSep_univ_of_subsingleton (0 : Fin 1)
theorem Px_V (d : Dev nD) (c : Fin τ.nSC) (i : Fin τ.nSub) :
    (bigSep Finset.univ fun q : Fin 1 => (P v Zf I).x q (V d c i)) = bkit Zf d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev sharedB : sProp 𝕄 :=
  iprop((∃ κ : GSem nD τ sig → ℕ, bigSep Finset.univ fun x : DCI => cellInv EB (bRd Zf) (κ (bcell₃ x)) (bcell₃ x))
    ∗ bigSep Finset.univ fun x : DCI => reached EB (bcell₃ x) 0)
/-- What each tile is handed of its own: its position, its tokens, its credit. -/
abbrev mineB (dci : DCI) : sProp 𝕄 :=
  iprop(atPos EB (bcell₃ dci) 0 ∅ 0
    ∗ (bigSep Finset.univ fun j : Fin (grid2.bound 1) => dutyTok EB (bcell dci.1 dci.2.1 (j.castLE hsub2)) 0 dci.2.2.val)
    ∗ cred (tallyAt (bcell₃ dci) (some 0) (grid2.bound 1)))

/-- One tile's kit out of those. -/
theorem kit_intro (dci : DCI) : iprop(sharedB Zf ∗ mineB (F := F) dci) ⊢ (bkit Zf dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid2.bound 1)))) (Φ := fun _ => iprop(emp))
      (R := bigSep Finset.univ fun x : DCI => cellInv EB (bRd Zf) (κ (bcell₃ x)) (bcell₃ x)) fun j _ =>
        sep_elim_left.trans (bigSep_elim (Φ := fun x : DCI => (cellInv EB (bRd Zf) (κ (bcell₃ x)) (bcell₃ x) : sProp 𝕄))
          (i := (d, c, Fin.castLE hsub2 j)) (Finset.mem_univ _))))
    isplitl; · iexact Hinv
    rw [bigSep_emp']; iempintro
  isplitl [Htok]; · iexact Htok
  isplitr
  · iapply (SparseCore.ent (bigSep_mono_frame (s := (Finset.univ : Finset (Fin (grid2.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub2 j)) (Finset.mem_univ _))))
    isplitl; · iexact Hr
    rw [bigSep_emp']; iempintro
  isplitl [Hat]; · iexact Hat
  iexact Hcred

/-- Each tile its kit. -/
theorem kits_deal :
    iprop(sharedB Zf ∗ (bigSep Finset.univ fun x : DCI => atPos EB (bcell₃ x) 0 ∅ 0)
        ∗ (bigSep Finset.univ fun dci : DCI => bigSep Finset.univ fun j : Fin (grid2.bound 1) => dutyTok EB (bcell dci.1 dci.2.1 (j.castLE hsub2)) 0 dci.2.2.val)
        ∗ (bigSep Finset.univ fun dci : DCI => cred (tallyAt (bcell₃ dci) (some 0) (grid2.bound 1))))
      ⊢ (bigSep Finset.univ fun thr : Thread nD τ => bigSep Finset.univ fun q : Fin 1 => (P v Zf I).x q thr : sProp 𝕄) := by
  rw [SparseCore.Cfg.bigSep_threads (fun thr : Thread nD τ => bigSep Finset.univ fun q : Fin 1 => (P v Zf I).x q thr)]
  simp only [Px_T, Px_S, Px_V, bigSep_emp']
  iintro ⟨#Hsh, Hat, Htok, Hcred⟩
  isplitr; · iempintro
  isplitr; · iempintro
  iapply (bigSep_mono_frame (R := sharedB Zf) (Φ := mineB (F := F)) fun dci _ => kit_intro Zf dci)
  isplitr; · iexact Hsh
  unfold mineB
  rw [bigSep_sep', bigSep_sep']
  isplitl [Hat]; · iexact Hat
  isplitl [Htok]; · iexact Htok
  iexact Hcred

/-- The barrier cells' part of the launch element. -/
theorem kits : iprop(BI.own (EB (initOf bCells bToks)) ∗ (P v Zf I).oxCred ∗ (K (F := F)).freeSems0)
    ⊢ |={Set.univ}=> (bigSep Finset.univ fun thr : Thread nD τ => bigSep Finset.univ fun q : Fin 1 => (P v Zf I).x q thr : sProp 𝕄) := by
  iintro ⟨HB, Hcred, Hfree⟩
  imod (Rounds.fund EB (bRd Zf) bCells bToks) $$ HB with ⟨Hst, #Hr, Hat, Htok⟩
  ihave Hsems := (sems_b (F := F)) $$ Hfree
  imod (invs_b Zf) $$ [Hsems Hst] with ⟨%κ, #Hinv⟩
  · isplitl [Hsems] <;> iassumption
  ihave Hcred' := (creds_b v Zf I) $$ Hcred
  ihave Hinv' := (Entails.of_eq (bCells_eq (F := F) fun g => cellInv EB (bRd Zf) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  iapply (kits_deal v Zf I)
  isplitr
  · isplitl; · iexists κ; iexact Hinv'
    iexact Hr'
  isplitl [Hat']; · iexact Hat'
  isplitl [Htok']; · iexact Htok'
  iexact Hcred'

end Cert.KernelIdeal.Hand

end
-- ==== Proof.KI.RegionsLib.lean ====
/-
  What the three TensorCore pallas_calls' regions share: the launch protocol's debts carry nothing at the kernels' own
  index, and proof data for the pipelines a region does not run.
-/
import proofs.«208586_g21955872817707_cont_8to1_688_77_alg».proof.Proof.KI.RegionSpec
import proofs.«208586_g21955872817707_cont_8to1_688_77_alg».proof.Proof.Gen.KernelIdeal.Launch
import proofs.«208586_g21955872817707_cont_8to1_688_77_alg».proof.Proof.Gen.KernelIdeal.Skeleton
import proofs.«208586_g21955872817707_cont_8to1_688_77_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

variable {F : FTy → Type} [FloatOps F]

local notation "𝕄" => MT nD τ sig (HIx 1) (Elt F) ℕ UU ℕ

/-! # What the three TensorCore regions share -/

/-- The TensorCore owes nothing at the kernels' own index. -/
theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

/-- The zero offsets of a rank-2 rectangle. -/
theorem zero2 : (![0, 0] : Fin 2 → ℕ) = fun _ => 0 := by funext a; fin_cases a <;> rfl

section Idle

variable (Vv : (c : Dev nD) → (b : Ref sig .tc) → Buf (Elt F) ((c : Thread nD τ).loc b))

/-- A pipeline's proof data that nothing reads: a region's family at the pipelines it does not run. -/
def idle0 (c : Dev nD) : Dat τ (Elt F) (HIx 1) ℕ UU ℕ cfg0 c where
  A w := Vv c (Pipeline.arrRef spec0 w)
  after _ _ := fun _ => Classical.arbitrary _
  Φ _ := iprop(emp)
  q _ := fullShare
  owed _ := 0
def idle1 (c : Dev nD) : Dat τ (Elt F) (HIx 1) ℕ UU ℕ cfg1 c where
  A w := Vv c (Pipeline.arrRef spec1 w)
  after _ _ := fun _ => Classical.arbitrary _
  Φ _ := iprop(emp)
  q _ := fullShare
  owed _ := 0
def idle3 (c : Dev nD) : Dat τ (Elt F) (HIx 1) ℕ UU ℕ cfg3 c where
  A w := Vv c (Pipeline.arrRef spec3 w)
  after _ _ := fun _ => Classical.arbitrary _
  Φ _ := iprop(emp)
  q _ := fullShare
  owed _ := 0

end Idle

end Cert.KernelIdeal.Hand

end
-- ==== Proof.KI.Regions1.lean ====
/-
  The second TensorCore pallas_call of @main (pipeline 1), entered as a region inside the SparseCore program: its proof
  data, body obligation and segment record, what its output array holds at the exit, and the region's rule lifted to
  the extended body table.
-/
import proofs.«208586_g21955872817707_cont_8to1_688_77_alg».proof.Proof.KI.RegionsLib
import proofs.«208586_g21955872817707_cont_8to1_688_77_alg».proof.Proof.Gen.KernelIdeal.Launch
import proofs.«208586_g21955872817707_cont_8to1_688_77_alg».proof.Proof.Gen.KernelIdeal.Skeleton
import proofs.«208586_g21955872817707_cont_8to1_688_77_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

variable {F : FTy → Type} [FloatOps F]

local notation "𝕄" => MT nD τ sig (HIx 1) (Elt F) ℕ UU ℕ

/-! # The second pallas_call (pipeline 1): p = xn · w2aᵀ + b2, the whole block stored -/

section Region1

variable (Vv : (c : Dev nD) → (b : Ref sig .tc) → Buf (Elt F) ((c : Thread nD τ).loc b))

/-- Window `w`'s block at the one point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-- An input window's staging buffer holds its block when the body runs: it is fetched at the one point. -/
theorem before1_0_of {c : Dev nD} (dat : Dat τ (Elt F) (HIx 1) ℕ UU ℕ cfg1 c) (hA : dat.A 0 = Vv c (Pipeline.arrRef spec1 0))
    (hafter : ∀ t, dat.after 0 t = iblk1 Vv c 0 t) (t : Fin cfg1.N) (d) : dat.before 0 t d = iblk1 Vv c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ UU ℕ cfg1 c) (hA : dat.A 1 = Vv c (Pipeline.arrRef spec1 1))
    (hafter : ∀ t, dat.after 1 t = iblk1 Vv c 1 t) (t : Fin cfg1.N) (d) : dat.before 1 t d = iblk1 Vv c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 1) ℕ UU ℕ cfg1 c) (hA : dat.A 2 = Vv c (Pipeline.arrRef spec1 2))
    (hafter : ∀ t, dat.after 2 t = iblk1 Vv c 2 t) (t : Fin cfg1.N) (d) : dat.before 2 t d = iblk1 Vv c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes. -/
abbrev rA1 : Rect S10000x128 := Rect.unit (s := S10000x128) ![0, 0] S10000x128.size inb_S10000x128_S10000x128_0_0
abbrev rB1 : Rect S128x128 := Rect.unit (s := S128x128) ![0, 0] S128x128.size inb_S128x128_S128x128_0_0
abbrev rC1 : Rect S1x128 := Rect.unit (s := S1x128) ![0, 0] S1x128.size inb_S1x128_S1x128_0_0

/-- The output window's staging buffer after the body, from the input windows' blocks: its one store. -/
def out1_3 (x0 : Vec F S10000x128 .f32) (x1 : Vec F S128x128 .f32) (x2 : Vec F S1x128 .f32) : Vec F S10000x128 .f32 :=
  View.canon [⟨rA1, k1_pay1 (View.ld x0 rA1) (View.ld x1 rB1) (View.ld x2 rC1)⟩]

/-- The store covers the buffer. -/
theorem cover1_3 (p0 : Vec F S10000x128 .f32) (y : S10000x128.Idx) :
    ∃ pc ∈ ([⟨rA1, p0⟩] : List (View.Piece (Elt F) S10000x128 .f32)), y ∈ pc.1.set :=
  View.cover_of_tiled [⟨rA1, p0⟩] S10000x128.size (by rfl) y

set_option maxHeartbeats 1000000 in
/-- The body on whole staging memrefs, the inputs' at contents `x0 x1 x2` and the output's at anything, leaves the
    inputs' as they were and the output's at `out1_3` of them. -/
theorem sound_kernel1 (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S1x128 .f32) (harg2 : arg2.IsWhole)
    (arg3 : Memref sig .tc .vmem S10000x128 .f32) (harg3 : arg3.IsWhole)
    (x0 : Vec F S10000x128 .f32) (x1 : Vec F S128x128 .f32) (x2 : Vec F S1x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ Kk ⟨⟩))
      ⊢ wp frame (wpE (defs₀ (F := F)) Variants.none c none) E (cc1__tc_p_body arg0 harg0 arg1 harg1 arg2 harg2 arg3 harg3) Kk := by
  simp only [cc1__tc_p_body_eq_skeleton]; unfold cc1__tc_p_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

variable (n : ℕ)

/-- The proof data of the pipeline on device `c` before SparseCore call `n`: the arrays as the region finds them; after
    the body each input's buffer at its block and the output's at its one store; the invariant the scoped buffers no
    window stages and the generator register; full shares; the TensorCore owing the launch protocol its start signals
    throughout, its recorded waits at or below level `8 n`. -/
def dat1 (c : Dev nD) : Dat τ (Elt F) (HIx 1) ℕ UU ℕ cfg1 c where
  A w := Vv c (Pipeline.arrRef spec1 w)
  after w t := match w with
    | ⟨0, _⟩ => iblk1 Vv c 0 t
    | ⟨1, _⟩ => iblk1 Vv c 1 t
    | ⟨2, _⟩ => iblk1 Vv c 2 t
    | ⟨3, _⟩ => out1_3 (iblk1 Vv c 0 t) (iblk1 Vv c 1 t) (iblk1 Vv c 2 t)
  Φ _ := iprop(Pipeline.scopedRest spec1 c ∗ ∃ r, prngReg c r)
  q _ := fullShare
  owed _ := (K (F := F)).Otc c n
  recorded _ := {p | (K (F := F)).lev ((c : Thread nD τ), p.1) p.2 ≤ 8 * n}

theorem A_eq1 (c : Dev nD) (w : Fin cfg1.W) : (dat1 Vv n c).A w = Vv c (Pipeline.arrRef spec1 w) := by
  dsimp only [dat1]
theorem after1_0 (c : Dev nD) (t : Fin cfg1.N) : (dat1 Vv n c).after 0 t = iblk1 Vv c 0 t := by dsimp only [dat1]
theorem after1_1 (c : Dev nD) (t : Fin cfg1.N) : (dat1 Vv n c).after 1 t = iblk1 Vv c 1 t := by dsimp only [dat1]
theorem after1_2 (c : Dev nD) (t : Fin cfg1.N) : (dat1 Vv n c).after 2 t = iblk1 Vv c 2 t := by dsimp only [dat1]
theorem after1_3 (c : Dev nD) (t : Fin cfg1.N) :
    (dat1 Vv n c).after 3 t = out1_3 (iblk1 Vv c 0 t) (iblk1 Vv c 1 t) (iblk1 Vv c 2 t) := by dsimp only [dat1]

theorem before1_0 (c : Dev nD) (t : Fin cfg1.N) (d) : (dat1 Vv n c).before 0 t d = iblk1 Vv c 0 t :=
  before1_0_of Vv (dat1 Vv n c) (A_eq1 Vv n c 0) (after1_0 Vv n c) t d
theorem before1_1 (c : Dev nD) (t : Fin cfg1.N) (d) : (dat1 Vv n c).before 1 t d = iblk1 Vv c 1 t :=
  before1_1_of Vv (dat1 Vv n c) (A_eq1 Vv n c 1) (after1_1 Vv n c) t d
theorem before1_2 (c : Dev nD) (t : Fin cfg1.N) (d) : (dat1 Vv n c).before 2 t d = iblk1 Vv c 2 t :=
  before1_2_of Vv (dat1 Vv n c) (A_eq1 Vv n c 2) (after1_2 Vv n c) t d

/-! ## The body obligation -/

/-- What the body is called with at the point, -/
def bodyPre1 (c : Dev nD) (t : Fin cfg1.N) : sProp 𝕄 :=
  iprop((dat1 Vv n c).Φ t.castSucc ∗ (dat1 Vv n c).owesAt none t.castSucc
    ∗ (∃ d, owns (c : Thread nD τ) (st1_0 t) fullShare ((dat1 Vv n c).before 0 t d))
    ∗ (∃ d, owns (c : Thread nD τ) (st1_1 t) fullShare ((dat1 Vv n c).before 1 t d))
    ∗ (∃ d, owns (c : Thread nD τ) (st1_2 t) fullShare ((dat1 Vv n c).before 2 t d))
    ∗ (∃ d, owns (c : Thread nD τ) (st1_3 t) fullShare ((dat1 Vv n c).before 3 t d)))

/-- and what it returns. -/
def bodyPost1 (c : Dev nD) (t : Fin cfg1.N) : sProp 𝕄 :=
  iprop((dat1 Vv n c).Φ t.succ ∗ (dat1 Vv n c).owesAt none t.succ
    ∗ owns (c : Thread nD τ) (st1_0 t) fullShare ((dat1 Vv n c).after 0 t)
    ∗ owns (c : Thread nD τ) (st1_1 t) fullShare ((dat1 Vv n c).after 1 t)
    ∗ owns (c : Thread nD τ) (st1_2 t) fullShare ((dat1 Vv n c).after 2 t)
    ∗ owns (c : Thread nD τ) (st1_3 t) fullShare ((dat1 Vv n c).after 3 t))

theorem sound_body1 (c : Dev nD) (t : Fin cfg1.N) :
    bodyPre1 Vv n c t ⊢ wp frame (wpE (defs₀ (F := F)) Variants.none c none) Set.univ (bodyAt1 t) (fun _ => bodyPost1 Vv n c t) := by
  unfold bodyPre1 bodyPost1 bodyAt1
  simp only [before1_0, before1_1, before1_2]
  rw [show (dat1 Vv n c).Φ t.succ = (dat1 Vv n c).Φ t.castSucc from rfl,
    show (dat1 Vv n c).owesAt none t.succ = (dat1 Vv n c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 Vv c 0 t) (iblk1 Vv c 1 t) (iblk1 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) Vv n c) (defs₀ (F := F)) Variants.none none Set.univ := fun t => by
  rw [bigSep_W1, bigSep_W1]
  exact sound_body1 Vv n c t

/-! ## What the output array holds after the run -/

/-- A window that is its whole array reads the array. -/
theorem iblk1_0 (c : Dev nD) (t : Fin cfg1.N) : iblk1 Vv c 0 t = Vv c main_v1 := by
  funext y
  have hy : ((cfg1.win 0).blk t).view.emb y = y := by
    funext a; apply Fin.ext
    exact Pipeline.Window.rect_emb_val_of_index_zero (cfg1.win 0) t a rfl y
  unfold iblk1
  rw [View.read_apply, hy]
  rfl
theorem iblk1_1 (c : Dev nD) (t : Fin cfg1.N) : iblk1 Vv c 1 t = Vv c main_v9 := by
  funext y
  have hy : ((cfg1.win 1).blk t).view.emb y = y := by
    funext a; apply Fin.ext
    exact Pipeline.Window.rect_emb_val_of_index_zero (cfg1.win 1) t a rfl y
  unfold iblk1
  rw [View.read_apply, hy]
  rfl
theorem iblk1_2 (c : Dev nD) (t : Fin cfg1.N) : iblk1 Vv c 2 t = Vv c main_v10 := by
  funext y
  have hy : ((cfg1.win 2).blk t).view.emb y = y := by
    funext a; apply Fin.ext
    exact Pipeline.Window.rect_emb_val_of_index_zero (cfg1.win 2) t a rfl y
  unfold iblk1
  rw [View.read_apply, hy]
  rfl

/-- The one store, through the whole buffer, leaves its payload; a load through a whole buffer reads it. -/
theorem out1_3_eq (x0 : Vec F S10000x128 .f32) (x1 : Vec F S128x128 .f32) (x2 : Vec F S1x128 .f32) :
    out1_3 x0 x1 x2 = k1_pay1 x0 x1 x2 := by
  unfold out1_3
  rw [View.canon_unit_zero zero2, View.ld_unit_zero zero2, View.ld_unit_zero zero2, View.ld_unit_zero zero2]

/-- The output array after the run: the payload of the arrays as entered. -/
theorem arrAt1_3 (c : Dev nD) :
    (dat1 Vv n c).arrAt 3 cfg1.N = k1_pay1 (Vv c main_v1) (Vv c main_v9) (Vv c main_v10) := by
  refine (dat1 Vv n c).arrAt_eq_of_cover 3 _ (fun t _ => ?_) (fun i => ⟨t1_0, flush1_3 _, ?_⟩)
  · funext y
    have hy : ((cfg1.win 3).blk t).view.emb y = y := by
      funext a; apply Fin.ext
      exact Pipeline.Window.rect_emb_val_of_index_zero (cfg1.win 3) t a rfl y
    show (dat1 Vv n c).after 3 t y = _root_.cast _ (k1_pay1 (Vv c main_v1) (Vv c main_v9) (Vv c main_v10) (((cfg1.win 3).blk t).view.emb y))
    rw [hy, after1_3, out1_3_eq, iblk1_0, iblk1_1, iblk1_2]; rfl
  · have hy : ((cfg1.win 3).blk t1_0).view.emb i = i := by
      funext a; apply Fin.ext
      exact Pipeline.Window.rect_emb_val_of_index_zero (cfg1.win 3) t1_0 a rfl i
    rw [← hy]; exact View.emb_mem_set _ _

/-! ## The region as a segment -/

/-- The family of proof data the region runs under: its own at its pipeline, idle data at the others. -/
def pdats1 : (p : Fin 3) → (c : Dev nD) → Dat τ (Elt F) (HIx 1) ℕ UU ℕ (Pipeline.pin (pcfgs (F := F)) adm p) c
  | ⟨0, _⟩ => fun c => idle0 Vv c
  | ⟨1, _⟩ => fun c => dat1 Vv n c
  | ⟨2, _⟩ => fun c => idle3 Vv c

end Region1

section Seg1

variable (Wv : Valuation τ sig (Elt F)) (n : ℕ)

/-- The entry contents at the TensorCore's references. -/
abbrev V1 : (c : Dev nD) → (b : Ref sig .tc) → Buf (Elt F) ((c : Thread nD τ).loc b) := fun _ b => Wv b

/-- The contents at the region's exit: its arrays at what the pipeline leaves, every other buffer as entered. -/
def W1' (c : Dev nD) : Valuation τ sig (Elt F) :=
  Pipeline.withArrays spec1 c Wv fun w => (dat1 (V1 Wv) n c).arrAt w cfg1.N
theorem W1'_arr (c : Dev nD) (w : Fin cfg1.W) :
    W1' Wv n c (Proc.devRef .tc (Pipeline.arrRef spec1 w)) = (dat1 (V1 Wv) n c).arrAt w cfg1.N := by
  unfold W1'; exact Pipeline.withArrays_arr spec1 launch1.win.arr_inj c _ _ w
theorem W1'_of_ne (c : Dev nD) (b : Ref sig .tc) (hb : ∀ w, Pipeline.arrRef spec1 w ≠ b) :
    W1' Wv n c (Proc.devRef .tc b) = Wv (Proc.devRef .tc b) := by
  unfold W1'; exact Pipeline.withArrays_of_ne spec1 c _ _ b hb
abbrev V1' : (c : Dev nD) → (b : Ref sig .tc) → Buf (Elt F) ((c : Thread nD τ).loc b) := fun c b => W1' Wv n c b
theorem hF1 (c : Dev nD) (w : Fin cfg1.W) : (dat1 (V1 Wv) n c).arrAt w cfg1.N = V1' Wv n c (Pipeline.arrRef spec1 w) :=
  (W1'_arr Wv n c w).symm
theorem hrest1 (c : Dev nD) : ∀ b, b ∉ Finset.univ.image (Pipeline.arrRef spec1) → V1' Wv n c b = V1 Wv c b :=
  fun b hb => W1'_of_ne Wv n c b fun w e => hb (Finset.mem_image.mpr ⟨w, Finset.mem_univ _, e⟩)

set_option backward.isDefEq.respectTransparency.types false in
/-- The pallas_call over the thread state: entered from every unscoped buffer at `Wv`, left at `W1'`; the generator
    register into the invariant and out; the start signals owed throughout, the recorded waits kept at or below `8 n`. -/
def reg1 : Pipeline.RegionSeg (pcfgs (F := F)) adm (pdats1 (V1 Wv) n) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body_obligation1 (V1 Wv) n c).loose
  hwaits c := Pipeline.cellsWaits_intro (Pipeline.pin (pcfgs (F := F)) adm) (pdats1 (V1 Wv) n) none 1 c fun w s t =>
    (K (F := F)).mayWait_none _ (fun g => Otc_none c n g)
  pre c := iprop(held (c : Thread nD τ) UC Wv ∗ Rest c n)
  post c := iprop(held (c : Thread nD τ) UC (W1' Wv n c) ∗ Rest c n)
  X c := iprop(∃ r, prngReg c r)
  Y c := iprop(∃ r, prngReg c r)
  Z c := Pipeline.unscopedRest (Ix := HIx 1) (Name := ℕ) (U := UU) (Lvl := ℕ) spec1 c (V1 Wv c)
  hentry c := by
    rw [Pipeline.ownSems0_none]
    have hsplit := Pipeline.arrays_of_unscopedBufs (p := 1) (pcfgs (F := F)) adm (pdats1 (V1 Wv) n) launch1.win launch1.arr_whole c
      ((pdats1 (V1 Wv) n 1 c).share_full fun _ => rfl) (V1 Wv c) fun _ => rfl
    rw [Pipeline.unscopedBufs_held] at hsplit
    unfold Rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (pdats1 (V1 Wv) n 1 c).Φ 0 = iprop(Pipeline.scopedRest spec1 c ∗ ∃ r, prngReg c r) from rfl]
    iintro ⟨Hp, -, Hr⟩
    isplitl [Hr]; · iexact Hr
    iexact Hp
  hout c := by
    rw [Pipeline.ownSems0_none, show (pdats1 (V1 Wv) n 1 c).Φ (Fin.last _) = iprop(Pipeline.scopedRest spec1 c ∗ ∃ r, prngReg c r) from rfl]
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats1 (V1 Wv) n) ((pdats1 (V1 Wv) n 1 c).share_full fun _ => rfl)
      (V1 Wv c) (V1' Wv n c) ((pdats1 (V1 Wv) n 1 c).arrAt · cfg1.N) (hF1 Wv n c) (hrest1 Wv n c)
    rw [Pipeline.unscopedBufs_held] at hjoin
    unfold Rest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

end Seg1

/-- What the region leaves: every unscoped buffer but its output as entered; the output at the body's payload of the
    inputs as entered. -/
def Exit1 (Wv Wv' : Valuation τ sig (Elt F)) : Prop :=
  (∀ b ∈ UC, b ≠ Proc.devRef .tc main_v11 → Wv' b = Wv b)
    ∧ Wv' (Proc.devRef .tc main_v11) = k1_pay1 (Wv (Proc.devRef .tc main_v1)) (Wv (Proc.devRef .tc main_v9)) (Wv (Proc.devRef .tc main_v10))

/-- The exit contents are as `Exit1` says. -/
theorem exit1 (Wv : Valuation τ sig (Elt F)) (n : ℕ) (d : Dev nD) : Exit1 Wv (W1' Wv n d) := by
  refine ⟨fun b hb hne => ?_, ?_⟩
  · obtain ⟨b', -, rfl⟩ := Finset.mem_map.mp (Finset.mem_filter.mp hb).1
    by_cases h : ∃ w, Pipeline.arrRef spec1 w = b'
    · obtain ⟨w, rfl⟩ := h
      show W1' Wv n d (Proc.devRef .tc (Pipeline.arrRef spec1 w)) = _
      rw [W1'_arr]
      fin_cases w
      · exact ((dat1 (V1 Wv) n d).arrAt_in 0 rfl _).trans (A_eq1 (V1 Wv) n d 0)
      · exact ((dat1 (V1 Wv) n d).arrAt_in 1 rfl _).trans (A_eq1 (V1 Wv) n d 1)
      · exact ((dat1 (V1 Wv) n d).arrAt_in 2 rfl _).trans (A_eq1 (V1 Wv) n d 2)
      · exact absurd rfl hne
    · exact W1'_of_ne Wv n d b' fun w e => h ⟨w, e⟩
  · exact (W1'_arr Wv n d 3).trans (arrAt1_3 (V1 Wv) n d)

set_option backward.isDefEq.respectTransparency.types false in
set_option maxHeartbeats 1000000 in
/-- The pallas_call entered inside the SparseCore program: the region's step in the pipelines' signature, lifted to the
    extended body table. -/
theorem region1 : RegionSpec (F := F) 1 0 Exit1 := by
  unfold RegionSpec
  intro d Wv Φ
  have hwp := Pipeline.RegionSeg.wp (pcfgs (F := F)) adm (pdats1 (V1 Wv) 0) none cellOf_inj EP defs₀ 𝒱₀ (K (F := F)).L (K (F := F)).lev
    (reg1 Wv 0) d none (fun _ h => by cases h) (fun _ => .ret ⟨⟩) Φ
  rw [show (reg1 Wv 0).post d = iprop(held (d : Thread nD τ) UC (W1' Wv 0 d) ∗ Rest d 0) from rfl,
    show (reg1 Wv 0).pre d = iprop(held (d : Thread nD τ) UC Wv ∗ Rest d 0) from rfl] at hwp
  have hlift := ((K (F := F)).wp_liftProg (D (F := F)) 𝒱 (T d) Set.univ none (.op (.customCall (Pipeline.entry 1) ()) fun _ => .ret ⟨⟩) Φ)
  have hlift' : (wp Idealize.ShloMosaic.frame (wpE (D (F := F)) 𝒱 (SparseCore.T d) none) Set.univ
        (Prog.op (TpuEff.customCall (Pipeline.entry 1) ()) fun x => Prog.ret PUnit.unit)) Φ ⊢
    (wp Idealize.ShloMosaic.frame (wpE ((K (F := F)).defs D) 𝒱 (SparseCore.T d) none) Set.univ
        (Prog.lift (TpuEff.customCall (SparseCore.inner (Pipeline.entry 1)) ()))) Φ := hlift
  refine BIBase.Entails.trans ?_ hlift'
  refine BIBase.Entails.trans ?_ hwp
  have hexit : Exit1 Wv (W1' Wv 0 d) := exit1 Wv 0 d
  iintro ⟨Hlev, Hbd, Hheld, Hrest, ⟨Hg, Ht⟩, Hk⟩
  isplitl [Hk]
  · iintro ⟨Hbd, Hheld, Hrest⟩
    rw [wp_ret]; imodintro
    iapply Hk $$ %(W1' Wv 0 d) %hexit
    isplitl [Hbd]; · iexact Hbd
    isplitl [Hheld]; · iexact Hheld
    iexact Hrest
  isplitl [Hbd]; · iexact Hbd
  isplitl [Hheld Hrest]
  · isplitl [Hheld]; · iexact Hheld
    iexact Hrest
  isplitl [Hlev]; · iexact Hlev
  isplitl [Hg]; · iexact Hg
  iexact Ht

end Cert.KernelIdeal.Hand

end
-- ==== Proof.KI.Regions3.lean ====
/-
  The third TensorCore pallas_call of @main (pipeline 2), entered as a region inside the SparseCore program, after the
  SparseCore call: its proof data, body obligation and segment record, what its output array holds at the exit, and
  the region's rule lifted to the extended body table.
-/
import proofs.«208586_g21955872817707_cont_8to1_688_77_alg».proof.Proof.KI.RegionsLib
import proofs.«208586_g21955872817707_cont_8to1_688_77_alg».proof.Proof.Gen.KernelIdeal.Launch
import proofs.«208586_g21955872817707_cont_8to1_688_77_alg».proof.Proof.Gen.KernelIdeal.Skeleton
import proofs.«208586_g21955872817707_cont_8to1_688_77_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

variable {F : FTy → Type} [FloatOps F]

local notation "𝕄" => MT nD τ sig (HIx 1) (Elt F) ℕ UU ℕ

/-! # The third pallas_call (pipeline 2): out = relu(p + m[0:10000] · w2bᵀ), the whole block stored -/

section Region3

variable (Vv : (c : Dev nD) → (b : Ref sig .tc) → Buf (Elt F) ((c : Thread nD τ).loc b))

/-- Window `w`'s block at the one point, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (Vv c (Pipeline.arrRef spec3 w))

/-- An input window's staging buffer holds its block when the body runs: it is fetched at the one point. -/
theorem before3_0_of {c : Dev nD} (dat : Dat τ (Elt F) (HIx 1) ℕ UU ℕ cfg3 c) (hA : dat.A 0 = Vv c (Pipeline.arrRef spec3 0))
    (hafter : ∀ t, dat.after 0 t = iblk3 Vv c 0 t) (t : Fin cfg3.N) (d) : dat.before 0 t d = iblk3 Vv c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) (HIx 1) ℕ UU ℕ cfg3 c) (hA : dat.A 1 = Vv c (Pipeline.arrRef spec3 1))
    (hafter : ∀ t, dat.after 1 t = iblk3 Vv c 1 t) (t : Fin cfg3.N) (d) : dat.before 1 t d = iblk3 Vv c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) (HIx 1) ℕ UU ℕ cfg3 c) (hA : dat.A 2 = Vv c (Pipeline.arrRef spec3 2))
    (hafter : ∀ t, dat.after 2 t = iblk3 Vv c 2 t) (t : Fin cfg3.N) (d) : dat.before 2 t d = iblk3 Vv c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body reads and writes. -/
abbrev rA3 : Rect S10000x128 := Rect.unit (s := S10000x128) ![0, 0] S10000x128.size inb_S10000x128_S10000x128_0_0
abbrev rB3 : Rect S128x128 := Rect.unit (s := S128x128) ![0, 0] S128x128.size inb_S128x128_S128x128_0_0
/-- Rows [0, 10000) of the 10240-row buffer. -/
abbrev rD3 : Rect S10240x128 := Rect.unit (s := S10240x128) ![0, 0] S10000x128.size inb_S10240x128_S10000x128_0_0

/-- The output window's staging buffer after the body, from the input windows' blocks: its one store. -/
def out3_3 (x0 : Vec F S10000x128 .f32) (x1 : Vec F S10240x128 .f32) (x2 : Vec F S128x128 .f32) : Vec F S10000x128 .f32 :=
  View.canon [⟨rA3, k3_pay1 (View.ld x1 rD3) (View.ld x2 rB3) (View.ld x0 rA3)⟩]

/-- The store covers the buffer. -/
theorem cover3_3 (p0 : Vec F S10000x128 .f32) (y : S10000x128.Idx) :
    ∃ pc ∈ ([⟨rA3, p0⟩] : List (View.Piece (Elt F) S10000x128 .f32)), y ∈ pc.1.set :=
  View.cover_of_tiled [⟨rA3, p0⟩] S10000x128.size (by rfl) y

set_option maxHeartbeats 1000000 in
/-- The body on whole staging memrefs, the inputs' at contents `x0 x1 x2` and the output's at anything, leaves the
    inputs' as they were and the output's at `out3_3` of them. -/
theorem sound_kernel3 (c : Dev nD) (E : Set ℕ) (arg0 : Memref sig .tc .vmem S10000x128 .f32) (harg0 : arg0.IsWhole)
    (arg1 : Memref sig .tc .vmem S10240x128 .f32) (harg1 : arg1.IsWhole) (arg2 : Memref sig .tc .vmem S128x128 .f32) (harg2 : arg2.IsWhole)
    (arg3 : Memref sig .tc .vmem S10000x128 .f32) (harg3 : arg3.IsWhole)
    (x0 : Vec F S10000x128 .f32) (x1 : Vec F S10240x128 .f32) (x2 : Vec F S128x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ Kk ⟨⟩))
      ⊢ wp frame (wpE (defs₀ (F := F)) Variants.none c none) E (cc3__tc_post_body arg0 harg0 arg1 harg1 arg2 harg2 arg3 harg3) Kk := by
  simp only [cc3__tc_post_body_eq_skeleton]; unfold cc3__tc_post_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

variable (n : ℕ)

/-- The proof data of the pipeline on device `c` before SparseCore call `n`: the arrays as the region finds them; after
    the body each input's buffer at its block and the output's at its one store; the invariant the scoped buffers no
    window stages and the generator register; full shares; the TensorCore owing the launch protocol its start signals
    throughout, its recorded waits at or below level `8 n`. -/
def dat3 (c : Dev nD) : Dat τ (Elt F) (HIx 1) ℕ UU ℕ cfg3 c where
  A w := Vv c (Pipeline.arrRef spec3 w)
  after w t := match w with
    | ⟨0, _⟩ => iblk3 Vv c 0 t
    | ⟨1, _⟩ => iblk3 Vv c 1 t
    | ⟨2, _⟩ => iblk3 Vv c 2 t
    | ⟨3, _⟩ => out3_3 (iblk3 Vv c 0 t) (iblk3 Vv c 1 t) (iblk3 Vv c 2 t)
  Φ _ := iprop(Pipeline.scopedRest spec3 c ∗ ∃ r, prngReg c r)
  q _ := fullShare
  owed _ := (K (F := F)).Otc c n
  recorded _ := {p | (K (F := F)).lev ((c : Thread nD τ), p.1) p.2 ≤ 8 * n}

theorem A_eq3 (c : Dev nD) (w : Fin cfg3.W) : (dat3 Vv n c).A w = Vv c (Pipeline.arrRef spec3 w) := by
  dsimp only [dat3]
theorem after3_0 (c : Dev nD) (t : Fin cfg3.N) : (dat3 Vv n c).after 0 t = iblk3 Vv c 0 t := by dsimp only [dat3]
theorem after3_1 (c : Dev nD) (t : Fin cfg3.N) : (dat3 Vv n c).after 1 t = iblk3 Vv c 1 t := by dsimp only [dat3]
theorem after3_2 (c : Dev nD) (t : Fin cfg3.N) : (dat3 Vv n c).after 2 t = iblk3 Vv c 2 t := by dsimp only [dat3]
theorem after3_3 (c : Dev nD) (t : Fin cfg3.N) :
    (dat3 Vv n c).after 3 t = out3_3 (iblk3 Vv c 0 t) (iblk3 Vv c 1 t) (iblk3 Vv c 2 t) := by dsimp only [dat3]

theorem before3_0 (c : Dev nD) (t : Fin cfg3.N) (d) : (dat3 Vv n c).before 0 t d = iblk3 Vv c 0 t :=
  before3_0_of Vv (dat3 Vv n c) (A_eq3 Vv n c 0) (after3_0 Vv n c) t d
theorem before3_1 (c : Dev nD) (t : Fin cfg3.N) (d) : (dat3 Vv n c).before 1 t d = iblk3 Vv c 1 t :=
  before3_1_of Vv (dat3 Vv n c) (A_eq3 Vv n c 1) (after3_1 Vv n c) t d
theorem before3_2 (c : Dev nD) (t : Fin cfg3.N) (d) : (dat3 Vv n c).before 2 t d = iblk3 Vv c 2 t :=
  before3_2_of Vv (dat3 Vv n c) (A_eq3 Vv n c 2) (after3_2 Vv n c) t d

/-! ## The body obligation -/

/-- What the body is called with at the point, -/
def bodyPre3 (c : Dev nD) (t : Fin cfg3.N) : sProp 𝕄 :=
  iprop((dat3 Vv n c).Φ t.castSucc ∗ (dat3 Vv n c).owesAt none t.castSucc
    ∗ (∃ d, owns (c : Thread nD τ) (st3_0 t) fullShare ((dat3 Vv n c).before 0 t d))
    ∗ (∃ d, owns (c : Thread nD τ) (st3_1 t) fullShare ((dat3 Vv n c).before 1 t d))
    ∗ (∃ d, owns (c : Thread nD τ) (st3_2 t) fullShare ((dat3 Vv n c).before 2 t d))
    ∗ (∃ d, owns (c : Thread nD τ) (st3_3 t) fullShare ((dat3 Vv n c).before 3 t d)))

/-- and what it returns. -/
def bodyPost3 (c : Dev nD) (t : Fin cfg3.N) : sProp 𝕄 :=
  iprop((dat3 Vv n c).Φ t.succ ∗ (dat3 Vv n c).owesAt none t.succ
    ∗ owns (c : Thread nD τ) (st3_0 t) fullShare ((dat3 Vv n c).after 0 t)
    ∗ owns (c : Thread nD τ) (st3_1 t) fullShare ((dat3 Vv n c).after 1 t)
    ∗ owns (c : Thread nD τ) (st3_2 t) fullShare ((dat3 Vv n c).after 2 t)
    ∗ owns (c : Thread nD τ) (st3_3 t) fullShare ((dat3 Vv n c).after 3 t))

theorem sound_body3 (c : Dev nD) (t : Fin cfg3.N) :
    bodyPre3 Vv n c t ⊢ wp frame (wpE (defs₀ (F := F)) Variants.none c none) Set.univ (bodyAt3 t) (fun _ => bodyPost3 Vv n c t) := by
  unfold bodyPre3 bodyPost3 bodyAt3
  simp only [before3_0, before3_1, before3_2]
  rw [show (dat3 Vv n c).Φ t.succ = (dat3 Vv n c).Φ t.castSucc from rfl,
    show (dat3 Vv n c).owesAt none t.succ = (dat3 Vv n c).owesAt none t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ (iblk3 Vv c 0 t) (iblk3 Vv c 1 t) (iblk3 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) Vv n c) (defs₀ (F := F)) Variants.none none Set.univ := fun t => by
  rw [bigSep_W3, bigSep_W3]
  exact sound_body3 Vv n c t

/-! ## What the output array holds after the run -/

/-- A window that is its whole array reads the array. -/
theorem iblk3_0 (c : Dev nD) (t : Fin cfg3.N) : iblk3 Vv c 0 t = Vv c main_v11 := by
  funext y
  have hy : ((cfg3.win 0).blk t).view.emb y = y := by
    funext a; apply Fin.ext
    exact Pipeline.Window.rect_emb_val_of_index_zero (cfg3.win 0) t a rfl y
  unfold iblk3
  rw [View.read_apply, hy]
  rfl
theorem iblk3_1 (c : Dev nD) (t : Fin cfg3.N) : iblk3 Vv c 1 t = Vv c main_v12 := by
  funext y
  have hy : ((cfg3.win 1).blk t).view.emb y = y := by
    funext a; apply Fin.ext
    exact Pipeline.Window.rect_emb_val_of_index_zero (cfg3.win 1) t a rfl y
  unfold iblk3
  rw [View.read_apply, hy]
  rfl
theorem iblk3_2 (c : Dev nD) (t : Fin cfg3.N) : iblk3 Vv c 2 t = Vv c main_v13 := by
  funext y
  have hy : ((cfg3.win 2).blk t).view.emb y = y := by
    funext a; apply Fin.ext
    exact Pipeline.Window.rect_emb_val_of_index_zero (cfg3.win 2) t a rfl y
  unfold iblk3
  rw [View.read_apply, hy]
  rfl

/-- The one store, through the whole buffer, leaves its payload; a load through a whole buffer reads it. -/
theorem out3_3_eq (x0 : Vec F S10000x128 .f32) (x1 : Vec F S10240x128 .f32) (x2 : Vec F S128x128 .f32) :
    out3_3 x0 x1 x2 = k3_pay1 (View.ld x1 rD3) x2 x0 := by
  unfold out3_3
  rw [View.canon_unit_zero zero2, View.ld_unit_zero zero2, View.ld_unit_zero zero2]

/-- The output array after the run: the payload of the arrays as entered. -/
theorem arrAt3_3 (c : Dev nD) :
    (dat3 Vv n c).arrAt 3 cfg3.N = k3_pay1 (View.ld (Vv c main_v12) rD3) (Vv c main_v13) (Vv c main_v11) := by
  refine (dat3 Vv n c).arrAt_eq_of_cover 3 _ (fun t _ => ?_) (fun i => ⟨t3_0, flush3_3 _, ?_⟩)
  · funext y
    have hy : ((cfg3.win 3).blk t).view.emb y = y := by
      funext a; apply Fin.ext
      exact Pipeline.Window.rect_emb_val_of_index_zero (cfg3.win 3) t a rfl y
    show (dat3 Vv n c).after 3 t y = _root_.cast _ (k3_pay1 (View.ld (Vv c main_v12) rD3) (Vv c main_v13) (Vv c main_v11) (((cfg3.win 3).blk t).view.emb y))
    rw [hy, after3_3, out3_3_eq, iblk3_0, iblk3_1, iblk3_2]; rfl
  · have hy : ((cfg3.win 3).blk t3_0).view.emb i = i := by
      funext a; apply Fin.ext
      exact Pipeline.Window.rect_emb_val_of_index_zero (cfg3.win 3) t3_0 a rfl i
    rw [← hy]; exact View.emb_mem_set _ _

/-! ## The region as a segment -/

/-- The family of proof data the region runs under: its own at its pipeline, idle data at the others. -/
def pdats3 : (p : Fin 3) → (c : Dev nD) → Dat τ (Elt F) (HIx 1) ℕ UU ℕ (Pipeline.pin (pcfgs (F := F)) adm p) c
  | ⟨0, _⟩ => fun c => idle0 Vv c
  | ⟨1, _⟩ => fun c => idle1 Vv c
  | ⟨2, _⟩ => fun c => dat3 Vv n c

end Region3

section Seg3

variable (Wv : Valuation τ sig (Elt F)) (n : ℕ)

/-- The entry contents at the TensorCore's references. -/
abbrev V3 : (c : Dev nD) → (b : Ref sig .tc) → Buf (Elt F) ((c : Thread nD τ).loc b) := fun _ b => Wv b

/-- The contents at the region's exit: its arrays at what the pipeline leaves, every other buffer as entered. -/
def W3' (c : Dev nD) : Valuation τ sig (Elt F) :=
  Pipeline.withArrays spec3 c Wv fun w => (dat3 (V3 Wv) n c).arrAt w cfg3.N
theorem W3'_arr (c : Dev nD) (w : Fin cfg3.W) :
    W3' Wv n c (Proc.devRef .tc (Pipeline.arrRef spec3 w)) = (dat3 (V3 Wv) n c).arrAt w cfg3.N := by
  unfold W3'; exact Pipeline.withArrays_arr spec3 launch3.win.arr_inj c _ _ w
theorem W3'_of_ne (c : Dev nD) (b : Ref sig .tc) (hb : ∀ w, Pipeline.arrRef spec3 w ≠ b) :
    W3' Wv n c (Proc.devRef .tc b) = Wv (Proc.devRef .tc b) := by
  unfold W3'; exact Pipeline.withArrays_of_ne spec3 c _ _ b hb
abbrev V3' : (c : Dev nD) → (b : Ref sig .tc) → Buf (Elt F) ((c : Thread nD τ).loc b) := fun c b => W3' Wv n c b
theorem hF3 (c : Dev nD) (w : Fin cfg3.W) : (dat3 (V3 Wv) n c).arrAt w cfg3.N = V3' Wv n c (Pipeline.arrRef spec3 w) :=
  (W3'_arr Wv n c w).symm
theorem hrest3 (c : Dev nD) : ∀ b, b ∉ Finset.univ.image (Pipeline.arrRef spec3) → V3' Wv n c b = V3 Wv c b :=
  fun b hb => W3'_of_ne Wv n c b fun w e => hb (Finset.mem_image.mpr ⟨w, Finset.mem_univ _, e⟩)

set_option backward.isDefEq.respectTransparency.types false in
/-- The pallas_call over the thread state: entered from every unscoped buffer at `Wv`, left at `W3'`; the generator
    register into the invariant and out; the start signals owed throughout, the recorded waits kept at or below `8 n`. -/
def reg3 : Pipeline.RegionSeg (pcfgs (F := F)) adm (pdats3 (V3 Wv) n) none defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation3 (V3 Wv) n c).loose
  hwaits c := Pipeline.cellsWaits_intro (Pipeline.pin (pcfgs (F := F)) adm) (pdats3 (V3 Wv) n) none 2 c fun w s t =>
    (K (F := F)).mayWait_none _ (fun g => Otc_none c n g)
  pre c := iprop(held (c : Thread nD τ) UC Wv ∗ Rest c n)
  post c := iprop(held (c : Thread nD τ) UC (W3' Wv n c) ∗ Rest c n)
  X c := iprop(∃ r, prngReg c r)
  Y c := iprop(∃ r, prngReg c r)
  Z c := Pipeline.unscopedRest (Ix := HIx 1) (Name := ℕ) (U := UU) (Lvl := ℕ) spec3 c (V3 Wv c)
  hentry c := by
    rw [Pipeline.ownSems0_none]
    have hsplit := Pipeline.arrays_of_unscopedBufs (p := 2) (pcfgs (F := F)) adm (pdats3 (V3 Wv) n) launch3.win launch3.arr_whole c
      ((pdats3 (V3 Wv) n 2 c).share_full fun _ => rfl) (V3 Wv c) fun _ => rfl
    rw [Pipeline.unscopedBufs_held] at hsplit
    unfold Rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (pdats3 (V3 Wv) n 2 c).Φ 0 = iprop(Pipeline.scopedRest spec3 c ∗ ∃ r, prngReg c r) from rfl]
    iintro ⟨Hp, -, Hr⟩
    isplitl [Hr]; · iexact Hr
    iexact Hp
  hout c := by
    rw [Pipeline.ownSems0_none, show (pdats3 (V3 Wv) n 2 c).Φ (Fin.last _) = iprop(Pipeline.scopedRest spec3 c ∗ ∃ r, prngReg c r) from rfl]
    iintro ⟨Hr, Hp⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats3 (V3 Wv) n) ((pdats3 (V3 Wv) n 2 c).share_full fun _ => rfl)
      (V3 Wv c) (V3' Wv n c) ((pdats3 (V3 Wv) n 2 c).arrAt · cfg3.N) (hF3 Wv n c) (hrest3 Wv n c)
    rw [Pipeline.unscopedBufs_held] at hjoin
    unfold Rest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

end Seg3

/-- What the region leaves: every unscoped buffer but its output as entered; the output at the body's payload of the
    inputs as entered. -/
def Exit3 (Wv Wv' : Valuation τ sig (Elt F)) : Prop :=
  (∀ b ∈ UC, b ≠ Proc.devRef .tc main_v14 → Wv' b = Wv b)
    ∧ Wv' (Proc.devRef .tc main_v14) = k3_pay1 (View.ld (Wv (Proc.devRef .tc main_v12)) rD3) (Wv (Proc.devRef .tc main_v13)) (Wv (Proc.devRef .tc main_v11))

/-- The exit contents are as `Exit3` says. -/
theorem exit3 (Wv : Valuation τ sig (Elt F)) (n : ℕ) (d : Dev nD) : Exit3 Wv (W3' Wv n d) := by
  refine ⟨fun b hb hne => ?_, ?_⟩
  · obtain ⟨b', -, rfl⟩ := Finset.mem_map.mp (Finset.mem_filter.mp hb).1
    by_cases h : ∃ w, Pipeline.arrRef spec3 w = b'
    · obtain ⟨w, rfl⟩ := h
      show W3' Wv n d (Proc.devRef .tc (Pipeline.arrRef spec3 w)) = _
      rw [W3'_arr]
      fin_cases w
      · exact ((dat3 (V3 Wv) n d).arrAt_in 0 rfl _).trans (A_eq3 (V3 Wv) n d 0)
      · exact ((dat3 (V3 Wv) n d).arrAt_in 1 rfl _).trans (A_eq3 (V3 Wv) n d 1)
      · exact ((dat3 (V3 Wv) n d).arrAt_in 2 rfl _).trans (A_eq3 (V3 Wv) n d 2)
      · exact absurd rfl hne
    · exact W3'_of_ne Wv n d b' fun w e => h ⟨w, e⟩
  · exact (W3'_arr Wv n d 3).trans (arrAt3_3 (V3 Wv) n d)

set_option backward.isDefEq.respectTransparency.types false in
set_option maxHeartbeats 1000000 in
/-- The pallas_call entered inside the SparseCore program: the region's step in the pipelines' signature, lifted to the
    extended body table. -/
theorem region3 : RegionSpec (F := F) 2 1 Exit3 := by
  unfold RegionSpec
  intro d Wv Φ
  have hwp := Pipeline.RegionSeg.wp (pcfgs (F := F)) adm (pdats3 (V3 Wv) 1) none cellOf_inj EP defs₀ 𝒱₀ (K (F := F)).L (K (F := F)).lev
    (reg3 Wv 1) d none (fun _ h => by cases h) (fun _ => .ret ⟨⟩) Φ
  rw [show (reg3 Wv 1).post d = iprop(held (d : Thread nD τ) UC (W3' Wv 1 d) ∗ Rest d 1) from rfl,
    show (reg3 Wv 1).pre d = iprop(held (d : Thread nD τ) UC Wv ∗ Rest d 1) from rfl] at hwp
  have hlift := ((K (F := F)).wp_liftProg (D (F := F)) 𝒱 (T d) Set.univ none (.op (.customCall (Pipeline.entry 2) ()) fun _ => .ret ⟨⟩) Φ)
  have hlift' : (wp Idealize.ShloMosaic.frame (wpE (D (F := F)) 𝒱 (SparseCore.T d) none) Set.univ
        (Prog.op (TpuEff.customCall (Pipeline.entry 2) ()) fun x => Prog.ret PUnit.unit)) Φ ⊢
    (wp Idealize.ShloMosaic.frame (wpE ((K (F := F)).defs D) 𝒱 (SparseCore.T d) none) Set.univ
        (Prog.lift (TpuEff.customCall (SparseCore.inner (Pipeline.entry 2)) ()))) Φ := hlift
  refine BIBase.Entails.trans ?_ hlift'
  refine BIBase.Entails.trans ?_ hwp
  have hexit : Exit3 Wv (W3' Wv 1 d) := exit3 Wv 1 d
  iintro ⟨Hlev, Hbd, Hheld, Hrest, ⟨Hg, Ht⟩, Hk⟩
  isplitl [Hk]
  · iintro ⟨Hbd, Hheld, Hrest⟩
    rw [wp_ret]; imodintro
    iapply Hk $$ %(W3' Wv 1 d) %hexit
    isplitl [Hbd]; · iexact Hbd
    isplitl [Hheld]; · iexact Hheld
    iexact Hrest
  isplitl [Hbd]; · iexact Hbd
  isplitl [Hheld Hrest]
  · isplitl [Hheld]; · iexact Hheld
    iexact Hrest
  isplitl [Hlev]; · iexact Hlev
  isplitl [Hg]; · iexact Hg
  iexact Ht

end Cert.KernelIdeal.Hand

end
-- ==== Proof.KI.Assemble.lean ====
/-
  The run's relations made concrete: what the SparseCore call is handed and hands back in terms of the tiles'
  payloads, that no stretch of @main, no region and no call writes an argument array, and the kernel's frame.
-/
import proofs.«208586_g21955872817707_cont_8to1_688_77_alg».proof.Proof.KI.Launch
import proofs.«208586_g21955872817707_cont_8to1_688_77_alg».proof.Proof.KI.TileSplit
import proofs.«208586_g21955872817707_cont_8to1_688_77_alg».proof.Proof.KI.TileKits
import proofs.«208586_g21955872817707_cont_8to1_688_77_alg».proof.Proof.KI.Regions1
import proofs.«208586_g21955872817707_cont_8to1_688_77_alg».proof.Proof.KI.Regions3

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

-- whether the tiles' results are claimed at their values (`True`) or only held (`False`)
variable (v : Prop)

local notation "𝕄" => MT nD τ sig (HIx 1) (Elt F) ℕ UU ℕ

abbrev dv (b : Ref sig .tc) : DevRef τ sig := Proc.devRef .tc b

/-! ## What each host stretch writes -/

theorem hostOps0a_writes : (hostOps0a : List (HloOp τ sig (Elt F))).Forall fun op => op.writes ⊆ (([main_v0, main_v1, main_v2, main_v3, main_v4, main_c] : List (Ref sig .tc)).map (Proc.devRef (τ := τ) .tc)).toFinset := by
  simp only [List.Forall]
  repeat' constructor
  all_goals (simp only [StableHlo.nullary_writes, StableHlo.unary_writes, StableHlo.binary_writes, StableHlo.reshape_writes, Finset.singleton_subset_iff, List.mem_toFinset]; exact List.mem_map_of_mem (by decide))
theorem hostOps0b_writes : (hostOps0b : List (HloOp τ sig (Elt F))).Forall fun op => op.writes ⊆ (([main_call0_v0, main_v5] : List (Ref sig .tc)).map (Proc.devRef (τ := τ) .tc)).toFinset := by
  simp only [List.Forall]
  repeat' constructor
  all_goals (simp only [StableHlo.nullary_writes, StableHlo.unary_writes, StableHlo.binary_writes, StableHlo.reshape_writes, Finset.singleton_subset_iff, List.mem_toFinset]; exact List.mem_map_of_mem (by decide))
theorem hostOps0c_writes : (hostOps0c : List (HloOp τ sig (Elt F))).Forall fun op => op.writes ⊆ (([main_v6, main_v7] : List (Ref sig .tc)).map (Proc.devRef (τ := τ) .tc)).toFinset := by
  simp only [List.Forall]
  repeat' constructor
  all_goals (simp only [StableHlo.nullary_writes, StableHlo.unary_writes, StableHlo.binary_writes, StableHlo.reshape_writes, Finset.singleton_subset_iff, List.mem_toFinset]; exact List.mem_map_of_mem (by decide))
theorem hostOps1_writes : (hostOps1 : List (HloOp τ sig (Elt F))).Forall fun op => op.writes ⊆ (([main_v9, main_v10] : List (Ref sig .tc)).map (Proc.devRef (τ := τ) .tc)).toFinset := by
  simp only [List.Forall]
  repeat' constructor
  all_goals (simp only [StableHlo.nullary_writes, StableHlo.unary_writes, StableHlo.binary_writes, StableHlo.reshape_writes, Finset.singleton_subset_iff, List.mem_toFinset]; exact List.mem_map_of_mem (by decide))
theorem hostOps2_writes : (hostOps2 : List (HloOp τ sig (Elt F))).Forall fun op => op.writes ⊆ (([main_v13] : List (Ref sig .tc)).map (Proc.devRef (τ := τ) .tc)).toFinset := by
  simp only [List.Forall]
  repeat' constructor
  all_goals (simp only [StableHlo.nullary_writes, StableHlo.unary_writes, StableHlo.binary_writes, StableHlo.reshape_writes, Finset.singleton_subset_iff, List.mem_toFinset]; exact List.mem_map_of_mem (by decide))
theorem hostOps3_writes : (hostOps3 : List (HloOp τ sig (Elt F))).Forall fun op => op.writes ⊆ (([main_v15, main_v16] : List (Ref sig .tc)).map (Proc.devRef (τ := τ) .tc)).toFinset := by
  simp only [List.Forall]
  repeat' constructor
  all_goals (simp only [StableHlo.nullary_writes, StableHlo.unary_writes, StableHlo.binary_writes, StableHlo.reshape_writes, Finset.singleton_subset_iff, List.mem_toFinset]; exact List.mem_map_of_mem (by decide))

variable (m : (ℓ : Loc nD τ sig) → Buf (Elt F) ℓ) (ρ : Dev nD → PrngReg)

/-- A buffer the host operations before the first pallas_call do not write is as launched. -/
theorem W1_of (d : Dev nD) (r : Ref sig .tc)
    (h : r ∉ ([main_v0, main_v1, main_v2, main_v3, main_v4, main_c, main_call0_v0, main_v5, main_v6, main_v7] : List (Ref sig .tc))) :
    W1 m d (dv r) = m (d, dv r) := by
  have ha : r ∉ ([main_v0, main_v1, main_v2, main_v3, main_v4, main_c] : List (Ref sig .tc)) := fun hm => h (by simp only [List.mem_cons] at hm ⊢; tauto)
  have hb : r ∉ ([main_call0_v0, main_v5] : List (Ref sig .tc)) := fun hm => h (by simp only [List.mem_cons] at hm ⊢; tauto)
  have hc : r ∉ ([main_v6, main_v7] : List (Ref sig .tc)) := fun hm => h (by simp only [List.mem_cons] at hm ⊢; tauto)
  show StableHlo.after hostOps0c (StableHlo.after hostOps0b (StableHlo.after hostOps0a (W0 m d))) (dv r) = _
  rw [StableHlo.after_of_writes_sub hostOps0c _ hostOps0c_writes hc, StableHlo.after_of_writes_sub hostOps0b _ hostOps0b_writes hb,
    StableHlo.after_of_writes_sub hostOps0a _ hostOps0a_writes ha]

/-! ## The SparseCore call's operands -/

/-- The padded index array, a function of the launch memory: what the host operations leave in `main_v6`. -/
def Iarr (d : Dev nD) : Buf (Elt F) (iLoc d) := W1 m d (dv main_v6)

/-- The first 10000 rows of z, a function of the launch memory: the first pallas_call's payload of what the host
    operations leave in its operands. -/
def Zf0 (d : Dev nD) : S10000x128.Idx → Elt F .f32 := k0_pay1 (W1 m d (dv main_v1)) (W1 m d (dv main_arg2)) (W1 m d (dv main_v7))

/-- The six argument arrays. -/
abbrev Args : List (Ref sig .tc) := [main_arg0, main_arg1, main_arg2, main_arg3, main_arg4, main_arg5]
/-- The argument arrays hold their launch contents. -/
def ArgsKept (d : Dev nD) (W : Valuation τ sig (Elt F)) : Prop := ∀ r ∈ Args, W (dv r) = m (d, dv r)

/-- What the buffers hold when the SparseCore call is made: the index array as computed, z's first 10000 rows as computed. -/
def PreCall (d : Dev nD) (Wc : Valuation τ sig (Elt F)) : Prop :=
  Wc (dv main_v6) = Iarr m d ∧ ZOn (Zf0 m d) Finset.univ (Wc (dv main_v8)) ∧ ArgsKept m d Wc

/-- What they hold after it: z and the indices as before, the maxima's array at the two SparseCores' results, all else kept. -/
def PostCall (d : Dev nD) (Wv Wv' : Valuation τ sig (Elt F)) : Prop :=
  Wv' (dv main_v6) = Wv (dv main_v6) ∧ ZOn (Zf0 m d) Finset.univ (Wv' (dv main_v8))
    ∧ (MaxSpec v (Zf0 m d) (Iarr m d) 0 (Wv' (dv main_v12)) ∧ MaxSpec v (Zf0 m d) (Iarr m d) 1 (Wv' (dv main_v12)))
    ∧ ∀ b, b ≠ dv main_v8 → b ≠ dv main_v12 → Wv' b = Wv b

/-! ## The call's operands as the two SparseCores' payloads, and back -/

omit [FloatOps F] in
theorem held_C3 (d : Dev nD) (Wv : Valuation τ sig (Elt F)) :
    (held (SparseCore.T d) C3 Wv : sProp 𝕄)
      = iprop((zLoc d ↦{fullShare} Wv (dv main_v8)) ∗ (iLoc d ↦{fullShare} Wv (dv main_v6)) ∗ (mLoc d ↦{fullShare} Wv (dv main_v12))) := by
  unfold StableHlo.held C3
  rw [SparseCore.bigSep_insert' (by decide), SparseCore.bigSep_insert' (by decide), bigSep_singleton]

variable (Zf : S10000x128.Idx → Elt F .f32) (I : (d : Dev nD) → Buf (Elt F) (iLoc d))

theorem st_two (d : Dev nD) :
    (bigSep Finset.univ fun c : Fin ((K (F := F)).nCore 0) => (P v Zf I).st 0 d c) = iprop(stC Zf I d 0 ∗ stC Zf I d 1) := by
  show (bigSep (Finset.univ : Finset (Fin 2)) fun c => stC Zf I d (Fin.cast nCore_zero c)) = _
  rw [show (Finset.univ : Finset (Fin 2)) = {0, 1} by decide, SparseCore.bigSep_insert' (by decide), bigSep_singleton]
  rfl
theorem dn_two (d : Dev nD) :
    (bigSep Finset.univ fun c : Fin ((K (F := F)).nCore 0) => (P v Zf I).dn 0 d c) = iprop(dnC v Zf I d 0 ∗ dnC v Zf I d 1) := by
  show (bigSep (Finset.univ : Finset (Fin 2)) fun c => dnC v Zf I d (Fin.cast nCore_zero c)) = _
  rw [show (Finset.univ : Finset (Fin 2)) = {0, 1} by decide, SparseCore.bigSep_insert' (by decide), bigSep_singleton]
  rfl

omit [FloatOps F] in
theorem dev_eq (d : Dev nD) : d = 0 := Subsingleton.elim _ _

/-- The record of the call's payloads, at the launch memory's z and index array. -/
abbrev PP : (K (F := F)).Pay (nD := nD) (Val := Elt F) (Name := ℕ) (U := UU) := P v (Zf0 m 0) (Iarr m)

theorem hcall (d : Dev nD) (Wv : Valuation τ sig (Elt F)) (hP : PreCall m d Wv) :
    (held (SparseCore.T d) C3 Wv : sProp 𝕄) ⊢ bigSep Finset.univ fun c : Fin ((K (F := F)).nCore 0) => (PP v m).st 0 d c := by
  obtain ⟨hI, hZ, -⟩ := hP
  obtain rfl := dev_eq d
  rw [held_C3, st_two, hI]
  exact toCores (Zf0 m 0) (Iarr m) 0 (Wv (dv main_v8)) hZ (Wv (dv main_v12))

theorem hret (d : Dev nD) (Wv : Valuation τ sig (Elt F)) (hP : PreCall m d Wv) :
    (bigSep Finset.univ fun c : Fin ((K (F := F)).nCore 0) => (PP v m).dn 0 d c)
      ⊢ (iprop(∃ Wv', ⌜PostCall v m d Wv Wv'⌝ ∗ held (SparseCore.T d) C3 Wv') : sProp 𝕄) := by
  obtain ⟨hI, hZ, -⟩ := hP
  obtain rfl := dev_eq d
  rw [dn_two]
  refine (fromCores v (Zf0 m 0) (Iarr m) 0).trans ?_
  iintro ⟨⟨%Z, %hZ', Hz⟩, Hi, ⟨%Mf, %hM, Hm⟩⟩
  iexists (Function.update (Function.update Wv (dv main_v8) Z) (dv main_v12) Mf)
  have e8 : (Function.update (Function.update Wv (dv main_v8) Z) (dv main_v12) Mf) (dv main_v8) = Z := by
    rw [Function.update_of_ne (show dv main_v8 ≠ dv main_v12 by decide), Function.update_self]
  have e6 : (Function.update (Function.update Wv (dv main_v8) Z) (dv main_v12) Mf) (dv main_v6) = Wv (dv main_v6) := by
    rw [Function.update_of_ne (show dv main_v6 ≠ dv main_v12 by decide), Function.update_of_ne (show dv main_v6 ≠ dv main_v8 by decide)]
  have e12 : (Function.update (Function.update Wv (dv main_v8) Z) (dv main_v12) Mf) (dv main_v12) = Mf := Function.update_self _ _ _
  isplitr
  · ipureintro
    refine ⟨e6, ?_, ?_, fun b h8 h12 => ?_⟩
    · rw [e8]; exact hZ'
    · rw [e12]; exact hM
    · rw [Function.update_of_ne h12, Function.update_of_ne h8]
  rw [held_C3, e8, e6, e12, hI]
  isplitl [Hz]; · iexact Hz
  isplitl [Hi]; · iexact Hi
  iexact Hm

theorem hpostC3 (d : Dev nD) (Wv Wv' : Valuation τ sig (Elt F)) (h : PostCall v m d Wv Wv') : ∀ b ∈ UC \ C3, Wv' b = Wv b := by
  intro b hb
  have hb' := (Finset.mem_sdiff.mp hb).2
  refine h.2.2.2 b (fun e => hb' ?_) (fun e => hb' ?_)
  · rw [e]; decide
  · rw [e]; decide

/-! ## From the regions' exits to the call's precondition -/

omit [FloatOps F] in
theorem rD3_idx (y : S10000x128.Idx) : (rD3 : Rect S10240x128).idx y = emb y := by
  funext a; apply Fin.ext
  rw [LoadRect.idx_apply]
  match a with
  | 0 => show 0 + 1 * (y 0).val = (y 0).val; omega
  | 1 => show 0 + 1 * (y 1).val = (y 1).val; omega

theorem after1_of (Wa : Valuation τ sig (Elt F)) (r : Ref sig .tc) (h : r ∉ ([main_v9, main_v10] : List (Ref sig .tc))) :
    StableHlo.after hostOps1 Wa (dv r) = Wa (dv r) := StableHlo.after_of_writes_sub hostOps1 _ hostOps1_writes h
theorem after2_of (Wa : Valuation τ sig (Elt F)) (r : Ref sig .tc) (h : r ∉ ([main_v13] : List (Ref sig .tc))) :
    StableHlo.after hostOps2 Wa (dv r) = Wa (dv r) := StableHlo.after_of_writes_sub hostOps2 _ hostOps2_writes h
theorem after3_of (Wa : Valuation τ sig (Elt F)) (r : Ref sig .tc) (h : r ∉ ([main_v15, main_v16] : List (Ref sig .tc))) :
    StableHlo.after hostOps3 Wa (dv r) = Wa (dv r) := StableHlo.after_of_writes_sub hostOps3 _ hostOps3_writes h

omit [FloatOps F] in
theorem dv_mem_UC (r : Ref sig .tc) (h : ¬ (dv r : DevRef τ sig).isScoped) : dv r ∈ (UC : Finset (DevRef τ sig)) :=
  Finset.mem_filter.mpr ⟨StableHlo.devRef_mem_tcRefs r, h⟩

section Exits

variable (Exit0 : Valuation τ sig (Elt F) → Valuation τ sig (Elt F) → Prop)
variable (hE0 : ∀ Wv Wv', Exit0 Wv Wv' → (∀ b ∈ UC, b ≠ dv main_v8 → Wv' b = Wv b)
  ∧ View.ld (Wv' (dv main_v8)) rD3 = k0_pay1 (Wv (dv main_v1)) (Wv (dv main_arg2)) (Wv (dv main_v7)))

include hE0 in
theorem hpre (d : Dev nD) (Wa Wb Wc : Valuation τ sig (Elt F)) (h0 : Exit0 (W1 m d) Wa) (hb : Wb = StableHlo.after hostOps1 Wa)
    (h1 : Exit1 Wb Wc) : PreCall m d Wc := by
  obtain ⟨k0, v0⟩ := hE0 _ _ h0
  obtain ⟨k1, -⟩ := h1
  subst hb
  have keep : ∀ r : Ref sig .tc, ¬ (dv r : DevRef τ sig).isScoped → r ≠ main_v8 → r ≠ main_v9 → r ≠ main_v10 → r ≠ main_v11 →
      Wc (dv r) = W1 m d (dv r) := fun r hs h8 h9 h10 h11 => by
    rw [k1 (dv r) (dv_mem_UC r hs) (StableHlo.devRef_ne_of_ne h11), after1_of Wa r (by simp only [List.mem_cons, List.not_mem_nil, or_false]; tauto),
      k0 (dv r) (dv_mem_UC r hs) (StableHlo.devRef_ne_of_ne h8)]
  refine ⟨keep main_v6 (by decide) (by decide) (by decide) (by decide) (by decide), ?_, fun r hr => ?_⟩
  · intro y _
    rw [k1 (dv main_v8) (dv_mem_UC main_v8 (by decide)) (by decide), after1_of Wa main_v8 (by decide)]
    have := congrFun v0 y
    rw [← rD3_idx y]
    exact this
  · simp only [Args, List.mem_cons, List.not_mem_nil, or_false] at hr
    rcases hr with rfl | rfl | rfl | rfl | rfl | rfl <;>
      exact (keep _ (by decide) (by decide) (by decide) (by decide) (by decide)).trans (W1_of m d _ (by decide))

include hE0 in
/-- No stretch of @main, no region and no call writes an argument array. -/
theorem hfinF (d : Dev nD) (Wa Wb Wc Wd We Wf Wg : Valuation τ sig (Elt F)) (h0 : Exit0 (W1 m d) Wa) (hb : Wb = StableHlo.after hostOps1 Wa)
    (h1 : Exit1 Wb Wc) (hp : PostCall v m d Wc Wd) (he : We = StableHlo.after hostOps2 Wd) (h3 : Exit3 We Wf)
    (hg : Wg = StableHlo.after hostOps3 Wf) : ArgsKept m d Wg := by
  have hP := hpre m Exit0 hE0 d Wa Wb Wc h0 hb h1
  obtain ⟨k3, -⟩ := h3
  subst he hg
  intro r hr
  have hm := hP.2.2 r hr
  simp only [Args, List.mem_cons, List.not_mem_nil, or_false] at hr
  rcases hr with rfl | rfl | rfl | rfl | rfl | rfl <;>
    (rw [after3_of Wf _ (by decide), k3 _ (dv_mem_UC _ (by decide)) (by decide), after2_of Wd _ (by decide),
      hp.2.2.2 _ (by decide) (by decide)]; exact hm)

include hE0 in
/-- THE KERNEL'S RUN: from any memory with zero counters, every weakly fair execution of the TensorCore's @main, the
    sequencers and the tiles terminates, nothing faulting, and every final memory holds the six argument arrays as launched. -/
theorem kernel_run [∀ e, Nonempty (Elt F e)]
    (region0 : RegionSpec (F := F) 0 0 Exit0)
    (htile : (K (F := F)).TileObl (D (F := F)) 𝒱 (PP v m) v₀ 0) :
    θ_run (Cert.KernelIdeal.defs (F := F)) (Cert.KernelIdeal.threads (F := F)) ⟨m, fun _ => 0, ρ⟩
      (fun r => ∀ d : Dev nD, ∃ Wn, ArgsKept m d Wn ∧ ∀ b ∈ UC, r.2.mem ((d, b) : Loc nD τ sig) = Wn b) :=
  run_of m ρ (PP v m) (ArgsKept m) Exit0 Exit1 Exit3 (PreCall m) (PostCall v m) rfl (initOf bCells bToks) htile
    (vecSplit v (Zf0 m 0) (Iarr m)) (kits v (Zf0 m 0) (Iarr m)) region0 region1 region3
    (hpre m Exit0 hE0) (hcall v m) (hret v m) (hpostC3 v m) (hfinF v m Exit0 hE0)

/-- What a final valuation is: the end of the chain of relations @main's items establish from the launch memory. -/
def Chain (d : Dev nD) (Wg : Valuation τ sig (Elt F)) : Prop :=
  ∃ Wa Wb Wc Wd We Wf, Exit0 (W1 m d) Wa ∧ Wb = StableHlo.after hostOps1 Wa ∧ Exit1 Wb Wc ∧ PostCall v m d Wc Wd
    ∧ We = StableHlo.after hostOps2 Wd ∧ Exit3 We Wf ∧ Wg = StableHlo.after hostOps3 Wf

include hE0 in
theorem chain_args {d : Dev nD} {Wg : Valuation τ sig (Elt F)} (h : Chain v m Exit0 d Wg) : ArgsKept m d Wg := by
  obtain ⟨Wa, Wb, Wc, Wd, We, Wf, h0, hb, h1, hp, he, h3, hg⟩ := h
  exact hfinF v m Exit0 hE0 d Wa Wb Wc Wd We Wf Wg h0 hb h1 hp he h3 hg

include hE0 in
/-- THE KERNEL'S RUN, with the values: every final memory's unscoped buffers are the end of the chain of relations. -/
theorem kernel_runC [∀ e, Nonempty (Elt F e)]
    (region0 : RegionSpec (F := F) 0 0 Exit0)
    (htile : (K (F := F)).TileObl (D (F := F)) 𝒱 (PP v m) v₀ 0) :
    θ_run (Cert.KernelIdeal.defs (F := F)) (Cert.KernelIdeal.threads (F := F)) ⟨m, fun _ => 0, ρ⟩
      (fun r => ∀ d : Dev nD, ∃ Wn, Chain v m Exit0 d Wn ∧ ∀ b ∈ UC, r.2.mem ((d, b) : Loc nD τ sig) = Wn b) :=
  run_of m ρ (PP v m) (Chain v m Exit0) Exit0 Exit1 Exit3 (PreCall m) (PostCall v m) rfl (initOf bCells bToks) htile
    (vecSplit v (Zf0 m 0) (Iarr m)) (kits v (Zf0 m 0) (Iarr m)) region0 region1 region3
    (hpre m Exit0 hE0) (hcall v m) (hret v m) (hpostC3 v m)
    (fun d Wa Wb Wc Wd We Wf Wg h0 hb h1 hp he h3 hg => ⟨Wa, Wb, Wc, Wd, We, Wf, h0, hb, h1, hp, he, h3, hg⟩)

end Exits

end Cert.KernelIdeal.Hand

end
-- ==== Proof.KI.Regions0.lean ====
/-
  The first TensorCore pallas_call of @main (pipeline 0), entered as a region inside the SparseCore program. Its body
  stores rows [0, 10000) of a 10240-row output block and the write-back moves the whole block, so what the rows beyond
  hold afterwards is whatever the staging buffer held: the proof data are relational — the output window's relation
  says only what rows [0, 10000) hold — and so is what the region's exit states of the output array.
-/
import proofs.«208586_g21955872817707_cont_8to1_688_77_alg».proof.Proof.KI.RegionsLib
import proofs.«208586_g21955872817707_cont_8to1_688_77_alg».proof.Proof.Gen.KernelIdeal.Launch
import proofs.«208586_g21955872817707_cont_8to1_688_77_alg».proof.Proof.Gen.KernelIdeal.Skeleton
import proofs.«208586_g21955872817707_cont_8to1_688_77_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

variable {F : FTy → Type} [FloatOps F]

local notation "𝕄" => MT nD τ sig (HIx 1) (Elt F) ℕ UU ℕ

/-! # The first pallas_call (pipeline 0): z = relu(xn · w1ᵀ + b1), stored into rows [0, 10000) of a 10240-row block -/

section Region0

variable (Vv : (c : Dev nD) → (b : Ref sig .tc) → Buf (Elt F) ((c : Thread nD τ).loc b))

/-- Window `w`'s block at the one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-- A window that is its whole array reads the array. -/
theorem iblk0_0 (c : Dev nD) (t : Fin cfg0.N) : iblk0 Vv c 0 t = Vv c main_v1 := by
  funext y
  have hy : ((cfg0.win 0).blk t).view.emb y = y := by
    funext a; apply Fin.ext
    exact Pipeline.Window.rect_emb_val_of_index_zero (cfg0.win 0) t a rfl y
  unfold iblk0
  rw [View.read_apply, hy]
  rfl
theorem iblk0_1 (c : Dev nD) (t : Fin cfg0.N) : iblk0 Vv c 1 t = Vv c main_arg2 := by
  funext y
  have hy : ((cfg0.win 1).blk t).view.emb y = y := by
    funext a; apply Fin.ext
    exact Pipeline.Window.rect_emb_val_of_index_zero (cfg0.win 1) t a rfl y
  unfold iblk0
  rw [View.read_apply, hy]
  rfl
theorem iblk0_2 (c : Dev nD) (t : Fin cfg0.N) : iblk0 Vv c 2 t = Vv c main_v7 := by
  funext y
  have hy : ((cfg0.win 2).blk t).view.emb y = y := by
    funext a; apply Fin.ext
    exact Pipeline.Window.rect_emb_val_of_index_zero (cfg0.win 2) t a rfl y
  unfold iblk0
  rw [View.read_apply, hy]
  rfl

/-- The rectangles the body reads and writes: the inputs' whole buffers; -/
abbrev rA0 : Rect S10000x128 := Rect.unit (s := S10000x128) ![0, 0] S10000x128.size inb_S10000x128_S10000x128_0_0
abbrev rB0 : Rect S128x128 := Rect.unit (s := S128x128) ![0, 0] S128x128.size inb_S128x128_S128x128_0_0
abbrev rC0 : Rect S1x128 := Rect.unit (s := S1x128) ![0, 0] S1x128.size inb_S1x128_S1x128_0_0
/-- rows [0, 10000) of the 10240-row output buffer. -/
abbrev rD0 : Rect S10240x128 := Rect.unit (s := S10240x128) ![0, 0] S10000x128.size inb_S10240x128_S10000x128_0_0

set_option maxHeartbeats 1000000 in
/-- The body on whole staging memrefs, the inputs' at contents `x0 x1 x2` and the output's at anything, leaves the inputs'
    as they were and the output's at contents whose rows [0, 10000) are the payload of the inputs (the other rows are
    whatever the buffer held). -/
theorem sound_kernel0 (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S1x128 .f32) (harg2 : arg2.IsWhole)
    (arg3 : Memref sig .tc .vmem S10240x128 .f32) (harg3 : arg3.IsWhole)
    (x0 : Vec F S10000x128 .f32) (x1 : Vec F S128x128 .f32) (x2 : Vec F S1x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ ∃ X : Vec F S10240x128 .f32, ⌜View.ld X rD0 = k0_pay1 x0 x1 x2⌝ ∗ owns (c : Thread nD τ) arg3 fullShare X) -∗ Kk ⟨⟩))
      ⊢ wp frame (wpE (defs₀ (F := F)) Variants.none c none) E (cc0__tc_z_body arg0 harg0 arg1 harg1 arg2 harg2 arg3 harg3) Kk := by
  simp only [cc0__tc_z_body_eq_skeleton]; unfold cc0__tc_z_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _
  isplitr
  swap
  · iexists _; isplitr; swap; · iexact H3
    ipureintro; rfl
  ipureintro
  funext j
  simp only [View.readAt_eq_ld]
  rw [View.ld_unit_zero zero2, View.ld_unit_zero zero2, View.ld_unit_zero zero2]
  exact View.read_writes_cons_emb _ _ _ _ _ j

/-! ## The pipeline's proof data: relational, the output window being only partly stored -/

variable (n : ℕ)

/-- The proof data of the pipeline on device `c` before SparseCore call `n`: the arrays as the region finds them; the body
    leaves each input's buffer as it found it, and the output's at ANY contents whose rows [0, 10000) are the payload of
    the input arrays (the rows beyond are whatever the staging buffer held); the invariant the scoped buffers no window
    stages and the generator register; full shares; the TensorCore owing the launch protocol its start signals throughout,
    its recorded waits at or below level `8 n`. -/
def rdat0 (c : Dev nD) : Pipeline.RDat τ (Elt F) (HIx 1) ℕ UU ℕ cfg0 c where
  A w := Vv c (Pipeline.arrRef spec0 w)
  after w t Y X := match w with
    | ⟨0, _⟩ => X = Y
    | ⟨1, _⟩ => X = Y
    | ⟨2, _⟩ => X = Y
    | ⟨3, _⟩ => View.ld (X : Vec F S10240x128 .f32) rD0 = k0_pay1 (Vv c main_v1) (Vv c main_arg2) (Vv c main_v7)
  Φ _ := iprop(Pipeline.scopedRest spec0 c ∗ ∃ r, prngReg c r)
  q _ := fullShare
  owed _ := (K (F := F)).Otc c n
  recorded _ := {p | (K (F := F)).lev ((c : Thread nD τ), p.1) p.2 ≤ 8 * n}

theorem A_eq0 (c : Dev nD) (w : Fin cfg0.W) : (rdat0 Vv n c).A w = Vv c (Pipeline.arrRef spec0 w) := by
  dsimp only [rdat0]
theorem after0_0 (c : Dev nD) (t : Fin cfg0.N) (Y X) : (rdat0 Vv n c).after 0 t Y X = (X = Y) := by dsimp only [rdat0]
theorem after0_1 (c : Dev nD) (t : Fin cfg0.N) (Y X) : (rdat0 Vv n c).after 1 t Y X = (X = Y) := by dsimp only [rdat0]
theorem after0_2 (c : Dev nD) (t : Fin cfg0.N) (Y X) : (rdat0 Vv n c).after 2 t Y X = (X = Y) := by dsimp only [rdat0]
theorem after0_3 (c : Dev nD) (t : Fin cfg0.N) (Y X) :
    (rdat0 Vv n c).after 3 t Y X = (View.ld (X : Vec F S10240x128 .f32) rD0 = k0_pay1 (Vv c main_v1) (Vv c main_arg2) (Vv c main_v7)) := by
  dsimp only [rdat0]

/-- An input window's staging buffer holds its array when the body runs: it is fetched at the one point. -/
theorem finds0_0 (c : Dev nD) (t : Fin cfg0.N) (Y) (h : (rdat0 Vv n c).Finds 0 t Y) : Y = Vv c main_v1 := by
  obtain ⟨d, rfl⟩ := ((rdat0 Vv n c).finds_of_fetch (fetch0_0 t) Y).mp h
  rw [← iblk0_0 Vv c t]
  unfold Pipeline.RDat.fetched Pipeline.RDat.blockOf iblk0; rw [A_eq0]; try rfl
theorem finds0_1 (c : Dev nD) (t : Fin cfg0.N) (Y) (h : (rdat0 Vv n c).Finds 1 t Y) : Y = Vv c main_arg2 := by
  obtain ⟨d, rfl⟩ := ((rdat0 Vv n c).finds_of_fetch (fetch0_1 t) Y).mp h
  rw [← iblk0_1 Vv c t]
  unfold Pipeline.RDat.fetched Pipeline.RDat.blockOf iblk0; rw [A_eq0]; try rfl
theorem finds0_2 (c : Dev nD) (t : Fin cfg0.N) (Y) (h : (rdat0 Vv n c).Finds 2 t Y) : Y = Vv c main_v7 := by
  obtain ⟨d, rfl⟩ := ((rdat0 Vv n c).finds_of_fetch (fetch0_2 t) Y).mp h
  rw [← iblk0_2 Vv c t]
  unfold Pipeline.RDat.fetched Pipeline.RDat.blockOf iblk0; rw [A_eq0]; try rfl

/-! ## The body obligation -/

theorem sound_body0 (c : Dev nD) (t : Fin cfg0.N) (y0 : Vec F S10000x128 .f32) (y1 : Vec F S128x128 .f32) (y2 : Vec F S1x128 .f32)
    (y3 : Vec F S10240x128 .f32) (h0 : y0 = Vv c main_v1) (h1 : y1 = Vv c main_arg2) (h2 : y2 = Vv c main_v7) :
    iprop((rdat0 Vv n c).Φ t.castSucc ∗ (rdat0 Vv n c).owesAt none t.castSucc
        ∗ owns (c : Thread nD τ) (st0_0 t) fullShare y0 ∗ owns (c : Thread nD τ) (st0_1 t) fullShare y1
        ∗ owns (c : Thread nD τ) (st0_2 t) fullShare y2 ∗ owns (c : Thread nD τ) (st0_3 t) fullShare y3)
      ⊢ wp frame (wpE (defs₀ (F := F)) Variants.none c none) Set.univ (bodyAt0 t) (fun _ =>
          iprop((rdat0 Vv n c).Φ t.succ ∗ (rdat0 Vv n c).owesAt none t.succ
            ∗ (∃ X, ⌜(rdat0 Vv n c).after 0 t y0 X⌝ ∗ owns (c : Thread nD τ) (st0_0 t) fullShare X)
            ∗ (∃ X, ⌜(rdat0 Vv n c).after 1 t y1 X⌝ ∗ owns (c : Thread nD τ) (st0_1 t) fullShare X)
            ∗ (∃ X, ⌜(rdat0 Vv n c).after 2 t y2 X⌝ ∗ owns (c : Thread nD τ) (st0_2 t) fullShare X)
            ∗ (∃ X, ⌜(rdat0 Vv n c).after 3 t y3 X⌝ ∗ owns (c : Thread nD τ) (st0_3 t) fullShare X))) := by
  unfold bodyAt0
  rw [show (rdat0 Vv n c).Φ t.succ = (rdat0 Vv n c).Φ t.castSucc from rfl,
    show (rdat0 Vv n c).owesAt none t.succ = (rdat0 Vv n c).owesAt none t.castSucc from rfl]
  simp only [after0_0, after0_1, after0_2, after0_3]
  iintro ⟨HΦ, Ho, H0, H1, H2, H3⟩
  iapply (sound_kernel0 c Set.univ _ _ _ _ _ _ _ _ y0 y1 y2 _)
  isplitl [H0]; · iexact H0
  isplitl [H1]; · iexact H1
  isplitl [H2]; · iexact H2
  isplitl [H3]; · iexists _; iexact H3
  iintro ⟨H0, H1, H2, ⟨%X, %hX, H3⟩⟩
  isplitl [HΦ]; · iexact HΦ
  isplitl [Ho]; · iexact Ho
  isplitl [H0]
  · iexists y0; isplitr
    · ipureintro; rfl
    · iexact H0
  isplitl [H1]
  · iexists y1; isplitr
    · ipureintro; rfl
    · iexact H1
  isplitl [H2]
  · iexists y2; isplitr
    · ipureintro; rfl
    · iexact H2
  iexists X; isplitr
  · ipureintro; rw [← h0, ← h1, ← h2]; exact hX
  · iexact H3

theorem body_obligation0 (c : Dev nD) :
    (rdat0 (F := F) Vv n c).BodyObligation (defs₀ (F := F)) Variants.none none Set.univ := fun t Y hY => by
  rw [bigSep_W0, bigSep_W0]
  exact sound_body0 Vv n c t (Y 0) (Y 1) (Y 2) (Y 3) (finds0_0 Vv n c t _ (hY 0)) (finds0_1 Vv n c t _ (hY 1)) (finds0_2 Vv n c t _ (hY 2))

/-! ## What the arrays hold after the run -/

/-- A write-back of the whole staging buffer through the output window, which is its whole array, leaves the array at the
    buffer's contents. -/
theorem write_blk0_3 (c : Dev nD) (t : Fin cfg0.N) (G₀ : Buf (Elt F) ((cfg0.win 3).arr.view.loc (c : Thread nD τ)))
    (X : (cfg0.win 3).block.Idx → Elt F (cfg0.win 3).elt) :
    ((cfg0.win 3).blk t).view.write (Elt F) G₀ ((cfg0.win 3).cut (cfg0.grid.coords t) X) Finset.univ = X := by
  funext i
  have hy : ((cfg0.win 3).blk t).view.emb i = i := by
    funext a; apply Fin.ext
    exact Pipeline.Window.rect_emb_val_of_index_zero (cfg0.win 3) t a rfl i
  conv_lhs => rw [← hy, View.write_emb_of_mem _ _ (Finset.mem_univ _)]
  rfl

/-- Whatever the output array may hold after the run, its rows [0, 10000) are the payload of the input arrays: the one
    write-back moves the whole staging buffer, whose rows [0, 10000) the body stored. -/
theorem arrAt0_3 (c : Dev nD) (G : Vec F S10240x128 .f32) (h : (rdat0 Vv n c).ArrAt 3 cfg0.N G) :
    View.ld G rD0 = k0_pay1 (Vv c main_v1) (Vv c main_arg2) (Vv c main_v7) := by
  have h' : (rdat0 Vv n c).ArrAt 3 (0 + 1) G := h
  rw [Pipeline.RDat.ArrAt] at h'
  dsimp only at h'
  rw [dif_pos (show 0 < cfg0.N by decide), if_pos (flush0_3 _)] at h'
  obtain ⟨G₀, X, -, ⟨Y, -, hYX⟩, rfl⟩ := h'
  rw [after0_3] at hYX
  rw [write_blk0_3]
  exact hYX

/-- The arrays after the run: the inputs as entered, the output at some contents whose rows [0, 10000) are the payload. -/
theorem arraysAt0_elim (c : Dev nD) :
    (rdat0 Vv n c).arraysAt cfg0.N ⊢ iprop(∃ G : Vec F S10240x128 .f32,
      ⌜View.ld G rD0 = k0_pay1 (Vv c main_v1) (Vv c main_arg2) (Vv c main_v7)⌝
        ∗ (rdat0 Vv n c).arrays (Function.update (rdat0 Vv n c).A 3 G)) := by
  unfold Pipeline.RDat.arraysAt
  rw [bigSep_W0]
  iintro ⟨⟨%F0, %h0, H0⟩, ⟨%F1, %h1, H1⟩, ⟨%F2, %h2, H2⟩, ⟨%F3, %h3, H3⟩⟩
  rw [(rdat0 Vv n c).ArrAt_in 0 rfl] at h0
  rw [(rdat0 Vv n c).ArrAt_in 1 rfl] at h1
  rw [(rdat0 Vv n c).ArrAt_in 2 rfl] at h2
  subst h0; subst h1; subst h2
  iexists F3
  isplitr
  · ipureintro; exact arrAt0_3 Vv n c F3 h3
  unfold Pipeline.RDat.arrays
  rw [bigSep_W0, Function.update_of_ne (by decide : (0 : Fin cfg0.W) ≠ 3), Function.update_of_ne (by decide : (1 : Fin cfg0.W) ≠ 3),
    Function.update_of_ne (by decide : (2 : Fin cfg0.W) ≠ 3), Function.update_self]
  isplitl [H0]; · iexact H0
  isplitl [H1]; · iexact H1
  isplitl [H2]; · iexact H2
  iexact H3

/-! ## The region as a segment -/

/-- The family of proof data the region runs under: its own at its pipeline, idle data at the others. -/
def rdats0 : (p : Fin 3) → (c : Dev nD) → Pipeline.RDat τ (Elt F) (HIx 1) ℕ UU ℕ (Pipeline.pin (pcfgs (F := F)) adm p) c
  | ⟨0, _⟩ => fun c => rdat0 Vv n c
  | ⟨1, _⟩ => fun c => (idle1 Vv c).toR
  | ⟨2, _⟩ => fun c => (idle3 Vv c).toR

end Region0

section Seg0

variable (Wv : Valuation τ sig (Elt F)) (n : ℕ)

/-- The entry contents at the TensorCore's references. -/
abbrev V0 : (c : Dev nD) → (b : Ref sig .tc) → Buf (Elt F) ((c : Thread nD τ).loc b) := fun _ b => Wv b

/-- The arrays at the region's exit, the output's being `G`. -/
abbrev F0' (c : Dev nD) (G : Vec F S10240x128 .f32) : (w : Fin cfg0.W) → Buf (Elt F) ((cfg0.win w).arr.view.loc (c : Thread nD τ)) :=
  Function.update (rdat0 (V0 Wv) n c).A 3 G

/-- The contents at the region's exit, the output array's being `G`: every other buffer as entered. -/
def W0' (c : Dev nD) (G : Vec F S10240x128 .f32) : Valuation τ sig (Elt F) :=
  Pipeline.withArrays spec0 c Wv (F0' Wv n c G)
theorem W0'_arr (c : Dev nD) (G : Vec F S10240x128 .f32) (w : Fin cfg0.W) :
    W0' Wv n c G (Proc.devRef .tc (Pipeline.arrRef spec0 w)) = F0' Wv n c G w := by
  unfold W0'; exact Pipeline.withArrays_arr spec0 launch0.win.arr_inj c _ _ w
theorem W0'_of_ne (c : Dev nD) (G : Vec F S10240x128 .f32) (b : Ref sig .tc) (hb : ∀ w, Pipeline.arrRef spec0 w ≠ b) :
    W0' Wv n c G (Proc.devRef .tc b) = Wv (Proc.devRef .tc b) := by
  unfold W0'; exact Pipeline.withArrays_of_ne spec0 c _ _ b hb
abbrev V0' (G : Vec F S10240x128 .f32) : (c : Dev nD) → (b : Ref sig .tc) → Buf (Elt F) ((c : Thread nD τ).loc b) := fun c b => W0' Wv n c G b

set_option backward.isDefEq.respectTransparency.types false in
/-- The arrays at the exit contents and the unscoped rest as entered are every unscoped buffer at the exit contents. -/
theorem join0 (c : Dev nD) (G : Vec F S10240x128 .f32) :
    iprop((rdats0 (V0 Wv) n 0 c).arrays (F0' Wv n c G)
        ∗ Pipeline.unscopedRest (Ix := HIx 1) (Name := ℕ) (U := UU) (Lvl := ℕ) spec0 c (V0 Wv c))
      ⊢ (held (c : Thread nD τ) UC (W0' Wv n c G) : sProp 𝕄) := by
  have hshare : ∀ w, (rdats0 (V0 Wv) n 0 c).share w = fullShare := fun w => by
    unfold Pipeline.RDat.share; split <;> rfl
  rw [← Pipeline.unscopedBufs_held c (W0' Wv n c G),
    Pipeline.unscopedBufs_split (Pipeline.pin (pcfgs (F := F)) adm) 0 launch0.win.arr_unscoped launch0.win.arr_inj c (V0' Wv n G c),
    Pipeline.RDat.arrays_eq (pcfgs (F := F)) adm (rdats0 (V0 Wv) n) 0 c launch0.arr_whole hshare]
  refine BIClass.sep_mono (Entails.of_eq (bigSep_congr fun w _ => by rw [show V0' Wv n G c (Pipeline.arrRef (Pipeline.pin (pcfgs (F := F)) adm 0).spec w) = F0' Wv n c G w from W0'_arr Wv n c G w])) (Entails.of_eq ?_)
  unfold Pipeline.unscopedRest
  exact bigSep_congr fun b hb => by
    rw [show V0' Wv n G c b = V0 Wv c b from W0'_of_ne Wv n c G b fun w e => (Finset.mem_sdiff.mp hb).2 (Finset.mem_image.mpr ⟨w, Finset.mem_univ _, e⟩)]

end Seg0

/-- What the region leaves: every unscoped buffer but its output as entered; rows [0, 10000) of the output at the body's
    payload of the inputs as entered (its other rows at contents nothing states). -/
def Exit0 (Wv Wv' : Valuation τ sig (Elt F)) : Prop :=
  (∀ b ∈ UC, b ≠ Proc.devRef .tc main_v8 → Wv' b = Wv b)
    ∧ View.ld (Wv' (Proc.devRef .tc main_v8) : Vec F S10240x128 .f32) rD0
        = k0_pay1 (Wv (Proc.devRef .tc main_v1)) (Wv (Proc.devRef .tc main_arg2)) (Wv (Proc.devRef .tc main_v7))

/-- The exit contents are as `Exit0` says, whenever the output array's rows [0, 10000) are the payload. -/
theorem exit0 (Wv : Valuation τ sig (Elt F)) (n : ℕ) (d : Dev nD) (G : Vec F S10240x128 .f32)
    (hG : View.ld G rD0 = k0_pay1 (V0 Wv d main_v1) (V0 Wv d main_arg2) (V0 Wv d main_v7)) : Exit0 Wv (W0' Wv n d G) := by
  refine ⟨fun b hb hne => ?_, ?_⟩
  · obtain ⟨b', -, rfl⟩ := Finset.mem_map.mp (Finset.mem_filter.mp hb).1
    by_cases h : ∃ w, Pipeline.arrRef spec0 w = b'
    · obtain ⟨w, rfl⟩ := h
      show W0' Wv n d G (Proc.devRef .tc (Pipeline.arrRef spec0 w)) = _
      rw [W0'_arr]
      fin_cases w
      · exact Function.update_of_ne (by decide : (0 : Fin cfg0.W) ≠ 3) _ _
      · exact Function.update_of_ne (by decide : (1 : Fin cfg0.W) ≠ 3) _ _
      · exact Function.update_of_ne (by decide : (2 : Fin cfg0.W) ≠ 3) _ _
      · exact absurd rfl hne
    · exact W0'_of_ne Wv n d G b' fun w e => h ⟨w, e⟩
  · have e : W0' Wv n d G (Proc.devRef .tc main_v8) = G := (W0'_arr Wv n d G 3).trans (Function.update_self _ _ _)
    rw [e]; exact hG

section Rec0

variable (Wv : Valuation τ sig (Elt F)) (n : ℕ)

set_option backward.isDefEq.respectTransparency.types false in
/-- The pallas_call over the thread state: entered from every unscoped buffer at `Wv`, left at contents `Exit0` relates
    to `Wv`; the generator register into the invariant and out; the start signals owed throughout, the recorded waits kept
    at or below `8 n`. -/
def reg0 : Pipeline.RDat.RegionSeg (pcfgs (F := F)) adm (rdats0 (V0 Wv) n) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation0 (V0 Wv) n c
  hwaits c := Pipeline.RDat.cellsWaits_intro (Pipeline.pin (pcfgs (F := F)) adm) (rdats0 (V0 Wv) n) none 0 c fun w s t =>
    (K (F := F)).mayWait_none _ (fun g => Otc_none c n g)
  pre c := iprop(held (c : Thread nD τ) UC Wv ∗ Rest c n)
  post c := iprop(∃ Wv', ⌜Exit0 Wv Wv'⌝ ∗ held (c : Thread nD τ) UC Wv' ∗ Rest c n)
  X c := iprop(∃ r, prngReg c r)
  Y c := iprop(∃ r, prngReg c r)
  Z c := Pipeline.unscopedRest (Ix := HIx 1) (Name := ℕ) (U := UU) (Lvl := ℕ) spec0 c (V0 Wv c)
  hentry c := by
    rw [Pipeline.ownSems0_none]
    have hsplit := Pipeline.RDat.arrays_of_unscopedBufs (p := 0) (pcfgs (F := F)) adm (rdats0 (V0 Wv) n) launch0.win launch0.arr_whole c
      (fun w => by unfold Pipeline.RDat.share; split <;> rfl) (V0 Wv c) fun _ => rfl
    rw [Pipeline.unscopedBufs_held] at hsplit
    unfold Rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (rdats0 (V0 Wv) n 0 c).Φ 0 = iprop(Pipeline.scopedRest spec0 c ∗ ∃ r, prngReg c r) from rfl]
    iintro ⟨Hp, -, Hr⟩
    isplitl [Hr]; · iexact Hr
    iexact Hp
  hout c := by
    rw [Pipeline.ownSems0_none, show (rdats0 (V0 Wv) n 0 c).Φ (Fin.last _) = iprop(Pipeline.scopedRest spec0 c ∗ ∃ r, prngReg c r) from rfl]
    iintro ⟨Hr, Hp⟩
    isplitl [Hp]; · iexact Hp
    isplitr; · iempintro
    iexact Hr
  hexit c := by
    have helim : (rdats0 (V0 Wv) n 0 c).arraysAt (Pipeline.pin (pcfgs (F := F)) adm 0).N
        ⊢ iprop(∃ G : Vec F S10240x128 .f32, ⌜View.ld G rD0 = k0_pay1 (V0 Wv c main_v1) (V0 Wv c main_arg2) (V0 Wv c main_v7)⌝
          ∗ (rdats0 (V0 Wv) n 0 c).arrays (F0' Wv n c G)) := arraysAt0_elim (V0 Wv) n c
    unfold Rest
    iintro ⟨Ha, HO, HY, Hrest⟩
    ihave Ha' := helim $$ Ha
    icases Ha' with ⟨%G, %hG, Ha⟩
    imodintro
    iexists (W0' Wv n c G)
    isplitr; · ipureintro; exact exit0 Wv n c G hG
    isplitl [Ha Hrest]
    · iapply (join0 Wv n c G)
      isplitl [Ha]
      · iexact Ha
      · iexact Hrest
    isplitl [HY]; · iexact HY
    unfold Pipeline.RDat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

end Rec0

set_option backward.isDefEq.respectTransparency.types false in
set_option maxHeartbeats 1000000 in
/-- The pallas_call entered inside the SparseCore program: the region's step in the pipelines' signature, lifted to the
    extended body table. -/
theorem region0 : RegionSpec (F := F) 0 0 Exit0 := by
  unfold RegionSpec
  intro d Wv Φ
  have hwp := Pipeline.RDat.RegionSeg.wp (pcfgs (F := F)) adm (rdats0 (V0 Wv) 0) none cellOf_inj EP defs₀ 𝒱₀ (K (F := F)).L (K (F := F)).lev
    (reg0 Wv 0) d none (fun _ h => by cases h) (fun _ => .ret ⟨⟩) Φ
  rw [show (reg0 Wv 0).post d = iprop(∃ Wv', ⌜Exit0 Wv Wv'⌝ ∗ held (d : Thread nD τ) UC Wv' ∗ Rest d 0) from rfl,
    show (reg0 Wv 0).pre d = iprop(held (d : Thread nD τ) UC Wv ∗ Rest d 0) from rfl] at hwp
  have hlift := ((K (F := F)).wp_liftProg (D (F := F)) 𝒱 (T d) Set.univ none (.op (.customCall (Pipeline.entry 0) ()) fun _ => .ret ⟨⟩) Φ)
  have hlift' : (wp Idealize.ShloMosaic.frame (wpE (D (F := F)) 𝒱 (SparseCore.T d) none) Set.univ
        (Prog.op (TpuEff.customCall (Pipeline.entry 0) ()) fun x => Prog.ret PUnit.unit)) Φ ⊢
    (wp Idealize.ShloMosaic.frame (wpE ((K (F := F)).defs D) 𝒱 (SparseCore.T d) none) Set.univ
        (Prog.lift (TpuEff.customCall (SparseCore.inner (Pipeline.entry 0)) ()))) Φ := hlift
  refine BIBase.Entails.trans ?_ hlift'
  refine BIBase.Entails.trans ?_ hwp
  iintro ⟨Hlev, Hbd, Hheld, Hrest, ⟨Hg, Ht⟩, Hk⟩
  isplitl [Hk]
  · iintro ⟨Hbd, ⟨%Wv', %hexit, Hheld, Hrest⟩⟩
    rw [wp_ret]; imodintro
    iapply Hk $$ %Wv' %hexit
    isplitl [Hbd]; · iexact Hbd
    isplitl [Hheld]; · iexact Hheld
    iexact Hrest
  isplitl [Hbd]; · iexact Hbd
  isplitl [Hheld Hrest]
  · isplitl [Hheld]; · iexact Hheld
    iexact Hrest
  isplitl [Hlev]; · iexact Hlev
  isplitl [Hg]; · iexact Hg
  iexact Ht

end Cert.KernelIdeal.Hand

end
-- ==== Proof.KI.FrameK.lean ====
/-
  The kernel's frame from its run: the first pallas_call's region plugged in, and the final memory's argument
  arrays read back as the launch's.
-/
import proofs.«208586_g21955872817707_cont_8to1_688_77_alg».proof.Proof.KI.Assemble
import proofs.«208586_g21955872817707_cont_8to1_688_77_alg».proof.Proof.KI.Regions0

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (v : Prop) (m : (ℓ : Loc nD τ sig) → Buf (Elt F) ℓ) (ρ : Dev nD → PrngReg)

/-- The kernel's run with every TensorCore region discharged: what is left is the vector-subcore task's obligation. -/
theorem kernel_run0 [∀ e, Nonempty (Elt F e)] (htile : (K (F := F)).TileObl (D (F := F)) 𝒱 (PP v m) v₀ 0) :
    θ_run (Cert.KernelIdeal.defs (F := F)) (Cert.KernelIdeal.threads (F := F)) ⟨m, fun _ => 0, ρ⟩
      (fun r => ∀ d : Dev nD, ∃ Wn, ArgsKept m d Wn ∧ ∀ b ∈ UC, r.2.mem ((d, b) : Loc nD τ sig) = Wn b) :=
  kernel_run v m ρ Exit0 (fun _ _ h => h) region0 htile

/-- The same with the values: every final memory's unscoped buffers end the chain of relations from the launch memory. -/
theorem kernel_runC0 [∀ e, Nonempty (Elt F e)] (htile : (K (F := F)).TileObl (D (F := F)) 𝒱 (PP v m) v₀ 0) :
    θ_run (Cert.KernelIdeal.defs (F := F)) (Cert.KernelIdeal.threads (F := F)) ⟨m, fun _ => 0, ρ⟩
      (fun r => ∀ d : Dev nD, ∃ Wn, Chain v m Exit0 d Wn ∧ ∀ b ∈ UC, r.2.mem ((d, b) : Loc nD τ sig) = Wn b) :=
  kernel_runC v m ρ Exit0 (fun _ _ h => h) region0 htile

theorem chain_args0 {d : Dev nD} {Wg : Valuation τ sig (Elt F)} (h : Chain v m Exit0 d Wg) : ArgsKept m d Wg :=
  chain_args v m Exit0 (fun _ _ h => h) h

omit [FloatOps F] in
/-- A final memory that holds the argument arrays' launch contents among its unscoped buffers holds them. -/
theorem frame_post (r : PUnit × MemSt nD τ sig (Elt F))
    (h : ∀ d : Dev nD, ∃ Wn, ArgsKept m d Wn ∧ ∀ b ∈ UC, r.2.mem ((d, b) : Loc nD τ sig) = Wn b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  obtain ⟨Wn, hk, hr⟩ := h c
  refine ⟨?_, ?_, ?_, ?_, ?_, ?_⟩
  · exact (hr (dv main_arg0) (dv_mem_UC _ (by decide))).trans (hk main_arg0 (by simp [Args]))
  · exact (hr (dv main_arg1) (dv_mem_UC _ (by decide))).trans (hk main_arg1 (by simp [Args]))
  · exact (hr (dv main_arg2) (dv_mem_UC _ (by decide))).trans (hk main_arg2 (by simp [Args]))
  · exact (hr (dv main_arg3) (dv_mem_UC _ (by decide))).trans (hk main_arg3 (by simp [Args]))
  · exact (hr (dv main_arg4) (dv_mem_UC _ (by decide))).trans (hk main_arg4 (by simp [Args]))
  · exact (hr (dv main_arg5) (dv_mem_UC _ (by decide))).trans (hk main_arg5 (by simp [Args]))

end Cert.KernelIdeal.Hand

end
-- ==== Proof.KI.ValueK.lean ====
/-
  The three TensorCore payloads at an index, at the extended reals: each entry of z is the rectified affine image of the
  node's row of x, each entry of p the affine image of it, each entry of the result the rectified sum of p's entry and
  the product of the node's maxima with the second half of the weights. And the fold over a node's gathered rows is
  their supremum.
-/
import proofs.«208586_g21955872817707_cont_8to1_688_77_alg».proof.Proof.KI.TilePay
import proofs.«208586_g21955872817707_cont_8to1_688_77_alg».proof.Proof.Gen.KernelIdeal.Skeleton
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The rank-two index from a row and a column is the one the layout lemmas are stated at. -/
private theorem ix2_eq {n m : ℕ} (r : Fin n) (c : Fin m) : ix2 r c = ValueIdx.ix2 r c := by
  funext a; match a with | ⟨0, _⟩ => rfl | ⟨1, _⟩ => rfl

/-! ## The product of the node rows with a weight matrix's rows -/

theorem dot_apply (A : FVec Ideal S10000x128 .f32) (B : FVec Ideal S128x128 .f32) (n : Fin 10000) (c : Fin 128) :
    matmul dot_S10000x128_S128x128_S10000x128_1_1_0_0_n_n none A B (constant (F := Ideal) S10000x128 .f32 0x00000000#32) (ix2 n c)
      = ∑ c' : Fin 128, A (ix2 n c') * B (ix2 c c') := by
  show FloatOps.matmul _ none A B _ (ix2 n c) = _
  rw [Ideal.matmul_constant_zero_apply,
    ← Equiv.sum_comp (contrEquiv1 dot_S10000x128_S128x128_S10000x128_1_1_0_0_n_n 128 rfl rfl).symm]
  refine Finset.sum_congr rfl fun c' _ => ?_
  have c2 := contrEquiv1_symm_val dot_S10000x128_S128x128_S10000x128_1_1_0_0_n_n 128 rfl rfl c'
  have l2 : dot_S10000x128_S128x128_S10000x128_1_1_0_0_n_n.lhsIdx (ix2 n c) ((contrEquiv1 _ 128 rfl rfl).symm c') = ix2 n c' := by
    funext ax; apply Fin.ext
    match ax with
    | ⟨0, _⟩ => simp [DotDims.lhsIdx, dot_S10000x128_S128x128_S10000x128_1_1_0_0_n_n]; rfl
    | ⟨1, _⟩ => simp [DotDims.lhsIdx, dot_S10000x128_S128x128_S10000x128_1_1_0_0_n_n]; exact c2
  have r2 : dot_S10000x128_S128x128_S10000x128_1_1_0_0_n_n.rhsIdx (ix2 n c) ((contrEquiv1 _ 128 rfl rfl).symm c') = ix2 c c' := by
    funext ax; apply Fin.ext
    match ax with
    | ⟨0, _⟩ => simp [DotDims.rhsIdx, dot_S10000x128_S128x128_S10000x128_1_1_0_0_n_n]; rfl
    | ⟨1, _⟩ => simp [DotDims.rhsIdx, dot_S10000x128_S128x128_S10000x128_1_1_0_0_n_n]; exact c2
  rw [l2, r2]

/-! ## The three payloads at an index -/

/-- The first call's payload: the rectified affine map of the node's row. -/
theorem pay0_apply (x : Vec Ideal S10000x128 .f32) (w : Vec Ideal S128x128 .f32) (b : Vec Ideal S1x128 .f32)
    (n : Fin 10000) (c : Fin 128) :
    k0_pay1 (F := Ideal) x w b (ix2 n c)
      = max ((∑ c' : Fin 128, x (ix2 n c') * w (ix2 c c') + b (ix2 (0 : Fin 1) c) : EReal)) 0 := by
  show maximumf (addf (matmul dot_S10000x128_S128x128_S10000x128_1_1_0_0_n_n none (shapeCast S10000x128 x shapeCasts_S10000x128_S10000x128) w
      (constant (F := Ideal) S10000x128 .f32 0x00000000#32))
    (broadcastTo S10000x128 (shapeCast S1x128 b shapeCasts_S1x128_S1x128) broadcasts_S1x128_S10000x128))
    (broadcast S10000x128 (Scalar.ofBits (F := Ideal) .f32 0x00000000#32)) (ix2 n c) = _
  rw [maximumf_apply, addf_apply, broadcast_apply, shapeCast_self, shapeCast_self, dot_apply, ix2_eq n c,
    broadcastTo_1b_ab_apply, ← ix2_eq]
  show max _ (Ideal.ofBits .f32 0x00000000#32) = _
  rw [Ideal.ofBits_zero_f32]

/-- The second call's payload: the affine map of the node's row. -/
theorem pay1_apply (x : Vec Ideal S10000x128 .f32) (w : Vec Ideal S128x128 .f32) (b : Vec Ideal S1x128 .f32)
    (n : Fin 10000) (o : Fin 128) :
    k1_pay1 (F := Ideal) x w b (ix2 n o)
      = (∑ c : Fin 128, x (ix2 n c) * w (ix2 o c) + b (ix2 (0 : Fin 1) o) : EReal) := by
  show addf (matmul dot_S10000x128_S128x128_S10000x128_1_1_0_0_n_n none (shapeCast S10000x128 x shapeCasts_S10000x128_S10000x128)
      (shapeCast S128x128 w shapeCasts_S128x128_S128x128) (constant (F := Ideal) S10000x128 .f32 0x00000000#32))
    (broadcastTo S10000x128 (shapeCast S1x128 b shapeCasts_S1x128_S1x128) broadcasts_S1x128_S10000x128) (ix2 n o) = _
  rw [addf_apply, shapeCast_self, shapeCast_self, shapeCast_self, dot_apply, ix2_eq n o, broadcastTo_1b_ab_apply, ← ix2_eq]

/-- The last call's payload: the rectified sum of p's entry and the product of the node's maxima with the weights. -/
theorem pay3_apply (ml : Vec Ideal S10000x128 .f32) (w : Vec Ideal S128x128 .f32) (p : Vec Ideal S10000x128 .f32)
    (n : Fin 10000) (o : Fin 128) :
    k3_pay1 (F := Ideal) ml w p (ix2 n o)
      = max ((p (ix2 n o) + ∑ c : Fin 128, ml (ix2 n c) * w (ix2 o c) : EReal)) 0 := by
  show maximumf (addf (shapeCast S10000x128 p shapeCasts_S10000x128_S10000x128)
      (matmul dot_S10000x128_S128x128_S10000x128_1_1_0_0_n_n none (shapeCast S10000x128 ml shapeCasts_S10000x128_S10000x128)
        (shapeCast S128x128 w shapeCasts_S128x128_S128x128) (constant (F := Ideal) S10000x128 .f32 0x00000000#32)))
    (broadcast S10000x128 (Scalar.ofBits (F := Ideal) .f32 0x00000000#32)) (ix2 n o) = _
  rw [maximumf_apply, addf_apply, broadcast_apply, shapeCast_self, shapeCast_self, shapeCast_self, dot_apply]
  show max _ (Ideal.ofBits .f32 0x00000000#32) = _
  rw [Ideal.ofBits_zero_f32]

/-! ## The fold over a node's rows is their supremum -/

section FoldMax
variable (z : ℕ → Ideal .f32)

theorem foldMax_succ (k : ℕ) : foldMax (F := Ideal) z (k + 1) = max (foldMax (F := Ideal) z k) (z (k + 1)) := rfl

/-- Every row up to the last folded is below the fold. -/
theorem le_foldMax : ∀ n k, k ≤ n → z k ≤ foldMax (F := Ideal) z n
  | 0, k, h => by
    obtain rfl : k = 0 := by omega
    exact le_refl _
  | n + 1, k, h => by
    rw [foldMax_succ]
    rcases Nat.lt_or_ge k (n + 1) with h' | h'
    · exact le_trans (le_foldMax n k (by omega)) (le_max_left _ _)
    · obtain rfl : k = n + 1 := by omega
      exact le_max_right _ _

/-- The fold is one of the rows folded: the order is linear. -/
theorem foldMax_mem : ∀ n, ∃ k, k ≤ n ∧ foldMax (F := Ideal) z n = z k
  | 0 => ⟨0, le_refl _, rfl⟩
  | n + 1 => by
    obtain ⟨k, hk, e⟩ := foldMax_mem n
    rw [foldMax_succ]
    rcases max_choice (foldMax (F := Ideal) z n) (z (n + 1)) with h | h
    · exact ⟨k, by omega, h.trans e⟩
    · exact ⟨n + 1, le_refl _, h⟩

/-- The fold over rows 0 … n is their supremum. -/
theorem foldMax_eq_sup' (n : ℕ) :
    foldMax (F := Ideal) z n
      = Finset.sup' (Finset.univ : Finset (Fin (n + 1))) ⟨0, Finset.mem_univ _⟩ (fun k => (z k.val : EReal)) := by
  apply le_antisymm
  · obtain ⟨k, hk, e⟩ := foldMax_mem z n
    rw [e]
    exact Finset.le_sup' (fun k : Fin (n + 1) => (z k.val : EReal)) (Finset.mem_univ (⟨k, by omega⟩ : Fin (n + 1)))
  · exact Finset.sup'_le _ _ fun k _ => le_foldMax z n k.val (by have := k.isLt; omega)

/-- The kernel's fold over a node's 32 gathered rows is their supremum. -/
theorem foldMax_31 :
    foldMax (F := Ideal) z 31 = Finset.sup' Finset.univ ⟨0, Finset.mem_univ _⟩ (fun k : Fin 32 => (z k.val : EReal)) :=
  foldMax_eq_sup' z 31

end FoldMax

end Cert.KernelIdeal.Hand

end
-- ==== Proof.KI.ValueHost.lean ====
/-
  The host operations of @main read at an index: x as nodes × channels, the bias rows, the two halves of the second
  weight matrix's columns, the result laid back as channels × nodes, and the neighbour indices flattened row-major,
  padded with zeros and cut into 32 × 80 × 128.
-/
import proofs.«208586_g21955872817707_cont_8to1_688_77_alg».proof.Proof.KI.Hmain
import proofs.«208586_g21955872817707_cont_8to1_688_77_alg».proof.Proof.KI.TilePay
import Idealize.ShloMosaic.Lib.ValueLayout
import Idealize.ShloMosaic.Lib.KernelVsHost

noncomputable section

namespace Cert.KernelIdeal.Hand

open Cert.KernelIdeal Cert.KernelIdeal.Gen
open Idealize.ShloMosaic Idealize.ShloMosaic.ValueIdx

variable {F : FTy → Type} [FloatOps F]
variable (m : (ℓ : Loc nD τ sig) → Buf (Elt F) ℓ)

set_option quotPrecheck false in
local notation "dv" => (Proc.devRef (τ := τ) (sig := sig) Proc.tc)

/-! ## Indices -/

/-- The rank-two index from a row and a column is the one the layout lemmas are stated at. -/
private theorem ix2_eq {n m : ℕ} (r : Fin n) (c : Fin m) : ix2 r c = ValueIdx.ix2 r c := by
  funext a; match a with | ⟨0, _⟩ => rfl | ⟨1, _⟩ => rfl
/-- The rank-three index likewise. -/
private theorem ix3_eq {n m l : ℕ} (a : Fin n) (b : Fin m) (c : Fin l) : ix3 a b c = ValueIdx.ix3 a b c := by
  funext d; match d with | ⟨0, _⟩ => rfl | ⟨1, _⟩ => rfl | ⟨2, _⟩ => rfl

/-! ## The host operations read at an index -/

/-- x as nodes × channels, as a term. -/
theorem W1_v1_eq (d : Dev nD) :
    (W1 m d (dv main_v1) : S10000x128.Idx → Elt F .f32)
      = transpose S10000x128 [1, 0] (shapeCast S128x10000 (m (d, dv main_arg0) : S1x128x10000x1.Idx → Elt F .f32) shapeCasts_S1x128x10000x1_S128x10000) transposes_S128x10000_S10000x128_1_0 := by
  show StableHlo.after hostOps0c (StableHlo.after hostOps0b (StableHlo.after hostOps0a (fun b => m (d, b)))) (Proc.devRef .tc main_v1) = _
  dsimp only [hostOps0a, hostOps0b, hostOps0c]
  after_results <;> rfl

/-- Entry (n, c) of x as nodes × channels is x's entry at channel c, node n. -/
theorem W1_v1_apply (d : Dev nD) (n : Fin 10000) (c : Fin 128) :
    W1 m d (dv main_v1) (ix2 n c) = m (d, dv main_arg0) (ix4 (0 : Fin 1) c n (0 : Fin 1)) := by
  rw [W1_v1_eq, ix2_eq, transpose_ix2_apply]
  refine shapeCast_apply _ _ _ _ ?_
  show (S1x128x10000x1.rowMajor (ix4 (0 : Fin 1) c n (0 : Fin 1))).val = (S128x10000.rowMajor (ValueIdx.ix2 c n)).val
  rw [Shape.rowMajor_val_four, Shape.rowMajor_val_two]
  show ((0 * 128 + c.val) * 10000 + n.val) * 1 + 0 = c.val * 10000 + n.val
  omega

/-- b1 as a row, as a term. -/
theorem W1_v7_eq (d : Dev nD) :
    (W1 m d (dv main_v7) : S1x128.Idx → Elt F .f32)
      = shapeCast S1x128 (m (d, dv main_arg3) : S128.Idx → Elt F .f32) shapeCasts_S128_S1x128 := by
  show StableHlo.after hostOps0c (StableHlo.after hostOps0b (StableHlo.after hostOps0a (fun b => m (d, b)))) (Proc.devRef .tc main_v7) = _
  dsimp only [hostOps0a, hostOps0b, hostOps0c]
  after_results <;> rfl

/-- The first bias as a row, at column c. -/
theorem W1_v7_apply (d : Dev nD) (c : Fin 128) :
    W1 m d (dv main_v7) (ix2 (0 : Fin 1) c) = m (d, dv main_arg3) (ix1 c) := by
  rw [W1_v7_eq, ix2_eq, shapeCast_a_1a_apply]

variable (Wa : Valuation τ sig (Elt F))

/-- The first 128 columns of the second weight matrix, as a term. -/
theorem after1_v9_eq :
    (StableHlo.after hostOps1 Wa (dv main_v9) : S128x128.Idx → Elt F .f32)
      = extractStridedSlice S128x128 ![0, 0] (Wa (dv main_arg4) : S128x256.Idx → Elt F .f32) slices_S128x256_S128x128_0_0 := by
  dsimp only [hostOps1]
  after_results <;> rfl

/-- Their entry (o, c) is the matrix's entry (o, c). -/
theorem after1_v9_apply (o c : Fin 128) :
    StableHlo.after hostOps1 Wa (dv main_v9) (ix2 o c) = Wa (dv main_arg4) (ix2 o (⟨c.val, by omega⟩ : Fin 256)) := by
  rw [after1_v9_eq]
  refine extractStridedSlice_apply _ _ _ _ _ fun a => ?_
  match a with
  | ⟨0, _⟩ => show o.val = 0 + o.val; omega
  | ⟨1, _⟩ => show c.val = 0 + c.val; omega

/-- The second bias as a row, as a term. -/
theorem after1_v10_eq :
    (StableHlo.after hostOps1 Wa (dv main_v10) : S1x128.Idx → Elt F .f32)
      = shapeCast S1x128 (Wa (dv main_arg5) : S128.Idx → Elt F .f32) shapeCasts_S128_S1x128 := by
  dsimp only [hostOps1]
  after_results <;> rfl

/-- The second bias as a row, at column o. -/
theorem after1_v10_apply (o : Fin 128) :
    StableHlo.after hostOps1 Wa (dv main_v10) (ix2 (0 : Fin 1) o) = Wa (dv main_arg5) (ix1 o) := by
  rw [after1_v10_eq, ix2_eq, shapeCast_a_1a_apply]

/-- The last 128 columns of the second weight matrix, as a term. -/
theorem after2_v13_eq :
    (StableHlo.after hostOps2 Wa (dv main_v13) : S128x128.Idx → Elt F .f32)
      = extractStridedSlice S128x128 ![0, 128] (Wa (dv main_arg4) : S128x256.Idx → Elt F .f32) slices_S128x256_S128x128_0_128 := by
  dsimp only [hostOps2]
  after_results <;> rfl

/-- Their entry (o, c) is the matrix's entry (o, 128 + c). -/
theorem after2_v13_apply (o c : Fin 128) :
    StableHlo.after hostOps2 Wa (dv main_v13) (ix2 o c) = Wa (dv main_arg4) (ix2 o (⟨128 + c.val, by omega⟩ : Fin 256)) := by
  rw [after2_v13_eq]
  refine extractStridedSlice_apply _ _ _ _ _ fun a => ?_
  match a with
  | ⟨0, _⟩ => show o.val = 0 + o.val; omega
  | ⟨1, _⟩ => show 128 + c.val = 128 + c.val; rfl

/-- The result laid back as channels × nodes, as a term. -/
theorem after3_v16_eq :
    (StableHlo.after hostOps3 Wa (dv main_v16) : S1x128x10000x1.Idx → Elt F .f32)
      = shapeCast S1x128x10000x1 (transpose S128x10000 [1, 0] (Wa (dv main_v14) : S10000x128.Idx → Elt F .f32) transposes_S10000x128_S128x10000_1_0) shapeCasts_S128x10000_S1x128x10000x1 := by
  dsimp only [hostOps3]
  after_results <;> rfl

/-- Its entry at channel o, node n is the last call's entry (n, o). -/
theorem after3_v16_apply (o : Fin 128) (n : Fin 10000) :
    StableHlo.after hostOps3 Wa (dv main_v16) (ix4 (0 : Fin 1) o n (0 : Fin 1)) = Wa (dv main_v14) (ix2 n o) := by
  rw [after3_v16_eq]
  refine (shapeCast_apply _ _ _ (ValueIdx.ix2 o n) ?_).trans ?_
  · show (S128x10000.rowMajor (ValueIdx.ix2 o n)).val = (S1x128x10000x1.rowMajor (ix4 (0 : Fin 1) o n (0 : Fin 1))).val
    rw [Shape.rowMajor_val_four, Shape.rowMajor_val_two]
    show o.val * 10000 + n.val = ((0 * 128 + o.val) * 10000 + n.val) * 1 + 0
    omega
  · rw [transpose_ix2_apply, ← ix2_eq]

/-! ## The padded index array -/

/-- The index array the SparseCore call reads, as a term. -/
theorem W1_v6_eq (d : Dev nD) :
    (W1 m d (dv main_v6) : S32x80x128.Idx → BitVec 32)
      = shapeCast S32x80x128 (pad S327680 ![0] ![7680] ![0]
          (shapeCast S320000 (shapeCast S10000x32 (extractStridedSlice S1x1x10000x32 ![0, 0, 0, 0]
            (m (d, dv main_arg1) : S2x1x10000x32.Idx → BitVec 32) slices_S2x1x10000x32_S1x1x10000x32_0_0_0_0)
            shapeCasts_S1x1x10000x32_S10000x32) shapeCasts_S10000x32_S320000)
          (constantI S_ 32 0#32) pads_S320000_S327680_076800 h_S_) shapeCasts_S327680_S32x80x128 := by
  show StableHlo.after hostOps0c (StableHlo.after hostOps0b (StableHlo.after hostOps0a (fun b => m (d, b)))) (Proc.devRef .tc main_v6) = _
  dsimp only [hostOps0a, hostOps0b, hostOps0c]
  after_results <;> rfl

/-- Word (w, a, l) of the index array is word 10240 w + 128 a + l of the first slice of the neighbour indices
    flattened row-major, and zero past its 320000 words. -/
theorem W1_v6_apply (d : Dev nD) (w : Fin 32) (a : Fin 80) (l : Fin 128) :
    W1 m d (dv main_v6) (ix3 w a l)
      = if h : 10240 * w.val + 128 * a.val + l.val < 320000 then
          m (d, dv main_arg1) (ix4 (0 : Fin 2) (0 : Fin 1)
            (⟨(10240 * w.val + 128 * a.val + l.val) / 32, by omega⟩ : Fin 10000)
            (⟨(10240 * w.val + 128 * a.val + l.val) % 32, by omega⟩ : Fin 32))
        else 0#32 := by
  have hq : 10240 * w.val + 128 * a.val + l.val < 327680 := by omega
  rw [W1_v6_eq, ix3_eq]
  refine (shapeCast_apply _ _ _ (ix1 (⟨10240 * w.val + 128 * a.val + l.val, hq⟩ : Fin 327680)) ?_).trans ?_
  · show (S327680.rowMajor (ix1 (⟨10240 * w.val + 128 * a.val + l.val, hq⟩ : Fin 327680))).val
      = (S32x80x128.rowMajor (ValueIdx.ix3 w a l)).val
    rw [Shape.rowMajor_val_three, Shape.rowMajor_val_one]
    show 10240 * w.val + 128 * a.val + l.val = (w.val * 80 + a.val) * 128 + l.val
    omega
  by_cases h : 10240 * w.val + 128 * a.val + l.val < 320000
  · rw [dif_pos h]
    refine (pad_apply_of_inside _ _ _ _ _ _ _ _ (ix1 (⟨10240 * w.val + 128 * a.val + l.val, h⟩ : Fin 320000))
      (fun ax => match ax with
        | ⟨0, _⟩ => by
          show 10240 * w.val + 128 * a.val + l.val = 0 + (10240 * w.val + 128 * a.val + l.val) * (0 + 1)
          omega)).trans ?_
    refine (shapeCast_apply _ _ _ (ValueIdx.ix2 (⟨(10240 * w.val + 128 * a.val + l.val) / 32, by omega⟩ : Fin 10000)
      (⟨(10240 * w.val + 128 * a.val + l.val) % 32, by omega⟩ : Fin 32)) ?_).trans ?_
    · show (S10000x32.rowMajor (ValueIdx.ix2 (⟨(10240 * w.val + 128 * a.val + l.val) / 32, by omega⟩ : Fin 10000)
        (⟨(10240 * w.val + 128 * a.val + l.val) % 32, by omega⟩ : Fin 32))).val
        = (S320000.rowMajor (ix1 (⟨10240 * w.val + 128 * a.val + l.val, h⟩ : Fin 320000))).val
      rw [Shape.rowMajor_val_two, Shape.rowMajor_val_one]
      show (10240 * w.val + 128 * a.val + l.val) / 32 * 32 + (10240 * w.val + 128 * a.val + l.val) % 32
        = 10240 * w.val + 128 * a.val + l.val
      omega
    refine (shapeCast_apply _ _ _ (ix4 (0 : Fin 1) (0 : Fin 1) (⟨(10240 * w.val + 128 * a.val + l.val) / 32, by omega⟩ : Fin 10000)
      (⟨(10240 * w.val + 128 * a.val + l.val) % 32, by omega⟩ : Fin 32)) ?_).trans ?_
    · show (S1x1x10000x32.rowMajor (ix4 (0 : Fin 1) (0 : Fin 1) (⟨(10240 * w.val + 128 * a.val + l.val) / 32, by omega⟩ : Fin 10000)
        (⟨(10240 * w.val + 128 * a.val + l.val) % 32, by omega⟩ : Fin 32))).val
        = (S10000x32.rowMajor (ValueIdx.ix2 (⟨(10240 * w.val + 128 * a.val + l.val) / 32, by omega⟩ : Fin 10000)
          (⟨(10240 * w.val + 128 * a.val + l.val) % 32, by omega⟩ : Fin 32))).val
      rw [Shape.rowMajor_val_four, Shape.rowMajor_val_two]
      show ((0 * 1 + 0) * 10000 + (10240 * w.val + 128 * a.val + l.val) / 32) * 32 + (10240 * w.val + 128 * a.val + l.val) % 32
        = (10240 * w.val + 128 * a.val + l.val) / 32 * 32 + (10240 * w.val + 128 * a.val + l.val) % 32
      omega
    refine extractStridedSlice_apply _ _ _ _ _ fun ax => ?_
    match ax with
    | ⟨0, _⟩ => rfl
    | ⟨1, _⟩ => rfl
    | ⟨2, _⟩ => show (10240 * w.val + 128 * a.val + l.val) / 32 = 0 + (10240 * w.val + 128 * a.val + l.val) / 32; omega
    | ⟨3, _⟩ => show (10240 * w.val + 128 * a.val + l.val) % 32 = 0 + (10240 * w.val + 128 * a.val + l.val) % 32; omega
  · rw [dif_neg h]
    refine (pad_apply_of_not_inside _ _ _ _ _ _ _ _ (⟨0, by decide⟩ : Fin 1) (fun hin => h ?_)).trans rfl
    have h3 := hin.2.2
    have h3' : (10240 * w.val + 128 * a.val + l.val - 0) / (0 + 1) < 320000 := h3
    omega

/-- If every neighbour index is below 10000, so is every word of the index array. -/
theorem idx_lt (d : Dev nD) (hx : ∀ i, (m (d, dv main_arg1) i : BitVec 32).toNat < 10000) :
    ∀ j, (W1 m d (dv main_v6) j : BitVec 32).toNat < 10000 := by
  intro j
  obtain ⟨w, a, l, rfl⟩ : ∃ (w : Fin 32) (a : Fin 80) (l : Fin 128), j = ix3 w a l :=
    ⟨j 0, j 1, j 2, (ValueIdx.eq_ix3 j).trans (ix3_eq _ _ _).symm⟩
  rw [W1_v6_apply]
  split
  · exact hx _
  · decide

end Cert.KernelIdeal.Hand

end
-- ==== Proof.RefRun.lean ====
/-
  The reference program's run, written out.

  The reference is a two-layer graph convolution over 10000 nodes with 128 input channels, each node
  listing 32 neighbours. Stage by stage it computes:
    1. the neighbour table: row 0 of the edge list, as a [1,10000,32] integer table; an entry below zero
       has the node count 10000 added to it (indexing from the end);
    2. the gathered features: for channel c, node n, slot k, the input feature of channel c at the node the
       table names at (n, k) — or a not-a-number filler where the named node lies outside 0 … 9999;
    3. the edge features: the gathered features contracted over channels with the first weight matrix, the
       first bias added, negative values replaced by zero;
    4. the pooled features: over the 32 slots of each node, the largest edge feature (starting from −∞);
    5. the output: the 128 input channels stacked over the 128 pooled channels (256 in all), contracted
       with the second weight matrix, the second bias added, negative values replaced by zero.
  Below: the program as the list of its forty-six elementary operations (the three helper functions'
  operations standing where they are called), the proof that the program is that list, and the statement
  that every execution terminates with the result buffer holding the composed function `refOut` of the six
  argument arrays, the arguments unchanged.
-/
import proofs.«208586_g21955872817707_cont_8to1_688_77_alg».proof.Defs
import proofs.«208586_g21955872817707_cont_8to1_688_77_alg».proof.Proof.Gen.ReferenceIdeal
import proofs.«208586_g21955872817707_cont_8to1_688_77_alg».proof.Proof.Gen.Pre_input_domain
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed function, stage by stage -/

/-- Row 0 of the edge list as a [1,10000,32] table: entry (n, k) is the k-th neighbour node n lists. -/
def edgeRow (e : (⟨S2x1x10000x32, .i32⟩ : BufTy).Contents (Elt F)) : (⟨S1x10000x32, .i32⟩ : BufTy).Contents (Elt F) :=
  shapeCast S1x10000x32 (extractStridedSlice S1x1x10000x32 ![0, 0, 0, 0] e slices_S2x1x10000x32_S1x1x10000x32_0_0_0_0)
    shapeCasts_S1x1x10000x32_S1x10000x32

/-- The neighbour table used for indexing, with a trailing unit axis: an entry below zero has 10000 added. -/
def nodeIdx (e : (⟨S2x1x10000x32, .i32⟩ : BufTy).Contents (Elt F)) : (⟨S1x10000x32x1, .i32⟩ : BufTy).Contents (Elt F) :=
  broadcastInDim S1x10000x32x1 ![0, 1, 2] bcast_S1x10000x32_S1x10000x32x1_0_1_2
    (select (cmpi .slt (edgeRow (F := F) e) (broadcastInDim S1x10000x32 ![] bcast_S_S1x10000x32 (constantI S_ 32 0#32)))
      (addi (edgeRow (F := F) e) (broadcastInDim S1x10000x32 ![] bcast_S_S1x10000x32 (constantI S_ 32 10000#32)))
      (edgeRow (F := F) e))

/-- Where the named node is a node at all: 0 ≤ entry ≤ 9999 (as signed numbers), the same for every channel. -/
def inRange (e : (⟨S2x1x10000x32, .i32⟩ : BufTy).Contents (Elt F)) : (⟨S1x128x10000x32, .i1⟩ : BufTy).Contents (Elt F) :=
  broadcastInDim S1x128x10000x32 ![0, 2, 3] bcast_S1x10000x32_S1x128x10000x32_0_2_3
    (Host.reduce IntOp.andi
      (andi (cmpi .sge (nodeIdx (F := F) e) (broadcastInDim S1x10000x32x1 ![] bcast_S_S1x10000x32x1 (constantI S_ 32 0#32)))
        (cmpi .sle (nodeIdx (F := F) e)
          (broadcastInDim S1x10000x32x1 ![0, 1, 2, 3] bcast_S1x1x1x1_S1x10000x32x1_0_1_2_3
            (broadcastInDim S1x1x1x1 ![3] bcast_S1_S1x1x1x1_3 (constantI S1 32 9999#32)))))
      (constantI S_ 1 1#1) reducesTo_S1x10000x32x1_S1x10000x32_d3 h_S_)

/-- The gathered features: channel c of the node named at (n, k); a not-a-number filler where no node is named. -/
def gathered (x : (⟨S1x128x10000x1, .f32⟩ : BufTy).Contents (Elt F)) (e : (⟨S2x1x10000x32, .i32⟩ : BufTy).Contents (Elt F)) :
    (⟨S1x128x10000x32, .f32⟩ : BufTy).Contents (Elt F) :=
  select (inRange (F := F) e)
    (Host.gather gather_S1x128x10000_S1x10000x32x1_S1x128x10000x32_1_2_0_0_2_3_11281
      (shapeCast S1x128x10000 x shapeCasts_S1x128x10000x1_S1x128x10000) (nodeIdx (F := F) e))
    (broadcastInDim S1x128x10000x32 ![] bcast_S_S1x128x10000x32 (constant (F := F) S_ .f32 0x7FC00000#32))

/-- The edge features: the gathered features contracted over channels with the first weights, plus the first
    bias, negatives replaced by zero. -/
def edgeFeat (x : (⟨S1x128x10000x1, .f32⟩ : BufTy).Contents (Elt F)) (e : (⟨S2x1x10000x32, .i32⟩ : BufTy).Contents (Elt F))
    (w1 : (⟨S128x128, .f32⟩ : BufTy).Contents (Elt F)) (b1 : (⟨S128, .f32⟩ : BufTy).Contents (Elt F)) :
    (⟨S1x128x10000x32, .f32⟩ : BufTy).Contents (Elt F) :=
  maximumf
    (addf
      (transpose S1x128x10000x32 [0, 3, 1, 2]
        (Host.dotGeneral dot_S1x128x10000x32_S128x128_S1x10000x32x128_1_1_023_0_n_n none (gathered x e) w1)
        transposes_S1x10000x32x128_S1x128x10000x32_0_3_1_2)
      (broadcastInDim S1x128x10000x32 ![0, 1, 2, 3] bcast_S1x128x1x1_S1x128x10000x32_0_1_2_3
        (broadcastInDim S1x128x1x1 ![1] bcast_S128_S1x128x1x1_1 b1)))
    (broadcastInDim S1x128x10000x32 ![] bcast_S_S1x128x10000x32 (constant (F := F) S_ .f32 0x00000000#32))

/-- The pooled features: per channel and node, the largest edge feature over the 32 slots, from −∞. -/
def pooled (x : (⟨S1x128x10000x1, .f32⟩ : BufTy).Contents (Elt F)) (e : (⟨S2x1x10000x32, .i32⟩ : BufTy).Contents (Elt F))
    (w1 : (⟨S128x128, .f32⟩ : BufTy).Contents (Elt F)) (b1 : (⟨S128, .f32⟩ : BufTy).Contents (Elt F)) :
    (⟨S1x128x10000x1, .f32⟩ : BufTy).Contents (Elt F) :=
  broadcastInDim S1x128x10000x1 ![0, 1, 2] bcast_S1x128x10000_S1x128x10000x1_0_1_2
    (Host.reduce FloatOps.maximumf (edgeFeat x e w1 b1) (constant (F := F) S_ .f32 0xFF800000#32)
      reducesTo_S1x128x10000x32_S1x128x10000_d3 h_S_)

/-- Two [1,128,10000,1] arrays stacked along the channel axis into one of 256 channels: the first array's
    channels, then the second's. -/
def stack2 (a b : (⟨S1x128x10000x1, .f32⟩ : BufTy).Contents (Elt F)) : (⟨S1x256x10000x1, .f32⟩ : BufTy).Contents (Elt F) :=
  concatenate S1x256x10000x1 1 [⟨S1x128x10000x1, a⟩, ⟨S1x128x10000x1, b⟩]
    concatenates_S1x128x10000x1_S1x128x10000x1_S1x256x10000x1_d1

/-- The result: input channels stacked over pooled channels, contracted with the second weights, plus the
    second bias, negatives replaced by zero. -/
def refOut (x : (⟨S1x128x10000x1, .f32⟩ : BufTy).Contents (Elt F)) (e : (⟨S2x1x10000x32, .i32⟩ : BufTy).Contents (Elt F))
    (w1 : (⟨S128x128, .f32⟩ : BufTy).Contents (Elt F)) (b1 : (⟨S128, .f32⟩ : BufTy).Contents (Elt F))
    (w2 : (⟨S128x256, .f32⟩ : BufTy).Contents (Elt F)) (b2 : (⟨S128, .f32⟩ : BufTy).Contents (Elt F)) :
    (⟨S1x128x10000x1, .f32⟩ : BufTy).Contents (Elt F) :=
  maximumf
    (addf
      (transpose S1x128x10000x1 [0, 3, 1, 2]
        (Host.dotGeneral dot_S1x256x10000x1_S128x256_S1x10000x1x128_1_1_023_0_n_n none
          (stack2 x (pooled x e w1 b1)) w2)
        transposes_S1x10000x1x128_S1x128x10000x1_0_3_1_2)
      (broadcastInDim S1x128x10000x1 ![0, 1, 2, 3] bcast_S1x128x1x1_S1x128x10000x1_0_1_2_3
        (broadcastInDim S1x128x1x1 ![1] bcast_S128_S1x128x1x1_1 b2)))
    (broadcastInDim S1x128x10000x1 ![] bcast_S_S1x128x10000x1 (constant (F := F) S_ .f32 0x00000000#32))

/-! ## The program as a list of operations -/

/-- The program's forty-six operations in order, each helper function's operations in the place of its call:
    three of the main function (the row of the edge list, its reshaping, the input's reshaping); twenty-three
    of the indexed read (the neighbour table brought into range — whose selection is a helper of its own, one
    operation —, the in-range test, the gather, the filler, the choice between them); five (first contraction,
    its transposition, the bias broadcast twice, the sum); three of the first clamp at zero; nine (−∞, the
    maximum over slots, its broadcast, the stacking, second contraction, transposition, bias broadcast twice,
    the sum); three of the second clamp at zero. -/
abbrev ops : List (HloOp τ sig (Elt F)) :=
  [ unary main_arg1 main_v0 ((extractStridedSlice S1x1x10000x32 ![0, 0, 0, 0] · slices_S2x1x10000x32_S1x1x10000x32_0_0_0_0) : (⟨S2x1x10000x32, .i32⟩ : BufTy).Contents (Elt F) → (⟨S1x1x10000x32, .i32⟩ : BufTy).Contents (Elt F)),
    reshape main_v0 main_v1 rfl shapeCasts_S1x1x10000x32_S1x10000x32,
    reshape main_arg0 main_v2 rfl shapeCasts_S1x128x10000x1_S1x128x10000,
    nullary main_call0_c (constantI S_ 32 0#32 : (⟨S_, .i32⟩ : BufTy).Contents (Elt F)),
    unary main_call0_c main_call0_v0 (broadcastInDim S1x10000x32 ![] bcast_S_S1x10000x32 : (⟨S_, .i32⟩ : BufTy).Contents (Elt F) → (⟨S1x10000x32, .i32⟩ : BufTy).Contents (Elt F)),
    binary main_v1 main_call0_v0 main_call0_v1 (cmpi .slt : (⟨S1x10000x32, .i32⟩ : BufTy).Contents (Elt F) → (⟨S1x10000x32, .i32⟩ : BufTy).Contents (Elt F) → (⟨S1x10000x32, .i1⟩ : BufTy).Contents (Elt F)),
    nullary main_call0_c_0 (constantI S_ 32 10000#32 : (⟨S_, .i32⟩ : BufTy).Contents (Elt F)),
    unary main_call0_c_0 main_call0_v2 (broadcastInDim S1x10000x32 ![] bcast_S_S1x10000x32 : (⟨S_, .i32⟩ : BufTy).Contents (Elt F) → (⟨S1x10000x32, .i32⟩ : BufTy).Contents (Elt F)),
    binary main_v1 main_call0_v2 main_call0_v3 (addi : (⟨S1x10000x32, .i32⟩ : BufTy).Contents (Elt F) → (⟨S1x10000x32, .i32⟩ : BufTy).Contents (Elt F) → (⟨S1x10000x32, .i32⟩ : BufTy).Contents (Elt F)),
    ternary main_call0_v1 main_call0_v3 main_v1 main_call0_v4 (select : (⟨S1x10000x32, .i1⟩ : BufTy).Contents (Elt F) → (⟨S1x10000x32, .i32⟩ : BufTy).Contents (Elt F) → (⟨S1x10000x32, .i32⟩ : BufTy).Contents (Elt F) → (⟨S1x10000x32, .i32⟩ : BufTy).Contents (Elt F)),
    unary main_call0_v4 main_call0_v5 (broadcastInDim S1x10000x32x1 ![0, 1, 2] bcast_S1x10000x32_S1x10000x32x1_0_1_2 : (⟨S1x10000x32, .i32⟩ : BufTy).Contents (Elt F) → (⟨S1x10000x32x1, .i32⟩ : BufTy).Contents (Elt F)),
    nullary main_call0_c_1 (constantI S1 32 9999#32 : (⟨S1, .i32⟩ : BufTy).Contents (Elt F)),
    nullary main_call0_c_2 (constantI S_ 32 0#32 : (⟨S_, .i32⟩ : BufTy).Contents (Elt F)),
    unary main_call0_c_2 main_call0_v6 (broadcastInDim S1x10000x32x1 ![] bcast_S_S1x10000x32x1 : (⟨S_, .i32⟩ : BufTy).Contents (Elt F) → (⟨S1x10000x32x1, .i32⟩ : BufTy).Contents (Elt F)),
    binary main_call0_v5 main_call0_v6 main_call0_v7 (cmpi .sge : (⟨S1x10000x32x1, .i32⟩ : BufTy).Contents (Elt F) → (⟨S1x10000x32x1, .i32⟩ : BufTy).Contents (Elt F) → (⟨S1x10000x32x1, .i1⟩ : BufTy).Contents (Elt F)),
    unary main_call0_c_1 main_call0_v8 (broadcastInDim S1x1x1x1 ![3] bcast_S1_S1x1x1x1_3 : (⟨S1, .i32⟩ : BufTy).Contents (Elt F) → (⟨S1x1x1x1, .i32⟩ : BufTy).Contents (Elt F)),
    unary main_call0_v8 main_call0_v9 (broadcastInDim S1x10000x32x1 ![0, 1, 2, 3] bcast_S1x1x1x1_S1x10000x32x1_0_1_2_3 : (⟨S1x1x1x1, .i32⟩ : BufTy).Contents (Elt F) → (⟨S1x10000x32x1, .i32⟩ : BufTy).Contents (Elt F)),
    binary main_call0_v5 main_call0_v9 main_call0_v10 (cmpi .sle : (⟨S1x10000x32x1, .i32⟩ : BufTy).Contents (Elt F) → (⟨S1x10000x32x1, .i32⟩ : BufTy).Contents (Elt F) → (⟨S1x10000x32x1, .i1⟩ : BufTy).Contents (Elt F)),
    binary main_call0_v7 main_call0_v10 main_call0_v11 (andi : (⟨S1x10000x32x1, .i1⟩ : BufTy).Contents (Elt F) → (⟨S1x10000x32x1, .i1⟩ : BufTy).Contents (Elt F) → (⟨S1x10000x32x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S1x10000x32x1_S1x10000x32_d3 h_S_) : (⟨S1x10000x32x1, .i1⟩ : BufTy).Contents (Elt F) → (⟨S_, .i1⟩ : BufTy).Contents (Elt F) → (⟨S1x10000x32, .i1⟩ : BufTy).Contents (Elt F)),
    binary main_v2 main_call0_v5 main_call0_v13 ((fun x i => Host.gather gather_S1x128x10000_S1x10000x32x1_S1x128x10000x32_1_2_0_0_2_3_11281 x i) : (⟨S1x128x10000, .f32⟩ : BufTy).Contents (Elt F) → (⟨S1x10000x32x1, .i32⟩ : BufTy).Contents (Elt F) → (⟨S1x128x10000x32, .f32⟩ : BufTy).Contents (Elt F)),
    unary main_call0_v12 main_call0_v14 (broadcastInDim S1x128x10000x32 ![0, 2, 3] bcast_S1x10000x32_S1x128x10000x32_0_2_3 : (⟨S1x10000x32, .i1⟩ : BufTy).Contents (Elt F) → (⟨S1x128x10000x32, .i1⟩ : BufTy).Contents (Elt F)),
    nullary main_call0_cst (constant S_ .f32 0x7FC00000#32 : (⟨S_, .f32⟩ : BufTy).Contents (Elt F)),
    unary main_call0_cst main_call0_v15 (broadcastInDim S1x128x10000x32 ![] bcast_S_S1x128x10000x32 : (⟨S_, .f32⟩ : BufTy).Contents (Elt F) → (⟨S1x128x10000x32, .f32⟩ : BufTy).Contents (Elt F)),
    ternary main_call0_v14 main_call0_v13 main_call0_v15 main_v3 (select : (⟨S1x128x10000x32, .i1⟩ : BufTy).Contents (Elt F) → (⟨S1x128x10000x32, .f32⟩ : BufTy).Contents (Elt F) → (⟨S1x128x10000x32, .f32⟩ : BufTy).Contents (Elt F) → (⟨S1x128x10000x32, .f32⟩ : BufTy).Contents (Elt F)),
    binary main_v3 main_arg2 main_v4 ((fun l r => Host.dotGeneral dot_S1x128x10000x32_S128x128_S1x10000x32x128_1_1_023_0_n_n none l r) : (⟨S1x128x10000x32, .f32⟩ : BufTy).Contents (Elt F) → (⟨S128x128, .f32⟩ : BufTy).Contents (Elt F) → (⟨S1x10000x32x128, .f32⟩ : BufTy).Contents (Elt F)),
    unary main_v4 main_v5 ((transpose S1x128x10000x32 [0, 3, 1, 2] · transposes_S1x10000x32x128_S1x128x10000x32_0_3_1_2) : (⟨S1x10000x32x128, .f32⟩ : BufTy).Contents (Elt F) → (⟨S1x128x10000x32, .f32⟩ : BufTy).Contents (Elt F)),
    unary main_arg3 main_v6 (broadcastInDim S1x128x1x1 ![1] bcast_S128_S1x128x1x1_1 : (⟨S128, .f32⟩ : BufTy).Contents (Elt F) → (⟨S1x128x1x1, .f32⟩ : BufTy).Contents (Elt F)),
    unary main_v6 main_v7 (broadcastInDim S1x128x10000x32 ![0, 1, 2, 3] bcast_S1x128x1x1_S1x128x10000x32_0_1_2_3 : (⟨S1x128x1x1, .f32⟩ : BufTy).Contents (Elt F) → (⟨S1x128x10000x32, .f32⟩ : BufTy).Contents (Elt F)),
    binary main_v5 main_v7 main_v8 (addf : (⟨S1x128x10000x32, .f32⟩ : BufTy).Contents (Elt F) → (⟨S1x128x10000x32, .f32⟩ : BufTy).Contents (Elt F) → (⟨S1x128x10000x32, .f32⟩ : BufTy).Contents (Elt F)),
    nullary main_call1_cst (constant S_ .f32 0x00000000#32 : (⟨S_, .f32⟩ : BufTy).Contents (Elt F)),
    unary main_call1_cst main_call1_v0 (broadcastInDim S1x128x10000x32 ![] bcast_S_S1x128x10000x32 : (⟨S_, .f32⟩ : BufTy).Contents (Elt F) → (⟨S1x128x10000x32, .f32⟩ : BufTy).Contents (Elt F)),
    binary main_v8 main_call1_v0 main_v9 (maximumf : (⟨S1x128x10000x32, .f32⟩ : BufTy).Contents (Elt F) → (⟨S1x128x10000x32, .f32⟩ : BufTy).Contents (Elt F) → (⟨S1x128x10000x32, .f32⟩ : BufTy).Contents (Elt F)),
    nullary main_cst (constant S_ .f32 0xFF800000#32),
    binary main_v9 main_cst main_v10 ((fun x v => Host.reduce FloatOps.maximumf x v reducesTo_S1x128x10000x32_S1x128x10000_d3 h_S_) : (⟨S1x128x10000x32, .f32⟩ : BufTy).Contents (Elt F) → (⟨S_, .f32⟩ : BufTy).Contents (Elt F) → (⟨S1x128x10000, .f32⟩ : BufTy).Contents (Elt F)),
    unary main_v10 main_v11 (broadcastInDim S1x128x10000x1 ![0, 1, 2] bcast_S1x128x10000_S1x128x10000x1_0_1_2 : (⟨S1x128x10000, .f32⟩ : BufTy).Contents (Elt F) → (⟨S1x128x10000x1, .f32⟩ : BufTy).Contents (Elt F)),
    binary main_arg0 main_v11 main_v12 (stack2 : (⟨S1x128x10000x1, .f32⟩ : BufTy).Contents (Elt F) → (⟨S1x128x10000x1, .f32⟩ : BufTy).Contents (Elt F) → (⟨S1x256x10000x1, .f32⟩ : BufTy).Contents (Elt F)),
    binary main_v12 main_arg4 main_v13 ((fun l r => Host.dotGeneral dot_S1x256x10000x1_S128x256_S1x10000x1x128_1_1_023_0_n_n none l r) : (⟨S1x256x10000x1, .f32⟩ : BufTy).Contents (Elt F) → (⟨S128x256, .f32⟩ : BufTy).Contents (Elt F) → (⟨S1x10000x1x128, .f32⟩ : BufTy).Contents (Elt F)),
    unary main_v13 main_v14 ((transpose S1x128x10000x1 [0, 3, 1, 2] · transposes_S1x10000x1x128_S1x128x10000x1_0_3_1_2) : (⟨S1x10000x1x128, .f32⟩ : BufTy).Contents (Elt F) → (⟨S1x128x10000x1, .f32⟩ : BufTy).Contents (Elt F)),
    unary main_arg5 main_v15 (broadcastInDim S1x128x1x1 ![1] bcast_S128_S1x128x1x1_1 : (⟨S128, .f32⟩ : BufTy).Contents (Elt F) → (⟨S1x128x1x1, .f32⟩ : BufTy).Contents (Elt F)),
    unary main_v15 main_v16 (broadcastInDim S1x128x10000x1 ![0, 1, 2, 3] bcast_S1x128x1x1_S1x128x10000x1_0_1_2_3 : (⟨S1x128x1x1, .f32⟩ : BufTy).Contents (Elt F) → (⟨S1x128x10000x1, .f32⟩ : BufTy).Contents (Elt F)),
    binary main_v14 main_v16 main_v17 (addf : (⟨S1x128x10000x1, .f32⟩ : BufTy).Contents (Elt F) → (⟨S1x128x10000x1, .f32⟩ : BufTy).Contents (Elt F) → (⟨S1x128x10000x1, .f32⟩ : BufTy).Contents (Elt F)),
    nullary main_call2_cst (constant S_ .f32 0x00000000#32 : (⟨S_, .f32⟩ : BufTy).Contents (Elt F)),
    unary main_call2_cst main_call2_v0 (broadcastInDim S1x128x10000x1 ![] bcast_S_S1x128x10000x1 : (⟨S_, .f32⟩ : BufTy).Contents (Elt F) → (⟨S1x128x10000x1, .f32⟩ : BufTy).Contents (Elt F)),
    binary main_v17 main_call2_v0 main_v18 (maximumf : (⟨S1x128x10000x1, .f32⟩ : BufTy).Contents (Elt F) → (⟨S1x128x10000x1, .f32⟩ : BufTy).Contents (Elt F) → (⟨S1x128x10000x1, .f32⟩ : BufTy).Contents (Elt F)) ]

-- forty-six sequencing steps re-associated: the rewriting under the chain recurses once per step
-- the reduction along an axis and the indexed read stay folded while the two sides are compared: the comparison
-- only has to see that moving a value to a buffer's own type and back is the identity
attribute [local irreducible] Host.reduce Host.gather in
set_option maxRecDepth 8192 in
set_option maxHeartbeats 2000000 in
/-- The main function is that straight line: with the helper functions' definitions unfolded at their calls,
    both sides are one chain of single-operation steps once sequencing is re-associated; a helper's operation
    over its typed buffers is the plain operation over the same buffers. -/
theorem main_eq (c : Dev nD) : main (F := F) c = seq ops := by
  simp only [main, fn_take.body, fn_where.body, fn_relu.body, fn_relu_0.body, seq, bind_assoc, pure_bind]
  rfl

/-- No buffer of the signature is scoped. -/
theorem scopedRefs_eq : (Finset.univ.filter fun b : Ref sig .tc => b.isScoped) = ∅ := by decide
/-- There is no semaphore, so none is scoped. -/
theorem scopedSems_eq : (Finset.univ.filter fun sm : SemLoc sig => sm.isScoped .tc) = ∅ := by decide

set_option maxRecDepth 4096 in
/-- Every operation touches buffers of the device's main core only. -/
theorem ops_sub : (ops : List (HloOp τ sig (Elt F))).Forall fun op => op.bufs ⊆ tcRefs τ sig :=
  ⟨unary_bufs_sub .., reshape_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., unary_bufs_sub .., binary_bufs_sub ..,
    nullary_bufs_sub .., unary_bufs_sub .., binary_bufs_sub ..,
    nullary_bufs_sub .., binary_bufs_sub .., unary_bufs_sub .., binary_bufs_sub .., binary_bufs_sub .., unary_bufs_sub ..,
    unary_bufs_sub .., unary_bufs_sub .., binary_bufs_sub ..,
    nullary_bufs_sub .., unary_bufs_sub .., binary_bufs_sub ..⟩

/-! ## The run -/

-- as for `main_eq`: the reduction and the indexed read stay folded while the composed term is compared with `refOut`
attribute [local irreducible] Host.reduce Host.gather in
set_option maxRecDepth 8192 in
set_option maxHeartbeats 4000000 in
/-- On every device, for any float values, from any memory with zero counters: every execution of the main
    function terminates with the result buffer at `refOut` of the six argument arrays as they were at the start,
    and the six argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v18).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

/-- The reference runs to its end on any input and leaves its six argument arrays as they were. -/
theorem frame : Cert.frame_ReferenceIdeal :=
  fun m ρ _ => (θ_run (Cert.ReferenceIdeal.defs (F := Ideal)) _ _).mono (fun _ h c => (h c).2) (run (F := Ideal) m ρ)

end Cert.ReferenceIdeal.RefRun

end
-- ==== Proof.RefRead.lean ====
/-
  The reference's result read at one index, at the ideal values (floats extended reals, operations exact).

  `refOut` (the composed function of the six arguments that the reference's run ends with) is read here stage by
  stage at an index: the neighbour table and its in-range test, the indexed read (a gather over the node axis with
  the channel axis carried along), the two contractions (each a sum over its one contracted axis), the transpositions
  and broadcasts (each reads one index of its operand), the maximum over the 32 slots (a fold of `max` from −∞), the
  stacking of input and pooled channels. Under the hypothesis that every entry of the edge list's first row is a
  node number (0 … 9999 as a signed number), `refOut_apply` states the result at (channel o, node n) in closed form.
-/
import proofs.«208586_g21955872817707_cont_8to1_688_77_alg».proof.Proof.RefRun
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefRead

open Cert.ReferenceIdeal Cert.ReferenceIdeal.Gen Cert.ReferenceIdeal.RefRun Idealize.ShloMosaic Idealize.ShloMosaic.ValueIdx
open scoped BigOperators

/-- The three axes of the reshaped input: unit, channel, node. -/
abbrev ax0 : Fin S1x128x10000.rank := ⟨0, by decide⟩
abbrev ax1 : Fin S1x128x10000.rank := ⟨1, by decide⟩
abbrev ax2 : Fin S1x128x10000.rank := ⟨2, by decide⟩

/-- The indexed read at (channel c, node n, slot k): channel c of the node whose number is the table's entry at
    (n, k) read as a signed number and brought into 0 … 9999. -/
theorem gather_apply (x3 : FVec Ideal S1x128x10000 .f32) (idx : IVec S1x10000x32x1 32) (c : Fin 128) (n : Fin 10000) (k : Fin 32) :
    Host.gather gather_S1x128x10000_S1x10000x32x1_S1x128x10000x32_1_2_0_0_2_3_11281 x3 idx (ix4 (0 : Fin 1) c n k)
      = x3 (ix3 (0 : Fin 1) c ⟨min (idx (ix4 (0 : Fin 1) n k (0 : Fin 1))).toInt.toNat 9999, by omega⟩) := by
  unfold Host.gather
  congr 1
  funext a
  refine Fin.ext ?_
  show (gather_S1x128x10000_S1x10000x32x1_S1x128x10000x32_1_2_0_0_2_3_11281).start (ix4 (0 : Fin 1) c n k) idx a + (gather_S1x128x10000_S1x10000x32x1_S1x128x10000x32_1_2_0_0_2_3_11281).batchCoord (ix4 (0 : Fin 1) c n k) a
      + (gather_S1x128x10000_S1x10000x32x1_S1x128x10000x32_1_2_0_0_2_3_11281).offCoord (ix4 (0 : Fin 1) c n k) a = _
  have key : ∀ a : Fin S1x128x10000.rank, a = ax0 ∨ a = ax1 ∨ a = ax2 := by decide
  rcases key a with rfl | rfl | rfl
  · have h := (gather_S1x128x10000_S1x10000x32x1_S1x128x10000x32_1_2_0_0_2_3_11281).lt (ix4 (0 : Fin 1) c n k) idx ax0
    have h1 : (gather_S1x128x10000_S1x10000x32x1_S1x128x10000x32_1_2_0_0_2_3_11281).start (ix4 (0 : Fin 1) c n k) idx ax0 + (gather_S1x128x10000_S1x10000x32x1_S1x128x10000x32_1_2_0_0_2_3_11281).batchCoord (ix4 (0 : Fin 1) c n k) ax0
      + (gather_S1x128x10000_S1x10000x32x1_S1x128x10000x32_1_2_0_0_2_3_11281).offCoord (ix4 (0 : Fin 1) c n k) ax0 < 1 := h
    show _ = 0
    omega
  · rw [GatherDims.batchCoord_eq_zero _ _ _ (by decide)]
    unfold GatherDims.start GatherDims.offCoord
    rw [dif_neg (by decide), dif_pos (by decide), Nat.add_zero, Nat.zero_add]
    rfl
  · rw [GatherDims.batchCoord_eq_zero _ _ _ (by decide), GatherDims.offCoord_eq_zero _ _ _ (by decide)]
    unfold GatherDims.start
    rw [dif_pos (by decide)]
    have hsi : (gather_S1x128x10000_S1x10000x32x1_S1x128x10000x32_1_2_0_0_2_3_11281).siIdx (ix4 (0 : Fin 1) c n k) ⟨List.idxOf ax2 (gather_S1x128x10000_S1x10000x32x1_S1x128x10000x32_1_2_0_0_2_3_11281).startIndexMap,
        List.idxOf_lt_length_iff.2 (by decide)⟩ = ix4 (0 : Fin 1) n k (0 : Fin 1) := by
      funext b; refine Fin.ext ?_
      match b with
      | ⟨0, _⟩ => rfl
      | ⟨1, _⟩ => rfl
      | ⟨2, _⟩ => rfl
      | ⟨3, _⟩ => rfl
    rw [hsi]
    rfl

/-- The first contraction read at an index: over the 128 channels, gathered feature times weight. -/
theorem dot1_apply (g : FVec Ideal S1x128x10000x32 .f32) (w : FVec Ideal S128x128 .f32) (n : Fin 10000) (k : Fin 32) (o : Fin 128) :
    Host.dotGeneral dot_S1x128x10000x32_S128x128_S1x10000x32x128_1_1_023_0_n_n none g w (ix4 (0 : Fin 1) n k o)
      = ∑ c : Fin 128, g (ix4 (0 : Fin 1) c n k) * w (ix2 o c) := by
  show FloatOps.dotGeneral _ none _ g w _ = _
  rw [Ideal.dotGeneral_apply, ← Equiv.sum_comp (contrEquiv1 dot_S1x128x10000x32_S128x128_S1x10000x32x128_1_1_023_0_n_n 128 rfl rfl).symm]
  refine Finset.sum_congr rfl fun c _ => ?_
  have hc := contrEquiv1_symm_val dot_S1x128x10000x32_S128x128_S1x10000x32x128_1_1_023_0_n_n 128 rfl rfl c
  have hl : (dot_S1x128x10000x32_S128x128_S1x10000x32x128_1_1_023_0_n_n).lhsIdx (ix4 (0 : Fin 1) n k o) ((contrEquiv1 _ 128 rfl rfl).symm c) = ix4 (0 : Fin 1) c n k := by
    funext ax; apply Fin.ext
    match ax with
    | ⟨0, _⟩ => simp [DotDims.lhsIdx, dot_S1x128x10000x32_S128x128_S1x10000x32x128_1_1_023_0_n_n] <;> first | rfl | exact hc
    | ⟨1, _⟩ => simp [DotDims.lhsIdx, dot_S1x128x10000x32_S128x128_S1x10000x32x128_1_1_023_0_n_n] <;> first | rfl | exact hc
    | ⟨2, _⟩ => simp [DotDims.lhsIdx, dot_S1x128x10000x32_S128x128_S1x10000x32x128_1_1_023_0_n_n] <;> first | rfl | exact hc
    | ⟨3, _⟩ => simp [DotDims.lhsIdx, dot_S1x128x10000x32_S128x128_S1x10000x32x128_1_1_023_0_n_n] <;> first | rfl | exact hc
  have hr : (dot_S1x128x10000x32_S128x128_S1x10000x32x128_1_1_023_0_n_n).rhsIdx (ix4 (0 : Fin 1) n k o) ((contrEquiv1 _ 128 rfl rfl).symm c) = ix2 o c := by
    funext ax; apply Fin.ext
    match ax with
    | ⟨0, _⟩ => simp [DotDims.rhsIdx, dot_S1x128x10000x32_S128x128_S1x10000x32x128_1_1_023_0_n_n] <;> first | rfl | exact hc
    | ⟨1, _⟩ => simp [DotDims.rhsIdx, dot_S1x128x10000x32_S128x128_S1x10000x32x128_1_1_023_0_n_n] <;> first | rfl | exact hc
  rw [hl, hr]

/-- The second contraction read at an index: over the 256 stacked channels, stacked feature times weight. -/
theorem dot2_apply (g : FVec Ideal S1x256x10000x1 .f32) (w : FVec Ideal S128x256 .f32) (n : Fin 10000) (o : Fin 128) :
    Host.dotGeneral dot_S1x256x10000x1_S128x256_S1x10000x1x128_1_1_023_0_n_n none g w (ix4 (0 : Fin 1) n (0 : Fin 1) o)
      = ∑ c : Fin 256, g (ix4 (0 : Fin 1) c n (0 : Fin 1)) * w (ix2 o c) := by
  show FloatOps.dotGeneral _ none _ g w _ = _
  rw [Ideal.dotGeneral_apply, ← Equiv.sum_comp (contrEquiv1 dot_S1x256x10000x1_S128x256_S1x10000x1x128_1_1_023_0_n_n 256 rfl rfl).symm]
  refine Finset.sum_congr rfl fun c _ => ?_
  have hc := contrEquiv1_symm_val dot_S1x256x10000x1_S128x256_S1x10000x1x128_1_1_023_0_n_n 256 rfl rfl c
  have hl : (dot_S1x256x10000x1_S128x256_S1x10000x1x128_1_1_023_0_n_n).lhsIdx (ix4 (0 : Fin 1) n (0 : Fin 1) o) ((contrEquiv1 _ 256 rfl rfl).symm c) = ix4 (0 : Fin 1) c n (0 : Fin 1) := by
    funext ax; apply Fin.ext
    match ax with
    | ⟨0, _⟩ => simp [DotDims.lhsIdx, dot_S1x256x10000x1_S128x256_S1x10000x1x128_1_1_023_0_n_n] <;> first | rfl | exact hc
    | ⟨1, _⟩ => simp [DotDims.lhsIdx, dot_S1x256x10000x1_S128x256_S1x10000x1x128_1_1_023_0_n_n] <;> first | rfl | exact hc
    | ⟨2, _⟩ => simp [DotDims.lhsIdx, dot_S1x256x10000x1_S128x256_S1x10000x1x128_1_1_023_0_n_n] <;> first | rfl | exact hc
    | ⟨3, _⟩ => simp [DotDims.lhsIdx, dot_S1x256x10000x1_S128x256_S1x10000x1x128_1_1_023_0_n_n] <;> first | rfl | exact hc
  have hr : (dot_S1x256x10000x1_S128x256_S1x10000x1x128_1_1_023_0_n_n).rhsIdx (ix4 (0 : Fin 1) n (0 : Fin 1) o) ((contrEquiv1 _ 256 rfl rfl).symm c) = ix2 o c := by
    funext ax; apply Fin.ext
    match ax with
    | ⟨0, _⟩ => simp [DotDims.rhsIdx, dot_S1x256x10000x1_S128x256_S1x10000x1x128_1_1_023_0_n_n] <;> first | rfl | exact hc
    | ⟨1, _⟩ => simp [DotDims.rhsIdx, dot_S1x256x10000x1_S128x256_S1x10000x1x128_1_1_023_0_n_n] <;> first | rfl | exact hc
  rw [hl, hr]

/-- The pattern of −∞ is the least extended real. -/
theorem negInf_eq_bot : Ideal.ofBits .f32 0xFF800000#32 = (⊥ : EReal) := by
  simp [Ideal.ofBits, Ideal.ieee]

/-- The maximum over the 32 slots read at (channel c, node n): from −∞, the fold of `max` over the slots. -/
theorem poolReduce_apply (f : FVec Ideal S1x128x10000x32 .f32) (c : Fin 128) (n : Fin 10000) :
    Host.reduce FloatOps.maximumf f (constant (F := Ideal) S_ .f32 0xFF800000#32) reducesTo_S1x128x10000x32_S1x128x10000_d3 h_S_
        (ix3 (0 : Fin 1) c n)
      = (Finset.univ : Finset (Fin 32)).fold max (⊥ : EReal) (fun k => f (ix4 (0 : Fin 1) c n k)) := by
  have h : S1x128x10000x32.Reduces [(3 : Fin S1x128x10000x32.rank)] S1x128x10000 := by decide
  rw [Host.reduce_eq_fold_single FloatOps.maximumf f _ reducesTo_S1x128x10000x32_S1x128x10000_d3 h h_S_]
  have hf : (f ∘ h.lift (ix3 (0 : Fin 1) c n)) = fun k : Fin 32 => f (ix4 (0 : Fin 1) c n k) := by
    funext k
    refine congrArg f ?_
    funext ax; apply Fin.ext
    match ax with
    | ⟨0, _⟩ => rfl
    | ⟨1, _⟩ => rfl
    | ⟨2, _⟩ => rfl
    | ⟨3, _⟩ => rfl
  have hi : (constant (F := Ideal) S_ .f32 0xFF800000#32) (Shape.Idx.first h_S_) = (⊥ : EReal) := negInf_eq_bot
  rw [hi]
  exact congrArg (fun g => Finset.fold max (⊥ : EReal) g (Finset.univ : Finset (Fin 32))) hf

/-- The conjunction over the trailing unit axis read at (node n, slot k): the one entry there (and true). -/
theorem andReduce_apply (m : IVec S1x10000x32x1 1) (n : Fin 10000) (k : Fin 32) :
    Host.reduce IntOp.andi m (constantI S_ 1 1#1) reducesTo_S1x10000x32x1_S1x10000x32_d3 h_S_ (ix3 (0 : Fin 1) n k)
      = m (ix4 (0 : Fin 1) n k (0 : Fin 1)) := by
  have h : S1x10000x32x1.Reduces [(3 : Fin S1x10000x32x1.rank)] S1x10000x32 := by decide
  rw [Host.reduce_eq_fold_single IntOp.andi m _ reducesTo_S1x10000x32x1_S1x10000x32_d3 h h_S_]
  show Finset.fold IntOp.andi (1#1) (fun k' : Fin 1 => m (h.lift (ix3 (0 : Fin 1) n k) k')) (Finset.univ : Finset (Fin 1)) = _
  rw [Finset.univ_unique, Finset.fold_singleton]
  show IntOp.andi (m (h.lift (ix3 (0 : Fin 1) n k) (0 : Fin 1))) 1#1 = _
  have hl : h.lift (ix3 (0 : Fin 1) n k) (0 : Fin 1) = ix4 (0 : Fin 1) n k (0 : Fin 1) := by
    funext ax; apply Fin.ext
    match ax with
    | ⟨0, _⟩ => rfl
    | ⟨1, _⟩ => rfl
    | ⟨2, _⟩ => rfl
    | ⟨3, _⟩ => rfl
  rw [hl]
  show m (ix4 (0 : Fin 1) n k (0 : Fin 1)) &&& 1#1 = _
  generalize m (ix4 (0 : Fin 1) n k (0 : Fin 1)) = b
  rcases BitVec.eq_zero_or_eq_one b with hb | hb <;> subst hb <;> decide

/-- The neighbour table read at (node n, slot k): the edge list's entry (0, 0, n, k). -/
theorem edgeRow_apply (e : IVec S2x1x10000x32 32) (n : Fin 10000) (k : Fin 32) :
    edgeRow (F := Ideal) e (ix3 (0 : Fin 1) n k) = e (ix4 (0 : Fin 2) (0 : Fin 1) n k) := by
  unfold edgeRow
  refine (shapeCast_apply _ _ (ix3 (0 : Fin 1) n k) (ix4 (0 : Fin 1) (0 : Fin 1) n k) ?_).trans ?_
  · rw [Shape.rowMajor_val_four, Shape.rowMajor_val_three]
    show ((0 * 1 + 0) * 10000 + n.val) * 32 + k.val = (0 * 10000 + n.val) * 32 + k.val
    omega
  · refine extractStridedSlice_apply _ _ _ _ (ix4 (0 : Fin 2) (0 : Fin 1) n k) fun a => ?_
    match a with
    | ⟨0, _⟩ => rfl
    | ⟨1, _⟩ => rfl
    | ⟨2, _⟩ =>
      show n.val = 0 + n.val
      omega
    | ⟨3, _⟩ =>
      show k.val = 0 + k.val
      omega

/-- A signed 32-bit number that is not negative does not compare below zero. -/
theorem slt_zero_of_nonneg (v : BitVec 32) (h : 0 ≤ v.toInt) : IntOp.cmpi .slt v 0#32 = 0#1 := by
  show BitVec.ofBool (v.slt 0#32) = 0#1
  have : v.slt 0#32 = false := by
    rw [BitVec.slt]
    simp
    omega
  rw [this]
  rfl

/-- The indexing table read at (node n, slot k): an entry that is not negative is left as it is. -/
theorem nodeIdx_apply (e : IVec S2x1x10000x32 32) (n : Fin 10000) (k : Fin 32)
    (h0 : 0 ≤ (e (ix4 (0 : Fin 2) (0 : Fin 1) n k)).toInt) :
    nodeIdx (F := Ideal) e (ix4 (0 : Fin 1) n k (0 : Fin 1)) = e (ix4 (0 : Fin 2) (0 : Fin 1) n k) := by
  unfold nodeIdx
  refine (broadcastInDim_apply _ _ _ (ix4 (0 : Fin 1) n k (0 : Fin 1)) (ix3 (0 : Fin 1) n k) fun a => ?_).trans ?_
  · match a with
    | ⟨0, _⟩ => rfl
    | ⟨1, _⟩ => rfl
    | ⟨2, _⟩ => rfl
  · show Scalar.select (IntOp.cmpi .slt (edgeRow (F := Ideal) e (ix3 (0 : Fin 1) n k)) 0#32) _ (edgeRow (F := Ideal) e (ix3 (0 : Fin 1) n k)) = _
    rw [edgeRow_apply, slt_zero_of_nonneg _ h0, select_zero]

/-- The node an entry of the edge list names: the entry read as a signed number and brought into 0 … 9999. -/
def node (e : IVec S2x1x10000x32 32) (n : Fin 10000) (k : Fin 32) : Fin 10000 :=
  ⟨min (e (ix4 (0 : Fin 2) (0 : Fin 1) n k)).toInt.toNat 9999, by omega⟩

/-- For an entry within 0 … 9999 the node is the entry itself. -/
theorem node_val (e : IVec S2x1x10000x32 32) (n : Fin 10000) (k : Fin 32)
    (h0 : 0 ≤ (e (ix4 (0 : Fin 2) (0 : Fin 1) n k)).toInt) (h1 : (e (ix4 (0 : Fin 2) (0 : Fin 1) n k)).toInt ≤ 9999) :
    ((node e n k).val : Int) = (e (ix4 (0 : Fin 2) (0 : Fin 1) n k)).toInt := by
  unfold node
  show ((min (e (ix4 (0 : Fin 2) (0 : Fin 1) n k)).toInt.toNat 9999 : Nat) : Int) = _
  omega

/-- A signed number within 0 … 9999 passes both bounds tests. -/
theorem bounds_of_mem (v : BitVec 32) (h0 : 0 ≤ v.toInt) (h1 : v.toInt ≤ 9999) :
    IntOp.andi (IntOp.cmpi .sge v 0#32) (IntOp.cmpi .sle v 9999#32) = 1#1 := by
  show BitVec.ofBool ((0#32).sle v) &&& BitVec.ofBool (v.sle 9999#32) = 1#1
  have a : (0#32).sle v = true := by
    rw [BitVec.sle]
    simp
    omega
  have b : v.sle 9999#32 = true := by
    rw [BitVec.sle]
    simp
    omega
  rw [a, b]
  rfl

/-- Where the entry is within 0 … 9999 the in-range test holds, for every channel. -/
theorem inRange_apply (e : IVec S2x1x10000x32 32) (c : Fin 128) (n : Fin 10000) (k : Fin 32)
    (h0 : 0 ≤ (e (ix4 (0 : Fin 2) (0 : Fin 1) n k)).toInt) (h1 : (e (ix4 (0 : Fin 2) (0 : Fin 1) n k)).toInt ≤ 9999) :
    inRange (F := Ideal) e (ix4 (0 : Fin 1) c n k) = 1#1 := by
  unfold inRange
  refine (broadcastInDim_apply _ _ _ (ix4 (0 : Fin 1) c n k) (ix3 (0 : Fin 1) n k) fun a => ?_).trans ?_
  · match a with
    | ⟨0, _⟩ => rfl
    | ⟨1, _⟩ => rfl
    | ⟨2, _⟩ => rfl
  · rw [andReduce_apply]
    show IntOp.andi (IntOp.cmpi .sge (nodeIdx (F := Ideal) e (ix4 (0 : Fin 1) n k (0 : Fin 1))) 0#32)
      (IntOp.cmpi .sle (nodeIdx (F := Ideal) e (ix4 (0 : Fin 1) n k (0 : Fin 1))) 9999#32) = 1#1
    rw [nodeIdx_apply e n k h0]
    exact bounds_of_mem _ h0 h1

/-- The gathered features read at (channel c, node n, slot k), for an entry within 0 … 9999: channel c of the
    input at the node the entry names. -/
theorem gathered_apply (x : FVec Ideal S1x128x10000x1 .f32) (e : IVec S2x1x10000x32 32) (c : Fin 128) (n : Fin 10000) (k : Fin 32)
    (h0 : 0 ≤ (e (ix4 (0 : Fin 2) (0 : Fin 1) n k)).toInt) (h1 : (e (ix4 (0 : Fin 2) (0 : Fin 1) n k)).toInt ≤ 9999) :
    gathered (F := Ideal) x e (ix4 (0 : Fin 1) c n k) = x (ix4 (0 : Fin 1) c (node e n k) (0 : Fin 1)) := by
  unfold gathered
  rw [select_apply, inRange_apply e c n k h0 h1, select_one, gather_apply]
  have hn : ∀ (v : BitVec 32) (_ : v = e (ix4 (0 : Fin 2) (0 : Fin 1) n k)) (p : min v.toInt.toNat 9999 < 10000),
      (⟨min v.toInt.toNat 9999, p⟩ : Fin 10000) = node e n k := by
    intro v hv p; subst hv; rfl
  rw [hn _ (nodeIdx_apply e n k h0)]
  refine shapeCast_apply _ _ _ (ix4 (0 : Fin 1) c (node e n k) (0 : Fin 1)) ?_
  rw [Shape.rowMajor_val_four, Shape.rowMajor_val_three]
  show ((0 * 128 + c.val) * 10000 + (node e n k).val) * 1 + 0 = (0 * 128 + c.val) * 10000 + (node e n k).val
  omega

/-- The first contraction's transposition read at (channel o, node n, slot k). -/
theorem transpose1_apply (y : FVec Ideal S1x10000x32x128 .f32) (o : Fin 128) (n : Fin 10000) (k : Fin 32) :
    transpose S1x128x10000x32 [0, 3, 1, 2] y transposes_S1x10000x32x128_S1x128x10000x32_0_3_1_2 (ix4 (0 : Fin 1) o n k)
      = y (ix4 (0 : Fin 1) n k o) := by
  refine transpose_apply _ _ _ _ (ix4 (0 : Fin 1) n k o) fun b => ?_
  match b with
  | ⟨0, _⟩ => rfl
  | ⟨1, _⟩ => rfl
  | ⟨2, _⟩ => rfl
  | ⟨3, _⟩ => rfl

/-- The first bias, broadcast over nodes and slots, read at (channel o, node n, slot k). -/
theorem bias1_apply (b1 : FVec Ideal S128 .f32) (o : Fin 128) (n : Fin 10000) (k : Fin 32) :
    broadcastInDim S1x128x10000x32 ![0, 1, 2, 3] bcast_S1x128x1x1_S1x128x10000x32_0_1_2_3
        (broadcastInDim S1x128x1x1 ![1] bcast_S128_S1x128x1x1_1 b1) (ix4 (0 : Fin 1) o n k) = b1 (ix1 o) := by
  refine (broadcastInDim_apply _ _ _ (ix4 (0 : Fin 1) o n k) (ix4 (0 : Fin 1) o (0 : Fin 1) (0 : Fin 1)) fun a => ?_).trans ?_
  · match a with
    | ⟨0, _⟩ => rfl
    | ⟨1, _⟩ => rfl
    | ⟨2, _⟩ => rfl
    | ⟨3, _⟩ => rfl
  · refine broadcastInDim_apply _ _ _ _ (ix1 o) fun a => ?_
    match a with
    | ⟨0, _⟩ => rfl

/-- The edge features read at (channel o, node n, slot k), for an entry within 0 … 9999. -/
theorem edgeFeat_apply (x : FVec Ideal S1x128x10000x1 .f32) (e : IVec S2x1x10000x32 32) (w1 : FVec Ideal S128x128 .f32)
    (b1 : FVec Ideal S128 .f32) (o : Fin 128) (n : Fin 10000) (k : Fin 32)
    (h0 : 0 ≤ (e (ix4 (0 : Fin 2) (0 : Fin 1) n k)).toInt) (h1 : (e (ix4 (0 : Fin 2) (0 : Fin 1) n k)).toInt ≤ 9999) :
    edgeFeat (F := Ideal) x e w1 b1 (ix4 (0 : Fin 1) o n k)
      = max ((∑ c : Fin 128, x (ix4 (0 : Fin 1) c (node e n k) (0 : Fin 1)) * w1 (ix2 o c)) + b1 (ix1 o)) 0 := by
  unfold edgeFeat
  rw [maximumf_apply, addf_apply, transpose1_apply, bias1_apply, dot1_apply]
  show max _ (Ideal.ofBits .f32 0x00000000#32) = _
  rw [Ideal.ofBits_zero_f32]
  refine congrArg (fun s => max (s + b1 (ix1 o)) 0) (Finset.sum_congr rfl fun c _ => ?_)
  rw [gathered_apply x e c n k h0 h1]

/-- The pooled features read at (channel c, node n): from −∞, the fold of `max` over the 32 slots of the edge features. -/
theorem pooled_apply (x : FVec Ideal S1x128x10000x1 .f32) (e : IVec S2x1x10000x32 32) (w1 : FVec Ideal S128x128 .f32)
    (b1 : FVec Ideal S128 .f32) (c : Fin 128) (n : Fin 10000) :
    pooled (F := Ideal) x e w1 b1 (ix4 (0 : Fin 1) c n (0 : Fin 1))
      = (Finset.univ : Finset (Fin 32)).fold max (⊥ : EReal) (fun k => edgeFeat (F := Ideal) x e w1 b1 (ix4 (0 : Fin 1) c n k)) := by
  unfold pooled
  refine (broadcastInDim_apply _ _ _ (ix4 (0 : Fin 1) c n (0 : Fin 1)) (ix3 (0 : Fin 1) c n) fun a => ?_).trans ?_
  · match a with
    | ⟨0, _⟩ => rfl
    | ⟨1, _⟩ => rfl
    | ⟨2, _⟩ => rfl
  · exact poolReduce_apply _ c n

/-- The stacked array read at a channel below 128: the first array there. -/
theorem stack2_apply_left (p q : FVec Ideal S1x128x10000x1 .f32) (c : Fin 256) (n : Fin 10000) (hc : c.val < 128) :
    stack2 (F := Ideal) p q (ix4 (0 : Fin 1) c n (0 : Fin 1)) = p (ix4 (0 : Fin 1) (⟨c.val, hc⟩ : Fin 128) n (0 : Fin 1)) := by
  unfold stack2
  refine concatenate_pair_apply_left (t := S1x256x10000x1) (s₁ := S1x128x10000x1) (s₂ := S1x128x10000x1) 1 p q
    concatenates_S1x128x10000x1_S1x128x10000x1_S1x256x10000x1_d1 (ix4 (0 : Fin 1) c n (0 : Fin 1)) rfl
    (ix4 (0 : Fin 1) (⟨c.val, hc⟩ : Fin 128) n (0 : Fin 1)) fun b => ?_
  match b with
  | ⟨0, _⟩ => rfl
  | ⟨1, _⟩ => rfl
  | ⟨2, _⟩ => rfl
  | ⟨3, _⟩ => rfl

/-- The stacked array read at a channel from 128 on: the second array, 128 channels earlier. -/
theorem stack2_apply_right (p q : FVec Ideal S1x128x10000x1 .f32) (c : Fin 256) (n : Fin 10000) (hc : 128 ≤ c.val) :
    stack2 (F := Ideal) p q (ix4 (0 : Fin 1) c n (0 : Fin 1))
      = q (ix4 (0 : Fin 1) (⟨c.val - 128, by omega⟩ : Fin 128) n (0 : Fin 1)) := by
  unfold stack2
  refine concatenate_pair_apply_right (t := S1x256x10000x1) (s₁ := S1x128x10000x1) (s₂ := S1x128x10000x1) 1 p q
    concatenates_S1x128x10000x1_S1x128x10000x1_S1x256x10000x1_d1 (ix4 (0 : Fin 1) c n (0 : Fin 1)) rfl rfl
    (ix4 (0 : Fin 1) (⟨c.val - 128, by omega⟩ : Fin 128) n (0 : Fin 1)) (fun b hb => ?_) ?_
  · match b with
    | ⟨0, _⟩ => rfl
    | ⟨1, _⟩ => exact absurd rfl hb
    | ⟨2, _⟩ => rfl
    | ⟨3, _⟩ => rfl
  · show c.val - 128 + 128 = c.val
    omega

/-- The second contraction's transposition read at (channel o, node n). -/
theorem transpose2_apply (y : FVec Ideal S1x10000x1x128 .f32) (o : Fin 128) (n : Fin 10000) :
    transpose S1x128x10000x1 [0, 3, 1, 2] y transposes_S1x10000x1x128_S1x128x10000x1_0_3_1_2 (ix4 (0 : Fin 1) o n (0 : Fin 1))
      = y (ix4 (0 : Fin 1) n (0 : Fin 1) o) := by
  refine transpose_apply _ _ _ _ (ix4 (0 : Fin 1) n (0 : Fin 1) o) fun b => ?_
  match b with
  | ⟨0, _⟩ => rfl
  | ⟨1, _⟩ => rfl
  | ⟨2, _⟩ => rfl
  | ⟨3, _⟩ => rfl

/-- The second bias, broadcast over nodes, read at (channel o, node n). -/
theorem bias2_apply (b2 : FVec Ideal S128 .f32) (o : Fin 128) (n : Fin 10000) :
    broadcastInDim S1x128x10000x1 ![0, 1, 2, 3] bcast_S1x128x1x1_S1x128x10000x1_0_1_2_3
        (broadcastInDim S1x128x1x1 ![1] bcast_S128_S1x128x1x1_1 b2) (ix4 (0 : Fin 1) o n (0 : Fin 1)) = b2 (ix1 o) := by
  refine (broadcastInDim_apply _ _ _ (ix4 (0 : Fin 1) o n (0 : Fin 1)) (ix4 (0 : Fin 1) o (0 : Fin 1) (0 : Fin 1)) fun a => ?_).trans ?_
  · match a with
    | ⟨0, _⟩ => rfl
    | ⟨1, _⟩ => rfl
    | ⟨2, _⟩ => rfl
    | ⟨3, _⟩ => rfl
  · refine broadcastInDim_apply _ _ _ _ (ix1 o) fun a => ?_
    match a with
    | ⟨0, _⟩ => rfl

/-- The 256 stacked features of node n: below 128 the input's channel; from 128 on, the pooled feature of channel
    c − 128, i.e. over the 32 neighbours the largest (from −∞) of the edge feature
    max(∑ over input channels c' of x[c', neighbour] · w1[c − 128, c'] + b1[c − 128], 0). -/
def cat (x : FVec Ideal S1x128x10000x1 .f32) (e : IVec S2x1x10000x32 32) (w1 : FVec Ideal S128x128 .f32)
    (b1 : FVec Ideal S128 .f32) (c : Fin 256) (n : Fin 10000) : EReal :=
  if h : c.val < 128 then x (ix4 (0 : Fin 1) (⟨c.val, h⟩ : Fin 128) n (0 : Fin 1))
  else (Finset.univ : Finset (Fin 32)).fold max (⊥ : EReal) fun k =>
    max ((∑ c' : Fin 128, x (ix4 (0 : Fin 1) c' (node e n k) (0 : Fin 1)) * w1 (ix2 (⟨c.val - 128, by omega⟩ : Fin 128) c'))
      + b1 (ix1 (⟨c.val - 128, by omega⟩ : Fin 128))) 0

/-- THE REFERENCE'S RESULT READ AT (channel o, node n), when every entry of the edge list's row 0 lies within
    0 … 9999 as a signed number: the stacked features of the node contracted with row o of the second weights,
    plus the second bias, negatives replaced by zero. -/
theorem refOut_apply (x : FVec Ideal S1x128x10000x1 .f32) (e : IVec S2x1x10000x32 32) (w1 : FVec Ideal S128x128 .f32)
    (b1 : FVec Ideal S128 .f32) (w2 : FVec Ideal S128x256 .f32) (b2 : FVec Ideal S128 .f32)
    (hE : ∀ (n : Fin 10000) (k : Fin 32), 0 ≤ (e (ix4 (0 : Fin 2) (0 : Fin 1) n k)).toInt ∧ (e (ix4 (0 : Fin 2) (0 : Fin 1) n k)).toInt ≤ 9999)
    (o : Fin 128) (n : Fin 10000) :
    refOut (F := Ideal) x e w1 b1 w2 b2 (ix4 (0 : Fin 1) o n (0 : Fin 1))
      = max ((∑ c : Fin 256, cat x e w1 b1 c n * w2 (ix2 o c)) + b2 (ix1 o)) 0 := by
  unfold refOut
  rw [maximumf_apply, addf_apply, transpose2_apply, bias2_apply, dot2_apply]
  show max _ (Ideal.ofBits .f32 0x00000000#32) = _
  rw [Ideal.ofBits_zero_f32]
  refine congrArg (fun s => max (s + b2 (ix1 o)) 0) (Finset.sum_congr rfl fun c _ => ?_)
  refine congrArg (· * w2 (ix2 o c)) ?_
  unfold cat
  by_cases hc : c.val < 128
  · rw [dif_pos hc, stack2_apply_left _ _ c n hc]
  · rw [dif_neg hc, stack2_apply_right _ _ c n (by omega), pooled_apply]
    refine congrArg (fun g => Finset.fold max (⊥ : EReal) g (Finset.univ : Finset (Fin 32))) (funext fun k => ?_)
    exact edgeFeat_apply x e w1 b1 _ n k (hE n k).1 (hE n k).2

/-- The pooled feature of channel c at node n in closed form: over the 32 neighbours the largest (from −∞) of
    max(∑ over input channels c' of x[c', neighbour] · w1[c, c'] + b1[c], 0). -/
def pool (x : FVec Ideal S1x128x10000x1 .f32) (e : IVec S2x1x10000x32 32) (w1 : FVec Ideal S128x128 .f32)
    (b1 : FVec Ideal S128 .f32) (c : Fin 128) (n : Fin 10000) : EReal :=
  (Finset.univ : Finset (Fin 32)).fold max (⊥ : EReal) fun k =>
    max ((∑ c' : Fin 128, x (ix4 (0 : Fin 1) c' (node e n k) (0 : Fin 1)) * w1 (ix2 c c')) + b1 (ix1 c)) 0

/-- The first 128 stacked features are the input's channels. -/
theorem cat_castAdd (x : FVec Ideal S1x128x10000x1 .f32) (e : IVec S2x1x10000x32 32) (w1 : FVec Ideal S128x128 .f32)
    (b1 : FVec Ideal S128 .f32) (c : Fin 128) (n : Fin 10000) :
    cat x e w1 b1 (Fin.castAdd 128 c) n = x (ix4 (0 : Fin 1) c n (0 : Fin 1)) := by
  unfold cat
  rw [dif_pos (show (Fin.castAdd 128 c).val < 128 from c.isLt)]
  rfl

/-- The last 128 stacked features are the pooled features. -/
theorem cat_natAdd (x : FVec Ideal S1x128x10000x1 .f32) (e : IVec S2x1x10000x32 32) (w1 : FVec Ideal S128x128 .f32)
    (b1 : FVec Ideal S128 .f32) (c : Fin 128) (n : Fin 10000) :
    cat x e w1 b1 (Fin.natAdd 128 c) n = pool x e w1 b1 c n := by
  unfold cat pool
  have hv : (Fin.natAdd 128 c).val = 128 + c.val := rfl
  rw [dif_neg (by rw [hv]; omega)]
  have hc : ∀ p : (Fin.natAdd 128 c).val - 128 < 128, (⟨(Fin.natAdd 128 c).val - 128, p⟩ : Fin 128) = c := fun p =>
    Fin.ext (by show (Fin.natAdd 128 c).val - 128 = c.val; rw [hv]; omega)
  simp only [hc]

/-- The same result with the contraction split into its two halves: the input channels against the first 128
    columns of the second weights (with the bias), plus the pooled channels against the last 128 columns. -/
theorem refOut_apply_split (x : FVec Ideal S1x128x10000x1 .f32) (e : IVec S2x1x10000x32 32) (w1 : FVec Ideal S128x128 .f32)
    (b1 : FVec Ideal S128 .f32) (w2 : FVec Ideal S128x256 .f32) (b2 : FVec Ideal S128 .f32)
    (hE : ∀ (n : Fin 10000) (k : Fin 32), 0 ≤ (e (ix4 (0 : Fin 2) (0 : Fin 1) n k)).toInt ∧ (e (ix4 (0 : Fin 2) (0 : Fin 1) n k)).toInt ≤ 9999)
    (o : Fin 128) (n : Fin 10000) :
    refOut (F := Ideal) x e w1 b1 w2 b2 (ix4 (0 : Fin 1) o n (0 : Fin 1))
      = max (((∑ c : Fin 128, x (ix4 (0 : Fin 1) c n (0 : Fin 1)) * w2 (ix2 o (Fin.castAdd 128 c))) + b2 (ix1 o))
          + ∑ c : Fin 128, pool x e w1 b1 c n * w2 (ix2 o (Fin.natAdd 128 c))) 0 := by
  rw [refOut_apply x e w1 b1 w2 b2 hE o n]
  have hs := Fin.sum_univ_add (fun c : Fin (128 + 128) => cat x e w1 b1 c n * w2 (ix2 o c))
  simp only [cat_castAdd, cat_natAdd] at hs
  refine congrArg (fun s => max s 0) ?_
  rw [add_right_comm]
  exact congrArg (· + b2 (ix1 o)) hs

/-- For an entry within 0 … 9999 the node is the entry read as an unsigned number. -/
theorem node_toNat (e : IVec S2x1x10000x32 32) (n : Fin 10000) (k : Fin 32)
    (h0 : 0 ≤ (e (ix4 (0 : Fin 2) (0 : Fin 1) n k)).toInt) (h1 : (e (ix4 (0 : Fin 2) (0 : Fin 1) n k)).toInt ≤ 9999) :
    (node e n k).val = (e (ix4 (0 : Fin 2) (0 : Fin 1) n k)).toNat := by
  unfold node
  show min (e (ix4 (0 : Fin 2) (0 : Fin 1) n k)).toInt.toNat 9999 = _
  have hlt := (e (ix4 (0 : Fin 2) (0 : Fin 1) n k)).isLt
  rw [BitVec.toInt_eq_toNat_cond] at h0 h1 ⊢
  split at h0 <;> omega

/-- Over any finite index set, folding `max` from the least element is the supremum. -/
theorem fold_max_eq_sup {ι : Type} [DecidableEq ι] (s : Finset ι) (f : ι → EReal) :
    s.fold max (⊥ : EReal) f = s.sup f := by
  induction s using Finset.induction_on with
  | empty => rfl
  | insert a s ha ih =>
    rw [Finset.fold_insert ha, Finset.sup_insert, ih]

/-- Over the 32 slots, folding `max` from −∞ is the supremum over the (nonempty) set of slots. -/
theorem fold_max_eq_sup' (f : Fin 32 → EReal) :
    (Finset.univ : Finset (Fin 32)).fold max (⊥ : EReal) f = Finset.univ.sup' Finset.univ_nonempty f := by
  rw [Finset.sup'_eq_sup, fold_max_eq_sup]

/-- The pooled feature as a supremum over the 32 slots. -/
theorem pool_eq_sup' (x : FVec Ideal S1x128x10000x1 .f32) (e : IVec S2x1x10000x32 32) (w1 : FVec Ideal S128x128 .f32)
    (b1 : FVec Ideal S128 .f32) (c : Fin 128) (n : Fin 10000) :
    pool x e w1 b1 c n = Finset.univ.sup' Finset.univ_nonempty fun k : Fin 32 =>
      max ((∑ c' : Fin 128, x (ix4 (0 : Fin 1) c' (node e n k) (0 : Fin 1)) * w1 (ix2 c c')) + b1 (ix1 c)) 0 :=
  fold_max_eq_sup' _

end Cert.ReferenceIdeal.RefRead

end
-- ==== Proof.KI.ValueChain.lean ====
/-
  The kernel's value at the extended reals: at the end of @main's chain of relations the result array is the
  reference's result term of the argument arrays — entry (o, n) is the rectified sum of the affine image of node n's
  row under the first half of the second weights and the image of its neighbours' pooled features under the second.
-/
import proofs.«208586_g21955872817707_cont_8to1_688_77_alg».proof.Proof.KI.FrameK
import proofs.«208586_g21955872817707_cont_8to1_688_77_alg».proof.Proof.KI.ValueK
import proofs.«208586_g21955872817707_cont_8to1_688_77_alg».proof.Proof.KI.ValueHost
import proofs.«208586_g21955872817707_cont_8to1_688_77_alg».proof.Proof.RefRead

noncomputable section

namespace Cert.KernelIdeal.Hand

open Cert.KernelIdeal Cert.KernelIdeal.Gen
open Idealize.ShloMosaic Idealize.ShloMosaic.ValueIdx
open Cert.ReferenceIdeal.RefRead (pool)

variable (m : (ℓ : Loc nD τ sig) → Buf (Elt Ideal) ℓ)

theorem emb_ix2 (n : Fin 10000) (c : Fin 128) : emb (ix2 n c) = ix2 (⟨n.val, by omega⟩ : Fin 10240) c := by
  funext a; match a with | ⟨0, _⟩ => rfl | ⟨1, _⟩ => rfl

section
variable (d : Dev nD) (hI : ∀ j, (Iarr m d j).toNat < 10000)
variable (hE : ∀ (n : Fin 10000) (k : Fin 32), 0 ≤ ((m (d, dv main_arg1) : S2x1x10000x32.Idx → BitVec 32) (ix4 (0 : Fin 2) (0 : Fin 1) n k)).toInt
  ∧ ((m (d, dv main_arg1) : S2x1x10000x32.Idx → BitVec 32) (ix4 (0 : Fin 2) (0 : Fin 1) n k)).toInt ≤ 9999)
variable (hNode : ∀ (n : Fin 10000) (c : Fin 128),
  nodeVal (Zf0 m d) (Iarr m d) hI ⟨n.val / 320, by omega⟩ ⟨n.val % 320, Nat.mod_lt _ (by decide)⟩ c
    = pool (m (d, dv main_arg0)) (m (d, dv main_arg1)) (m (d, dv main_arg2)) (m (d, dv main_arg3)) c n)

include hI hE hNode in
/-- At the end of the chain the result array is the reference's result term of the argument arrays. -/
theorem chain_value {Wg : Valuation τ sig (Elt Ideal)} (h : Chain True m Exit0 d Wg) :
    Wg (dv main_v16) = Cert.ReferenceIdeal.RefRun.refOut (F := Ideal) (m (d, dv main_arg0)) (m (d, dv main_arg1)) (m (d, dv main_arg2))
      (m (d, dv main_arg3)) (m (d, dv main_arg4)) (m (d, dv main_arg5)) := by
  obtain ⟨Wa, Wb, Wc, Wd, We, Wf, h0, hb, h1, hp, he, h3, hg⟩ := h
  have hPre := hpre m Exit0 (fun _ _ h => h) d Wa Wb Wc h0 hb h1
  obtain ⟨k0, v0⟩ := h0
  obtain ⟨k1, v1⟩ := h1
  obtain ⟨k3, v3⟩ := h3
  obtain ⟨p6, pZ, ⟨pM0, pM1⟩, pK⟩ := hp
  subst hb he hg
  -- what the arrays the payloads read hold
  have hA4 : Wd (dv main_arg4) = m (d, dv main_arg4) := (pK _ (by decide) (by decide)).trans (hPre.2.2 main_arg4 (by simp [Args]))
  have hWa : ∀ r : Ref sig .tc, ¬ (dv r : DevRef τ sig).isScoped → r ≠ main_v8 → Wa (dv r) = W1 m d (dv r) :=
    fun r hs h8 => k0 (dv r) (dv_mem_UC r hs) (StableHlo.devRef_ne_of_ne h8)
  funext i
  obtain ⟨o, n, rfl⟩ : ∃ (o : Fin 128) (n : Fin 10000), i = ix4 (0 : Fin 1) o n (0 : Fin 1) :=
    ⟨i 1, i 2, by
      have e0 : i 0 = (0 : Fin 1) := Subsingleton.elim (α := Fin 1) _ _
      have e3 : i 3 = (0 : Fin 1) := Subsingleton.elim (α := Fin 1) _ _
      exact (eq_ix4 i).trans (by rw [e0, e3]; rfl)⟩
  rw [Cert.ReferenceIdeal.RefRead.refOut_apply_split _ _ _ _ _ _ hE o n, after3_v16_apply, v3, pay3_apply]
  congr 1
  congr 1
  · -- p's entry
    rw [after2_of Wd main_v11 (by decide), pK _ (by decide) (by decide), v1, pay1_apply]
    congr 1
    · refine Finset.sum_congr rfl fun c _ => ?_
      rw [after1_of Wa main_v1 (by decide), hWa main_v1 (by decide) (by decide), W1_v1_apply, after1_v9_apply, hWa main_arg4 (by decide) (by decide),
        W1_of m d main_arg4 (by decide)]
      rfl
    · rw [after1_v10_apply, hWa main_arg5 (by decide) (by decide), W1_of m d main_arg5 (by decide)]
  · refine Finset.sum_congr rfl fun c _ => ?_
    congr 1
    · -- the pooled feature
      show StableHlo.after hostOps2 Wd (dv main_v12) ((rD3 : Rect S10240x128).idx (ix2 n c)) = _
      rw [rD3_idx, after2_of Wd main_v12 (by decide), emb_ix2, ← hNode n c]
      have hw : n.val / 320 < 32 := by omega
      have hT : TileSpec True (Zf0 m d) (Iarr m d) ⟨n.val / 320, hw⟩ (Wd (dv main_v12)) := by
        by_cases h16 : n.val / 320 < 16
        · have := pM0 ⟨n.val / 320, h16⟩
          rwa [show wid 0 ⟨n.val / 320, h16⟩ = ⟨n.val / 320, hw⟩ from Fin.ext (by simp [wid])] at this
        · have := pM1 ⟨n.val / 320 - 16, by omega⟩
          rwa [show wid 1 ⟨n.val / 320 - 16, by omega⟩ = ⟨n.val / 320, hw⟩ from Fin.ext (by simp [wid]; omega)] at this
      have := hT trivial hI ⟨n.val % 320, Nat.mod_lt _ (by decide)⟩ c
      rw [← this]
      congr 2
      exact Fin.ext (by show n.val = 320 * (n.val / 320) + n.val % 320; omega)
    · rw [after2_v13_apply, hA4]
      rfl

end

end Cert.KernelIdeal.Hand

end
-- ==== Proof.KI.ValueNode.lean ====
/-
  The first call's result and a node's pooled value in closed form over the launch memory: each entry of z is the
  rectified affine image of the node's channels of x, and a node's value at a channel is the supremum, over the node's
  32 neighbour entries, of z at the neighbour; under the range condition on the neighbour entries it is the
  reference's pooled feature.
-/
import proofs.«208586_g21955872817707_cont_8to1_688_77_alg».proof.Proof.KI.Assemble
import proofs.«208586_g21955872817707_cont_8to1_688_77_alg».proof.Proof.KI.ValueK
import proofs.«208586_g21955872817707_cont_8to1_688_77_alg».proof.Proof.KI.ValueHost
import proofs.«208586_g21955872817707_cont_8to1_688_77_alg».proof.Proof.RefRead

noncomputable section

namespace Cert.KernelIdeal.Hand

open Cert.KernelIdeal Cert.KernelIdeal.Gen
open Idealize.ShloMosaic Idealize.ShloMosaic.ValueIdx
open scoped BigOperators

variable (m : (ℓ : Loc nD τ sig) → Buf (Elt Ideal) ℓ)

/-- The launch memory's x, neighbour entries, first weights and first bias. -/
abbrev argX (d : Dev nD) : FVec Ideal S1x128x10000x1 .f32 := m (d, dv main_arg0)
abbrev argE (d : Dev nD) : IVec S2x1x10000x32 32 := m (d, dv main_arg1)
abbrev argW1 (d : Dev nD) : FVec Ideal S128x128 .f32 := m (d, dv main_arg2)
abbrev argB1 (d : Dev nD) : FVec Ideal S128 .f32 := m (d, dv main_arg3)

private theorem ix2_eq {n m : ℕ} (r : Fin n) (c : Fin m) : ix2 r c = ValueIdx.ix2 r c := by
  funext a; match a with | ⟨0, _⟩ => rfl | ⟨1, _⟩ => rfl

/-- Entry (j, c) of z: the rectified affine image of node j's channels. -/
theorem Zf0_apply (d : Dev nD) (j : Fin 10000) (c : Fin 128) :
    Zf0 m d (ix2 j c)
      = max ((∑ c' : Fin 128, argX m d (ix4 (0 : Fin 1) c' j (0 : Fin 1)) * argW1 m d (ix2 c c')) + argB1 m d (ix1 c) : EReal) 0 := by
  unfold Zf0
  rw [pay0_apply, W1_v7_apply, W1_of m d main_arg2 (by decide)]
  refine congrArg (fun s : EReal => max (s + argB1 m d (ix1 c)) 0) (Finset.sum_congr rfl fun c' _ => ?_)
  rw [W1_v1_apply]

/-- Worker n / 320's node n % 320 reads, as its k-th word, the k-th neighbour entry of node n. -/
theorem nodeWord_apply (d : Dev nD) (n : Fin 10000) (k : Fin 32) :
    nodeWord (Iarr m d) (⟨n.val / 320, by omega⟩ : Fin 32) (⟨n.val % 320, by omega⟩ : Fin 320) k.val
      = argE m d (ix4 (0 : Fin 2) (0 : Fin 1) n k) := by
  unfold nodeWord Iarr
  rw [W1_v6_apply]
  have hflat : 10240 * (n.val / 320) + 128 * (n.val % 320 / 4) + (32 * (n.val % 320 % 4) + k.val % 32) = 32 * n.val + k.val := by
    omega
  rw [dif_pos (by show 10240 * (n.val / 320) + 128 * (n.val % 320 / 4) + (32 * (n.val % 320 % 4) + k.val % 32) < 320000; omega)]
  refine congrArg (argE m d) ?_
  have e1 : (⟨(10240 * (n.val / 320) + 128 * (n.val % 320 / 4) + (32 * (n.val % 320 % 4) + k.val % 32)) / 32, by omega⟩ : Fin 10000) = n :=
    Fin.ext (by show (10240 * (n.val / 320) + 128 * (n.val % 320 / 4) + (32 * (n.val % 320 % 4) + k.val % 32)) / 32 = n.val; omega)
  have e2 : (⟨(10240 * (n.val / 320) + 128 * (n.val % 320 / 4) + (32 * (n.val % 320 % 4) + k.val % 32)) % 32, by omega⟩ : Fin 32) = k :=
    Fin.ext (by show (10240 * (n.val / 320) + 128 * (n.val % 320 / 4) + (32 * (n.val % 320 % 4) + k.val % 32)) % 32 = k.val; omega)
  exact congrArg₂ (fun (a : Fin 10000) (b : Fin 32) => ix4 (0 : Fin 2) (0 : Fin 1) a b) e1 e2

/-- If node 0 … 9999's neighbour entries are below 10000, so is every word of the index array. -/
theorem Iarr_lt (d : Dev nD) (hx : ∀ (n : Fin 10000) (k : Fin 32), (argE m d (ix4 (0 : Fin 2) (0 : Fin 1) n k)).toNat < 10000) :
    ∀ j, (Iarr m d j : BitVec 32).toNat < 10000 := by
  intro j
  obtain ⟨w, a, l, rfl⟩ : ∃ (w : Fin 32) (a : Fin 80) (l : Fin 128), j = ix3 w a l :=
    ⟨j 0, j 1, j 2, by funext t; match t with | ⟨0, _⟩ => rfl | ⟨1, _⟩ => rfl | ⟨2, _⟩ => rfl⟩
  unfold Iarr
  rw [W1_v6_apply]
  split
  · exact hx _ _
  · decide

/-- A node's value at a channel: the supremum over its 32 neighbour entries of z at the neighbour. -/
theorem nodeVal_apply (d : Dev nD) (hx : ∀ (n : Fin 10000) (k : Fin 32), (argE m d (ix4 (0 : Fin 2) (0 : Fin 1) n k)).toNat < 10000)
    (hI : ∀ j, (Iarr m d j).toNat < 10000) (n : Fin 10000) (c : Fin 128) :
    nodeVal (Zf0 m d) (Iarr m d) hI (⟨n.val / 320, by omega⟩ : Fin 32) (⟨n.val % 320, by omega⟩ : Fin 320) c
      = Finset.sup' Finset.univ Finset.univ_nonempty (fun k : Fin 32 =>
          max ((∑ c' : Fin 128, argX m d (ix4 (0 : Fin 1) c' (⟨(argE m d (ix4 (0 : Fin 2) (0 : Fin 1) n k)).toNat, hx n k⟩ : Fin 10000) (0 : Fin 1))
            * argW1 m d (ix2 c c')) + argB1 m d (ix1 c) : EReal) 0) := by
  unfold nodeVal
  rw [foldMax_31]
  refine Finset.sup'_congr _ rfl fun k _ => ?_
  refine (congrArg (fun q : Fin 10000 => Zf0 m d (ix2 q c))
    (Fin.ext (congrArg BitVec.toNat (nodeWord_apply m d n k)) :
      (⟨_, hI _⟩ : Fin 10000) = ⟨(argE m d (ix4 (0 : Fin 2) (0 : Fin 1) n k)).toNat, hx n k⟩)).trans ?_
  exact Zf0_apply m d _ c

/-- Entries within 0 … 9999 as signed numbers are below 10000 as unsigned ones. -/
theorem argE_lt (d : Dev nD)
    (hE : ∀ (n : Fin 10000) (k : Fin 32), 0 ≤ (argE m d (ix4 (0 : Fin 2) (0 : Fin 1) n k)).toInt
      ∧ (argE m d (ix4 (0 : Fin 2) (0 : Fin 1) n k)).toInt ≤ 9999) :
    ∀ (n : Fin 10000) (k : Fin 32), (argE m d (ix4 (0 : Fin 2) (0 : Fin 1) n k)).toNat < 10000 := fun n k => by
  rw [← Cert.ReferenceIdeal.RefRead.node_toNat (argE m d) n k (hE n k).1 (hE n k).2]
  exact (Cert.ReferenceIdeal.RefRead.node (argE m d) n k).isLt

/-- Under the range condition every word of the index array is below 10000. -/
theorem Iarr_lt_of_range (d : Dev nD)
    (hE : ∀ (n : Fin 10000) (k : Fin 32), 0 ≤ (argE m d (ix4 (0 : Fin 2) (0 : Fin 1) n k)).toInt
      ∧ (argE m d (ix4 (0 : Fin 2) (0 : Fin 1) n k)).toInt ≤ 9999) :
    ∀ j, (Iarr m d j : BitVec 32).toNat < 10000 := Iarr_lt m d (argE_lt m d hE)

/-- Under the range condition a node's value at a channel is the reference's pooled feature of the channel at the node. -/
theorem nodeVal_eq_pool (d : Dev nD)
    (hE : ∀ (n : Fin 10000) (k : Fin 32), 0 ≤ (argE m d (ix4 (0 : Fin 2) (0 : Fin 1) n k)).toInt
      ∧ (argE m d (ix4 (0 : Fin 2) (0 : Fin 1) n k)).toInt ≤ 9999)
    (hI : ∀ j, (Iarr m d j).toNat < 10000) (n : Fin 10000) (c : Fin 128) :
    nodeVal (Zf0 m d) (Iarr m d) hI (⟨n.val / 320, by omega⟩ : Fin 32) (⟨n.val % 320, by omega⟩ : Fin 320) c
      = Cert.ReferenceIdeal.RefRead.pool (argX m d) (argE m d) (argW1 m d) (argB1 m d) c n := by
  rw [nodeVal_apply m d (argE_lt m d hE) hI n c, Cert.ReferenceIdeal.RefRead.pool_eq_sup']
  refine Finset.sup'_congr _ rfl fun k _ => ?_
  have hn : (⟨(argE m d (ix4 (0 : Fin 2) (0 : Fin 1) n k)).toNat, argE_lt m d hE n k⟩ : Fin 10000)
      = Cert.ReferenceIdeal.RefRead.node (argE m d) n k :=
    Fin.ext (Cert.ReferenceIdeal.RefRead.node_toNat (argE m d) n k (hE n k).1 (hE n k).2).symm
  rw [hn]
  simp only [ix2_eq]

end Cert.KernelIdeal.Hand

end
-- ==== Proof.KB.Common.lean ====
/-
  The printed kernel, at word level, as the SparseCore launch theorem sees it: the label table of its three TensorCore pallas_calls,
  the one vector-subcore call, and the ghost state the proof uses — the launch handshakes' rounds, the subcore
  barrier cells' rounds, the TensorCore pipelines' staging cells' rounds, and the transfers' counters.
-/
import proofs.«208586_g21955872817707_cont_8to1_688_77_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Pipeline.Frame
import Idealize.ShloMosaic.Lib.Tactic
import proofs.«208586_g21955872817707_cont_8to1_688_77_alg».proof.Proof.Gen.Kernel

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the staging cells' rounds, the counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipelines' staging cells' rounds library. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

-- the transfers' counters are found by instance
example : CountersIn UU := inferInstance

/-- The prefetched tables' admissible contents: no pallas_call has a table. -/
abbrev adm : (p : Fin 3) → (pcfgs (F := F) p).Adm := fun p => (cfgs p).toPCfg_adm

/-- What rides beside the TensorCore's unscoped buffers through a stretch of @main before SparseCore call `n`: the
    generator register at some state, and what the TensorCore owes the launch protocol, its recorded waits at or below
    level `8 n`. -/
def Rest (d : Dev nD) (n : ℕ) : sProp 𝕄 :=
  iprop((∃ r, prngReg d r) ∗ ∃ W, ⌜(K (F := F)).WBelow (T d) W (8 * n)⌝ ∗ owes (T d) ((K (F := F)).Otc d n) W)

/-- The TensorCore's arrays: every unscoped buffer of the device. -/
abbrev UC : Finset (DevRef τ sig) := Pipeline.ucRefs τ sig

end Cert.Kernel.Hand

end
-- ==== Proof.KB.Main.lean ====
/-
  @main of the printed kernel as a chain of items: stretches of host operations, the three TensorCore
  pallas_calls and the SparseCore call, in order.
-/
import proofs.«208586_g21955872817707_cont_8to1_688_77_alg».proof.Proof.KB.Common

noncomputable section

namespace Cert.Kernel.Hand

open Cert.Kernel Cert.Kernel.Gen
open Idealize.ShloMosaic Idealize.SL.Sem

variable {F : FTy → Type} [FloatOps F]

/-- x reshaped and transposed to nodes × channels; the first slice of edge_index flattened; the pad value. -/
abbrev hostOps0a : List (HloOp τ sig (Elt F)) :=
  [ StableHlo.reshape main_arg0 main_v0 rfl shapeCasts_S1x128x10000x1_S128x10000,
    StableHlo.unary main_v0 main_v1 ((transpose S10000x128 [1, 0] · transposes_S128x10000_S10000x128_1_0) : (⟨S128x10000, .f32⟩ : BufTy).Contents (Elt F) → (⟨S10000x128, .f32⟩ : BufTy).Contents (Elt F)),
    StableHlo.unary main_arg1 main_v2 ((extractStridedSlice S1x1x10000x32 ![0, 0, 0, 0] · slices_S2x1x10000x32_S1x1x10000x32_0_0_0_0) : (⟨S2x1x10000x32, .i32⟩ : BufTy).Contents (Elt F) → (⟨S1x1x10000x32, .i32⟩ : BufTy).Contents (Elt F)),
    StableHlo.reshape main_v2 main_v3 rfl shapeCasts_S1x1x10000x32_S10000x32,
    StableHlo.reshape main_v3 main_v4 rfl shapeCasts_S10000x32_S320000,
    StableHlo.nullary main_c (constantI S_ 32 0#32) ]
/-- The flattened indices padded with 7680 zeros. -/
abbrev hostOps0b : List (HloOp τ sig (Elt F)) :=
  [ StableHlo.TRef.unary (.of main_c : StableHlo.TRef sig ⟨S_, .i32⟩) main_call0.v0 id,
    StableHlo.TRef.binary (.of main_v4 : StableHlo.TRef sig ⟨S320000, .i32⟩) main_call0.v0 main_call0.v1 (fun x v => pad S327680 ![0] ![7680] ![0] x v pads_S320000_S327680_076800 h_S_) ]
/-- The padded indices as 32 × 80 × 128; b1 as a row. -/
abbrev hostOps0c : List (HloOp τ sig (Elt F)) :=
  [ StableHlo.reshape main_v5 main_v6 rfl shapeCasts_S327680_S32x80x128,
    StableHlo.reshape main_arg3 main_v7 rfl shapeCasts_S128_S1x128 ]
/-- The first half of w2's columns; b2 as a row. -/
abbrev hostOps1 : List (HloOp τ sig (Elt F)) :=
  [ StableHlo.unary main_arg4 main_v9 ((extractStridedSlice S128x128 ![0, 0] · slices_S128x256_S128x128_0_0) : (⟨S128x256, .f32⟩ : BufTy).Contents (Elt F) → (⟨S128x128, .f32⟩ : BufTy).Contents (Elt F)),
    StableHlo.reshape main_arg5 main_v10 rfl shapeCasts_S128_S1x128 ]
/-- The second half of w2's columns. -/
abbrev hostOps2 : List (HloOp τ sig (Elt F)) :=
  [ StableHlo.unary main_arg4 main_v13 ((extractStridedSlice S128x128 ![0, 128] · slices_S128x256_S128x128_0_128) : (⟨S128x256, .f32⟩ : BufTy).Contents (Elt F) → (⟨S128x128, .f32⟩ : BufTy).Contents (Elt F)) ]
/-- The result transposed back to channels × nodes and reshaped. -/
abbrev hostOps3 : List (HloOp τ sig (Elt F)) :=
  [ StableHlo.unary main_v14 main_v15 ((transpose S128x10000 [1, 0] · transposes_S10000x128_S128x10000_1_0) : (⟨S10000x128, .f32⟩ : BufTy).Contents (Elt F) → (⟨S128x10000, .f32⟩ : BufTy).Contents (Elt F)),
    StableHlo.reshape main_v15 main_v16 rfl shapeCasts_S128x10000_S1x128x10000x1 ]

/-- @main is the chain of these items. -/
theorem main_chain (d : Dev nD) : main (F := F) d = (Pipeline.chain
  [ StableHlo.seq hostOps0a,
    StableHlo.seq hostOps0b,
    StableHlo.seq hostOps0c,
    Prog.lift (.customCall (SparseCore.inner (Pipeline.entry 0)) ()),
    StableHlo.seq hostOps1,
    Prog.lift (.customCall (SparseCore.inner (Pipeline.entry 1)) ()),
    (sc (F := F)).run d 0,
    StableHlo.seq hostOps2,
    Prog.lift (.customCall (SparseCore.inner (Pipeline.entry 2)) ()),
    StableHlo.seq hostOps3 ] : Prog (TpuEff nD τ sig (Elt F) (SparseCore.Sig (Pipeline.Sig Λ₀ (Fin 3) fun p => (pcfgs (F := F) p).Adm) 1) .tc) PUnit) := by
  chain_rfl

/-! ## Every host operation touches TensorCore buffers only, and allocates none -/

theorem hostOps0a_sub : (hostOps0a : List (HloOp τ sig (Elt F))).Forall fun op => op.bufs ⊆ StableHlo.tcRefs τ sig :=
  ⟨StableHlo.reshape_bufs_sub .., StableHlo.unary_bufs_sub .., StableHlo.unary_bufs_sub .., StableHlo.reshape_bufs_sub .., StableHlo.reshape_bufs_sub .., StableHlo.nullary_bufs_sub ..⟩
theorem hostOps0b_sub : (hostOps0b : List (HloOp τ sig (Elt F))).Forall fun op => op.bufs ⊆ StableHlo.tcRefs τ sig :=
  ⟨StableHlo.unary_bufs_sub .., StableHlo.binary_bufs_sub ..⟩
theorem hostOps0c_sub : (hostOps0c : List (HloOp τ sig (Elt F))).Forall fun op => op.bufs ⊆ StableHlo.tcRefs τ sig :=
  ⟨StableHlo.reshape_bufs_sub .., StableHlo.reshape_bufs_sub ..⟩
theorem hostOps1_sub : (hostOps1 : List (HloOp τ sig (Elt F))).Forall fun op => op.bufs ⊆ StableHlo.tcRefs τ sig :=
  ⟨StableHlo.unary_bufs_sub .., StableHlo.reshape_bufs_sub ..⟩
theorem hostOps2_sub : (hostOps2 : List (HloOp τ sig (Elt F))).Forall fun op => op.bufs ⊆ StableHlo.tcRefs τ sig :=
  StableHlo.unary_bufs_sub ..
theorem hostOps3_sub : (hostOps3 : List (HloOp τ sig (Elt F))).Forall fun op => op.bufs ⊆ StableHlo.tcRefs τ sig :=
  ⟨StableHlo.unary_bufs_sub .., StableHlo.reshape_bufs_sub ..⟩

theorem hostOps0a_fresh : (hostOps0a : List (HloOp τ sig (Elt F))).Forall fun op => op.fresh = ∅ := by
  simp only [List.Forall]; repeat' constructor
theorem hostOps0b_fresh : (hostOps0b : List (HloOp τ sig (Elt F))).Forall fun op => op.fresh = ∅ := by
  simp only [List.Forall]; repeat' constructor
theorem hostOps0c_fresh : (hostOps0c : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

end Cert.Kernel.Hand

end
-- ==== Proof.KB.RegionSpec.lean ====
/-
  What entering one of the three TensorCore pallas_calls as a region of its pipeline does to the TensorCore's
  thread state: the statement the regions' proofs and @main's proof meet at.
-/
import proofs.«208586_g21955872817707_cont_8to1_688_77_alg».proof.Proof.KB.Main

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-- The staging cells' ghost state of pipeline `p` on device `d`, as the launch deals it. -/
abbrev pipeGhost (p : Fin 3) (d : Dev nD) : sProp 𝕄 :=
  iprop(Pipeline.cellsGhost (Pipeline.pin (pcfgs (F := F)) adm) EP p d ∗ Pipeline.toksInit (Pipeline.pin (pcfgs (F := F)) adm) EP p d)

/-- What entering pallas_call `p` as a region does, before SparseCore call `n`: from the boundary, every unscoped
    buffer at contents `Wv`, the ride-along and the pipeline's ghost state, to the same at contents related to
    `Wv` by `Exit`. -/
def RegionSpec (p : Fin 3) (n : ℕ) (Exit : Valuation τ sig (Elt F) → Valuation τ sig (Elt F) → Prop) : Prop :=
  ∀ (d : Dev nD) (Wv : Valuation τ sig (Elt F)) (Φ : PUnit → sProp 𝕄),
    iprop(levAts (K (F := F)).L (K (F := F)).lev ∗ boundary (T d) ∗ held (T d) UC Wv ∗ Rest d n ∗ pipeGhost p d
        ∗ (∀ Wv', ⌜Exit Wv Wv'⌝ -∗ (boundary (T d) ∗ held (T d) UC Wv' ∗ Rest d n) -∗ Φ ⟨⟩))
      ⊢ wp frame (wpE ((K (F := F)).defs (D (F := F))) 𝒱 (T d) none) Set.univ (Prog.lift (.customCall (SparseCore.inner (Pipeline.entry p)) ())) Φ

end Cert.Kernel.Hand

end
-- ==== Proof.KB.Hmain.lean ====
/-
  @main on the TensorCore, inside the SparseCore launch: the host stretches by the straight-line rule, each
  pallas_call entered as a region of its pipeline, the SparseCore call by the launch protocol's rule.
-/
import proofs.«208586_g21955872817707_cont_8to1_688_77_alg».proof.Proof.KB.RegionSpec

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)
variable (P : (K (F := F)).Pay (nD := nD) (Val := Elt F) (Name := ℕ) (U := UU))

/-! ## The TensorCore's handshake state, its debt apart -/

/-- What the TensorCore owes the launch protocol before call `n`, its recorded waits at or below level `8 n`. -/
def tcOwes (d : Dev nD) (n : ℕ) : sProp 𝕄 :=
  iprop(∃ W, ⌜(K (F := F)).WBelow (T d) W (8 * n)⌝ ∗ owes (T d) ((K (F := F)).Otc d n) W)

theorem Rest_eq (d : Dev nD) (n : ℕ) : (Rest (F := F) d n : sProp 𝕄)
    = iprop((∃ r, prngReg d r) ∗ ∃ W, ⌜(K (F := F)).WBelow (SparseCore.T d) W (8 * n)⌝ ∗ owes (SparseCore.T d) ((K (F := F)).Otc d n) W) := rfl

/-! ## The buffers' contents along @main -/

/-- Device `d`'s buffers at launch. -/
abbrev W0 (d : Dev nD) : Valuation τ sig (Elt F) := fun b => m (d, b)
/-- After the host operations before the first pallas_call. -/
abbrev W1 (d : Dev nD) : Valuation τ sig (Elt F) :=
  StableHlo.after hostOps0c (StableHlo.after hostOps0b (StableHlo.after hostOps0a (W0 m d)))

/-- The three arrays the SparseCore call works on: z, the padded indices, the node maxima. -/
abbrev C3 : Finset (DevRef τ sig) := {Proc.devRef .tc main_v8, Proc.devRef .tc main_v6, Proc.devRef .tc main_v12}

theorem C3_sub : (C3 : Finset (DevRef τ sig)) ⊆ UC := by decide

theorem sub_UC {ops : List (HloOp τ sig (Elt F))} (h : ops.Forall fun op => op.bufs ⊆ StableHlo.tcRefs τ sig) :
    ∀ op ∈ ops, op.bufs ⊆ UC :=
  fun op ho => Pipeline.sub_ucRefs op ((List.forall_iff_forall_mem.mp h) op ho)
theorem fresh_mem {ops : List (HloOp τ sig (Elt F))} (h : ops.Forall fun op => op.fresh = ∅) :
    ∀ op ∈ ops, op.fresh = ∅ := fun op ho => (List.forall_iff_forall_mem.mp h) op ho

/-- The launch's unscoped buffers are the TensorCore's arrays held at the launch contents. -/
theorem unscoped_held (d : Dev nD) :
    (unscopedBufs d (fun b => m ((SparseCore.T d).loc b)) : sProp 𝕄) = held (SparseCore.T d) UC (W0 m d) :=
  Pipeline.unscopedBufs_held (Ix := HIx 1) (Name := ℕ) (U := UU) (Lvl := ℕ) d (W0 m d)

/-- The ghost state the launch deals TensorCore `d`: its three pipelines' staging cells'. -/
abbrev G (d : Dev nD) : sProp 𝕄 := iprop(pipeGhost 0 d ∗ pipeGhost 1 d ∗ pipeGhost 2 d)

section Main

variable (Exit0 Exit1 Exit3 : Valuation τ sig (Elt F) → Valuation τ sig (Elt F) → Prop)
variable (PreCall : Dev nD → Valuation τ sig (Elt F) → Prop)
variable (PostCall : Dev nD → Valuation τ sig (Elt F) → Valuation τ sig (Elt F) → Prop)
variable (Fin' : Dev nD → Valuation τ sig (Elt F) → Prop)

/-- What @main leaves the claim: every unscoped buffer at contents the run's relations determine. -/
def FIN (d : Dev nD) : sProp 𝕄 := iprop(∃ Wn, ⌜Fin' d Wn⌝ ∗ held (T d) UC Wn)

theorem hmain_of
    (h0 : RegionSpec (F := F) 0 0 Exit0) (h1 : RegionSpec (F := F) 1 0 Exit1) (h3 : RegionSpec (F := F) 2 1 Exit3)
    (hpre : ∀ d Wa Wb Wc, Exit0 (W1 m d) Wa → Wb = StableHlo.after hostOps1 Wa → Exit1 Wb Wc → PreCall d Wc)
    (hcall : ∀ d Wv, PreCall d Wv → (held (T d) C3 Wv : sProp 𝕄) ⊢ bigSep Finset.univ fun c : Fin ((K (F := F)).nCore 0) => P.st 0 d c)
    (hret : ∀ d Wv, PreCall d Wv → (bigSep Finset.univ fun c : Fin ((K (F := F)).nCore 0) => P.dn 0 d c)
      ⊢ (iprop(∃ Wv', ⌜PostCall d Wv Wv'⌝ ∗ held (T d) C3 Wv') : sProp 𝕄))
    (hpostC3 : ∀ d Wv Wv', PostCall d Wv Wv' → ∀ b ∈ UC \ C3, Wv' b = Wv b)
    (hfin : ∀ d Wa Wb Wc Wd We Wf Wg, Exit0 (W1 m d) Wa → Wb = StableHlo.after hostOps1 Wa → Exit1 Wb Wc → PostCall d Wc Wd →
      We = StableHlo.after hostOps2 Wd → Exit3 We Wf → Wg = StableHlo.after hostOps3 Wf → Fin' d Wg)
    (κ : GSem nD τ sig → ℕ) (d : Dev nD) :
    iprop((K (F := F)).ctx EH P κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN Fin' d) := by
  unfold SparseCore.Cfg.tcRes SparseCore.Cfg.tcSt
  rw [unscoped_held m d]
  rw [main_chain]
  simp only [Pipeline.chain_cons, Pipeline.chain_nil]
  iintro ⟨#Hctx, ⟨Howes, Htail⟩, ⟨Hb, Hheld, -, Hprng⟩, ⟨Hg0, Hg1, Hg2⟩⟩
  ihave Hlev := (SparseCore.Cfg.ctx_levAts κ) $$ Hctx
  -- the host operations before the first pallas_call
  iapply (StableHlo.wp_seq 𝒱 none Set.univ d UC _ hostOps0a (sub_UC hostOps0a_sub) (fresh_mem hostOps0a_fresh) (W0 m d)) $$ [Hb Hheld]
  · isplitl [Hb] <;> iassumption
  iintro ⟨Hb, Hheld⟩
  iapply (StableHlo.wp_seq 𝒱 none Set.univ d UC _ hostOps0b (sub_UC hostOps0b_sub) (fresh_mem hostOps0b_fresh) _) $$ [Hb Hheld]
  · isplitl [Hb] <;> iassumption
  iintro ⟨Hb, Hheld⟩
  iapply (StableHlo.wp_seq 𝒱 none Set.univ d UC _ hostOps0c (sub_UC hostOps0c_sub) (fresh_mem hostOps0c_fresh) _) $$ [Hb Hheld]
  · isplitl [Hb] <;> iassumption
  iintro ⟨Hb, Hheld⟩
  -- the first pallas_call: z
  rw [wp_bind]
  iapply (h0 d (W1 m d) _)
  isplitr; · iapply (SparseCore.Cfg.ctx_levAts κ); iexact Hctx
  isplitl [Hb]; · iexact Hb
  isplitl [Hheld]; · iexact Hheld
  isplitl [Hprng Howes]
  · unfold Rest
    isplitl [Hprng]; · iexists _; iexact Hprng
    iexact Howes
  isplitl [Hg0]; · iexact Hg0
  iintro %Wa %hEa ⟨Hb, Hheld, Hrest⟩
  -- the host operations before the second pallas_call, and it: p
  iapply (StableHlo.wp_seq 𝒱 none Set.univ d UC _ hostOps1 (sub_UC hostOps1_sub) (fresh_mem hostOps1_fresh) Wa) $$ [Hb Hheld]
  · isplitl [Hb] <;> iassumption
  iintro ⟨Hb, Hheld⟩
  rw [wp_bind]
  iapply (h1 d (StableHlo.after hostOps1 Wa) _)
  isplitr; · iexact Hlev
  isplitl [Hb]; · iexact Hb
  isplitl [Hheld]; · iexact Hheld
  isplitl [Hrest]; · iexact Hrest
  isplitl [Hg1]; · iexact Hg1
  iintro %Wc %hEc ⟨Hb, Hheld, Hrest⟩
  have hPre : PreCall d Wc := hpre d Wa _ Wc hEa rfl hEc
  -- the SparseCore call: z, the indices and the maxima's array out of the unscoped buffers, and back
  ihave Hsp := (Entails.of_eq (StableHlo.held_sub_split (SparseCore.T d) C3_sub Wc)) $$ Hheld
  icases Hsp with ⟨Hc3, Hother⟩
  ihave Hr := (Entails.of_eq (Rest_eq (F := F) d 0)) $$ Hrest
  icases Hr with ⟨Hprng, Howes⟩
  rw [wp_bind]
  iapply ((K (F := F)).wp_run (D (F := F)) 𝒱 (EH := EH) (P := P) κ d 0)
  isplitr; · iexact Hctx
  isplitl [Howes Htail]
  · unfold SparseCore.Cfg.tcSt
    isplitl [Howes]; · iexact Howes
    iexact Htail
  isplitl [Hc3]; · iapply (hcall d Wc hPre); iexact Hc3
  iintro ⟨Hst, Hdn⟩
  ihave Hdn' := (hret d Wc hPre) $$ Hdn
  icases Hdn' with ⟨%Wd', %hPost, Hc3⟩
  ihave Hother' := (Entails.of_eq (StableHlo.held_congr (SparseCore.T d) (S := UC \ C3) (V := Wc) (V' := Wd')
    (fun b hb => (hpostC3 d Wc Wd' hPost b hb).symm))) $$ Hother
  ihave Hheld := (Entails.of_eq (StableHlo.held_sub_split (SparseCore.T d) C3_sub Wd').symm) $$ [Hc3 Hother']
  · isplitl [Hc3] <;> iassumption
  ihave Hst' := (Entails.of_eq (show ((K (F := F)).tcSt EH d ((0 : Fin 1).val + 1) : sProp 𝕄)
      = iprop((∃ W, ⌜(K (F := F)).WBelow (SparseCore.T d) W (8 * 1)⌝ ∗ owes (SparseCore.T d) ((K (F := F)).Otc d 1) W) ∗ _) from rfl)) $$ Hst
  icases Hst' with ⟨Howes, Htail⟩
  -- the host operation before the last pallas_call, it, and the host operations after it
  iapply (StableHlo.wp_seq 𝒱 none Set.univ d UC _ hostOps2 (sub_UC hostOps2_sub) (fresh_mem hostOps2_fresh) Wd') $$ [Hb Hheld]
  · isplitl [Hb] <;> iassumption
  iintro ⟨Hb, Hheld⟩
  rw [wp_bind]
  iapply (h3 d (StableHlo.after hostOps2 Wd') _)
  isplitr; · iexact Hlev
  isplitl [Hb]; · iexact Hb
  isplitl [Hheld]; · iexact Hheld
  isplitl [Hprng Howes]
  · iapply (Entails.of_eq (Rest_eq (F := F) d 1).symm)
    isplitl [Hprng]; · iexact Hprng
    iexact Howes
  isplitl [Hg2]; · iexact Hg2
  iintro %Wf %hEf ⟨Hb, Hheld, Hrest⟩
  iapply (StableHlo.wp_seq 𝒱 none Set.univ d UC _ hostOps3 (sub_UC hostOps3_sub) (fresh_mem hostOps3_fresh) Wf) $$ [Hb Hheld]
  · isplitl [Hb] <;> iassumption
  iintro ⟨Hb, Hheld⟩
  rw [wp_pure]
  ihave Hr := (Entails.of_eq (Rest_eq (F := F) d 1)) $$ Hrest
  icases Hr with ⟨Hprng, Howes⟩
  imodintro
  isplitl [Howes Htail]
  · isplitl [Howes]; · iexact Howes
    iexact Htail
  unfold FIN
  iexists (StableHlo.after hostOps3 Wf); isplitr
  · ipureintro; exact hfin d Wa _ Wc Wd' _ Wf _ hEa rfl hEc hPost rfl hEf rfl
  iexact Hheld

end Main

end Cert.Kernel.Hand

end
-- ==== Proof.KB.Launch.lean ====
/-
  The whole program's run from the SparseCore launch theorem: the launch element of the ghost state (the
  handshakes' rounds, the barrier cells', the TensorCore pipelines' staging cells'), how the TensorCores' final
  assertions read the final memory, and the run — every weakly fair execution of all the threads terminates and
  every final memory holds, on each device, contents the run's relations determine.
-/
import proofs.«208586_g21955872817707_cont_8to1_688_77_alg».proof.Proof.KB.Hmain
import proofs.«208586_g21955872817707_cont_8to1_688_77_alg».proof.Proof.Gen.Kernel.Launch

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-! ## The launch element -/

/-- The staging cells' rounds at launch. -/
abbrev pInit : UP := initOf (Pipeline.cells cfgs cellOf_inj) (Pipeline.launchToks cfgs cellOf_inj)

/-- The ghost state's launch element: the handshakes' rounds, the barrier cells' (`bInit`), the staging cells'. -/
def u₀ (bInit : UB) : UU := (initOf (K (F := F)).hsCells (K (F := F)).hsToks, (bInit, (pInit, 1)))

omit [FloatOps F] in
theorem ownU_split3 (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU (((1 : UH), (b, (p, (1 : Counters)))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (ownU (((1 : UH), (b, (p, (1 : Counters)))) : UU) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op (p, (1 : Counters))))))
  iintro H
  ihave H' := h1 $$ H
  icases H' with ⟨HH, Hr⟩
  ihave H'' := h2 $$ Hr
  icases H'' with ⟨HB, HP⟩
  isplitl [HH]; · iexact HH
  isplitl [HB]; · iexact HB
  iexact HP

omit [FloatOps F] in
theorem bigSep_P3 {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

theorem ghost_join1 (d : Dev nD) :
    iprop((bigSep Finset.univ fun p : Fin 3 => Pipeline.cellsGhost (Pipeline.pin (pcfgs (F := F)) adm) (EP (F := F)) p d)
      ∗ (bigSep Finset.univ fun p : Fin 3 => (Pipeline.toksInit (Pipeline.pin (pcfgs (F := F)) adm) (EP (F := F)) p d : sProp 𝕄)))
    ⊢ G (F := F) d := by
  rw [bigSep_P3, bigSep_P3]
  iintro ⟨⟨A0, A1, A2⟩, ⟨B0, B1, B2⟩⟩
  isplitl [A0 B0]; · isplitl [A0] <;> iassumption
  isplitl [A1 B1]; · isplitl [A1] <;> iassumption
  isplitl [A2] <;> iassumption

theorem ghost_join :
    iprop((bigSep Finset.univ fun d : Dev nD => bigSep Finset.univ fun p : Fin 3 => Pipeline.cellsGhost (Pipeline.pin (pcfgs (F := F)) adm) (EP (F := F)) p d)
      ∗ (bigSep Finset.univ fun d : Dev nD => bigSep Finset.univ fun p : Fin 3 => (Pipeline.toksInit (Pipeline.pin (pcfgs (F := F)) adm) (EP (F := F)) p d : sProp 𝕄)))
    ⊢ bigSep Finset.univ fun d : Dev nD => G (F := F) d := by
  rw [← bigSep_sep']
  exact bigSep_mono fun d _ => ghost_join1 (F := F) d

/-- The staging cells' ghost state, every device's three pipelines', from the staging cells' rounds at launch. -/
theorem ghost_deal : (BI.own (EP (F := F) pInit) : sProp 𝕄) ⊢ |==> bigSep Finset.univ fun d : Dev nD => G (F := F) d := by
  iintro H
  imod (Pipeline.fund_ghost (Pipeline.pin (pcfgs (F := F)) adm) (EP (F := F)) cellOf_inj) $$ H with ⟨Hc, Ht⟩
  imodintro
  iapply (ghost_join (F := F))
  isplitl [Hc] <;> iassumption

variable (m : (ℓ : Loc nD τ sig) → Buf (Elt F) ℓ) (ρ : Dev nD → PrngReg)
variable (P : (K (F := F)).Pay (nD := nD) (Val := Elt F) (Name := ℕ) (U := UU))

/-- The launch element: the handshakes' rounds stay; the staging cells' ghost state goes to the TensorCores; the
    barrier cells' (with the credit for the tiles' arrivals and the free semaphores) make what the tiles' proofs consume. -/
theorem hu₀_of (bInit : UB)
    (kits : iprop(BI.own (EB (F := F) bInit) ∗ P.oxCred ∗ (K (F := F)).freeSems0)
      ⊢ |={Set.univ}=> (bigSep Finset.univ fun thr : Thread nD τ => bigSep Finset.univ fun q : Fin 1 => P.x q thr : sProp 𝕄)) :
    iprop(ownU (u₀ (F := F) bInit) ∗ P.oxCred ∗ (K (F := F)).freeSems0)
      ⊢ |={Set.univ}=> iprop(BI.own (EH (initOf (K (F := F)).hsCells (K (F := F)).hsToks)) ∗ (bigSep Finset.univ fun d : Dev nD => G (F := F) d)
          ∗ (bigSep Finset.univ fun thr : Thread nD τ => bigSep Finset.univ fun q : Fin 1 => P.x q thr : sProp 𝕄)) := by
  unfold u₀
  iintro ⟨Hu, Hcred, Hfree⟩
  ihave H := (ownU_split3 (F := F) _ _ _) $$ Hu
  icases H with ⟨HH, HB, HP⟩
  imod (ghost_deal (F := F)) $$ HP with HG
  imod kits $$ [HB Hcred Hfree] with Hx
  · isplitl [HB]; · iexact HB
    isplitl [Hcred] <;> iassumption
  imodintro
  isplitl [HH]; · iexact HH
  isplitl [HG]; · iexact HG
  iexact Hx

/-! ## Reading the final memory -/

variable (Fin' : Dev nD → Valuation τ sig (Elt F) → Prop)

/-- What a final state shows on device `d`: every unscoped buffer at contents the run's relations determine. -/
def fq (d : Dev nD) (s' : Phys nD τ sig (Elt F)) : Prop :=
  ∃ Wn, Fin' d Wn ∧ ∀ b ∈ UC, s'.mem.mem ((d, b) : Loc nD τ sig) = Wn b

theorem hfin_of (d : Dev nD) (s' : Phys nD τ sig (Elt F)) : iprop(FIN Fin' d ∗ SI s') ⊢ (⌜fq Fin' d s'⌝ : sProp 𝕄) := by
  unfold FIN StableHlo.held
  iintro ⟨⟨%Wn, %hWn, Hh⟩, HSI⟩
  ihave Hr := (pointsTo_read_all UC (fun b => ((d, b) : Loc nD τ sig)) Wn s') $$ [Hh HSI]
  · isplitl [Hh] <;> iassumption
  icases Hr with ⟨%h, -⟩
  ipureintro; exact ⟨Wn, hWn, h⟩

/-! ## The run -/

section Run

variable (Exit0 Exit1 Exit3 : Valuation τ sig (Elt F) → Valuation τ sig (Elt F) → Prop)
variable (PreCall : Dev nD → Valuation τ sig (Elt F) → Prop)
variable (PostCall : Dev nD → Valuation τ sig (Elt F) → Valuation τ sig (Elt F) → Prop)

/-- Every weakly fair execution of the device's threads — the TensorCore's @main, the sequencers, the tiles — from
    memory `m` with zero counters terminates, nothing faulting, and every final memory holds on each device contents
    the run's relations determine. -/
theorem run_of [∀ e, Nonempty (Elt F e)] [P.IsStorable] (hheld : P.held = ∅) (bInit : UB)
    (htile : (K (F := F)).TileObl (D (F := F)) 𝒱 P v₀ 0)
    (hvec : (K (F := F)).VecSplit P 0)
    (kits : iprop(BI.own (EB (F := F) bInit) ∗ P.oxCred ∗ (K (F := F)).freeSems0)
      ⊢ |={Set.univ}=> (bigSep Finset.univ fun thr : Thread nD τ => bigSep Finset.univ fun q : Fin 1 => P.x q thr : sProp 𝕄))
    (h0 : RegionSpec (F := F) 0 0 Exit0) (h1 : RegionSpec (F := F) 1 0 Exit1) (h3 : RegionSpec (F := F) 2 1 Exit3)
    (hpre : ∀ d Wa Wb Wc, Exit0 (W1 m d) Wa → Wb = StableHlo.after hostOps1 Wa → Exit1 Wb Wc → PreCall d Wc)
    (hcall : ∀ d Wv, PreCall d Wv → (held (SparseCore.T d) C3 Wv : sProp 𝕄) ⊢ bigSep Finset.univ fun c : Fin ((K (F := F)).nCore 0) => P.st 0 d c)
    (hret : ∀ d Wv, PreCall d Wv → (bigSep Finset.univ fun c : Fin ((K (F := F)).nCore 0) => P.dn 0 d c)
      ⊢ (iprop(∃ Wv', ⌜PostCall d Wv Wv'⌝ ∗ held (SparseCore.T d) C3 Wv') : sProp 𝕄))
    (hpostC3 : ∀ d Wv Wv', PostCall d Wv Wv' → ∀ b ∈ UC \ C3, Wv' b = Wv b)
    (hfin : ∀ d Wa Wb Wc Wd We Wf Wg, Exit0 (W1 m d) Wa → Wb = StableHlo.after hostOps1 Wa → Exit1 Wb Wc → PostCall d Wc Wd →
      We = StableHlo.after hostOps2 Wd → Exit3 We Wf → Wg = StableHlo.after hostOps3 Wf → Fin' d Wg) :
    θ_run (Cert.Kernel.defs (F := F)) (Cert.Kernel.threads (F := F)) ⟨m, fun _ => 0, ρ⟩
      (fun r => ∀ d : Dev nD, ∃ Wn, Fin' d Wn ∧ ∀ b ∈ UC, r.2.mem ((d, b) : Loc nD τ sig) = Wn b) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => hvec)
    m ρ main (fun d => G (F := F) d) (FIN Fin') (u₀ (F := F) bInit) (hu₀_of P bInit kits)
    (hmain_of m ρ P Exit0 Exit1 Exit3 PreCall PostCall Fin' h0 h1 h3 hpre hcall hret hpostC3 hfin)
    (fq Fin') (hfin_of Fin') _ (fun _ h => h) hheld

end Run

end Cert.Kernel.Hand

end
-- ==== Proof.KB.TilePay.lean ====
/-
  What the launch handshakes of the vector-subcore call carry: the call's operands per SparseCore, each tile's rows of
  them, the results, and the subcore barrier's cells — their schedule, whose duties hand every tile a read share of each
  staged slice of the SparseCore's shared copy of z —, what each tile owes them and its kit for them.
-/
import proofs.«208586_g21955872817707_cont_8to1_688_77_alg».proof.Proof.KB.Common

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## The arrays -/

abbrev zLoc (d : Dev nD) : Loc nD τ sig := (SparseCore.T d).loc main_v8
abbrev iLoc (d : Dev nD) : Loc nD τ sig := (SparseCore.T d).loc main_v6
abbrev mLoc (d : Dev nD) : Loc nD τ sig := (SparseCore.T d).loc main_v12
/-- SparseCore c's shared copy of z, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The SparseCore of the call's core number. -/
abbrev coreOf (c : Fin ((K (F := F)).nCore 0)) : Fin τ.nSC := (K (F := F)).core 0 c
theorem nSub_eq : τ.nSub = 16 := rfl
theorem bound_one : grid2.bound 1 = 16 := rfl

/-! ## Indices -/

/-- An index of a rank-two shape from its row and column. -/
def ix2 {n m : ℕ} (r : Fin n) (c : Fin m) : (⟨2, ![n, m]⟩ : Shape).Idx
  | ⟨0, _⟩ => r
  | ⟨1, _⟩ => c
/-- An index of a rank-three shape. -/
def ix3 {n m l : ℕ} (a : Fin n) (b : Fin m) (c : Fin l) : (⟨3, ![n, m, l]⟩ : Shape).Idx
  | ⟨0, _⟩ => a
  | ⟨1, _⟩ => b
  | ⟨2, _⟩ => c

theorem hle_rows : ∀ a, S10000x128.size a ≤ S10240x128.size a := by decide
/-- The first 10000 rows of a 10240-row array. -/
def emb (y : S10000x128.Idx) : S10240x128.Idx := fun a => ⟨(y a).val, lt_of_lt_of_le (y a).isLt (hle_rows a)⟩

/-! ## The rows -/

theorem hdiv16 : 16 ∣ S10240x128.size 0 := ⟨640, rfl⟩
theorem hdiv32 : 32 ∣ S10240x128.size 0 := ⟨320, rfl⟩
theorem hdivI : 32 ∣ S32x80x128.size 0 := ⟨1, rfl⟩

/-- Rows [640 s, +640) of a 10240-row array: the slice tile s stages. -/
abbrev zSlice (s : Fin 16) : Finset S10240x128.Idx := (Rect.part (s := S10240x128) (a₀ := 0) hdiv16 s).set
/-- Rows [320 w, +320): worker w's rows of the result. -/
abbrev mTile (w : Fin 32) : Finset S10240x128.Idx := (Rect.part (s := S10240x128) (a₀ := 0) hdiv32 w).set
/-- Row w of the index array: worker w's index words. -/
abbrev iTile (w : Fin 32) : Finset S32x80x128.Idx := (Rect.part (s := S32x80x128) (a₀ := 0) hdivI w).set

/-- The worker number of tile s of core c. -/
def wid (c : Fin 2) (s : Fin 16) : Fin 32 := ⟨16 * c.val + s.val, by omega⟩

/-- Core c's rows of the result, of the index array. -/
def mRows (c : Fin 2) : Finset S10240x128.Idx := (Finset.univ : Finset (Fin 16)).biUnion fun s => mTile (wid c s)
def idxRows (c : Fin 2) : Finset S32x80x128.Idx := (Finset.univ : Finset (Fin 16)).biUnion fun s => iTile (wid c s)

/-- The two halves of the full share: both SparseCores read all of z. -/
def coreShare (c : Fin 2) : PosShare TreeShare := if c.val = 0 then fullShare.left else fullShare.right

/-! ## The value -/

section Value
variable [FloatOps F]

/-- The kernel's fold over a node's rows: row 0's value, then maximumf with rows 1, 2, … in order. -/
def foldMax (z : ℕ → F .f32) : ℕ → F .f32
  | 0 => z 0
  | k + 1 => FloatOps.maximumf (foldMax z k) (z (k + 1))

/-- Node n of worker w: its k-th index word. -/
def nodeWord (I : S32x80x128.Idx → BitVec 32) (w : Fin 32) (n : Fin 320) (k : ℕ) : BitVec 32 :=
  I (ix3 w ⟨n.val / 4, by omega⟩ ⟨32 * (n.val % 4) + k % 32, by omega⟩)

/-- The node's value at channel ch: the fold over its 32 gathered rows of z. -/
def nodeVal (Zf : S10000x128.Idx → F .f32) (I : S32x80x128.Idx → BitVec 32) (hI : ∀ j, (I j).toNat < 10000)
    (w : Fin 32) (n : Fin 320) (ch : Fin 128) : F .f32 :=
  foldMax (fun k => Zf (ix2 ⟨(nodeWord I w n k).toNat, hI _⟩ ch)) 31

/-- Worker w's rows of the result hold its nodes' values (under the switch v: at v := False the statement is vacuous, which is
    what a proof of termination and of the resources' return needs of it). -/
def TileSpec (v : Prop) (Zf : S10000x128.Idx → F .f32) (I : S32x80x128.Idx → BitVec 32) (w : Fin 32) (Mf : S10240x128.Idx → F .f32) : Prop :=
  v → ∀ hI : ∀ j, (I j).toNat < 10000, ∀ (n : Fin 320) (ch : Fin 128), Mf (ix2 ⟨320 * w.val + n.val, by omega⟩ ch) = nodeVal Zf I hI w n ch

/-- Core c's rows of the result hold its workers' nodes' values. -/
def MaxSpec (v : Prop) (Zf : S10000x128.Idx → F .f32) (I : S32x80x128.Idx → BitVec 32) (c : Fin 2) (Mf : S10240x128.Idx → F .f32) : Prop :=
  ∀ s : Fin 16, TileSpec v Zf I (wid c s) Mf

end Value

/-- Contents that are z on the rows below 10000 of a set of rows. -/
def ZOn (Zf : S10000x128.Idx → Elt F .f32) (R : Finset S10240x128.Idx) (Z : S10240x128.Idx → Elt F .f32) : Prop :=
  ∀ y, emb y ∈ R → Z (emb y) = Zf y

/-! ## The barrier cells -/

section Cells
variable [FloatOps F]

/-- Tile (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- A staged slice of the shared copy: z on its rows below 10000, held at a share. -/
def stagedSlice (Zf : S10000x128.Idx → Elt F .f32) (d : Dev nD) (c : Fin τ.nSC) (n : Fin 16) (q : PosShare TreeShare) : sProp 𝕄 :=
  iprop(∃ f : Buf (Elt F) (shLoc d c), ⌜ZOn Zf (zSlice n) f⌝ ∗ shLoc d c ↦[zSlice n]{q} f)

/-- What tile n's duty in tile j's round hands over: read share j of the slice tile n staged. -/
def bPay (Zf : S10000x128.Idx → Elt F .f32) (g : GSem nD τ sig) (n : ℕ) : sProp 𝕄 :=
  match g with
  | ((d, .scVector c j), _) => if h : n < 16 then stagedSlice Zf d c ⟨n, h⟩ (shareTok fullShare 16 (Fin.cast nSub_eq j)) else iprop(emp)
  | _ => iprop(emp)

/-- The barrier cells' schedule: one round on each, of one unit duty per tile of the SparseCore (named by its number). -/
def bRd (Zf : S10000x128.Idx → Elt F .f32) : Rounds.Schedule (GSem nD τ sig) ℕ 𝕄 where
  duties g r := if isBar g ∧ r = 0 then (Finset.univ : Finset (Fin τ.nSub)).image Fin.val else ∅
  amount _ _ _ := 1
  payload g _ n := bPay Zf g n
  amount_pos _ _ _ _ := Nat.one_pos

instance stagedSlice_storable (Zf : S10000x128.Idx → Elt F .f32) (d : Dev nD) (c : Fin τ.nSC) (n : Fin 16) (q : PosShare TreeShare) :
    BI.Storable (upEmb : UEmb _ 𝕄) (stagedSlice Zf d c n q) := by unfold stagedSlice; infer_instance

instance bRd_payload_storable (Zf : S10000x128.Idx → Elt F .f32) (g : GSem nD τ sig) (r n : ℕ) : BI.Storable (upEmb : UEmb _ 𝕄) ((bRd Zf).payload g r n) := by
  show BI.Storable upEmb (bPay Zf g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (Zf : S10000x128.Idx → Elt F .f32) (d : Dev nD) (c : Fin τ.nSC) (j : Fin τ.nSub) :
    (bRd Zf).duties (bcell d c j) 0 = (Finset.univ : Finset (Fin τ.nSub)).image Fin.val := by
  simp [bRd, isBar]
omit [FloatOps F] in
theorem bRd_mem₀ (Zf : S10000x128.Idx → Elt F .f32) (d : Dev nD) (c : Fin τ.nSC) (j i : Fin τ.nSub) : i.val ∈ (bRd Zf).duties (bcell d c j) 0 := by
  rw [bRd_duties₀]; exact Finset.mem_image_of_mem _ (Finset.mem_univ i)
omit [FloatOps F] in
theorem bRd_expect (Zf : S10000x128.Idx → Elt F .f32) (d : Dev nD) (c : Fin τ.nSC) (j : Fin τ.nSub) : 0 + grid2.bound 1 = (bRd Zf).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid2.bound 1), tallyAt (bcell d c (j.castLE hsub2)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid2.bound 1), g = bcell d c (j.castLE hsub2) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile (c, i)'s barrier kit: every tile's cell invariant of its SparseCore and that each has reached round 0, its own
    position at the origin of round 0, its duty token in every tile's round 0, and the credit for the sixteen units of its
    own round. -/
def bkit (Zf : S10000x128.Idx → Elt F .f32) (d : Dev nD) (c : Fin τ.nSC) (i : Fin τ.nSub) : sProp 𝕄 :=
  iprop((∃ κ : GSem nD τ sig → ℕ, bigSep Finset.univ fun j : Fin (grid2.bound 1) =>
      cellInv EB (bRd Zf) (κ (bcell d c (j.castLE hsub2))) (bcell d c (j.castLE hsub2)))
    ∗ (bigSep Finset.univ fun j : Fin (grid2.bound 1) => dutyTok EB (bcell d c (j.castLE hsub2)) 0 i.val)
    ∗ (bigSep Finset.univ fun j : Fin (grid2.bound 1) => reached EB (bcell d c (j.castLE hsub2)) 0)
    ∗ atPos EB (bcell d c i) 0 ∅ 0
    ∗ cred (tallyAt (bcell d c i) (some 0) (grid2.bound 1)))

/-! ## What the handshakes carry -/

variable (v : Prop) (Zf : S10000x128.Idx → Elt F .f32) (I : (d : Dev nD) → Buf (Elt F) (iLoc d))

/-- All of z at a share: contents that are z on the rows below 10000. -/
def zPts (d : Dev nD) (R : Finset S10240x128.Idx) (q : PosShare TreeShare) : sProp 𝕄 :=
  iprop(∃ Z : Buf (Elt F) (zLoc d), ⌜ZOn Zf R Z⌝ ∗ zLoc d ↦[R]{q} Z)

/-- What SparseCore c is handed at the start: z at its half share, its rows of the index array, its rows of the result. -/
def stC (d : Dev nD) (c : Fin 2) : sProp 𝕄 :=
  iprop(zPts Zf d Finset.univ (coreShare c) ∗ (iLoc d ↦[idxRows c]{fullShare} I d) ∗ ∃ M0 : Buf (Elt F) (mLoc d), mLoc d ↦[mRows c]{fullShare} M0)
/-- and hands back: its rows of the result at its nodes' values. -/
def dnC (d : Dev nD) (c : Fin 2) : sProp 𝕄 :=
  iprop(zPts Zf d Finset.univ (coreShare c) ∗ (iLoc d ↦[idxRows c]{fullShare} I d)
    ∗ ∃ Mf : Buf (Elt F) (mLoc d), ⌜MaxSpec v Zf (I d) c Mf⌝ ∗ mLoc d ↦[mRows c]{fullShare} Mf)
/-- What tile s of SparseCore c is handed: its slice of z at the core's share, its index words, its rows of the result,
    its slice of the shared copy. -/
def goC (d : Dev nD) (c : Fin 2) (sc : Fin τ.nSC) (s : Fin 16) : sProp 𝕄 :=
  iprop(zPts Zf d (zSlice s) (coreShare c) ∗ (iLoc d ↦[iTile (wid c s)]{fullShare} I d)
    ∗ (∃ M0 : Buf (Elt F) (mLoc d), mLoc d ↦[mTile (wid c s)]{fullShare} M0)
    ∗ ∃ f : Buf (Elt F) (shLoc d sc), shLoc d sc ↦[zSlice s]{fullShare} f)
/-- and hands back: its rows of the result at its nodes' values, its read share of the whole shared copy and the
    remainder of its own slice. -/
def tdC (d : Dev nD) (c : Fin 2) (sc : Fin τ.nSC) (s : Fin 16) : sProp 𝕄 :=
  iprop(zPts Zf d (zSlice s) (coreShare c) ∗ (iLoc d ↦[iTile (wid c s)]{fullShare} I d)
    ∗ (∃ Mf : Buf (Elt F) (mLoc d), ⌜TileSpec v Zf (I d) (wid c s) Mf⌝ ∗ mLoc d ↦[mTile (wid c s)]{fullShare} Mf)
    ∗ (∃ g : Buf (Elt F) (shLoc d sc), shLoc d sc ↦{shareTok fullShare 16 s} g)
    ∗ ∃ f : Buf (Elt F) (shLoc d sc), shLoc d sc ↦[zSlice s]{shareDrop fullShare 16} f)

def P : (K (F := F)).Pay (nD := nD) (Val := Elt F) (Name := ℕ) (U := UU) where
  st := fun q d c => match q with | 0 => stC Zf I d (Fin.cast nCore_zero c)
  dn := fun q d c => match q with | 0 => dnC v Zf I d (Fin.cast nCore_zero c)
  go := fun q d c i => match q with | 0 => goC Zf I d (Fin.cast nCore_zero c) (coreOf c) (Fin.cast nSub_zero i)
  td := fun q d c i => match q with | 0 => tdC v Zf I d (Fin.cast nCore_zero c) (coreOf c) (Fin.cast nSub_zero i)
  x := fun _ thr => match thr with
    | (d, .scVector c i) => bkit Zf d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub2) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P v Zf I).IsStorable where
  st q d c := match q with
    | 0 => by show BI.Storable (upEmb : UEmb _ 𝕄) (stC Zf I d (Fin.cast nCore_zero c)); unfold stC zPts; infer_instance
  dn q d c := match q with
    | 0 => by show BI.Storable (upEmb : UEmb _ 𝕄) (dnC v Zf I d (Fin.cast nCore_zero c)); unfold dnC zPts; infer_instance
  go q d c i := match q with
    | 0 => by show BI.Storable (upEmb : UEmb _ 𝕄) (goC Zf I d (Fin.cast nCore_zero c) (coreOf c) (Fin.cast nSub_zero i)); unfold goC zPts; infer_instance
  td q d c i := match q with
    | 0 => by show BI.Storable (upEmb : UEmb _ 𝕄) (tdC v Zf I d (Fin.cast nCore_zero c) (coreOf c) (Fin.cast nSub_zero i)); unfold tdC zPts; infer_instance

theorem st_eq (d : Dev nD) (c : Fin ((K (F := F)).nCore 0)) : (P v Zf I).st 0 d c = stC Zf I d (Fin.cast nCore_zero c) := rfl
theorem dn_eq (d : Dev nD) (c : Fin ((K (F := F)).nCore 0)) : (P v Zf I).dn 0 d c = dnC v Zf I d (Fin.cast nCore_zero c) := rfl
theorem go_eq (d : Dev nD) (c : Fin ((K (F := F)).nCore 0)) (i : Fin ((K (F := F)).nSub 0)) :
    (P v Zf I).go 0 d c i = goC Zf I d (Fin.cast nCore_zero c) (coreOf c) (Fin.cast nSub_zero i) := rfl
theorem td_eq (d : Dev nD) (c : Fin ((K (F := F)).nCore 0)) (i : Fin ((K (F := F)).nSub 0)) :
    (P v Zf I).td 0 d c i = tdC v Zf I d (Fin.cast nCore_zero c) (coreOf c) (Fin.cast nSub_zero i) := rfl
theorem x_V (d : Dev nD) (c : Fin τ.nSC) (i : Fin τ.nSub) : (P v Zf I).x 0 (V d c i) = bkit Zf d c i := rfl
theorem ox_V (d : Dev nD) (c : Fin τ.nSC) (i : Fin τ.nSub) : (P v Zf I).ox 0 (V d c i) = oxV d c := rfl

end Cells

end Cert.Kernel.Hand

end
-- ==== Proof.KB.TileSplit.lean ====
/-
  How a SparseCore's operands split among its sixteen tiles and its results gather from theirs; and how the whole arrays
  split between the two SparseCores and come back.
-/
import proofs.«208586_g21955872817707_cont_8to1_688_77_alg».proof.Proof.KB.TilePay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

/-! ## Rows: disjoint, covering -/

theorem zSlice_disjoint : ∀ i ∈ (Finset.univ : Finset (Fin 16)), ∀ j ∈ (Finset.univ : Finset (Fin 16)), i ≠ j → Disjoint (zSlice i) (zSlice j) :=
  fun _ _ _ _ h => Rect.part_disjoint hdiv16 h
theorem zSlice_cover : (Finset.univ : Finset (Fin 16)).biUnion zSlice = Finset.univ := Rect.biUnion_part hdiv16

theorem wid_injective (c : Fin 2) : Function.Injective (wid c) := fun a b h => by
  have := congrArg Fin.val h; simp only [wid] at this; exact Fin.ext (by omega)
theorem wid_ne (s s' : Fin 16) : wid 0 s ≠ wid 1 s' := fun h => by
  have := congrArg Fin.val h; simp only [wid] at this; omega

theorem mTile_disjoint (c : Fin 2) : ∀ i ∈ (Finset.univ : Finset (Fin 16)), ∀ j ∈ (Finset.univ : Finset (Fin 16)), i ≠ j → Disjoint (mTile (wid c i)) (mTile (wid c j)) :=
  fun _ _ _ _ h => Rect.part_disjoint hdiv32 fun e => h (wid_injective c e)
theorem iTile_disjoint (c : Fin 2) : ∀ i ∈ (Finset.univ : Finset (Fin 16)), ∀ j ∈ (Finset.univ : Finset (Fin 16)), i ≠ j → Disjoint (iTile (wid c i)) (iTile (wid c j)) :=
  fun _ _ _ _ h => Rect.part_disjoint hdivI fun e => h (wid_injective c e)

theorem wid_surj (w : Fin 32) : ∃ (c : Fin 2) (s : Fin 16), wid c s = w :=
  ⟨⟨w.val / 16, by omega⟩, ⟨w.val % 16, Nat.mod_lt _ (by decide)⟩, Fin.ext (by simp only [wid]; omega)⟩

theorem cores_ne {c c' : Fin 2} (h : c ≠ c') (s s' : Fin 16) : wid c s ≠ wid c' s' := fun e => by
  have := congrArg Fin.val e; simp only [wid] at this
  exact h (Fin.ext (by omega))

theorem mRows_disjoint : ∀ i ∈ (Finset.univ : Finset (Fin 2)), ∀ j ∈ (Finset.univ : Finset (Fin 2)), i ≠ j → Disjoint (mRows i) (mRows j) := by
  intro i _ j _ h
  unfold mRows
  rw [Finset.disjoint_biUnion_left]; intro s _
  rw [Finset.disjoint_biUnion_right]; intro s' _
  exact Rect.part_disjoint hdiv32 (cores_ne h s s')
theorem idxRows_disjoint : ∀ i ∈ (Finset.univ : Finset (Fin 2)), ∀ j ∈ (Finset.univ : Finset (Fin 2)), i ≠ j → Disjoint (idxRows i) (idxRows j) := by
  intro i _ j _ h
  unfold idxRows
  rw [Finset.disjoint_biUnion_left]; intro s _
  rw [Finset.disjoint_biUnion_right]; intro s' _
  exact Rect.part_disjoint hdivI (cores_ne h s s')
theorem mRows_cover : (Finset.univ : Finset (Fin 2)).biUnion mRows = Finset.univ := by
  ext i
  simp only [Finset.mem_biUnion, Finset.mem_univ, true_and, iff_true, mRows]
  obtain ⟨w, hw⟩ := Rect.exists_mem_part hdiv32 i
  obtain ⟨c, s, rfl⟩ := wid_surj w
  exact ⟨c, s, hw⟩
theorem idxRows_cover : (Finset.univ : Finset (Fin 2)).biUnion idxRows = Finset.univ := by
  ext i
  simp only [Finset.mem_biUnion, Finset.mem_univ, true_and, iff_true, idxRows]
  obtain ⟨w, hw⟩ := Rect.exists_mem_part hdivI i
  obtain ⟨c, s, rfl⟩ := wid_surj w
  exact ⟨c, s, hw⟩

/-- A node's row of the result lies among its worker's rows. -/
theorem mem_mTile (w : Fin 32) (n : Fin 320) (ch : Fin 128) (h : 320 * w.val + n.val < 10240) :
    (ix2 ⟨320 * w.val + n.val, h⟩ ch : S10240x128.Idx) ∈ mTile w := by
  refine Rect.mem_set_unit.mpr fun a => ?_
  unfold Shape.partIx Shape.partSize
  match a with
  | ⟨0, _⟩ => simp [ix2]; omega
  | ⟨1, _⟩ => simp [ix2]

/-! ## Joining rows held at contents of their own -/

theorem rows_join {ℓ : Loc nD τ sig} {T : Type} [DecidableEq T] (S : Finset T) (Kf : T → Finset (Idx ℓ)) (q : PosShare TreeShare)
    (φ : T → Buf (Elt F) ℓ → Prop) (f₀ : Buf (Elt F) ℓ) (hd : ∀ t ∈ S, ∀ t' ∈ S, t ≠ t' → Disjoint (Kf t) (Kf t')) :
    bigSep S (fun t => iprop(∃ f : Buf (Elt F) ℓ, ⌜φ t f⌝ ∗ ℓ ↦[Kf t]{q} f))
      ⊢ (iprop(∃ g : Buf (Elt F) ℓ, ⌜∀ t ∈ S, ∃ f, φ t f ∧ ∀ i ∈ Kf t, g i = f i⌝ ∗ ℓ ↦[S.biUnion Kf]{q} g) : sProp 𝕄) := by
  haveI : Nonempty (Buf (Elt F) ℓ) := ⟨f₀⟩
  refine (bigSep_exists_pi S (fun t (f : Buf (Elt F) ℓ) => iprop(⌜φ t f⌝ ∗ ℓ ↦[Kf t]{q} f))).trans ?_
  iintro ⟨%fs, H⟩
  ihave H' := (bigSep_pure_sep S (fun t => φ t (fs t)) (fun t => (ℓ ↦[Kf t]{q} fs t : sProp 𝕄))) $$ H
  icases H' with ⟨%hφ, H⟩
  ihave H'' := (pointsTo_biUnion_join S Kf fs f₀ hd) $$ H
  icases H'' with ⟨%g, %hg, Hg⟩
  iexists g; isplitr
  · ipureintro; exact fun t ht => ⟨fs t, hφ t ht, hg t ht⟩
  · iexact Hg

/-- Read tokens held at contents of their own agree with the remainder's and join it. -/
theorem toks_agree {ℓ : Loc nD τ sig} (R : Finset (Idx ℓ)) (q₀ : PosShare TreeShare) {T : Type} [DecidableEq T] (qs : T → PosShare TreeShare)
    (f : Buf (Elt F) ℓ) (s : Finset T) :
    iprop((ℓ ↦[R]{q₀} f) ∗ bigSep s (fun i => iprop(∃ g : Buf (Elt F) ℓ, ℓ ↦[R]{qs i} g)))
      ⊢ (iprop((ℓ ↦[R]{q₀} f) ∗ bigSep s (fun i => ℓ ↦[R]{qs i} f)) : sProp 𝕄) := by
  induction s using Finset.induction_on with
  | empty => rw [bigSep_empty, bigSep_empty]
  | insert a s ha ih =>
    rw [SparseCore.bigSep_insert' ha, SparseCore.bigSep_insert' ha]
    iintro ⟨Hd, ⟨%g, Ha⟩, Hs⟩
    ihave Hag := (persistent_entails_right pointsTo_agree) $$ [Hd Ha]
    · isplitl [Hd]; · iexact Hd
      iexact Ha
    icases Hag with ⟨%hag, Hd, Ha⟩
    ihave Ha' := (Entails.of_eq (pointsTo_congr (f := g) (g := f) fun i hi => (hag i (Finset.mem_inter.mpr ⟨hi, hi⟩)).1.symm)) $$ Ha
    ihave H := ih $$ [Hd Hs]
    · isplitl [Hd]; · iexact Hd
      iexact Hs
    icases H with ⟨Hd, Hs⟩
    isplitl [Hd]; · iexact Hd
    isplitl [Ha']; · iexact Ha'
    iexact Hs

theorem toks_join_ex {ℓ : Loc nD τ sig} (R : Finset (Idx ℓ)) (q : PosShare TreeShare) (n : ℕ) (f : Buf (Elt F) ℓ) :
    iprop((ℓ ↦[R]{shareDrop q n} f) ∗ bigSep Finset.univ (fun i : Fin n => iprop(∃ g : Buf (Elt F) ℓ, ℓ ↦[R]{shareTok q n i} g)))
      ⊢ (ℓ ↦[R]{q} f : sProp 𝕄) :=
  (toks_agree R (shareDrop q n) (fun i : Fin n => shareTok q n i) f Finset.univ).trans (pointsTo_toks_join q n)

/-! ## The two SparseCores' shares of the arrays -/

section Cores
variable [FloatOps F]
variable (v : Prop) (Zf : S10000x128.Idx → Elt F .f32) (I : (d : Dev nD) → Buf (Elt F) (iLoc d))

omit [FloatOps F] in
theorem coreShare_zero : coreShare 0 = fullShare.left := rfl
omit [FloatOps F] in
theorem coreShare_one : coreShare 1 = fullShare.right := rfl

omit [FloatOps F] in
theorem ZOn_mono {R R' : Finset S10240x128.Idx} {Z : S10240x128.Idx → Elt F .f32} (h : R' ⊆ R) (hZ : ZOn Zf R Z) : ZOn Zf R' Z :=
  fun y hy => hZ y (h hy)

theorem tileSpec_congr {w : Fin 32} {f g : S10240x128.Idx → F .f32} (h : ∀ i ∈ mTile w, g i = f i) (hf : TileSpec v Zf (I 0) w f) : TileSpec v Zf (I 0) w g :=
  fun hv hI n ch => (h _ (mem_mTile w n ch _)).trans (hf hv hI n ch)

omit [FloatOps F] in
theorem two_cores {ℓ : Loc nD τ sig} (Kf : Fin 2 → Finset (Idx ℓ)) (hd : ∀ i ∈ (Finset.univ : Finset (Fin 2)), ∀ j ∈ (Finset.univ : Finset (Fin 2)), i ≠ j → Disjoint (Kf i) (Kf j))
    (hc : (Finset.univ : Finset (Fin 2)).biUnion Kf = Finset.univ) (q : PosShare TreeShare) (f : Buf (Elt F) ℓ) :
    (ℓ ↦{q} f : sProp 𝕄) = iprop((ℓ ↦[Kf 0]{q} f) ∗ ℓ ↦[Kf 1]{q} f) := by
  rw [← bigSep_univ_two (fun c : Fin 2 => (ℓ ↦[Kf c]{q} f : sProp 𝕄)), ← pointsTo_biUnion Finset.univ Kf hd, hc]

/-- The three arrays whole are the two SparseCores' start payloads. -/
theorem toCores (d : Dev nD) (Z : Buf (Elt F) (zLoc d)) (hZ : ZOn Zf Finset.univ Z) (M0 : Buf (Elt F) (mLoc d)) :
    iprop((zLoc d ↦{fullShare} Z) ∗ (iLoc d ↦{fullShare} I d) ∗ (mLoc d ↦{fullShare} M0))
      ⊢ (iprop(stC Zf I d 0 ∗ stC Zf I d 1) : sProp 𝕄) := by
  unfold stC zPts
  rw [coreShare_zero, coreShare_one]
  iintro ⟨Hz, Hi, Hm⟩
  ihave Hz' := (pointsTo_share (PosShare.mem_left_op_right fullShare)).1 $$ Hz
  icases Hz' with ⟨Hz0, Hz1⟩
  ihave Hi' := (Entails.of_eq (two_cores (F := F) (ℓ := iLoc d) idxRows idxRows_disjoint idxRows_cover fullShare (I d))) $$ Hi
  ihave Hm' := (Entails.of_eq (two_cores (F := F) (ℓ := mLoc d) mRows mRows_disjoint mRows_cover fullShare M0)) $$ Hm
  icases Hi' with ⟨Hi0, Hi1⟩
  icases Hm' with ⟨Hm0, Hm1⟩
  isplitl [Hz0 Hi0 Hm0]
  · isplitl [Hz0]
    · iexists Z; isplitr; · ipureintro; exact hZ
      iexact Hz0
    isplitl [Hi0]; · iexact Hi0
    iexists M0; iexact Hm0
  · isplitl [Hz1]
    · iexists Z; isplitr; · ipureintro; exact hZ
      iexact Hz1
    isplitl [Hi1]; · iexact Hi1
    iexists M0; iexact Hm1

/-- The two SparseCores' done payloads are the three arrays whole again: z as it was on its first 10000 rows, the index
    array unchanged, the result at every node's value. -/
theorem fromCores (d : Dev nD) :
    iprop(dnC v Zf I d 0 ∗ dnC v Zf I d 1)
      ⊢ (iprop((∃ Z : Buf (Elt F) (zLoc d), ⌜ZOn Zf Finset.univ Z⌝ ∗ zLoc d ↦{fullShare} Z) ∗ (iLoc d ↦{fullShare} I d)
          ∗ ∃ Mf : Buf (Elt F) (mLoc d), ⌜MaxSpec v Zf (I d) 0 Mf ∧ MaxSpec v Zf (I d) 1 Mf⌝ ∗ mLoc d ↦{fullShare} Mf) : sProp 𝕄) := by
  unfold dnC zPts
  rw [coreShare_zero, coreShare_one]
  iintro ⟨⟨⟨%Z0, %hZ0, Hz0⟩, Hi0, %M0, %hM0, Hm0⟩, ⟨%Z1, -, Hz1⟩, Hi1, %M1, %hM1, Hm1⟩
  isplitl [Hz0 Hz1]
  · ihave Hag := (persistent_entails_right pointsTo_agree) $$ [Hz0 Hz1]
    · isplitl [Hz0]; · iexact Hz0
      iexact Hz1
    icases Hag with ⟨%hag, Hz0, Hz1⟩
    ihave Hz1' := (Entails.of_eq (pointsTo_congr (f := Z1) (g := Z0) fun i hi => (hag i (Finset.mem_inter.mpr ⟨hi, hi⟩)).1.symm)) $$ Hz1
    iexists Z0; isplitr; · ipureintro; exact hZ0
    iapply (pointsTo_share (PosShare.mem_left_op_right fullShare)).2
    isplitl [Hz0]; · iexact Hz0
    iexact Hz1'
  isplitl [Hi0 Hi1]
  · iapply (Entails.of_eq (two_cores (F := F) (ℓ := iLoc d) idxRows idxRows_disjoint idxRows_cover fullShare (I d)).symm)
    isplitl [Hi0]; · iexact Hi0
    iexact Hi1
  · ihave H := (rows_join (F := F) (ℓ := mLoc d) Finset.univ mRows fullShare (fun c Mf => MaxSpec v Zf (I d) c Mf) M0 mRows_disjoint) $$ [Hm0 Hm1]
    · rw [bigSep_univ_two]
      isplitl [Hm0]
      · iexists M0; isplitr; · ipureintro; exact hM0
        iexact Hm0
      · iexists M1; isplitr; · ipureintro; exact hM1
        iexact Hm1
    icases H with ⟨%g, %hg, Hg⟩
    rw [mRows_cover]
    iexists g; isplitr
    swap; · iexact Hg
    ipureintro
    have key : ∀ c : Fin 2, MaxSpec v Zf (I d) c g := fun c s => by
      obtain ⟨f, hf, hgf⟩ := hg c (Finset.mem_univ c)
      obtain rfl : d = 0 := Subsingleton.elim _ _
      exact tileSpec_congr v Zf I (fun i hi => hgf i (Finset.mem_biUnion.mpr ⟨s, Finset.mem_univ s, hi⟩)) (hf s)
    exact ⟨key 0, key 1⟩

end Cores

/-! ## A SparseCore's operands among its tiles -/

section VecSplit
variable [FloatOps F]
variable (v : Prop) (Zf : S10000x128.Idx → Elt F .f32) (I : (d : Dev nD) → Buf (Elt F) (iLoc d))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The shared copy is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
theorem pts_slices {ℓ : Loc nD τ sig} (Kf : Fin 16 → Finset (Idx ℓ)) (hd : ∀ i ∈ (Finset.univ : Finset (Fin 16)), ∀ j ∈ (Finset.univ : Finset (Fin 16)), i ≠ j → Disjoint (Kf i) (Kf j))
    (q : PosShare TreeShare) (f : Buf (Elt F) ℓ) :
    (ℓ ↦[Finset.univ.biUnion Kf]{q} f : sProp 𝕄) = bigSep Finset.univ fun s : Fin 16 => ℓ ↦[Kf s]{q} f :=
  pointsTo_biUnion Finset.univ Kf hd

omit [FloatOps F] in
theorem bigSep_mono' {J : Type} {s : Finset J} {Φ Ψ : J → sProp 𝕄} (h : ∀ i ∈ s, Φ i ⊢ Ψ i) : bigSep s Φ ⊢ bigSep s Ψ := bigSep_mono h

theorem vecSplit : (K (F := F)).VecSplit (P v Zf I) 0 := by
  intro d c
  rw [st_eq, dn_eq]
  simp only [go_eq, td_eq]
  generalize hc2 : Fin.cast nCore_zero c = c2
  rw [bigSep_tasks (F := F) (fun s => goC Zf I d c2 (coreOf c) s), bigSep_tasks (F := F) (fun s => tdC v Zf I d c2 (coreOf c) s)]
  unfold stC dnC goC tdC zPts mRows idxRows
  rw [bigSep_sep', bigSep_sep', bigSep_sep', bigSep_sep', bigSep_sep', bigSep_sep', bigSep_sep', ownBufs_S]
  iintro ⟨⟨⟨%Z, %hZ, Hz⟩, Hi, %M0, Hm⟩, ⟨%fsh, Hsh⟩, Hrest⟩; imodintro
  isplitl [Hz Hi Hm Hsh]
  · isplitl [Hz]
    · ihave Hz' := (Entails.of_eq (show (zLoc d ↦{coreShare c2} Z : sProp 𝕄) = bigSep Finset.univ fun s : Fin 16 => zLoc d ↦[zSlice s]{coreShare c2} Z from by
        rw [← pts_slices (F := F) (ℓ := zLoc d) zSlice zSlice_disjoint, zSlice_cover])) $$ Hz
      iapply (bigSep_mono' (F := F) (Φ := fun s : Fin 16 => (zLoc d ↦[zSlice s]{coreShare c2} Z : sProp 𝕄))
        (Ψ := fun s : Fin 16 => iprop(∃ Z' : Buf (Elt F) (zLoc d), ⌜ZOn Zf (zSlice s) Z'⌝ ∗ zLoc d ↦[zSlice s]{coreShare c2} Z'))
        fun s _ => by
          iintro H; iexists Z; isplitr
          · ipureintro; exact ZOn_mono Zf (Finset.subset_univ _) hZ
          · iexact H)
      iexact Hz'
    isplitl [Hi]
    · iapply (Entails.of_eq (pts_slices (F := F) (ℓ := iLoc d) (fun s => iTile (wid c2 s)) (iTile_disjoint c2) fullShare (I d)))
      iexact Hi
    isplitl [Hm]
    · ihave Hm' := (Entails.of_eq (pts_slices (F := F) (ℓ := mLoc d) (fun s => mTile (wid c2 s)) (mTile_disjoint c2) fullShare M0)) $$ Hm
      iapply (SparseCore.ent (bigSep_mono (Φ := fun s : Fin 16 => (mLoc d ↦[mTile (wid c2 s)]{fullShare} M0 : sProp 𝕄))
        (Ψ := fun s : Fin 16 => iprop(∃ M : Buf (Elt F) (mLoc d), mLoc d ↦[mTile (wid c2 s)]{fullShare} M))
        fun s _ => BI.BIClass.exists_intro (Φ := fun M : Buf (Elt F) (mLoc d) => (mLoc d ↦[mTile (wid c2 s)]{fullShare} M : sProp 𝕄)) M0))
      iexact Hm'
    · ihave Hsh' := (Entails.of_eq (show (shLoc d (coreOf c) ↦{fullShare} fsh : sProp 𝕄) = bigSep Finset.univ fun s : Fin 16 => shLoc d (coreOf c) ↦[zSlice s]{fullShare} fsh from by
        rw [← pts_slices (F := F) (ℓ := shLoc d (coreOf c)) zSlice zSlice_disjoint, zSlice_cover])) $$ Hsh
      iapply (SparseCore.ent (bigSep_mono (Φ := fun s : Fin 16 => (shLoc d (coreOf c) ↦[zSlice s]{fullShare} fsh : sProp 𝕄))
        (Ψ := fun s : Fin 16 => iprop(∃ f : Buf (Elt F) (shLoc d (coreOf c)), shLoc d (coreOf c) ↦[zSlice s]{fullShare} f))
        fun s _ => BI.BIClass.exists_intro (Φ := fun f : Buf (Elt F) (shLoc d (coreOf c)) => (shLoc d (coreOf c) ↦[zSlice s]{fullShare} f : sProp 𝕄)) fsh))
      iexact Hsh'
  iintro ⟨Hz, Hi, Hm, Htok, Hdrop⟩
  isplitr [Htok Hdrop Hrest]
  · isplitl [Hz]
    · ihave H := (rows_join (F := F) (ℓ := zLoc d) Finset.univ zSlice (coreShare c2) (fun s Z' => ZOn Zf (zSlice s) Z') Z zSlice_disjoint) $$ Hz
      icases H with ⟨%g, %hg, Hg⟩
      rw [zSlice_cover]
      iexists g; isplitr
      swap; · iexact Hg
      ipureintro
      intro y _
      obtain ⟨s, hs⟩ := Rect.exists_mem_part hdiv16 (emb y)
      obtain ⟨f, hf, hgf⟩ := hg s (Finset.mem_univ s)
      exact (hgf _ hs).trans (hf y hs)
    isplitl [Hi]
    · iapply (Entails.of_eq (pts_slices (F := F) (ℓ := iLoc d) (fun s => iTile (wid c2 s)) (iTile_disjoint c2) fullShare (I d)).symm)
      iexact Hi
    · ihave H := (rows_join (F := F) (ℓ := mLoc d) Finset.univ (fun s => mTile (wid c2 s)) fullShare (fun s Mf => TileSpec v Zf (I d) (wid c2 s) Mf) M0 (mTile_disjoint c2)) $$ Hm
      icases H with ⟨%g, %hg, Hg⟩
      iexists g; isplitr
      swap; · iexact Hg
      ipureintro
      intro s
      obtain ⟨f, hf, hgf⟩ := hg s (Finset.mem_univ s)
      obtain rfl : d = 0 := Subsingleton.elim _ _
      exact tileSpec_congr v Zf I hgf hf
  · isplitl [Htok Hdrop]
    · ihave H := (rows_join (F := F) (ℓ := shLoc d (coreOf c)) Finset.univ zSlice (shareDrop fullShare 16) (fun _ _ => True) fsh zSlice_disjoint) $$ [Hdrop]
      · iapply (bigSep_mono' (F := F) (Φ := fun s : Fin 16 => iprop(∃ f : Buf (Elt F) (shLoc d (coreOf c)), shLoc d (coreOf c) ↦[zSlice s]{shareDrop fullShare 16} f))
          (Ψ := fun s : Fin 16 => iprop(∃ f : Buf (Elt F) (shLoc d (coreOf c)), ⌜True⌝ ∗ shLoc d (coreOf c) ↦[zSlice s]{shareDrop fullShare 16} f))
          fun s _ => by
            iintro ⟨%f, H⟩; iexists f; isplitr
            · ipureintro; trivial
            · iexact H)
        iexact Hdrop
      icases H with ⟨%g, -, Hg⟩
      rw [zSlice_cover]
      iexists g
      iapply (toks_join_ex (F := F) (ℓ := shLoc d (coreOf c)) Finset.univ fullShare 16 g)
      isplitl [Hg]; · iexact Hg
      iexact Htok
    · iexact Hrest

end VecSplit

end Cert.Kernel.Hand

end
-- ==== Proof.KB.TileKits.lean ====
/-
  The barrier cells' part of the launch element: their invariants allocated over the free barrier semaphores, and each
  tile dealt its kit — its position, its duty tokens, the credit for its own round.
-/
import proofs.«208586_g21955872817707_cont_8to1_688_77_alg».proof.Proof.KB.TilePay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile i's token in tile j's cell, for every pair of tiles of a SparseCore. -/
def bToks : Finset (GSem nD τ sig × ℕ × ℕ) :=
  Finset.univ.image fun x : DCI × Fin (grid2.bound 1) => (bcell x.1.1 x.1.2.1 (x.2.castLE hsub2), 0, x.1.2.2.val)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd Zf) g 0)
    ⊢ |={Set.univ}=> iprop(∃ κ : GSem nD τ sig → ℕ, bigSep bCells fun g => cellInv EB (bRd Zf) (κ g) g) := by
  refine (Rounds.bodies_intro EB (bRd Zf) bCells).trans ((inv_alloc_family bCells (Rounds.body EB (bRd Zf)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P v Zf I).oxCred : sProp 𝕄)
    ⊢ bigSep Finset.univ fun dci : DCI => cred (tallyAt (bcell₃ dci) (some 0) (grid2.bound 1)) := by
  unfold SparseCore.Cfg.Pay.oxCred
  rw [SparseCore.Cfg.bigSep_threads (fun thr : Thread nD τ => (cred ((P v Zf I).oxFrom 0 thr) : sProp 𝕄))]
  refine sep_elim_right.trans (sep_elim_right.trans ?_)
  rw [bigSep_univ_prod, bigSep_univ_prod (fun dci : DCI => (cred (tallyAt (bcell₃ dci) (some 0) (grid2.bound 1)) : sProp 𝕄))]
  refine bigSep_mono fun d _ => ?_
  rw [bigSep_univ_prod, bigSep_univ_prod (fun ci : Fin τ.nSC × Fin τ.nSub => (cred (tallyAt (bcell₃ (d, ci)) (some 0) (grid2.bound 1)) : sProp 𝕄))]
  refine bigSep_mono fun c _ => ?_
  dsimp only
  have hox : ∀ i, (P v Zf I).oxFrom 0 (V d c i) = oxV d c := fun i => by
    rw [show (0 : ℕ) = (0 : Fin 1).val from rfl, (P v Zf I).oxFrom_step, (P v Zf I).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {J : Type} [DecidableEq J] {R : sProp 𝕄} [BI.Persistent R] {s : Finset J} {Φ Ψ : J → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid2.bound 1) => dutyTok EB (bcell dci.1 dci.2.1 (j.castLE hsub2)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P v Zf I).x q (SparseCore.T d)) = iprop(emp) :=
  bigSep_univ_of_subsingleton (0 : Fin 1)
theorem Px_S (d : Dev nD) (c : Fin τ.nSC) : (bigSep Finset.univ fun q : Fin 1 => (P v Zf I).x q (S d c)) = iprop(emp) :=
  bigSep_univ_of_subsingleton (0 : Fin 1)
theorem Px_V (d : Dev nD) (c : Fin τ.nSC) (i : Fin τ.nSub) :
    (bigSep Finset.univ fun q : Fin 1 => (P v Zf I).x q (V d c i)) = bkit Zf d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev sharedB : sProp 𝕄 :=
  iprop((∃ κ : GSem nD τ sig → ℕ, bigSep Finset.univ fun x : DCI => cellInv EB (bRd Zf) (κ (bcell₃ x)) (bcell₃ x))
    ∗ bigSep Finset.univ fun x : DCI => reached EB (bcell₃ x) 0)
/-- What each tile is handed of its own: its position, its tokens, its credit. -/
abbrev mineB (dci : DCI) : sProp 𝕄 :=
  iprop(atPos EB (bcell₃ dci) 0 ∅ 0
    ∗ (bigSep Finset.univ fun j : Fin (grid2.bound 1) => dutyTok EB (bcell dci.1 dci.2.1 (j.castLE hsub2)) 0 dci.2.2.val)
    ∗ cred (tallyAt (bcell₃ dci) (some 0) (grid2.bound 1)))

/-- One tile's kit out of those. -/
theorem kit_intro (dci : DCI) : iprop(sharedB Zf ∗ mineB (F := F) dci) ⊢ (bkit Zf dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid2.bound 1)))) (Φ := fun _ => iprop(emp))
      (R := bigSep Finset.univ fun x : DCI => cellInv EB (bRd Zf) (κ (bcell₃ x)) (bcell₃ x)) fun j _ =>
        sep_elim_left.trans (bigSep_elim (Φ := fun x : DCI => (cellInv EB (bRd Zf) (κ (bcell₃ x)) (bcell₃ x) : sProp 𝕄))
          (i := (d, c, Fin.castLE hsub2 j)) (Finset.mem_univ _))))
    isplitl; · iexact Hinv
    rw [bigSep_emp']; iempintro
  isplitl [Htok]; · iexact Htok
  isplitr
  · iapply (SparseCore.ent (bigSep_mono_frame (s := (Finset.univ : Finset (Fin (grid2.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub2 j)) (Finset.mem_univ _))))
    isplitl; · iexact Hr
    rw [bigSep_emp']; iempintro
  isplitl [Hat]; · iexact Hat
  iexact Hcred

/-- Each tile its kit. -/
theorem kits_deal :
    iprop(sharedB Zf ∗ (bigSep Finset.univ fun x : DCI => atPos EB (bcell₃ x) 0 ∅ 0)
        ∗ (bigSep Finset.univ fun dci : DCI => bigSep Finset.univ fun j : Fin (grid2.bound 1) => dutyTok EB (bcell dci.1 dci.2.1 (j.castLE hsub2)) 0 dci.2.2.val)
        ∗ (bigSep Finset.univ fun dci : DCI => cred (tallyAt (bcell₃ dci) (some 0) (grid2.bound 1))))
      ⊢ (bigSep Finset.univ fun thr : Thread nD τ => bigSep Finset.univ fun q : Fin 1 => (P v Zf I).x q thr : sProp 𝕄) := by
  rw [SparseCore.Cfg.bigSep_threads (fun thr : Thread nD τ => bigSep Finset.univ fun q : Fin 1 => (P v Zf I).x q thr)]
  simp only [Px_T, Px_S, Px_V, bigSep_emp']
  iintro ⟨#Hsh, Hat, Htok, Hcred⟩
  isplitr; · iempintro
  isplitr; · iempintro
  iapply (bigSep_mono_frame (R := sharedB Zf) (Φ := mineB (F := F)) fun dci _ => kit_intro Zf dci)
  isplitr; · iexact Hsh
  unfold mineB
  rw [bigSep_sep', bigSep_sep']
  isplitl [Hat]; · iexact Hat
  isplitl [Htok]; · iexact Htok
  iexact Hcred

/-- The barrier cells' part of the launch element. -/
theorem kits : iprop(BI.own (EB (initOf bCells bToks)) ∗ (P v Zf I).oxCred ∗ (K (F := F)).freeSems0)
    ⊢ |={Set.univ}=> (bigSep Finset.univ fun thr : Thread nD τ => bigSep Finset.univ fun q : Fin 1 => (P v Zf I).x q thr : sProp 𝕄) := by
  iintro ⟨HB, Hcred, Hfree⟩
  imod (Rounds.fund EB (bRd Zf) bCells bToks) $$ HB with ⟨Hst, #Hr, Hat, Htok⟩
  ihave Hsems := (sems_b (F := F)) $$ Hfree
  imod (invs_b Zf) $$ [Hsems Hst] with ⟨%κ, #Hinv⟩
  · isplitl [Hsems] <;> iassumption
  ihave Hcred' := (creds_b v Zf I) $$ Hcred
  ihave Hinv' := (Entails.of_eq (bCells_eq (F := F) fun g => cellInv EB (bRd Zf) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  iapply (kits_deal v Zf I)
  isplitr
  · isplitl; · iexists κ; iexact Hinv'
    iexact Hr'
  isplitl [Hat']; · iexact Hat'
  isplitl [Htok']; · iexact Htok'
  iexact Hcred'

end Cert.Kernel.Hand

end
-- ==== Proof.KB.RegionsLib.lean ====
/-
  What the three TensorCore pallas_calls' regions share: the launch protocol's debts carry nothing at the kernels' own
  index, and proof data for the pipelines a region does not run.
-/
import proofs.«208586_g21955872817707_cont_8to1_688_77_alg».proof.Proof.KB.RegionSpec
import proofs.«208586_g21955872817707_cont_8to1_688_77_alg».proof.Proof.Gen.Kernel.Launch
import proofs.«208586_g21955872817707_cont_8to1_688_77_alg».proof.Proof.Gen.Kernel.Skeleton
import proofs.«208586_g21955872817707_cont_8to1_688_77_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

variable {F : FTy → Type} [FloatOps F]

local notation "𝕄" => MT nD τ sig (HIx 1) (Elt F) ℕ UU ℕ

/-! # What the three TensorCore regions share -/

/-- The TensorCore owes nothing at the kernels' own index. -/
theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

/-- The zero offsets of a rank-2 rectangle. -/
theorem zero2 : (![0, 0] : Fin 2 → ℕ) = fun _ => 0 := by funext a; fin_cases a <;> rfl

section Idle

variable (Vv : (c : Dev nD) → (b : Ref sig .tc) → Buf (Elt F) ((c : Thread nD τ).loc b))

/-- A pipeline's proof data that nothing reads: a region's family at the pipelines it does not run. -/
def idle0 (c : Dev nD) : Dat τ (Elt F) (HIx 1) ℕ UU ℕ cfg0 c where
  A w := Vv c (Pipeline.arrRef spec0 w)
  after _ _ := fun _ => Classical.arbitrary _
  Φ _ := iprop(emp)
  q _ := fullShare
  owed _ := 0
def idle1 (c : Dev nD) : Dat τ (Elt F) (HIx 1) ℕ UU ℕ cfg1 c where
  A w := Vv c (Pipeline.arrRef spec1 w)
  after _ _ := fun _ => Classical.arbitrary _
  Φ _ := iprop(emp)
  q _ := fullShare
  owed _ := 0
def idle3 (c : Dev nD) : Dat τ (Elt F) (HIx 1) ℕ UU ℕ cfg3 c where
  A w := Vv c (Pipeline.arrRef spec3 w)
  after _ _ := fun _ => Classical.arbitrary _
  Φ _ := iprop(emp)
  q _ := fullShare
  owed _ := 0

end Idle

end Cert.Kernel.Hand

end
-- ==== Proof.KB.Regions1.lean ====
/-
  The second TensorCore pallas_call of @main (pipeline 1), entered as a region inside the SparseCore program: its proof
  data, body obligation and segment record, what its output array holds at the exit, and the region's rule lifted to
  the extended body table.
-/
import proofs.«208586_g21955872817707_cont_8to1_688_77_alg».proof.Proof.KB.RegionsLib
import proofs.«208586_g21955872817707_cont_8to1_688_77_alg».proof.Proof.Gen.Kernel.Launch
import proofs.«208586_g21955872817707_cont_8to1_688_77_alg».proof.Proof.Gen.Kernel.Skeleton
import proofs.«208586_g21955872817707_cont_8to1_688_77_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

variable {F : FTy → Type} [FloatOps F]

local notation "𝕄" => MT nD τ sig (HIx 1) (Elt F) ℕ UU ℕ

/-! # The second pallas_call (pipeline 1): p = xn · w2aᵀ + b2, the whole block stored -/

section Region1

variable (Vv : (c : Dev nD) → (b : Ref sig .tc) → Buf (Elt F) ((c : Thread nD τ).loc b))

/-- Window `w`'s block at the one point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-- An input window's staging buffer holds its block when the body runs: it is fetched at the one point. -/
theorem before1_0_of {c : Dev nD} (dat : Dat τ (Elt F) (HIx 1) ℕ UU ℕ cfg1 c) (hA : dat.A 0 = Vv c (Pipeline.arrRef spec1 0))
    (hafter : ∀ t, dat.after 0 t = iblk1 Vv c 0 t) (t : Fin cfg1.N) (d) : dat.before 0 t d = iblk1 Vv c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ UU ℕ cfg1 c) (hA : dat.A 1 = Vv c (Pipeline.arrRef spec1 1))
    (hafter : ∀ t, dat.after 1 t = iblk1 Vv c 1 t) (t : Fin cfg1.N) (d) : dat.before 1 t d = iblk1 Vv c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 1) ℕ UU ℕ cfg1 c) (hA : dat.A 2 = Vv c (Pipeline.arrRef spec1 2))
    (hafter : ∀ t, dat.after 2 t = iblk1 Vv c 2 t) (t : Fin cfg1.N) (d) : dat.before 2 t d = iblk1 Vv c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes. -/
abbrev rA1 : Rect S10000x128 := Rect.unit (s := S10000x128) ![0, 0] S10000x128.size inb_S10000x128_S10000x128_0_0
abbrev rB1 : Rect S128x128 := Rect.unit (s := S128x128) ![0, 0] S128x128.size inb_S128x128_S128x128_0_0
abbrev rC1 : Rect S1x128 := Rect.unit (s := S1x128) ![0, 0] S1x128.size inb_S1x128_S1x128_0_0

/-- The output window's staging buffer after the body, from the input windows' blocks: its one store. -/
def out1_3 (x0 : Vec F S10000x128 .f32) (x1 : Vec F S128x128 .f32) (x2 : Vec F S1x128 .f32) : Vec F S10000x128 .f32 :=
  View.canon [⟨rA1, k1_pay1 (View.ld x0 rA1) (View.ld x1 rB1) (View.ld x2 rC1)⟩]

/-- The store covers the buffer. -/
theorem cover1_3 (p0 : Vec F S10000x128 .f32) (y : S10000x128.Idx) :
    ∃ pc ∈ ([⟨rA1, p0⟩] : List (View.Piece (Elt F) S10000x128 .f32)), y ∈ pc.1.set :=
  View.cover_of_tiled [⟨rA1, p0⟩] S10000x128.size (by rfl) y

set_option maxHeartbeats 1000000 in
/-- The body on whole staging memrefs, the inputs' at contents `x0 x1 x2` and the output's at anything, leaves the
    inputs' as they were and the output's at `out1_3` of them. -/
theorem sound_kernel1 (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S1x128 .f32) (harg2 : arg2.IsWhole)
    (arg3 : Memref sig .tc .vmem S10000x128 .f32) (harg3 : arg3.IsWhole)
    (x0 : Vec F S10000x128 .f32) (x1 : Vec F S128x128 .f32) (x2 : Vec F S1x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ Kk ⟨⟩))
      ⊢ wp frame (wpE (defs₀ (F := F)) Variants.none c none) E (cc1__tc_p_body arg0 harg0 arg1 harg1 arg2 harg2 arg3 harg3) Kk := by
  simp only [cc1__tc_p_body_eq_skeleton]; unfold cc1__tc_p_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

variable (n : ℕ)

/-- The proof data of the pipeline on device `c` before SparseCore call `n`: the arrays as the region finds them; after
    the body each input's buffer at its block and the output's at its one store; the invariant the scoped buffers no
    window stages and the generator register; full shares; the TensorCore owing the launch protocol its start signals
    throughout, its recorded waits at or below level `8 n`. -/
def dat1 (c : Dev nD) : Dat τ (Elt F) (HIx 1) ℕ UU ℕ cfg1 c where
  A w := Vv c (Pipeline.arrRef spec1 w)
  after w t := match w with
    | ⟨0, _⟩ => iblk1 Vv c 0 t
    | ⟨1, _⟩ => iblk1 Vv c 1 t
    | ⟨2, _⟩ => iblk1 Vv c 2 t
    | ⟨3, _⟩ => out1_3 (iblk1 Vv c 0 t) (iblk1 Vv c 1 t) (iblk1 Vv c 2 t)
  Φ _ := iprop(Pipeline.scopedRest spec1 c ∗ ∃ r, prngReg c r)
  q _ := fullShare
  owed _ := (K (F := F)).Otc c n
  recorded _ := {p | (K (F := F)).lev ((c : Thread nD τ), p.1) p.2 ≤ 8 * n}

theorem A_eq1 (c : Dev nD) (w : Fin cfg1.W) : (dat1 Vv n c).A w = Vv c (Pipeline.arrRef spec1 w) := by
  dsimp only [dat1]
theorem after1_0 (c : Dev nD) (t : Fin cfg1.N) : (dat1 Vv n c).after 0 t = iblk1 Vv c 0 t := by dsimp only [dat1]
theorem after1_1 (c : Dev nD) (t : Fin cfg1.N) : (dat1 Vv n c).after 1 t = iblk1 Vv c 1 t := by dsimp only [dat1]
theorem after1_2 (c : Dev nD) (t : Fin cfg1.N) : (dat1 Vv n c).after 2 t = iblk1 Vv c 2 t := by dsimp only [dat1]
theorem after1_3 (c : Dev nD) (t : Fin cfg1.N) :
    (dat1 Vv n c).after 3 t = out1_3 (iblk1 Vv c 0 t) (iblk1 Vv c 1 t) (iblk1 Vv c 2 t) := by dsimp only [dat1]

theorem before1_0 (c : Dev nD) (t : Fin cfg1.N) (d) : (dat1 Vv n c).before 0 t d = iblk1 Vv c 0 t :=
  before1_0_of Vv (dat1 Vv n c) (A_eq1 Vv n c 0) (after1_0 Vv n c) t d
theorem before1_1 (c : Dev nD) (t : Fin cfg1.N) (d) : (dat1 Vv n c).before 1 t d = iblk1 Vv c 1 t :=
  before1_1_of Vv (dat1 Vv n c) (A_eq1 Vv n c 1) (after1_1 Vv n c) t d
theorem before1_2 (c : Dev nD) (t : Fin cfg1.N) (d) : (dat1 Vv n c).before 2 t d = iblk1 Vv c 2 t :=
  before1_2_of Vv (dat1 Vv n c) (A_eq1 Vv n c 2) (after1_2 Vv n c) t d

/-! ## The body obligation -/

/-- What the body is called with at the point, -/
def bodyPre1 (c : Dev nD) (t : Fin cfg1.N) : sProp 𝕄 :=
  iprop((dat1 Vv n c).Φ t.castSucc ∗ (dat1 Vv n c).owesAt none t.castSucc
    ∗ (∃ d, owns (c : Thread nD τ) (st1_0 t) fullShare ((dat1 Vv n c).before 0 t d))
    ∗ (∃ d, owns (c : Thread nD τ) (st1_1 t) fullShare ((dat1 Vv n c).before 1 t d))
    ∗ (∃ d, owns (c : Thread nD τ) (st1_2 t) fullShare ((dat1 Vv n c).before 2 t d))
    ∗ (∃ d, owns (c : Thread nD τ) (st1_3 t) fullShare ((dat1 Vv n c).before 3 t d)))

/-- and what it returns. -/
def bodyPost1 (c : Dev nD) (t : Fin cfg1.N) : sProp 𝕄 :=
  iprop((dat1 Vv n c).Φ t.succ ∗ (dat1 Vv n c).owesAt none t.succ
    ∗ owns (c : Thread nD τ) (st1_0 t) fullShare ((dat1 Vv n c).after 0 t)
    ∗ owns (c : Thread nD τ) (st1_1 t) fullShare ((dat1 Vv n c).after 1 t)
    ∗ owns (c : Thread nD τ) (st1_2 t) fullShare ((dat1 Vv n c).after 2 t)
    ∗ owns (c : Thread nD τ) (st1_3 t) fullShare ((dat1 Vv n c).after 3 t))

theorem sound_body1 (c : Dev nD) (t : Fin cfg1.N) :
    bodyPre1 Vv n c t ⊢ wp frame (wpE (defs₀ (F := F)) Variants.none c none) Set.univ (bodyAt1 t) (fun _ => bodyPost1 Vv n c t) := by
  unfold bodyPre1 bodyPost1 bodyAt1
  simp only [before1_0, before1_1, before1_2]
  rw [show (dat1 Vv n c).Φ t.succ = (dat1 Vv n c).Φ t.castSucc from rfl,
    show (dat1 Vv n c).owesAt none t.succ = (dat1 Vv n c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 Vv c 0 t) (iblk1 Vv c 1 t) (iblk1 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) Vv n c) (defs₀ (F := F)) Variants.none none Set.univ := fun t => by
  rw [bigSep_W1, bigSep_W1]
  exact sound_body1 Vv n c t

/-! ## What the output array holds after the run -/

/-- A window that is its whole array reads the array. -/
theorem iblk1_0 (c : Dev nD) (t : Fin cfg1.N) : iblk1 Vv c 0 t = Vv c main_v1 := by
  funext y
  have hy : ((cfg1.win 0).blk t).view.emb y = y := by
    funext a; apply Fin.ext
    exact Pipeline.Window.rect_emb_val_of_index_zero (cfg1.win 0) t a rfl y
  unfold iblk1
  rw [View.read_apply, hy]
  rfl
theorem iblk1_1 (c : Dev nD) (t : Fin cfg1.N) : iblk1 Vv c 1 t = Vv c main_v9 := by
  funext y
  have hy : ((cfg1.win 1).blk t).view.emb y = y := by
    funext a; apply Fin.ext
    exact Pipeline.Window.rect_emb_val_of_index_zero (cfg1.win 1) t a rfl y
  unfold iblk1
  rw [View.read_apply, hy]
  rfl
theorem iblk1_2 (c : Dev nD) (t : Fin cfg1.N) : iblk1 Vv c 2 t = Vv c main_v10 := by
  funext y
  have hy : ((cfg1.win 2).blk t).view.emb y = y := by
    funext a; apply Fin.ext
    exact Pipeline.Window.rect_emb_val_of_index_zero (cfg1.win 2) t a rfl y
  unfold iblk1
  rw [View.read_apply, hy]
  rfl

/-- The one store, through the whole buffer, leaves its payload; a load through a whole buffer reads it. -/
theorem out1_3_eq (x0 : Vec F S10000x128 .f32) (x1 : Vec F S128x128 .f32) (x2 : Vec F S1x128 .f32) :
    out1_3 x0 x1 x2 = k1_pay1 x0 x1 x2 := by
  unfold out1_3
  rw [View.canon_unit_zero zero2, View.ld_unit_zero zero2, View.ld_unit_zero zero2, View.ld_unit_zero zero2]

/-- The output array after the run: the payload of the arrays as entered. -/
theorem arrAt1_3 (c : Dev nD) :
    (dat1 Vv n c).arrAt 3 cfg1.N = k1_pay1 (Vv c main_v1) (Vv c main_v9) (Vv c main_v10) := by
  refine (dat1 Vv n c).arrAt_eq_of_cover 3 _ (fun t _ => ?_) (fun i => ⟨t1_0, flush1_3 _, ?_⟩)
  · funext y
    have hy : ((cfg1.win 3).blk t).view.emb y = y := by
      funext a; apply Fin.ext
      exact Pipeline.Window.rect_emb_val_of_index_zero (cfg1.win 3) t a rfl y
    show (dat1 Vv n c).after 3 t y = _root_.cast _ (k1_pay1 (Vv c main_v1) (Vv c main_v9) (Vv c main_v10) (((cfg1.win 3).blk t).view.emb y))
    rw [hy, after1_3, out1_3_eq, iblk1_0, iblk1_1, iblk1_2]; rfl
  · have hy : ((cfg1.win 3).blk t1_0).view.emb i = i := by
      funext a; apply Fin.ext
      exact Pipeline.Window.rect_emb_val_of_index_zero (cfg1.win 3) t1_0 a rfl i
    rw [← hy]; exact View.emb_mem_set _ _

/-! ## The region as a segment -/

/-- The family of proof data the region runs under: its own at its pipeline, idle data at the others. -/
def pdats1 : (p : Fin 3) → (c : Dev nD) → Dat τ (Elt F) (HIx 1) ℕ UU ℕ (Pipeline.pin (pcfgs (F := F)) adm p) c
  | ⟨0, _⟩ => fun c => idle0 Vv c
  | ⟨1, _⟩ => fun c => dat1 Vv n c
  | ⟨2, _⟩ => fun c => idle3 Vv c

end Region1

section Seg1

variable (Wv : Valuation τ sig (Elt F)) (n : ℕ)

/-- The entry contents at the TensorCore's references. -/
abbrev V1 : (c : Dev nD) → (b : Ref sig .tc) → Buf (Elt F) ((c : Thread nD τ).loc b) := fun _ b => Wv b

/-- The contents at the region's exit: its arrays at what the pipeline leaves, every other buffer as entered. -/
def W1' (c : Dev nD) : Valuation τ sig (Elt F) :=
  Pipeline.withArrays spec1 c Wv fun w => (dat1 (V1 Wv) n c).arrAt w cfg1.N
theorem W1'_arr (c : Dev nD) (w : Fin cfg1.W) :
    W1' Wv n c (Proc.devRef .tc (Pipeline.arrRef spec1 w)) = (dat1 (V1 Wv) n c).arrAt w cfg1.N := by
  unfold W1'; exact Pipeline.withArrays_arr spec1 launch1.win.arr_inj c _ _ w
theorem W1'_of_ne (c : Dev nD) (b : Ref sig .tc) (hb : ∀ w, Pipeline.arrRef spec1 w ≠ b) :
    W1' Wv n c (Proc.devRef .tc b) = Wv (Proc.devRef .tc b) := by
  unfold W1'; exact Pipeline.withArrays_of_ne spec1 c _ _ b hb
abbrev V1' : (c : Dev nD) → (b : Ref sig .tc) → Buf (Elt F) ((c : Thread nD τ).loc b) := fun c b => W1' Wv n c b
theorem hF1 (c : Dev nD) (w : Fin cfg1.W) : (dat1 (V1 Wv) n c).arrAt w cfg1.N = V1' Wv n c (Pipeline.arrRef spec1 w) :=
  (W1'_arr Wv n c w).symm
theorem hrest1 (c : Dev nD) : ∀ b, b ∉ Finset.univ.image (Pipeline.arrRef spec1) → V1' Wv n c b = V1 Wv c b :=
  fun b hb => W1'_of_ne Wv n c b fun w e => hb (Finset.mem_image.mpr ⟨w, Finset.mem_univ _, e⟩)

set_option backward.isDefEq.respectTransparency.types false in
/-- The pallas_call over the thread state: entered from every unscoped buffer at `Wv`, left at `W1'`; the generator
    register into the invariant and out; the start signals owed throughout, the recorded waits kept at or below `8 n`. -/
def reg1 : Pipeline.RegionSeg (pcfgs (F := F)) adm (pdats1 (V1 Wv) n) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body_obligation1 (V1 Wv) n c).loose
  hwaits c := Pipeline.cellsWaits_intro (Pipeline.pin (pcfgs (F := F)) adm) (pdats1 (V1 Wv) n) none 1 c fun w s t =>
    (K (F := F)).mayWait_none _ (fun g => Otc_none c n g)
  pre c := iprop(held (c : Thread nD τ) UC Wv ∗ Rest c n)
  post c := iprop(held (c : Thread nD τ) UC (W1' Wv n c) ∗ Rest c n)
  X c := iprop(∃ r, prngReg c r)
  Y c := iprop(∃ r, prngReg c r)
  Z c := Pipeline.unscopedRest (Ix := HIx 1) (Name := ℕ) (U := UU) (Lvl := ℕ) spec1 c (V1 Wv c)
  hentry c := by
    rw [Pipeline.ownSems0_none]
    have hsplit := Pipeline.arrays_of_unscopedBufs (p := 1) (pcfgs (F := F)) adm (pdats1 (V1 Wv) n) launch1.win launch1.arr_whole c
      ((pdats1 (V1 Wv) n 1 c).share_full fun _ => rfl) (V1 Wv c) fun _ => rfl
    rw [Pipeline.unscopedBufs_held] at hsplit
    unfold Rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (pdats1 (V1 Wv) n 1 c).Φ 0 = iprop(Pipeline.scopedRest spec1 c ∗ ∃ r, prngReg c r) from rfl]
    iintro ⟨Hp, -, Hr⟩
    isplitl [Hr]; · iexact Hr
    iexact Hp
  hout c := by
    rw [Pipeline.ownSems0_none, show (pdats1 (V1 Wv) n 1 c).Φ (Fin.last _) = iprop(Pipeline.scopedRest spec1 c ∗ ∃ r, prngReg c r) from rfl]
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats1 (V1 Wv) n) ((pdats1 (V1 Wv) n 1 c).share_full fun _ => rfl)
      (V1 Wv c) (V1' Wv n c) ((pdats1 (V1 Wv) n 1 c).arrAt · cfg1.N) (hF1 Wv n c) (hrest1 Wv n c)
    rw [Pipeline.unscopedBufs_held] at hjoin
    unfold Rest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

end Seg1

/-- What the region leaves: every unscoped buffer but its output as entered; the output at the body's payload of the
    inputs as entered. -/
def Exit1 (Wv Wv' : Valuation τ sig (Elt F)) : Prop :=
  (∀ b ∈ UC, b ≠ Proc.devRef .tc main_v11 → Wv' b = Wv b)
    ∧ Wv' (Proc.devRef .tc main_v11) = k1_pay1 (Wv (Proc.devRef .tc main_v1)) (Wv (Proc.devRef .tc main_v9)) (Wv (Proc.devRef .tc main_v10))

/-- The exit contents are as `Exit1` says. -/
theorem exit1 (Wv : Valuation τ sig (Elt F)) (n : ℕ) (d : Dev nD) : Exit1 Wv (W1' Wv n d) := by
  refine ⟨fun b hb hne => ?_, ?_⟩
  · obtain ⟨b', -, rfl⟩ := Finset.mem_map.mp (Finset.mem_filter.mp hb).1
    by_cases h : ∃ w, Pipeline.arrRef spec1 w = b'
    · obtain ⟨w, rfl⟩ := h
      show W1' Wv n d (Proc.devRef .tc (Pipeline.arrRef spec1 w)) = _
      rw [W1'_arr]
      fin_cases w
      · exact ((dat1 (V1 Wv) n d).arrAt_in 0 rfl _).trans (A_eq1 (V1 Wv) n d 0)
      · exact ((dat1 (V1 Wv) n d).arrAt_in 1 rfl _).trans (A_eq1 (V1 Wv) n d 1)
      · exact ((dat1 (V1 Wv) n d).arrAt_in 2 rfl _).trans (A_eq1 (V1 Wv) n d 2)
      · exact absurd rfl hne
    · exact W1'_of_ne Wv n d b' fun w e => h ⟨w, e⟩
  · exact (W1'_arr Wv n d 3).trans (arrAt1_3 (V1 Wv) n d)

set_option backward.isDefEq.respectTransparency.types false in
set_option maxHeartbeats 1000000 in
/-- The pallas_call entered inside the SparseCore program: the region's step in the pipelines' signature, lifted to the
    extended body table. -/
theorem region1 : RegionSpec (F := F) 1 0 Exit1 := by
  unfold RegionSpec
  intro d Wv Φ
  have hwp := Pipeline.RegionSeg.wp (pcfgs (F := F)) adm (pdats1 (V1 Wv) 0) none cellOf_inj EP defs₀ 𝒱₀ (K (F := F)).L (K (F := F)).lev
    (reg1 Wv 0) d none (fun _ h => by cases h) (fun _ => .ret ⟨⟩) Φ
  rw [show (reg1 Wv 0).post d = iprop(held (d : Thread nD τ) UC (W1' Wv 0 d) ∗ Rest d 0) from rfl,
    show (reg1 Wv 0).pre d = iprop(held (d : Thread nD τ) UC Wv ∗ Rest d 0) from rfl] at hwp
  have hlift := ((K (F := F)).wp_liftProg (D (F := F)) 𝒱 (T d) Set.univ none (.op (.customCall (Pipeline.entry 1) ()) fun _ => .ret ⟨⟩) Φ)
  have hlift' : (wp Idealize.ShloMosaic.frame (wpE (D (F := F)) 𝒱 (SparseCore.T d) none) Set.univ
        (Prog.op (TpuEff.customCall (Pipeline.entry 1) ()) fun x => Prog.ret PUnit.unit)) Φ ⊢
    (wp Idealize.ShloMosaic.frame (wpE ((K (F := F)).defs D) 𝒱 (SparseCore.T d) none) Set.univ
        (Prog.lift (TpuEff.customCall (SparseCore.inner (Pipeline.entry 1)) ()))) Φ := hlift
  refine BIBase.Entails.trans ?_ hlift'
  refine BIBase.Entails.trans ?_ hwp
  have hexit : Exit1 Wv (W1' Wv 0 d) := exit1 Wv 0 d
  iintro ⟨Hlev, Hbd, Hheld, Hrest, ⟨Hg, Ht⟩, Hk⟩
  isplitl [Hk]
  · iintro ⟨Hbd, Hheld, Hrest⟩
    rw [wp_ret]; imodintro
    iapply Hk $$ %(W1' Wv 0 d) %hexit
    isplitl [Hbd]; · iexact Hbd
    isplitl [Hheld]; · iexact Hheld
    iexact Hrest
  isplitl [Hbd]; · iexact Hbd
  isplitl [Hheld Hrest]
  · isplitl [Hheld]; · iexact Hheld
    iexact Hrest
  isplitl [Hlev]; · iexact Hlev
  isplitl [Hg]; · iexact Hg
  iexact Ht

end Cert.Kernel.Hand

end
-- ==== Proof.KB.Regions3.lean ====
/-
  The third TensorCore pallas_call of @main (pipeline 2), entered as a region inside the SparseCore program, after the
  SparseCore call: its proof data, body obligation and segment record, what its output array holds at the exit, and
  the region's rule lifted to the extended body table.
-/
import proofs.«208586_g21955872817707_cont_8to1_688_77_alg».proof.Proof.KB.RegionsLib
import proofs.«208586_g21955872817707_cont_8to1_688_77_alg».proof.Proof.Gen.Kernel.Launch
import proofs.«208586_g21955872817707_cont_8to1_688_77_alg».proof.Proof.Gen.Kernel.Skeleton
import proofs.«208586_g21955872817707_cont_8to1_688_77_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

variable {F : FTy → Type} [FloatOps F]

local notation "𝕄" => MT nD τ sig (HIx 1) (Elt F) ℕ UU ℕ

/-! # The third pallas_call (pipeline 2): out = relu(p + m[0:10000] · w2bᵀ), the whole block stored -/

section Region3

variable (Vv : (c : Dev nD) → (b : Ref sig .tc) → Buf (Elt F) ((c : Thread nD τ).loc b))

/-- Window `w`'s block at the one point, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (Vv c (Pipeline.arrRef spec3 w))

/-- An input window's staging buffer holds its block when the body runs: it is fetched at the one point. -/
theorem before3_0_of {c : Dev nD} (dat : Dat τ (Elt F) (HIx 1) ℕ UU ℕ cfg3 c) (hA : dat.A 0 = Vv c (Pipeline.arrRef spec3 0))
    (hafter : ∀ t, dat.after 0 t = iblk3 Vv c 0 t) (t : Fin cfg3.N) (d) : dat.before 0 t d = iblk3 Vv c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) (HIx 1) ℕ UU ℕ cfg3 c) (hA : dat.A 1 = Vv c (Pipeline.arrRef spec3 1))
    (hafter : ∀ t, dat.after 1 t = iblk3 Vv c 1 t) (t : Fin cfg3.N) (d) : dat.before 1 t d = iblk3 Vv c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) (HIx 1) ℕ UU ℕ cfg3 c) (hA : dat.A 2 = Vv c (Pipeline.arrRef spec3 2))
    (hafter : ∀ t, dat.after 2 t = iblk3 Vv c 2 t) (t : Fin cfg3.N) (d) : dat.before 2 t d = iblk3 Vv c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body reads and writes. -/
abbrev rA3 : Rect S10000x128 := Rect.unit (s := S10000x128) ![0, 0] S10000x128.size inb_S10000x128_S10000x128_0_0
abbrev rB3 : Rect S128x128 := Rect.unit (s := S128x128) ![0, 0] S128x128.size inb_S128x128_S128x128_0_0
/-- Rows [0, 10000) of the 10240-row buffer. -/
abbrev rD3 : Rect S10240x128 := Rect.unit (s := S10240x128) ![0, 0] S10000x128.size inb_S10240x128_S10000x128_0_0

/-- The output window's staging buffer after the body, from the input windows' blocks: its one store. -/
def out3_3 (x0 : Vec F S10000x128 .f32) (x1 : Vec F S10240x128 .f32) (x2 : Vec F S128x128 .f32) : Vec F S10000x128 .f32 :=
  View.canon [⟨rA3, k3_pay1 (View.ld x1 rD3) (View.ld x2 rB3) (View.ld x0 rA3)⟩]

/-- The store covers the buffer. -/
theorem cover3_3 (p0 : Vec F S10000x128 .f32) (y : S10000x128.Idx) :
    ∃ pc ∈ ([⟨rA3, p0⟩] : List (View.Piece (Elt F) S10000x128 .f32)), y ∈ pc.1.set :=
  View.cover_of_tiled [⟨rA3, p0⟩] S10000x128.size (by rfl) y

set_option maxHeartbeats 1000000 in
/-- The body on whole staging memrefs, the inputs' at contents `x0 x1 x2` and the output's at anything, leaves the
    inputs' as they were and the output's at `out3_3` of them. -/
theorem sound_kernel3 (c : Dev nD) (E : Set ℕ) (arg0 : Memref sig .tc .vmem S10000x128 .f32) (harg0 : arg0.IsWhole)
    (arg1 : Memref sig .tc .vmem S10240x128 .f32) (harg1 : arg1.IsWhole) (arg2 : Memref sig .tc .vmem S128x128 .f32) (harg2 : arg2.IsWhole)
    (arg3 : Memref sig .tc .vmem S10000x128 .f32) (harg3 : arg3.IsWhole)
    (x0 : Vec F S10000x128 .f32) (x1 : Vec F S10240x128 .f32) (x2 : Vec F S128x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ Kk ⟨⟩))
      ⊢ wp frame (wpE (defs₀ (F := F)) Variants.none c none) E (cc3__tc_post_body arg0 harg0 arg1 harg1 arg2 harg2 arg3 harg3) Kk := by
  simp only [cc3__tc_post_body_eq_skeleton]; unfold cc3__tc_post_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

variable (n : ℕ)

/-- The proof data of the pipeline on device `c` before SparseCore call `n`: the arrays as the region finds them; after
    the body each input's buffer at its block and the output's at its one store; the invariant the scoped buffers no
    window stages and the generator register; full shares; the TensorCore owing the launch protocol its start signals
    throughout, its recorded waits at or below level `8 n`. -/
def dat3 (c : Dev nD) : Dat τ (Elt F) (HIx 1) ℕ UU ℕ cfg3 c where
  A w := Vv c (Pipeline.arrRef spec3 w)
  after w t := match w with
    | ⟨0, _⟩ => iblk3 Vv c 0 t
    | ⟨1, _⟩ => iblk3 Vv c 1 t
    | ⟨2, _⟩ => iblk3 Vv c 2 t
    | ⟨3, _⟩ => out3_3 (iblk3 Vv c 0 t) (iblk3 Vv c 1 t) (iblk3 Vv c 2 t)
  Φ _ := iprop(Pipeline.scopedRest spec3 c ∗ ∃ r, prngReg c r)
  q _ := fullShare
  owed _ := (K (F := F)).Otc c n
  recorded _ := {p | (K (F := F)).lev ((c : Thread nD τ), p.1) p.2 ≤ 8 * n}

theorem A_eq3 (c : Dev nD) (w : Fin cfg3.W) : (dat3 Vv n c).A w = Vv c (Pipeline.arrRef spec3 w) := by
  dsimp only [dat3]
theorem after3_0 (c : Dev nD) (t : Fin cfg3.N) : (dat3 Vv n c).after 0 t = iblk3 Vv c 0 t := by dsimp only [dat3]
theorem after3_1 (c : Dev nD) (t : Fin cfg3.N) : (dat3 Vv n c).after 1 t = iblk3 Vv c 1 t := by dsimp only [dat3]
theorem after3_2 (c : Dev nD) (t : Fin cfg3.N) : (dat3 Vv n c).after 2 t = iblk3 Vv c 2 t := by dsimp only [dat3]
theorem after3_3 (c : Dev nD) (t : Fin cfg3.N) :
    (dat3 Vv n c).after 3 t = out3_3 (iblk3 Vv c 0 t) (iblk3 Vv c 1 t) (iblk3 Vv c 2 t) := by dsimp only [dat3]

theorem before3_0 (c : Dev nD) (t : Fin cfg3.N) (d) : (dat3 Vv n c).before 0 t d = iblk3 Vv c 0 t :=
  before3_0_of Vv (dat3 Vv n c) (A_eq3 Vv n c 0) (after3_0 Vv n c) t d
theorem before3_1 (c : Dev nD) (t : Fin cfg3.N) (d) : (dat3 Vv n c).before 1 t d = iblk3 Vv c 1 t :=
  before3_1_of Vv (dat3 Vv n c) (A_eq3 Vv n c 1) (after3_1 Vv n c) t d
theorem before3_2 (c : Dev nD) (t : Fin cfg3.N) (d) : (dat3 Vv n c).before 2 t d = iblk3 Vv c 2 t :=
  before3_2_of Vv (dat3 Vv n c) (A_eq3 Vv n c 2) (after3_2 Vv n c) t d

/-! ## The body obligation -/

/-- What the body is called with at the point, -/
def bodyPre3 (c : Dev nD) (t : Fin cfg3.N) : sProp 𝕄 :=
  iprop((dat3 Vv n c).Φ t.castSucc ∗ (dat3 Vv n c).owesAt none t.castSucc
    ∗ (∃ d, owns (c : Thread nD τ) (st3_0 t) fullShare ((dat3 Vv n c).before 0 t d))
    ∗ (∃ d, owns (c : Thread nD τ) (st3_1 t) fullShare ((dat3 Vv n c).before 1 t d))
    ∗ (∃ d, owns (c : Thread nD τ) (st3_2 t) fullShare ((dat3 Vv n c).before 2 t d))
    ∗ (∃ d, owns (c : Thread nD τ) (st3_3 t) fullShare ((dat3 Vv n c).before 3 t d)))

/-- and what it returns. -/
def bodyPost3 (c : Dev nD) (t : Fin cfg3.N) : sProp 𝕄 :=
  iprop((dat3 Vv n c).Φ t.succ ∗ (dat3 Vv n c).owesAt none t.succ
    ∗ owns (c : Thread nD τ) (st3_0 t) fullShare ((dat3 Vv n c).after 0 t)
    ∗ owns (c : Thread nD τ) (st3_1 t) fullShare ((dat3 Vv n c).after 1 t)
    ∗ owns (c : Thread nD τ) (st3_2 t) fullShare ((dat3 Vv n c).after 2 t)
    ∗ owns (c : Thread nD τ) (st3_3 t) fullShare ((dat3 Vv n c).after 3 t))

theorem sound_body3 (c : Dev nD) (t : Fin cfg3.N) :
    bodyPre3 Vv n c t ⊢ wp frame (wpE (defs₀ (F := F)) Variants.none c none) Set.univ (bodyAt3 t) (fun _ => bodyPost3 Vv n c t) := by
  unfold bodyPre3 bodyPost3 bodyAt3
  simp only [before3_0, before3_1, before3_2]
  rw [show (dat3 Vv n c).Φ t.succ = (dat3 Vv n c).Φ t.castSucc from rfl,
    show (dat3 Vv n c).owesAt none t.succ = (dat3 Vv n c).owesAt none t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ (iblk3 Vv c 0 t) (iblk3 Vv c 1 t) (iblk3 Vv c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) Vv n c) (defs₀ (F := F)) Variants.none none Set.univ := fun t => by
  rw [bigSep_W3, bigSep_W3]
  exact sound_body3 Vv n c t

/-! ## What the output array holds after the run -/

/-- A window that is its whole array reads the array. -/
theorem iblk3_0 (c : Dev nD) (t : Fin cfg3.N) : iblk3 Vv c 0 t = Vv c main_v11 := by
  funext y
  have hy : ((cfg3.win 0).blk t).view.emb y = y := by
    funext a; apply Fin.ext
    exact Pipeline.Window.rect_emb_val_of_index_zero (cfg3.win 0) t a rfl y
  unfold iblk3
  rw [View.read_apply, hy]
  rfl
theorem iblk3_1 (c : Dev nD) (t : Fin cfg3.N) : iblk3 Vv c 1 t = Vv c main_v12 := by
  funext y
  have hy : ((cfg3.win 1).blk t).view.emb y = y := by
    funext a; apply Fin.ext
    exact Pipeline.Window.rect_emb_val_of_index_zero (cfg3.win 1) t a rfl y
  unfold iblk3
  rw [View.read_apply, hy]
  rfl
theorem iblk3_2 (c : Dev nD) (t : Fin cfg3.N) : iblk3 Vv c 2 t = Vv c main_v13 := by
  funext y
  have hy : ((cfg3.win 2).blk t).view.emb y = y := by
    funext a; apply Fin.ext
    exact Pipeline.Window.rect_emb_val_of_index_zero (cfg3.win 2) t a rfl y
  unfold iblk3
  rw [View.read_apply, hy]
  rfl

/-- The one store, through the whole buffer, leaves its payload; a load through a whole buffer reads it. -/
theorem out3_3_eq (x0 : Vec F S10000x128 .f32) (x1 : Vec F S10240x128 .f32) (x2 : Vec F S128x128 .f32) :
    out3_3 x0 x1 x2 = k3_pay1 (View.ld x1 rD3) x2 x0 := by
  unfold out3_3
  rw [View.canon_unit_zero zero2, View.ld_unit_zero zero2, View.ld_unit_zero zero2]

/-- The output array after the run: the payload of the arrays as entered. -/
theorem arrAt3_3 (c : Dev nD) :
    (dat3 Vv n c).arrAt 3 cfg3.N = k3_pay1 (View.ld (Vv c main_v12) rD3) (Vv c main_v13) (Vv c main_v11) := by
  refine (dat3 Vv n c).arrAt_eq_of_cover 3 _ (fun t _ => ?_) (fun i => ⟨t3_0, flush3_3 _, ?_⟩)
  · funext y
    have hy : ((cfg3.win 3).blk t).view.emb y = y := by
      funext a; apply Fin.ext
      exact Pipeline.Window.rect_emb_val_of_index_zero (cfg3.win 3) t a rfl y
    show (dat3 Vv n c).after 3 t y = _root_.cast _ (k3_pay1 (View.ld (Vv c main_v12) rD3) (Vv c main_v13) (Vv c main_v11) (((cfg3.win 3).blk t).view.emb y))
    rw [hy, after3_3, out3_3_eq, iblk3_0, iblk3_1, iblk3_2]; rfl
  · have hy : ((cfg3.win 3).blk t3_0).view.emb i = i := by
      funext a; apply Fin.ext
      exact Pipeline.Window.rect_emb_val_of_index_zero (cfg3.win 3) t3_0 a rfl i
    rw [← hy]; exact View.emb_mem_set _ _

/-! ## The region as a segment -/

/-- The family of proof data the region runs under: its own at its pipeline, idle data at the others. -/
def pdats3 : (p : Fin 3) → (c : Dev nD) → Dat τ (Elt F) (HIx 1) ℕ UU ℕ (Pipeline.pin (pcfgs (F := F)) adm p) c
  | ⟨0, _⟩ => fun c => idle0 Vv c
  | ⟨1, _⟩ => fun c => idle1 Vv c
  | ⟨2, _⟩ => fun c => dat3 Vv n c

end Region3

section Seg3

variable (Wv : Valuation τ sig (Elt F)) (n : ℕ)

/-- The entry contents at the TensorCore's references. -/
abbrev V3 : (c : Dev nD) → (b : Ref sig .tc) → Buf (Elt F) ((c : Thread nD τ).loc b) := fun _ b => Wv b

/-- The contents at the region's exit: its arrays at what the pipeline leaves, every other buffer as entered. -/
def W3' (c : Dev nD) : Valuation τ sig (Elt F) :=
  Pipeline.withArrays spec3 c Wv fun w => (dat3 (V3 Wv) n c).arrAt w cfg3.N
theorem W3'_arr (c : Dev nD) (w : Fin cfg3.W) :
    W3' Wv n c (Proc.devRef .tc (Pipeline.arrRef spec3 w)) = (dat3 (V3 Wv) n c).arrAt w cfg3.N := by
  unfold W3'; exact Pipeline.withArrays_arr spec3 launch3.win.arr_inj c _ _ w
theorem W3'_of_ne (c : Dev nD) (b : Ref sig .tc) (hb : ∀ w, Pipeline.arrRef spec3 w ≠ b) :
    W3' Wv n c (Proc.devRef .tc b) = Wv (Proc.devRef .tc b) := by
  unfold W3'; exact Pipeline.withArrays_of_ne spec3 c _ _ b hb
abbrev V3' : (c : Dev nD) → (b : Ref sig .tc) → Buf (Elt F) ((c : Thread nD τ).loc b) := fun c b => W3' Wv n c b
theorem hF3 (c : Dev nD) (w : Fin cfg3.W) : (dat3 (V3 Wv) n c).arrAt w cfg3.N = V3' Wv n c (Pipeline.arrRef spec3 w) :=
  (W3'_arr Wv n c w).symm
theorem hrest3 (c : Dev nD) : ∀ b, b ∉ Finset.univ.image (Pipeline.arrRef spec3) → V3' Wv n c b = V3 Wv c b :=
  fun b hb => W3'_of_ne Wv n c b fun w e => hb (Finset.mem_image.mpr ⟨w, Finset.mem_univ _, e⟩)

set_option backward.isDefEq.respectTransparency.types false in
/-- The pallas_call over the thread state: entered from every unscoped buffer at `Wv`, left at `W3'`; the generator
    register into the invariant and out; the start signals owed throughout, the recorded waits kept at or below `8 n`. -/
def reg3 : Pipeline.RegionSeg (pcfgs (F := F)) adm (pdats3 (V3 Wv) n) none defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation3 (V3 Wv) n c).loose
  hwaits c := Pipeline.cellsWaits_intro (Pipeline.pin (pcfgs (F := F)) adm) (pdats3 (V3 Wv) n) none 2 c fun w s t =>
    (K (F := F)).mayWait_none _ (fun g => Otc_none c n g)
  pre c := iprop(held (c : Thread nD τ) UC Wv ∗ Rest c n)
  post c := iprop(held (c : Thread nD τ) UC (W3' Wv n c) ∗ Rest c n)
  X c := iprop(∃ r, prngReg c r)
  Y c := iprop(∃ r, prngReg c r)
  Z c := Pipeline.unscopedRest (Ix := HIx 1) (Name := ℕ) (U := UU) (Lvl := ℕ) spec3 c (V3 Wv c)
  hentry c := by
    rw [Pipeline.ownSems0_none]
    have hsplit := Pipeline.arrays_of_unscopedBufs (p := 2) (pcfgs (F := F)) adm (pdats3 (V3 Wv) n) launch3.win launch3.arr_whole c
      ((pdats3 (V3 Wv) n 2 c).share_full fun _ => rfl) (V3 Wv c) fun _ => rfl
    rw [Pipeline.unscopedBufs_held] at hsplit
    unfold Rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (pdats3 (V3 Wv) n 2 c).Φ 0 = iprop(Pipeline.scopedRest spec3 c ∗ ∃ r, prngReg c r) from rfl]
    iintro ⟨Hp, -, Hr⟩
    isplitl [Hr]; · iexact Hr
    iexact Hp
  hout c := by
    rw [Pipeline.ownSems0_none, show (pdats3 (V3 Wv) n 2 c).Φ (Fin.last _) = iprop(Pipeline.scopedRest spec3 c ∗ ∃ r, prngReg c r) from rfl]
    iintro ⟨Hr, Hp⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats3 (V3 Wv) n) ((pdats3 (V3 Wv) n 2 c).share_full fun _ => rfl)
      (V3 Wv c) (V3' Wv n c) ((pdats3 (V3 Wv) n 2 c).arrAt · cfg3.N) (hF3 Wv n c) (hrest3 Wv n c)
    rw [Pipeline.unscopedBufs_held] at hjoin
    unfold Rest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

end Seg3

/-- What the region leaves: every unscoped buffer but its output as entered; the output at the body's payload of the
    inputs as entered. -/
def Exit3 (Wv Wv' : Valuation τ sig (Elt F)) : Prop :=
  (∀ b ∈ UC, b ≠ Proc.devRef .tc main_v14 → Wv' b = Wv b)
    ∧ Wv' (Proc.devRef .tc main_v14) = k3_pay1 (View.ld (Wv (Proc.devRef .tc main_v12)) rD3) (Wv (Proc.devRef .tc main_v13)) (Wv (Proc.devRef .tc main_v11))

/-- The exit contents are as `Exit3` says. -/
theorem exit3 (Wv : Valuation τ sig (Elt F)) (n : ℕ) (d : Dev nD) : Exit3 Wv (W3' Wv n d) := by
  refine ⟨fun b hb hne => ?_, ?_⟩
  · obtain ⟨b', -, rfl⟩ := Finset.mem_map.mp (Finset.mem_filter.mp hb).1
    by_cases h : ∃ w, Pipeline.arrRef spec3 w = b'
    · obtain ⟨w, rfl⟩ := h
      show W3' Wv n d (Proc.devRef .tc (Pipeline.arrRef spec3 w)) = _
      rw [W3'_arr]
      fin_cases w
      · exact ((dat3 (V3 Wv) n d).arrAt_in 0 rfl _).trans (A_eq3 (V3 Wv) n d 0)
      · exact ((dat3 (V3 Wv) n d).arrAt_in 1 rfl _).trans (A_eq3 (V3 Wv) n d 1)
      · exact ((dat3 (V3 Wv) n d).arrAt_in 2 rfl _).trans (A_eq3 (V3 Wv) n d 2)
      · exact absurd rfl hne
    · exact W3'_of_ne Wv n d b' fun w e => h ⟨w, e⟩
  · exact (W3'_arr Wv n d 3).trans (arrAt3_3 (V3 Wv) n d)

set_option backward.isDefEq.respectTransparency.types false in
set_option maxHeartbeats 1000000 in
/-- The pallas_call entered inside the SparseCore program: the region's step in the pipelines' signature, lifted to the
    extended body table. -/
theorem region3 : RegionSpec (F := F) 2 1 Exit3 := by
  unfold RegionSpec
  intro d Wv Φ
  have hwp := Pipeline.RegionSeg.wp (pcfgs (F := F)) adm (pdats3 (V3 Wv) 1) none cellOf_inj EP defs₀ 𝒱₀ (K (F := F)).L (K (F := F)).lev
    (reg3 Wv 1) d none (fun _ h => by cases h) (fun _ => .ret ⟨⟩) Φ
  rw [show (reg3 Wv 1).post d = iprop(held (d : Thread nD τ) UC (W3' Wv 1 d) ∗ Rest d 1) from rfl,
    show (reg3 Wv 1).pre d = iprop(held (d : Thread nD τ) UC Wv ∗ Rest d 1) from rfl] at hwp
  have hlift := ((K (F := F)).wp_liftProg (D (F := F)) 𝒱 (T d) Set.univ none (.op (.customCall (Pipeline.entry 2) ()) fun _ => .ret ⟨⟩) Φ)
  have hlift' : (wp Idealize.ShloMosaic.frame (wpE (D (F := F)) 𝒱 (SparseCore.T d) none) Set.univ
        (Prog.op (TpuEff.customCall (Pipeline.entry 2) ()) fun x => Prog.ret PUnit.unit)) Φ ⊢
    (wp Idealize.ShloMosaic.frame (wpE ((K (F := F)).defs D) 𝒱 (SparseCore.T d) none) Set.univ
        (Prog.lift (TpuEff.customCall (SparseCore.inner (Pipeline.entry 2)) ()))) Φ := hlift
  refine BIBase.Entails.trans ?_ hlift'
  refine BIBase.Entails.trans ?_ hwp
  have hexit : Exit3 Wv (W3' Wv 1 d) := exit3 Wv 1 d
  iintro ⟨Hlev, Hbd, Hheld, Hrest, ⟨Hg, Ht⟩, Hk⟩
  isplitl [Hk]
  · iintro ⟨Hbd, Hheld, Hrest⟩
    rw [wp_ret]; imodintro
    iapply Hk $$ %(W3' Wv 1 d) %hexit
    isplitl [Hbd]; · iexact Hbd
    isplitl [Hheld]; · iexact Hheld
    iexact Hrest
  isplitl [Hbd]; · iexact Hbd
  isplitl [Hheld Hrest]
  · isplitl [Hheld]; · iexact Hheld
    iexact Hrest
  isplitl [Hlev]; · iexact Hlev
  isplitl [Hg]; · iexact Hg
  iexact Ht

end Cert.Kernel.Hand

end
-- ==== Proof.KB.Assemble.lean ====
/-
  The run's relations made concrete: what the SparseCore call is handed and hands back in terms of the tiles'
  payloads, that no stretch of @main, no region and no call writes an argument array, and the kernel's frame.
-/
import proofs.«208586_g21955872817707_cont_8to1_688_77_alg».proof.Proof.KB.Launch
import proofs.«208586_g21955872817707_cont_8to1_688_77_alg».proof.Proof.KB.TileSplit
import proofs.«208586_g21955872817707_cont_8to1_688_77_alg».proof.Proof.KB.TileKits
import proofs.«208586_g21955872817707_cont_8to1_688_77_alg».proof.Proof.KB.Regions1
import proofs.«208586_g21955872817707_cont_8to1_688_77_alg».proof.Proof.KB.Regions3

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

-- whether the tiles' results are claimed at their values (`True`) or only held (`False`)
variable (v : Prop)

local notation "𝕄" => MT nD τ sig (HIx 1) (Elt F) ℕ UU ℕ

abbrev dv (b : Ref sig .tc) : DevRef τ sig := Proc.devRef .tc b

/-! ## What each host stretch writes -/

theorem hostOps0a_writes : (hostOps0a : List (HloOp τ sig (Elt F))).Forall fun op => op.writes ⊆ (([main_v0, main_v1, main_v2, main_v3, main_v4, main_c] : List (Ref sig .tc)).map (Proc.devRef (τ := τ) .tc)).toFinset := by
  simp only [List.Forall]
  repeat' constructor
  all_goals (simp only [StableHlo.nullary_writes, StableHlo.unary_writes, StableHlo.binary_writes, StableHlo.reshape_writes, Finset.singleton_subset_iff, List.mem_toFinset]; exact List.mem_map_of_mem (by decide))
theorem hostOps0b_writes : (hostOps0b : List (HloOp τ sig (Elt F))).Forall fun op => op.writes ⊆ (([main_call0_v0, main_v5] : List (Ref sig .tc)).map (Proc.devRef (τ := τ) .tc)).toFinset := by
  simp only [List.Forall]
  repeat' constructor
  all_goals (simp only [StableHlo.nullary_writes, StableHlo.unary_writes, StableHlo.binary_writes, StableHlo.reshape_writes, Finset.singleton_subset_iff, List.mem_toFinset]; exact List.mem_map_of_mem (by decide))
theorem hostOps0c_writes : (hostOps0c : List (HloOp τ sig (Elt F))).Forall fun op => op.writes ⊆ (([main_v6, main_v7] : List (Ref sig .tc)).map (Proc.devRef (τ := τ) .tc)).toFinset := by
  simp only [List.Forall]
  repeat' constructor
  all_goals (simp only [StableHlo.nullary_writes, StableHlo.unary_writes, StableHlo.binary_writes, StableHlo.reshape_writes, Finset.singleton_subset_iff, List.mem_toFinset]; exact List.mem_map_of_mem (by decide))
theorem hostOps1_writes : (hostOps1 : List (HloOp τ sig (Elt F))).Forall fun op => op.writes ⊆ (([main_v9, main_v10] : List (Ref sig .tc)).map (Proc.devRef (τ := τ) .tc)).toFinset := by
  simp only [List.Forall]
  repeat' constructor
  all_goals (simp only [StableHlo.nullary_writes, StableHlo.unary_writes, StableHlo.binary_writes, StableHlo.reshape_writes, Finset.singleton_subset_iff, List.mem_toFinset]; exact List.mem_map_of_mem (by decide))
theorem hostOps2_writes : (hostOps2 : List (HloOp τ sig (Elt F))).Forall fun op => op.writes ⊆ (([main_v13] : List (Ref sig .tc)).map (Proc.devRef (τ := τ) .tc)).toFinset := by
  simp only [List.Forall]
  repeat' constructor
  all_goals (simp only [StableHlo.nullary_writes, StableHlo.unary_writes, StableHlo.binary_writes, StableHlo.reshape_writes, Finset.singleton_subset_iff, List.mem_toFinset]; exact List.mem_map_of_mem (by decide))
theorem hostOps3_writes : (hostOps3 : List (HloOp τ sig (Elt F))).Forall fun op => op.writes ⊆ (([main_v15, main_v16] : List (Ref sig .tc)).map (Proc.devRef (τ := τ) .tc)).toFinset := by
  simp only [List.Forall]
  repeat' constructor
  all_goals (simp only [StableHlo.nullary_writes, StableHlo.unary_writes, StableHlo.binary_writes, StableHlo.reshape_writes, Finset.singleton_subset_iff, List.mem_toFinset]; exact List.mem_map_of_mem (by decide))

variable (m : (ℓ : Loc nD τ sig) → Buf (Elt F) ℓ) (ρ : Dev nD → PrngReg)

/-- A buffer the host operations before the first pallas_call do not write is as launched. -/
theorem W1_of (d : Dev nD) (r : Ref sig .tc)
    (h : r ∉ ([main_v0, main_v1, main_v2, main_v3, main_v4, main_c, main_call0_v0, main_v5, main_v6, main_v7] : List (Ref sig .tc))) :
    W1 m d (dv r) = m (d, dv r) := by
  have ha : r ∉ ([main_v0, main_v1, main_v2, main_v3, main_v4, main_c] : List (Ref sig .tc)) := fun hm => h (by simp only [List.mem_cons] at hm ⊢; tauto)
  have hb : r ∉ ([main_call0_v0, main_v5] : List (Ref sig .tc)) := fun hm => h (by simp only [List.mem_cons] at hm ⊢; tauto)
  have hc : r ∉ ([main_v6, main_v7] : List (Ref sig .tc)) := fun hm => h (by simp only [List.mem_cons] at hm ⊢; tauto)
  show StableHlo.after hostOps0c (StableHlo.after hostOps0b (StableHlo.after hostOps0a (W0 m d))) (dv r) = _
  rw [StableHlo.after_of_writes_sub hostOps0c _ hostOps0c_writes hc, StableHlo.after_of_writes_sub hostOps0b _ hostOps0b_writes hb,
    StableHlo.after_of_writes_sub hostOps0a _ hostOps0a_writes ha]

/-! ## The SparseCore call's operands -/

/-- The padded index array, a function of the launch memory: what the host operations leave in `main_v6`. -/
def Iarr (d : Dev nD) : Buf (Elt F) (iLoc d) := W1 m d (dv main_v6)

/-- The first 10000 rows of z, a function of the launch memory: the first pallas_call's payload of what the host
    operations leave in its operands. -/
def Zf0 (d : Dev nD) : S10000x128.Idx → Elt F .f32 := k0_pay1 (W1 m d (dv main_v1)) (W1 m d (dv main_arg2)) (W1 m d (dv main_v7))

/-- The six argument arrays. -/
abbrev Args : List (Ref sig .tc) := [main_arg0, main_arg1, main_arg2, main_arg3, main_arg4, main_arg5]
/-- The argument arrays hold their launch contents. -/
def ArgsKept (d : Dev nD) (W : Valuation τ sig (Elt F)) : Prop := ∀ r ∈ Args, W (dv r) = m (d, dv r)

/-- What the buffers hold when the SparseCore call is made: the index array as computed, z's first 10000 rows as computed. -/
def PreCall (d : Dev nD) (Wc : Valuation τ sig (Elt F)) : Prop :=
  Wc (dv main_v6) = Iarr m d ∧ ZOn (Zf0 m d) Finset.univ (Wc (dv main_v8)) ∧ ArgsKept m d Wc

/-- What they hold after it: z and the indices as before, the maxima's array at the two SparseCores' results, all else kept. -/
def PostCall (d : Dev nD) (Wv Wv' : Valuation τ sig (Elt F)) : Prop :=
  Wv' (dv main_v6) = Wv (dv main_v6) ∧ ZOn (Zf0 m d) Finset.univ (Wv' (dv main_v8))
    ∧ (MaxSpec v (Zf0 m d) (Iarr m d) 0 (Wv' (dv main_v12)) ∧ MaxSpec v (Zf0 m d) (Iarr m d) 1 (Wv' (dv main_v12)))
    ∧ ∀ b, b ≠ dv main_v8 → b ≠ dv main_v12 → Wv' b = Wv b

/-! ## The call's operands as the two SparseCores' payloads, and back -/

omit [FloatOps F] in
theorem held_C3 (d : Dev nD) (Wv : Valuation τ sig (Elt F)) :
    (held (SparseCore.T d) C3 Wv : sProp 𝕄)
      = iprop((zLoc d ↦{fullShare} Wv (dv main_v8)) ∗ (iLoc d ↦{fullShare} Wv (dv main_v6)) ∗ (mLoc d ↦{fullShare} Wv (dv main_v12))) := by
  unfold StableHlo.held C3
  rw [SparseCore.bigSep_insert' (by decide), SparseCore.bigSep_insert' (by decide), bigSep_singleton]

variable (Zf : S10000x128.Idx → Elt F .f32) (I : (d : Dev nD) → Buf (Elt F) (iLoc d))

theorem st_two (d : Dev nD) :
    (bigSep Finset.univ fun c : Fin ((K (F := F)).nCore 0) => (P v Zf I).st 0 d c) = iprop(stC Zf I d 0 ∗ stC Zf I d 1) := by
  show (bigSep (Finset.univ : Finset (Fin 2)) fun c => stC Zf I d (Fin.cast nCore_zero c)) = _
  rw [show (Finset.univ : Finset (Fin 2)) = {0, 1} by decide, SparseCore.bigSep_insert' (by decide), bigSep_singleton]
  rfl
theorem dn_two (d : Dev nD) :
    (bigSep Finset.univ fun c : Fin ((K (F := F)).nCore 0) => (P v Zf I).dn 0 d c) = iprop(dnC v Zf I d 0 ∗ dnC v Zf I d 1) := by
  show (bigSep (Finset.univ : Finset (Fin 2)) fun c => dnC v Zf I d (Fin.cast nCore_zero c)) = _
  rw [show (Finset.univ : Finset (Fin 2)) = {0, 1} by decide, SparseCore.bigSep_insert' (by decide), bigSep_singleton]
  rfl

omit [FloatOps F] in
theorem dev_eq (d : Dev nD) : d = 0 := Subsingleton.elim _ _

/-- The record of the call's payloads, at the launch memory's z and index array. -/
abbrev PP : (K (F := F)).Pay (nD := nD) (Val := Elt F) (Name := ℕ) (U := UU) := P v (Zf0 m 0) (Iarr m)

theorem hcall (d : Dev nD) (Wv : Valuation τ sig (Elt F)) (hP : PreCall m d Wv) :
    (held (SparseCore.T d) C3 Wv : sProp 𝕄) ⊢ bigSep Finset.univ fun c : Fin ((K (F := F)).nCore 0) => (PP v m).st 0 d c := by
  obtain ⟨hI, hZ, -⟩ := hP
  obtain rfl := dev_eq d
  rw [held_C3, st_two, hI]
  exact toCores (Zf0 m 0) (Iarr m) 0 (Wv (dv main_v8)) hZ (Wv (dv main_v12))

theorem hret (d : Dev nD) (Wv : Valuation τ sig (Elt F)) (hP : PreCall m d Wv) :
    (bigSep Finset.univ fun c : Fin ((K (F := F)).nCore 0) => (PP v m).dn 0 d c)
      ⊢ (iprop(∃ Wv', ⌜PostCall v m d Wv Wv'⌝ ∗ held (SparseCore.T d) C3 Wv') : sProp 𝕄) := by
  obtain ⟨hI, hZ, -⟩ := hP
  obtain rfl := dev_eq d
  rw [dn_two]
  refine (fromCores v (Zf0 m 0) (Iarr m) 0).trans ?_
  iintro ⟨⟨%Z, %hZ', Hz⟩, Hi, ⟨%Mf, %hM, Hm⟩⟩
  iexists (Function.update (Function.update Wv (dv main_v8) Z) (dv main_v12) Mf)
  have e8 : (Function.update (Function.update Wv (dv main_v8) Z) (dv main_v12) Mf) (dv main_v8) = Z := by
    rw [Function.update_of_ne (show dv main_v8 ≠ dv main_v12 by decide), Function.update_self]
  have e6 : (Function.update (Function.update Wv (dv main_v8) Z) (dv main_v12) Mf) (dv main_v6) = Wv (dv main_v6) := by
    rw [Function.update_of_ne (show dv main_v6 ≠ dv main_v12 by decide), Function.update_of_ne (show dv main_v6 ≠ dv main_v8 by decide)]
  have e12 : (Function.update (Function.update Wv (dv main_v8) Z) (dv main_v12) Mf) (dv main_v12) = Mf := Function.update_self _ _ _
  isplitr
  · ipureintro
    refine ⟨e6, ?_, ?_, fun b h8 h12 => ?_⟩
    · rw [e8]; exact hZ'
    · rw [e12]; exact hM
    · rw [Function.update_of_ne h12, Function.update_of_ne h8]
  rw [held_C3, e8, e6, e12, hI]
  isplitl [Hz]; · iexact Hz
  isplitl [Hi]; · iexact Hi
  iexact Hm

theorem hpostC3 (d : Dev nD) (Wv Wv' : Valuation τ sig (Elt F)) (h : PostCall v m d Wv Wv') : ∀ b ∈ UC \ C3, Wv' b = Wv b := by
  intro b hb
  have hb' := (Finset.mem_sdiff.mp hb).2
  refine h.2.2.2 b (fun e => hb' ?_) (fun e => hb' ?_)
  · rw [e]; decide
  · rw [e]; decide

/-! ## From the regions' exits to the call's precondition -/

omit [FloatOps F] in
theorem rD3_idx (y : S10000x128.Idx) : (rD3 : Rect S10240x128).idx y = emb y := by
  funext a; apply Fin.ext
  rw [LoadRect.idx_apply]
  match a with
  | 0 => show 0 + 1 * (y 0).val = (y 0).val; omega
  | 1 => show 0 + 1 * (y 1).val = (y 1).val; omega

theorem after1_of (Wa : Valuation τ sig (Elt F)) (r : Ref sig .tc) (h : r ∉ ([main_v9, main_v10] : List (Ref sig .tc))) :
    StableHlo.after hostOps1 Wa (dv r) = Wa (dv r) := StableHlo.after_of_writes_sub hostOps1 _ hostOps1_writes h
theorem after2_of (Wa : Valuation τ sig (Elt F)) (r : Ref sig .tc) (h : r ∉ ([main_v13] : List (Ref sig .tc))) :
    StableHlo.after hostOps2 Wa (dv r) = Wa (dv r) := StableHlo.after_of_writes_sub hostOps2 _ hostOps2_writes h
theorem after3_of (Wa : Valuation τ sig (Elt F)) (r : Ref sig .tc) (h : r ∉ ([main_v15, main_v16] : List (Ref sig .tc))) :
    StableHlo.after hostOps3 Wa (dv r) = Wa (dv r) := StableHlo.after_of_writes_sub hostOps3 _ hostOps3_writes h

omit [FloatOps F] in
theorem dv_mem_UC (r : Ref sig .tc) (h : ¬ (dv r : DevRef τ sig).isScoped) : dv r ∈ (UC : Finset (DevRef τ sig)) :=
  Finset.mem_filter.mpr ⟨StableHlo.devRef_mem_tcRefs r, h⟩

section Exits

variable (Exit0 : Valuation τ sig (Elt F) → Valuation τ sig (Elt F) → Prop)
variable (hE0 : ∀ Wv Wv', Exit0 Wv Wv' → (∀ b ∈ UC, b ≠ dv main_v8 → Wv' b = Wv b)
  ∧ View.ld (Wv' (dv main_v8)) rD3 = k0_pay1 (Wv (dv main_v1)) (Wv (dv main_arg2)) (Wv (dv main_v7)))

include hE0 in
theorem hpre (d : Dev nD) (Wa Wb Wc : Valuation τ sig (Elt F)) (h0 : Exit0 (W1 m d) Wa) (hb : Wb = StableHlo.after hostOps1 Wa)
    (h1 : Exit1 Wb Wc) : PreCall m d Wc := by
  obtain ⟨k0, v0⟩ := hE0 _ _ h0
  obtain ⟨k1, -⟩ := h1
  subst hb
  have keep : ∀ r : Ref sig .tc, ¬ (dv r : DevRef τ sig).isScoped → r ≠ main_v8 → r ≠ main_v9 → r ≠ main_v10 → r ≠ main_v11 →
      Wc (dv r) = W1 m d (dv r) := fun r hs h8 h9 h10 h11 => by
    rw [k1 (dv r) (dv_mem_UC r hs) (StableHlo.devRef_ne_of_ne h11), after1_of Wa r (by simp only [List.mem_cons, List.not_mem_nil, or_false]; tauto),
      k0 (dv r) (dv_mem_UC r hs) (StableHlo.devRef_ne_of_ne h8)]
  refine ⟨keep main_v6 (by decide) (by decide) (by decide) (by decide) (by decide), ?_, fun r hr => ?_⟩
  · intro y _
    rw [k1 (dv main_v8) (dv_mem_UC main_v8 (by decide)) (by decide), after1_of Wa main_v8 (by decide)]
    have := congrFun v0 y
    rw [← rD3_idx y]
    exact this
  · simp only [Args, List.mem_cons, List.not_mem_nil, or_false] at hr
    rcases hr with rfl | rfl | rfl | rfl | rfl | rfl <;>
      exact (keep _ (by decide) (by decide) (by decide) (by decide) (by decide)).trans (W1_of m d _ (by decide))

include hE0 in
/-- No stretch of @main, no region and no call writes an argument array. -/
theorem hfinF (d : Dev nD) (Wa Wb Wc Wd We Wf Wg : Valuation τ sig (Elt F)) (h0 : Exit0 (W1 m d) Wa) (hb : Wb = StableHlo.after hostOps1 Wa)
    (h1 : Exit1 Wb Wc) (hp : PostCall v m d Wc Wd) (he : We = StableHlo.after hostOps2 Wd) (h3 : Exit3 We Wf)
    (hg : Wg = StableHlo.after hostOps3 Wf) : ArgsKept m d Wg := by
  have hP := hpre m Exit0 hE0 d Wa Wb Wc h0 hb h1
  obtain ⟨k3, -⟩ := h3
  subst he hg
  intro r hr
  have hm := hP.2.2 r hr
  simp only [Args, List.mem_cons, List.not_mem_nil, or_false] at hr
  rcases hr with rfl | rfl | rfl | rfl | rfl | rfl <;>
    (rw [after3_of Wf _ (by decide), k3 _ (dv_mem_UC _ (by decide)) (by decide), after2_of Wd _ (by decide),
      hp.2.2.2 _ (by decide) (by decide)]; exact hm)

include hE0 in
/-- THE KERNEL'S RUN: from any memory with zero counters, every weakly fair execution of the TensorCore's @main, the
    sequencers and the tiles terminates, nothing faulting, and every final memory holds the six argument arrays as launched. -/
theorem kernel_run [∀ e, Nonempty (Elt F e)]
    (region0 : RegionSpec (F := F) 0 0 Exit0)
    (htile : (K (F := F)).TileObl (D (F := F)) 𝒱 (PP v m) v₀ 0) :
    θ_run (Cert.Kernel.defs (F := F)) (Cert.Kernel.threads (F := F)) ⟨m, fun _ => 0, ρ⟩
      (fun r => ∀ d : Dev nD, ∃ Wn, ArgsKept m d Wn ∧ ∀ b ∈ UC, r.2.mem ((d, b) : Loc nD τ sig) = Wn b) :=
  run_of m ρ (PP v m) (ArgsKept m) Exit0 Exit1 Exit3 (PreCall m) (PostCall v m) rfl (initOf bCells bToks) htile
    (vecSplit v (Zf0 m 0) (Iarr m)) (kits v (Zf0 m 0) (Iarr m)) region0 region1 region3
    (hpre m Exit0 hE0) (hcall v m) (hret v m) (hpostC3 v m) (hfinF v m Exit0 hE0)

/-- What a final valuation is: the end of the chain of relations @main's items establish from the launch memory. -/
def Chain (d : Dev nD) (Wg : Valuation τ sig (Elt F)) : Prop :=
  ∃ Wa Wb Wc Wd We Wf, Exit0 (W1 m d) Wa ∧ Wb = StableHlo.after hostOps1 Wa ∧ Exit1 Wb Wc ∧ PostCall v m d Wc Wd
    ∧ We = StableHlo.after hostOps2 Wd ∧ Exit3 We Wf ∧ Wg = StableHlo.after hostOps3 Wf

include hE0 in
theorem chain_args {d : Dev nD} {Wg : Valuation τ sig (Elt F)} (h : Chain v m Exit0 d Wg) : ArgsKept m d Wg := by
  obtain ⟨Wa, Wb, Wc, Wd, We, Wf, h0, hb, h1, hp, he, h3, hg⟩ := h
  exact hfinF v m Exit0 hE0 d Wa Wb Wc Wd We Wf Wg h0 hb h1 hp he h3 hg

include hE0 in
/-- THE KERNEL'S RUN, with the values: every final memory's unscoped buffers are the end of the chain of relations. -/
theorem kernel_runC [∀ e, Nonempty (Elt F e)]
    (region0 : RegionSpec (F := F) 0 0 Exit0)
    (htile : (K (F := F)).TileObl (D (F := F)) 𝒱 (PP v m) v₀ 0) :
    θ_run (Cert.Kernel.defs (F := F)) (Cert.Kernel.threads (F := F)) ⟨m, fun _ => 0, ρ⟩
      (fun r => ∀ d : Dev nD, ∃ Wn, Chain v m Exit0 d Wn ∧ ∀ b ∈ UC, r.2.mem ((d, b) : Loc nD τ sig) = Wn b) :=
  run_of m ρ (PP v m) (Chain v m Exit0) Exit0 Exit1 Exit3 (PreCall m) (PostCall v m) rfl (initOf bCells bToks) htile
    (vecSplit v (Zf0 m 0) (Iarr m)) (kits v (Zf0 m 0) (Iarr m)) region0 region1 region3
    (hpre m Exit0 hE0) (hcall v m) (hret v m) (hpostC3 v m)
    (fun d Wa Wb Wc Wd We Wf Wg h0 hb h1 hp he h3 hg => ⟨Wa, Wb, Wc, Wd, We, Wf, h0, hb, h1, hp, he, h3, hg⟩)

end Exits

end Cert.Kernel.Hand

end
-- ==== Proof.KB.Regions0.lean ====
/-
  The first TensorCore pallas_call of @main (pipeline 0), entered as a region inside the SparseCore program. Its body
  stores rows [0, 10000) of a 10240-row output block and the write-back moves the whole block, so what the rows beyond
  hold afterwards is whatever the staging buffer held: the proof data are relational — the output window's relation
  says only what rows [0, 10000) hold — and so is what the region's exit states of the output array.
-/
import proofs.«208586_g21955872817707_cont_8to1_688_77_alg».proof.Proof.KB.RegionsLib
import proofs.«208586_g21955872817707_cont_8to1_688_77_alg».proof.Proof.Gen.Kernel.Launch
import proofs.«208586_g21955872817707_cont_8to1_688_77_alg».proof.Proof.Gen.Kernel.Skeleton
import proofs.«208586_g21955872817707_cont_8to1_688_77_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held)

variable {F : FTy → Type} [FloatOps F]

local notation "𝕄" => MT nD τ sig (HIx 1) (Elt F) ℕ UU ℕ

/-! # The first pallas_call (pipeline 0): z = relu(xn · w1ᵀ + b1), stored into rows [0, 10000) of a 10240-row block -/

section Region0

variable (Vv : (c : Dev nD) → (b : Ref sig .tc) → Buf (Elt F) ((c : Thread nD τ).loc b))

/-- Window `w`'s block at the one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-- A window that is its whole array reads the array. -/
theorem iblk0_0 (c : Dev nD) (t : Fin cfg0.N) : iblk0 Vv c 0 t = Vv c main_v1 := by
  funext y
  have hy : ((cfg0.win 0).blk t).view.emb y = y := by
    funext a; apply Fin.ext
    exact Pipeline.Window.rect_emb_val_of_index_zero (cfg0.win 0) t a rfl y
  unfold iblk0
  rw [View.read_apply, hy]
  rfl
theorem iblk0_1 (c : Dev nD) (t : Fin cfg0.N) : iblk0 Vv c 1 t = Vv c main_arg2 := by
  funext y
  have hy : ((cfg0.win 1).blk t).view.emb y = y := by
    funext a; apply Fin.ext
    exact Pipeline.Window.rect_emb_val_of_index_zero (cfg0.win 1) t a rfl y
  unfold iblk0
  rw [View.read_apply, hy]
  rfl
theorem iblk0_2 (c : Dev nD) (t : Fin cfg0.N) : iblk0 Vv c 2 t = Vv c main_v7 := by
  funext y
  have hy : ((cfg0.win 2).blk t).view.emb y = y := by
    funext a; apply Fin.ext
    exact Pipeline.Window.rect_emb_val_of_index_zero (cfg0.win 2) t a rfl y
  unfold iblk0
  rw [View.read_apply, hy]
  rfl

/-- The rectangles the body reads and writes: the inputs' whole buffers; -/
abbrev rA0 : Rect S10000x128 := Rect.unit (s := S10000x128) ![0, 0] S10000x128.size inb_S10000x128_S10000x128_0_0
abbrev rB0 : Rect S128x128 := Rect.unit (s := S128x128) ![0, 0] S128x128.size inb_S128x128_S128x128_0_0
abbrev rC0 : Rect S1x128 := Rect.unit (s := S1x128) ![0, 0] S1x128.size inb_S1x128_S1x128_0_0
/-- rows [0, 10000) of the 10240-row output buffer. -/
abbrev rD0 : Rect S10240x128 := Rect.unit (s := S10240x128) ![0, 0] S10000x128.size inb_S10240x128_S10000x128_0_0

set_option maxHeartbeats 1000000 in
/-- The body on whole staging memrefs, the inputs' at contents `x0 x1 x2` and the output's at anything, leaves the inputs'
    as they were and the output's at contents whose rows [0, 10000) are the payload of the inputs (the other rows are
    whatever the buffer held). -/
theorem sound_kernel0 (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S1x128 .f32) (harg2 : arg2.IsWhole)
    (arg3 : Memref sig .tc .vmem S10240x128 .f32) (harg3 : arg3.IsWhole)
    (x0 : Vec F S10000x128 .f32) (x1 : Vec F S128x128 .f32) (x2 : Vec F S1x128 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ ∃ X : Vec F S10240x128 .f32, ⌜View.ld X rD0 = k0_pay1 x0 x1 x2⌝ ∗ owns (c : Thread nD τ) arg3 fullShare X) -∗ Kk ⟨⟩))
      ⊢ wp frame (wpE (defs₀ (F := F)) Variants.none c none) E (cc0__tc_z_body arg0 harg0 arg1 harg1 arg2 harg2 arg3 harg3) Kk := by
  simp only [cc0__tc_z_body_eq_skeleton]; unfold cc0__tc_z_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _
  isplitr
  swap
  · iexists _; isplitr; swap; · iexact H3
    ipureintro; rfl
  ipureintro
  funext j
  simp only [View.readAt_eq_ld]
  rw [View.ld_unit_zero zero2, View.ld_unit_zero zero2, View.ld_unit_zero zero2]
  exact View.read_writes_cons_emb _ _ _ _ _ j

/-! ## The pipeline's proof data: relational, the output window being only partly stored -/

variable (n : ℕ)

/-- The proof data of the pipeline on device `c` before SparseCore call `n`: the arrays as the region finds them; the body
    leaves each input's buffer as it found it, and the output's at ANY contents whose rows [0, 10000) are the payload of
    the input arrays (the rows beyond are whatever the staging buffer held); the invariant the scoped buffers no window
    stages and the generator register; full shares; the TensorCore owing the launch protocol its start signals throughout,
    its recorded waits at or below level `8 n`. -/
def rdat0 (c : Dev nD) : Pipeline.RDat τ (Elt F) (HIx 1) ℕ UU ℕ cfg0 c where
  A w := Vv c (Pipeline.arrRef spec0 w)
  after w t Y X := match w with
    | ⟨0, _⟩ => X = Y
    | ⟨1, _⟩ => X = Y
    | ⟨2, _⟩ => X = Y
    | ⟨3, _⟩ => View.ld (X : Vec F S10240x128 .f32) rD0 = k0_pay1 (Vv c main_v1) (Vv c main_arg2) (Vv c main_v7)
  Φ _ := iprop(Pipeline.scopedRest spec0 c ∗ ∃ r, prngReg c r)
  q _ := fullShare
  owed _ := (K (F := F)).Otc c n
  recorded _ := {p | (K (F := F)).lev ((c : Thread nD τ), p.1) p.2 ≤ 8 * n}

theorem A_eq0 (c : Dev nD) (w : Fin cfg0.W) : (rdat0 Vv n c).A w = Vv c (Pipeline.arrRef spec0 w) := by
  dsimp only [rdat0]
theorem after0_0 (c : Dev nD) (t : Fin cfg0.N) (Y X) : (rdat0 Vv n c).after 0 t Y X = (X = Y) := by dsimp only [rdat0]
theorem after0_1 (c : Dev nD) (t : Fin cfg0.N) (Y X) : (rdat0 Vv n c).after 1 t Y X = (X = Y) := by dsimp only [rdat0]
theorem after0_2 (c : Dev nD) (t : Fin cfg0.N) (Y X) : (rdat0 Vv n c).after 2 t Y X = (X = Y) := by dsimp only [rdat0]
theorem after0_3 (c : Dev nD) (t : Fin cfg0.N) (Y X) :
    (rdat0 Vv n c).after 3 t Y X = (View.ld (X : Vec F S10240x128 .f32) rD0 = k0_pay1 (Vv c main_v1) (Vv c main_arg2) (Vv c main_v7)) := by
  dsimp only [rdat0]

/-- An input window's staging buffer holds its array when the body runs: it is fetched at the one point. -/
theorem finds0_0 (c : Dev nD) (t : Fin cfg0.N) (Y) (h : (rdat0 Vv n c).Finds 0 t Y) : Y = Vv c main_v1 := by
  obtain ⟨d, rfl⟩ := ((rdat0 Vv n c).finds_of_fetch (fetch0_0 t) Y).mp h
  rw [← iblk0_0 Vv c t]
  unfold Pipeline.RDat.fetched Pipeline.RDat.blockOf iblk0; rw [A_eq0]; try rfl
theorem finds0_1 (c : Dev nD) (t : Fin cfg0.N) (Y) (h : (rdat0 Vv n c).Finds 1 t Y) : Y = Vv c main_arg2 := by
  obtain ⟨d, rfl⟩ := ((rdat0 Vv n c).finds_of_fetch (fetch0_1 t) Y).mp h
  rw [← iblk0_1 Vv c t]
  unfold Pipeline.RDat.fetched Pipeline.RDat.blockOf iblk0; rw [A_eq0]; try rfl
theorem finds0_2 (c : Dev nD) (t : Fin cfg0.N) (Y) (h : (rdat0 Vv n c).Finds 2 t Y) : Y = Vv c main_v7 := by
  obtain ⟨d, rfl⟩ := ((rdat0 Vv n c).finds_of_fetch (fetch0_2 t) Y).mp h
  rw [← iblk0_2 Vv c t]
  unfold Pipeline.RDat.fetched Pipeline.RDat.blockOf iblk0; rw [A_eq0]; try rfl

/-! ## The body obligation -/

theorem sound_body0 (c : Dev nD) (t : Fin cfg0.N) (y0 : Vec F S10000x128 .f32) (y1 : Vec F S128x128 .f32) (y2 : Vec F S1x128 .f32)
    (y3 : Vec F S10240x128 .f32) (h0 : y0 = Vv c main_v1) (h1 : y1 = Vv c main_arg2) (h2 : y2 = Vv c main_v7) :
    iprop((rdat0 Vv n c).Φ t.castSucc ∗ (rdat0 Vv n c).owesAt none t.castSucc
        ∗ owns (c : Thread nD τ) (st0_0 t) fullShare y0 ∗ owns (c : Thread nD τ) (st0_1 t) fullShare y1
        ∗ owns (c : Thread nD τ) (st0_2 t) fullShare y2 ∗ owns (c : Thread nD τ) (st0_3 t) fullShare y3)
      ⊢ wp frame (wpE (defs₀ (F := F)) Variants.none c none) Set.univ (bodyAt0 t) (fun _ =>
          iprop((rdat0 Vv n c).Φ t.succ ∗ (rdat0 Vv n c).owesAt none t.succ
            ∗ (∃ X, ⌜(rdat0 Vv n c).after 0 t y0 X⌝ ∗ owns (c : Thread nD τ) (st0_0 t) fullShare X)
            ∗ (∃ X, ⌜(rdat0 Vv n c).after 1 t y1 X⌝ ∗ owns (c : Thread nD τ) (st0_1 t) fullShare X)
            ∗ (∃ X, ⌜(rdat0 Vv n c).after 2 t y2 X⌝ ∗ owns (c : Thread nD τ) (st0_2 t) fullShare X)
            ∗ (∃ X, ⌜(rdat0 Vv n c).after 3 t y3 X⌝ ∗ owns (c : Thread nD τ) (st0_3 t) fullShare X))) := by
  unfold bodyAt0
  rw [show (rdat0 Vv n c).Φ t.succ = (rdat0 Vv n c).Φ t.castSucc from rfl,
    show (rdat0 Vv n c).owesAt none t.succ = (rdat0 Vv n c).owesAt none t.castSucc from rfl]
  simp only [after0_0, after0_1, after0_2, after0_3]
  iintro ⟨HΦ, Ho, H0, H1, H2, H3⟩
  iapply (sound_kernel0 c Set.univ _ _ _ _ _ _ _ _ y0 y1 y2 _)
  isplitl [H0]; · iexact H0
  isplitl [H1]; · iexact H1
  isplitl [H2]; · iexact H2
  isplitl [H3]; · iexists _; iexact H3
  iintro ⟨H0, H1, H2, ⟨%X, %hX, H3⟩⟩
  isplitl [HΦ]; · iexact HΦ
  isplitl [Ho]; · iexact Ho
  isplitl [H0]
  · iexists y0; isplitr
    · ipureintro; rfl
    · iexact H0
  isplitl [H1]
  · iexists y1; isplitr
    · ipureintro; rfl
    · iexact H1
  isplitl [H2]
  · iexists y2; isplitr
    · ipureintro; rfl
    · iexact H2
  iexists X; isplitr
  · ipureintro; rw [← h0, ← h1, ← h2]; exact hX
  · iexact H3

theorem body_obligation0 (c : Dev nD) :
    (rdat0 (F := F) Vv n c).BodyObligation (defs₀ (F := F)) Variants.none none Set.univ := fun t Y hY => by
  rw [bigSep_W0, bigSep_W0]
  exact sound_body0 Vv n c t (Y 0) (Y 1) (Y 2) (Y 3) (finds0_0 Vv n c t _ (hY 0)) (finds0_1 Vv n c t _ (hY 1)) (finds0_2 Vv n c t _ (hY 2))

/-! ## What the arrays hold after the run -/

/-- A write-back of the whole staging buffer through the output window, which is its whole array, leaves the array at the
    buffer's contents. -/
theorem write_blk0_3 (c : Dev nD) (t : Fin cfg0.N) (G₀ : Buf (Elt F) ((cfg0.win 3).arr.view.loc (c : Thread nD τ)))
    (X : (cfg0.win 3).block.Idx → Elt F (cfg0.win 3).elt) :
    ((cfg0.win 3).blk t).view.write (Elt F) G₀ ((cfg0.win 3).cut (cfg0.grid.coords t) X) Finset.univ = X := by
  funext i
  have hy : ((cfg0.win 3).blk t).view.emb i = i := by
    funext a; apply Fin.ext
    exact Pipeline.Window.rect_emb_val_of_index_zero (cfg0.win 3) t a rfl i
  conv_lhs => rw [← hy, View.write_emb_of_mem _ _ (Finset.mem_univ _)]
  rfl

/-- Whatever the output array may hold after the run, its rows [0, 10000) are the payload of the input arrays: the one
    write-back moves the whole staging buffer, whose rows [0, 10000) the body stored. -/
theorem arrAt0_3 (c : Dev nD) (G : Vec F S10240x128 .f32) (h : (rdat0 Vv n c).ArrAt 3 cfg0.N G) :
    View.ld G rD0 = k0_pay1 (Vv c main_v1) (Vv c main_arg2) (Vv c main_v7) := by
  have h' : (rdat0 Vv n c).ArrAt 3 (0 + 1) G := h
  rw [Pipeline.RDat.ArrAt] at h'
  dsimp only at h'
  rw [dif_pos (show 0 < cfg0.N by decide), if_pos (flush0_3 _)] at h'
  obtain ⟨G₀, X, -, ⟨Y, -, hYX⟩, rfl⟩ := h'
  rw [after0_3] at hYX
  rw [write_blk0_3]
  exact hYX

/-- The arrays after the run: the inputs as entered, the output at some contents whose rows [0, 10000) are the payload. -/
theorem arraysAt0_elim (c : Dev nD) :
    (rdat0 Vv n c).arraysAt cfg0.N ⊢ iprop(∃ G : Vec F S10240x128 .f32,
      ⌜View.ld G rD0 = k0_pay1 (Vv c main_v1) (Vv c main_arg2) (Vv c main_v7)⌝
        ∗ (rdat0 Vv n c).arrays (Function.update (rdat0 Vv n c).A 3 G)) := by
  unfold Pipeline.RDat.arraysAt
  rw [bigSep_W0]
  iintro ⟨⟨%F0, %h0, H0⟩, ⟨%F1, %h1, H1⟩, ⟨%F2, %h2, H2⟩, ⟨%F3, %h3, H3⟩⟩
  rw [(rdat0 Vv n c).ArrAt_in 0 rfl] at h0
  rw [(rdat0 Vv n c).ArrAt_in 1 rfl] at h1
  rw [(rdat0 Vv n c).ArrAt_in 2 rfl] at h2
  subst h0; subst h1; subst h2
  iexists F3
  isplitr
  · ipureintro; exact arrAt0_3 Vv n c F3 h3
  unfold Pipeline.RDat.arrays
  rw [bigSep_W0, Function.update_of_ne (by decide : (0 : Fin cfg0.W) ≠ 3), Function.update_of_ne (by decide : (1 : Fin cfg0.W) ≠ 3),
    Function.update_of_ne (by decide : (2 : Fin cfg0.W) ≠ 3), Function.update_self]
  isplitl [H0]; · iexact H0
  isplitl [H1]; · iexact H1
  isplitl [H2]; · iexact H2
  iexact H3

/-! ## The region as a segment -/

/-- The family of proof data the region runs under: its own at its pipeline, idle data at the others. -/
def rdats0 : (p : Fin 3) → (c : Dev nD) → Pipeline.RDat τ (Elt F) (HIx 1) ℕ UU ℕ (Pipeline.pin (pcfgs (F := F)) adm p) c
  | ⟨0, _⟩ => fun c => rdat0 Vv n c
  | ⟨1, _⟩ => fun c => (idle1 Vv c).toR
  | ⟨2, _⟩ => fun c => (idle3 Vv c).toR

end Region0

section Seg0

variable (Wv : Valuation τ sig (Elt F)) (n : ℕ)

/-- The entry contents at the TensorCore's references. -/
abbrev V0 : (c : Dev nD) → (b : Ref sig .tc) → Buf (Elt F) ((c : Thread nD τ).loc b) := fun _ b => Wv b

/-- The arrays at the region's exit, the output's being `G`. -/
abbrev F0' (c : Dev nD) (G : Vec F S10240x128 .f32) : (w : Fin cfg0.W) → Buf (Elt F) ((cfg0.win w).arr.view.loc (c : Thread nD τ)) :=
  Function.update (rdat0 (V0 Wv) n c).A 3 G

/-- The contents at the region's exit, the output array's being `G`: every other buffer as entered. -/
def W0' (c : Dev nD) (G : Vec F S10240x128 .f32) : Valuation τ sig (Elt F) :=
  Pipeline.withArrays spec0 c Wv (F0' Wv n c G)
theorem W0'_arr (c : Dev nD) (G : Vec F S10240x128 .f32) (w : Fin cfg0.W) :
    W0' Wv n c G (Proc.devRef .tc (Pipeline.arrRef spec0 w)) = F0' Wv n c G w := by
  unfold W0'; exact Pipeline.withArrays_arr spec0 launch0.win.arr_inj c _ _ w
theorem W0'_of_ne (c : Dev nD) (G : Vec F S10240x128 .f32) (b : Ref sig .tc) (hb : ∀ w, Pipeline.arrRef spec0 w ≠ b) :
    W0' Wv n c G (Proc.devRef .tc b) = Wv (Proc.devRef .tc b) := by
  unfold W0'; exact Pipeline.withArrays_of_ne spec0 c _ _ b hb
abbrev V0' (G : Vec F S10240x128 .f32) : (c : Dev nD) → (b : Ref sig .tc) → Buf (Elt F) ((c : Thread nD τ).loc b) := fun c b => W0' Wv n c G b

set_option backward.isDefEq.respectTransparency.types false in
/-- The arrays at the exit contents and the unscoped rest as entered are every unscoped buffer at the exit contents. -/
theorem join0 (c : Dev nD) (G : Vec F S10240x128 .f32) :
    iprop((rdats0 (V0 Wv) n 0 c).arrays (F0' Wv n c G)
        ∗ Pipeline.unscopedRest (Ix := HIx 1) (Name := ℕ) (U := UU) (Lvl := ℕ) spec0 c (V0 Wv c))
      ⊢ (held (c : Thread nD τ) UC (W0' Wv n c G) : sProp 𝕄) := by
  have hshare : ∀ w, (rdats0 (V0 Wv) n 0 c).share w = fullShare := fun w => by
    unfold Pipeline.RDat.share; split <;> rfl
  rw [← Pipeline.unscopedBufs_held c (W0' Wv n c G),
    Pipeline.unscopedBufs_split (Pipeline.pin (pcfgs (F := F)) adm) 0 launch0.win.arr_unscoped launch0.win.arr_inj c (V0' Wv n G c),
    Pipeline.RDat.arrays_eq (pcfgs (F := F)) adm (rdats0 (V0 Wv) n) 0 c launch0.arr_whole hshare]
  refine BIClass.sep_mono (Entails.of_eq (bigSep_congr fun w _ => by rw [show V0' Wv n G c (Pipeline.arrRef (Pipeline.pin (pcfgs (F := F)) adm 0).spec w) = F0' Wv n c G w from W0'_arr Wv n c G w])) (Entails.of_eq ?_)
  unfold Pipeline.unscopedRest
  exact bigSep_congr fun b hb => by
    rw [show V0' Wv n G c b = V0 Wv c b from W0'_of_ne Wv n c G b fun w e => (Finset.mem_sdiff.mp hb).2 (Finset.mem_image.mpr ⟨w, Finset.mem_univ _, e⟩)]

end Seg0

/-- What the region leaves: every unscoped buffer but its output as entered; rows [0, 10000) of the output at the body's
    payload of the inputs as entered (its other rows at contents nothing states). -/
def Exit0 (Wv Wv' : Valuation τ sig (Elt F)) : Prop :=
  (∀ b ∈ UC, b ≠ Proc.devRef .tc main_v8 → Wv' b = Wv b)
    ∧ View.ld (Wv' (Proc.devRef .tc main_v8) : Vec F S10240x128 .f32) rD0
        = k0_pay1 (Wv (Proc.devRef .tc main_v1)) (Wv (Proc.devRef .tc main_arg2)) (Wv (Proc.devRef .tc main_v7))

/-- The exit contents are as `Exit0` says, whenever the output array's rows [0, 10000) are the payload. -/
theorem exit0 (Wv : Valuation τ sig (Elt F)) (n : ℕ) (d : Dev nD) (G : Vec F S10240x128 .f32)
    (hG : View.ld G rD0 = k0_pay1 (V0 Wv d main_v1) (V0 Wv d main_arg2) (V0 Wv d main_v7)) : Exit0 Wv (W0' Wv n d G) := by
  refine ⟨fun b hb hne => ?_, ?_⟩
  · obtain ⟨b', -, rfl⟩ := Finset.mem_map.mp (Finset.mem_filter.mp hb).1
    by_cases h : ∃ w, Pipeline.arrRef spec0 w = b'
    · obtain ⟨w, rfl⟩ := h
      show W0' Wv n d G (Proc.devRef .tc (Pipeline.arrRef spec0 w)) = _
      rw [W0'_arr]
      fin_cases w
      · exact Function.update_of_ne (by decide : (0 : Fin cfg0.W) ≠ 3) _ _
      · exact Function.update_of_ne (by decide : (1 : Fin cfg0.W) ≠ 3) _ _
      · exact Function.update_of_ne (by decide : (2 : Fin cfg0.W) ≠ 3) _ _
      · exact absurd rfl hne
    · exact W0'_of_ne Wv n d G b' fun w e => h ⟨w, e⟩
  · have e : W0' Wv n d G (Proc.devRef .tc main_v8) = G := (W0'_arr Wv n d G 3).trans (Function.update_self _ _ _)
    rw [e]; exact hG

section Rec0

variable (Wv : Valuation τ sig (Elt F)) (n : ℕ)

set_option backward.isDefEq.respectTransparency.types false in
/-- The pallas_call over the thread state: entered from every unscoped buffer at `Wv`, left at contents `Exit0` relates
    to `Wv`; the generator register into the invariant and out; the start signals owed throughout, the recorded waits kept
    at or below `8 n`. -/
def reg0 : Pipeline.RDat.RegionSeg (pcfgs (F := F)) adm (rdats0 (V0 Wv) n) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation0 (V0 Wv) n c
  hwaits c := Pipeline.RDat.cellsWaits_intro (Pipeline.pin (pcfgs (F := F)) adm) (rdats0 (V0 Wv) n) none 0 c fun w s t =>
    (K (F := F)).mayWait_none _ (fun g => Otc_none c n g)
  pre c := iprop(held (c : Thread nD τ) UC Wv ∗ Rest c n)
  post c := iprop(∃ Wv', ⌜Exit0 Wv Wv'⌝ ∗ held (c : Thread nD τ) UC Wv' ∗ Rest c n)
  X c := iprop(∃ r, prngReg c r)
  Y c := iprop(∃ r, prngReg c r)
  Z c := Pipeline.unscopedRest (Ix := HIx 1) (Name := ℕ) (U := UU) (Lvl := ℕ) spec0 c (V0 Wv c)
  hentry c := by
    rw [Pipeline.ownSems0_none]
    have hsplit := Pipeline.RDat.arrays_of_unscopedBufs (p := 0) (pcfgs (F := F)) adm (rdats0 (V0 Wv) n) launch0.win launch0.arr_whole c
      (fun w => by unfold Pipeline.RDat.share; split <;> rfl) (V0 Wv c) fun _ => rfl
    rw [Pipeline.unscopedBufs_held] at hsplit
    unfold Rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (rdats0 (V0 Wv) n 0 c).Φ 0 = iprop(Pipeline.scopedRest spec0 c ∗ ∃ r, prngReg c r) from rfl]
    iintro ⟨Hp, -, Hr⟩
    isplitl [Hr]; · iexact Hr
    iexact Hp
  hout c := by
    rw [Pipeline.ownSems0_none, show (rdats0 (V0 Wv) n 0 c).Φ (Fin.last _) = iprop(Pipeline.scopedRest spec0 c ∗ ∃ r, prngReg c r) from rfl]
    iintro ⟨Hr, Hp⟩
    isplitl [Hp]; · iexact Hp
    isplitr; · iempintro
    iexact Hr
  hexit c := by
    have helim : (rdats0 (V0 Wv) n 0 c).arraysAt (Pipeline.pin (pcfgs (F := F)) adm 0).N
        ⊢ iprop(∃ G : Vec F S10240x128 .f32, ⌜View.ld G rD0 = k0_pay1 (V0 Wv c main_v1) (V0 Wv c main_arg2) (V0 Wv c main_v7)⌝
          ∗ (rdats0 (V0 Wv) n 0 c).arrays (F0' Wv n c G)) := arraysAt0_elim (V0 Wv) n c
    unfold Rest
    iintro ⟨Ha, HO, HY, Hrest⟩
    ihave Ha' := helim $$ Ha
    icases Ha' with ⟨%G, %hG, Ha⟩
    imodintro
    iexists (W0' Wv n c G)
    isplitr; · ipureintro; exact exit0 Wv n c G hG
    isplitl [Ha Hrest]
    · iapply (join0 Wv n c G)
      isplitl [Ha]
      · iexact Ha
      · iexact Hrest
    isplitl [HY]; · iexact HY
    unfold Pipeline.RDat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

end Rec0

set_option backward.isDefEq.respectTransparency.types false in
set_option maxHeartbeats 1000000 in
/-- The pallas_call entered inside the SparseCore program: the region's step in the pipelines' signature, lifted to the
    extended body table. -/
theorem region0 : RegionSpec (F := F) 0 0 Exit0 := by
  unfold RegionSpec
  intro d Wv Φ
  have hwp := Pipeline.RDat.RegionSeg.wp (pcfgs (F := F)) adm (rdats0 (V0 Wv) 0) none cellOf_inj EP defs₀ 𝒱₀ (K (F := F)).L (K (F := F)).lev
    (reg0 Wv 0) d none (fun _ h => by cases h) (fun _ => .ret ⟨⟩) Φ
  rw [show (reg0 Wv 0).post d = iprop(∃ Wv', ⌜Exit0 Wv Wv'⌝ ∗ held (d : Thread nD τ) UC Wv' ∗ Rest d 0) from rfl,
    show (reg0 Wv 0).pre d = iprop(held (d : Thread nD τ) UC Wv ∗ Rest d 0) from rfl] at hwp
  have hlift := ((K (F := F)).wp_liftProg (D (F := F)) 𝒱 (T d) Set.univ none (.op (.customCall (Pipeline.entry 0) ()) fun _ => .ret ⟨⟩) Φ)
  have hlift' : (wp Idealize.ShloMosaic.frame (wpE (D (F := F)) 𝒱 (SparseCore.T d) none) Set.univ
        (Prog.op (TpuEff.customCall (Pipeline.entry 0) ()) fun x => Prog.ret PUnit.unit)) Φ ⊢
    (wp Idealize.ShloMosaic.frame (wpE ((K (F := F)).defs D) 𝒱 (SparseCore.T d) none) Set.univ
        (Prog.lift (TpuEff.customCall (SparseCore.inner (Pipeline.entry 0)) ()))) Φ := hlift
  refine BIBase.Entails.trans ?_ hlift'
  refine BIBase.Entails.trans ?_ hwp
  iintro ⟨Hlev, Hbd, Hheld, Hrest, ⟨Hg, Ht⟩, Hk⟩
  isplitl [Hk]
  · iintro ⟨Hbd, ⟨%Wv', %hexit, Hheld, Hrest⟩⟩
    rw [wp_ret]; imodintro
    iapply Hk $$ %Wv' %hexit
    isplitl [Hbd]; · iexact Hbd
    isplitl [Hheld]; · iexact Hheld
    iexact Hrest
  isplitl [Hbd]; · iexact Hbd
  isplitl [Hheld Hrest]
  · isplitl [Hheld]; · iexact Hheld
    iexact Hrest
  isplitl [Hlev]; · iexact Hlev
  isplitl [Hg]; · iexact Hg
  iexact Ht

end Cert.Kernel.Hand

end
-- ==== Proof.KB.FrameK.lean ====
/-
  The kernel's frame from its run: the first pallas_call's region plugged in, and the final memory's argument
  arrays read back as the launch's.
-/
import proofs.«208586_g21955872817707_cont_8to1_688_77_alg».proof.Proof.KB.Assemble
import proofs.«208586_g21955872817707_cont_8to1_688_77_alg».proof.Proof.KB.Regions0

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (v : Prop) (m : (ℓ : Loc nD τ sig) → Buf (Elt F) ℓ) (ρ : Dev nD → PrngReg)

/-- The kernel's run with every TensorCore region discharged: what is left is the vector-subcore task's obligation. -/
theorem kernel_run0 [∀ e, Nonempty (Elt F e)] (htile : (K (F := F)).TileObl (D (F := F)) 𝒱 (PP v m) v₀ 0) :
    θ_run (Cert.Kernel.defs (F := F)) (Cert.Kernel.threads (F := F)) ⟨m, fun _ => 0, ρ⟩
      (fun r => ∀ d : Dev nD, ∃ Wn, ArgsKept m d Wn ∧ ∀ b ∈ UC, r.2.mem ((d, b) : Loc nD τ sig) = Wn b) :=
  kernel_run v m ρ Exit0 (fun _ _ h => h) region0 htile

/-- The same with the values: every final memory's unscoped buffers end the chain of relations from the launch memory. -/
theorem kernel_runC0 [∀ e, Nonempty (Elt F e)] (htile : (K (F := F)).TileObl (D (F := F)) 𝒱 (PP v m) v₀ 0) :
    θ_run (Cert.Kernel.defs (F := F)) (Cert.Kernel.threads (F := F)) ⟨m, fun _ => 0, ρ⟩
      (fun r => ∀ d : Dev nD, ∃ Wn, Chain v m Exit0 d Wn ∧ ∀ b ∈ UC, r.2.mem ((d, b) : Loc nD τ sig) = Wn b) :=
  kernel_runC v m ρ Exit0 (fun _ _ h => h) region0 htile

theorem chain_args0 {d : Dev nD} {Wg : Valuation τ sig (Elt F)} (h : Chain v m Exit0 d Wg) : ArgsKept m d Wg :=
  chain_args v m Exit0 (fun _ _ h => h) h

omit [FloatOps F] in
/-- A final memory that holds the argument arrays' launch contents among its unscoped buffers holds them. -/
theorem frame_post (r : PUnit × MemSt nD τ sig (Elt F))
    (h : ∀ d : Dev nD, ∃ Wn, ArgsKept m d Wn ∧ ∀ b ∈ UC, r.2.mem ((d, b) : Loc nD τ sig) = Wn b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  obtain ⟨Wn, hk, hr⟩ := h c
  refine ⟨?_, ?_, ?_, ?_, ?_, ?_⟩
  · exact (hr (dv main_arg0) (dv_mem_UC _ (by decide))).trans (hk main_arg0 (by simp [Args]))
  · exact (hr (dv main_arg1) (dv_mem_UC _ (by decide))).trans (hk main_arg1 (by simp [Args]))
  · exact (hr (dv main_arg2) (dv_mem_UC _ (by decide))).trans (hk main_arg2 (by simp [Args]))
  · exact (hr (dv main_arg3) (dv_mem_UC _ (by decide))).trans (hk main_arg3 (by simp [Args]))
  · exact (hr (dv main_arg4) (dv_mem_UC _ (by decide))).trans (hk main_arg4 (by simp [Args]))
  · exact (hr (dv main_arg5) (dv_mem_UC _ (by decide))).trans (hk main_arg5 (by simp [Args]))

end Cert.Kernel.Hand

end
-- ==== Proof.KB.ValueHost.lean ====
/-
  The host operations of @main read at an index: x as nodes × channels, the bias rows, the two halves of the second
  weight matrix's columns, the result laid back as channels × nodes, and the neighbour indices flattened row-major,
  padded with zeros and cut into 32 × 80 × 128.
-/
import proofs.«208586_g21955872817707_cont_8to1_688_77_alg».proof.Proof.KB.Hmain
import proofs.«208586_g21955872817707_cont_8to1_688_77_alg».proof.Proof.KB.TilePay
import Idealize.ShloMosaic.Lib.ValueLayout
import Idealize.ShloMosaic.Lib.KernelVsHost

noncomputable section

namespace Cert.Kernel.Hand

open Cert.Kernel Cert.Kernel.Gen
open Idealize.ShloMosaic Idealize.ShloMosaic.ValueIdx

variable {F : FTy → Type} [FloatOps F]
variable (m : (ℓ : Loc nD τ sig) → Buf (Elt F) ℓ)

set_option quotPrecheck false in
local notation "dv" => (Proc.devRef (τ := τ) (sig := sig) Proc.tc)

/-! ## Indices -/

/-- The rank-two index from a row and a column is the one the layout lemmas are stated at. -/
private theorem ix2_eq {n m : ℕ} (r : Fin n) (c : Fin m) : ix2 r c = ValueIdx.ix2 r c := by
  funext a; match a with | ⟨0, _⟩ => rfl | ⟨1, _⟩ => rfl
/-- The rank-three index likewise. -/
private theorem ix3_eq {n m l : ℕ} (a : Fin n) (b : Fin m) (c : Fin l) : ix3 a b c = ValueIdx.ix3 a b c := by
  funext d; match d with | ⟨0, _⟩ => rfl | ⟨1, _⟩ => rfl | ⟨2, _⟩ => rfl

/-! ## The host operations read at an index -/

/-- x as nodes × channels, as a term. -/
theorem W1_v1_eq (d : Dev nD) :
    (W1 m d (dv main_v1) : S10000x128.Idx → Elt F .f32)
      = transpose S10000x128 [1, 0] (shapeCast S128x10000 (m (d, dv main_arg0) : S1x128x10000x1.Idx → Elt F .f32) shapeCasts_S1x128x10000x1_S128x10000) transposes_S128x10000_S10000x128_1_0 := by
  show StableHlo.after hostOps0c (StableHlo.after hostOps0b (StableHlo.after hostOps0a (fun b => m (d, b)))) (Proc.devRef .tc main_v1) = _
  dsimp only [hostOps0a, hostOps0b, hostOps0c]
  after_results <;> rfl

/-- Entry (n, c) of x as nodes × channels is x's entry at channel c, node n. -/
theorem W1_v1_apply (d : Dev nD) (n : Fin 10000) (c : Fin 128) :
    W1 m d (dv main_v1) (ix2 n c) = m (d, dv main_arg0) (ix4 (0 : Fin 1) c n (0 : Fin 1)) := by
  rw [W1_v1_eq, ix2_eq, transpose_ix2_apply]
  refine shapeCast_apply _ _ _ _ ?_
  show (S1x128x10000x1.rowMajor (ix4 (0 : Fin 1) c n (0 : Fin 1))).val = (S128x10000.rowMajor (ValueIdx.ix2 c n)).val
  rw [Shape.rowMajor_val_four, Shape.rowMajor_val_two]
  show ((0 * 128 + c.val) * 10000 + n.val) * 1 + 0 = c.val * 10000 + n.val
  omega

/-- b1 as a row, as a term. -/
theorem W1_v7_eq (d : Dev nD) :
    (W1 m d (dv main_v7) : S1x128.Idx → Elt F .f32)
      = shapeCast S1x128 (m (d, dv main_arg3) : S128.Idx → Elt F .f32) shapeCasts_S128_S1x128 := by
  show StableHlo.after hostOps0c (StableHlo.after hostOps0b (StableHlo.after hostOps0a (fun b => m (d, b)))) (Proc.devRef .tc main_v7) = _
  dsimp only [hostOps0a, hostOps0b, hostOps0c]
  after_results <;> rfl

/-- The first bias as a row, at column c. -/
theorem W1_v7_apply (d : Dev nD) (c : Fin 128) :
    W1 m d (dv main_v7) (ix2 (0 : Fin 1) c) = m (d, dv main_arg3) (ix1 c) := by
  rw [W1_v7_eq, ix2_eq, shapeCast_a_1a_apply]

variable (Wa : Valuation τ sig (Elt F))

/-- The first 128 columns of the second weight matrix, as a term. -/
theorem after1_v9_eq :
    (StableHlo.after hostOps1 Wa (dv main_v9) : S128x128.Idx → Elt F .f32)
      = extractStridedSlice S128x128 ![0, 0] (Wa (dv main_arg4) : S128x256.Idx → Elt F .f32) slices_S128x256_S128x128_0_0 := by
  dsimp only [hostOps1]
  after_results <;> rfl

/-- Their entry (o, c) is the matrix's entry (o, c). -/
theorem after1_v9_apply (o c : Fin 128) :
    StableHlo.after hostOps1 Wa (dv main_v9) (ix2 o c) = Wa (dv main_arg4) (ix2 o (⟨c.val, by omega⟩ : Fin 256)) := by
  rw [after1_v9_eq]
  refine extractStridedSlice_apply _ _ _ _ _ fun a => ?_
  match a with
  | ⟨0, _⟩ => show o.val = 0 + o.val; omega
  | ⟨1, _⟩ => show c.val = 0 + c.val; omega

/-- The second bias as a row, as a term. -/
theorem after1_v10_eq :
    (StableHlo.after hostOps1 Wa (dv main_v10) : S1x128.Idx → Elt F .f32)
      = shapeCast S1x128 (Wa (dv main_arg5) : S128.Idx → Elt F .f32) shapeCasts_S128_S1x128 := by
  dsimp only [hostOps1]
  after_results <;> rfl

/-- The second bias as a row, at column o. -/
theorem after1_v10_apply (o : Fin 128) :
    StableHlo.after hostOps1 Wa (dv main_v10) (ix2 (0 : Fin 1) o) = Wa (dv main_arg5) (ix1 o) := by
  rw [after1_v10_eq, ix2_eq, shapeCast_a_1a_apply]

/-- The last 128 columns of the second weight matrix, as a term. -/
theorem after2_v13_eq :
    (StableHlo.after hostOps2 Wa (dv main_v13) : S128x128.Idx → Elt F .f32)
      = extractStridedSlice S128x128 ![0, 128] (Wa (dv main_arg4) : S128x256.Idx → Elt F .f32) slices_S128x256_S128x128_0_128 := by
  dsimp only [hostOps2]
  after_results <;> rfl

/-- Their entry (o, c) is the matrix's entry (o, 128 + c). -/
theorem after2_v13_apply (o c : Fin 128) :
    StableHlo.after hostOps2 Wa (dv main_v13) (ix2 o c) = Wa (dv main_arg4) (ix2 o (⟨128 + c.val, by omega⟩ : Fin 256)) := by
  rw [after2_v13_eq]
  refine extractStridedSlice_apply _ _ _ _ _ fun a => ?_
  match a with
  | ⟨0, _⟩ => show o.val = 0 + o.val; omega
  | ⟨1, _⟩ => show 128 + c.val = 128 + c.val; rfl

/-- The result laid back as channels × nodes, as a term. -/
theorem after3_v16_eq :
    (StableHlo.after hostOps3 Wa (dv main_v16) : S1x128x10000x1.Idx → Elt F .f32)
      = shapeCast S1x128x10000x1 (transpose S128x10000 [1, 0] (Wa (dv main_v14) : S10000x128.Idx → Elt F .f32) transposes_S10000x128_S128x10000_1_0) shapeCasts_S128x10000_S1x128x10000x1 := by
  dsimp only [hostOps3]
  after_results <;> rfl

/-- Its entry at channel o, node n is the last call's entry (n, o). -/
theorem after3_v16_apply (o : Fin 128) (n : Fin 10000) :
    StableHlo.after hostOps3 Wa (dv main_v16) (ix4 (0 : Fin 1) o n (0 : Fin 1)) = Wa (dv main_v14) (ix2 n o) := by
  rw [after3_v16_eq]
  refine (shapeCast_apply _ _ _ (ValueIdx.ix2 o n) ?_).trans ?_
  · show (S128x10000.rowMajor (ValueIdx.ix2 o n)).val = (S1x128x10000x1.rowMajor (ix4 (0 : Fin 1) o n (0 : Fin 1))).val
    rw [Shape.rowMajor_val_four, Shape.rowMajor_val_two]
    show o.val * 10000 + n.val = ((0 * 128 + o.val) * 10000 + n.val) * 1 + 0
    omega
  · rw [transpose_ix2_apply, ← ix2_eq]

/-! ## The padded index array -/

/-- The index array the SparseCore call reads, as a term. -/
theorem W1_v6_eq (d : Dev nD) :
    (W1 m d (dv main_v6) : S32x80x128.Idx → BitVec 32)
      = shapeCast S32x80x128 (pad S327680 ![0] ![7680] ![0]
          (shapeCast S320000 (shapeCast S10000x32 (extractStridedSlice S1x1x10000x32 ![0, 0, 0, 0]
            (m (d, dv main_arg1) : S2x1x10000x32.Idx → BitVec 32) slices_S2x1x10000x32_S1x1x10000x32_0_0_0_0)
            shapeCasts_S1x1x10000x32_S10000x32) shapeCasts_S10000x32_S320000)
          (constantI S_ 32 0#32) pads_S320000_S327680_076800 h_S_) shapeCasts_S327680_S32x80x128 := by
  show StableHlo.after hostOps0c (StableHlo.after hostOps0b (StableHlo.after hostOps0a (fun b => m (d, b)))) (Proc.devRef .tc main_v6) = _
  dsimp only [hostOps0a, hostOps0b, hostOps0c]
  after_results <;> rfl

/-- Word (w, a, l) of the index array is word 10240 w + 128 a + l of the first slice of the neighbour indices
    flattened row-major, and zero past its 320000 words. -/
theorem W1_v6_apply (d : Dev nD) (w : Fin 32) (a : Fin 80) (l : Fin 128) :
    W1 m d (dv main_v6) (ix3 w a l)
      = if h : 10240 * w.val + 128 * a.val + l.val < 320000 then
          m (d, dv main_arg1) (ix4 (0 : Fin 2) (0 : Fin 1)
            (⟨(10240 * w.val + 128 * a.val + l.val) / 32, by omega⟩ : Fin 10000)
            (⟨(10240 * w.val + 128 * a.val + l.val) % 32, by omega⟩ : Fin 32))
        else 0#32 := by
  have hq : 10240 * w.val + 128 * a.val + l.val < 327680 := by omega
  rw [W1_v6_eq, ix3_eq]
  refine (shapeCast_apply _ _ _ (ix1 (⟨10240 * w.val + 128 * a.val + l.val, hq⟩ : Fin 327680)) ?_).trans ?_
  · show (S327680.rowMajor (ix1 (⟨10240 * w.val + 128 * a.val + l.val, hq⟩ : Fin 327680))).val
      = (S32x80x128.rowMajor (ValueIdx.ix3 w a l)).val
    rw [Shape.rowMajor_val_three, Shape.rowMajor_val_one]
    show 10240 * w.val + 128 * a.val + l.val = (w.val * 80 + a.val) * 128 + l.val
    omega
  by_cases h : 10240 * w.val + 128 * a.val + l.val < 320000
  · rw [dif_pos h]
    refine (pad_apply_of_inside _ _ _ _ _ _ _ _ (ix1 (⟨10240 * w.val + 128 * a.val + l.val, h⟩ : Fin 320000))
      (fun ax => match ax with
        | ⟨0, _⟩ => by
          show 10240 * w.val + 128 * a.val + l.val = 0 + (10240 * w.val + 128 * a.val + l.val) * (0 + 1)
          omega)).trans ?_
    refine (shapeCast_apply _ _ _ (ValueIdx.ix2 (⟨(10240 * w.val + 128 * a.val + l.val) / 32, by omega⟩ : Fin 10000)
      (⟨(10240 * w.val + 128 * a.val + l.val) % 32, by omega⟩ : Fin 32)) ?_).trans ?_
    · show (S10000x32.rowMajor (ValueIdx.ix2 (⟨(10240 * w.val + 128 * a.val + l.val) / 32, by omega⟩ : Fin 10000)
        (⟨(10240 * w.val + 128 * a.val + l.val) % 32, by omega⟩ : Fin 32))).val
        = (S320000.rowMajor (ix1 (⟨10240 * w.val + 128 * a.val + l.val, h⟩ : Fin 320000))).val
      rw [Shape.rowMajor_val_two, Shape.rowMajor_val_one]
      show (10240 * w.val + 128 * a.val + l.val) / 32 * 32 + (10240 * w.val + 128 * a.val + l.val) % 32
        = 10240 * w.val + 128 * a.val + l.val
      omega
    refine (shapeCast_apply _ _ _ (ix4 (0 : Fin 1) (0 : Fin 1) (⟨(10240 * w.val + 128 * a.val + l.val) / 32, by omega⟩ : Fin 10000)
      (⟨(10240 * w.val + 128 * a.val + l.val) % 32, by omega⟩ : Fin 32)) ?_).trans ?_
    · show (S1x1x10000x32.rowMajor (ix4 (0 : Fin 1) (0 : Fin 1) (⟨(10240 * w.val + 128 * a.val + l.val) / 32, by omega⟩ : Fin 10000)
        (⟨(10240 * w.val + 128 * a.val + l.val) % 32, by omega⟩ : Fin 32))).val
        = (S10000x32.rowMajor (ValueIdx.ix2 (⟨(10240 * w.val + 128 * a.val + l.val) / 32, by omega⟩ : Fin 10000)
          (⟨(10240 * w.val + 128 * a.val + l.val) % 32, by omega⟩ : Fin 32))).val
      rw [Shape.rowMajor_val_four, Shape.rowMajor_val_two]
      show ((0 * 1 + 0) * 10000 + (10240 * w.val + 128 * a.val + l.val) / 32) * 32 + (10240 * w.val + 128 * a.val + l.val) % 32
        = (10240 * w.val + 128 * a.val + l.val) / 32 * 32 + (10240 * w.val + 128 * a.val + l.val) % 32
      omega
    refine extractStridedSlice_apply _ _ _ _ _ fun ax => ?_
    match ax with
    | ⟨0, _⟩ => rfl
    | ⟨1, _⟩ => rfl
    | ⟨2, _⟩ => show (10240 * w.val + 128 * a.val + l.val) / 32 = 0 + (10240 * w.val + 128 * a.val + l.val) / 32; omega
    | ⟨3, _⟩ => show (10240 * w.val + 128 * a.val + l.val) % 32 = 0 + (10240 * w.val + 128 * a.val + l.val) % 32; omega
  · rw [dif_neg h]
    refine (pad_apply_of_not_inside _ _ _ _ _ _ _ _ (⟨0, by decide⟩ : Fin 1) (fun hin => h ?_)).trans rfl
    have h3 := hin.2.2
    have h3' : (10240 * w.val + 128 * a.val + l.val - 0) / (0 + 1) < 320000 := h3
    omega

/-- If every neighbour index is below 10000, so is every word of the index array. -/
theorem idx_lt (d : Dev nD) (hx : ∀ i, (m (d, dv main_arg1) i : BitVec 32).toNat < 10000) :
    ∀ j, (W1 m d (dv main_v6) j : BitVec 32).toNat < 10000 := by
  intro j
  obtain ⟨w, a, l, rfl⟩ : ∃ (w : Fin 32) (a : Fin 80) (l : Fin 128), j = ix3 w a l :=
    ⟨j 0, j 1, j 2, (ValueIdx.eq_ix3 j).trans (ix3_eq _ _ _).symm⟩
  rw [W1_v6_apply]
  split
  · exact hx _
  · decide

end Cert.Kernel.Hand

end
-- ==== Proof.KI.TileSets.lean ====
/-
  The scratch slices and the result's groups of rows as sets of indices, and the slices the task addresses named by them.
-/
import proofs.«208586_g21955872817707_cont_8to1_688_77_alg».proof.Proof.KI.TilePay

noncomputable section

namespace Cert.KernelIdeal.Hand

open Cert.KernelIdeal Cert.KernelIdeal.Gen

open Idealize.ShloMosaic
open Idealize.ShloMosaic.SparseCore (S V T)
open Idealize.SL Idealize.SL.RA Idealize.SL.BI
open scoped Idealize.SL.BI

local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)

/-- Slot b of the gathered-rows scratch; half ob of the output scratch; a 64-word offset list of the index scratch;
    group n (four rows) of worker w's rows of the result: as sets of indices. -/
def slotSet (b : ℕ) : Finset S4x64x128.Idx := Finset.univ.filter fun y => (y 0).val = b
def outSet (ob : ℕ) : Finset S2x4x128.Idx := Finset.univ.filter fun y => (y 0).val = ob
def offSet (row col : ℕ) : Finset S80x128.Idx := Finset.univ.filter fun y => (y 0).val = row ∧ col ≤ (y 1).val ∧ (y 1).val < col + 64
def mGroupSet (w : Fin 32) (n : ℕ) : Finset S10240x128.Idx := Finset.univ.filter fun y => 320 * w.val + 4 * n ≤ (y 0).val ∧ (y 0).val < 320 * w.val + 4 * n + 4

/-- A 64-word run of the index scratch, squeezed: the offset list of one gather. -/
abbrev offK (off : Fin 2 → ℕ) (inb : ∀ a, off a + S1x64.size a ≤ S80x128.size a) : Memref sig .scVector .vmem S64 .i32 :=
  ((idxV).slice (Rect.unit (s := S80x128) off S1x64.size inb) (fun _ => rfl)).squeeze S64 squeezes_S1x64_S64

/-! ### The scratch slices as index sets -/

theorem set_slot (b : ℕ) (inb : ∀ a, (![b, 0, 0] : Fin 3 → ℕ) a + S1x64x128.size a ≤ S4x64x128.size a) :
    (((rowsV).slice (Rect.unit (s := S4x64x128) ![b, 0, 0] S1x64x128.size inb) (fun _ => rfl)).squeeze S64x128 squeezes_S1x64x128_S64x128).view.set = slotSet b := by
  show (((View.whole (cc2_scratch1 : Ref sig .scVector)).slice (Rect.unit (s := S4x64x128) ![b, 0, 0] S1x64x128.size inb)).reshape S64x128 squeezes_S1x64x128_S64x128.numel_eq).set = _
  rw [View.set_reshape, View.set_slice]
  refine (Finset.map_refl (s := (Rect.unit (s := S4x64x128) ![b, 0, 0] S1x64x128.size inb).set)).trans ?_
  ext y
  rw [Rect.mem_set_unit]
  simp only [slotSet, Finset.mem_filter, Finset.mem_univ, true_and]
  constructor
  · intro h; have h0 := h 0; simp at h0; omega
  · intro h a
    match a with
    | 0 => simp; omega
    | 1 => simp; exact (y 1).isLt
    | 2 => simp; exact (y 2).isLt

theorem set_offK (off : Fin 2 → ℕ) (inb : ∀ a, off a + S1x64.size a ≤ S80x128.size a) :
    (offK off inb).view.set = offSet (off 0) (off 1) := by
  show (((View.whole (cc2_scratch0 : Ref sig .scVector)).slice (Rect.unit (s := S80x128) off S1x64.size inb)).reshape S64 squeezes_S1x64_S64.numel_eq).set = _
  rw [View.set_reshape, View.set_slice]
  refine (Finset.map_refl (s := (Rect.unit (s := S80x128) off S1x64.size inb).set)).trans ?_
  ext y
  rw [Rect.mem_set_unit]
  simp only [offSet, Finset.mem_filter, Finset.mem_univ, true_and]
  constructor
  · intro h; have h0 := h 0; have h1 := h 1; simp at h0 h1; omega
  · intro h a
    match a with
    | 0 => simp; omega
    | 1 => simp; omega

theorem slots_rest : ((Finset.univ \ slotSet 0) \ slotSet 1) \ slotSet 2 = slotSet 3 := by
  ext y
  have := (y 0).isLt
  simp only [slotSet, Finset.mem_sdiff, Finset.mem_filter, Finset.mem_univ, true_and]
  have h4 : (y 0).val < 4 := this
  omega

theorem mem_mTile_iff (w : Fin 32) (y : S10240x128.Idx) : y ∈ mTile w ↔ 320 * w.val ≤ (y 0).val ∧ (y 0).val < 320 * w.val + 320 := by
  rw [show mTile w = (Rect.part (s := S10240x128) (a₀ := 0) hdiv32 w).set from rfl, Rect.mem_set_unit]
  constructor
  · intro h
    have h0 := h 0
    simp [Shape.partIx, Shape.partSize] at h0
    omega
  · intro h a
    match a with
    | 0 => simp [Shape.partIx, Shape.partSize]; omega
    | 1 => simp [Shape.partIx, Shape.partSize]; exact (y 1).isLt

theorem mGroup_disjoint (w : Fin 32) (S : Finset ℕ) : ∀ n ∈ S, ∀ n' ∈ S, n ≠ n' → Disjoint (mGroupSet w n) (mGroupSet w n') := by
  intro n _ n' _ hne
  refine Finset.disjoint_left.mpr fun y h1 h2 => ?_
  simp only [mGroupSet, Finset.mem_filter, Finset.mem_univ, true_and] at h1 h2
  omega

theorem mGroup_cover (w : Fin 32) : (Finset.range 80).biUnion (mGroupSet w) = mTile w := by
  ext y
  rw [mem_mTile_iff]
  simp only [Finset.mem_biUnion, Finset.mem_range, mGroupSet, Finset.mem_filter, Finset.mem_univ, true_and]
  constructor
  · rintro ⟨n, hn, h1, h2⟩; omega
  · intro h
    exact ⟨((y 0).val - 320 * w.val) / 4, by omega, by omega, by omega⟩

theorem outSet_disjoint : ∀ i ∈ (Finset.univ : Finset (Fin 2)), ∀ j ∈ (Finset.univ : Finset (Fin 2)), i ≠ j → Disjoint (outSet i.val) (outSet j.val) := by
  intro i _ j _ hne
  refine Finset.disjoint_left.mpr fun y h1 h2 => ?_
  simp only [outSet, Finset.mem_filter, Finset.mem_univ, true_and] at h1 h2
  exact hne (Fin.ext (h1.symm.trans h2))
theorem outSet_cover : (Finset.univ : Finset (Fin 2)).biUnion (fun c => outSet c.val) = Finset.univ := by
  ext y
  simp only [Finset.mem_biUnion, Finset.mem_univ, true_and, iff_true, outSet, Finset.mem_filter]
  exact ⟨⟨(y 0).val, (y 0).isLt⟩, rfl⟩

end Cert.KernelIdeal.Hand

end
-- ==== Proof.KI.TileConds.lean ====
/-
  The conditions of the vector-subcore task's outer loop as facts of the trip. Trip k of the forty handles node groups
  2k and 2k + 1 and index chunks 4k … 4k + 3: group g first waits for the write-back of group g - 2 when there is one
  (g ≥ 2: every trip but the first), and chunk c starts the gather three chunks ahead when that chunk exists
  (c + 3 < 160).
-/
import proofs.«208586_g21955872817707_cont_8to1_688_77_alg».proof.Proof.Gen.KernelIdeal

namespace Cert.KernelIdeal.Hand

open Cert.KernelIdeal Cert.KernelIdeal.Gen
open Idealize.ShloMosaic

/-- The loop runs forty trips. -/
theorem k2_t1_trips : k2_t1_loop.trips = 40 := by decide +kernel

/-! ## Each condition as a fact of the trip -/

/-- Group 2k has a group two before it (2k ≥ 2) exactly from the second trip on. -/
theorem k2_cond1_iff : ∀ k : Fin k2_t1_loop.trips, k2_cond1 k = 1#1 ↔ 1 ≤ k.val := by decide +kernel
/-- Chunk 4k + 3 always exists (4k + 3 < 160 for k < 40). -/
theorem k2_cond2_true : ∀ k : Fin k2_t1_loop.trips, k2_cond2 k = 1#1 := by decide +kernel
/-- Chunk 4k + 4 exists (4k + 4 < 160) exactly before the last trip. -/
theorem k2_cond3_iff : ∀ k : Fin k2_t1_loop.trips, k2_cond3 k = 1#1 ↔ k.val < 39 := by decide +kernel
/-- Group 2k + 1 has a group two before it (2k + 1 ≥ 2) exactly from the second trip on. -/
theorem k2_cond4_iff : ∀ k : Fin k2_t1_loop.trips, k2_cond4 k = 1#1 ↔ 1 ≤ k.val := by decide +kernel
/-- Chunk 4k + 5 exists (4k + 5 < 160) exactly before the last trip. -/
theorem k2_cond5_iff : ∀ k : Fin k2_t1_loop.trips, k2_cond5 k = 1#1 ↔ k.val < 39 := by decide +kernel
/-- Chunk 4k + 6 exists (4k + 6 < 160) exactly before the last trip. -/
theorem k2_cond6_iff : ∀ k : Fin k2_t1_loop.trips, k2_cond6 k = 1#1 ↔ k.val < 39 := by decide +kernel

/-! ## The one-sided forms a case split on a condition uses -/

theorem k2_cond1_of_pos (k : Fin k2_t1_loop.trips) (h : 1 ≤ k.val) : k2_cond1 k = 1#1 := (k2_cond1_iff k).mpr h
theorem k2_cond1_of_not_pos (k : Fin k2_t1_loop.trips) (h : ¬ 1 ≤ k.val) : ¬ k2_cond1 k = 1#1 := fun e => h ((k2_cond1_iff k).mp e)
theorem k2_cond4_of_pos (k : Fin k2_t1_loop.trips) (h : 1 ≤ k.val) : k2_cond4 k = 1#1 := (k2_cond4_iff k).mpr h
theorem k2_cond4_of_not_pos (k : Fin k2_t1_loop.trips) (h : ¬ 1 ≤ k.val) : ¬ k2_cond4 k = 1#1 := fun e => h ((k2_cond4_iff k).mp e)
theorem k2_cond3_of_lt (k : Fin k2_t1_loop.trips) (h : k.val < 39) : k2_cond3 k = 1#1 := (k2_cond3_iff k).mpr h
theorem k2_cond3_of_not_lt (k : Fin k2_t1_loop.trips) (h : ¬ k.val < 39) : ¬ k2_cond3 k = 1#1 := fun e => h ((k2_cond3_iff k).mp e)
theorem k2_cond5_of_lt (k : Fin k2_t1_loop.trips) (h : k.val < 39) : k2_cond5 k = 1#1 := (k2_cond5_iff k).mpr h
theorem k2_cond5_of_not_lt (k : Fin k2_t1_loop.trips) (h : ¬ k.val < 39) : ¬ k2_cond5 k = 1#1 := fun e => h ((k2_cond5_iff k).mp e)
theorem k2_cond6_of_lt (k : Fin k2_t1_loop.trips) (h : k.val < 39) : k2_cond6 k = 1#1 := (k2_cond6_iff k).mpr h
theorem k2_cond6_of_not_lt (k : Fin k2_t1_loop.trips) (h : ¬ k.val < 39) : ¬ k2_cond6 k = 1#1 := fun e => h ((k2_cond6_iff k).mp e)

/-- On the last trip the three "next chunk" conditions fail together, and before it they hold together. -/
theorem k2_cond356_iff (k : Fin k2_t1_loop.trips) :
    (k2_cond3 k = 1#1 ↔ k2_cond5 k = 1#1) ∧ (k2_cond5 k = 1#1 ↔ k2_cond6 k = 1#1) :=
  ⟨(k2_cond3_iff k).trans (k2_cond5_iff k).symm, (k2_cond5_iff k).trans (k2_cond6_iff k).symm⟩
/-- The two "group two before" conditions hold together. -/
theorem k2_cond14_iff (k : Fin k2_t1_loop.trips) : k2_cond1 k = 1#1 ↔ k2_cond4 k = 1#1 :=
  (k2_cond1_iff k).trans (k2_cond4_iff k).symm

end Cert.KernelIdeal.Hand
-- ==== Proof.KI.TileLoops.lean ====
/-
  The inner loops of the vector-subcore task: the running maximum over a node's rows 1..31 of a gathered chunk, eight
  16-lane groups at a time, from the values row 0 gave.
-/
import proofs.«208586_g21955872817707_cont_8to1_688_77_alg».proof.Proof.KI.TilePay
import proofs.«208586_g21955872817707_cont_8to1_688_77_alg».proof.Proof.Gen.KernelIdeal.Skeleton
import Idealize.ShloMosaic.Lib.ValueLayout

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The tile of grid point i on device d. -/
abbrev thrV (d : Dev nD) (i : grid2.Coords) : Thread nD τ := V d ((i 0).castLE hcore2) ((i 1).castLE hsub2)

/-- The running maximum from a over z 1, z 2, …, in order. -/
def accMax (a : F .f32) (z : ℕ → F .f32) : ℕ → F .f32
  | 0 => a
  | k + 1 => FloatOps.maximumf (accMax a z k) (z (k + 1))

theorem foldMax_eq_accMax (z : ℕ → F .f32) (k : ℕ) : foldMax z k = accMax (z 0) z k := by
  induction k with
  | zero => rfl
  | succ k ih => show FloatOps.maximumf _ _ = FloatOps.maximumf _ _; rw [ih]

/-- Lane group g of rows base+1 … base+31 of slot b of the gathered rows, folded onto the group's running value a. -/
def rowsAcc (R : S4x64x128.Idx → F .f32) (b : Fin 4) (base : ℕ) (g : Fin 8) (a : FVec F S16 .f32) : FVec F S16 .f32 :=
  fun l => accMax (a l) (fun k => R (ix3 b ⟨(base + k) % 64, Nat.mod_lt _ (by decide)⟩ ⟨(16 * g.val + (l 0).val) % 128, Nat.mod_lt _ (by decide)⟩)) 31

/-- The same fold stopped after k rows: lane group g of rows base+1 … base+k of slot b, folded onto a. -/
def rowsAccK (R : S4x64x128.Idx → F .f32) (b : Fin 4) (base : ℕ) (g : Fin 8) (a : FVec F S16 .f32) (k : ℕ) : FVec F S16 .f32 :=
  fun l => accMax (a l) (fun j => R (ix3 b ⟨(base + j) % 64, Nat.mod_lt _ (by decide)⟩ ⟨(16 * g.val + (l 0).val) % 128, Nat.mod_lt _ (by decide)⟩)) k

theorem rowsAccK_zero (R : S4x64x128.Idx → F .f32) (b : Fin 4) (base : ℕ) (g : Fin 8) (a : FVec F S16 .f32) :
    rowsAccK R b base g a 0 = a := rfl

theorem rowsAccK_last (R : S4x64x128.Idx → F .f32) (b : Fin 4) (base : ℕ) (g : Fin 8) (a : FVec F S16 .f32) :
    rowsAccK R b base g a 31 = rowsAcc R b base g a := rfl

/-- One more row: the fold after k + 1 rows is the fold after k rows, then maximumf with row base + k + 1. -/
theorem rowsAccK_succ (R : S4x64x128.Idx → F .f32) (b : Fin 4) (base : ℕ) (g : Fin 8) (a : FVec F S16 .f32) (k : ℕ) :
    rowsAccK R b base g a (k + 1) = maximumf (rowsAccK R b base g a k)
      (fun l => R (ix3 b ⟨(base + (k + 1)) % 64, Nat.mod_lt _ (by decide)⟩ ⟨(16 * g.val + (l 0).val) % 128, Nat.mod_lt _ (by decide)⟩)) := rfl

local notation "zV" => (Memref.whole Cert.KernelIdeal.main_v8_scv : Memref Cert.KernelIdeal.sig Kind.scVector Space.hbm Cert.KernelIdeal.S10240x128 EltTy.f32)
local notation "iV" => (Memref.whole Cert.KernelIdeal.main_v6_scv : Memref Cert.KernelIdeal.sig Kind.scVector Space.hbm Cert.KernelIdeal.S32x80x128 EltTy.i32)
local notation "mV" => (Memref.whole Cert.KernelIdeal.main_v12_scv : Memref Cert.KernelIdeal.sig Kind.scVector Space.hbm Cert.KernelIdeal.S10240x128 EltTy.f32)
local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)
local notation "shV" => (Memref.whole Cert.KernelIdeal.cc2_scratch3 : Memref Cert.KernelIdeal.sig Kind.scVector Space.shared Cert.KernelIdeal.S10240x128 EltTy.f32)

/-- Slot b of the gathered rows as the kernel addresses it: the slot's slice of the scratch, its unit axis dropped. -/
abbrev slotK0 : Memref sig .scVector .vmem S64x128 .f32 :=
  ((rowsV).slice (Rect.unit (s := S4x64x128) ![0, 0, 0] S1x64x128.size inb_S4x64x128_S1x64x128_0_0_0) (fun _ => rfl)).squeeze S64x128 squeezes_S1x64x128_S64x128
abbrev slotK1 : Memref sig .scVector .vmem S64x128 .f32 :=
  ((rowsV).slice (Rect.unit (s := S4x64x128) ![1, 0, 0] S1x64x128.size inb_S4x64x128_S1x64x128_1_0_0) (fun _ => rfl)).squeeze S64x128 squeezes_S1x64x128_S64x128
abbrev slotK2 : Memref sig .scVector .vmem S64x128 .f32 :=
  ((rowsV).slice (Rect.unit (s := S4x64x128) ![2, 0, 0] S1x64x128.size inb_S4x64x128_S1x64x128_2_0_0) (fun _ => rfl)).squeeze S64x128 squeezes_S1x64x128_S64x128
abbrev slotK3 : Memref sig .scVector .vmem S64x128 .f32 :=
  ((rowsV).slice (Rect.unit (s := S4x64x128) ![3, 0, 0] S1x64x128.size inb_S4x64x128_S1x64x128_3_0_0) (fun _ => rfl)).squeeze S64x128 squeezes_S1x64x128_S64x128

/-- A lane of a load of sixteen lanes of one row through a squeezed slot of the gathered rows: lane l of the row at
    offsets off of the slot at o3 is the rows' element (slot, row, off 1 + l). -/
theorem read_lane (R : S4x64x128.Idx → Elt F .f32) (o3 : Fin 3 → ℕ) (h3 : ∀ a, o3 a + S1x64x128.size a ≤ S4x64x128.size a)
    (hs : ∀ a, (Rect.unit (s := S4x64x128) o3 S1x64x128.size h3).stride a = 1) (sq : S1x64x128.Squeezes S64x128)
    (off : Fin 2 → ℕ) (hoff : ∀ a, off a + S1x16.size a ≤ S64x128.size a) (hc16 : S1x16.ShapeCasts S16) (l : S16.Idx)
    (b : Fin 4) (r : Fin 64) (c : Fin 128)
    (hb0 : o3 0 = b.val) (hb1 : o3 1 = 0) (hb2 : o3 2 = 0) (hr : off 0 = r.val) (hc : off 1 + (l 0).val = c.val) :
    shapeCast S16 (View.readAt (Elt F)
        (((Memref.whole cc2_scratch1 : Memref sig Kind.scVector Space.vmem S4x64x128 EltTy.f32).slice
          (Rect.unit (s := S4x64x128) o3 S1x64x128.size h3) hs).squeeze S64x128 sq).view
        (Rect.unit (s := S64x128) off S1x16.size hoff).toLoadRect R) hc16 l = R (ix3 b r c) := by
  obtain ⟨l0, rfl⟩ : ∃ l0, l = ValueIdx.ix1 l0 := ⟨l 0, ValueIdx.eq_ix1 l⟩
  have hc' : off 1 + l0.val = c.val := hc
  rw [ValueIdx.shapeCast_1a_a_apply, View.readAt_apply]
  show R ((Rect.unit (s := S4x64x128) o3 S1x64x128.size h3).emb (Shape.reshapeEquiv sq.numel_eq
    ((Rect.unit (s := S64x128) off S1x16.size hoff).toLoadRect.idx (ValueIdx.ix2 (0 : Fin 1) l0)))) = _
  have hJ : (Rect.unit (s := S64x128) off S1x16.size hoff).toLoadRect.idx (ValueIdx.ix2 (0 : Fin 1) l0) = ValueIdx.ix2 r c := by
    funext a
    apply Fin.ext
    match a with
    | ⟨0, _⟩ => show off 0 + 1 * 0 = r.val; omega
    | ⟨1, _⟩ => show off 1 + 1 * l0.val = c.val; omega
  rw [hJ, ValueIdx.reshapeEquiv_ix2_1ab]
  congr 1
  funext a
  apply Fin.ext
  match a with
  | ⟨0, _⟩ => show o3 0 + 1 * 0 = b.val; omega
  | ⟨1, _⟩ => show o3 1 + 1 * r.val = r.val; omega
  | ⟨2, _⟩ => show o3 2 + 1 * c.val = c.val; omega

/-- One trip on one lane group: the running value after k rows, then maximumf with the sixteen lanes loaded from row
    base + k + 1 of slot b at lane 16 g, is the running value after k + 1 rows. -/
theorem lane_step (R : S4x64x128.Idx → Elt F .f32) (b : Fin 4) (base : ℕ) (g : Fin 8) (a : FVec F S16 .f32) (k : ℕ)
    (hk : base + (k + 1) < 64)
    (o3 : Fin 3 → ℕ) (h3 : ∀ a, o3 a + S1x64x128.size a ≤ S4x64x128.size a)
    (hs : ∀ a, (Rect.unit (s := S4x64x128) o3 S1x64x128.size h3).stride a = 1) (sq : S1x64x128.Squeezes S64x128)
    (off : Fin 2 → ℕ) (hoff : ∀ a, off a + S1x16.size a ≤ S64x128.size a) (hc16 : S1x16.ShapeCasts S16)
    (hb0 : o3 0 = b.val) (hb1 : o3 1 = 0) (hb2 : o3 2 = 0) (hoff0 : off 0 = base + (k + 1)) (hoff1 : off 1 = 16 * g.val) :
    maximumf (rowsAccK R b base g a k) (shapeCast S16 (View.readAt (Elt F)
        (((Memref.whole cc2_scratch1 : Memref sig Kind.scVector Space.vmem S4x64x128 EltTy.f32).slice
          (Rect.unit (s := S4x64x128) o3 S1x64x128.size h3) hs).squeeze S64x128 sq).view
        (Rect.unit (s := S64x128) off S1x16.size hoff).toLoadRect R) hc16)
      = rowsAccK R b base g a (k + 1) := by
  rw [rowsAccK_succ]
  congr 1
  funext l
  have hl : (l 0).val < 16 := (l 0).isLt
  have hg : g.val < 8 := g.isLt
  refine read_lane R o3 h3 hs sq off hoff hc16 l b _ _ hb0 hb1 hb2 ?_ ?_
  · show off 0 = (base + (k + 1)) % 64
    rw [hoff0, Nat.mod_eq_of_lt hk]
  · show off 1 + (l 0).val = (16 * g.val + (l 0).val) % 128
    rw [hoff1, Nat.mod_eq_of_lt (by omega)]

/-! ## The slot alone held -/

/-- Before trip k of the loop over slot b from row base, with the resource H held throughout: the eight running values
    are the folds after k rows. -/
def sInv (R : S4x64x128.Idx → F .f32) (H : sProp 𝕄) (b : Fin 4) (base : ℕ) (a0 a1 a2 a3 a4 a5 a6 a7 : FVec F S16 .f32) (k : ℕ)
    (acc : FVec F S16 .f32 × FVec F S16 .f32 × FVec F S16 .f32 × FVec F S16 .f32 × FVec F S16 .f32 × FVec F S16 .f32 × FVec F S16 .f32 × FVec F S16 .f32) :
    sProp 𝕄 :=
  iprop(⌜acc = (rowsAccK R b base 0 a0 k, rowsAccK R b base 1 a1 k, rowsAccK R b base 2 a2 k, rowsAccK R b base 3 a3 k,
        rowsAccK R b base 4 a4 k, rowsAccK R b base 5 a5 k, rowsAccK R b base 6 a6 k, rowsAccK R b base 7 a7 k)⌝
    ∗ H)

/-- One trip of the loop over rows 1..31 of slot 0, the slot alone held: from the folds after k rows to the
    folds after k + 1. -/
theorem t2_step (d : Dev nD) (i : grid2.Coords) (q : PosShare TreeShare) (R : Buf (Elt F) ((thrV d i).loc cc2_scratch1))
    (a0 a1 a2 a3 a4 a5 a6 a7 : FVec F S16 .f32) (k : Fin k2_t2_loop.trips)
    (acc : FVec F S16 .f32 × FVec F S16 .f32 × FVec F S16 .f32 × FVec F S16 .f32 × FVec F S16 .f32 × FVec F S16 .f32 × FVec F S16 .f32 × FVec F S16 .f32) :
    sInv R ((slotK0).view.loc (thrV d i) ↦[(slotK0).view.set]{q} R) 0 0 a0 a1 a2 a3 a4 a5 a6 a7 k.val acc
      ⊢ wp frame (wpE (defs₀ (F := F)) 𝒱₀ (thrV d i) none) Set.univ
          ((k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 1#32 1#32) k acc)
          (sInv R ((slotK0).view.loc (thrV d i) ↦[(slotK0).view.set]{q} R) 0 0 a0 a1 a2 a3 a4 a5 a6 a7 (k.val + 1)) := by
  have hk : k.val < 31 := k.isLt
  unfold sInv
  iintro ⟨%hacc, HR⟩
  subst hacc
  unfold k2_t2_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t2_step.sl.r k2_pay1
      exact lane_step R 0 0 0 a0 k.val (by omega) _ _ _ _ _ _ _ rfl rfl rfl
        (by rw [k2_off6_eq]; show k.val + 1 = _; omega) (by rw [k2_off6_eq]; rfl)
    · unfold t2_step.sl.r_1 k2_pay2
      exact lane_step R 0 0 1 a1 k.val (by omega) _ _ _ _ _ _ _ rfl rfl rfl
        (by rw [k2_off7_eq]; show k.val + 1 = _; omega) (by rw [k2_off7_eq]; rfl)
    · unfold t2_step.sl.r_2 k2_pay3
      exact lane_step R 0 0 2 a2 k.val (by omega) _ _ _ _ _ _ _ rfl rfl rfl
        (by rw [k2_off8_eq]; show k.val + 1 = _; omega) (by rw [k2_off8_eq]; rfl)
    · unfold t2_step.sl.r_3 k2_pay4
      exact lane_step R 0 0 3 a3 k.val (by omega) _ _ _ _ _ _ _ rfl rfl rfl
        (by rw [k2_off9_eq]; show k.val + 1 = _; omega) (by rw [k2_off9_eq]; rfl)
    · unfold t2_step.sl.r_4 k2_pay5
      exact lane_step R 0 0 4 a4 k.val (by omega) _ _ _ _ _ _ _ rfl rfl rfl
        (by rw [k2_off10_eq]; show k.val + 1 = _; omega) (by rw [k2_off10_eq]; rfl)
    · unfold k2_pay49
      exact lane_step R 0 0 5 a5 k.val (by omega) _ _ _ _ _ _ _ rfl rfl rfl
        (by rw [k2_off11_eq]; show k.val + 1 = _; omega) (by rw [k2_off11_eq]; rfl)
    · unfold k2_pay50
      exact lane_step R 0 0 6 a6 k.val (by omega) _ _ _ _ _ _ _ rfl rfl rfl
        (by rw [k2_off12_eq]; show k.val + 1 = _; omega) (by rw [k2_off12_eq]; rfl)
    · unfold k2_pay51
      exact lane_step R 0 0 7 a7 k.val (by omega) _ _ _ _ _ _ _ rfl rfl rfl
        (by rw [k2_off13_eq]; show k.val + 1 = _; omega) (by rw [k2_off13_eq]; rfl)
  · iexact HR

/-- The loop over rows 1..31 of node 0 of slot 0, the slot alone held (at any share, unchanged; the other
    slots may be in use elsewhere): the eight running values become their folds. -/
theorem t2_run (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦[(slotK0).view.set]{q} R : sProp 𝕄)
      ⊢ wp frame (wpE (defs₀ (F := F)) 𝒱₀ (thrV d i) none) Set.univ
          (Scf.Loop.for k2_t2_loop k2_t2_ok (a0, a1, a2, a3, a4, a5, a6, a7)
            (k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 1#32 1#32))
          fun r => iprop(⌜r = (rowsAcc R 0 0 0 a0, rowsAcc R 0 0 1 a1, rowsAcc R 0 0 2 a2, rowsAcc R 0 0 3 a3,
                rowsAcc R 0 0 4 a4, rowsAcc R 0 0 5 a5, rowsAcc R 0 0 6 a6, rowsAcc R 0 0 7 a7)⌝
            ∗ (rowsV).view.loc (thrV d i) ↦[(slotK0).view.set]{q} R) := by
  show (((slotK0).view.loc (thrV d i) ↦[(slotK0).view.set]{q} R) : sProp 𝕄) ⊢ _
  iintro HR
  sl_for (sInv R ((slotK0).view.loc (thrV d i) ↦[(slotK0).view.set]{q} R) 0 0 a0 a1 a2 a3 a4 a5 a6 a7) $$ [HR]
  case region => intro k acc; exact t2_step d i q R a0 a1 a2 a3 a4 a5 a6 a7 k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t2_frame (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦[(slotK0).view.set]{q} R : sProp 𝕄)
      ⊢ wp frame (wpE (defs₀ (F := F)) 𝒱₀ (thrV d i) none) Set.univ
          (Scf.Loop.for k2_t2_loop k2_t2_ok (a0, a1, a2, a3, a4, a5, a6, a7)
            (k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 1#32 1#32))
          fun _ => (rowsV).view.loc (thrV d i) ↦[(slotK0).view.set]{q} R := by
  iintro HR
  iapply (wp_wand_r frame (wpE (defs₀ (F := F)) 𝒱₀ (thrV d i) none) Set.univ)
  isplitl [HR]
  · iapply (t2_run d i q R a0 a1 a2 a3 a4 a5 a6 a7); iexact HR
  · iintro %r ⟨-, HR⟩; iexact HR

/-- One trip of the loop over rows 33..63 of slot 0, the slot alone held: from the folds after k rows to the
    folds after k + 1. -/
theorem t3_step (d : Dev nD) (i : grid2.Coords) (q : PosShare TreeShare) (R : Buf (Elt F) ((thrV d i).loc cc2_scratch1))
    (a0 a1 a2 a3 a4 a5 a6 a7 : FVec F S16 .f32) (c : BitVec 32) (k : Fin k2_t3_loop.trips)
    (acc : FVec F S16 .f32 × FVec F S16 .f32 × FVec F S16 .f32 × FVec F S16 .f32 × FVec F S16 .f32 × FVec F S16 .f32 × FVec F S16 .f32 × FVec F S16 .f32) :
    sInv R ((slotK0).view.loc (thrV d i) ↦[(slotK0).view.set]{q} R) 0 32 a0 a1 a2 a3 a4 a5 a6 a7 k.val acc
      ⊢ wp frame (wpE (defs₀ (F := F)) 𝒱₀ (thrV d i) none) Set.univ
          ((k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c) k acc)
          (sInv R ((slotK0).view.loc (thrV d i) ↦[(slotK0).view.set]{q} R) 0 32 a0 a1 a2 a3 a4 a5 a6 a7 (k.val + 1)) := by
  have hk : k.val < 31 := k.isLt
  unfold sInv
  iintro ⟨%hacc, HR⟩
  subst hacc
  unfold k2_t3_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t3_step.sl.r k2_pay6
      exact lane_step R 0 32 0 a0 k.val (by omega) _ _ _ _ _ _ _ rfl rfl rfl
        (by rw [k2_off14_eq]; show k.val + 33 = _; omega) (by rw [k2_off14_eq]; rfl)
    · unfold t3_step.sl.r_1 k2_pay7
      exact lane_step R 0 32 1 a1 k.val (by omega) _ _ _ _ _ _ _ rfl rfl rfl
        (by rw [k2_off15_eq]; show k.val + 33 = _; omega) (by rw [k2_off15_eq]; rfl)
    · unfold t3_step.sl.r_2 k2_pay8
      exact lane_step R 0 32 2 a2 k.val (by omega) _ _ _ _ _ _ _ rfl rfl rfl
        (by rw [k2_off16_eq]; show k.val + 33 = _; omega) (by rw [k2_off16_eq]; rfl)
    · unfold t3_step.sl.r_3 k2_pay9
      exact lane_step R 0 32 3 a3 k.val (by omega) _ _ _ _ _ _ _ rfl rfl rfl
        (by rw [k2_off17_eq]; show k.val + 33 = _; omega) (by rw [k2_off17_eq]; rfl)
    · unfold t3_step.sl.r_4 k2_pay10
      exact lane_step R 0 32 4 a4 k.val (by omega) _ _ _ _ _ _ _ rfl rfl rfl
        (by rw [k2_off18_eq]; show k.val + 33 = _; omega) (by rw [k2_off18_eq]; rfl)
    · unfold k2_pay68
      exact lane_step R 0 32 5 a5 k.val (by omega) _ _ _ _ _ _ _ rfl rfl rfl
        (by rw [k2_off19_eq]; show k.val + 33 = _; omega) (by rw [k2_off19_eq]; rfl)
    · unfold k2_pay69
      exact lane_step R 0 32 6 a6 k.val (by omega) _ _ _ _ _ _ _ rfl rfl rfl
        (by rw [k2_off20_eq]; show k.val + 33 = _; omega) (by rw [k2_off20_eq]; rfl)
    · unfold k2_pay70
      exact lane_step R 0 32 7 a7 k.val (by omega) _ _ _ _ _ _ _ rfl rfl rfl
        (by rw [k2_off21_eq]; show k.val + 33 = _; omega) (by rw [k2_off21_eq]; rfl)
  · iexact HR

/-- The loop over rows 1..31 of node 1 of slot 0 (the slot's rows 33..63), the slot alone held (at any share, unchanged; the other
    slots may be in use elsewhere): the eight running values become their folds. The word c is a constant the region binds
    and never reads. -/
theorem t3_run (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK0).view.set]{q} R : sProp 𝕄)
      ⊢ wp frame (wpE (defs₀ (F := F)) 𝒱₀ (thrV d i) none) Set.univ
          (Scf.Loop.for k2_t3_loop k2_t3_ok (a0, a1, a2, a3, a4, a5, a6, a7)
            (k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun r => iprop(⌜r = (rowsAcc R 0 32 0 a0, rowsAcc R 0 32 1 a1, rowsAcc R 0 32 2 a2, rowsAcc R 0 32 3 a3,
                rowsAcc R 0 32 4 a4, rowsAcc R 0 32 5 a5, rowsAcc R 0 32 6 a6, rowsAcc R 0 32 7 a7)⌝
            ∗ (rowsV).view.loc (thrV d i) ↦[(slotK0).view.set]{q} R) := by
  show (((slotK0).view.loc (thrV d i) ↦[(slotK0).view.set]{q} R) : sProp 𝕄) ⊢ _
  iintro HR
  sl_for (sInv R ((slotK0).view.loc (thrV d i) ↦[(slotK0).view.set]{q} R) 0 32 a0 a1 a2 a3 a4 a5 a6 a7) $$ [HR]
  case region => intro k acc; exact t3_step d i q R a0 a1 a2 a3 a4 a5 a6 a7 c k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t3_frame (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK0).view.set]{q} R : sProp 𝕄)
      ⊢ wp frame (wpE (defs₀ (F := F)) 𝒱₀ (thrV d i) none) Set.univ
          (Scf.Loop.for k2_t3_loop k2_t3_ok (a0, a1, a2, a3, a4, a5, a6, a7)
            (k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun _ => (rowsV).view.loc (thrV d i) ↦[(slotK0).view.set]{q} R := by
  iintro HR
  iapply (wp_wand_r frame (wpE (defs₀ (F := F)) 𝒱₀ (thrV d i) none) Set.univ)
  isplitl [HR]
  · iapply (t3_run d i q R a0 a1 a2 a3 a4 a5 a6 a7 c); iexact HR
  · iintro %r ⟨-, HR⟩; iexact HR

/-- One trip of the loop over rows 1..31 of slot 1, the slot alone held: from the folds after k rows to the
    folds after k + 1. -/
theorem t4_step (d : Dev nD) (i : grid2.Coords) (q : PosShare TreeShare) (R : Buf (Elt F) ((thrV d i).loc cc2_scratch1))
    (a0 a1 a2 a3 a4 a5 a6 a7 : FVec F S16 .f32) (c : BitVec 32) (k : Fin k2_t4_loop.trips)
    (acc : FVec F S16 .f32 × FVec F S16 .f32 × FVec F S16 .f32 × FVec F S16 .f32 × FVec F S16 .f32 × FVec F S16 .f32 × FVec F S16 .f32 × FVec F S16 .f32) :
    sInv R ((slotK1).view.loc (thrV d i) ↦[(slotK1).view.set]{q} R) 1 0 a0 a1 a2 a3 a4 a5 a6 a7 k.val acc
      ⊢ wp frame (wpE (defs₀ (F := F)) 𝒱₀ (thrV d i) none) Set.univ
          ((k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c) k acc)
          (sInv R ((slotK1).view.loc (thrV d i) ↦[(slotK1).view.set]{q} R) 1 0 a0 a1 a2 a3 a4 a5 a6 a7 (k.val + 1)) := by
  have hk : k.val < 31 := k.isLt
  unfold sInv
  iintro ⟨%hacc, HR⟩
  subst hacc
  unfold k2_t4_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t4_step.sl.r k2_pay11
      exact lane_step R 1 0 0 a0 k.val (by omega) _ _ _ _ _ _ _ rfl rfl rfl
        (by rw [k2_off24_eq]; show k.val + 1 = _; omega) (by rw [k2_off24_eq]; rfl)
    · unfold t4_step.sl.r_1 k2_pay12
      exact lane_step R 1 0 1 a1 k.val (by omega) _ _ _ _ _ _ _ rfl rfl rfl
        (by rw [k2_off25_eq]; show k.val + 1 = _; omega) (by rw [k2_off25_eq]; rfl)
    · unfold t4_step.sl.r_2 k2_pay13
      exact lane_step R 1 0 2 a2 k.val (by omega) _ _ _ _ _ _ _ rfl rfl rfl
        (by rw [k2_off26_eq]; show k.val + 1 = _; omega) (by rw [k2_off26_eq]; rfl)
    · unfold t4_step.sl.r_3 k2_pay14
      exact lane_step R 1 0 3 a3 k.val (by omega) _ _ _ _ _ _ _ rfl rfl rfl
        (by rw [k2_off27_eq]; show k.val + 1 = _; omega) (by rw [k2_off27_eq]; rfl)
    · unfold t4_step.sl.r_4 k2_pay15
      exact lane_step R 1 0 4 a4 k.val (by omega) _ _ _ _ _ _ _ rfl rfl rfl
        (by rw [k2_off28_eq]; show k.val + 1 = _; omega) (by rw [k2_off28_eq]; rfl)
    · unfold k2_pay87
      exact lane_step R 1 0 5 a5 k.val (by omega) _ _ _ _ _ _ _ rfl rfl rfl
        (by rw [k2_off29_eq]; show k.val + 1 = _; omega) (by rw [k2_off29_eq]; rfl)
    · unfold k2_pay88
      exact lane_step R 1 0 6 a6 k.val (by omega) _ _ _ _ _ _ _ rfl rfl rfl
        (by rw [k2_off30_eq]; show k.val + 1 = _; omega) (by rw [k2_off30_eq]; rfl)
    · unfold k2_pay89
      exact lane_step R 1 0 7 a7 k.val (by omega) _ _ _ _ _ _ _ rfl rfl rfl
        (by rw [k2_off31_eq]; show k.val + 1 = _; omega) (by rw [k2_off31_eq]; rfl)
  · iexact HR

/-- The loop over rows 1..31 of node 0 of slot 1, the slot alone held (at any share, unchanged; the other
    slots may be in use elsewhere): the eight running values become their folds. The word c is a constant the region binds
    and never reads. -/
theorem t4_run (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK1).view.set]{q} R : sProp 𝕄)
      ⊢ wp frame (wpE (defs₀ (F := F)) 𝒱₀ (thrV d i) none) Set.univ
          (Scf.Loop.for k2_t4_loop k2_t4_ok (a0, a1, a2, a3, a4, a5, a6, a7)
            (k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun r => iprop(⌜r = (rowsAcc R 1 0 0 a0, rowsAcc R 1 0 1 a1, rowsAcc R 1 0 2 a2, rowsAcc R 1 0 3 a3,
                rowsAcc R 1 0 4 a4, rowsAcc R 1 0 5 a5, rowsAcc R 1 0 6 a6, rowsAcc R 1 0 7 a7)⌝
            ∗ (rowsV).view.loc (thrV d i) ↦[(slotK1).view.set]{q} R) := by
  show (((slotK1).view.loc (thrV d i) ↦[(slotK1).view.set]{q} R) : sProp 𝕄) ⊢ _
  iintro HR
  sl_for (sInv R ((slotK1).view.loc (thrV d i) ↦[(slotK1).view.set]{q} R) 1 0 a0 a1 a2 a3 a4 a5 a6 a7) $$ [HR]
  case region => intro k acc; exact t4_step d i q R a0 a1 a2 a3 a4 a5 a6 a7 c k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t4_frame (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK1).view.set]{q} R : sProp 𝕄)
      ⊢ wp frame (wpE (defs₀ (F := F)) 𝒱₀ (thrV d i) none) Set.univ
          (Scf.Loop.for k2_t4_loop k2_t4_ok (a0, a1, a2, a3, a4, a5, a6, a7)
            (k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun _ => (rowsV).view.loc (thrV d i) ↦[(slotK1).view.set]{q} R := by
  iintro HR
  iapply (wp_wand_r frame (wpE (defs₀ (F := F)) 𝒱₀ (thrV d i) none) Set.univ)
  isplitl [HR]
  · iapply (t4_run d i q R a0 a1 a2 a3 a4 a5 a6 a7 c); iexact HR
  · iintro %r ⟨-, HR⟩; iexact HR

/-- One trip of the loop over rows 33..63 of slot 1, the slot alone held: from the folds after k rows to the
    folds after k + 1. -/
theorem t5_step (d : Dev nD) (i : grid2.Coords) (q : PosShare TreeShare) (R : Buf (Elt F) ((thrV d i).loc cc2_scratch1))
    (a0 a1 a2 a3 a4 a5 a6 a7 : FVec F S16 .f32) (c : BitVec 32) (k : Fin k2_t5_loop.trips)
    (acc : FVec F S16 .f32 × FVec F S16 .f32 × FVec F S16 .f32 × FVec F S16 .f32 × FVec F S16 .f32 × FVec F S16 .f32 × FVec F S16 .f32 × FVec F S16 .f32) :
    sInv R ((slotK1).view.loc (thrV d i) ↦[(slotK1).view.set]{q} R) 1 32 a0 a1 a2 a3 a4 a5 a6 a7 k.val acc
      ⊢ wp frame (wpE (defs₀ (F := F)) 𝒱₀ (thrV d i) none) Set.univ
          ((k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c) k acc)
          (sInv R ((slotK1).view.loc (thrV d i) ↦[(slotK1).view.set]{q} R) 1 32 a0 a1 a2 a3 a4 a5 a6 a7 (k.val + 1)) := by
  have hk : k.val < 31 := k.isLt
  unfold sInv
  iintro ⟨%hacc, HR⟩
  subst hacc
  unfold k2_t5_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t5_step.sl.r k2_pay16
      exact lane_step R 1 32 0 a0 k.val (by omega) _ _ _ _ _ _ _ rfl rfl rfl
        (by rw [k2_off32_eq]; show k.val + 33 = _; omega) (by rw [k2_off32_eq]; rfl)
    · unfold t5_step.sl.r_1 k2_pay17
      exact lane_step R 1 32 1 a1 k.val (by omega) _ _ _ _ _ _ _ rfl rfl rfl
        (by rw [k2_off33_eq]; show k.val + 33 = _; omega) (by rw [k2_off33_eq]; rfl)
    · unfold t5_step.sl.r_2 k2_pay18
      exact lane_step R 1 32 2 a2 k.val (by omega) _ _ _ _ _ _ _ rfl rfl rfl
        (by rw [k2_off34_eq]; show k.val + 33 = _; omega) (by rw [k2_off34_eq]; rfl)
    · unfold t5_step.sl.r_3 k2_pay19
      exact lane_step R 1 32 3 a3 k.val (by omega) _ _ _ _ _ _ _ rfl rfl rfl
        (by rw [k2_off35_eq]; show k.val + 33 = _; omega) (by rw [k2_off35_eq]; rfl)
    · unfold t5_step.sl.r_4 k2_pay20
      exact lane_step R 1 32 4 a4 k.val (by omega) _ _ _ _ _ _ _ rfl rfl rfl
        (by rw [k2_off36_eq]; show k.val + 33 = _; omega) (by rw [k2_off36_eq]; rfl)
    · unfold k2_pay106
      exact lane_step R 1 32 5 a5 k.val (by omega) _ _ _ _ _ _ _ rfl rfl rfl
        (by rw [k2_off37_eq]; show k.val + 33 = _; omega) (by rw [k2_off37_eq]; rfl)
    · unfold k2_pay107
      exact lane_step R 1 32 6 a6 k.val (by omega) _ _ _ _ _ _ _ rfl rfl rfl
        (by rw [k2_off38_eq]; show k.val + 33 = _; omega) (by rw [k2_off38_eq]; rfl)
    · unfold k2_pay108
      exact lane_step R 1 32 7 a7 k.val (by omega) _ _ _ _ _ _ _ rfl rfl rfl
        (by rw [k2_off39_eq]; show k.val + 33 = _; omega) (by rw [k2_off39_eq]; rfl)
  · iexact HR

/-- The loop over rows 1..31 of node 1 of slot 1 (the slot's rows 33..63), the slot alone held (at any share, unchanged; the other
    slots may be in use elsewhere): the eight running values become their folds. The word c is a constant the region binds
    and never reads. -/
theorem t5_run (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK1).view.set]{q} R : sProp 𝕄)
      ⊢ wp frame (wpE (defs₀ (F := F)) 𝒱₀ (thrV d i) none) Set.univ
          (Scf.Loop.for k2_t5_loop k2_t5_ok (a0, a1, a2, a3, a4, a5, a6, a7)
            (k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c))
          fun r => iprop(⌜r = (rowsAcc R 1 32 0 a0, rowsAcc R 1 32 1 a1, rowsAcc R 1 32 2 a2, rowsAcc R 1 32 3 a3,
                rowsAcc R 1 32 4 a4, rowsAcc R 1 32 5 a5, rowsAcc R 1 32 6 a6, rowsAcc R 1 32 7 a7)⌝
            ∗ (rowsV).view.loc (thrV d i) ↦[(slotK1).view.set]{q} R) := by
  show (((slotK1).view.loc (thrV d i) ↦[(slotK1).view.set]{q} R) : sProp 𝕄) ⊢ _
  iintro HR
  sl_for (sInv R ((slotK1).view.loc (thrV d i) ↦[(slotK1).view.set]{q} R) 1 32 a0 a1 a2 a3 a4 a5 a6 a7) $$ [HR]
  case region => intro k acc; exact t5_step d i q R a0 a1 a2 a3 a4 a5 a6 a7 c k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t5_frame (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK1).view.set]{q} R : sProp 𝕄)
      ⊢ wp frame (wpE (defs₀ (F := F)) 𝒱₀ (thrV d i) none) Set.univ
          (Scf.Loop.for k2_t5_loop k2_t5_ok (a0, a1, a2, a3, a4, a5, a6, a7)
            (k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c))
          fun _ => (rowsV).view.loc (thrV d i) ↦[(slotK1).view.set]{q} R := by
  iintro HR
  iapply (wp_wand_r frame (wpE (defs₀ (F := F)) 𝒱₀ (thrV d i) none) Set.univ)
  isplitl [HR]
  · iapply (t5_run d i q R a0 a1 a2 a3 a4 a5 a6 a7 c); iexact HR
  · iintro %r ⟨-, HR⟩; iexact HR

/-- One trip of the loop over rows 1..31 of slot 2, the slot alone held: from the folds after k rows to the
    folds after k + 1. -/
theorem t6_step (d : Dev nD) (i : grid2.Coords) (q : PosShare TreeShare) (R : Buf (Elt F) ((thrV d i).loc cc2_scratch1))
    (a0 a1 a2 a3 a4 a5 a6 a7 : FVec F S16 .f32) (c : BitVec 32) (k : Fin k2_t6_loop.trips)
    (acc : FVec F S16 .f32 × FVec F S16 .f32 × FVec F S16 .f32 × FVec F S16 .f32 × FVec F S16 .f32 × FVec F S16 .f32 × FVec F S16 .f32 × FVec F S16 .f32) :
    sInv R ((slotK2).view.loc (thrV d i) ↦[(slotK2).view.set]{q} R) 2 0 a0 a1 a2 a3 a4 a5 a6 a7 k.val acc
      ⊢ wp frame (wpE (defs₀ (F := F)) 𝒱₀ (thrV d i) none) Set.univ
          ((k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c) k acc)
          (sInv R ((slotK2).view.loc (thrV d i) ↦[(slotK2).view.set]{q} R) 2 0 a0 a1 a2 a3 a4 a5 a6 a7 (k.val + 1)) := by
  have hk : k.val < 31 := k.isLt
  unfold sInv
  iintro ⟨%hacc, HR⟩
  subst hacc
  unfold k2_t6_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t6_step.sl.r k2_pay21
      exact lane_step R 2 0 0 a0 k.val (by omega) _ _ _ _ _ _ _ rfl rfl rfl
        (by rw [k2_off43_eq]; show k.val + 1 = _; omega) (by rw [k2_off43_eq]; rfl)
    · unfold t6_step.sl.r_1 k2_pay22
      exact lane_step R 2 0 1 a1 k.val (by omega) _ _ _ _ _ _ _ rfl rfl rfl
        (by rw [k2_off44_eq]; show k.val + 1 = _; omega) (by rw [k2_off44_eq]; rfl)
    · unfold t6_step.sl.r_2 k2_pay23
      exact lane_step R 2 0 2 a2 k.val (by omega) _ _ _ _ _ _ _ rfl rfl rfl
        (by rw [k2_off45_eq]; show k.val + 1 = _; omega) (by rw [k2_off45_eq]; rfl)
    · unfold t6_step.sl.r_3 k2_pay24
      exact lane_step R 2 0 3 a3 k.val (by omega) _ _ _ _ _ _ _ rfl rfl rfl
        (by rw [k2_off46_eq]; show k.val + 1 = _; omega) (by rw [k2_off46_eq]; rfl)
    · unfold t6_step.sl.r_4 k2_pay25
      exact lane_step R 2 0 4 a4 k.val (by omega) _ _ _ _ _ _ _ rfl rfl rfl
        (by rw [k2_off47_eq]; show k.val + 1 = _; omega) (by rw [k2_off47_eq]; rfl)
    · unfold k2_pay125
      exact lane_step R 2 0 5 a5 k.val (by omega) _ _ _ _ _ _ _ rfl rfl rfl
        (by rw [k2_off48_eq]; show k.val + 1 = _; omega) (by rw [k2_off48_eq]; rfl)
    · unfold k2_pay126
      exact lane_step R 2 0 6 a6 k.val (by omega) _ _ _ _ _ _ _ rfl rfl rfl
        (by rw [k2_off49_eq]; show k.val + 1 = _; omega) (by rw [k2_off49_eq]; rfl)
    · unfold k2_pay127
      exact lane_step R 2 0 7 a7 k.val (by omega) _ _ _ _ _ _ _ rfl rfl rfl
        (by rw [k2_off50_eq]; show k.val + 1 = _; omega) (by rw [k2_off50_eq]; rfl)
  · iexact HR

/-- The loop over rows 1..31 of node 0 of slot 2, the slot alone held (at any share, unchanged; the other
    slots may be in use elsewhere): the eight running values become their folds. The word c is a constant the region binds
    and never reads. -/
theorem t6_run (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK2).view.set]{q} R : sProp 𝕄)
      ⊢ wp frame (wpE (defs₀ (F := F)) 𝒱₀ (thrV d i) none) Set.univ
          (Scf.Loop.for k2_t6_loop k2_t6_ok (a0, a1, a2, a3, a4, a5, a6, a7)
            (k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c))
          fun r => iprop(⌜r = (rowsAcc R 2 0 0 a0, rowsAcc R 2 0 1 a1, rowsAcc R 2 0 2 a2, rowsAcc R 2 0 3 a3,
                rowsAcc R 2 0 4 a4, rowsAcc R 2 0 5 a5, rowsAcc R 2 0 6 a6, rowsAcc R 2 0 7 a7)⌝
            ∗ (rowsV).view.loc (thrV d i) ↦[(slotK2).view.set]{q} R) := by
  show (((slotK2).view.loc (thrV d i) ↦[(slotK2).view.set]{q} R) : sProp 𝕄) ⊢ _
  iintro HR
  sl_for (sInv R ((slotK2).view.loc (thrV d i) ↦[(slotK2).view.set]{q} R) 2 0 a0 a1 a2 a3 a4 a5 a6 a7) $$ [HR]
  case region => intro k acc; exact t6_step d i q R a0 a1 a2 a3 a4 a5 a6 a7 c k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t6_frame (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK2).view.set]{q} R : sProp 𝕄)
      ⊢ wp frame (wpE (defs₀ (F := F)) 𝒱₀ (thrV d i) none) Set.univ
          (Scf.Loop.for k2_t6_loop k2_t6_ok (a0, a1, a2, a3, a4, a5, a6, a7)
            (k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c))
          fun _ => (rowsV).view.loc (thrV d i) ↦[(slotK2).view.set]{q} R := by
  iintro HR
  iapply (wp_wand_r frame (wpE (defs₀ (F := F)) 𝒱₀ (thrV d i) none) Set.univ)
  isplitl [HR]
  · iapply (t6_run d i q R a0 a1 a2 a3 a4 a5 a6 a7 c); iexact HR
  · iintro %r ⟨-, HR⟩; iexact HR

/-- One trip of the loop over rows 33..63 of slot 2, the slot alone held: from the folds after k rows to the
    folds after k + 1. -/
theorem t7_step (d : Dev nD) (i : grid2.Coords) (q : PosShare TreeShare) (R : Buf (Elt F) ((thrV d i).loc cc2_scratch1))
    (a0 a1 a2 a3 a4 a5 a6 a7 : FVec F S16 .f32) (c : BitVec 32) (k : Fin k2_t7_loop.trips)
    (acc : FVec F S16 .f32 × FVec F S16 .f32 × FVec F S16 .f32 × FVec F S16 .f32 × FVec F S16 .f32 × FVec F S16 .f32 × FVec F S16 .f32 × FVec F S16 .f32) :
    sInv R ((slotK2).view.loc (thrV d i) ↦[(slotK2).view.set]{q} R) 2 32 a0 a1 a2 a3 a4 a5 a6 a7 k.val acc
      ⊢ wp frame (wpE (defs₀ (F := F)) 𝒱₀ (thrV d i) none) Set.univ
          ((k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c) k acc)
          (sInv R ((slotK2).view.loc (thrV d i) ↦[(slotK2).view.set]{q} R) 2 32 a0 a1 a2 a3 a4 a5 a6 a7 (k.val + 1)) := by
  have hk : k.val < 31 := k.isLt
  unfold sInv
  iintro ⟨%hacc, HR⟩
  subst hacc
  unfold k2_t7_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t7_step.sl.r k2_pay26
      exact lane_step R 2 32 0 a0 k.val (by omega) _ _ _ _ _ _ _ rfl rfl rfl
        (by rw [k2_off51_eq]; show k.val + 33 = _; omega) (by rw [k2_off51_eq]; rfl)
    · unfold t7_step.sl.r_1 k2_pay27
      exact lane_step R 2 32 1 a1 k.val (by omega) _ _ _ _ _ _ _ rfl rfl rfl
        (by rw [k2_off52_eq]; show k.val + 33 = _; omega) (by rw [k2_off52_eq]; rfl)
    · unfold t7_step.sl.r_2 k2_pay28
      exact lane_step R 2 32 2 a2 k.val (by omega) _ _ _ _ _ _ _ rfl rfl rfl
        (by rw [k2_off53_eq]; show k.val + 33 = _; omega) (by rw [k2_off53_eq]; rfl)
    · unfold t7_step.sl.r_3 k2_pay29
      exact lane_step R 2 32 3 a3 k.val (by omega) _ _ _ _ _ _ _ rfl rfl rfl
        (by rw [k2_off54_eq]; show k.val + 33 = _; omega) (by rw [k2_off54_eq]; rfl)
    · unfold t7_step.sl.r_4 k2_pay30
      exact lane_step R 2 32 4 a4 k.val (by omega) _ _ _ _ _ _ _ rfl rfl rfl
        (by rw [k2_off55_eq]; show k.val + 33 = _; omega) (by rw [k2_off55_eq]; rfl)
    · unfold k2_pay144
      exact lane_step R 2 32 5 a5 k.val (by omega) _ _ _ _ _ _ _ rfl rfl rfl
        (by rw [k2_off56_eq]; show k.val + 33 = _; omega) (by rw [k2_off56_eq]; rfl)
    · unfold k2_pay145
      exact lane_step R 2 32 6 a6 k.val (by omega) _ _ _ _ _ _ _ rfl rfl rfl
        (by rw [k2_off57_eq]; show k.val + 33 = _; omega) (by rw [k2_off57_eq]; rfl)
    · unfold k2_pay146
      exact lane_step R 2 32 7 a7 k.val (by omega) _ _ _ _ _ _ _ rfl rfl rfl
        (by rw [k2_off58_eq]; show k.val + 33 = _; omega) (by rw [k2_off58_eq]; rfl)
  · iexact HR

/-- The loop over rows 1..31 of node 1 of slot 2 (the slot's rows 33..63), the slot alone held (at any share, unchanged; the other
    slots may be in use elsewhere): the eight running values become their folds. The word c is a constant the region binds
    and never reads. -/
theorem t7_run (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK2).view.set]{q} R : sProp 𝕄)
      ⊢ wp frame (wpE (defs₀ (F := F)) 𝒱₀ (thrV d i) none) Set.univ
          (Scf.Loop.for k2_t7_loop k2_t7_ok (a0, a1, a2, a3, a4, a5, a6, a7)
            (k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c))
          fun r => iprop(⌜r = (rowsAcc R 2 32 0 a0, rowsAcc R 2 32 1 a1, rowsAcc R 2 32 2 a2, rowsAcc R 2 32 3 a3,
                rowsAcc R 2 32 4 a4, rowsAcc R 2 32 5 a5, rowsAcc R 2 32 6 a6, rowsAcc R 2 32 7 a7)⌝
            ∗ (rowsV).view.loc (thrV d i) ↦[(slotK2).view.set]{q} R) := by
  show (((slotK2).view.loc (thrV d i) ↦[(slotK2).view.set]{q} R) : sProp 𝕄) ⊢ _
  iintro HR
  sl_for (sInv R ((slotK2).view.loc (thrV d i) ↦[(slotK2).view.set]{q} R) 2 32 a0 a1 a2 a3 a4 a5 a6 a7) $$ [HR]
  case region => intro k acc; exact t7_step d i q R a0 a1 a2 a3 a4 a5 a6 a7 c k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t7_frame (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK2).view.set]{q} R : sProp 𝕄)
      ⊢ wp frame (wpE (defs₀ (F := F)) 𝒱₀ (thrV d i) none) Set.univ
          (Scf.Loop.for k2_t7_loop k2_t7_ok (a0, a1, a2, a3, a4, a5, a6, a7)
            (k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c))
          fun _ => (rowsV).view.loc (thrV d i) ↦[(slotK2).view.set]{q} R := by
  iintro HR
  iapply (wp_wand_r frame (wpE (defs₀ (F := F)) 𝒱₀ (thrV d i) none) Set.univ)
  isplitl [HR]
  · iapply (t7_run d i q R a0 a1 a2 a3 a4 a5 a6 a7 c); iexact HR
  · iintro %r ⟨-, HR⟩; iexact HR

/-- One trip of the loop over rows 1..31 of slot 3, the slot alone held: from the folds after k rows to the
    folds after k + 1. -/
theorem t8_step (d : Dev nD) (i : grid2.Coords) (q : PosShare TreeShare) (R : Buf (Elt F) ((thrV d i).loc cc2_scratch1))
    (a0 a1 a2 a3 a4 a5 a6 a7 : FVec F S16 .f32) (k : Fin k2_t8_loop.trips)
    (acc : FVec F S16 .f32 × FVec F S16 .f32 × FVec F S16 .f32 × FVec F S16 .f32 × FVec F S16 .f32 × FVec F S16 .f32 × FVec F S16 .f32 × FVec F S16 .f32) :
    sInv R ((slotK3).view.loc (thrV d i) ↦[(slotK3).view.set]{q} R) 3 0 a0 a1 a2 a3 a4 a5 a6 a7 k.val acc
      ⊢ wp frame (wpE (defs₀ (F := F)) 𝒱₀ (thrV d i) none) Set.univ
          ((k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4) k acc)
          (sInv R ((slotK3).view.loc (thrV d i) ↦[(slotK3).view.set]{q} R) 3 0 a0 a1 a2 a3 a4 a5 a6 a7 (k.val + 1)) := by
  have hk : k.val < 31 := k.isLt
  unfold sInv
  iintro ⟨%hacc, HR⟩
  subst hacc
  unfold k2_t8_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t8_step.sl.r k2_pay31
      exact lane_step R 3 0 0 a0 k.val (by omega) _ _ _ _ _ _ _ rfl rfl rfl
        (by rw [k2_off60_eq]; show k.val + 1 = _; omega) (by rw [k2_off60_eq]; rfl)
    · unfold t8_step.sl.r_1 k2_pay32
      exact lane_step R 3 0 1 a1 k.val (by omega) _ _ _ _ _ _ _ rfl rfl rfl
        (by rw [k2_off61_eq]; show k.val + 1 = _; omega) (by rw [k2_off61_eq]; rfl)
    · unfold t8_step.sl.r_2 k2_pay33
      exact lane_step R 3 0 2 a2 k.val (by omega) _ _ _ _ _ _ _ rfl rfl rfl
        (by rw [k2_off62_eq]; show k.val + 1 = _; omega) (by rw [k2_off62_eq]; rfl)
    · unfold t8_step.sl.r_3 k2_pay34
      exact lane_step R 3 0 3 a3 k.val (by omega) _ _ _ _ _ _ _ rfl rfl rfl
        (by rw [k2_off63_eq]; show k.val + 1 = _; omega) (by rw [k2_off63_eq]; rfl)
    · unfold t8_step.sl.r_4 k2_pay35
      exact lane_step R 3 0 4 a4 k.val (by omega) _ _ _ _ _ _ _ rfl rfl rfl
        (by rw [k2_off64_eq]; show k.val + 1 = _; omega) (by rw [k2_off64_eq]; rfl)
    · unfold k2_pay163
      exact lane_step R 3 0 5 a5 k.val (by omega) _ _ _ _ _ _ _ rfl rfl rfl
        (by rw [k2_off65_eq]; show k.val + 1 = _; omega) (by rw [k2_off65_eq]; rfl)
    · unfold k2_pay164
      exact lane_step R 3 0 6 a6 k.val (by omega) _ _ _ _ _ _ _ rfl rfl rfl
        (by rw [k2_off66_eq]; show k.val + 1 = _; omega) (by rw [k2_off66_eq]; rfl)
    · unfold k2_pay165
      exact lane_step R 3 0 7 a7 k.val (by omega) _ _ _ _ _ _ _ rfl rfl rfl
        (by rw [k2_off67_eq]; show k.val + 1 = _; omega) (by rw [k2_off67_eq]; rfl)
  · iexact HR

/-- The loop over rows 1..31 of node 0 of slot 3, the slot alone held (at any share, unchanged; the other
    slots may be in use elsewhere): the eight running values become their folds. -/
theorem t8_run (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦[(slotK3).view.set]{q} R : sProp 𝕄)
      ⊢ wp frame (wpE (defs₀ (F := F)) 𝒱₀ (thrV d i) none) Set.univ
          (Scf.Loop.for k2_t8_loop k2_t8_ok (a0, a1, a2, a3, a4, a5, a6, a7)
            (k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4))
          fun r => iprop(⌜r = (rowsAcc R 3 0 0 a0, rowsAcc R 3 0 1 a1, rowsAcc R 3 0 2 a2, rowsAcc R 3 0 3 a3,
                rowsAcc R 3 0 4 a4, rowsAcc R 3 0 5 a5, rowsAcc R 3 0 6 a6, rowsAcc R 3 0 7 a7)⌝
            ∗ (rowsV).view.loc (thrV d i) ↦[(slotK3).view.set]{q} R) := by
  show (((slotK3).view.loc (thrV d i) ↦[(slotK3).view.set]{q} R) : sProp 𝕄) ⊢ _
  iintro HR
  sl_for (sInv R ((slotK3).view.loc (thrV d i) ↦[(slotK3).view.set]{q} R) 3 0 a0 a1 a2 a3 a4 a5 a6 a7) $$ [HR]
  case region => intro k acc; exact t8_step d i q R a0 a1 a2 a3 a4 a5 a6 a7 k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t8_frame (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦[(slotK3).view.set]{q} R : sProp 𝕄)
      ⊢ wp frame (wpE (defs₀ (F := F)) 𝒱₀ (thrV d i) none) Set.univ
          (Scf.Loop.for k2_t8_loop k2_t8_ok (a0, a1, a2, a3, a4, a5, a6, a7)
            (k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4))
          fun _ => (rowsV).view.loc (thrV d i) ↦[(slotK3).view.set]{q} R := by
  iintro HR
  iapply (wp_wand_r frame (wpE (defs₀ (F := F)) 𝒱₀ (thrV d i) none) Set.univ)
  isplitl [HR]
  · iapply (t8_run d i q R a0 a1 a2 a3 a4 a5 a6 a7); iexact HR
  · iintro %r ⟨-, HR⟩; iexact HR

/-- One trip of the loop over rows 33..63 of slot 3, the slot alone held: from the folds after k rows to the
    folds after k + 1. -/
theorem t9_step (d : Dev nD) (i : grid2.Coords) (q : PosShare TreeShare) (R : Buf (Elt F) ((thrV d i).loc cc2_scratch1))
    (a0 a1 a2 a3 a4 a5 a6 a7 : FVec F S16 .f32) (k : Fin k2_t9_loop.trips)
    (acc : FVec F S16 .f32 × FVec F S16 .f32 × FVec F S16 .f32 × FVec F S16 .f32 × FVec F S16 .f32 × FVec F S16 .f32 × FVec F S16 .f32 × FVec F S16 .f32) :
    sInv R ((slotK3).view.loc (thrV d i) ↦[(slotK3).view.set]{q} R) 3 32 a0 a1 a2 a3 a4 a5 a6 a7 k.val acc
      ⊢ wp frame (wpE (defs₀ (F := F)) 𝒱₀ (thrV d i) none) Set.univ
          ((k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6) k acc)
          (sInv R ((slotK3).view.loc (thrV d i) ↦[(slotK3).view.set]{q} R) 3 32 a0 a1 a2 a3 a4 a5 a6 a7 (k.val + 1)) := by
  have hk : k.val < 31 := k.isLt
  unfold sInv
  iintro ⟨%hacc, HR⟩
  subst hacc
  unfold k2_t9_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t9_step.sl.r k2_pay36
      exact lane_step R 3 32 0 a0 k.val (by omega) _ _ _ _ _ _ _ rfl rfl rfl
        (by rw [k2_off68_eq]; show k.val + 33 = _; omega) (by rw [k2_off68_eq]; rfl)
    · unfold t9_step.sl.r_1 k2_pay37
      exact lane_step R 3 32 1 a1 k.val (by omega) _ _ _ _ _ _ _ rfl rfl rfl
        (by rw [k2_off69_eq]; show k.val + 33 = _; omega) (by rw [k2_off69_eq]; rfl)
    · unfold t9_step.sl.r_2 k2_pay38
      exact lane_step R 3 32 2 a2 k.val (by omega) _ _ _ _ _ _ _ rfl rfl rfl
        (by rw [k2_off70_eq]; show k.val + 33 = _; omega) (by rw [k2_off70_eq]; rfl)
    · unfold t9_step.sl.r_3 k2_pay39
      exact lane_step R 3 32 3 a3 k.val (by omega) _ _ _ _ _ _ _ rfl rfl rfl
        (by rw [k2_off71_eq]; show k.val + 33 = _; omega) (by rw [k2_off71_eq]; rfl)
    · unfold t9_step.sl.r_4 k2_pay40
      exact lane_step R 3 32 4 a4 k.val (by omega) _ _ _ _ _ _ _ rfl rfl rfl
        (by rw [k2_off72_eq]; show k.val + 33 = _; omega) (by rw [k2_off72_eq]; rfl)
    · unfold k2_pay182
      exact lane_step R 3 32 5 a5 k.val (by omega) _ _ _ _ _ _ _ rfl rfl rfl
        (by rw [k2_off73_eq]; show k.val + 33 = _; omega) (by rw [k2_off73_eq]; rfl)
    · unfold k2_pay183
      exact lane_step R 3 32 6 a6 k.val (by omega) _ _ _ _ _ _ _ rfl rfl rfl
        (by rw [k2_off74_eq]; show k.val + 33 = _; omega) (by rw [k2_off74_eq]; rfl)
    · unfold k2_pay184
      exact lane_step R 3 32 7 a7 k.val (by omega) _ _ _ _ _ _ _ rfl rfl rfl
        (by rw [k2_off75_eq]; show k.val + 33 = _; omega) (by rw [k2_off75_eq]; rfl)
  · iexact HR

/-- The loop over rows 1..31 of node 1 of slot 3 (the slot's rows 33..63), the slot alone held (at any share, unchanged; the other
    slots may be in use elsewhere): the eight running values become their folds. -/
theorem t9_run (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦[(slotK3).view.set]{q} R : sProp 𝕄)
      ⊢ wp frame (wpE (defs₀ (F := F)) 𝒱₀ (thrV d i) none) Set.univ
          (Scf.Loop.for k2_t9_loop k2_t9_ok (a0, a1, a2, a3, a4, a5, a6, a7)
            (k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6))
          fun r => iprop(⌜r = (rowsAcc R 3 32 0 a0, rowsAcc R 3 32 1 a1, rowsAcc R 3 32 2 a2, rowsAcc R 3 32 3 a3,
                rowsAcc R 3 32 4 a4, rowsAcc R 3 32 5 a5, rowsAcc R 3 32 6 a6, rowsAcc R 3 32 7 a7)⌝
            ∗ (rowsV).view.loc (thrV d i) ↦[(slotK3).view.set]{q} R) := by
  show (((slotK3).view.loc (thrV d i) ↦[(slotK3).view.set]{q} R) : sProp 𝕄) ⊢ _
  iintro HR
  sl_for (sInv R ((slotK3).view.loc (thrV d i) ↦[(slotK3).view.set]{q} R) 3 32 a0 a1 a2 a3 a4 a5 a6 a7) $$ [HR]
  case region => intro k acc; exact t9_step d i q R a0 a1 a2 a3 a4 a5 a6 a7 k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t9_frame (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦[(slotK3).view.set]{q} R : sProp 𝕄)
      ⊢ wp frame (wpE (defs₀ (F := F)) 𝒱₀ (thrV d i) none) Set.univ
          (Scf.Loop.for k2_t9_loop k2_t9_ok (a0, a1, a2, a3, a4, a5, a6, a7)
            (k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6))
          fun _ => (rowsV).view.loc (thrV d i) ↦[(slotK3).view.set]{q} R := by
  iintro HR
  iapply (wp_wand_r frame (wpE (defs₀ (F := F)) 𝒱₀ (thrV d i) none) Set.univ)
  isplitl [HR]
  · iapply (t9_run d i q R a0 a1 a2 a3 a4 a5 a6 a7); iexact HR
  · iintro %r ⟨-, HR⟩; iexact HR

/-! ## The whole scratch held -/

/-- Before trip k of the loop over slot b from row base: the eight running values are the folds after k rows, and the
    gathered rows are held. -/
def tInv (d : Dev nD) (i : grid2.Coords) (q : PosShare TreeShare) (R : Buf (Elt F) ((thrV d i).loc cc2_scratch1))
    (b : Fin 4) (base : ℕ) (a0 a1 a2 a3 a4 a5 a6 a7 : FVec F S16 .f32) (k : ℕ)
    (acc : FVec F S16 .f32 × FVec F S16 .f32 × FVec F S16 .f32 × FVec F S16 .f32 × FVec F S16 .f32 × FVec F S16 .f32 × FVec F S16 .f32 × FVec F S16 .f32) :
    sProp 𝕄 :=
  iprop(⌜acc = (rowsAccK R b base 0 a0 k, rowsAccK R b base 1 a1 k, rowsAccK R b base 2 a2 k, rowsAccK R b base 3 a3 k,
        rowsAccK R b base 4 a4 k, rowsAccK R b base 5 a5 k, rowsAccK R b base 6 a6 k, rowsAccK R b base 7 a7 k)⌝
    ∗ (rowsV).view.loc (thrV d i) ↦{q} R)

/-- One trip of the loop over rows 1..31 of slot 0: from the folds after k rows to the folds after k + 1. -/
theorem t2_step_whole (d : Dev nD) (i : grid2.Coords) (q : PosShare TreeShare) (R : Buf (Elt F) ((thrV d i).loc cc2_scratch1))
    (a0 a1 a2 a3 a4 a5 a6 a7 : FVec F S16 .f32) (k : Fin k2_t2_loop.trips)
    (acc : FVec F S16 .f32 × FVec F S16 .f32 × FVec F S16 .f32 × FVec F S16 .f32 × FVec F S16 .f32 × FVec F S16 .f32 × FVec F S16 .f32 × FVec F S16 .f32) :
    tInv d i q R 0 0 a0 a1 a2 a3 a4 a5 a6 a7 k.val acc
      ⊢ wp frame (wpE (defs₀ (F := F)) 𝒱₀ (thrV d i) none) Set.univ
          ((k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 1#32 1#32) k acc)
          (tInv d i q R 0 0 a0 a1 a2 a3 a4 a5 a6 a7 (k.val + 1)) := by
  have hk : k.val < 31 := k.isLt
  unfold tInv
  iintro ⟨%hacc, HR⟩
  subst hacc
  unfold k2_t2_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t2_step_whole.sl.r t2_step_whole.sl.v768 k2_pay1
      exact lane_step R 0 0 0 a0 k.val (by omega) _ _ _ _ _ _ _ rfl rfl rfl
        (by rw [k2_off6_eq]; show k.val + 1 = _; omega) (by rw [k2_off6_eq]; rfl)
    · unfold t2_step_whole.sl.r_1 t2_step_whole.sl.v775 k2_pay2
      exact lane_step R 0 0 1 a1 k.val (by omega) _ _ _ _ _ _ _ rfl rfl rfl
        (by rw [k2_off7_eq]; show k.val + 1 = _; omega) (by rw [k2_off7_eq]; rfl)
    · unfold t2_step_whole.sl.r_2 t2_step_whole.sl.v782 k2_pay3
      exact lane_step R 0 0 2 a2 k.val (by omega) _ _ _ _ _ _ _ rfl rfl rfl
        (by rw [k2_off8_eq]; show k.val + 1 = _; omega) (by rw [k2_off8_eq]; rfl)
    · unfold t2_step_whole.sl.r_3 t2_step_whole.sl.v789 k2_pay4
      exact lane_step R 0 0 3 a3 k.val (by omega) _ _ _ _ _ _ _ rfl rfl rfl
        (by rw [k2_off9_eq]; show k.val + 1 = _; omega) (by rw [k2_off9_eq]; rfl)
    · unfold t2_step_whole.sl.r_4 t2_step_whole.sl.v796 k2_pay5
      exact lane_step R 0 0 4 a4 k.val (by omega) _ _ _ _ _ _ _ rfl rfl rfl
        (by rw [k2_off10_eq]; show k.val + 1 = _; omega) (by rw [k2_off10_eq]; rfl)
    · unfold t2_step_whole.sl.v803 k2_pay49
      exact lane_step R 0 0 5 a5 k.val (by omega) _ _ _ _ _ _ _ rfl rfl rfl
        (by rw [k2_off11_eq]; show k.val + 1 = _; omega) (by rw [k2_off11_eq]; rfl)
    · unfold t2_step_whole.sl.v810 k2_pay50
      exact lane_step R 0 0 6 a6 k.val (by omega) _ _ _ _ _ _ _ rfl rfl rfl
        (by rw [k2_off12_eq]; show k.val + 1 = _; omega) (by rw [k2_off12_eq]; rfl)
    · unfold t2_step_whole.sl.v817 k2_pay51
      exact lane_step R 0 0 7 a7 k.val (by omega) _ _ _ _ _ _ _ rfl rfl rfl
        (by rw [k2_off13_eq]; show k.val + 1 = _; omega) (by rw [k2_off13_eq]; rfl)
  · iexact HR

/-- The loop over rows 1..31 of node 0 of slot 0: the gathered rows held (at any share, unchanged), the eight running
    values become their folds. -/
theorem t2_run_whole (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦{q} R : sProp 𝕄)
      ⊢ wp frame (wpE (defs₀ (F := F)) 𝒱₀ (thrV d i) none) Set.univ
          (Scf.Loop.for k2_t2_loop k2_t2_ok (a0, a1, a2, a3, a4, a5, a6, a7)
            (k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 1#32 1#32))
          fun r => iprop(⌜r = (rowsAcc R 0 0 0 a0, rowsAcc R 0 0 1 a1, rowsAcc R 0 0 2 a2, rowsAcc R 0 0 3 a3,
                rowsAcc R 0 0 4 a4, rowsAcc R 0 0 5 a5, rowsAcc R 0 0 6 a6, rowsAcc R 0 0 7 a7)⌝
            ∗ (rowsV).view.loc (thrV d i) ↦{q} R) := by
  iintro HR
  sl_for (tInv d i q R 0 0 a0 a1 a2 a3 a4 a5 a6 a7) $$ [HR]
  case region => intro k acc; exact t2_step_whole d i q R a0 a1 a2 a3 a4 a5 a6 a7 k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t2_frame_whole (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦{q} R : sProp 𝕄)
      ⊢ wp frame (wpE (defs₀ (F := F)) 𝒱₀ (thrV d i) none) Set.univ
          (Scf.Loop.for k2_t2_loop k2_t2_ok (a0, a1, a2, a3, a4, a5, a6, a7)
            (k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 1#32 1#32))
          fun _ => (rowsV).view.loc (thrV d i) ↦{q} R := by
  iintro HR
  iapply (wp_wand_r frame (wpE (defs₀ (F := F)) 𝒱₀ (thrV d i) none) Set.univ)
  isplitl [HR]
  · iapply (t2_run_whole d i q R a0 a1 a2 a3 a4 a5 a6 a7); iexact HR
  · iintro %r ⟨-, HR⟩; iexact HR

/-- One trip of the loop over rows 33..63 of slot 0: from the folds after k rows to the folds after k + 1. -/
theorem t3_step_whole (d : Dev nD) (i : grid2.Coords) (q : PosShare TreeShare) (R : Buf (Elt F) ((thrV d i).loc cc2_scratch1))
    (a0 a1 a2 a3 a4 a5 a6 a7 : FVec F S16 .f32) (c : BitVec 32) (k : Fin k2_t3_loop.trips)
    (acc : FVec F S16 .f32 × FVec F S16 .f32 × FVec F S16 .f32 × FVec F S16 .f32 × FVec F S16 .f32 × FVec F S16 .f32 × FVec F S16 .f32 × FVec F S16 .f32) :
    tInv d i q R 0 32 a0 a1 a2 a3 a4 a5 a6 a7 k.val acc
      ⊢ wp frame (wpE (defs₀ (F := F)) 𝒱₀ (thrV d i) none) Set.univ
          ((k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c) k acc)
          (tInv d i q R 0 32 a0 a1 a2 a3 a4 a5 a6 a7 (k.val + 1)) := by
  have hk : k.val < 31 := k.isLt
  unfold tInv
  iintro ⟨%hacc, HR⟩
  subst hacc
  unfold k2_t3_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t3_step_whole.sl.r t3_step_whole.sl.v768 k2_pay6
      exact lane_step R 0 32 0 a0 k.val (by omega) _ _ _ _ _ _ _ rfl rfl rfl
        (by rw [k2_off14_eq]; show k.val + 33 = _; omega) (by rw [k2_off14_eq]; rfl)
    · unfold t3_step_whole.sl.r_1 t3_step_whole.sl.v775 k2_pay7
      exact lane_step R 0 32 1 a1 k.val (by omega) _ _ _ _ _ _ _ rfl rfl rfl
        (by rw [k2_off15_eq]; show k.val + 33 = _; omega) (by rw [k2_off15_eq]; rfl)
    · unfold t3_step_whole.sl.r_2 t3_step_whole.sl.v782 k2_pay8
      exact lane_step R 0 32 2 a2 k.val (by omega) _ _ _ _ _ _ _ rfl rfl rfl
        (by rw [k2_off16_eq]; show k.val + 33 = _; omega) (by rw [k2_off16_eq]; rfl)
    · unfold t3_step_whole.sl.r_3 t3_step_whole.sl.v789 k2_pay9
      exact lane_step R 0 32 3 a3 k.val (by omega) _ _ _ _ _ _ _ rfl rfl rfl
        (by rw [k2_off17_eq]; show k.val + 33 = _; omega) (by rw [k2_off17_eq]; rfl)
    · unfold t3_step_whole.sl.r_4 t3_step_whole.sl.v796 k2_pay10
      exact lane_step R 0 32 4 a4 k.val (by omega) _ _ _ _ _ _ _ rfl rfl rfl
        (by rw [k2_off18_eq]; show k.val + 33 = _; omega) (by rw [k2_off18_eq]; rfl)
    · unfold t3_step_whole.sl.v803 k2_pay68
      exact lane_step R 0 32 5 a5 k.val (by omega) _ _ _ _ _ _ _ rfl rfl rfl
        (by rw [k2_off19_eq]; show k.val + 33 = _; omega) (by rw [k2_off19_eq]; rfl)
    · unfold t3_step_whole.sl.v810 k2_pay69
      exact lane_step R 0 32 6 a6 k.val (by omega) _ _ _ _ _ _ _ rfl rfl rfl
        (by rw [k2_off20_eq]; show k.val + 33 = _; omega) (by rw [k2_off20_eq]; rfl)
    · unfold t3_step_whole.sl.v817 k2_pay70
      exact lane_step R 0 32 7 a7 k.val (by omega) _ _ _ _ _ _ _ rfl rfl rfl
        (by rw [k2_off21_eq]; show k.val + 33 = _; omega) (by rw [k2_off21_eq]; rfl)
  · iexact HR

/-- The loop over rows 1..31 of node 1 of slot 0 (the slot's rows 33..63): the gathered rows held (at any share, unchanged), the eight
    running values become their folds. The word c is a constant the region binds and never reads. -/
theorem t3_run_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t3_loop k2_t3_ok (a0, a1, a2, a3, a4, a5, a6, a7)
            (k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun r => iprop(⌜r = (rowsAcc R 0 32 0 a0, rowsAcc R 0 32 1 a1, rowsAcc R 0 32 2 a2, rowsAcc R 0 32 3 a3,
                rowsAcc R 0 32 4 a4, rowsAcc R 0 32 5 a5, rowsAcc R 0 32 6 a6, rowsAcc R 0 32 7 a7)⌝
            ∗ (rowsV).view.loc (thrV d i) ↦{q} R) := by
  iintro HR
  sl_for (tInv d i q R 0 32 a0 a1 a2 a3 a4 a5 a6 a7) $$ [HR]
  case region => intro k acc; exact t3_step_whole d i q R a0 a1 a2 a3 a4 a5 a6 a7 c k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t3_frame_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t3_loop k2_t3_ok (a0, a1, a2, a3, a4, a5, a6, a7)
            (k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun _ => (rowsV).view.loc (thrV d i) ↦{q} R := by
  iintro HR
  iapply (wp_wand_r frame (wpE (defs₀ (F := F)) 𝒱₀ (thrV d i) none) Set.univ)
  isplitl [HR]
  · iapply (t3_run_whole d i q R a0 a1 a2 a3 a4 a5 a6 a7 c); iexact HR
  · iintro %r ⟨-, HR⟩; iexact HR

/-- One trip of the loop over rows 1..31 of slot 1: from the folds after k rows to the folds after k + 1. -/
theorem t4_step_whole (d : Dev nD) (i : grid2.Coords) (q : PosShare TreeShare) (R : Buf (Elt F) ((thrV d i).loc cc2_scratch1))
    (a0 a1 a2 a3 a4 a5 a6 a7 : FVec F S16 .f32) (c : BitVec 32) (k : Fin k2_t4_loop.trips)
    (acc : FVec F S16 .f32 × FVec F S16 .f32 × FVec F S16 .f32 × FVec F S16 .f32 × FVec F S16 .f32 × FVec F S16 .f32 × FVec F S16 .f32 × FVec F S16 .f32) :
    tInv d i q R 1 0 a0 a1 a2 a3 a4 a5 a6 a7 k.val acc
      ⊢ wp frame (wpE (defs₀ (F := F)) 𝒱₀ (thrV d i) none) Set.univ
          ((k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c) k acc)
          (tInv d i q R 1 0 a0 a1 a2 a3 a4 a5 a6 a7 (k.val + 1)) := by
  have hk : k.val < 31 := k.isLt
  unfold tInv
  iintro ⟨%hacc, HR⟩
  subst hacc
  unfold k2_t4_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t4_step_whole.sl.r t4_step_whole.sl.v768 k2_pay11
      exact lane_step R 1 0 0 a0 k.val (by omega) _ _ _ _ _ _ _ rfl rfl rfl
        (by rw [k2_off24_eq]; show k.val + 1 = _; omega) (by rw [k2_off24_eq]; rfl)
    · unfold t4_step_whole.sl.r_1 t4_step_whole.sl.v775 k2_pay12
      exact lane_step R 1 0 1 a1 k.val (by omega) _ _ _ _ _ _ _ rfl rfl rfl
        (by rw [k2_off25_eq]; show k.val + 1 = _; omega) (by rw [k2_off25_eq]; rfl)
    · unfold t4_step_whole.sl.r_2 t4_step_whole.sl.v782 k2_pay13
      exact lane_step R 1 0 2 a2 k.val (by omega) _ _ _ _ _ _ _ rfl rfl rfl
        (by rw [k2_off26_eq]; show k.val + 1 = _; omega) (by rw [k2_off26_eq]; rfl)
    · unfold t4_step_whole.sl.r_3 t4_step_whole.sl.v789 k2_pay14
      exact lane_step R 1 0 3 a3 k.val (by omega) _ _ _ _ _ _ _ rfl rfl rfl
        (by rw [k2_off27_eq]; show k.val + 1 = _; omega) (by rw [k2_off27_eq]; rfl)
    · unfold t4_step_whole.sl.r_4 t4_step_whole.sl.v796 k2_pay15
      exact lane_step R 1 0 4 a4 k.val (by omega) _ _ _ _ _ _ _ rfl rfl rfl
        (by rw [k2_off28_eq]; show k.val + 1 = _; omega) (by rw [k2_off28_eq]; rfl)
    · unfold t4_step_whole.sl.v803 k2_pay87
      exact lane_step R 1 0 5 a5 k.val (by omega) _ _ _ _ _ _ _ rfl rfl rfl
        (by rw [k2_off29_eq]; show k.val + 1 = _; omega) (by rw [k2_off29_eq]; rfl)
    · unfold t4_step_whole.sl.v810 k2_pay88
      exact lane_step R 1 0 6 a6 k.val (by omega) _ _ _ _ _ _ _ rfl rfl rfl
        (by rw [k2_off30_eq]; show k.val + 1 = _; omega) (by rw [k2_off30_eq]; rfl)
    · unfold t4_step_whole.sl.v817 k2_pay89
      exact lane_step R 1 0 7 a7 k.val (by omega) _ _ _ _ _ _ _ rfl rfl rfl
        (by rw [k2_off31_eq]; show k.val + 1 = _; omega) (by rw [k2_off31_eq]; rfl)
  · iexact HR

/-- The loop over rows 1..31 of node 0 of slot 1: the gathered rows held (at any share, unchanged), the eight
    running values become their folds. The word c is a constant the region binds and never reads. -/
theorem t4_run_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t4_loop k2_t4_ok (a0, a1, a2, a3, a4, a5, a6, a7)
            (k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun r => iprop(⌜r = (rowsAcc R 1 0 0 a0, rowsAcc R 1 0 1 a1, rowsAcc R 1 0 2 a2, rowsAcc R 1 0 3 a3,
                rowsAcc R 1 0 4 a4, rowsAcc R 1 0 5 a5, rowsAcc R 1 0 6 a6, rowsAcc R 1 0 7 a7)⌝
            ∗ (rowsV).view.loc (thrV d i) ↦{q} R) := by
  iintro HR
  sl_for (tInv d i q R 1 0 a0 a1 a2 a3 a4 a5 a6 a7) $$ [HR]
  case region => intro k acc; exact t4_step_whole d i q R a0 a1 a2 a3 a4 a5 a6 a7 c k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t4_frame_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t4_loop k2_t4_ok (a0, a1, a2, a3, a4, a5, a6, a7)
            (k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun _ => (rowsV).view.loc (thrV d i) ↦{q} R := by
  iintro HR
  iapply (wp_wand_r frame (wpE (defs₀ (F := F)) 𝒱₀ (thrV d i) none) Set.univ)
  isplitl [HR]
  · iapply (t4_run_whole d i q R a0 a1 a2 a3 a4 a5 a6 a7 c); iexact HR
  · iintro %r ⟨-, HR⟩; iexact HR

/-- One trip of the loop over rows 33..63 of slot 1: from the folds after k rows to the folds after k + 1. -/
theorem t5_step_whole (d : Dev nD) (i : grid2.Coords) (q : PosShare TreeShare) (R : Buf (Elt F) ((thrV d i).loc cc2_scratch1))
    (a0 a1 a2 a3 a4 a5 a6 a7 : FVec F S16 .f32) (c : BitVec 32) (k : Fin k2_t5_loop.trips)
    (acc : FVec F S16 .f32 × FVec F S16 .f32 × FVec F S16 .f32 × FVec F S16 .f32 × FVec F S16 .f32 × FVec F S16 .f32 × FVec F S16 .f32 × FVec F S16 .f32) :
    tInv d i q R 1 32 a0 a1 a2 a3 a4 a5 a6 a7 k.val acc
      ⊢ wp frame (wpE (defs₀ (F := F)) 𝒱₀ (thrV d i) none) Set.univ
          ((k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c) k acc)
          (tInv d i q R 1 32 a0 a1 a2 a3 a4 a5 a6 a7 (k.val + 1)) := by
  have hk : k.val < 31 := k.isLt
  unfold tInv
  iintro ⟨%hacc, HR⟩
  subst hacc
  unfold k2_t5_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t5_step_whole.sl.r t5_step_whole.sl.v768 k2_pay16
      exact lane_step R 1 32 0 a0 k.val (by omega) _ _ _ _ _ _ _ rfl rfl rfl
        (by rw [k2_off32_eq]; show k.val + 33 = _; omega) (by rw [k2_off32_eq]; rfl)
    · unfold t5_step_whole.sl.r_1 t5_step_whole.sl.v775 k2_pay17
      exact lane_step R 1 32 1 a1 k.val (by omega) _ _ _ _ _ _ _ rfl rfl rfl
        (by rw [k2_off33_eq]; show k.val + 33 = _; omega) (by rw [k2_off33_eq]; rfl)
    · unfold t5_step_whole.sl.r_2 t5_step_whole.sl.v782 k2_pay18
      exact lane_step R 1 32 2 a2 k.val (by omega) _ _ _ _ _ _ _ rfl rfl rfl
        (by rw [k2_off34_eq]; show k.val + 33 = _; omega) (by rw [k2_off34_eq]; rfl)
    · unfold t5_step_whole.sl.r_3 t5_step_whole.sl.v789 k2_pay19
      exact lane_step R 1 32 3 a3 k.val (by omega) _ _ _ _ _ _ _ rfl rfl rfl
        (by rw [k2_off35_eq]; show k.val + 33 = _; omega) (by rw [k2_off35_eq]; rfl)
    · unfold t5_step_whole.sl.r_4 t5_step_whole.sl.v796 k2_pay20
      exact lane_step R 1 32 4 a4 k.val (by omega) _ _ _ _ _ _ _ rfl rfl rfl
        (by rw [k2_off36_eq]; show k.val + 33 = _; omega) (by rw [k2_off36_eq]; rfl)
    · unfold t5_step_whole.sl.v803 k2_pay106
      exact lane_step R 1 32 5 a5 k.val (by omega) _ _ _ _ _ _ _ rfl rfl rfl
        (by rw [k2_off37_eq]; show k.val + 33 = _; omega) (by rw [k2_off37_eq]; rfl)
    · unfold t5_step_whole.sl.v810 k2_pay107
      exact lane_step R 1 32 6 a6 k.val (by omega) _ _ _ _ _ _ _ rfl rfl rfl
        (by rw [k2_off38_eq]; show k.val + 33 = _; omega) (by rw [k2_off38_eq]; rfl)
    · unfold t5_step_whole.sl.v817 k2_pay108
      exact lane_step R 1 32 7 a7 k.val (by omega) _ _ _ _ _ _ _ rfl rfl rfl
        (by rw [k2_off39_eq]; show k.val + 33 = _; omega) (by rw [k2_off39_eq]; rfl)
  · iexact HR

/-- The loop over rows 1..31 of node 1 of slot 1 (the slot's rows 33..63): the gathered rows held (at any share, unchanged), the eight
    running values become their folds. The word c is a constant the region binds and never reads. -/
theorem t5_run_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t5_loop k2_t5_ok (a0, a1, a2, a3, a4, a5, a6, a7)
            (k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c))
          fun r => iprop(⌜r = (rowsAcc R 1 32 0 a0, rowsAcc R 1 32 1 a1, rowsAcc R 1 32 2 a2, rowsAcc R 1 32 3 a3,
                rowsAcc R 1 32 4 a4, rowsAcc R 1 32 5 a5, rowsAcc R 1 32 6 a6, rowsAcc R 1 32 7 a7)⌝
            ∗ (rowsV).view.loc (thrV d i) ↦{q} R) := by
  iintro HR
  sl_for (tInv d i q R 1 32 a0 a1 a2 a3 a4 a5 a6 a7) $$ [HR]
  case region => intro k acc; exact t5_step_whole d i q R a0 a1 a2 a3 a4 a5 a6 a7 c k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t5_frame_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t5_loop k2_t5_ok (a0, a1, a2, a3, a4, a5, a6, a7)
            (k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c))
          fun _ => (rowsV).view.loc (thrV d i) ↦{q} R := by
  iintro HR
  iapply (wp_wand_r frame (wpE (defs₀ (F := F)) 𝒱₀ (thrV d i) none) Set.univ)
  isplitl [HR]
  · iapply (t5_run_whole d i q R a0 a1 a2 a3 a4 a5 a6 a7 c); iexact HR
  · iintro %r ⟨-, HR⟩; iexact HR

/-- One trip of the loop over rows 1..31 of slot 2: from the folds after k rows to the folds after k + 1. -/
theorem t6_step_whole (d : Dev nD) (i : grid2.Coords) (q : PosShare TreeShare) (R : Buf (Elt F) ((thrV d i).loc cc2_scratch1))
    (a0 a1 a2 a3 a4 a5 a6 a7 : FVec F S16 .f32) (c : BitVec 32) (k : Fin k2_t6_loop.trips)
    (acc : FVec F S16 .f32 × FVec F S16 .f32 × FVec F S16 .f32 × FVec F S16 .f32 × FVec F S16 .f32 × FVec F S16 .f32 × FVec F S16 .f32 × FVec F S16 .f32) :
    tInv d i q R 2 0 a0 a1 a2 a3 a4 a5 a6 a7 k.val acc
      ⊢ wp frame (wpE (defs₀ (F := F)) 𝒱₀ (thrV d i) none) Set.univ
          ((k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c) k acc)
          (tInv d i q R 2 0 a0 a1 a2 a3 a4 a5 a6 a7 (k.val + 1)) := by
  have hk : k.val < 31 := k.isLt
  unfold tInv
  iintro ⟨%hacc, HR⟩
  subst hacc
  unfold k2_t6_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t6_step_whole.sl.r t6_step_whole.sl.v768 k2_pay21
      exact lane_step R 2 0 0 a0 k.val (by omega) _ _ _ _ _ _ _ rfl rfl rfl
        (by rw [k2_off43_eq]; show k.val + 1 = _; omega) (by rw [k2_off43_eq]; rfl)
    · unfold t6_step_whole.sl.r_1 t6_step_whole.sl.v775 k2_pay22
      exact lane_step R 2 0 1 a1 k.val (by omega) _ _ _ _ _ _ _ rfl rfl rfl
        (by rw [k2_off44_eq]; show k.val + 1 = _; omega) (by rw [k2_off44_eq]; rfl)
    · unfold t6_step_whole.sl.r_2 t6_step_whole.sl.v782 k2_pay23
      exact lane_step R 2 0 2 a2 k.val (by omega) _ _ _ _ _ _ _ rfl rfl rfl
        (by rw [k2_off45_eq]; show k.val + 1 = _; omega) (by rw [k2_off45_eq]; rfl)
    · unfold t6_step_whole.sl.r_3 t6_step_whole.sl.v789 k2_pay24
      exact lane_step R 2 0 3 a3 k.val (by omega) _ _ _ _ _ _ _ rfl rfl rfl
        (by rw [k2_off46_eq]; show k.val + 1 = _; omega) (by rw [k2_off46_eq]; rfl)
    · unfold t6_step_whole.sl.r_4 t6_step_whole.sl.v796 k2_pay25
      exact lane_step R 2 0 4 a4 k.val (by omega) _ _ _ _ _ _ _ rfl rfl rfl
        (by rw [k2_off47_eq]; show k.val + 1 = _; omega) (by rw [k2_off47_eq]; rfl)
    · unfold t6_step_whole.sl.v803 k2_pay125
      exact lane_step R 2 0 5 a5 k.val (by omega) _ _ _ _ _ _ _ rfl rfl rfl
        (by rw [k2_off48_eq]; show k.val + 1 = _; omega) (by rw [k2_off48_eq]; rfl)
    · unfold t6_step_whole.sl.v810 k2_pay126
      exact lane_step R 2 0 6 a6 k.val (by omega) _ _ _ _ _ _ _ rfl rfl rfl
        (by rw [k2_off49_eq]; show k.val + 1 = _; omega) (by rw [k2_off49_eq]; rfl)
    · unfold t6_step_whole.sl.v817 k2_pay127
      exact lane_step R 2 0 7 a7 k.val (by omega) _ _ _ _ _ _ _ rfl rfl rfl
        (by rw [k2_off50_eq]; show k.val + 1 = _; omega) (by rw [k2_off50_eq]; rfl)
  · iexact HR

/-- The loop over rows 1..31 of node 0 of slot 2: the gathered rows held (at any share, unchanged), the eight
    running values become their folds. The word c is a constant the region binds and never reads. -/
theorem t6_run_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t6_loop k2_t6_ok (a0, a1, a2, a3, a4, a5, a6, a7)
            (k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c))
          fun r => iprop(⌜r = (rowsAcc R 2 0 0 a0, rowsAcc R 2 0 1 a1, rowsAcc R 2 0 2 a2, rowsAcc R 2 0 3 a3,
                rowsAcc R 2 0 4 a4, rowsAcc R 2 0 5 a5, rowsAcc R 2 0 6 a6, rowsAcc R 2 0 7 a7)⌝
            ∗ (rowsV).view.loc (thrV d i) ↦{q} R) := by
  iintro HR
  sl_for (tInv d i q R 2 0 a0 a1 a2 a3 a4 a5 a6 a7) $$ [HR]
  case region => intro k acc; exact t6_step_whole d i q R a0 a1 a2 a3 a4 a5 a6 a7 c k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t6_frame_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t6_loop k2_t6_ok (a0, a1, a2, a3, a4, a5, a6, a7)
            (k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c))
          fun _ => (rowsV).view.loc (thrV d i) ↦{q} R := by
  iintro HR
  iapply (wp_wand_r frame (wpE (defs₀ (F := F)) 𝒱₀ (thrV d i) none) Set.univ)
  isplitl [HR]
  · iapply (t6_run_whole d i q R a0 a1 a2 a3 a4 a5 a6 a7 c); iexact HR
  · iintro %r ⟨-, HR⟩; iexact HR

/-- One trip of the loop over rows 33..63 of slot 2: from the folds after k rows to the folds after k + 1. -/
theorem t7_step_whole (d : Dev nD) (i : grid2.Coords) (q : PosShare TreeShare) (R : Buf (Elt F) ((thrV d i).loc cc2_scratch1))
    (a0 a1 a2 a3 a4 a5 a6 a7 : FVec F S16 .f32) (c : BitVec 32) (k : Fin k2_t7_loop.trips)
    (acc : FVec F S16 .f32 × FVec F S16 .f32 × FVec F S16 .f32 × FVec F S16 .f32 × FVec F S16 .f32 × FVec F S16 .f32 × FVec F S16 .f32 × FVec F S16 .f32) :
    tInv d i q R 2 32 a0 a1 a2 a3 a4 a5 a6 a7 k.val acc
      ⊢ wp frame (wpE (defs₀ (F := F)) 𝒱₀ (thrV d i) none) Set.univ
          ((k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c) k acc)
          (tInv d i q R 2 32 a0 a1 a2 a3 a4 a5 a6 a7 (k.val + 1)) := by
  have hk : k.val < 31 := k.isLt
  unfold tInv
  iintro ⟨%hacc, HR⟩
  subst hacc
  unfold k2_t7_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t7_step_whole.sl.r t7_step_whole.sl.v768 k2_pay26
      exact lane_step R 2 32 0 a0 k.val (by omega) _ _ _ _ _ _ _ rfl rfl rfl
        (by rw [k2_off51_eq]; show k.val + 33 = _; omega) (by rw [k2_off51_eq]; rfl)
    · unfold t7_step_whole.sl.r_1 t7_step_whole.sl.v775 k2_pay27
      exact lane_step R 2 32 1 a1 k.val (by omega) _ _ _ _ _ _ _ rfl rfl rfl
        (by rw [k2_off52_eq]; show k.val + 33 = _; omega) (by rw [k2_off52_eq]; rfl)
    · unfold t7_step_whole.sl.r_2 t7_step_whole.sl.v782 k2_pay28
      exact lane_step R 2 32 2 a2 k.val (by omega) _ _ _ _ _ _ _ rfl rfl rfl
        (by rw [k2_off53_eq]; show k.val + 33 = _; omega) (by rw [k2_off53_eq]; rfl)
    · unfold t7_step_whole.sl.r_3 t7_step_whole.sl.v789 k2_pay29
      exact lane_step R 2 32 3 a3 k.val (by omega) _ _ _ _ _ _ _ rfl rfl rfl
        (by rw [k2_off54_eq]; show k.val + 33 = _; omega) (by rw [k2_off54_eq]; rfl)
    · unfold t7_step_whole.sl.r_4 t7_step_whole.sl.v796 k2_pay30
      exact lane_step R 2 32 4 a4 k.val (by omega) _ _ _ _ _ _ _ rfl rfl rfl
        (by rw [k2_off55_eq]; show k.val + 33 = _; omega) (by rw [k2_off55_eq]; rfl)
    · unfold t7_step_whole.sl.v803 k2_pay144
      exact lane_step R 2 32 5 a5 k.val (by omega) _ _ _ _ _ _ _ rfl rfl rfl
        (by rw [k2_off56_eq]; show k.val + 33 = _; omega) (by rw [k2_off56_eq]; rfl)
    · unfold t7_step_whole.sl.v810 k2_pay145
      exact lane_step R 2 32 6 a6 k.val (by omega) _ _ _ _ _ _ _ rfl rfl rfl
        (by rw [k2_off57_eq]; show k.val + 33 = _; omega) (by rw [k2_off57_eq]; rfl)
    · unfold t7_step_whole.sl.v817 k2_pay146
      exact lane_step R 2 32 7 a7 k.val (by omega) _ _ _ _ _ _ _ rfl rfl rfl
        (by rw [k2_off58_eq]; show k.val + 33 = _; omega) (by rw [k2_off58_eq]; rfl)
  · iexact HR

/-- The loop over rows 1..31 of node 1 of slot 2 (the slot's rows 33..63): the gathered rows held (at any share, unchanged), the eight
    running values become their folds. The word c is a constant the region binds and never reads. -/
theorem t7_run_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t7_loop k2_t7_ok (a0, a1, a2, a3, a4, a5, a6, a7)
            (k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c))
          fun r => iprop(⌜r = (rowsAcc R 2 32 0 a0, rowsAcc R 2 32 1 a1, rowsAcc R 2 32 2 a2, rowsAcc R 2 32 3 a3,
                rowsAcc R 2 32 4 a4, rowsAcc R 2 32 5 a5, rowsAcc R 2 32 6 a6, rowsAcc R 2 32 7 a7)⌝
            ∗ (rowsV).view.loc (thrV d i) ↦{q} R) := by
  iintro HR
  sl_for (tInv d i q R 2 32 a0 a1 a2 a3 a4 a5 a6 a7) $$ [HR]
  case region => intro k acc; exact t7_step_whole d i q R a0 a1 a2 a3 a4 a5 a6 a7 c k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t7_frame_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t7_loop k2_t7_ok (a0, a1, a2, a3, a4, a5, a6, a7)
            (k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c))
          fun _ => (rowsV).view.loc (thrV d i) ↦{q} R := by
  iintro HR
  iapply (wp_wand_r frame (wpE (defs₀ (F := F)) 𝒱₀ (thrV d i) none) Set.univ)
  isplitl [HR]
  · iapply (t7_run_whole d i q R a0 a1 a2 a3 a4 a5 a6 a7 c); iexact HR
  · iintro %r ⟨-, HR⟩; iexact HR

/-- One trip of the loop over rows 1..31 of slot 3: from the folds after k rows to the folds after k + 1. -/
theorem t8_step_whole (d : Dev nD) (i : grid2.Coords) (q : PosShare TreeShare) (R : Buf (Elt F) ((thrV d i).loc cc2_scratch1))
    (a0 a1 a2 a3 a4 a5 a6 a7 : FVec F S16 .f32) (k : Fin k2_t8_loop.trips)
    (acc : FVec F S16 .f32 × FVec F S16 .f32 × FVec F S16 .f32 × FVec F S16 .f32 × FVec F S16 .f32 × FVec F S16 .f32 × FVec F S16 .f32 × FVec F S16 .f32) :
    tInv d i q R 3 0 a0 a1 a2 a3 a4 a5 a6 a7 k.val acc
      ⊢ wp frame (wpE (defs₀ (F := F)) 𝒱₀ (thrV d i) none) Set.univ
          ((k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4) k acc)
          (tInv d i q R 3 0 a0 a1 a2 a3 a4 a5 a6 a7 (k.val + 1)) := by
  have hk : k.val < 31 := k.isLt
  unfold tInv
  iintro ⟨%hacc, HR⟩
  subst hacc
  unfold k2_t8_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t8_step_whole.sl.r t8_step_whole.sl.v768 k2_pay31
      exact lane_step R 3 0 0 a0 k.val (by omega) _ _ _ _ _ _ _ rfl rfl rfl
        (by rw [k2_off60_eq]; show k.val + 1 = _; omega) (by rw [k2_off60_eq]; rfl)
    · unfold t8_step_whole.sl.r_1 t8_step_whole.sl.v775 k2_pay32
      exact lane_step R 3 0 1 a1 k.val (by omega) _ _ _ _ _ _ _ rfl rfl rfl
        (by rw [k2_off61_eq]; show k.val + 1 = _; omega) (by rw [k2_off61_eq]; rfl)
    · unfold t8_step_whole.sl.r_2 t8_step_whole.sl.v782 k2_pay33
      exact lane_step R 3 0 2 a2 k.val (by omega) _ _ _ _ _ _ _ rfl rfl rfl
        (by rw [k2_off62_eq]; show k.val + 1 = _; omega) (by rw [k2_off62_eq]; rfl)
    · unfold t8_step_whole.sl.r_3 t8_step_whole.sl.v789 k2_pay34
      exact lane_step R 3 0 3 a3 k.val (by omega) _ _ _ _ _ _ _ rfl rfl rfl
        (by rw [k2_off63_eq]; show k.val + 1 = _; omega) (by rw [k2_off63_eq]; rfl)
    · unfold t8_step_whole.sl.r_4 t8_step_whole.sl.v796 k2_pay35
      exact lane_step R 3 0 4 a4 k.val (by omega) _ _ _ _ _ _ _ rfl rfl rfl
        (by rw [k2_off64_eq]; show k.val + 1 = _; omega) (by rw [k2_off64_eq]; rfl)
    · unfold t8_step_whole.sl.v803 k2_pay163
      exact lane_step R 3 0 5 a5 k.val (by omega) _ _ _ _ _ _ _ rfl rfl rfl
        (by rw [k2_off65_eq]; show k.val + 1 = _; omega) (by rw [k2_off65_eq]; rfl)
    · unfold t8_step_whole.sl.v810 k2_pay164
      exact lane_step R 3 0 6 a6 k.val (by omega) _ _ _ _ _ _ _ rfl rfl rfl
        (by rw [k2_off66_eq]; show k.val + 1 = _; omega) (by rw [k2_off66_eq]; rfl)
    · unfold t8_step_whole.sl.v817 k2_pay165
      exact lane_step R 3 0 7 a7 k.val (by omega) _ _ _ _ _ _ _ rfl rfl rfl
        (by rw [k2_off67_eq]; show k.val + 1 = _; omega) (by rw [k2_off67_eq]; rfl)
  · iexact HR

/-- The loop over rows 1..31 of node 0 of slot 3: the gathered rows held (at any share, unchanged), the eight
    running values become their folds. -/
theorem t8_run_whole (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦{q} R : sProp 𝕄)
      ⊢ wp frame (wpE (defs₀ (F := F)) 𝒱₀ (thrV d i) none) Set.univ
          (Scf.Loop.for k2_t8_loop k2_t8_ok (a0, a1, a2, a3, a4, a5, a6, a7)
            (k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4))
          fun r => iprop(⌜r = (rowsAcc R 3 0 0 a0, rowsAcc R 3 0 1 a1, rowsAcc R 3 0 2 a2, rowsAcc R 3 0 3 a3,
                rowsAcc R 3 0 4 a4, rowsAcc R 3 0 5 a5, rowsAcc R 3 0 6 a6, rowsAcc R 3 0 7 a7)⌝
            ∗ (rowsV).view.loc (thrV d i) ↦{q} R) := by
  iintro HR
  sl_for (tInv d i q R 3 0 a0 a1 a2 a3 a4 a5 a6 a7) $$ [HR]
  case region => intro k acc; exact t8_step_whole d i q R a0 a1 a2 a3 a4 a5 a6 a7 k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t8_frame_whole (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦{q} R : sProp 𝕄)
      ⊢ wp frame (wpE (defs₀ (F := F)) 𝒱₀ (thrV d i) none) Set.univ
          (Scf.Loop.for k2_t8_loop k2_t8_ok (a0, a1, a2, a3, a4, a5, a6, a7)
            (k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4))
          fun _ => (rowsV).view.loc (thrV d i) ↦{q} R := by
  iintro HR
  iapply (wp_wand_r frame (wpE (defs₀ (F := F)) 𝒱₀ (thrV d i) none) Set.univ)
  isplitl [HR]
  · iapply (t8_run_whole d i q R a0 a1 a2 a3 a4 a5 a6 a7); iexact HR
  · iintro %r ⟨-, HR⟩; iexact HR

/-- One trip of the loop over rows 33..63 of slot 3: from the folds after k rows to the folds after k + 1. -/
theorem t9_step_whole (d : Dev nD) (i : grid2.Coords) (q : PosShare TreeShare) (R : Buf (Elt F) ((thrV d i).loc cc2_scratch1))
    (a0 a1 a2 a3 a4 a5 a6 a7 : FVec F S16 .f32) (k : Fin k2_t9_loop.trips)
    (acc : FVec F S16 .f32 × FVec F S16 .f32 × FVec F S16 .f32 × FVec F S16 .f32 × FVec F S16 .f32 × FVec F S16 .f32 × FVec F S16 .f32 × FVec F S16 .f32) :
    tInv d i q R 3 32 a0 a1 a2 a3 a4 a5 a6 a7 k.val acc
      ⊢ wp frame (wpE (defs₀ (F := F)) 𝒱₀ (thrV d i) none) Set.univ
          ((k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6) k acc)
          (tInv d i q R 3 32 a0 a1 a2 a3 a4 a5 a6 a7 (k.val + 1)) := by
  have hk : k.val < 31 := k.isLt
  unfold tInv
  iintro ⟨%hacc, HR⟩
  subst hacc
  unfold k2_t9_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t9_step_whole.sl.r t9_step_whole.sl.v768 k2_pay36
      exact lane_step R 3 32 0 a0 k.val (by omega) _ _ _ _ _ _ _ rfl rfl rfl
        (by rw [k2_off68_eq]; show k.val + 33 = _; omega) (by rw [k2_off68_eq]; rfl)
    · unfold t9_step_whole.sl.r_1 t9_step_whole.sl.v775 k2_pay37
      exact lane_step R 3 32 1 a1 k.val (by omega) _ _ _ _ _ _ _ rfl rfl rfl
        (by rw [k2_off69_eq]; show k.val + 33 = _; omega) (by rw [k2_off69_eq]; rfl)
    · unfold t9_step_whole.sl.r_2 t9_step_whole.sl.v782 k2_pay38
      exact lane_step R 3 32 2 a2 k.val (by omega) _ _ _ _ _ _ _ rfl rfl rfl
        (by rw [k2_off70_eq]; show k.val + 33 = _; omega) (by rw [k2_off70_eq]; rfl)
    · unfold t9_step_whole.sl.r_3 t9_step_whole.sl.v789 k2_pay39
      exact lane_step R 3 32 3 a3 k.val (by omega) _ _ _ _ _ _ _ rfl rfl rfl
        (by rw [k2_off71_eq]; show k.val + 33 = _; omega) (by rw [k2_off71_eq]; rfl)
    · unfold t9_step_whole.sl.r_4 t9_step_whole.sl.v796 k2_pay40
      exact lane_step R 3 32 4 a4 k.val (by omega) _ _ _ _ _ _ _ rfl rfl rfl
        (by rw [k2_off72_eq]; show k.val + 33 = _; omega) (by rw [k2_off72_eq]; rfl)
    · unfold t9_step_whole.sl.v803 k2_pay182
      exact lane_step R 3 32 5 a5 k.val (by omega) _ _ _ _ _ _ _ rfl rfl rfl
        (by rw [k2_off73_eq]; show k.val + 33 = _; omega) (by rw [k2_off73_eq]; rfl)
    · unfold t9_step_whole.sl.v810 k2_pay183
      exact lane_step R 3 32 6 a6 k.val (by omega) _ _ _ _ _ _ _ rfl rfl rfl
        (by rw [k2_off74_eq]; show k.val + 33 = _; omega) (by rw [k2_off74_eq]; rfl)
    · unfold t9_step_whole.sl.v817 k2_pay184
      exact lane_step R 3 32 7 a7 k.val (by omega) _ _ _ _ _ _ _ rfl rfl rfl
        (by rw [k2_off75_eq]; show k.val + 33 = _; omega) (by rw [k2_off75_eq]; rfl)
  · iexact HR

/-- The loop over rows 1..31 of node 1 of slot 3 (the slot's rows 33..63): the gathered rows held (at any share, unchanged), the eight
    running values become their folds. -/
theorem t9_run_whole (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦{q} R : sProp 𝕄)
      ⊢ wp frame (wpE (defs₀ (F := F)) 𝒱₀ (thrV d i) none) Set.univ
          (Scf.Loop.for k2_t9_loop k2_t9_ok (a0, a1, a2, a3, a4, a5, a6, a7)
            (k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6))
          fun r => iprop(⌜r = (rowsAcc R 3 32 0 a0, rowsAcc R 3 32 1 a1, rowsAcc R 3 32 2 a2, rowsAcc R 3 32 3 a3,
                rowsAcc R 3 32 4 a4, rowsAcc R 3 32 5 a5, rowsAcc R 3 32 6 a6, rowsAcc R 3 32 7 a7)⌝
            ∗ (rowsV).view.loc (thrV d i) ↦{q} R) := by
  iintro HR
  sl_for (tInv d i q R 3 32 a0 a1 a2 a3 a4 a5 a6 a7) $$ [HR]
  case region => intro k acc; exact t9_step_whole d i q R a0 a1 a2 a3 a4 a5 a6 a7 k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t9_frame_whole (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦{q} R : sProp 𝕄)
      ⊢ wp frame (wpE (defs₀ (F := F)) 𝒱₀ (thrV d i) none) Set.univ
          (Scf.Loop.for k2_t9_loop k2_t9_ok (a0, a1, a2, a3, a4, a5, a6, a7)
            (k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6))
          fun _ => (rowsV).view.loc (thrV d i) ↦{q} R := by
  iintro HR
  iapply (wp_wand_r frame (wpE (defs₀ (F := F)) 𝒱₀ (thrV d i) none) Set.univ)
  isplitl [HR]
  · iapply (t9_run_whole d i q R a0 a1 a2 a3 a4 a5 a6 a7); iexact HR
  · iintro %r ⟨-, HR⟩; iexact HR

end Cert.KernelIdeal.Hand

end
-- ==== Proof.KI.TileLoopInv.lean ====
/-
  The eight inner loops of the vector-subcore task registered for the executor, each at the invariant that the slot's rows
  are held and the carried values are the folds after k rows: a run meets the loop and goes through it.
-/
import proofs.«208586_g21955872817707_cont_8to1_688_77_alg».proof.Proof.KI.TileLoops

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "zV" => (Memref.whole Cert.KernelIdeal.main_v8_scv : Memref Cert.KernelIdeal.sig Kind.scVector Space.hbm Cert.KernelIdeal.S10240x128 EltTy.f32)
local notation "iV" => (Memref.whole Cert.KernelIdeal.main_v6_scv : Memref Cert.KernelIdeal.sig Kind.scVector Space.hbm Cert.KernelIdeal.S32x80x128 EltTy.i32)
local notation "mV" => (Memref.whole Cert.KernelIdeal.main_v12_scv : Memref Cert.KernelIdeal.sig Kind.scVector Space.hbm Cert.KernelIdeal.S10240x128 EltTy.f32)
local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)
local notation "shV" => (Memref.whole Cert.KernelIdeal.cc2_scratch3 : Memref Cert.KernelIdeal.sig Kind.scVector Space.shared Cert.KernelIdeal.S10240x128 EltTy.f32)

/-! ## The trip counts -/

theorem k2_t2_trips : Scf.trips k2_t2_loop.lb k2_t2_loop.ub k2_t2_loop.st = 31 := rfl
theorem k2_t3_trips : Scf.trips k2_t3_loop.lb k2_t3_loop.ub k2_t3_loop.st = 31 := rfl
theorem k2_t4_trips : Scf.trips k2_t4_loop.lb k2_t4_loop.ub k2_t4_loop.st = 31 := rfl
theorem k2_t5_trips : Scf.trips k2_t5_loop.lb k2_t5_loop.ub k2_t5_loop.st = 31 := rfl
theorem k2_t6_trips : Scf.trips k2_t6_loop.lb k2_t6_loop.ub k2_t6_loop.st = 31 := rfl
theorem k2_t7_trips : Scf.trips k2_t7_loop.lb k2_t7_loop.ub k2_t7_loop.st = 31 := rfl
theorem k2_t8_trips : Scf.trips k2_t8_loop.lb k2_t8_loop.ub k2_t8_loop.st = 31 := rfl
theorem k2_t9_trips : Scf.trips k2_t9_loop.lb k2_t9_loop.ub k2_t9_loop.st = 31 := rfl

/-- At the trip count the fold stopped after k rows is the whole fold. -/
theorem rowsAccK_trips (R : S4x64x128.Idx → F .f32) (b : Fin 4) (base : ℕ) (g : Fin 8) (a : FVec F S16 .f32) {n : ℕ} (hn : n = 31) :
    rowsAccK R b base g a n = rowsAcc R b base g a := by subst hn; rfl

/-- One trip of the loop over rows 1..31 of slot 0, the slot alone held: from the folds after k rows to the
    folds after k + 1. -/
theorem t2_stepG (d : Dev nD) (i : grid2.Coords) (q : PosShare TreeShare) (R : Buf (Elt F) ((thrV d i).loc cc2_scratch1))
    (a0 a1 a2 a3 a4 a5 a6 a7 : FVec F S16 .f32) (c1 c2 : BitVec 32) (k : Fin k2_t2_loop.trips)
    (acc : FVec F S16 .f32 × FVec F S16 .f32 × FVec F S16 .f32 × FVec F S16 .f32 × FVec F S16 .f32 × FVec F S16 .f32 × FVec F S16 .f32 × FVec F S16 .f32) :
    sInv R ((slotK0).view.loc (thrV d i) ↦[(slotK0).view.set]{q} R) 0 0 a0 a1 a2 a3 a4 a5 a6 a7 k.val acc
      ⊢ wp frame (wpE (defs₀ (F := F)) 𝒱₀ (thrV d i) none) Set.univ
          ((k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 c1 c2) k acc)
          (sInv R ((slotK0).view.loc (thrV d i) ↦[(slotK0).view.set]{q} R) 0 0 a0 a1 a2 a3 a4 a5 a6 a7 (k.val + 1)) := by
  have hk : k.val < 31 := k.isLt
  unfold sInv
  iintro ⟨%hacc, HR⟩
  subst hacc
  unfold k2_t2_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t2_stepG.sl.r k2_pay1
      exact lane_step R 0 0 0 a0 k.val (by omega) _ _ _ _ _ _ _ rfl rfl rfl
        (by rw [k2_off6_eq]; show k.val + 1 = _; omega) (by rw [k2_off6_eq]; rfl)
    · unfold t2_stepG.sl.r_1 k2_pay2
      exact lane_step R 0 0 1 a1 k.val (by omega) _ _ _ _ _ _ _ rfl rfl rfl
        (by rw [k2_off7_eq]; show k.val + 1 = _; omega) (by rw [k2_off7_eq]; rfl)
    · unfold t2_stepG.sl.r_2 k2_pay3
      exact lane_step R 0 0 2 a2 k.val (by omega) _ _ _ _ _ _ _ rfl rfl rfl
        (by rw [k2_off8_eq]; show k.val + 1 = _; omega) (by rw [k2_off8_eq]; rfl)
    · unfold t2_stepG.sl.r_3 k2_pay4
      exact lane_step R 0 0 3 a3 k.val (by omega) _ _ _ _ _ _ _ rfl rfl rfl
        (by rw [k2_off9_eq]; show k.val + 1 = _; omega) (by rw [k2_off9_eq]; rfl)
    · unfold t2_stepG.sl.r_4 k2_pay5
      exact lane_step R 0 0 4 a4 k.val (by omega) _ _ _ _ _ _ _ rfl rfl rfl
        (by rw [k2_off10_eq]; show k.val + 1 = _; omega) (by rw [k2_off10_eq]; rfl)
    · unfold k2_pay49
      exact lane_step R 0 0 5 a5 k.val (by omega) _ _ _ _ _ _ _ rfl rfl rfl
        (by rw [k2_off11_eq]; show k.val + 1 = _; omega) (by rw [k2_off11_eq]; rfl)
    · unfold k2_pay50
      exact lane_step R 0 0 6 a6 k.val (by omega) _ _ _ _ _ _ _ rfl rfl rfl
        (by rw [k2_off12_eq]; show k.val + 1 = _; omega) (by rw [k2_off12_eq]; rfl)
    · unfold k2_pay51
      exact lane_step R 0 0 7 a7 k.val (by omega) _ _ _ _ _ _ _ rfl rfl rfl
        (by rw [k2_off13_eq]; show k.val + 1 = _; omega) (by rw [k2_off13_eq]; rfl)
  · iexact HR

set_option warn.classDefReducibility false in
/-- The loop over slot 0 registered for the executor: the slot's rows are held and the carried values are the folds
    after k rows. -/
@[sl_loop] def loopInv_k2_t2 (d : Dev nD) (i : grid2.Coords) (q : PosShare TreeShare) (R : Buf (Elt F) ((thrV d i).loc cc2_scratch1))
    (a0 a1 a2 a3 a4 a5 a6 a7 : FVec F S16 .f32) (c1 c2 : BitVec 32) :
    Idealize.ShloMosaic.LoopInv (M := 𝕄) Idealize.ShloMosaic.frame (wpE (defs₀ (F := F)) 𝒱₀ (thrV d i) none) Set.univ
      k2_t2_loop.lb k2_t2_loop.ub k2_t2_loop.st k2_t2_ok (a0, a1, a2, a3, a4, a5, a6, a7)
      (k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 c1 c2) where
  inv := sInv R ((slotK0).view.loc (thrV d i) ↦[(slotK0).view.set]{q} R) 0 0 a0 a1 a2 a3 a4 a5 a6 a7
  step k acc := t2_stepG d i q R a0 a1 a2 a3 a4 a5 a6 a7 c1 c2 k acc

set_option warn.classDefReducibility false in
/-- The loop over slot 0, second node, registered for the executor: the slot's rows are held and the carried values are the folds
    after k rows. -/
@[sl_loop] def loopInv_k2_t3 (d : Dev nD) (i : grid2.Coords) (q : PosShare TreeShare) (R : Buf (Elt F) ((thrV d i).loc cc2_scratch1))
    (a0 a1 a2 a3 a4 a5 a6 a7 : FVec F S16 .f32) (c : BitVec 32) :
    Idealize.ShloMosaic.LoopInv (M := 𝕄) Idealize.ShloMosaic.frame (wpE (defs₀ (F := F)) 𝒱₀ (thrV d i) none) Set.univ
      k2_t3_loop.lb k2_t3_loop.ub k2_t3_loop.st k2_t3_ok (a0, a1, a2, a3, a4, a5, a6, a7)
      (k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c) where
  inv := sInv R ((slotK0).view.loc (thrV d i) ↦[(slotK0).view.set]{q} R) 0 32 a0 a1 a2 a3 a4 a5 a6 a7
  step k acc := t3_step d i q R a0 a1 a2 a3 a4 a5 a6 a7 c k acc

set_option warn.classDefReducibility false in
/-- The loop over slot 1 registered for the executor: the slot's rows are held and the carried values are the folds
    after k rows. -/
@[sl_loop] def loopInv_k2_t4 (d : Dev nD) (i : grid2.Coords) (q : PosShare TreeShare) (R : Buf (Elt F) ((thrV d i).loc cc2_scratch1))
    (a0 a1 a2 a3 a4 a5 a6 a7 : FVec F S16 .f32) (c : BitVec 32) :
    Idealize.ShloMosaic.LoopInv (M := 𝕄) Idealize.ShloMosaic.frame (wpE (defs₀ (F := F)) 𝒱₀ (thrV d i) none) Set.univ
      k2_t4_loop.lb k2_t4_loop.ub k2_t4_loop.st k2_t4_ok (a0, a1, a2, a3, a4, a5, a6, a7)
      (k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c) where
  inv := sInv R ((slotK1).view.loc (thrV d i) ↦[(slotK1).view.set]{q} R) 1 0 a0 a1 a2 a3 a4 a5 a6 a7
  step k acc := t4_step d i q R a0 a1 a2 a3 a4 a5 a6 a7 c k acc

set_option warn.classDefReducibility false in
/-- The loop over slot 1, second node, registered for the executor: the slot's rows are held and the carried values are the folds
    after k rows. -/
@[sl_loop] def loopInv_k2_t5 (d : Dev nD) (i : grid2.Coords) (q : PosShare TreeShare) (R : Buf (Elt F) ((thrV d i).loc cc2_scratch1))
    (a0 a1 a2 a3 a4 a5 a6 a7 : FVec F S16 .f32) (c : BitVec 32) :
    Idealize.ShloMosaic.LoopInv (M := 𝕄) Idealize.ShloMosaic.frame (wpE (defs₀ (F := F)) 𝒱₀ (thrV d i) none) Set.univ
      k2_t5_loop.lb k2_t5_loop.ub k2_t5_loop.st k2_t5_ok (a0, a1, a2, a3, a4, a5, a6, a7)
      (k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c) where
  inv := sInv R ((slotK1).view.loc (thrV d i) ↦[(slotK1).view.set]{q} R) 1 32 a0 a1 a2 a3 a4 a5 a6 a7
  step k acc := t5_step d i q R a0 a1 a2 a3 a4 a5 a6 a7 c k acc

set_option warn.classDefReducibility false in
/-- The loop over slot 2 registered for the executor: the slot's rows are held and the carried values are the folds
    after k rows. -/
@[sl_loop] def loopInv_k2_t6 (d : Dev nD) (i : grid2.Coords) (q : PosShare TreeShare) (R : Buf (Elt F) ((thrV d i).loc cc2_scratch1))
    (a0 a1 a2 a3 a4 a5 a6 a7 : FVec F S16 .f32) (c : BitVec 32) :
    Idealize.ShloMosaic.LoopInv (M := 𝕄) Idealize.ShloMosaic.frame (wpE (defs₀ (F := F)) 𝒱₀ (thrV d i) none) Set.univ
      k2_t6_loop.lb k2_t6_loop.ub k2_t6_loop.st k2_t6_ok (a0, a1, a2, a3, a4, a5, a6, a7)
      (k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c) where
  inv := sInv R ((slotK2).view.loc (thrV d i) ↦[(slotK2).view.set]{q} R) 2 0 a0 a1 a2 a3 a4 a5 a6 a7
  step k acc := t6_step d i q R a0 a1 a2 a3 a4 a5 a6 a7 c k acc

set_option warn.classDefReducibility false in
/-- The loop over slot 2, second node, registered for the executor: the slot's rows are held and the carried values are the folds
    after k rows. -/
@[sl_loop] def loopInv_k2_t7 (d : Dev nD) (i : grid2.Coords) (q : PosShare TreeShare) (R : Buf (Elt F) ((thrV d i).loc cc2_scratch1))
    (a0 a1 a2 a3 a4 a5 a6 a7 : FVec F S16 .f32) (c : BitVec 32) :
    Idealize.ShloMosaic.LoopInv (M := 𝕄) Idealize.ShloMosaic.frame (wpE (defs₀ (F := F)) 𝒱₀ (thrV d i) none) Set.univ
      k2_t7_loop.lb k2_t7_loop.ub k2_t7_loop.st k2_t7_ok (a0, a1, a2, a3, a4, a5, a6, a7)
      (k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c) where
  inv := sInv R ((slotK2).view.loc (thrV d i) ↦[(slotK2).view.set]{q} R) 2 32 a0 a1 a2 a3 a4 a5 a6 a7
  step k acc := t7_step d i q R a0 a1 a2 a3 a4 a5 a6 a7 c k acc

set_option warn.classDefReducibility false in
/-- The loop over slot 3 registered for the executor: the slot's rows are held and the carried values are the folds
    after k rows. -/
@[sl_loop] def loopInv_k2_t8 (d : Dev nD) (i : grid2.Coords) (q : PosShare TreeShare) (R : Buf (Elt F) ((thrV d i).loc cc2_scratch1))
    (a0 a1 a2 a3 a4 a5 a6 a7 : FVec F S16 .f32) :
    Idealize.ShloMosaic.LoopInv (M := 𝕄) Idealize.ShloMosaic.frame (wpE (defs₀ (F := F)) 𝒱₀ (thrV d i) none) Set.univ
      k2_t8_loop.lb k2_t8_loop.ub k2_t8_loop.st k2_t8_ok (a0, a1, a2, a3, a4, a5, a6, a7)
      (k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4) where
  inv := sInv R ((slotK3).view.loc (thrV d i) ↦[(slotK3).view.set]{q} R) 3 0 a0 a1 a2 a3 a4 a5 a6 a7
  step k acc := t8_step d i q R a0 a1 a2 a3 a4 a5 a6 a7 k acc

set_option warn.classDefReducibility false in
/-- The loop over slot 3, second node, registered for the executor: the slot's rows are held and the carried values are the folds
    after k rows. -/
@[sl_loop] def loopInv_k2_t9 (d : Dev nD) (i : grid2.Coords) (q : PosShare TreeShare) (R : Buf (Elt F) ((thrV d i).loc cc2_scratch1))
    (a0 a1 a2 a3 a4 a5 a6 a7 : FVec F S16 .f32) :
    Idealize.ShloMosaic.LoopInv (M := 𝕄) Idealize.ShloMosaic.frame (wpE (defs₀ (F := F)) 𝒱₀ (thrV d i) none) Set.univ
      k2_t9_loop.lb k2_t9_loop.ub k2_t9_loop.st k2_t9_ok (a0, a1, a2, a3, a4, a5, a6, a7)
      (k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6) where
  inv := sInv R ((slotK3).view.loc (thrV d i) ↦[(slotK3).view.set]{q} R) 3 32 a0 a1 a2 a3 a4 a5 a6 a7
  step k acc := t9_step d i q R a0 a1 a2 a3 a4 a5 a6 a7 k acc

end Cert.KernelIdeal.Hand

end
-- ==== Proof.KI.TileInv.lean ====
/-
  The vector-subcore task: the slices it addresses, the barrier's payloads, the pipeline loop's invariant.
-/
import proofs.«208586_g21955872817707_cont_8to1_688_77_alg».proof.Proof.KI.TileSplit
import proofs.«208586_g21955872817707_cont_8to1_688_77_alg».proof.Proof.KI.TileSets
import proofs.«208586_g21955872817707_cont_8to1_688_77_alg».proof.Proof.KI.TileConds
import proofs.«208586_g21955872817707_cont_8to1_688_77_alg».proof.Proof.KI.TileLoops
import proofs.«208586_g21955872817707_cont_8to1_688_77_alg».proof.Proof.KI.TileLoopInv
import proofs.«208586_g21955872817707_cont_8to1_688_77_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.KernelIdeal.main_v8_scv : Memref Cert.KernelIdeal.sig Kind.scVector Space.hbm Cert.KernelIdeal.S10240x128 EltTy.f32)
local notation "iV" => (Memref.whole Cert.KernelIdeal.main_v6_scv : Memref Cert.KernelIdeal.sig Kind.scVector Space.hbm Cert.KernelIdeal.S32x80x128 EltTy.i32)
local notation "mV" => (Memref.whole Cert.KernelIdeal.main_v12_scv : Memref Cert.KernelIdeal.sig Kind.scVector Space.hbm Cert.KernelIdeal.S10240x128 EltTy.f32)
local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)
local notation "shV" => (Memref.whole Cert.KernelIdeal.cc2_scratch3 : Memref Cert.KernelIdeal.sig Kind.scVector Space.shared Cert.KernelIdeal.S10240x128 EltTy.f32)

section Tile

variable (d : Dev nD) (L : grid2.Coords)

abbrev cV (L : grid2.Coords) : Fin τ.nSC := (L 0).castLE hcore2
abbrev jV (L : grid2.Coords) : Fin τ.nSub := (L 1).castLE hsub2
omit [FloatOps F] in
theorem bound_zero : grid2.bound 0 = 2 := rfl
abbrev jL (L : grid2.Coords) : Fin 16 := Fin.cast bound_one (L 1)
abbrev cL (L : grid2.Coords) : Fin 2 := Fin.cast bound_zero (L 0)

omit [FloatOps F] in
theorem ownSems0_V :
    (ownSems0 (V d (cV L) (jV L)) : sProp 𝕄)
      = iprop(semVal (V d (cV L) (jV L), SemLoc.dma cc2_scoped0.sem) 0 ∗ semVal (V d (cV L) (jV L), SemLoc.dma cc2_scoped1.sem) 0 ∗ semVal (V d (cV L) (jV L), SemLoc.dma cc2_scratch4.sem) 0 ∗ semVal (V d (cV L) (jV L), SemLoc.dma cc2_scratch5.sem) 0 ∗ semVal (V d (cV L) (jV L), SemLoc.dma cc2_scratch6.sem) 0 ∗ semVal (V d (cV L) (jV L), SemLoc.dma cc2_scratch7.sem) 0 ∗ semVal (V d (cV L) (jV L), SemLoc.dma cc2_scratch8.sem) 0 ∗ semVal (V d (cV L) (jV L), SemLoc.dma cc2_scratch9.sem) 0
          ∗ bigSep (((((((((ownCells (V d (cV L) (jV L))).erase (V d (cV L) (jV L), SemLoc.dma cc2_scoped0.sem)).erase (V d (cV L) (jV L), SemLoc.dma cc2_scoped1.sem)).erase (V d (cV L) (jV L), SemLoc.dma cc2_scratch4.sem)).erase (V d (cV L) (jV L), SemLoc.dma cc2_scratch5.sem)).erase (V d (cV L) (jV L), SemLoc.dma cc2_scratch6.sem)).erase (V d (cV L) (jV L), SemLoc.dma cc2_scratch7.sem)).erase (V d (cV L) (jV L), SemLoc.dma cc2_scratch8.sem)).erase (V d (cV L) (jV L), SemLoc.dma cc2_scratch9.sem)) fun g => semVal g 0) := by
  unfold SparseCore.Cfg.ownSems0
  rw [SparseCore.bigSep_erase' ((mem_ownCells (g := ((V d (cV L) (jV L), SemLoc.dma cc2_scoped0.sem) : GSem nD τ sig))).mpr ⟨rfl, by show (SemLoc.dma cc2_scoped0.sem : SemLoc sig).isScoped .scVector = true; decide⟩),
    SparseCore.bigSep_erase' (Finset.mem_erase.mpr ⟨fun e => absurd (congrArg Prod.snd e) (show (SemLoc.dma cc2_scoped1.sem : SemLoc sig) ≠ SemLoc.dma cc2_scoped0.sem by decide), (mem_ownCells (g := ((V d (cV L) (jV L), SemLoc.dma cc2_scoped1.sem) : GSem nD τ sig))).mpr ⟨rfl, by show (SemLoc.dma cc2_scoped1.sem : SemLoc sig).isScoped .scVector = true; decide⟩⟩),
    SparseCore.bigSep_erase' (Finset.mem_erase.mpr ⟨fun e => absurd (congrArg Prod.snd e) (show (SemLoc.dma cc2_scratch4.sem : SemLoc sig) ≠ SemLoc.dma cc2_scoped1.sem by decide), Finset.mem_erase.mpr ⟨fun e => absurd (congrArg Prod.snd e) (show (SemLoc.dma cc2_scratch4.sem : SemLoc sig) ≠ SemLoc.dma cc2_scoped0.sem by decide), (mem_ownCells (g := ((V d (cV L) (jV L), SemLoc.dma cc2_scratch4.sem) : GSem nD τ sig))).mpr ⟨rfl, by show (SemLoc.dma cc2_scratch4.sem : SemLoc sig).isScoped .scVector = true; decide⟩⟩⟩),
    SparseCore.bigSep_erase' (Finset.mem_erase.mpr ⟨fun e => absurd (congrArg Prod.snd e) (show (SemLoc.dma cc2_scratch5.sem : SemLoc sig) ≠ SemLoc.dma cc2_scratch4.sem by decide), Finset.mem_erase.mpr ⟨fun e => absurd (congrArg Prod.snd e) (show (SemLoc.dma cc2_scratch5.sem : SemLoc sig) ≠ SemLoc.dma cc2_scoped1.sem by decide), Finset.mem_erase.mpr ⟨fun e => absurd (congrArg Prod.snd e) (show (SemLoc.dma cc2_scratch5.sem : SemLoc sig) ≠ SemLoc.dma cc2_scoped0.sem by decide), (mem_ownCells (g := ((V d (cV L) (jV L), SemLoc.dma cc2_scratch5.sem) : GSem nD τ sig))).mpr ⟨rfl, by show (SemLoc.dma cc2_scratch5.sem : SemLoc sig).isScoped .scVector = true; decide⟩⟩⟩⟩),
    SparseCore.bigSep_erase' (Finset.mem_erase.mpr ⟨fun e => absurd (congrArg Prod.snd e) (show (SemLoc.dma cc2_scratch6.sem : SemLoc sig) ≠ SemLoc.dma cc2_scratch5.sem by decide), Finset.mem_erase.mpr ⟨fun e => absurd (congrArg Prod.snd e) (show (SemLoc.dma cc2_scratch6.sem : SemLoc sig) ≠ SemLoc.dma cc2_scratch4.sem by decide), Finset.mem_erase.mpr ⟨fun e => absurd (congrArg Prod.snd e) (show (SemLoc.dma cc2_scratch6.sem : SemLoc sig) ≠ SemLoc.dma cc2_scoped1.sem by decide), Finset.mem_erase.mpr ⟨fun e => absurd (congrArg Prod.snd e) (show (SemLoc.dma cc2_scratch6.sem : SemLoc sig) ≠ SemLoc.dma cc2_scoped0.sem by decide), (mem_ownCells (g := ((V d (cV L) (jV L), SemLoc.dma cc2_scratch6.sem) : GSem nD τ sig))).mpr ⟨rfl, by show (SemLoc.dma cc2_scratch6.sem : SemLoc sig).isScoped .scVector = true; decide⟩⟩⟩⟩⟩),
    SparseCore.bigSep_erase' (Finset.mem_erase.mpr ⟨fun e => absurd (congrArg Prod.snd e) (show (SemLoc.dma cc2_scratch7.sem : SemLoc sig) ≠ SemLoc.dma cc2_scratch6.sem by decide), Finset.mem_erase.mpr ⟨fun e => absurd (congrArg Prod.snd e) (show (SemLoc.dma cc2_scratch7.sem : SemLoc sig) ≠ SemLoc.dma cc2_scratch5.sem by decide), Finset.mem_erase.mpr ⟨fun e => absurd (congrArg Prod.snd e) (show (SemLoc.dma cc2_scratch7.sem : SemLoc sig) ≠ SemLoc.dma cc2_scratch4.sem by decide), Finset.mem_erase.mpr ⟨fun e => absurd (congrArg Prod.snd e) (show (SemLoc.dma cc2_scratch7.sem : SemLoc sig) ≠ SemLoc.dma cc2_scoped1.sem by decide), Finset.mem_erase.mpr ⟨fun e => absurd (congrArg Prod.snd e) (show (SemLoc.dma cc2_scratch7.sem : SemLoc sig) ≠ SemLoc.dma cc2_scoped0.sem by decide), (mem_ownCells (g := ((V d (cV L) (jV L), SemLoc.dma cc2_scratch7.sem) : GSem nD τ sig))).mpr ⟨rfl, by show (SemLoc.dma cc2_scratch7.sem : SemLoc sig).isScoped .scVector = true; decide⟩⟩⟩⟩⟩⟩),
    SparseCore.bigSep_erase' (Finset.mem_erase.mpr ⟨fun e => absurd (congrArg Prod.snd e) (show (SemLoc.dma cc2_scratch8.sem : SemLoc sig) ≠ SemLoc.dma cc2_scratch7.sem by decide), Finset.mem_erase.mpr ⟨fun e => absurd (congrArg Prod.snd e) (show (SemLoc.dma cc2_scratch8.sem : SemLoc sig) ≠ SemLoc.dma cc2_scratch6.sem by decide), Finset.mem_erase.mpr ⟨fun e => absurd (congrArg Prod.snd e) (show (SemLoc.dma cc2_scratch8.sem : SemLoc sig) ≠ SemLoc.dma cc2_scratch5.sem by decide), Finset.mem_erase.mpr ⟨fun e => absurd (congrArg Prod.snd e) (show (SemLoc.dma cc2_scratch8.sem : SemLoc sig) ≠ SemLoc.dma cc2_scratch4.sem by decide), Finset.mem_erase.mpr ⟨fun e => absurd (congrArg Prod.snd e) (show (SemLoc.dma cc2_scratch8.sem : SemLoc sig) ≠ SemLoc.dma cc2_scoped1.sem by decide), Finset.mem_erase.mpr ⟨fun e => absurd (congrArg Prod.snd e) (show (SemLoc.dma cc2_scratch8.sem : SemLoc sig) ≠ SemLoc.dma cc2_scoped0.sem by decide), (mem_ownCells (g := ((V d (cV L) (jV L), SemLoc.dma cc2_scratch8.sem) : GSem nD τ sig))).mpr ⟨rfl, by show (SemLoc.dma cc2_scratch8.sem : SemLoc sig).isScoped .scVector = true; decide⟩⟩⟩⟩⟩⟩⟩),
    SparseCore.bigSep_erase' (Finset.mem_erase.mpr ⟨fun e => absurd (congrArg Prod.snd e) (show (SemLoc.dma cc2_scratch9.sem : SemLoc sig) ≠ SemLoc.dma cc2_scratch8.sem by decide), Finset.mem_erase.mpr ⟨fun e => absurd (congrArg Prod.snd e) (show (SemLoc.dma cc2_scratch9.sem : SemLoc sig) ≠ SemLoc.dma cc2_scratch7.sem by decide), Finset.mem_erase.mpr ⟨fun e => absurd (congrArg Prod.snd e) (show (SemLoc.dma cc2_scratch9.sem : SemLoc sig) ≠ SemLoc.dma cc2_scratch6.sem by decide), Finset.mem_erase.mpr ⟨fun e => absurd (congrArg Prod.snd e) (show (SemLoc.dma cc2_scratch9.sem : SemLoc sig) ≠ SemLoc.dma cc2_scratch5.sem by decide), Finset.mem_erase.mpr ⟨fun e => absurd (congrArg Prod.snd e) (show (SemLoc.dma cc2_scratch9.sem : SemLoc sig) ≠ SemLoc.dma cc2_scratch4.sem by decide), Finset.mem_erase.mpr ⟨fun e => absurd (congrArg Prod.snd e) (show (SemLoc.dma cc2_scratch9.sem : SemLoc sig) ≠ SemLoc.dma cc2_scoped1.sem by decide), Finset.mem_erase.mpr ⟨fun e => absurd (congrArg Prod.snd e) (show (SemLoc.dma cc2_scratch9.sem : SemLoc sig) ≠ SemLoc.dma cc2_scoped0.sem by decide), (mem_ownCells (g := ((V d (cV L) (jV L), SemLoc.dma cc2_scratch9.sem) : GSem nD τ sig))).mpr ⟨rfl, by show (SemLoc.dma cc2_scratch9.sem : SemLoc sig).isScoped .scVector = true; decide⟩⟩⟩⟩⟩⟩⟩⟩)]

omit [FloatOps F] in
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f) ∗ (∃ f, (V d (cV L) (jV L)).loc cc2_scratch2 ↦{fullShare} f)
          ∗ bigSep ((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc2_scratch0)) rfl),
    SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (jV L)) (b := ((Proc.scVector (cV L) (jV L)).devRef cc2_scratch1)) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (jV L)) (b := ((Proc.scVector (cV L) (jV L)).devRef cc2_scratch2)) rfl⟩⟩)]

/-! ### The slices the task addresses -/

abbrev iRectK (L : grid2.Coords) : Rect S32x80x128 := Rect.unit (s := S32x80x128) (k2_off1 L) S1x80x128.size (k2_off1_inb L)
abbrev zRectK (L : grid2.Coords) : Rect S10240x128 := Rect.unit (s := S10240x128) (k2_off2 L) S640x128.size (k2_off2_inb L)
/-- The worker's row of the index array, squeezed; its slice of z; its slice of the shared copy: as the task addresses them. -/
abbrev iTileK (L : grid2.Coords) : Memref sig .scVector .hbm S80x128 .i32 := ((iV).slice (iRectK L) (fun _ => rfl)).squeeze S80x128 squeezes_S1x80x128_S80x128
abbrev zSliceK (L : grid2.Coords) : Memref sig .scVector .hbm S640x128 .f32 := (zV).slice (zRectK L) (fun _ => rfl)
abbrev shSliceK (L : grid2.Coords) : Memref sig .scVector .shared S640x128 .f32 := (shV).slice (zRectK L) (fun _ => rfl)

omit [FloatOps F] in
theorem iRectK_eq : iRectK L = Rect.part (s := S32x80x128) (a₀ := 0) hdivI (wid (cL L) (jL L)) := by
  unfold iRectK Rect.part Rect.block
  congr 1 <;> funext a
  · rw [k2_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem zRectK_eq : zRectK L = Rect.part (s := S10240x128) (a₀ := 0) hdiv16 (jL L) := by
  unfold zRectK Rect.part Rect.block
  congr 1 <;> funext a
  · rw [k2_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_iTileK : (iTileK L).view.set = iTile (wid (cL L) (jL L)) := by
  show (((View.whole (main_v6_scv : Ref sig .scVector)).slice (iRectK L)).reshape S80x128 squeezes_S1x80x128_S80x128.numel_eq).set = _
  rw [View.set_reshape, View.set_slice, show (iRectK L).set = iTile (wid (cL L) (jL L)) from congrArg (fun r : Rect S32x80x128 => r.set) (iRectK_eq L)]; exact Finset.map_refl
omit [FloatOps F] in
theorem set_zSliceK : (zSliceK L).view.set = zSlice (jL L) := by
  show ((View.whole (main_v8_scv : Ref sig .scVector)).slice (zRectK L)).set = _
  rw [View.set_slice, zRectK_eq]; exact Finset.map_refl
omit [FloatOps F] in
theorem set_shSliceK : (shSliceK L).view.set = zSlice (jL L) := by
  show ((View.whole (cc2_scratch3 : Ref sig .scVector)).slice (zRectK L)).set = _
  rw [View.set_slice, zRectK_eq]; exact Finset.map_refl

omit [FloatOps F] in
theorem pts_iTileK (q : PosShare TreeShare) (f : Buf (Elt F) (iLoc d)) :
    ((iTileK L).view.loc (V d (cV L) (jV L)) ↦[(iTileK L).view.set]{q} f : sProp 𝕄) = iLoc d ↦[iTile (wid (cL L) (jL L))]{q} f := by
  rw [set_iTileK]
omit [FloatOps F] in
theorem pts_zSliceK (q : PosShare TreeShare) (f : Buf (Elt F) (zLoc d)) :
    ((zSliceK L).view.loc (V d (cV L) (jV L)) ↦[(zSliceK L).view.set]{q} f : sProp 𝕄) = zLoc d ↦[zSlice (jL L)]{q} f := by
  rw [set_zSliceK]
omit [FloatOps F] in
theorem pts_shSliceK (q : PosShare TreeShare) (f : Buf (Elt F) (shLoc d (cV L))) :
    ((shSliceK L).view.loc (V d (cV L) (jV L)) ↦[(shSliceK L).view.set]{q} f : sProp 𝕄) = shLoc d (cV L) ↦[zSlice (jL L)]{q} f := by
  rw [set_shSliceK]; rfl
omit [FloatOps F] in
theorem pts_idxV (f : Buf (Elt F) ((V d (cV L) (jV L)).loc cc2_scratch0)) :
    ((idxV).view.loc (V d (cV L) (jV L)) ↦{fullShare} f : sProp 𝕄) = (V d (cV L) (jV L)).loc cc2_scratch0 ↦{fullShare} f := rfl
omit [FloatOps F] in
theorem pts_rowsV (f : Buf (Elt F) ((V d (cV L) (jV L)).loc cc2_scratch1)) :
    ((rowsV).view.loc (V d (cV L) (jV L)) ↦{fullShare} f : sProp 𝕄) = (V d (cV L) (jV L)).loc cc2_scratch1 ↦{fullShare} f := rfl
omit [FloatOps F] in
theorem pts_outV (f : Buf (Elt F) ((V d (cV L) (jV L)).loc cc2_scratch2)) :
    ((outV).view.loc (V d (cV L) (jV L)) ↦{fullShare} f : sProp 𝕄) = (V d (cV L) (jV L)).loc cc2_scratch2 ↦{fullShare} f := rfl

/-! ### The barrier's payloads -/

omit [FloatOps F] in
theorem jL_eq (h : (jV L).val < 16) : (⟨(jV L).val, h⟩ : Fin 16) = jL L := rfl

/-- Before the barrier, the staged slice is its remainder and a read share of it for every tile's round. -/
theorem pays_intro (f : Buf (Elt F) (shLoc d (cV L))) (hf : ZOn Zf (zSlice (jL L)) f) :
    (shLoc d (cV L) ↦[zSlice (jL L)]{fullShare} f : sProp 𝕄)
      ⊢ iprop((shLoc d (cV L) ↦[zSlice (jL L)]{shareDrop fullShare 16} f)
          ∗ bigSep Finset.univ fun j : Fin (grid2.bound 1) => (bRd Zf).payload (bcell d (cV L) (j.castLE hsub2)) 0 (jV L).val) := by
  refine (Transfers.pointsTo_toks_split fullShare 16).trans (sep_mono_right ?_)
  refine bigSep_mono' (F := F) fun j _ => ?_
  show _ ⊢ bPay Zf (bcell d (cV L) (j.castLE hsub2)) (jV L).val
  unfold bPay; dsimp only
  rw [dif_pos (show (jV L).val < 16 from (jV L).isLt)]
  unfold stagedSlice
  iintro H; iexists f; isplitr
  · ipureintro; exact hf
  · iexact H

/-- After it, what the tile's own round collected is the whole shared copy at its read share, z on its rows below 10000. -/
theorem pays_elim : (bigSep ((bRd Zf).duties (bcell d (cV L) (jV L)) 0 \ ∅) fun n => (bRd Zf).payload (bcell d (cV L) (jV L)) 0 n)
    ⊢ (iprop(∃ g : Buf (Elt F) (shLoc d (cV L)), ⌜ZOn Zf Finset.univ g⌝ ∗ shLoc d (cV L) ↦{shareTok fullShare 16 (jL L)} g) : sProp 𝕄) := by
  rw [Finset.sdiff_empty, bRd_duties₀]
  rw [show (Finset.univ : Finset (Fin τ.nSub)).image Fin.val = Finset.univ.map Fin.valEmbedding from (Finset.map_eq_image Fin.valEmbedding _).symm, bigSep_map]
  refine (bigSep_mono' (F := F) (Ψ := fun n : Fin 16 => iprop(∃ f : Buf (Elt F) (shLoc d (cV L)), ⌜ZOn Zf (zSlice n) f⌝ ∗ shLoc d (cV L) ↦[zSlice n]{shareTok fullShare 16 (jL L)} f)) fun n _ => ?_).trans ?_
  · show bPay Zf (bcell d (cV L) (jV L)) n.val ⊢ _
    unfold bPay; dsimp only
    rw [dif_pos (show n.val < 16 from n.isLt)]
    unfold stagedSlice
    exact BI.Entails.refl _
  · refine (rows_join (F := F) (ℓ := shLoc d (cV L)) Finset.univ zSlice (shareTok fullShare 16 (jL L)) (fun s f => ZOn Zf (zSlice s) f) (fun _ => Classical.choice inferInstance) zSlice_disjoint).trans ?_
    rw [zSlice_cover]
    iintro ⟨%g, %hg, Hg⟩
    iexists g; isplitr
    swap; · iexact Hg
    ipureintro
    intro y _
    obtain ⟨s, hs⟩ := Rect.exists_mem_part hdiv16 (emb y)
    obtain ⟨f, hf, hgf⟩ := hg s (Finset.mem_univ s)
    exact (hgf _ hs).trans (hf y hs)

/-- The whole shared copy, as the gathers address it. -/
abbrev shAllK : Memref sig .scVector .shared S10240x128 .f32 :=
  (shV).slice (Rect.unit (s := S10240x128) ![0, 0] S10240x128.size inb_S10240x128_S10240x128_0_0) (fun _ => rfl)
omit [FloatOps F] in
theorem set_shAllK : (shAllK).view.set = Finset.univ := by
  show ((View.whole (cc2_scratch3 : Ref sig .scVector)).slice (Rect.unit (s := S10240x128) ![0, 0] S10240x128.size inb_S10240x128_S10240x128_0_0)).set = _
  rw [View.set_slice]
  ext i
  simp only [Finset.mem_map, Finset.mem_univ, iff_true]
  refine ⟨i, Rect.mem_set_unit.mpr fun a => ?_, rfl⟩
  match a with
  | 0 => exact ⟨Nat.zero_le _, (Nat.zero_add _).symm ▸ (i 0).isLt⟩
  | 1 => exact ⟨Nat.zero_le _, (Nat.zero_add _).symm ▸ (i 1).isLt⟩
omit [FloatOps F] in
theorem pts_shAllK (q : PosShare TreeShare) (f : Buf (Elt F) (shLoc d (cV L))) :
    ((shAllK).view.loc (V d (cV L) (jV L)) ↦[(shAllK).view.set]{q} f : sProp 𝕄) = shLoc d (cV L) ↦{q} f := by
  rw [set_shAllK]; rfl

omit [FloatOps F] in
/-- Index words all below 10000 are in range of the shared copy's rows, read through any offset list. -/
theorem hin_of (off : Fin 2 → ℕ) (inb : ∀ a, off a + S1x64.size a ≤ S80x128.size a)
    (f : Buf (Elt F) ((V d (cV L) (jV L)).loc cc2_scratch0)) (hf : ∀ x, (f x).toNat < 10000) :
    ∀ j, ((offK off inb).view.read (Elt F) f j).toNat < S10240x128.size gathers_S10240x128_S64x128.axis := fun j => by
  rw [show (offK off inb).view.read (Elt F) f j = f ((offK off inb).view.emb j) from (View.read_apply _ _).trans (cast_eq _ _)]
  exact lt_of_lt_of_le (hf _) (by decide)

omit [FloatOps F] in
theorem toEnt {P Q : sProp 𝕄} (h : P ⊢ Q) : Idealize.SL.BI.Entails P Q := h

/-! ### Read shares of the shared copy, one per gather semaphore -/

/-- What is left of a share once the four gather semaphores' read tokens (cells 8 … 11) are split off. -/
def gRest {ℓ : Loc nD τ sig} (R : Finset (Idx ℓ)) (q : PosShare TreeShare) (f : Buf (Elt F) ℓ) : sProp 𝕄 :=
  iprop((ℓ ↦[R]{shareDrop q 12} f) ∗ bigSep (Finset.range 8) (fun i => ℓ ↦[R]{Transfers.shareTokN q i} f))

omit [FloatOps F] in
theorem gtoks {ℓ : Loc nD τ sig} (R : Finset (Idx ℓ)) (q : PosShare TreeShare) (f : Buf (Elt F) ℓ) :
    (ℓ ↦[R]{q} f : sProp 𝕄) ⊣⊢ iprop((ℓ ↦[R]{Transfers.shareTokN q 8} f) ∗ (ℓ ↦[R]{Transfers.shareTokN q 9} f) ∗ (ℓ ↦[R]{Transfers.shareTokN q 10} f)
        ∗ (ℓ ↦[R]{Transfers.shareTokN q 11} f) ∗ gRest R q f) := by
  have h := Transfers.pointsTo_toks_range (ℓ := ℓ) (S := R) (f := f) (Ix := HIx 1) (Name := ℕ) (U := UU) (Lvl := ℕ) q 12
  rw [show (12 : ℕ) = 8 + 1 + 1 + 1 + 1 from rfl, Finset.range_add_one, Finset.range_add_one, Finset.range_add_one, Finset.range_add_one,
    SparseCore.bigSep_insert' (by simp), SparseCore.bigSep_insert' (by simp), SparseCore.bigSep_insert' (by simp), SparseCore.bigSep_insert' (by simp)] at h
  unfold gRest
  constructor
  · refine h.1.trans ?_
    iintro ⟨Hd, H11, H10, H9, H8, Hr⟩
    isplitl [H8]; · iexact H8
    isplitl [H9]; · iexact H9
    isplitl [H10]; · iexact H10
    isplitl [H11]; · iexact H11
    isplitl [Hd]; · iexact Hd
    iexact Hr
  · refine BI.Entails.trans (toEnt (F := F) ?_) h.2
    iintro ⟨H8, H9, H10, H11, Hd, Hr⟩
    isplitl [Hd]; · iexact Hd
    isplitl [H11]; · iexact H11
    isplitl [H10]; · iexact H10
    isplitl [H9]; · iexact H9
    isplitl [H8]; · iexact H8
    iexact Hr

/-! ### A transfer in flight may deliver less -/

omit [FloatOps F] in
theorem Flight_mono {EC : UEmb Counters 𝕄} {c : Thread nD τ} {sm : SemLoc sig} {ι : HIx 1} {N : ℕ} {D D' : sProp 𝕄} (h : D ⊢ D') :
    Transfers.Flight EC c sm ι N D ⊢ Transfers.Flight EC c sm ι N D' := by
  unfold Transfers.Flight
  iintro ⟨⟨%R, HR, %hcap, %hpeek⟩, Hcred⟩
  isplitl [HR]
  · iexists R
    isplitl [HR]; · iexact HR
    isplitr
    · ipureintro; intro K
      refine BI.Entails.trans (toEnt (F := F) ?_) (hcap K)
      iintro ⟨HR, HK⟩
      isplitl [HR]; · iexact HR
      iintro ⟨Hv, HD⟩
      iapply HK
      isplitl [Hv]; · iexact Hv
      iapply h; iexact HD
    · ipureintro; exact hpeek
  · iexact Hcred

/-! ### The pipeline loop's invariant -/

section Inv
variable [FloatOps F]
variable (q : PosShare TreeShare) (g : Buf (Elt F) (shLoc d (cV L))) (fi : Buf (Elt F) ((V d (cV L) (jV L)).loc cc2_scratch0))
  (M0 : Buf (Elt F) (mLoc d)) (O : CellTallies nD τ sig (HIx 1)) (W0 : Waits sig (HIx 1))

/-- Group n of the worker's rows of the result holds its four nodes' values. -/
def GroupSpec (n : ℕ) (Mg : S10240x128.Idx → F .f32) : Prop :=
  v → ∀ hI : ∀ j, (I d j).toNat < 10000, ∀ (m : Fin 320) (ch : Fin 128), m.val / 4 = n →
    Mg (ix2 ⟨320 * (wid (cL L) (jL L)).val + m.val, by omega⟩ ch) = nodeVal Zf (I d) hI (wid (cL L) (jL L)) m ch

/-- The gather of a chunk in flight on gather semaphore b (cell 8 + b): it delivers slot b of the rows scratch written,
    the chunk's offset list and the read token of the shared copy back. -/
def gFlight (b : ℕ) (hb : 8 + b < 20) (row col : ℕ) : sProp 𝕄 :=
  Transfers.Flight countersEmb (V d (cV L) (jV L)) (SemLoc.dma ⟨8 + b, hb⟩) (default : HIx 1) 262144
    iprop(((∃ R : Buf (Elt F) ((V d (cV L) (jV L)).loc cc2_scratch1), (rowsV).view.loc (V d (cV L) (jV L)) ↦[slotSet b]{fullShare} R)
        ∗ ((idxV).view.loc (V d (cV L) (jV L)) ↦[offSet row col]{fullShare} fi))
      ∗ ((shAllK).view.loc (V d (cV L) (jV L)) ↦[(shAllK).view.set]{Transfers.shareTokN q (8 + b)} g))

/-- The write-back of group n in flight on write-back semaphore ob (cell 12 + ob): it delivers the group's rows of the
    result at its nodes' values and half ob of the output scratch back. -/
def wFlight (ob : ℕ) (hob : 12 + ob < 20) (n : ℕ) : sProp 𝕄 :=
  Transfers.Flight countersEmb (V d (cV L) (jV L)) (SemLoc.dma ⟨12 + ob, hob⟩) (default : HIx 1) 16384
    iprop((∃ Mg : Buf (Elt F) (mLoc d), ⌜GroupSpec v Zf I d L n Mg⌝ ∗ (mV).view.loc (V d (cV L) (jV L)) ↦[mGroupSet (wid (cL L) (jL L)) n]{fullShare} Mg)
      ∗ ∃ fo : Buf (Elt F) ((V d (cV L) (jV L)).loc cc2_scratch2), (outV).view.loc (V d (cV L) (jV L)) ↦[outSet ob]{fullShare} fo)

/-- The gathers' side before trip t: chunks 4 t, 4 t + 1, 4 t + 2 in flight on slots and semaphores 0, 1, 2, the rest of the
    rows and index scratches held; past the last trip, nothing in flight. -/
def gPart (t : ℕ) : sProp 𝕄 :=
  if t < 40 then
    iprop(gFlight d L q g fi 0 (by decide) (2 * t) 0 ∗ gFlight d L q g fi 1 (by decide) (2 * t) 64 ∗ gFlight d L q g fi 2 (by decide) (2 * t + 1) 0
      ∗ (∃ R : Buf (Elt F) ((V d (cV L) (jV L)).loc cc2_scratch1), (rowsV).view.loc (V d (cV L) (jV L)) ↦[slotSet 3]{fullShare} R)
      ∗ ((idxV).view.loc (V d (cV L) (jV L)) ↦[((Finset.univ \ offSet (2 * t) 0) \ offSet (2 * t) 64) \ offSet (2 * t + 1) 0]{fullShare} fi)
      ∗ ((shAllK).view.loc (V d (cV L) (jV L)) ↦[(shAllK).view.set]{Transfers.shareTokN q 11} g)
      ∗ semVal (V d (cV L) (jV L), SemLoc.dma cc2_scratch7.sem) 0)
  else
    iprop((∃ R : Buf (Elt F) ((V d (cV L) (jV L)).loc cc2_scratch1), (rowsV).view.loc (V d (cV L) (jV L)) ↦{fullShare} R)
      ∗ ((idxV).view.loc (V d (cV L) (jV L)) ↦{fullShare} fi)
      ∗ ((shAllK).view.loc (V d (cV L) (jV L)) ↦[(shAllK).view.set]{Transfers.shareTokN q 8} g)
      ∗ ((shAllK).view.loc (V d (cV L) (jV L)) ↦[(shAllK).view.set]{Transfers.shareTokN q 9} g)
      ∗ ((shAllK).view.loc (V d (cV L) (jV L)) ↦[(shAllK).view.set]{Transfers.shareTokN q 10} g)
      ∗ ((shAllK).view.loc (V d (cV L) (jV L)) ↦[(shAllK).view.set]{Transfers.shareTokN q 11} g)
      ∗ semVal (V d (cV L) (jV L), SemLoc.dma cc2_scratch4.sem) 0 ∗ semVal (V d (cV L) (jV L), SemLoc.dma cc2_scratch5.sem) 0
      ∗ semVal (V d (cV L) (jV L), SemLoc.dma cc2_scratch6.sem) 0 ∗ semVal (V d (cV L) (jV L), SemLoc.dma cc2_scratch7.sem) 0)

/-- The write-backs' side before trip t: groups below 2 t - 2 written, groups 2 t - 2 and 2 t - 1 in flight, the rest of
    the worker's rows of the result as they were. -/
def wPart (t : ℕ) : sProp 𝕄 :=
  iprop((bigSep (Finset.range (2 * t - 2)) fun n => iprop(∃ Mg : Buf (Elt F) (mLoc d), ⌜GroupSpec v Zf I d L n Mg⌝ ∗ (mV).view.loc (V d (cV L) (jV L)) ↦[mGroupSet (wid (cL L) (jL L)) n]{fullShare} Mg))
    ∗ (bigSep (Finset.Ico (2 * t) 80) fun n => (mV).view.loc (V d (cV L) (jV L)) ↦[mGroupSet (wid (cL L) (jL L)) n]{fullShare} M0)
    ∗ (if t = 0 then
        iprop((∃ fo : Buf (Elt F) ((V d (cV L) (jV L)).loc cc2_scratch2), (outV).view.loc (V d (cV L) (jV L)) ↦{fullShare} fo)
          ∗ semVal (V d (cV L) (jV L), SemLoc.dma cc2_scratch8.sem) 0 ∗ semVal (V d (cV L) (jV L), SemLoc.dma cc2_scratch9.sem) 0)
      else iprop(wFlight v Zf I d L 0 (by decide) (2 * t - 2) ∗ wFlight v Zf I d L 1 (by decide) (2 * t - 1))))

/-- The loop's invariant before trip t. -/
def inv (t : ℕ) (_ : PUnit) : sProp 𝕄 :=
  iprop(Transfers.MayWaits (V d (cV L) (jV L)) (default : HIx 1) O
    ∗ gPart d L q g fi t ∗ wPart v Zf I d L M0 t
    ∗ ∃ W', ⌜∀ p ∈ W', p ∈ W0 ∨ p.2 = none⌝ ∗ owes (V d (cV L) (jV L)) O W')

end Inv

section InvEnd
variable [FloatOps F]
variable (q : PosShare TreeShare) (g : Buf (Elt F) (shLoc d (cV L))) (fi : Buf (Elt F) ((V d (cV L) (jV L)).loc cc2_scratch0))
  (M0 : Buf (Elt F) (mLoc d)) (O : CellTallies nD τ sig (HIx 1)) (W0 : Waits sig (HIx 1))

/-- The invariant past the last trip, spelt out. -/
def invEnd : sProp 𝕄 :=
  iprop(Transfers.MayWaits (V d (cV L) (jV L)) (default : HIx 1) O
    ∗ ((∃ R : Buf (Elt F) ((V d (cV L) (jV L)).loc cc2_scratch1), (rowsV).view.loc (V d (cV L) (jV L)) ↦{fullShare} R)
      ∗ ((idxV).view.loc (V d (cV L) (jV L)) ↦{fullShare} fi)
      ∗ ((shAllK).view.loc (V d (cV L) (jV L)) ↦[(shAllK).view.set]{Transfers.shareTokN q 8} g)
      ∗ ((shAllK).view.loc (V d (cV L) (jV L)) ↦[(shAllK).view.set]{Transfers.shareTokN q 9} g)
      ∗ ((shAllK).view.loc (V d (cV L) (jV L)) ↦[(shAllK).view.set]{Transfers.shareTokN q 10} g)
      ∗ ((shAllK).view.loc (V d (cV L) (jV L)) ↦[(shAllK).view.set]{Transfers.shareTokN q 11} g)
      ∗ semVal (V d (cV L) (jV L), SemLoc.dma cc2_scratch4.sem) 0 ∗ semVal (V d (cV L) (jV L), SemLoc.dma cc2_scratch5.sem) 0
      ∗ semVal (V d (cV L) (jV L), SemLoc.dma cc2_scratch6.sem) 0 ∗ semVal (V d (cV L) (jV L), SemLoc.dma cc2_scratch7.sem) 0)
    ∗ ((bigSep (Finset.range 78) fun n => iprop(∃ Mg : Buf (Elt F) (mLoc d), ⌜GroupSpec v Zf I d L n Mg⌝ ∗ (mV).view.loc (V d (cV L) (jV L)) ↦[mGroupSet (wid (cL L) (jL L)) n]{fullShare} Mg))
      ∗ (bigSep (Finset.Ico 80 80) fun n => (mV).view.loc (V d (cV L) (jV L)) ↦[mGroupSet (wid (cL L) (jL L)) n]{fullShare} M0)
      ∗ wFlight v Zf I d L 0 (by decide) 78 ∗ wFlight v Zf I d L 1 (by decide) 79)
    ∗ ∃ W', ⌜∀ p ∈ W', p ∈ W0 ∨ p.2 = none⌝ ∗ owes (V d (cV L) (jV L)) O W')

theorem inv_end (a : PUnit) : inv v Zf I d L q g fi M0 O W0 40 a ⊢ invEnd v Zf I d L q g fi M0 O W0 := by
  unfold inv gPart wPart invEnd
  rw [if_neg (by decide), if_neg (by decide)]

end InvEnd

/-- What a gather delivers, with the slot's contents forgotten and the slices named as index sets. -/
theorem gDeliver (b : ℕ) (inbS : ∀ a, (![b, 0, 0] : Fin 3 → ℕ) a + S1x64x128.size a ≤ S4x64x128.size a)
    (off : Fin 2 → ℕ) (inbO : ∀ a, off a + S1x64.size a ≤ S80x128.size a)
    (X : Buf (Elt F) ((V d (cV L) (jV L)).loc cc2_scratch1)) (fi : Buf (Elt F) ((V d (cV L) (jV L)).loc cc2_scratch0))
    (q' : PosShare TreeShare) (g : Buf (Elt F) (shLoc d (cV L))) :
    iprop((((rowsV).view.loc (V d (cV L) (jV L)) ↦[(((rowsV).slice (Rect.unit (s := S4x64x128) ![b, 0, 0] S1x64x128.size inbS) (fun _ => rfl)).squeeze S64x128 squeezes_S1x64x128_S64x128).view.set]{fullShare} X)
          ∗ ((idxV).view.loc (V d (cV L) (jV L)) ↦[(offK off inbO).view.set]{fullShare} fi))
        ∗ ((shAllK).view.loc (V d (cV L) (jV L)) ↦[(shAllK).view.set]{q'} g))
      ⊢ (iprop(((∃ R : Buf (Elt F) ((V d (cV L) (jV L)).loc cc2_scratch1), (rowsV).view.loc (V d (cV L) (jV L)) ↦[slotSet b]{fullShare} R)
          ∗ ((idxV).view.loc (V d (cV L) (jV L)) ↦[offSet (off 0) (off 1)]{fullShare} fi))
        ∗ ((shAllK).view.loc (V d (cV L) (jV L)) ↦[(shAllK).view.set]{q'} g)) : sProp 𝕄) := by
  rw [set_slot, set_offK]
  iintro ⟨⟨H1, H2⟩, H3⟩
  isplitl [H1 H2]
  · isplitl [H1]; · iexists X; iexact H1
    iexact H2
  · iexact H3

/-! ### The groups join into the worker's rows; the halves of the output scratch into it -/

section Joins
variable [FloatOps F]

/-- The eighty groups, each at its four nodes' values, are the worker's rows at its nodes' values. -/
theorem m_join (M0 : Buf (Elt F) (mLoc d)) :
    (bigSep (Finset.range 80) fun n => iprop(∃ Mg : Buf (Elt F) (mLoc d), ⌜GroupSpec v Zf I d L n Mg⌝
        ∗ (mV).view.loc (V d (cV L) (jV L)) ↦[mGroupSet (wid (cL L) (jL L)) n]{fullShare} Mg))
      ⊢ (iprop(∃ Mf : Buf (Elt F) (mLoc d), ⌜TileSpec v Zf (I d) (wid (cL L) (jL L)) Mf⌝ ∗ mLoc d ↦[mTile (wid (cL L) (jL L))]{fullShare} Mf) : sProp 𝕄) := by
  refine (rows_join (F := F) (ℓ := mLoc d) (Finset.range 80) (mGroupSet (wid (cL L) (jL L))) fullShare (fun n Mg => GroupSpec v Zf I d L n Mg) M0
    (mGroup_disjoint _ _)).trans ?_
  rw [mGroup_cover]
  iintro ⟨%g, %hg, Hg⟩
  iexists g; isplitr
  swap; · iexact Hg
  ipureintro
  intro hv hI n ch
  obtain ⟨Mg, hMg, hgm⟩ := hg (n.val / 4) (Finset.mem_range.mpr (by omega))
  refine (hgm _ ?_).trans (hMg hv hI n ch rfl)
  simp only [mGroupSet, Finset.mem_filter, Finset.mem_univ, true_and]
  show 320 * (wid (cL L) (jL L)).val + 4 * (n.val / 4) ≤ 320 * (wid (cL L) (jL L)).val + n.val ∧ 320 * (wid (cL L) (jL L)).val + n.val < 320 * (wid (cL L) (jL L)).val + 4 * (n.val / 4) + 4
  omega

omit [FloatOps F] in
theorem out_join : iprop((∃ fo : Buf (Elt F) ((V d (cV L) (jV L)).loc cc2_scratch2), (outV).view.loc (V d (cV L) (jV L)) ↦[outSet 0]{fullShare} fo)
      ∗ (∃ fo : Buf (Elt F) ((V d (cV L) (jV L)).loc cc2_scratch2), (outV).view.loc (V d (cV L) (jV L)) ↦[outSet 1]{fullShare} fo))
    ⊢ (iprop(∃ f, (V d (cV L) (jV L)).loc cc2_scratch2 ↦{fullShare} f) : sProp 𝕄) := by
  iintro ⟨⟨%f0, H0⟩, ⟨%f1, H1⟩⟩
  ihave H := (rows_join (F := F) (ℓ := (V d (cV L) (jV L)).loc cc2_scratch2) Finset.univ (fun c : Fin 2 => outSet c.val) fullShare (fun _ _ => True) f0 outSet_disjoint) $$ [H0 H1]
  · rw [bigSep_univ_two]
    isplitl [H0]
    · iexists f0; isplitr; · ipureintro; trivial
      iexact H0
    · iexists f1; isplitr; · ipureintro; trivial
      iexact H1
  icases H with ⟨%f, -, Hf⟩
  rw [outSet_cover]
  iexists f; iexact Hf

end Joins

end Tile

end Cert.KernelIdeal.Hand

end
-- ==== Proof.KI.TileGeom.lean ====
/-
  The index sets the vector-subcore task's pipeline loop addresses at a trip: each offset list of the index scratch and each
  group of four rows of the result, as the kernel computes their offsets, are the sets the loop's invariant names.
-/
import proofs.«208586_g21955872817707_cont_8to1_688_77_alg».proof.Proof.KI.TileSets
import proofs.«208586_g21955872817707_cont_8to1_688_77_alg».proof.Proof.Gen.KernelIdeal

noncomputable section

namespace Cert.KernelIdeal.Hand

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI

variable {F : FTy → Type}

local notation "𝕄" => MT nD τ sig (HIx 1) (Elt F) ℕ UU ℕ

local notation "mV" => (Memref.whole Cert.KernelIdeal.main_v12_scv : Memref Cert.KernelIdeal.sig Kind.scVector Space.hbm Cert.KernelIdeal.S10240x128 EltTy.f32)

/-- The worker number of the tile at grid point L: 16 times its core's number plus its subcore's. -/
local notation "wL(" L ")" => wid (Fin.cast (rfl : grid2.bound 0 = 2) (L 0)) (Fin.cast bound_one (L 1))

/-! ## A buffer held on a set, the set renamed -/

/-- A buffer held on a set is held on any set equal to it. (To rename the set inside an assertion: the equations below
    are between sets whose type names the slice's view, which a rewrite under the assertion does not accept.) -/
theorem pts_set_congr {ℓ : Loc nD τ sig} {S S' : Finset (Idx ℓ)} (h : S = S') (q : PosShare TreeShare) (f : Buf (Elt F) ℓ) :
    (ℓ ↦[S]{q} f : sProp 𝕄) = ℓ ↦[S']{q} f := by subst h; rfl

/-! ## The conditions of the trip's guarded regions, as bounds on the trip -/

theorem cond1_iff : ∀ k : Fin k2_t1_loop.trips, k2_cond1 k = 1#1 ↔ 1 ≤ k.val := by decide +kernel
theorem cond2_all : ∀ k : Fin k2_t1_loop.trips, k2_cond2 k = 1#1 := by decide +kernel
theorem cond3_iff : ∀ k : Fin k2_t1_loop.trips, k2_cond3 k = 1#1 ↔ k.val < 39 := by decide +kernel
theorem cond4_iff : ∀ k : Fin k2_t1_loop.trips, k2_cond4 k = 1#1 ↔ 1 ≤ k.val := by decide +kernel
theorem cond5_iff : ∀ k : Fin k2_t1_loop.trips, k2_cond5 k = 1#1 ↔ k.val < 39 := by decide +kernel
theorem cond6_iff : ∀ k : Fin k2_t1_loop.trips, k2_cond6 k = 1#1 ↔ k.val < 39 := by decide +kernel

/-! ## The offset lists: rows 2 k … 2 k + 3 of the index scratch, halves 0 and 64 -/

/-- The list of the gather enqueued first in a trip: row 2 k + 1, words 64 … 127. -/
theorem set_off4 (k : Fin k2_t1_loop.trips) (h : k2_cond2 k = 1#1) :
    (offK (k2_off4 k) (k2_off4_inb k h)).view.set = offSet (2 * k.val + 1) 64 := by
  have e0 : k2_off4 k 0 = 2 * k.val + 1 := by rw [k2_off4_eq]; rfl
  have e1 : k2_off4 k 1 = 64 := by rw [k2_off4_eq]; rfl
  rw [set_offK, e0, e1]
/-- Row 2 k + 2, words 0 … 63. -/
theorem set_off22 (k : Fin k2_t1_loop.trips) (h : k2_cond3 k = 1#1) :
    (offK (k2_off22 k) (k2_off22_inb k h)).view.set = offSet (2 * k.val + 2) 0 := by
  have e0 : k2_off22 k 0 = 2 * k.val + 2 := by rw [k2_off22_eq]; rfl
  have e1 : k2_off22 k 1 = 0 := by rw [k2_off22_eq]; rfl
  rw [set_offK, e0, e1]
/-- Row 2 k + 2, words 64 … 127. -/
theorem set_off42 (k : Fin k2_t1_loop.trips) (h : k2_cond5 k = 1#1) :
    (offK (k2_off42 k) (k2_off42_inb k h)).view.set = offSet (2 * k.val + 2) 64 := by
  have e0 : k2_off42 k 0 = 2 * k.val + 2 := by rw [k2_off42_eq]; rfl
  have e1 : k2_off42 k 1 = 64 := by rw [k2_off42_eq]; rfl
  rw [set_offK, e0, e1]
/-- Row 2 k + 3, words 0 … 63. -/
theorem set_off59 (k : Fin k2_t1_loop.trips) (h : k2_cond6 k = 1#1) :
    (offK (k2_off59 k) (k2_off59_inb k h)).view.set = offSet (2 * k.val + 3) 0 := by
  have e0 : k2_off59 k 0 = 2 * k.val + 3 := by rw [k2_off59_eq]; rfl
  have e1 : k2_off59 k 1 = 0 := by rw [k2_off59_eq]; rfl
  rw [set_offK, e0, e1]
/-- The lists of the gathers waited for: row 2 k + r, words 0 … 63 and words 64 … 127. -/
theorem set_off5 (k : Fin k2_t1_loop.trips) (r : Fin 2) :
    (offK (k2_off5 k (BitVec.ofNat 32 r.val)) (k2_off5_inb k r)).view.set = offSet (2 * k.val + r.val) 0 := by
  have e0 : k2_off5 k (BitVec.ofNat 32 r.val) 0 = 2 * k.val + r.val := by rw [k2_off5_eq]; rfl
  have e1 : k2_off5 k (BitVec.ofNat 32 r.val) 1 = 0 := by rw [k2_off5_eq]; rfl
  rw [set_offK, e0, e1]

theorem set_off23 (k : Fin k2_t1_loop.trips) (r : Fin 2) :
    (offK (k2_off23 k (BitVec.ofNat 32 r.val)) (k2_off23_inb k r)).view.set = offSet (2 * k.val + r.val) 64 := by
  have e0 : k2_off23 k (BitVec.ofNat 32 r.val) 0 = 2 * k.val + r.val := by rw [k2_off23_eq]; rfl
  have e1 : k2_off23 k (BitVec.ofNat 32 r.val) 1 = 64 := by rw [k2_off23_eq]; rfl
  rw [set_offK, e0, e1]

/-! ## The groups of the result: four rows from row 320 w + 4 n of worker w -/

/-- A four-row slice of the result from row 320 w + 4 n is group n of worker w. -/
theorem set_mSlice (off : Fin 2 → ℕ) (inb : ∀ a, off a + S4x128.size a ≤ S10240x128.size a) (w : Fin 32) (n : ℕ)
    (h0 : off 0 = 320 * w.val + 4 * n) (h1 : off 1 = 0) :
    ((mV).slice (Rect.unit (s := S10240x128) off S4x128.size inb) (fun _ => rfl)).view.set = mGroupSet w n := by
  show ((View.whole (main_v12_scv : Ref sig .scVector)).slice (Rect.unit (s := S10240x128) off S4x128.size inb)).set = _
  rw [View.set_slice]
  refine (Finset.map_refl (s := (Rect.unit (s := S10240x128) off S4x128.size inb).set)).trans ?_
  ext y
  rw [Rect.mem_set_unit]
  simp only [mGroupSet, Finset.mem_filter, Finset.mem_univ, true_and]
  have hy1 : (y 1).val < 128 := (y 1).isLt
  constructor
  · intro h
    have h0' : off 0 ≤ (y 0).val ∧ (y 0).val < off 0 + 4 := h 0
    omega
  · intro h a
    match a with
    | 0 => exact ⟨by show off 0 ≤ (y 0).val; omega, by show (y 0).val < off 0 + 4; omega⟩
    | 1 => exact ⟨by show off 1 ≤ (y 1).val; omega, by show (y 1).val < off 1 + 128; omega⟩

/-- The worker's number, spelt out. -/
theorem wL_val (L : grid2.Coords) : wL(L).val = 16 * (L 0).val + (L 1).val := rfl

/-- The offsets of the write-backs waited for in a trip, in closed form: they are computed with a subtraction, so the
    form holds from the second trip on. -/
theorem k2_off3_eq : ∀ (i : grid2.Coords) (k : Fin k2_t1_loop.trips), k2_cond1 k = 1#1 →
    k2_off3 i k = ![5120 * (i 0).val + 320 * (i 1).val + 8 * k.val - 8, 0] := by decide +kernel
theorem k2_off41_eq : ∀ (i : grid2.Coords) (k : Fin k2_t1_loop.trips), k2_cond4 k = 1#1 →
    k2_off41 i k = ![5120 * (i 0).val + 320 * (i 1).val + 8 * k.val - 4, 0] := by decide +kernel

/-- The group written back in a trip's half r: group 2 k + r. -/
theorem set_mGroup40 (L : grid2.Coords) (k : Fin k2_t1_loop.trips) (r : Fin 2) :
    ((mV).slice (Rect.unit (s := S10240x128) (k2_off40 L k (BitVec.ofNat 32 r.val)) S4x128.size (k2_off40_inb L k r)) (fun _ => rfl)).view.set
      = mGroupSet wL(L) (2 * k.val + r.val) :=
  set_mSlice _ _ _ _ (by rw [k2_off40_eq, wL_val]; show 5120 * (L 0).val + 320 * (L 1).val + 8 * k.val + 4 * r.val = _; omega) (by rw [k2_off40_eq]; rfl)
/-- The same at the two halves as the trip spells them. -/
theorem set_mGroup40_0 (L : grid2.Coords) (k : Fin k2_t1_loop.trips) :
    ((mV).slice (Rect.unit (s := S10240x128) (k2_off40 L k 0#32) S4x128.size (k2_off40_inb L k 0)) (fun _ => rfl)).view.set
      = mGroupSet wL(L) (2 * k.val) := set_mGroup40 L k 0
theorem set_mGroup40_1 (L : grid2.Coords) (k : Fin k2_t1_loop.trips) :
    ((mV).slice (Rect.unit (s := S10240x128) (k2_off40 L k 1#32) S4x128.size (k2_off40_inb L k 1)) (fun _ => rfl)).view.set
      = mGroupSet wL(L) (2 * k.val + 1) := set_mGroup40 L k 1

/-- The write-backs a trip waits for (from the second trip on): groups 2 k - 2 and 2 k - 1. -/
theorem set_mGroup3 (L : grid2.Coords) (k : Fin k2_t1_loop.trips) (h : k2_cond1 k = 1#1) :
    ((mV).slice (Rect.unit (s := S10240x128) (k2_off3 L k) S4x128.size (k2_off3_inb L k h)) (fun _ => rfl)).view.set
      = mGroupSet wL(L) (2 * k.val - 2) := by
  have hk := (cond1_iff k).mp h
  exact set_mSlice _ _ _ _ (by rw [k2_off3_eq L k h, wL_val]; show 5120 * (L 0).val + 320 * (L 1).val + 8 * k.val - 8 = _; omega) (by rw [k2_off3_eq L k h]; rfl)
theorem set_mGroup41 (L : grid2.Coords) (k : Fin k2_t1_loop.trips) (h : k2_cond4 k = 1#1) :
    ((mV).slice (Rect.unit (s := S10240x128) (k2_off41 L k) S4x128.size (k2_off41_inb L k h)) (fun _ => rfl)).view.set
      = mGroupSet wL(L) (2 * k.val - 1) := by
  have hk := (cond4_iff k).mp h
  exact set_mSlice _ _ _ _ (by rw [k2_off41_eq L k h, wL_val]; show 5120 * (L 0).val + 320 * (L 1).val + 8 * k.val - 4 = _; omega) (by rw [k2_off41_eq L k h]; rfl)

/-- The last two write-backs, waited for after the loop: groups 78 and 79. -/
theorem set_mGroup76 (L : grid2.Coords) (r : Fin 2) :
    ((mV).slice (Rect.unit (s := S10240x128) (k2_off76 L (BitVec.ofNat 32 (312 + 4 * r.val))) S4x128.size (k2_off76_inb L r)) (fun _ => rfl)).view.set
      = mGroupSet wL(L) (78 + r.val) :=
  set_mSlice _ _ _ _ (by rw [k2_off76_eq, wL_val]; show 5120 * (L 0).val + 320 * (L 1).val + 4 * r.val + 312 = _; omega) (by rw [k2_off76_eq]; rfl)
theorem set_mGroup76_0 (L : grid2.Coords) :
    ((mV).slice (Rect.unit (s := S10240x128) (k2_off76 L 312#32) S4x128.size (k2_off76_inb L 0)) (fun _ => rfl)).view.set
      = mGroupSet wL(L) 78 := set_mGroup76 L 0
theorem set_mGroup76_1 (L : grid2.Coords) :
    ((mV).slice (Rect.unit (s := S10240x128) (k2_off76 L 316#32) S4x128.size (k2_off76_inb L 1)) (fun _ => rfl)).view.set
      = mGroupSet wL(L) 79 := set_mGroup76 L 1

end Cert.KernelIdeal.Hand

end
-- ==== Proof.KI.TileGeomOut.lean ====
/-
  The output scratch of the vector-subcore task as sets of indices: each half as the task addresses it, the two halves
  complementary, and each sixteen-lane box of a half inside it.
-/
import proofs.«208586_g21955872817707_cont_8to1_688_77_alg».proof.Proof.KI.TileSets

noncomputable section

namespace Cert.KernelIdeal.Hand

open Cert.KernelIdeal Cert.KernelIdeal.Gen

open Idealize.ShloMosaic
open Idealize.ShloMosaic.SparseCore (S V T)

local notation "outV" => (Memref.whole Cert.KernelIdeal.cc2_scratch2 : Memref Cert.KernelIdeal.sig Kind.scVector Space.vmem Cert.KernelIdeal.S2x4x128 EltTy.f32)

/-- Half ob of the output scratch as the task addresses it: the half's slice, its unit axis dropped. -/
abbrev outK0 : Memref sig .scVector .vmem S4x128 .f32 :=
  ((outV).slice (Rect.unit (s := S2x4x128) ![0, 0, 0] S1x4x128.size inb_S2x4x128_S1x4x128_0_0_0) (fun _ => rfl)).squeeze S4x128 squeezes_S1x4x128_S4x128
abbrev outK1 : Memref sig .scVector .vmem S4x128 .f32 :=
  ((outV).slice (Rect.unit (s := S2x4x128) ![1, 0, 0] S1x4x128.size inb_S2x4x128_S1x4x128_1_0_0) (fun _ => rfl)).squeeze S4x128 squeezes_S1x4x128_S4x128

/-- The half's slice, squeezed, addresses the indices of half ob. -/
theorem set_outK (ob : ℕ) (inb : ∀ a, (![ob, 0, 0] : Fin 3 → ℕ) a + S1x4x128.size a ≤ S2x4x128.size a) :
    (((outV).slice (Rect.unit (s := S2x4x128) ![ob, 0, 0] S1x4x128.size inb) (fun _ => rfl)).squeeze S4x128 squeezes_S1x4x128_S4x128).view.set = outSet ob := by
  show (((View.whole (cc2_scratch2 : Ref sig .scVector)).slice (Rect.unit (s := S2x4x128) ![ob, 0, 0] S1x4x128.size inb)).reshape S4x128 squeezes_S1x4x128_S4x128.numel_eq).set = _
  rw [View.set_reshape, View.set_slice]
  refine (Finset.map_refl (s := (Rect.unit (s := S2x4x128) ![ob, 0, 0] S1x4x128.size inb).set)).trans ?_
  ext y
  rw [Rect.mem_set_unit]
  simp only [outSet, Finset.mem_filter, Finset.mem_univ, true_and]
  have hy1 : (y 1).val < 4 := (y 1).isLt
  have hy2 : (y 2).val < 128 := (y 2).isLt
  constructor
  · intro h
    have h0 : ob ≤ (y 0).val ∧ (y 0).val < ob + 1 := h 0
    omega
  · intro h a
    match a with
    | 0 => exact ⟨by show ob ≤ (y 0).val; omega, by show (y 0).val < ob + 1; omega⟩
    | 1 => exact ⟨by show 0 ≤ (y 1).val; omega, by show (y 1).val < 0 + 4; omega⟩
    | 2 => exact ⟨by show 0 ≤ (y 2).val; omega, by show (y 2).val < 0 + 128; omega⟩
theorem set_outK0 : (outK0).view.set = outSet 0 := set_outK 0 _
theorem set_outK1 : (outK1).view.set = outSet 1 := set_outK 1 _

/-- The two halves are each other's complement. -/
theorem univ_sdiff_outSet1 : (Finset.univ : Finset S2x4x128.Idx) \ outSet 1 = outSet 0 := by
  ext y
  have h2 : (y 0).val < 2 := (y 0).isLt
  simp only [outSet, Finset.mem_sdiff, Finset.mem_filter, Finset.mem_univ, true_and]
  omega
theorem univ_sdiff_outSet0 : (Finset.univ : Finset S2x4x128.Idx) \ outSet 0 = outSet 1 := by
  ext y
  have h2 : (y 0).val < 2 := (y 0).isLt
  simp only [outSet, Finset.mem_sdiff, Finset.mem_filter, Finset.mem_univ, true_and]
  omega

/-- A sixteen-lane box of half ob, addressed through the whole scratch, lies in the half. -/
theorem access_subset_outSet (ob r c : ℕ) (inb : ∀ a, (![ob, r, c] : Fin 3 → ℕ) a + S1x1x16.size a ≤ S2x4x128.size a) :
    ((outV).access (Rect.unit (s := S2x4x128) ![ob, r, c] S1x1x16.size inb)).set ⊆ outSet ob := by
  show ((View.whole (cc2_scratch2 : Ref sig .scVector)).slice (Rect.unit (s := S2x4x128) ![ob, r, c] S1x1x16.size inb)).set ⊆ _
  rw [View.set_slice]
  intro y hy
  have hy' : y ∈ (Rect.unit (s := S2x4x128) ![ob, r, c] S1x1x16.size inb).set :=
    (Finset.map_refl (s := (Rect.unit (s := S2x4x128) ![ob, r, c] S1x1x16.size inb).set)) ▸ hy
  rw [Rect.mem_set_unit] at hy'
  have h0 : ob ≤ (y 0).val ∧ (y 0).val < ob + 1 := hy' 0
  simp only [outSet, Finset.mem_filter, Finset.mem_univ, true_and]
  omega

/-- The same as an inclusion of rectangles of the whole scratch: the box within the half's rectangle. -/
theorem setOn_box_subset_half (ob r c : ℕ) (inb : ∀ a, (![ob, r, c] : Fin 3 → ℕ) a + S1x1x16.size a ≤ S2x4x128.size a)
    (inbH : ∀ a, (![ob, 0, 0] : Fin 3 → ℕ) a + S1x4x128.size a ≤ S2x4x128.size a) :
    (outV).view.setOn (Rect.unit (s := S2x4x128) ![ob, r, c] S1x1x16.size inb).set
      ⊆ (outV).view.setOn (Rect.unit (s := S2x4x128) ![ob, 0, 0] S1x4x128.size inbH).set := by
  refine Finset.map_subset_map.mpr fun y hy => ?_
  rw [Rect.mem_set_unit] at hy ⊢
  have hy1 : (y 1).val < 4 := (y 1).isLt
  have hy2 : (y 2).val < 128 := (y 2).isLt
  have h0 : ob ≤ (y 0).val ∧ (y 0).val < ob + 1 := hy 0
  intro a
  match a with
  | 0 => exact ⟨by show ob ≤ (y 0).val; omega, by show (y 0).val < ob + 1; omega⟩
  | 1 => exact ⟨by show 0 ≤ (y 1).val; omega, by show (y 1).val < 0 + 4; omega⟩
  | 2 => exact ⟨by show 0 ≤ (y 2).val; omega, by show (y 2).val < 0 + 128; omega⟩

end Cert.KernelIdeal.Hand

end
-- ==== Proof.KI.TileJoin.lean ====
/-
  The reassemblies at the end of a trip of the vector-subcore task's pipeline loop: the index scratch from the four offset
  lists a trip gets back and what the next trip's lists left of it; the result's groups still to write, two fewer; the
  groups written, two more.
-/
import proofs.«208586_g21955872817707_cont_8to1_688_77_alg».proof.Proof.KI.TileSets

noncomputable section

namespace Cert.KernelIdeal.Hand

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ
local notation "idxV" => (Memref.whole Cert.KernelIdeal.cc2_scratch0 : Memref Cert.KernelIdeal.sig Kind.scVector Space.vmem Cert.KernelIdeal.S80x128 EltTy.i32)

/-- A library bi-entailment's direction, in the proof mode's syntax. -/
theorem entOf {P Q : sProp 𝕄} (h : Idealize.SL.BI.Entails P Q) : P ⊢ Q := h
/-- And back. -/
theorem toEntails {P Q : sProp 𝕄} (h : P ⊢ Q) : Idealize.SL.BI.Entails P Q := h

/-! ## Five pieces of one buffer joined -/

/-- Five pairwise disjoint sets of a buffer's elements, each held at the same contents, are their union held. -/
theorem pts_join5 {ℓ : Loc nD τ sig} {A B C D R T : Finset (Idx ℓ)} (hT : T = A ∪ B ∪ C ∪ D ∪ R)
    (hAB : Disjoint A B) (hC : Disjoint (A ∪ B) C) (hD : Disjoint (A ∪ B ∪ C) D) (hR : Disjoint (A ∪ B ∪ C ∪ D) R)
    (q : PosShare TreeShare) (f : Buf (Elt F) ℓ) :
    iprop((ℓ ↦[A]{q} f) ∗ (ℓ ↦[B]{q} f) ∗ (ℓ ↦[C]{q} f) ∗ (ℓ ↦[D]{q} f) ∗ (ℓ ↦[R]{q} f)) ⊢ (ℓ ↦[T]{q} f : sProp 𝕄) := by
  subst hT
  iintro ⟨HA, HB, HC, HD, HR⟩
  iapply (entOf (pointsTo_union hR).2)
  isplitl [HA HB HC HD]
  · iapply (entOf (pointsTo_union hD).2)
    isplitl [HA HB HC]
    · iapply (entOf (pointsTo_union hC).2)
      isplitl [HA HB]
      · iapply (entOf (pointsTo_union hAB).2)
        isplitl [HA]
        · iexact HA
        · iexact HB
      · iexact HC
    · iexact HD
  · iexact HR

/-! ## The index scratch at the end of a trip -/

theorem mem_offSet {row col : ℕ} {y : S80x128.Idx} : y ∈ offSet row col ↔ (y 0).val = row ∧ col ≤ (y 1).val ∧ (y 1).val < col + 64 := by
  simp only [offSet, Finset.mem_filter, Finset.mem_univ, _root_.true_and]

/-- Two offset lists are disjoint when their rows differ, or their halves. -/
theorem offSet_disjoint {r c r' c' : ℕ} (h : r ≠ r' ∨ c + 64 ≤ c' ∨ c' + 64 ≤ c) : Disjoint (offSet r c) (offSet r' c') := by
  refine Finset.disjoint_left.mpr fun y h1 h2 => ?_
  rw [mem_offSet] at h1 h2
  omega

/-- The four lists of rows 2 k and 2 k + 1. -/
abbrev lists4 (k : ℕ) : Finset S80x128.Idx := offSet (2 * k) 0 ∪ offSet (2 * k) 64 ∪ offSet (2 * k + 1) 0 ∪ offSet (2 * k + 1) 64

theorem lists_disjoint_AB (k : ℕ) : Disjoint (offSet (2 * k) 0) (offSet (2 * k) 64) := offSet_disjoint (Or.inr (Or.inl (by omega)))
theorem lists_disjoint_C (k : ℕ) : Disjoint (offSet (2 * k) 0 ∪ offSet (2 * k) 64) (offSet (2 * k + 1) 0) :=
  Finset.disjoint_union_left.mpr ⟨offSet_disjoint (Or.inl (by omega)), offSet_disjoint (Or.inl (by omega))⟩
theorem lists_disjoint_D (k : ℕ) : Disjoint (offSet (2 * k) 0 ∪ offSet (2 * k) 64 ∪ offSet (2 * k + 1) 0) (offSet (2 * k + 1) 64) :=
  Finset.disjoint_union_left.mpr ⟨Finset.disjoint_union_left.mpr ⟨offSet_disjoint (Or.inl (by omega)), offSet_disjoint (Or.inl (by omega))⟩,
    offSet_disjoint (Or.inr (Or.inl (by omega)))⟩

/-- What seven carvings leave, and what four leave. -/
abbrev rest7 (k : ℕ) : Finset S80x128.Idx :=
  ((((((Finset.univ \ offSet (2 * k) 0) \ offSet (2 * k) 64) \ offSet (2 * k + 1) 0) \ offSet (2 * k + 1) 64)
    \ offSet (2 * k + 2) 0) \ offSet (2 * k + 2) 64) \ offSet (2 * k + 3) 0
abbrev rest4 (k : ℕ) : Finset S80x128.Idx :=
  (((Finset.univ \ offSet (2 * k) 0) \ offSet (2 * k) 64) \ offSet (2 * k + 1) 0) \ offSet (2 * k + 1) 64

theorem lists_disjoint_rest7 (k : ℕ) : Disjoint (lists4 k) (rest7 k) := by
  refine Finset.disjoint_left.mpr fun y h1 h2 => ?_
  simp only [lists4, rest7, Finset.mem_union, Finset.mem_sdiff, Finset.mem_univ, _root_.true_and, mem_offSet] at h1 h2
  omega
theorem lists_disjoint_rest4 (k : ℕ) : Disjoint (lists4 k) (rest4 k) := by
  refine Finset.disjoint_left.mpr fun y h1 h2 => ?_
  simp only [lists4, rest4, Finset.mem_union, Finset.mem_sdiff, Finset.mem_univ, _root_.true_and, mem_offSet] at h1 h2
  omega

/-- The scratch less the three lists in flight before trip k + 1 is trip k's four lists and what seven carvings left. -/
theorem next_rest_eq (k : ℕ) :
    ((((Finset.univ : Finset S80x128.Idx) \ offSet (2 * (k + 1)) 0) \ offSet (2 * (k + 1)) 64) \ offSet (2 * (k + 1) + 1) 0) = lists4 k ∪ rest7 k := by
  ext y
  simp only [lists4, rest7, Finset.mem_union, Finset.mem_sdiff, Finset.mem_univ, _root_.true_and, mem_offSet]
  constructor <;> intro h <;> omega
theorem univ_eq (k : ℕ) : (Finset.univ : Finset S80x128.Idx) = lists4 k ∪ rest4 k := by
  ext y
  simp only [lists4, rest4, Finset.mem_union, Finset.mem_sdiff, Finset.mem_univ, _root_.true_and, mem_offSet]
  tauto

/-- The lists of trip k (rows 2 k and 2 k + 1, both halves) back, and what the carvings of the next trip's four lists left:
    the scratch less the three lists in flight before trip k + 1. -/
theorem idx_rejoin (d : Dev nD) (c : Fin τ.nSC) (j : Fin τ.nSub) (q : PosShare TreeShare) (f : Buf (Elt F) ((V d c j).loc cc2_scratch0)) (k : ℕ) :
    iprop(((idxV).view.loc (V d c j) ↦[offSet (2 * k) 0]{q} f) ∗ ((idxV).view.loc (V d c j) ↦[offSet (2 * k) 64]{q} f)
        ∗ ((idxV).view.loc (V d c j) ↦[offSet (2 * k + 1) 0]{q} f) ∗ ((idxV).view.loc (V d c j) ↦[offSet (2 * k + 1) 64]{q} f)
        ∗ ((idxV).view.loc (V d c j) ↦[((((((Finset.univ \ offSet (2 * k) 0) \ offSet (2 * k) 64) \ offSet (2 * k + 1) 0) \ offSet (2 * k + 1) 64)
              \ offSet (2 * k + 2) 0) \ offSet (2 * k + 2) 64) \ offSet (2 * k + 3) 0]{q} f))
      ⊢ ((idxV).view.loc (V d c j) ↦[((Finset.univ \ offSet (2 * (k + 1)) 0) \ offSet (2 * (k + 1)) 64) \ offSet (2 * (k + 1) + 1) 0]{q} f : sProp 𝕄) :=
  pts_join5 (next_rest_eq k) (lists_disjoint_AB k) (lists_disjoint_C k) (lists_disjoint_D k) (lists_disjoint_rest7 k) q f

/-- The same when only one list was carved (the last trip): the whole scratch back. -/
theorem idx_rejoin_last (d : Dev nD) (c : Fin τ.nSC) (j : Fin τ.nSub) (q : PosShare TreeShare) (f : Buf (Elt F) ((V d c j).loc cc2_scratch0)) (k : ℕ) :
    iprop(((idxV).view.loc (V d c j) ↦[offSet (2 * k) 0]{q} f) ∗ ((idxV).view.loc (V d c j) ↦[offSet (2 * k) 64]{q} f)
        ∗ ((idxV).view.loc (V d c j) ↦[offSet (2 * k + 1) 0]{q} f) ∗ ((idxV).view.loc (V d c j) ↦[offSet (2 * k + 1) 64]{q} f)
        ∗ ((idxV).view.loc (V d c j) ↦[(((Finset.univ \ offSet (2 * k) 0) \ offSet (2 * k) 64) \ offSet (2 * k + 1) 0) \ offSet (2 * k + 1) 64]{q} f))
      ⊢ ((idxV).view.loc (V d c j) ↦{q} f : sProp 𝕄) :=
  pts_join5 (univ_eq k) (lists_disjoint_AB k) (lists_disjoint_C k) (lists_disjoint_D k) (lists_disjoint_rest4 k) q f

/-! ## The groups still to write, and the groups written -/

/-- The groups from 2 k on: groups 2 k and 2 k + 1, and the groups from 2 (k + 1) on. -/
theorem groups_todo_succ (Φ : ℕ → sProp 𝕄) (k : ℕ) (hk : k < 40) :
    bigSep (Finset.Ico (2 * k) 80) Φ = iprop(Φ (2 * k) ∗ Φ (2 * k + 1) ∗ bigSep (Finset.Ico (2 * (k + 1)) 80) Φ) := by
  have e : Finset.Ico (2 * k) 80 = insert (2 * k) (insert (2 * k + 1) (Finset.Ico (2 * (k + 1)) 80)) := by
    ext x; simp only [Finset.mem_insert, Finset.mem_Ico]; omega
  rw [e, SparseCore.bigSep_insert' (by simp only [Finset.mem_insert, Finset.mem_Ico]; omega), SparseCore.bigSep_insert' (by simp only [Finset.mem_Ico]; omega)]

/-- The groups below 2 k - 2 with groups 2 k - 2 and 2 k - 1: the groups below 2 (k + 1) - 2 (from the second trip on). -/
theorem groups_done_succ (Φ : ℕ → sProp 𝕄) (k : ℕ) (hk : 1 ≤ k) :
    iprop(bigSep (Finset.range (2 * k - 2)) Φ ∗ Φ (2 * k - 2) ∗ Φ (2 * k - 1)) = bigSep (Finset.range (2 * (k + 1) - 2)) Φ := by
  have e : Finset.range (2 * (k + 1) - 2) = insert (2 * k - 1) (insert (2 * k - 2) (Finset.range (2 * k - 2))) := by
    ext x; simp only [Finset.mem_insert, Finset.mem_range]; omega
  rw [e, SparseCore.bigSep_insert' (by simp only [Finset.mem_insert, Finset.mem_range]; omega), SparseCore.bigSep_insert' (by simp only [Finset.mem_range]; omega)]
  refine equiv_iff.mp ⟨toEntails ?_, toEntails ?_⟩
  · iintro ⟨HR, HX, HY⟩
    isplitl [HY]; · iexact HY
    isplitl [HX]; · iexact HX
    iexact HR
  · iintro ⟨HY, HX, HR⟩
    isplitl [HR]; · iexact HR
    isplitl [HX]; · iexact HX
    iexact HY
/-- At the first trip no group is written before or after. -/
theorem groups_done_zero (Φ : ℕ → sProp 𝕄) : bigSep (Finset.range (2 * 0 - 2)) Φ = bigSep (Finset.range (2 * (0 + 1) - 2)) Φ := rfl

end Cert.KernelIdeal.Hand

end
-- ==== Proof.KI.TileTrip.lean ====
/-
  One trip of the vector-subcore task's pipeline loop, from the loop's invariant to the invariant at the next trip.
-/
import proofs.«208586_g21955872817707_cont_8to1_688_77_alg».proof.Proof.KI.TileInv
import proofs.«208586_g21955872817707_cont_8to1_688_77_alg».proof.Proof.KI.TileGeom
import proofs.«208586_g21955872817707_cont_8to1_688_77_alg».proof.Proof.KI.TileGeomOut
import proofs.«208586_g21955872817707_cont_8to1_688_77_alg».proof.Proof.KI.TileJoin

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.KernelIdeal.main_v8_scv : Memref Cert.KernelIdeal.sig Kind.scVector Space.hbm Cert.KernelIdeal.S10240x128 EltTy.f32)
local notation "iV" => (Memref.whole Cert.KernelIdeal.main_v6_scv : Memref Cert.KernelIdeal.sig Kind.scVector Space.hbm Cert.KernelIdeal.S32x80x128 EltTy.i32)
local notation "mV" => (Memref.whole Cert.KernelIdeal.main_v12_scv : Memref Cert.KernelIdeal.sig Kind.scVector Space.hbm Cert.KernelIdeal.S10240x128 EltTy.f32)
local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)
local notation "shV" => (Memref.whole Cert.KernelIdeal.cc2_scratch3 : Memref Cert.KernelIdeal.sig Kind.scVector Space.shared Cert.KernelIdeal.S10240x128 EltTy.f32)

section Trip

variable (d : Dev nD) (L : grid2.Coords)

/-- What a gather issued in the trip delivers, in the invariant's spelling: the slot's contents forgotten, the offset list and
    the slot named as index sets. -/
theorem gDeliver' (b : ℕ) (inbS : ∀ a, (![b, 0, 0] : Fin 3 → ℕ) a + S1x64x128.size a ≤ S4x64x128.size a)
    (off : Fin 2 → ℕ) (inbO : ∀ a, off a + S1x64.size a ≤ S80x128.size a) (S' : Finset S80x128.Idx) (hS : (offK off inbO).view.set = S')
    (X : Buf (Elt F) ((V d (cV L) (jV L)).loc cc2_scratch1)) (fi : Buf (Elt F) ((V d (cV L) (jV L)).loc cc2_scratch0))
    (q' : PosShare TreeShare) (g : Buf (Elt F) (shLoc d (cV L))) :
    iprop((((rowsV).view.loc (V d (cV L) (jV L)) ↦[(((rowsV).slice (Rect.unit (s := S4x64x128) ![b, 0, 0] S1x64x128.size inbS) (fun _ => rfl)).squeeze S64x128 squeezes_S1x64x128_S64x128).view.set]{fullShare} X)
          ∗ ((idxV).view.loc (V d (cV L) (jV L)) ↦[(offK off inbO).view.set]{fullShare} fi))
        ∗ ((shAllK).view.loc (V d (cV L) (jV L)) ↦[(shAllK).view.set]{q'} g))
      ⊢ (iprop(((∃ R : Buf (Elt F) ((V d (cV L) (jV L)).loc cc2_scratch1), (rowsV).view.loc (V d (cV L) (jV L)) ↦[slotSet b]{fullShare} R)
          ∗ ((idxV).view.loc (V d (cV L) (jV L)) ↦[S']{fullShare} fi))
        ∗ ((shAllK).view.loc (V d (cV L) (jV L)) ↦[(shAllK).view.set]{q'} g)) : sProp 𝕄) := by
  subst hS
  rw [set_slot]
  iintro ⟨⟨H1, H2⟩, H3⟩
  isplitl [H1 H2]
  · isplitl [H1]; · iexists X; iexact H1
    iexact H2
  · iexact H3

/-- What a write-back issued in the trip delivers, in the invariant's spelling (frame level: the value statement is vacuous). -/
theorem wDeliver (hv : ¬ v) (n : ℕ) (ob : ℕ) (inbO : ∀ a, (![ob, 0, 0] : Fin 3 → ℕ) a + S1x4x128.size a ≤ S2x4x128.size a)
    (off : Fin 2 → ℕ) (inbM : ∀ a, off a + S4x128.size a ≤ S10240x128.size a)
    (hM : ((mV).slice (Rect.unit (s := S10240x128) off S4x128.size inbM) (fun _ => rfl)).view.set = mGroupSet (wid (cL L) (jL L)) n)
    (X : Buf (Elt F) (mLoc d)) (Y : Buf (Elt F) ((V d (cV L) (jV L)).loc cc2_scratch2)) :
    iprop(((mV).view.loc (V d (cV L) (jV L)) ↦[((mV).slice (Rect.unit (s := S10240x128) off S4x128.size inbM) (fun _ => rfl)).view.set]{fullShare} X)
        ∗ ((outV).view.loc (V d (cV L) (jV L)) ↦[(((outV).slice (Rect.unit (s := S2x4x128) ![ob, 0, 0] S1x4x128.size inbO) (fun _ => rfl)).squeeze S4x128 squeezes_S1x4x128_S4x128).view.set]{fullShare} Y))
      ⊢ (iprop((∃ Mg : Buf (Elt F) (mLoc d), ⌜GroupSpec v Zf I d L n Mg⌝ ∗ (mV).view.loc (V d (cV L) (jV L)) ↦[mGroupSet (wid (cL L) (jL L)) n]{fullShare} Mg)
        ∗ ∃ fo : Buf (Elt F) ((V d (cV L) (jV L)).loc cc2_scratch2), (outV).view.loc (V d (cV L) (jV L)) ↦[outSet ob]{fullShare} fo) : sProp 𝕄) := by
  rw [pts_set_congr (F := F) (ℓ := (mV).view.loc (V d (cV L) (jV L))) hM, pts_set_congr (F := F) (ℓ := (outV).view.loc (V d (cV L) (jV L))) (set_outK ob inbO)]
  iintro ⟨H1, H2⟩
  isplitl [H1]
  · iexists X; isplitr
    · ipureintro; exact fun h => absurd h hv
    · iexact H1
  · iexists Y; iexact H2

set_option maxHeartbeats 4000000 in
/-- A trip in the middle of the loop (1 ≤ k ≤ 38): both write-back waits and all four look-ahead gathers happen. -/
theorem trip_mid (hv : ¬ v) (q : PosShare TreeShare) (g : Buf (Elt F) (shLoc d (cV L))) (fi : Buf (Elt F) ((V d (cV L) (jV L)).loc cc2_scratch0))
    (hidx : ∀ x, (fi x).toNat < 10000) (M0 : Buf (Elt F) (mLoc d)) (O : CellTallies nD τ sig (HIx 1)) (W0 : Waits sig (HIx 1)) (v1 : BitVec 32)
    (k : Fin k2_t1_loop.trips) (hk0 : k.val ≠ 0) (hk39 : k.val ≠ 39) (a : PUnit) :
    inv v Zf I d L q g fi M0 O W0 k.val a
      ⊢ wp frame (wpE (defs₀ (F := F)) 𝒱₀ (V d (cV L) (jV L)) none) Set.univ
          (k2_t1_body L zV (Memref.isWhole_whole _) iV (Memref.isWhole_whole _) mV (Memref.isWhole_whole _) idxV (Memref.isWhole_whole _)
            rowsV (Memref.isWhole_whole _) outV (Memref.isWhole_whole _) shV (Memref.isWhole_whole _)
            cc2_scratch4 cc2_scratch5 cc2_scratch6 cc2_scratch7 cc2_scratch8 cc2_scratch9 cc2_scoped0 cc2_scoped1 v1 k a)
          (inv v Zf I d L q g fi M0 O W0 (k.val + 1)) := by
  have hk40 : k.val < 40 := lt_of_lt_of_le k.isLt k2_t1_abs.2.1
  have hk1 : 1 ≤ k.val := Nat.pos_of_ne_zero hk0
  have hk38 : k.val < 39 := by omega
  have hc1 : k2_cond1 k = 1#1 := k2_cond1_of_pos k hk1
  have hc2 : k2_cond2 k = 1#1 := k2_cond2_true k
  have hc3 : k2_cond3 k = 1#1 := k2_cond3_of_lt k hk38
  have hc4 : k2_cond4 k = 1#1 := k2_cond4_of_pos k hk1
  have hc5 : k2_cond5 k = 1#1 := k2_cond5_of_lt k hk38
  have hc6 : k2_cond6 k = 1#1 := k2_cond6_of_lt k hk38
  -- the four offset lists this trip's gathers read, as index sets
  have hD : (offK (k2_off4 k) (k2_off4_inb k hc2)).view.set = offSet (2 * k.val + 1) 64 := (set_offK _ _).trans (by simp only [k2_off4_eq]; rfl)
  have hE : (offK (k2_off22 k) (k2_off22_inb k hc3)).view.set = offSet (2 * k.val + 2) 0 := (set_offK _ _).trans (by simp only [k2_off22_eq]; rfl)
  have hF : (offK (k2_off42 k) (k2_off42_inb k hc5)).view.set = offSet (2 * k.val + 2) 64 := (set_offK _ _).trans (by simp only [k2_off42_eq]; rfl)
  have hG : (offK (k2_off59 k) (k2_off59_inb k hc6)).view.set = offSet (2 * k.val + 3) 0 := (set_offK _ _).trans (by simp only [k2_off59_eq]; rfl)
  have hDs : offSet (2 * k.val + 1) 64 ⊆ ((Finset.univ \ offSet (2 * k.val) 0) \ offSet (2 * k.val) 64) \ offSet (2 * k.val + 1) 0 := fun y hy => by
    simp only [offSet, Finset.mem_sdiff, Finset.mem_filter, Finset.mem_univ, _root_.true_and] at hy ⊢; omega
  have hEs : offSet (2 * k.val + 2) 0 ⊆ (((Finset.univ \ offSet (2 * k.val) 0) \ offSet (2 * k.val) 64) \ offSet (2 * k.val + 1) 0) \ offSet (2 * k.val + 1) 64 := fun y hy => by
    simp only [offSet, Finset.mem_sdiff, Finset.mem_filter, Finset.mem_univ, _root_.true_and] at hy ⊢; omega
  have hFs : offSet (2 * k.val + 2) 64 ⊆ ((((Finset.univ \ offSet (2 * k.val) 0) \ offSet (2 * k.val) 64) \ offSet (2 * k.val + 1) 0) \ offSet (2 * k.val + 1) 64) \ offSet (2 * k.val + 2) 0 := fun y hy => by
    simp only [offSet, Finset.mem_sdiff, Finset.mem_filter, Finset.mem_univ, _root_.true_and] at hy ⊢; omega
  have hGs : offSet (2 * k.val + 3) 0 ⊆ (((((Finset.univ \ offSet (2 * k.val) 0) \ offSet (2 * k.val) 64) \ offSet (2 * k.val + 1) 0) \ offSet (2 * k.val + 1) 64) \ offSet (2 * k.val + 2) 0) \ offSet (2 * k.val + 2) 64 := fun y hy => by
    simp only [offSet, Finset.mem_sdiff, Finset.mem_filter, Finset.mem_univ, _root_.true_and] at hy ⊢; omega
  have hin3 := hin_of (F := F) d L (k2_off4 k) (k2_off4_inb k hc2) _ hidx
  have hin4 := hin_of (F := F) d L (k2_off22 k) (k2_off22_inb k hc3) _ hidx
  have hin5 := hin_of (F := F) d L (k2_off42 k) (k2_off42_inb k hc5) _ hidx
  have hin6 := hin_of (F := F) d L (k2_off59 k) (k2_off59_inb k hc6) _ hidx
  unfold inv gPart wPart
  rw [if_pos hk40, if_neg hk0]
  unfold gFlight wFlight k2_t1_body
  iintro ⟨#Hmw, ⟨Hf0, Hf1, Hf2, ⟨%R3, Hr3⟩, Hidx, Hg11, Hs7⟩, ⟨Hdone, Htodo, Hw0, Hw1⟩, %W', %hW', HO⟩
  -- carve this trip's four offset lists out of the index scratch, in the spelling the gathers address them by
  ihave H1 := (pointsTo_split_subset (q := fullShare) hDs).1 $$ Hidx
  icases H1 with ⟨HiD, Hidx⟩
  ihave H2 := (pointsTo_split_subset (q := fullShare) hEs).1 $$ Hidx
  icases H2 with ⟨HiE, Hidx⟩
  ihave H3 := (pointsTo_split_subset (q := fullShare) hFs).1 $$ Hidx
  icases H3 with ⟨HiF, Hidx⟩
  ihave H4 := (pointsTo_split_subset (q := fullShare) hGs).1 $$ Hidx
  icases H4 with ⟨HiG, Hidx⟩
  ihave HiD' := (Entails.of_eq (pts_set_congr (F := F) (ℓ := (offK (k2_off4 k) (k2_off4_inb k hc2)).view.loc (V d (cV L) (jV L))) hD.symm fullShare fi)) $$ [HiD]
  · iexact HiD
  ihave HiE' := (Entails.of_eq (pts_set_congr (F := F) (ℓ := (offK (k2_off22 k) (k2_off22_inb k hc3)).view.loc (V d (cV L) (jV L))) hE.symm fullShare fi)) $$ [HiE]
  · iexact HiE
  ihave HiF' := (Entails.of_eq (pts_set_congr (F := F) (ℓ := (offK (k2_off42 k) (k2_off42_inb k hc5)).view.loc (V d (cV L) (jV L))) hF.symm fullShare fi)) $$ [HiF]
  · iexact HiF
  ihave HiG' := (Entails.of_eq (pts_set_congr (F := F) (ℓ := (offK (k2_off59 k) (k2_off59_inb k hc6)).view.loc (V d (cV L) (jV L))) hG.symm fullShare fi)) $$ [HiG]
  · iexact HiG
  -- slot 3 in the spelling the gather addresses it by
  ihave Hr3' := (Entails.of_eq (show ((rowsV).view.loc (V d (cV L) (jV L)) ↦[slotSet 3]{fullShare} R3 : sProp 𝕄)
      = (slotK3).view.loc (V d (cV L) (jV L)) ↦[(slotK3).view.set]{fullShare} R3 from by rw [show (slotK3).view.set = slotSet 3 from set_slot 3 _])) $$ Hr3
  sl_exec
  -- the write-back of group 2 k - 2
  iapply (Transfers.wp_waitLocalO countersEmb 𝒱₀ (V d (cV L) (jV L)) none (default : HIx 1) (N := 16384) (by rfl)) $$ [Hw0 HO]
  · isplitl [Hw0]; · iexact Hw0
    isplitl [HO]; · iexact HO
    iapply (Transfers.MayWaits.elim (SemLoc.dma cc2_scratch8.sem)) $$ Hmw
  iintro ⟨⟨Hmg0, %fo0, Hout0⟩, Hs8, HO⟩
  sl_exec
  -- chunk 4 k has landed in slot 0: name its rows; the slot and half 0 of the output scratch as the loads and stores address them
  icases Hf0_dst with ⟨⟨%R0, Hr0⟩, HiA⟩
  ihave Hr0' := (Entails.of_eq (show ((rowsV).view.loc (V d (cV L) (jV L)) ↦[slotSet 0]{fullShare} R0 : sProp 𝕄)
      = (slotK0).view.loc (V d (cV L) (jV L)) ↦[(slotK0).view.set]{fullShare} R0 from by rw [show (slotK0).view.set = slotSet 0 from set_slot 0 _])) $$ Hr0
  ihave Hout0' := (Entails.of_eq (pts_set_congr (F := F) (ℓ := (outK0).view.loc (V d (cV L) (jV L))) set_outK0.symm fullShare fo0)) $$ [Hout0]
  · iexact Hout0
  -- the two groups this trip writes, out of the rows still to do, in the spelling the write-backs address them by
  have hIco : Finset.Ico (2 * k.val) 80 = insert (2 * k.val) (insert (2 * k.val + 1) (Finset.Ico (2 * (k.val + 1)) 80)) := by
    ext n; simp only [Finset.mem_Ico, Finset.mem_insert]; omega
  ihave Ht := (Entails.of_eq (show (bigSep (Finset.Ico (2 * k.val) 80) fun n => ((mV).view.loc (V d (cV L) (jV L)) ↦[mGroupSet (wid (cL L) (jL L)) n]{fullShare} M0 : sProp 𝕄))
      = iprop(((mV).view.loc (V d (cV L) (jV L)) ↦[mGroupSet (wid (cL L) (jL L)) (2 * k.val)]{fullShare} M0)
          ∗ ((mV).view.loc (V d (cV L) (jV L)) ↦[mGroupSet (wid (cL L) (jL L)) (2 * k.val + 1)]{fullShare} M0)
          ∗ bigSep (Finset.Ico (2 * (k.val + 1)) 80) fun n => ((mV).view.loc (V d (cV L) (jV L)) ↦[mGroupSet (wid (cL L) (jL L)) n]{fullShare} M0 : sProp 𝕄)) from by
        rw [hIco, SparseCore.bigSep_insert' (by simp only [Finset.mem_insert, Finset.mem_Ico]; omega), SparseCore.bigSep_insert' (by simp only [Finset.mem_Ico]; omega)])) $$ Htodo
  icases Ht with ⟨Hma, Hmb, Htodo⟩
  ihave Hma' := (Entails.of_eq (pts_set_congr (F := F) (ℓ := ((mV).slice (Rect.unit (s := S10240x128) (k2_off40 L k 0#32) S4x128.size (k2_off40_inb L k 0)) (fun _ => rfl)).view.loc (V d (cV L) (jV L)))
      (set_mGroup40_0 L k).symm fullShare M0)) $$ [Hma]
  · iexact Hma
  ihave Hmb' := (Entails.of_eq (pts_set_congr (F := F) (ℓ := ((mV).slice (Rect.unit (s := S10240x128) (k2_off40 L k 1#32) S4x128.size (k2_off40_inb L k 1)) (fun _ => rfl)).view.loc (V d (cV L) (jV L)))
      (set_mGroup40_1 L k).symm fullShare M0)) $$ [Hmb]
  · iexact Hmb
  sl_exec
  -- chunk 4 k + 1 has landed in slot 1
  icases Hf1_dst with ⟨⟨%R1, Hr1⟩, HiB⟩
  ihave Hr1' := (Entails.of_eq (show ((rowsV).view.loc (V d (cV L) (jV L)) ↦[slotSet 1]{fullShare} R1 : sProp 𝕄)
      = (slotK1).view.loc (V d (cV L) (jV L)) ↦[(slotK1).view.set]{fullShare} R1 from by rw [show (slotK1).view.set = slotSet 1 from set_slot 1 _])) $$ Hr1
  sl_exec
  -- the write-back of group 2 k - 1
  iapply (Transfers.wp_waitLocalO countersEmb 𝒱₀ (V d (cV L) (jV L)) none (default : HIx 1) (N := 16384) (by rfl)) $$ [Hw1 HO]
  · isplitl [Hw1]; · iexact Hw1
    isplitl [HO]; · iexact HO
    iapply (Transfers.MayWaits.elim (SemLoc.dma cc2_scratch9.sem)) $$ Hmw
  iintro ⟨⟨Hmg1, %fo1, Hout1⟩, Hs9, HO⟩
  ihave Hout1' := (Entails.of_eq (pts_set_congr (F := F) (ℓ := (outK1).view.loc (V d (cV L) (jV L))) set_outK1.symm fullShare fo1)) $$ [Hout1]
  · iexact Hout1
  sl_exec
  -- chunk 4 k + 2 has landed in slot 2
  icases Hf2_dst with ⟨⟨%R2, Hr2⟩, HiC⟩
  ihave Hr2' := (Entails.of_eq (show ((rowsV).view.loc (V d (cV L) (jV L)) ↦[slotSet 2]{fullShare} R2 : sProp 𝕄)
      = (slotK2).view.loc (V d (cV L) (jV L)) ↦[(slotK2).view.set]{fullShare} R2 from by rw [show (slotK2).view.set = slotSet 2 from set_slot 2 _])) $$ Hr2
  sl_exec
  sl_step
  -- the invariant at the next trip
  rw [if_pos (show k.val + 1 < 40 by omega), if_neg (show ¬ k.val + 1 = 0 by omega)]
  have hE' : (offK (k2_off22 k) (k2_off22_inb k hc3)).view.set = offSet (2 * (k.val + 1)) 0 :=
    hE.trans (congrArg (fun r => offSet r 0) (by omega))
  have hF' : (offK (k2_off42 k) (k2_off42_inb k hc5)).view.set = offSet (2 * (k.val + 1)) 64 :=
    hF.trans (congrArg (fun r => offSet r 64) (by omega))
  have hG' : (offK (k2_off59 k) (k2_off59_inb k hc6)).view.set = offSet (2 * (k.val + 1) + 1) 0 :=
    hG.trans (congrArg (fun r => offSet r 0) (by omega))
  isplitr; · iexact Hmw
  isplitl [Hf0 Hf1 Hf2 Hr3' Hidx HiA HiB HiC HiD' Hg11 Hs7]
  · isplitl [Hf0]
    · iapply (Flight_mono (F := F) (gDeliver' (F := F) d L 0 inb_S4x64x128_S1x64x128_0_0_0 (k2_off22 k) (k2_off22_inb k hc3) _ hE' _ _ _ _))
      iexact Hf0
    isplitl [Hf1]
    · iapply (Flight_mono (F := F) (gDeliver' (F := F) d L 1 inb_S4x64x128_S1x64x128_1_0_0 (k2_off42 k) (k2_off42_inb k hc5) _ hF' _ _ _ _))
      iexact Hf1
    isplitl [Hf2]
    · iapply (Flight_mono (F := F) (gDeliver' (F := F) d L 2 inb_S4x64x128_S1x64x128_2_0_0 (k2_off59 k) (k2_off59_inb k hc6) _ hG' _ _ _ _))
      iexact Hf2
    isplitl [Hr3']
    · iexists _
      iapply (Entails.of_eq (show ((slotK3).view.loc (V d (cV L) (jV L)) ↦[(slotK3).view.set]{fullShare} _ : sProp 𝕄)
          = (rowsV).view.loc (V d (cV L) (jV L)) ↦[slotSet 3]{fullShare} _ from by rw [show (slotK3).view.set = slotSet 3 from set_slot 3 _]))
      iexact Hr3'
    isplitl [Hidx HiA HiB HiC HiD']
    · iapply (idx_rejoin (F := F) d (cV L) (jV L) fullShare fi k.val)
      isplitl [HiA]; · iexact HiA
      isplitl [HiB]; · iexact HiB
      isplitl [HiC]; · iexact HiC
      isplitl [HiD']
      · iapply (Entails.of_eq (pts_set_congr (F := F) (ℓ := (idxV).view.loc (V d (cV L) (jV L))) hD fullShare fi))
        iexact HiD'
      iexact Hidx
    isplitl [Hg11]; · iexact Hg11
    iexact Hs7
  isplitl [Hdone Hmg0 Hmg1 Htodo Hs8 Hs9]
  · isplitl [Hdone Hmg0 Hmg1]
    · rw [← groups_done_succ _ k.val hk1]
      isplitl [Hdone]; · iexact Hdone
      isplitl [Hmg0]; · iexact Hmg0
      iexact Hmg1
    isplitl [Htodo]; · iexact Htodo
    isplitl [Hs8]
    · iapply (Flight_mono (F := F) (wDeliver (F := F) v Zf I d L hv (2 * (k.val + 1) - 2) 0 inb_S2x4x128_S1x4x128_0_0_0 (k2_off40 L k 0#32) (k2_off40_inb L k 0)
        ((set_mGroup40_0 L k).trans (congrArg (mGroupSet (wid (cL L) (jL L))) (by omega))) _ _))
      iexact Hs8
    · iapply (Flight_mono (F := F) (wDeliver (F := F) v Zf I d L hv (2 * (k.val + 1) - 1) 1 inb_S2x4x128_S1x4x128_1_0_0 (k2_off40 L k 1#32) (k2_off40_inb L k 1)
        ((set_mGroup40_1 L k).trans (congrArg (mGroupSet (wid (cL L) (jL L))) (by omega))) _ _))
      iexact Hs9
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Trip

end Cert.KernelIdeal.Hand

end
-- ==== Proof.KI.TileTripFirst.lean ====
/-
  The first trip of the vector-subcore task's pipeline loop (k = 0), from the loop's invariant to the invariant at the
  next trip: no write-back is in flight yet, so neither wait happens and the output scratch is held whole.
-/
import proofs.«208586_g21955872817707_cont_8to1_688_77_alg».proof.Proof.KI.TileTrip

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.KernelIdeal.main_v8_scv : Memref Cert.KernelIdeal.sig Kind.scVector Space.hbm Cert.KernelIdeal.S10240x128 EltTy.f32)
local notation "iV" => (Memref.whole Cert.KernelIdeal.main_v6_scv : Memref Cert.KernelIdeal.sig Kind.scVector Space.hbm Cert.KernelIdeal.S32x80x128 EltTy.i32)
local notation "mV" => (Memref.whole Cert.KernelIdeal.main_v12_scv : Memref Cert.KernelIdeal.sig Kind.scVector Space.hbm Cert.KernelIdeal.S10240x128 EltTy.f32)
local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)
local notation "shV" => (Memref.whole Cert.KernelIdeal.cc2_scratch3 : Memref Cert.KernelIdeal.sig Kind.scVector Space.shared Cert.KernelIdeal.S10240x128 EltTy.f32)

section Trip

variable (d : Dev nD) (L : grid2.Coords)

set_option maxHeartbeats 4000000 in
/-- The first trip (k = 0): no write-back is in flight yet, so neither wait happens; all four look-ahead gathers do. -/
theorem trip_first (hv : ¬ v) (q : PosShare TreeShare) (g : Buf (Elt F) (shLoc d (cV L))) (fi : Buf (Elt F) ((V d (cV L) (jV L)).loc cc2_scratch0))
    (hidx : ∀ x, (fi x).toNat < 10000) (M0 : Buf (Elt F) (mLoc d)) (O : CellTallies nD τ sig (HIx 1)) (W0 : Waits sig (HIx 1)) (v1 : BitVec 32)
    (k : Fin k2_t1_loop.trips) (hk0 : k.val = 0) (a : PUnit) :
    inv v Zf I d L q g fi M0 O W0 k.val a
      ⊢ wp frame (wpE (defs₀ (F := F)) 𝒱₀ (V d (cV L) (jV L)) none) Set.univ
          (k2_t1_body L zV (Memref.isWhole_whole _) iV (Memref.isWhole_whole _) mV (Memref.isWhole_whole _) idxV (Memref.isWhole_whole _)
            rowsV (Memref.isWhole_whole _) outV (Memref.isWhole_whole _) shV (Memref.isWhole_whole _)
            cc2_scratch4 cc2_scratch5 cc2_scratch6 cc2_scratch7 cc2_scratch8 cc2_scratch9 cc2_scoped0 cc2_scoped1 v1 k a)
          (inv v Zf I d L q g fi M0 O W0 (k.val + 1)) := by
  have hk40 : k.val < 40 := lt_of_lt_of_le k.isLt k2_t1_abs.2.1
  have hk38 : k.val < 39 := by omega
  have hc1 : ¬ k2_cond1 k = 1#1 := k2_cond1_of_not_pos k (by omega)
  have hc2 : k2_cond2 k = 1#1 := k2_cond2_true k
  have hc3 : k2_cond3 k = 1#1 := k2_cond3_of_lt k hk38
  have hc4 : ¬ k2_cond4 k = 1#1 := k2_cond4_of_not_pos k (by omega)
  have hc5 : k2_cond5 k = 1#1 := k2_cond5_of_lt k hk38
  have hc6 : k2_cond6 k = 1#1 := k2_cond6_of_lt k hk38
  -- the four offset lists this trip's gathers read, as index sets
  have hD : (offK (k2_off4 k) (k2_off4_inb k hc2)).view.set = offSet (2 * k.val + 1) 64 := (set_offK _ _).trans (by simp only [k2_off4_eq]; rfl)
  have hE : (offK (k2_off22 k) (k2_off22_inb k hc3)).view.set = offSet (2 * k.val + 2) 0 := (set_offK _ _).trans (by simp only [k2_off22_eq]; rfl)
  have hF : (offK (k2_off42 k) (k2_off42_inb k hc5)).view.set = offSet (2 * k.val + 2) 64 := (set_offK _ _).trans (by simp only [k2_off42_eq]; rfl)
  have hG : (offK (k2_off59 k) (k2_off59_inb k hc6)).view.set = offSet (2 * k.val + 3) 0 := (set_offK _ _).trans (by simp only [k2_off59_eq]; rfl)
  have hDs : offSet (2 * k.val + 1) 64 ⊆ ((Finset.univ \ offSet (2 * k.val) 0) \ offSet (2 * k.val) 64) \ offSet (2 * k.val + 1) 0 := fun y hy => by
    simp only [offSet, Finset.mem_sdiff, Finset.mem_filter, Finset.mem_univ, _root_.true_and] at hy ⊢; omega
  have hEs : offSet (2 * k.val + 2) 0 ⊆ (((Finset.univ \ offSet (2 * k.val) 0) \ offSet (2 * k.val) 64) \ offSet (2 * k.val + 1) 0) \ offSet (2 * k.val + 1) 64 := fun y hy => by
    simp only [offSet, Finset.mem_sdiff, Finset.mem_filter, Finset.mem_univ, _root_.true_and] at hy ⊢; omega
  have hFs : offSet (2 * k.val + 2) 64 ⊆ ((((Finset.univ \ offSet (2 * k.val) 0) \ offSet (2 * k.val) 64) \ offSet (2 * k.val + 1) 0) \ offSet (2 * k.val + 1) 64) \ offSet (2 * k.val + 2) 0 := fun y hy => by
    simp only [offSet, Finset.mem_sdiff, Finset.mem_filter, Finset.mem_univ, _root_.true_and] at hy ⊢; omega
  have hGs : offSet (2 * k.val + 3) 0 ⊆ (((((Finset.univ \ offSet (2 * k.val) 0) \ offSet (2 * k.val) 64) \ offSet (2 * k.val + 1) 0) \ offSet (2 * k.val + 1) 64) \ offSet (2 * k.val + 2) 0) \ offSet (2 * k.val + 2) 64 := fun y hy => by
    simp only [offSet, Finset.mem_sdiff, Finset.mem_filter, Finset.mem_univ, _root_.true_and] at hy ⊢; omega
  have hin3 := hin_of (F := F) d L (k2_off4 k) (k2_off4_inb k hc2) _ hidx
  have hin4 := hin_of (F := F) d L (k2_off22 k) (k2_off22_inb k hc3) _ hidx
  have hin5 := hin_of (F := F) d L (k2_off42 k) (k2_off42_inb k hc5) _ hidx
  have hin6 := hin_of (F := F) d L (k2_off59 k) (k2_off59_inb k hc6) _ hidx
  unfold inv gPart wPart
  rw [if_pos hk40, if_pos hk0]
  unfold gFlight wFlight k2_t1_body
  iintro ⟨#Hmw, ⟨Hf0, Hf1, Hf2, ⟨%R3, Hr3⟩, Hidx, Hg11, Hs7⟩, ⟨Hdone, Htodo, ⟨%fo, Hout⟩, Hs8, Hs9⟩, %W', %hW', HO⟩
  -- the output scratch, held whole, as its two halves
  ihave Ho := (pointsTo_split_subset (q := fullShare) (Finset.subset_univ (outSet 0))).1 $$ Hout
  icases Ho with ⟨Hout0, Hout1⟩
  ihave Hout1 := (Entails.of_eq (pts_set_congr (F := F) (ℓ := (outV).view.loc (V d (cV L) (jV L))) univ_sdiff_outSet0 fullShare fo)) $$ [Hout1]
  · iexact Hout1
  -- carve this trip's four offset lists out of the index scratch, in the spelling the gathers address them by
  ihave H1 := (pointsTo_split_subset (q := fullShare) hDs).1 $$ Hidx
  icases H1 with ⟨HiD, Hidx⟩
  ihave H2 := (pointsTo_split_subset (q := fullShare) hEs).1 $$ Hidx
  icases H2 with ⟨HiE, Hidx⟩
  ihave H3 := (pointsTo_split_subset (q := fullShare) hFs).1 $$ Hidx
  icases H3 with ⟨HiF, Hidx⟩
  ihave H4 := (pointsTo_split_subset (q := fullShare) hGs).1 $$ Hidx
  icases H4 with ⟨HiG, Hidx⟩
  ihave HiD' := (Entails.of_eq (pts_set_congr (F := F) (ℓ := (offK (k2_off4 k) (k2_off4_inb k hc2)).view.loc (V d (cV L) (jV L))) hD.symm fullShare fi)) $$ [HiD]
  · iexact HiD
  ihave HiE' := (Entails.of_eq (pts_set_congr (F := F) (ℓ := (offK (k2_off22 k) (k2_off22_inb k hc3)).view.loc (V d (cV L) (jV L))) hE.symm fullShare fi)) $$ [HiE]
  · iexact HiE
  ihave HiF' := (Entails.of_eq (pts_set_congr (F := F) (ℓ := (offK (k2_off42 k) (k2_off42_inb k hc5)).view.loc (V d (cV L) (jV L))) hF.symm fullShare fi)) $$ [HiF]
  · iexact HiF
  ihave HiG' := (Entails.of_eq (pts_set_congr (F := F) (ℓ := (offK (k2_off59 k) (k2_off59_inb k hc6)).view.loc (V d (cV L) (jV L))) hG.symm fullShare fi)) $$ [HiG]
  · iexact HiG
  -- slot 3 in the spelling the gather addresses it by
  ihave Hr3' := (Entails.of_eq (show ((rowsV).view.loc (V d (cV L) (jV L)) ↦[slotSet 3]{fullShare} R3 : sProp 𝕄)
      = (slotK3).view.loc (V d (cV L) (jV L)) ↦[(slotK3).view.set]{fullShare} R3 from by rw [show (slotK3).view.set = slotSet 3 from set_slot 3 _])) $$ Hr3
  sl_exec
  -- chunk 4 k has landed in slot 0 (the run took the wait): name its rows, respell the slot and half 0 of the output scratch
  icases Hf0_dst with ⟨⟨%R0, Hr0⟩, HiA⟩
  ihave Hr0' := (Entails.of_eq (show ((rowsV).view.loc (V d (cV L) (jV L)) ↦[slotSet 0]{fullShare} R0 : sProp 𝕄)
      = (slotK0).view.loc (V d (cV L) (jV L)) ↦[(slotK0).view.set]{fullShare} R0 from by rw [show (slotK0).view.set = slotSet 0 from set_slot 0 _])) $$ Hr0
  ihave Hout0' := (Entails.of_eq (pts_set_congr (F := F) (ℓ := (outK0).view.loc (V d (cV L) (jV L))) set_outK0.symm fullShare fo)) $$ [Hout0]
  · iexact Hout0
  -- the two groups this trip writes, out of the rows still to do, in the spelling the write-backs address them by
  have hIco : Finset.Ico (2 * k.val) 80 = insert (2 * k.val) (insert (2 * k.val + 1) (Finset.Ico (2 * (k.val + 1)) 80)) := by
    ext n; simp only [Finset.mem_Ico, Finset.mem_insert]; omega
  ihave Ht := (Entails.of_eq (show (bigSep (Finset.Ico (2 * k.val) 80) fun n => ((mV).view.loc (V d (cV L) (jV L)) ↦[mGroupSet (wid (cL L) (jL L)) n]{fullShare} M0 : sProp 𝕄))
      = iprop(((mV).view.loc (V d (cV L) (jV L)) ↦[mGroupSet (wid (cL L) (jL L)) (2 * k.val)]{fullShare} M0)
          ∗ ((mV).view.loc (V d (cV L) (jV L)) ↦[mGroupSet (wid (cL L) (jL L)) (2 * k.val + 1)]{fullShare} M0)
          ∗ bigSep (Finset.Ico (2 * (k.val + 1)) 80) fun n => ((mV).view.loc (V d (cV L) (jV L)) ↦[mGroupSet (wid (cL L) (jL L)) n]{fullShare} M0 : sProp 𝕄)) from by
        rw [hIco, SparseCore.bigSep_insert' (by simp only [Finset.mem_insert, Finset.mem_Ico]; omega), SparseCore.bigSep_insert' (by simp only [Finset.mem_Ico]; omega)])) $$ Htodo
  icases Ht with ⟨Hma, Hmb, Htodo⟩
  ihave Hma' := (Entails.of_eq (pts_set_congr (F := F) (ℓ := ((mV).slice (Rect.unit (s := S10240x128) (k2_off40 L k 0#32) S4x128.size (k2_off40_inb L k 0)) (fun _ => rfl)).view.loc (V d (cV L) (jV L)))
      (set_mGroup40_0 L k).symm fullShare M0)) $$ [Hma]
  · iexact Hma
  ihave Hmb' := (Entails.of_eq (pts_set_congr (F := F) (ℓ := ((mV).slice (Rect.unit (s := S10240x128) (k2_off40 L k 1#32) S4x128.size (k2_off40_inb L k 1)) (fun _ => rfl)).view.loc (V d (cV L) (jV L)))
      (set_mGroup40_1 L k).symm fullShare M0)) $$ [Hmb]
  · iexact Hmb
  sl_exec
  -- chunk 4 k + 1 has landed in slot 1
  icases Hf1_dst with ⟨⟨%R1, Hr1⟩, HiB⟩
  ihave Hr1' := (Entails.of_eq (show ((rowsV).view.loc (V d (cV L) (jV L)) ↦[slotSet 1]{fullShare} R1 : sProp 𝕄)
      = (slotK1).view.loc (V d (cV L) (jV L)) ↦[(slotK1).view.set]{fullShare} R1 from by rw [show (slotK1).view.set = slotSet 1 from set_slot 1 _])) $$ Hr1
  ihave Hout1' := (Entails.of_eq (pts_set_congr (F := F) (ℓ := (outK1).view.loc (V d (cV L) (jV L))) set_outK1.symm fullShare fo)) $$ [Hout1]
  · iexact Hout1
  sl_exec
  -- chunk 4 k + 2 has landed in slot 2
  icases Hf2_dst with ⟨⟨%R2, Hr2⟩, HiC⟩
  ihave Hr2' := (Entails.of_eq (show ((rowsV).view.loc (V d (cV L) (jV L)) ↦[slotSet 2]{fullShare} R2 : sProp 𝕄)
      = (slotK2).view.loc (V d (cV L) (jV L)) ↦[(slotK2).view.set]{fullShare} R2 from by rw [show (slotK2).view.set = slotSet 2 from set_slot 2 _])) $$ Hr2
  sl_exec
  sl_step
  -- the invariant at the next trip
  rw [if_pos (show k.val + 1 < 40 by omega), if_neg (show ¬ k.val + 1 = 0 by omega)]
  have hE' : (offK (k2_off22 k) (k2_off22_inb k hc3)).view.set = offSet (2 * (k.val + 1)) 0 :=
    hE.trans (congrArg (fun r => offSet r 0) (by omega))
  have hF' : (offK (k2_off42 k) (k2_off42_inb k hc5)).view.set = offSet (2 * (k.val + 1)) 64 :=
    hF.trans (congrArg (fun r => offSet r 64) (by omega))
  have hG' : (offK (k2_off59 k) (k2_off59_inb k hc6)).view.set = offSet (2 * (k.val + 1) + 1) 0 :=
    hG.trans (congrArg (fun r => offSet r 0) (by omega))
  isplitr; · iexact Hmw
  isplitl [Hf0 Hf1 Hf2 Hr3' Hidx HiA HiB HiC HiD' Hg11 Hs7]
  · isplitl [Hf0]
    · iapply (Flight_mono (F := F) (gDeliver' (F := F) d L 0 inb_S4x64x128_S1x64x128_0_0_0 (k2_off22 k) (k2_off22_inb k hc3) _ hE' _ _ _ _))
      iexact Hf0
    isplitl [Hf1]
    · iapply (Flight_mono (F := F) (gDeliver' (F := F) d L 1 inb_S4x64x128_S1x64x128_1_0_0 (k2_off42 k) (k2_off42_inb k hc5) _ hF' _ _ _ _))
      iexact Hf1
    isplitl [Hf2]
    · iapply (Flight_mono (F := F) (gDeliver' (F := F) d L 2 inb_S4x64x128_S1x64x128_2_0_0 (k2_off59 k) (k2_off59_inb k hc6) _ hG' _ _ _ _))
      iexact Hf2
    isplitl [Hr3']
    · iexists _
      iapply (Entails.of_eq (show ((slotK3).view.loc (V d (cV L) (jV L)) ↦[(slotK3).view.set]{fullShare} _ : sProp 𝕄)
          = (rowsV).view.loc (V d (cV L) (jV L)) ↦[slotSet 3]{fullShare} _ from by rw [show (slotK3).view.set = slotSet 3 from set_slot 3 _]))
      iexact Hr3'
    isplitl [Hidx HiA HiB HiC HiD']
    · iapply (idx_rejoin (F := F) d (cV L) (jV L) fullShare fi k.val)
      isplitl [HiA]; · iexact HiA
      isplitl [HiB]; · iexact HiB
      isplitl [HiC]; · iexact HiC
      isplitl [HiD']
      · iapply (Entails.of_eq (pts_set_congr (F := F) (ℓ := (idxV).view.loc (V d (cV L) (jV L))) hD fullShare fi))
        iexact HiD'
      iexact Hidx
    isplitl [Hg11]; · iexact Hg11
    iexact Hs7
  isplitl [Hdone Htodo Hs8 Hs9]
  · isplitl [Hdone]
    · rw [show 2 * (k.val + 1) - 2 = 2 * k.val - 2 by omega]; iexact Hdone
    isplitl [Htodo]; · iexact Htodo
    isplitl [Hs8]
    · iapply (Flight_mono (F := F) (wDeliver (F := F) v Zf I d L hv (2 * (k.val + 1) - 2) 0 inb_S2x4x128_S1x4x128_0_0_0 (k2_off40 L k 0#32) (k2_off40_inb L k 0)
        ((set_mGroup40_0 L k).trans (congrArg (mGroupSet (wid (cL L) (jL L))) (by omega))) _ _))
      iexact Hs8
    · iapply (Flight_mono (F := F) (wDeliver (F := F) v Zf I d L hv (2 * (k.val + 1) - 1) 1 inb_S2x4x128_S1x4x128_1_0_0 (k2_off40 L k 1#32) (k2_off40_inb L k 1)
        ((set_mGroup40_1 L k).trans (congrArg (mGroupSet (wid (cL L) (jL L))) (by omega))) _ _))
      iexact Hs9
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Trip

end Cert.KernelIdeal.Hand

end
-- ==== Proof.KI.TileTripLast.lean ====
/-
  The last trip of the vector-subcore task's pipeline loop, from the loop's invariant to the invariant past the loop: nothing
  is left in flight on the gathers' side.
-/
import proofs.«208586_g21955872817707_cont_8to1_688_77_alg».proof.Proof.KI.TileTrip
import proofs.«208586_g21955872817707_cont_8to1_688_77_alg».proof.Proof.KI.TileGeom
import proofs.«208586_g21955872817707_cont_8to1_688_77_alg».proof.Proof.KI.TileGeomOut
import proofs.«208586_g21955872817707_cont_8to1_688_77_alg».proof.Proof.KI.TileJoin

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.KernelIdeal.main_v8_scv : Memref Cert.KernelIdeal.sig Kind.scVector Space.hbm Cert.KernelIdeal.S10240x128 EltTy.f32)
local notation "iV" => (Memref.whole Cert.KernelIdeal.main_v6_scv : Memref Cert.KernelIdeal.sig Kind.scVector Space.hbm Cert.KernelIdeal.S32x80x128 EltTy.i32)
local notation "mV" => (Memref.whole Cert.KernelIdeal.main_v12_scv : Memref Cert.KernelIdeal.sig Kind.scVector Space.hbm Cert.KernelIdeal.S10240x128 EltTy.f32)
local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)
local notation "shV" => (Memref.whole Cert.KernelIdeal.cc2_scratch3 : Memref Cert.KernelIdeal.sig Kind.scVector Space.shared Cert.KernelIdeal.S10240x128 EltTy.f32)

section Trip

variable (d : Dev nD) (L : grid2.Coords)

/-- The four slots of the gathered rows are pairwise disjoint and cover the scratch. -/
theorem slotSet_disjoint {b b' : ℕ} (h : b ≠ b') : Disjoint (slotSet b) (slotSet b') := by
  refine Finset.disjoint_left.mpr fun y h1 h2 => ?_
  simp only [slotSet, Finset.mem_filter, Finset.mem_univ, _root_.true_and] at h1 h2
  omega
theorem slots_disjoint2 : Disjoint (slotSet 0 ∪ slotSet 1) (slotSet 2) :=
  Finset.disjoint_union_left.mpr ⟨slotSet_disjoint (by decide), slotSet_disjoint (by decide)⟩
theorem slots_disjoint3 : Disjoint (slotSet 0 ∪ slotSet 1 ∪ slotSet 2) (slotSet 3) :=
  Finset.disjoint_union_left.mpr ⟨Finset.disjoint_union_left.mpr ⟨slotSet_disjoint (by decide), slotSet_disjoint (by decide)⟩, slotSet_disjoint (by decide)⟩
theorem slots_cover : slotSet 0 ∪ slotSet 1 ∪ slotSet 2 ∪ slotSet 3 = (Finset.univ : Finset S4x64x128.Idx) := by
  ext y
  have h4 : (y 0).val < 4 := (y 0).isLt
  simp only [slotSet, Finset.mem_union, Finset.mem_filter, Finset.mem_univ, _root_.true_and, iff_true]
  omega

/-- The four slots held, each at contents of its own, are the whole scratch held at some contents. -/
theorem slots_join (c : Fin τ.nSC) (j : Fin τ.nSub) (q' : PosShare TreeShare) (R0 R1 R2 R3 : Buf (Elt F) ((V d c j).loc cc2_scratch1)) :
    iprop(((rowsV).view.loc (V d c j) ↦[slotSet 0]{q'} R0) ∗ ((rowsV).view.loc (V d c j) ↦[slotSet 1]{q'} R1)
        ∗ ((rowsV).view.loc (V d c j) ↦[slotSet 2]{q'} R2) ∗ ((rowsV).view.loc (V d c j) ↦[slotSet 3]{q'} R3))
      ⊢ (iprop(∃ R : Buf (Elt F) ((V d c j).loc cc2_scratch1), (rowsV).view.loc (V d c j) ↦{q'} R) : sProp 𝕄) := by
  iintro ⟨H0, H1, H2, H3⟩
  ihave H01 := (pointsTo_join (q := q') (f := R0) (g := R1) (slotSet_disjoint (show (0 : ℕ) ≠ 1 by decide))) $$ [H0 H1]
  · isplitl [H0]
    · iexact H0
    · iexact H1
  ihave H012 := (pointsTo_join (q := q') (g := R2) slots_disjoint2) $$ [H01 H2]
  · isplitl [H01]
    · iexact H01
    · iexact H2
  ihave H := (pointsTo_join (q := q') (g := R3) slots_disjoint3) $$ [H012 H3]
  · isplitl [H012]
    · iexact H012
    · iexact H3
  iexists _
  iapply (Entails.of_eq (pts_set_congr (F := F) (ℓ := (rowsV).view.loc (V d c j)) slots_cover q' _))
  iexact H

set_option maxHeartbeats 4000000 in
/-- The last trip of the loop (k = 39): both write-back waits happen, the gather into slot 3 is the only one issued, and
    nothing is left in flight on the gathers' side. -/
theorem trip_last (hv : ¬ v) (q : PosShare TreeShare) (g : Buf (Elt F) (shLoc d (cV L))) (fi : Buf (Elt F) ((V d (cV L) (jV L)).loc cc2_scratch0))
    (hidx : ∀ x, (fi x).toNat < 10000) (M0 : Buf (Elt F) (mLoc d)) (O : CellTallies nD τ sig (HIx 1)) (W0 : Waits sig (HIx 1)) (v1 : BitVec 32)
    (k : Fin k2_t1_loop.trips) (hk39 : k.val = 39) (a : PUnit) :
    inv v Zf I d L q g fi M0 O W0 k.val a
      ⊢ wp frame (wpE (defs₀ (F := F)) 𝒱₀ (V d (cV L) (jV L)) none) Set.univ
          (k2_t1_body L zV (Memref.isWhole_whole _) iV (Memref.isWhole_whole _) mV (Memref.isWhole_whole _) idxV (Memref.isWhole_whole _)
            rowsV (Memref.isWhole_whole _) outV (Memref.isWhole_whole _) shV (Memref.isWhole_whole _)
            cc2_scratch4 cc2_scratch5 cc2_scratch6 cc2_scratch7 cc2_scratch8 cc2_scratch9 cc2_scoped0 cc2_scoped1 v1 k a)
          (inv v Zf I d L q g fi M0 O W0 (k.val + 1)) := by
  have hk40 : k.val < 40 := by omega
  have hk0 : k.val ≠ 0 := by omega
  have hk1 : 1 ≤ k.val := by omega
  have hk38 : ¬ k.val < 39 := by omega
  have hc1 : k2_cond1 k = 1#1 := k2_cond1_of_pos k hk1
  have hc2 : k2_cond2 k = 1#1 := k2_cond2_true k
  have hc3 : ¬ k2_cond3 k = 1#1 := k2_cond3_of_not_lt k hk38
  have hc4 : k2_cond4 k = 1#1 := k2_cond4_of_pos k hk1
  have hc5 : ¬ k2_cond5 k = 1#1 := k2_cond5_of_not_lt k hk38
  have hc6 : ¬ k2_cond6 k = 1#1 := k2_cond6_of_not_lt k hk38
  -- the one offset list this trip's gather reads, as an index set
  have hD : (offK (k2_off4 k) (k2_off4_inb k hc2)).view.set = offSet (2 * k.val + 1) 64 := (set_offK _ _).trans (by simp only [k2_off4_eq]; rfl)
  have hDs : offSet (2 * k.val + 1) 64 ⊆ ((Finset.univ \ offSet (2 * k.val) 0) \ offSet (2 * k.val) 64) \ offSet (2 * k.val + 1) 0 := fun y hy => by
    simp only [offSet, Finset.mem_sdiff, Finset.mem_filter, Finset.mem_univ, _root_.true_and] at hy ⊢; omega
  have hin3 := hin_of (F := F) d L (k2_off4 k) (k2_off4_inb k hc2) _ hidx
  unfold inv gPart wPart
  rw [if_pos hk40, if_neg hk0]
  unfold gFlight wFlight k2_t1_body
  iintro ⟨#Hmw, ⟨Hf0, Hf1, Hf2, ⟨%R3, Hr3⟩, Hidx, Hg11, Hs7⟩, ⟨Hdone, Htodo, Hw0, Hw1⟩, %W', %hW', HO⟩
  -- carve this trip's offset list out of the index scratch, in the spelling the gather addresses it by
  ihave H1 := (pointsTo_split_subset (q := fullShare) hDs).1 $$ Hidx
  icases H1 with ⟨HiD, Hidx⟩
  ihave HiD' := (Entails.of_eq (pts_set_congr (F := F) (ℓ := (offK (k2_off4 k) (k2_off4_inb k hc2)).view.loc (V d (cV L) (jV L))) hD.symm fullShare fi)) $$ [HiD]
  · iexact HiD
  -- slot 3 in the spelling the gather addresses it by
  ihave Hr3' := (Entails.of_eq (show ((rowsV).view.loc (V d (cV L) (jV L)) ↦[slotSet 3]{fullShare} R3 : sProp 𝕄)
      = (slotK3).view.loc (V d (cV L) (jV L)) ↦[(slotK3).view.set]{fullShare} R3 from by rw [show (slotK3).view.set = slotSet 3 from set_slot 3 _])) $$ Hr3
  sl_exec
  -- the write-back of group 2 k - 2
  iapply (Transfers.wp_waitLocalO countersEmb 𝒱₀ (V d (cV L) (jV L)) none (default : HIx 1) (N := 16384) (by rfl)) $$ [Hw0 HO]
  · isplitl [Hw0]; · iexact Hw0
    isplitl [HO]; · iexact HO
    iapply (Transfers.MayWaits.elim (SemLoc.dma cc2_scratch8.sem)) $$ Hmw
  iintro ⟨⟨Hmg0, %fo0, Hout0⟩, Hs8, HO⟩
  sl_exec
  -- chunk 4 k has landed in slot 0 (the run took the wait): name its rows, respell the slot and half 0 of the output scratch
  icases Hf0_dst with ⟨⟨%R0, Hr0⟩, HiA⟩
  ihave Hr0' := (Entails.of_eq (show ((rowsV).view.loc (V d (cV L) (jV L)) ↦[slotSet 0]{fullShare} R0 : sProp 𝕄)
      = (slotK0).view.loc (V d (cV L) (jV L)) ↦[(slotK0).view.set]{fullShare} R0 from by rw [show (slotK0).view.set = slotSet 0 from set_slot 0 _])) $$ Hr0
  ihave Hout0' := (Entails.of_eq (pts_set_congr (F := F) (ℓ := (outK0).view.loc (V d (cV L) (jV L))) set_outK0.symm fullShare fo0)) $$ [Hout0]
  · iexact Hout0
  -- the two groups this trip writes, out of the rows still to do, in the spelling the write-backs address them by
  have hIco : Finset.Ico (2 * k.val) 80 = insert (2 * k.val) (insert (2 * k.val + 1) (Finset.Ico (2 * (k.val + 1)) 80)) := by
    ext n; simp only [Finset.mem_Ico, Finset.mem_insert]; omega
  ihave Ht := (Entails.of_eq (show (bigSep (Finset.Ico (2 * k.val) 80) fun n => ((mV).view.loc (V d (cV L) (jV L)) ↦[mGroupSet (wid (cL L) (jL L)) n]{fullShare} M0 : sProp 𝕄))
      = iprop(((mV).view.loc (V d (cV L) (jV L)) ↦[mGroupSet (wid (cL L) (jL L)) (2 * k.val)]{fullShare} M0)
          ∗ ((mV).view.loc (V d (cV L) (jV L)) ↦[mGroupSet (wid (cL L) (jL L)) (2 * k.val + 1)]{fullShare} M0)
          ∗ bigSep (Finset.Ico (2 * (k.val + 1)) 80) fun n => ((mV).view.loc (V d (cV L) (jV L)) ↦[mGroupSet (wid (cL L) (jL L)) n]{fullShare} M0 : sProp 𝕄)) from by
        rw [hIco, SparseCore.bigSep_insert' (by simp only [Finset.mem_insert, Finset.mem_Ico]; omega), SparseCore.bigSep_insert' (by simp only [Finset.mem_Ico]; omega)])) $$ Htodo
  icases Ht with ⟨Hma, Hmb, Htodo⟩
  ihave Hma' := (Entails.of_eq (pts_set_congr (F := F) (ℓ := ((mV).slice (Rect.unit (s := S10240x128) (k2_off40 L k 0#32) S4x128.size (k2_off40_inb L k 0)) (fun _ => rfl)).view.loc (V d (cV L) (jV L)))
      (set_mGroup40_0 L k).symm fullShare M0)) $$ [Hma]
  · iexact Hma
  ihave Hmb' := (Entails.of_eq (pts_set_congr (F := F) (ℓ := ((mV).slice (Rect.unit (s := S10240x128) (k2_off40 L k 1#32) S4x128.size (k2_off40_inb L k 1)) (fun _ => rfl)).view.loc (V d (cV L) (jV L)))
      (set_mGroup40_1 L k).symm fullShare M0)) $$ [Hmb]
  · iexact Hmb
  sl_exec
  -- chunk 4 k + 1 has landed in slot 1
  icases Hf1_dst with ⟨⟨%R1, Hr1⟩, HiB⟩
  ihave Hr1' := (Entails.of_eq (show ((rowsV).view.loc (V d (cV L) (jV L)) ↦[slotSet 1]{fullShare} R1 : sProp 𝕄)
      = (slotK1).view.loc (V d (cV L) (jV L)) ↦[(slotK1).view.set]{fullShare} R1 from by rw [show (slotK1).view.set = slotSet 1 from set_slot 1 _])) $$ Hr1
  sl_exec
  -- the write-back of group 2 k - 1
  iapply (Transfers.wp_waitLocalO countersEmb 𝒱₀ (V d (cV L) (jV L)) none (default : HIx 1) (N := 16384) (by rfl)) $$ [Hw1 HO]
  · isplitl [Hw1]; · iexact Hw1
    isplitl [HO]; · iexact HO
    iapply (Transfers.MayWaits.elim (SemLoc.dma cc2_scratch9.sem)) $$ Hmw
  iintro ⟨⟨Hmg1, %fo1, Hout1⟩, Hs9, HO⟩
  ihave Hout1' := (Entails.of_eq (pts_set_congr (F := F) (ℓ := (outK1).view.loc (V d (cV L) (jV L))) set_outK1.symm fullShare fo1)) $$ [Hout1]
  · iexact Hout1
  sl_exec
  -- chunk 4 k + 2 has landed in slot 2
  icases Hf2_dst with ⟨⟨%R2, Hr2⟩, HiC⟩
  ihave Hr2' := (Entails.of_eq (show ((rowsV).view.loc (V d (cV L) (jV L)) ↦[slotSet 2]{fullShare} R2 : sProp 𝕄)
      = (slotK2).view.loc (V d (cV L) (jV L)) ↦[(slotK2).view.set]{fullShare} R2 from by rw [show (slotK2).view.set = slotSet 2 from set_slot 2 _])) $$ Hr2
  sl_exec
  sl_step
  -- the invariant past the last trip: nothing in flight on the gathers' side
  rw [if_neg (show ¬ k.val + 1 < 40 by omega), if_neg (show ¬ k.val + 1 = 0 by omega)]
  isplitr; · iexact Hmw
  isplitl [Hr0' Hr1' Hr2' Hr3' Hidx HiA HiB HiC HiD' Hf0_src Hf1_src Hf2_src Hg11 Hf0 Hf1 Hf2 Hs7]
  · -- the four slots back in the invariant's spelling, joined
    isplitl [Hr0' Hr1' Hr2' Hr3']
    ·
      ihave Hr0 := (Entails.of_eq (show ((slotK0).view.loc (V d (cV L) (jV L)) ↦[(slotK0).view.set]{fullShare} R0 : sProp 𝕄)
          = (rowsV).view.loc (V d (cV L) (jV L)) ↦[slotSet 0]{fullShare} R0 from by rw [show (slotK0).view.set = slotSet 0 from set_slot 0 _])) $$ Hr0'
      ihave Hr1 := (Entails.of_eq (show ((slotK1).view.loc (V d (cV L) (jV L)) ↦[(slotK1).view.set]{fullShare} R1 : sProp 𝕄)
          = (rowsV).view.loc (V d (cV L) (jV L)) ↦[slotSet 1]{fullShare} R1 from by rw [show (slotK1).view.set = slotSet 1 from set_slot 1 _])) $$ Hr1'
      ihave Hr2 := (Entails.of_eq (show ((slotK2).view.loc (V d (cV L) (jV L)) ↦[(slotK2).view.set]{fullShare} R2 : sProp 𝕄)
          = (rowsV).view.loc (V d (cV L) (jV L)) ↦[slotSet 2]{fullShare} R2 from by rw [show (slotK2).view.set = slotSet 2 from set_slot 2 _])) $$ Hr2'
      ihave Hr3 := (Entails.of_eq (show ((slotK3).view.loc (V d (cV L) (jV L)) ↦[(slotK3).view.set]{fullShare} _ : sProp 𝕄)
          = (rowsV).view.loc (V d (cV L) (jV L)) ↦[slotSet 3]{fullShare} _ from by rw [show (slotK3).view.set = slotSet 3 from set_slot 3 _])) $$ Hr3'
      iapply (slots_join (F := F) d (cV L) (jV L) fullShare _ _ _ _)
      isplitl [Hr0]; · iexact Hr0
      isplitl [Hr1]; · iexact Hr1
      isplitl [Hr2]; · iexact Hr2
      iexact Hr3
    -- the index scratch: the four lists of rows 2 k and 2 k + 1, and what their carvings left
    isplitl [Hidx HiA HiB HiC HiD']
    · ihave HiD := (Entails.of_eq (pts_set_congr (F := F) (ℓ := (idxV).view.loc (V d (cV L) (jV L))) hD fullShare fi)) $$ [HiD']
      · iexact HiD'
      iapply (idx_rejoin_last (F := F) d (cV L) (jV L) fullShare fi k.val)
      isplitl [HiA]; · iexact HiA
      isplitl [HiB]; · iexact HiB
      isplitl [HiC]; · iexact HiC
      isplitl [HiD]; · iexact HiD
      iexact Hidx
    isplitl [Hf0_src]; · iexact Hf0_src
    isplitl [Hf1_src]; · iexact Hf1_src
    isplitl [Hf2_src]; · iexact Hf2_src
    isplitl [Hg11]; · iexact Hg11
    isplitl [Hf0]; · iexact Hf0
    isplitl [Hf1]; · iexact Hf1
    isplitl [Hf2]; · iexact Hf2
    iexact Hs7
  isplitl [Hdone Hmg0 Hmg1 Htodo Hs8 Hs9]
  · isplitl [Hdone Hmg0 Hmg1]
    · iapply (Entails.of_eq (groups_done_succ (F := F) (fun n => iprop(∃ Mg : Buf (Elt F) (mLoc d), ⌜GroupSpec v Zf I d L n Mg⌝
          ∗ (mV).view.loc (V d (cV L) (jV L)) ↦[mGroupSet (wid (cL L) (jL L)) n]{fullShare} Mg)) k.val hk1))
      isplitl [Hdone]; · iexact Hdone
      isplitl [Hmg0]; · iexact Hmg0
      iexact Hmg1
    isplitl [Htodo]; · iexact Htodo
    isplitl [Hs8]
    · iapply (Flight_mono (F := F) (wDeliver (F := F) v Zf I d L hv (2 * (k.val + 1) - 2) 0 inb_S2x4x128_S1x4x128_0_0_0 (k2_off40 L k 0#32) (k2_off40_inb L k 0)
        ((set_mGroup40_0 L k).trans (by congr 1)) _ _))
      iexact Hs8
    · iapply (Flight_mono (F := F) (wDeliver (F := F) v Zf I d L hv (2 * (k.val + 1) - 1) 1 inb_S2x4x128_S1x4x128_1_0_0 (k2_off40 L k 1#32) (k2_off40_inb L k 1)
        ((set_mGroup40_1 L k).trans (by congr 1)) _ _))
      iexact Hs9
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Trip

end Cert.KernelIdeal.Hand

end
-- ==== Proof.KI.Tile.lean ====
/-
  The vector-subcore task: its body obligation.
-/
import proofs.«208586_g21955872817707_cont_8to1_688_77_alg».proof.Proof.KI.TileInv
import proofs.«208586_g21955872817707_cont_8to1_688_77_alg».proof.Proof.KI.TileTrip
import proofs.«208586_g21955872817707_cont_8to1_688_77_alg».proof.Proof.KI.TileTripFirst
import proofs.«208586_g21955872817707_cont_8to1_688_77_alg».proof.Proof.KI.TileTripLast

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.KernelIdeal.main_v8_scv : Memref Cert.KernelIdeal.sig Kind.scVector Space.hbm Cert.KernelIdeal.S10240x128 EltTy.f32)
local notation "iV" => (Memref.whole Cert.KernelIdeal.main_v6_scv : Memref Cert.KernelIdeal.sig Kind.scVector Space.hbm Cert.KernelIdeal.S32x80x128 EltTy.i32)
local notation "mV" => (Memref.whole Cert.KernelIdeal.main_v12_scv : Memref Cert.KernelIdeal.sig Kind.scVector Space.hbm Cert.KernelIdeal.S10240x128 EltTy.f32)
local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)
local notation "shV" => (Memref.whole Cert.KernelIdeal.cc2_scratch3 : Memref Cert.KernelIdeal.sig Kind.scVector Space.shared Cert.KernelIdeal.S10240x128 EltTy.f32)

section Tile

variable (d : Dev nD) (L : grid2.Coords)

set_option maxHeartbeats 4000000 in
/-- The task on vector subcore (L 0, L 1) of device d. -/
theorem tile_body (hv : ¬ v) (hF : (K (F := F)).Facts) (hI : ∀ d j, (I d j).toNat < 10000) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit Zf d (cV L) (jV L)
        ∗ goC Zf I d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc2__sc_gather_max L zV (Memref.isWhole_whole _) iV (Memref.isWhole_whole _) mV (Memref.isWhole_whole _) idxV (Memref.isWhole_whole _)
            rowsV (Memref.isWhole_whole _) outV (Memref.isWhole_whole _) shV (Memref.isWhole_whole _)
            cc2_scratch4 cc2_scratch5 cc2_scratch6 cc2_scratch7 cc2_scratch8 cc2_scratch9 cc2_scoped0 cc2_scoped1)
          fun _ => iprop(tdC v Zf I d (cL L) (cV L) (jL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc2__sc_gather_max_eq_skeleton]; unfold cc2__sc_gather_max_skel
  rw [(K (F := F)).scopedBufs_V hF d (cV L) (jV L), SparseCore.Cfg.scopedSems0_V (Val := Elt F) d (cV L) (jV L), ownSems0_V, ownBufs_V]
  unfold bkit goC zPts
  iintro ⟨#Hlv, ⟨⟨%κ, #Hinv⟩, Htoks, #Hrch, Hat, Hcred⟩, ⟨⟨%Z, %hZ, Hz⟩, Hi, ⟨%M0, Hm⟩, %fsh, Hsh⟩, ⟨⟨%fidx, Hidx⟩, ⟨%frows, Hrows⟩, ⟨%fout, Hout⟩, Hbufs⟩, ⟨Hs0, Hs1, Hs4, Hs5, Hs6, Hs7, Hs8, Hs9, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iTileK (F := F) d L _ _).symm) $$ Hi
  ihave Hz' := (Entails.of_eq (pts_zSliceK (F := F) d L _ _).symm) $$ Hz
  ihave Hsh' := (Entails.of_eq (pts_shSliceK (F := F) d L _ _).symm) $$ Hsh
  ihave Hidx' := (Entails.of_eq (pts_idxV (F := F) d L _).symm) $$ Hidx
  ihave Hrows' := (Entails.of_eq (pts_rowsV (F := F) d L _).symm) $$ Hrows
  ihave Hout' := (Entails.of_eq (pts_outV (F := F) d L _).symm) $$ Hout
  sl_exec
  -- the staged slice holds z on its rows below 10000
  have hstage : ZOn Zf (zSlice (jL L)) ((shSliceK L).view.writes (Elt F) fsh [⟨Rect.whole S640x128, tile_body.sl.dma0_1 d L Z⟩]) := by
    intro y hy
    have hy' : emb y ∈ (shSliceK L).view.set := by rw [set_shSliceK]; exact hy
    obtain ⟨x, -, hx⟩ := Finset.mem_map.mp hy'
    have h1 := View.read_writes_cons_emb (shSliceK L).view fsh (Rect.whole S640x128) (tile_body.sl.dma0_1 d L Z) [] x
    rw [View.read_apply] at h1
    have h2 : (Rect.whole S640x128).emb x = x := by
      funext a; exact Fin.ext (by simp [Rect.whole])
    rw [h2, cast_eq, hx] at h1
    rw [h1]
    unfold tile_body.sl.dma0_1
    show View.read (Elt F) (zSliceK L).view Z x = Zf y
    rw [View.read_apply, cast_eq]
    have h3 : (zSliceK L).view.emb x = emb y := hx
    rw [h3]
    exact hZ y hy
  ihave Hsh2 := (Entails.of_eq (pts_shSliceK (F := F) d L _ _)) $$ Hsh'
  ihave Hp := (pays_intro Zf d L _ hstage) $$ Hsh2
  icases Hp with ⟨Hshd, Hpays⟩
  iapply (SparseCore.wp_subcoreBarrier 𝒱₀ none EB (bRd Zf) d (sc := cV L) (i := jV L) sc_bar0 (grid2.bound 1) hsub2 (L 1) rfl κ (fun _ => 0) (jV L).val
      (fun j => bRd_mem₀ Zf d _ _ _) (fun _ => rfl) (bRd_expect Zf d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim Zf d L) $$ Hgot
  icases Hall with ⟨%g, %hg, Hg⟩
  ihave Hg' := (Entails.of_eq (pts_shAllK (F := F) d L _ _).symm) $$ Hg
  -- every index word the tile fetched names a row of z
  have hidx : ∀ x, ((View.write (Elt F) (idxV).view fidx (tile_body.sl.dma0 I d L) Finset.univ) x).toNat < 10000 := by
    intro x
    show ((View.whole (cc2_scratch0 : Ref sig .scVector)).write (Elt F) fidx (tile_body.sl.dma0 I d L) Finset.univ x).toNat < 10000
    rw [View.write_whole_univ]
    unfold tile_body.sl.dma0
    show (View.read (Elt F) (iTileK L).view (I d) x).toNat < 10000
    rw [View.read_apply, cast_eq]
    exact hI d _
  have hin0 := hin_of (F := F) d L ![0, 0] inb_S80x128_S1x64_0_0 _ hidx
  have hin1 := hin_of (F := F) d L ![0, 64] inb_S80x128_S1x64_0_64 _ hidx
  have hin2 := hin_of (F := F) d L ![1, 0] inb_S80x128_S1x64_1_0 _ hidx
  ihave Hgs := (gtoks (F := F) _ _ _).1 $$ Hg'
  icases Hgs with ⟨Hg8, Hg9, Hg10, Hg11, Hgr⟩
  sl_exec
  -- the pipeline loop
  sl_for (inv v Zf I d L (shareTok fullShare 16 (jL L)) g (View.write (Elt F) (idxV).view fidx (tile_body.sl.dma0 I d L) Finset.univ) M0 O
      (insert (SemLoc.reg sc_bar0, some 0) (insert (SemLoc.dma cc2_scoped1.sem, default) (insert (SemLoc.dma cc2_scoped0.sem, default) W))))
    $$ [Hmw2 Hs4 Hs5 Hs6 Hs7 Hs8 Hs9 Hg8 Hg9 Hg10 Hg11 Hrows' Hidx' Hout' Hm HO]
  case region =>
    intro k a
    by_cases hk0 : k.val = 0
    · exact trip_first v Zf I d L hv _ g _ hidx M0 O _ (tile_body.sl.v1 L) k hk0 a
    by_cases hk39 : k.val = 39
    · exact trip_last v Zf I d L hv _ g _ hidx M0 O _ (tile_body.sl.v1 L) k hk39 a
    exact trip_mid v Zf I d L hv _ g _ hidx M0 O _ (tile_body.sl.v1 L) k hk0 hk39 a
  · unfold inv gPart wPart
    rw [if_pos (by decide), if_pos rfl]
    isplitl [Hmw2]; · iexact Hmw2
    isplitl [Hs4 Hs5 Hs6 Hs7 Hg11 Hrows' Hidx']
    · isplitl [Hs4]
      · unfold gFlight
        iapply (Flight_mono (F := F) (gDeliver (F := F) d L 0 inb_S4x64x128_S1x64x128_0_0_0 ![0, 0] inb_S80x128_S1x64_0_0 _ _ _ _))
        iexact Hs4
      isplitl [Hs5]
      · unfold gFlight
        iapply (Flight_mono (F := F) (gDeliver (F := F) d L 1 inb_S4x64x128_S1x64x128_1_0_0 ![0, 64] inb_S80x128_S1x64_0_64 _ _ _ _))
        iexact Hs5
      isplitl [Hs6]
      · unfold gFlight
        iapply (Flight_mono (F := F) (gDeliver (F := F) d L 2 inb_S4x64x128_S1x64x128_2_0_0 ![1, 0] inb_S80x128_S1x64_1_0 _ _ _ _))
        iexact Hs6
      isplitl [Hrows']
      · iexists _
        iapply (Entails.of_eq (congrArg (fun S => ((rowsV).view.loc (V d (cV L) (jV L)) ↦[S]{fullShare} _ : sProp 𝕄)) slots_rest))
        rw [← set_slot 0 inb_S4x64x128_S1x64x128_0_0_0, ← set_slot 1 inb_S4x64x128_S1x64x128_1_0_0, ← set_slot 2 inb_S4x64x128_S1x64x128_2_0_0]
        iexact Hrows'
      isplitl [Hidx']
      · rw [show offSet (2 * 0) 0 = (offK ![0, 0] inb_S80x128_S1x64_0_0).view.set from (set_offK _ _).symm,
          show offSet (2 * 0) 64 = (offK ![0, 64] inb_S80x128_S1x64_0_64).view.set from (set_offK _ _).symm,
          show offSet (2 * 0 + 1) 0 = (offK ![1, 0] inb_S80x128_S1x64_1_0).view.set from (set_offK _ _).symm]
        iexact Hidx'
      isplitl [Hg11]; · iexact Hg11
      iexact Hs7
    isplitl [Hm Hout' Hs8 Hs9]
    · isplitr; · rw [show Finset.range (2 * 0 - 2) = ∅ from rfl, bigSep_empty]; iempintro
      isplitl [Hm]
      · rw [show Finset.Ico (2 * 0) 80 = Finset.range 80 from by decide]
        iapply (Entails.of_eq (pointsTo_biUnion (Finset.range 80) (ℓ := mLoc d) (mGroupSet (wid (cL L) (jL L))) (mGroup_disjoint _ _)))
        rw [mGroup_cover]
        iexact Hm
      isplitl [Hout']; · iexists _; iexact Hout'
      isplitl [Hs8]; · iexact Hs8
      iexact Hs9
    iexists _; isplitr
    swap; · iexact HO
    ipureintro; exact fun p hp => .inl hp
  iintro %a HI
  have htr : Scf.trips k2_t1_loop.lb k2_t1_loop.ub k2_t1_loop.st = 40 := by decide
  rw [htr]
  ihave HI' := (inv_end v Zf I d L _ _ _ _ _ _ a) $$ HI
  unfold invEnd
  icases HI' with ⟨#Hmw, ⟨⟨%Rf, Hrows⟩, Hidx, Hg8, Hg9, Hg10, Hg11, Hs4, Hs5, Hs6, Hs7⟩, ⟨Hdone, Htodo, Hw0, Hw1⟩, %W', %hW', HO⟩
  -- the last two write-backs
  sl_exec
  unfold wFlight
  iapply (Transfers.wp_waitLocalO countersEmb 𝒱₀ (V d (cV L) (jV L)) none (default : HIx 1) (N := 16384) (by rfl)) $$ [Hw0 HO]
  · isplitl [Hw0]; · iexact Hw0
    isplitl [HO]; · iexact HO
    iapply (Transfers.MayWaits.elim (SemLoc.dma cc2_scratch8.sem)) $$ Hmw
  iintro ⟨⟨⟨%Mg78, %hM78, Hm78⟩, %fo0, Hout0⟩, Hs8, HO⟩
  sl_exec
  iapply (Transfers.wp_waitLocalO countersEmb 𝒱₀ (V d (cV L) (jV L)) none (default : HIx 1) (N := 16384) (by rfl)) $$ [Hw1 HO]
  · isplitl [Hw1]; · iexact Hw1
    isplitl [HO]; · iexact HO
    iapply (Transfers.MayWaits.elim (SemLoc.dma cc2_scratch9.sem)) $$ Hmw
  iintro ⟨⟨⟨%Mg79, %hM79, Hm79⟩, %fo1, Hout1⟩, Hs9, HO⟩
  sl_exec
  sl_step
  unfold tdC zPts
  isplitl [Hz' Hi' Hdone Hm78 Hm79 Hg8 Hg9 Hg10 Hg11 Hgr Hshd]
  · isplitl [Hz']
    · iexists Z; isplitr; · ipureintro; exact hZ
      iapply (Entails.of_eq (pts_zSliceK (F := F) d L _ _)); iexact Hz'
    isplitl [Hi']; · iapply (Entails.of_eq (pts_iTileK (F := F) d L _ _)); iexact Hi'
    isplitl [Hdone Hm78 Hm79]
    · iapply (m_join v Zf I d L M0)
      rw [show Finset.range 80 = insert 79 (insert 78 (Finset.range 78)) from by decide,
        SparseCore.bigSep_insert' (by decide), SparseCore.bigSep_insert' (by decide)]
      isplitl [Hm79]
      · iexists Mg79; isplitr; · ipureintro; exact hM79
        iexact Hm79
      isplitl [Hm78]
      · iexists Mg78; isplitr; · ipureintro; exact hM78
        iexact Hm78
      iexact Hdone
    isplitl [Hg8 Hg9 Hg10 Hg11 Hgr]
    · iexists g
      iapply (Entails.of_eq (pts_shAllK (F := F) d L _ _))
      iapply (gtoks (F := F) _ _ _).2
      isplitl [Hg8]; · iexact Hg8
      isplitl [Hg9]; · iexact Hg9
      isplitl [Hg10]; · iexact Hg10
      isplitl [Hg11]; · iexact Hg11
      iexact Hgr
    · iexists _; iexact Hshd
  isplitl [Hidx Hrows Hout0 Hout1 Hbufs]
  · isplitl [Hidx]; · iexists _; iexact Hidx
    isplitl [Hrows]; · iexists _; iexact Hrows
    isplitl [Hout0 Hout1]
    · iapply (out_join (F := F) d L)
      isplitl [Hout0]
      · iexists fo0; iexact Hout0
      · iexists fo1; iexact Hout1
    iexact Hbufs
  isplitl [Hs0 Hs1 Hs4 Hs5 Hs6 Hs7 Hs8 Hs9 Hsems]
  · isplitl [Hs0]; · iexact Hs0
    isplitl [Hs1]; · iexact Hs1
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__sc_gather_max (coordsV c s)
          zV (Memref.isWhole_whole _) iV (Memref.isWhole_whole _) mV (Memref.isWhole_whole _) idxV (Memref.isWhole_whole _)
          rowsV (Memref.isWhole_whole _) outV (Memref.isWhole_whole _) shV (Memref.isWhole_whole _)
          cc2_scratch4 cc2_scratch5 cc2_scratch6 cc2_scratch7 cc2_scratch8 cc2_scratch9 cc2_scoped0 cc2_scoped1) ⟨⟩ c s := rfl

set_option maxRecDepth 16384 in
theorem tileObl (hv : ¬ v) (hF : (K (F := F)).Facts) (hI : ∀ d j, (I d j).toNat < 10000) : (K (F := F)).TileObl (D (F := F)) 𝒱 (P v Zf I) v₀ 0 := by
  intro d c i O W hO hOlev _
  have hci : ((K (F := F)).core 0 c).val < grid2.bound 0 ∧ ((K (F := F)).sub 0 i).val < grid2.bound 1 := ⟨c.isLt, i.isLt⟩
  rw [ox_V, x_V, go_eq, td_eq]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body v Zf I d (coordsV ⟨_, hci.1⟩ ⟨_, hci.2⟩) hv hF hI O W hO hOlev

end Tile

end Cert.KernelIdeal.Hand

end
-- ==== Proof.KB.TileSets.lean ====
/-
  The scratch slices and the result's groups of rows as sets of indices, and the slices the task addresses named by them.
-/
import proofs.«208586_g21955872817707_cont_8to1_688_77_alg».proof.Proof.KB.TilePay

noncomputable section

namespace Cert.Kernel.Hand

open Cert.Kernel Cert.Kernel.Gen

open Idealize.ShloMosaic
open Idealize.ShloMosaic.SparseCore (S V T)
open Idealize.SL Idealize.SL.RA Idealize.SL.BI
open scoped Idealize.SL.BI

local notation "idxV" => (Memref.whole Cert.Kernel.cc2_scratch0 : Memref Cert.Kernel.sig Kind.scVector Space.vmem Cert.Kernel.S80x128 EltTy.i32)
local notation "rowsV" => (Memref.whole Cert.Kernel.cc2_scratch1 : Memref Cert.Kernel.sig Kind.scVector Space.vmem Cert.Kernel.S4x64x128 EltTy.f32)
local notation "outV" => (Memref.whole Cert.Kernel.cc2_scratch2 : Memref Cert.Kernel.sig Kind.scVector Space.vmem Cert.Kernel.S2x4x128 EltTy.f32)

/-- Slot b of the gathered-rows scratch; half ob of the output scratch; a 64-word offset list of the index scratch;
    group n (four rows) of worker w's rows of the result: as sets of indices. -/
def slotSet (b : ℕ) : Finset S4x64x128.Idx := Finset.univ.filter fun y => (y 0).val = b
def outSet (ob : ℕ) : Finset S2x4x128.Idx := Finset.univ.filter fun y => (y 0).val = ob
def offSet (row col : ℕ) : Finset S80x128.Idx := Finset.univ.filter fun y => (y 0).val = row ∧ col ≤ (y 1).val ∧ (y 1).val < col + 64
def mGroupSet (w : Fin 32) (n : ℕ) : Finset S10240x128.Idx := Finset.univ.filter fun y => 320 * w.val + 4 * n ≤ (y 0).val ∧ (y 0).val < 320 * w.val + 4 * n + 4

/-- A 64-word run of the index scratch, squeezed: the offset list of one gather. -/
abbrev offK (off : Fin 2 → ℕ) (inb : ∀ a, off a + S1x64.size a ≤ S80x128.size a) : Memref sig .scVector .vmem S64 .i32 :=
  ((idxV).slice (Rect.unit (s := S80x128) off S1x64.size inb) (fun _ => rfl)).squeeze S64 squeezes_S1x64_S64

/-! ### The scratch slices as index sets -/

theorem set_slot (b : ℕ) (inb : ∀ a, (![b, 0, 0] : Fin 3 → ℕ) a + S1x64x128.size a ≤ S4x64x128.size a) :
    (((rowsV).slice (Rect.unit (s := S4x64x128) ![b, 0, 0] S1x64x128.size inb) (fun _ => rfl)).squeeze S64x128 squeezes_S1x64x128_S64x128).view.set = slotSet b := by
  show (((View.whole (cc2_scratch1 : Ref sig .scVector)).slice (Rect.unit (s := S4x64x128) ![b, 0, 0] S1x64x128.size inb)).reshape S64x128 squeezes_S1x64x128_S64x128.numel_eq).set = _
  rw [View.set_reshape, View.set_slice]
  refine (Finset.map_refl (s := (Rect.unit (s := S4x64x128) ![b, 0, 0] S1x64x128.size inb).set)).trans ?_
  ext y
  rw [Rect.mem_set_unit]
  simp only [slotSet, Finset.mem_filter, Finset.mem_univ, true_and]
  constructor
  · intro h; have h0 := h 0; simp at h0; omega
  · intro h a
    match a with
    | 0 => simp; omega
    | 1 => simp; exact (y 1).isLt
    | 2 => simp; exact (y 2).isLt

theorem set_offK (off : Fin 2 → ℕ) (inb : ∀ a, off a + S1x64.size a ≤ S80x128.size a) :
    (offK off inb).view.set = offSet (off 0) (off 1) := by
  show (((View.whole (cc2_scratch0 : Ref sig .scVector)).slice (Rect.unit (s := S80x128) off S1x64.size inb)).reshape S64 squeezes_S1x64_S64.numel_eq).set = _
  rw [View.set_reshape, View.set_slice]
  refine (Finset.map_refl (s := (Rect.unit (s := S80x128) off S1x64.size inb).set)).trans ?_
  ext y
  rw [Rect.mem_set_unit]
  simp only [offSet, Finset.mem_filter, Finset.mem_univ, true_and]
  constructor
  · intro h; have h0 := h 0; have h1 := h 1; simp at h0 h1; omega
  · intro h a
    match a with
    | 0 => simp; omega
    | 1 => simp; omega

theorem slots_rest : ((Finset.univ \ slotSet 0) \ slotSet 1) \ slotSet 2 = slotSet 3 := by
  ext y
  have := (y 0).isLt
  simp only [slotSet, Finset.mem_sdiff, Finset.mem_filter, Finset.mem_univ, true_and]
  have h4 : (y 0).val < 4 := this
  omega

theorem mem_mTile_iff (w : Fin 32) (y : S10240x128.Idx) : y ∈ mTile w ↔ 320 * w.val ≤ (y 0).val ∧ (y 0).val < 320 * w.val + 320 := by
  rw [show mTile w = (Rect.part (s := S10240x128) (a₀ := 0) hdiv32 w).set from rfl, Rect.mem_set_unit]
  constructor
  · intro h
    have h0 := h 0
    simp [Shape.partIx, Shape.partSize] at h0
    omega
  · intro h a
    match a with
    | 0 => simp [Shape.partIx, Shape.partSize]; omega
    | 1 => simp [Shape.partIx, Shape.partSize]; exact (y 1).isLt

theorem mGroup_disjoint (w : Fin 32) (S : Finset ℕ) : ∀ n ∈ S, ∀ n' ∈ S, n ≠ n' → Disjoint (mGroupSet w n) (mGroupSet w n') := by
  intro n _ n' _ hne
  refine Finset.disjoint_left.mpr fun y h1 h2 => ?_
  simp only [mGroupSet, Finset.mem_filter, Finset.mem_univ, true_and] at h1 h2
  omega

theorem mGroup_cover (w : Fin 32) : (Finset.range 80).biUnion (mGroupSet w) = mTile w := by
  ext y
  rw [mem_mTile_iff]
  simp only [Finset.mem_biUnion, Finset.mem_range, mGroupSet, Finset.mem_filter, Finset.mem_univ, true_and]
  constructor
  · rintro ⟨n, hn, h1, h2⟩; omega
  · intro h
    exact ⟨((y 0).val - 320 * w.val) / 4, by omega, by omega, by omega⟩

theorem outSet_disjoint : ∀ i ∈ (Finset.univ : Finset (Fin 2)), ∀ j ∈ (Finset.univ : Finset (Fin 2)), i ≠ j → Disjoint (outSet i.val) (outSet j.val) := by
  intro i _ j _ hne
  refine Finset.disjoint_left.mpr fun y h1 h2 => ?_
  simp only [outSet, Finset.mem_filter, Finset.mem_univ, true_and] at h1 h2
  exact hne (Fin.ext (h1.symm.trans h2))
theorem outSet_cover : (Finset.univ : Finset (Fin 2)).biUnion (fun c => outSet c.val) = Finset.univ := by
  ext y
  simp only [Finset.mem_biUnion, Finset.mem_univ, true_and, iff_true, outSet, Finset.mem_filter]
  exact ⟨⟨(y 0).val, (y 0).isLt⟩, rfl⟩

end Cert.Kernel.Hand

end
-- ==== Proof.KB.TileConds.lean ====
/-
  The conditions of the vector-subcore task's outer loop as facts of the trip. Trip k of the forty handles node groups
  2k and 2k + 1 and index chunks 4k … 4k + 3: group g first waits for the write-back of group g - 2 when there is one
  (g ≥ 2: every trip but the first), and chunk c starts the gather three chunks ahead when that chunk exists
  (c + 3 < 160).
-/
import proofs.«208586_g21955872817707_cont_8to1_688_77_alg».proof.Proof.Gen.Kernel

namespace Cert.Kernel.Hand

open Cert.Kernel Cert.Kernel.Gen
open Idealize.ShloMosaic

/-- The loop runs forty trips. -/
theorem k2_t1_trips : k2_t1_loop.trips = 40 := by decide +kernel

/-! ## Each condition as a fact of the trip -/

/-- Group 2k has a group two before it (2k ≥ 2) exactly from the second trip on. -/
theorem k2_cond1_iff : ∀ k : Fin k2_t1_loop.trips, k2_cond1 k = 1#1 ↔ 1 ≤ k.val := by decide +kernel
/-- Chunk 4k + 3 always exists (4k + 3 < 160 for k < 40). -/
theorem k2_cond2_true : ∀ k : Fin k2_t1_loop.trips, k2_cond2 k = 1#1 := by decide +kernel
/-- Chunk 4k + 4 exists (4k + 4 < 160) exactly before the last trip. -/
theorem k2_cond3_iff : ∀ k : Fin k2_t1_loop.trips, k2_cond3 k = 1#1 ↔ k.val < 39 := by decide +kernel
/-- Group 2k + 1 has a group two before it (2k + 1 ≥ 2) exactly from the second trip on. -/
theorem k2_cond4_iff : ∀ k : Fin k2_t1_loop.trips, k2_cond4 k = 1#1 ↔ 1 ≤ k.val := by decide +kernel
/-- Chunk 4k + 5 exists (4k + 5 < 160) exactly before the last trip. -/
theorem k2_cond5_iff : ∀ k : Fin k2_t1_loop.trips, k2_cond5 k = 1#1 ↔ k.val < 39 := by decide +kernel
/-- Chunk 4k + 6 exists (4k + 6 < 160) exactly before the last trip. -/
theorem k2_cond6_iff : ∀ k : Fin k2_t1_loop.trips, k2_cond6 k = 1#1 ↔ k.val < 39 := by decide +kernel

/-! ## The one-sided forms a case split on a condition uses -/

theorem k2_cond1_of_pos (k : Fin k2_t1_loop.trips) (h : 1 ≤ k.val) : k2_cond1 k = 1#1 := (k2_cond1_iff k).mpr h
theorem k2_cond1_of_not_pos (k : Fin k2_t1_loop.trips) (h : ¬ 1 ≤ k.val) : ¬ k2_cond1 k = 1#1 := fun e => h ((k2_cond1_iff k).mp e)
theorem k2_cond4_of_pos (k : Fin k2_t1_loop.trips) (h : 1 ≤ k.val) : k2_cond4 k = 1#1 := (k2_cond4_iff k).mpr h
theorem k2_cond4_of_not_pos (k : Fin k2_t1_loop.trips) (h : ¬ 1 ≤ k.val) : ¬ k2_cond4 k = 1#1 := fun e => h ((k2_cond4_iff k).mp e)
theorem k2_cond3_of_lt (k : Fin k2_t1_loop.trips) (h : k.val < 39) : k2_cond3 k = 1#1 := (k2_cond3_iff k).mpr h
theorem k2_cond3_of_not_lt (k : Fin k2_t1_loop.trips) (h : ¬ k.val < 39) : ¬ k2_cond3 k = 1#1 := fun e => h ((k2_cond3_iff k).mp e)
theorem k2_cond5_of_lt (k : Fin k2_t1_loop.trips) (h : k.val < 39) : k2_cond5 k = 1#1 := (k2_cond5_iff k).mpr h
theorem k2_cond5_of_not_lt (k : Fin k2_t1_loop.trips) (h : ¬ k.val < 39) : ¬ k2_cond5 k = 1#1 := fun e => h ((k2_cond5_iff k).mp e)
theorem k2_cond6_of_lt (k : Fin k2_t1_loop.trips) (h : k.val < 39) : k2_cond6 k = 1#1 := (k2_cond6_iff k).mpr h
theorem k2_cond6_of_not_lt (k : Fin k2_t1_loop.trips) (h : ¬ k.val < 39) : ¬ k2_cond6 k = 1#1 := fun e => h ((k2_cond6_iff k).mp e)

/-- On the last trip the three "next chunk" conditions fail together, and before it they hold together. -/
theorem k2_cond356_iff (k : Fin k2_t1_loop.trips) :
    (k2_cond3 k = 1#1 ↔ k2_cond5 k = 1#1) ∧ (k2_cond5 k = 1#1 ↔ k2_cond6 k = 1#1) :=
  ⟨(k2_cond3_iff k).trans (k2_cond5_iff k).symm, (k2_cond5_iff k).trans (k2_cond6_iff k).symm⟩
/-- The two "group two before" conditions hold together. -/
theorem k2_cond14_iff (k : Fin k2_t1_loop.trips) : k2_cond1 k = 1#1 ↔ k2_cond4 k = 1#1 :=
  (k2_cond1_iff k).trans (k2_cond4_iff k).symm

end Cert.Kernel.Hand
-- ==== Proof.KB.TileLoops.lean ====
/-
  The inner loops of the vector-subcore task: the running maximum over a node's rows 1..31 of a gathered chunk, eight
  16-lane groups at a time, from the values row 0 gave.
-/
import proofs.«208586_g21955872817707_cont_8to1_688_77_alg».proof.Proof.KB.TilePay
import proofs.«208586_g21955872817707_cont_8to1_688_77_alg».proof.Proof.Gen.Kernel.Skeleton
import Idealize.ShloMosaic.Lib.ValueLayout

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The tile of grid point i on device d. -/
abbrev thrV (d : Dev nD) (i : grid2.Coords) : Thread nD τ := V d ((i 0).castLE hcore2) ((i 1).castLE hsub2)

/-- The running maximum from a over z 1, z 2, …, in order. -/
def accMax (a : F .f32) (z : ℕ → F .f32) : ℕ → F .f32
  | 0 => a
  | k + 1 => FloatOps.maximumf (accMax a z k) (z (k + 1))

theorem foldMax_eq_accMax (z : ℕ → F .f32) (k : ℕ) : foldMax z k = accMax (z 0) z k := by
  induction k with
  | zero => rfl
  | succ k ih => show FloatOps.maximumf _ _ = FloatOps.maximumf _ _; rw [ih]

/-- Lane group g of rows base+1 … base+31 of slot b of the gathered rows, folded onto the group's running value a. -/
def rowsAcc (R : S4x64x128.Idx → F .f32) (b : Fin 4) (base : ℕ) (g : Fin 8) (a : FVec F S16 .f32) : FVec F S16 .f32 :=
  fun l => accMax (a l) (fun k => R (ix3 b ⟨(base + k) % 64, Nat.mod_lt _ (by decide)⟩ ⟨(16 * g.val + (l 0).val) % 128, Nat.mod_lt _ (by decide)⟩)) 31

/-- The same fold stopped after k rows: lane group g of rows base+1 … base+k of slot b, folded onto a. -/
def rowsAccK (R : S4x64x128.Idx → F .f32) (b : Fin 4) (base : ℕ) (g : Fin 8) (a : FVec F S16 .f32) (k : ℕ) : FVec F S16 .f32 :=
  fun l => accMax (a l) (fun j => R (ix3 b ⟨(base + j) % 64, Nat.mod_lt _ (by decide)⟩ ⟨(16 * g.val + (l 0).val) % 128, Nat.mod_lt _ (by decide)⟩)) k

theorem rowsAccK_zero (R : S4x64x128.Idx → F .f32) (b : Fin 4) (base : ℕ) (g : Fin 8) (a : FVec F S16 .f32) :
    rowsAccK R b base g a 0 = a := rfl

theorem rowsAccK_last (R : S4x64x128.Idx → F .f32) (b : Fin 4) (base : ℕ) (g : Fin 8) (a : FVec F S16 .f32) :
    rowsAccK R b base g a 31 = rowsAcc R b base g a := rfl

/-- One more row: the fold after k + 1 rows is the fold after k rows, then maximumf with row base + k + 1. -/
theorem rowsAccK_succ (R : S4x64x128.Idx → F .f32) (b : Fin 4) (base : ℕ) (g : Fin 8) (a : FVec F S16 .f32) (k : ℕ) :
    rowsAccK R b base g a (k + 1) = maximumf (rowsAccK R b base g a k)
      (fun l => R (ix3 b ⟨(base + (k + 1)) % 64, Nat.mod_lt _ (by decide)⟩ ⟨(16 * g.val + (l 0).val) % 128, Nat.mod_lt _ (by decide)⟩)) := rfl

local notation "zV" => (Memref.whole Cert.Kernel.main_v8_scv : Memref Cert.Kernel.sig Kind.scVector Space.hbm Cert.Kernel.S10240x128 EltTy.f32)
local notation "iV" => (Memref.whole Cert.Kernel.main_v6_scv : Memref Cert.Kernel.sig Kind.scVector Space.hbm Cert.Kernel.S32x80x128 EltTy.i32)
local notation "mV" => (Memref.whole Cert.Kernel.main_v12_scv : Memref Cert.Kernel.sig Kind.scVector Space.hbm Cert.Kernel.S10240x128 EltTy.f32)
local notation "idxV" => (Memref.whole Cert.Kernel.cc2_scratch0 : Memref Cert.Kernel.sig Kind.scVector Space.vmem Cert.Kernel.S80x128 EltTy.i32)
local notation "rowsV" => (Memref.whole Cert.Kernel.cc2_scratch1 : Memref Cert.Kernel.sig Kind.scVector Space.vmem Cert.Kernel.S4x64x128 EltTy.f32)
local notation "outV" => (Memref.whole Cert.Kernel.cc2_scratch2 : Memref Cert.Kernel.sig Kind.scVector Space.vmem Cert.Kernel.S2x4x128 EltTy.f32)
local notation "shV" => (Memref.whole Cert.Kernel.cc2_scratch3 : Memref Cert.Kernel.sig Kind.scVector Space.shared Cert.Kernel.S10240x128 EltTy.f32)

/-- Slot b of the gathered rows as the kernel addresses it: the slot's slice of the scratch, its unit axis dropped. -/
abbrev slotK0 : Memref sig .scVector .vmem S64x128 .f32 :=
  ((rowsV).slice (Rect.unit (s := S4x64x128) ![0, 0, 0] S1x64x128.size inb_S4x64x128_S1x64x128_0_0_0) (fun _ => rfl)).squeeze S64x128 squeezes_S1x64x128_S64x128
abbrev slotK1 : Memref sig .scVector .vmem S64x128 .f32 :=
  ((rowsV).slice (Rect.unit (s := S4x64x128) ![1, 0, 0] S1x64x128.size inb_S4x64x128_S1x64x128_1_0_0) (fun _ => rfl)).squeeze S64x128 squeezes_S1x64x128_S64x128
abbrev slotK2 : Memref sig .scVector .vmem S64x128 .f32 :=
  ((rowsV).slice (Rect.unit (s := S4x64x128) ![2, 0, 0] S1x64x128.size inb_S4x64x128_S1x64x128_2_0_0) (fun _ => rfl)).squeeze S64x128 squeezes_S1x64x128_S64x128
abbrev slotK3 : Memref sig .scVector .vmem S64x128 .f32 :=
  ((rowsV).slice (Rect.unit (s := S4x64x128) ![3, 0, 0] S1x64x128.size inb_S4x64x128_S1x64x128_3_0_0) (fun _ => rfl)).squeeze S64x128 squeezes_S1x64x128_S64x128

/-- A lane of a load of sixteen lanes of one row through a squeezed slot of the gathered rows: lane l of the row at
    offsets off of the slot at o3 is the rows' element (slot, row, off 1 + l). -/
theorem read_lane (R : S4x64x128.Idx → Elt F .f32) (o3 : Fin 3 → ℕ) (h3 : ∀ a, o3 a + S1x64x128.size a ≤ S4x64x128.size a)
    (hs : ∀ a, (Rect.unit (s := S4x64x128) o3 S1x64x128.size h3).stride a = 1) (sq : S1x64x128.Squeezes S64x128)
    (off : Fin 2 → ℕ) (hoff : ∀ a, off a + S1x16.size a ≤ S64x128.size a) (hc16 : S1x16.ShapeCasts S16) (l : S16.Idx)
    (b : Fin 4) (r : Fin 64) (c : Fin 128)
    (hb0 : o3 0 = b.val) (hb1 : o3 1 = 0) (hb2 : o3 2 = 0) (hr : off 0 = r.val) (hc : off 1 + (l 0).val = c.val) :
    shapeCast S16 (View.readAt (Elt F)
        (((Memref.whole cc2_scratch1 : Memref sig Kind.scVector Space.vmem S4x64x128 EltTy.f32).slice
          (Rect.unit (s := S4x64x128) o3 S1x64x128.size h3) hs).squeeze S64x128 sq).view
        (Rect.unit (s := S64x128) off S1x16.size hoff).toLoadRect R) hc16 l = R (ix3 b r c) := by
  obtain ⟨l0, rfl⟩ : ∃ l0, l = ValueIdx.ix1 l0 := ⟨l 0, ValueIdx.eq_ix1 l⟩
  have hc' : off 1 + l0.val = c.val := hc
  rw [ValueIdx.shapeCast_1a_a_apply, View.readAt_apply]
  show R ((Rect.unit (s := S4x64x128) o3 S1x64x128.size h3).emb (Shape.reshapeEquiv sq.numel_eq
    ((Rect.unit (s := S64x128) off S1x16.size hoff).toLoadRect.idx (ValueIdx.ix2 (0 : Fin 1) l0)))) = _
  have hJ : (Rect.unit (s := S64x128) off S1x16.size hoff).toLoadRect.idx (ValueIdx.ix2 (0 : Fin 1) l0) = ValueIdx.ix2 r c := by
    funext a
    apply Fin.ext
    match a with
    | ⟨0, _⟩ => show off 0 + 1 * 0 = r.val; omega
    | ⟨1, _⟩ => show off 1 + 1 * l0.val = c.val; omega
  rw [hJ, ValueIdx.reshapeEquiv_ix2_1ab]
  congr 1
  funext a
  apply Fin.ext
  match a with
  | ⟨0, _⟩ => show o3 0 + 1 * 0 = b.val; omega
  | ⟨1, _⟩ => show o3 1 + 1 * r.val = r.val; omega
  | ⟨2, _⟩ => show o3 2 + 1 * c.val = c.val; omega

/-- One trip on one lane group: the running value after k rows, then maximumf with the sixteen lanes loaded from row
    base + k + 1 of slot b at lane 16 g, is the running value after k + 1 rows. -/
theorem lane_step (R : S4x64x128.Idx → Elt F .f32) (b : Fin 4) (base : ℕ) (g : Fin 8) (a : FVec F S16 .f32) (k : ℕ)
    (hk : base + (k + 1) < 64)
    (o3 : Fin 3 → ℕ) (h3 : ∀ a, o3 a + S1x64x128.size a ≤ S4x64x128.size a)
    (hs : ∀ a, (Rect.unit (s := S4x64x128) o3 S1x64x128.size h3).stride a = 1) (sq : S1x64x128.Squeezes S64x128)
    (off : Fin 2 → ℕ) (hoff : ∀ a, off a + S1x16.size a ≤ S64x128.size a) (hc16 : S1x16.ShapeCasts S16)
    (hb0 : o3 0 = b.val) (hb1 : o3 1 = 0) (hb2 : o3 2 = 0) (hoff0 : off 0 = base + (k + 1)) (hoff1 : off 1 = 16 * g.val) :
    maximumf (rowsAccK R b base g a k) (shapeCast S16 (View.readAt (Elt F)
        (((Memref.whole cc2_scratch1 : Memref sig Kind.scVector Space.vmem S4x64x128 EltTy.f32).slice
          (Rect.unit (s := S4x64x128) o3 S1x64x128.size h3) hs).squeeze S64x128 sq).view
        (Rect.unit (s := S64x128) off S1x16.size hoff).toLoadRect R) hc16)
      = rowsAccK R b base g a (k + 1) := by
  rw [rowsAccK_succ]
  congr 1
  funext l
  have hl : (l 0).val < 16 := (l 0).isLt
  have hg : g.val < 8 := g.isLt
  refine read_lane R o3 h3 hs sq off hoff hc16 l b _ _ hb0 hb1 hb2 ?_ ?_
  · show off 0 = (base + (k + 1)) % 64
    rw [hoff0, Nat.mod_eq_of_lt hk]
  · show off 1 + (l 0).val = (16 * g.val + (l 0).val) % 128
    rw [hoff1, Nat.mod_eq_of_lt (by omega)]

/-! ## The slot alone held -/

/-- Before trip k of the loop over slot b from row base, with the resource H held throughout: the eight running values
    are the folds after k rows. -/
def sInv (R : S4x64x128.Idx → F .f32) (H : sProp 𝕄) (b : Fin 4) (base : ℕ) (a0 a1 a2 a3 a4 a5 a6 a7 : FVec F S16 .f32) (k : ℕ)
    (acc : FVec F S16 .f32 × FVec F S16 .f32 × FVec F S16 .f32 × FVec F S16 .f32 × FVec F S16 .f32 × FVec F S16 .f32 × FVec F S16 .f32 × FVec F S16 .f32) :
    sProp 𝕄 :=
  iprop(⌜acc = (rowsAccK R b base 0 a0 k, rowsAccK R b base 1 a1 k, rowsAccK R b base 2 a2 k, rowsAccK R b base 3 a3 k,
        rowsAccK R b base 4 a4 k, rowsAccK R b base 5 a5 k, rowsAccK R b base 6 a6 k, rowsAccK R b base 7 a7 k)⌝
    ∗ H)

/-- One trip of the loop over rows 1..31 of slot 0, the slot alone held: from the folds after k rows to the
    folds after k + 1. -/
theorem t2_step (d : Dev nD) (i : grid2.Coords) (q : PosShare TreeShare) (R : Buf (Elt F) ((thrV d i).loc cc2_scratch1))
    (a0 a1 a2 a3 a4 a5 a6 a7 : FVec F S16 .f32) (k : Fin k2_t2_loop.trips)
    (acc : FVec F S16 .f32 × FVec F S16 .f32 × FVec F S16 .f32 × FVec F S16 .f32 × FVec F S16 .f32 × FVec F S16 .f32 × FVec F S16 .f32 × FVec F S16 .f32) :
    sInv R ((slotK0).view.loc (thrV d i) ↦[(slotK0).view.set]{q} R) 0 0 a0 a1 a2 a3 a4 a5 a6 a7 k.val acc
      ⊢ wp frame (wpE (defs₀ (F := F)) 𝒱₀ (thrV d i) none) Set.univ
          ((k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 1#32 1#32) k acc)
          (sInv R ((slotK0).view.loc (thrV d i) ↦[(slotK0).view.set]{q} R) 0 0 a0 a1 a2 a3 a4 a5 a6 a7 (k.val + 1)) := by
  have hk : k.val < 31 := k.isLt
  unfold sInv
  iintro ⟨%hacc, HR⟩
  subst hacc
  unfold k2_t2_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t2_step.sl.r k2_pay1
      exact lane_step R 0 0 0 a0 k.val (by omega) _ _ _ _ _ _ _ rfl rfl rfl
        (by rw [k2_off6_eq]; show k.val + 1 = _; omega) (by rw [k2_off6_eq]; rfl)
    · unfold t2_step.sl.r_1 k2_pay2
      exact lane_step R 0 0 1 a1 k.val (by omega) _ _ _ _ _ _ _ rfl rfl rfl
        (by rw [k2_off7_eq]; show k.val + 1 = _; omega) (by rw [k2_off7_eq]; rfl)
    · unfold t2_step.sl.r_2 k2_pay3
      exact lane_step R 0 0 2 a2 k.val (by omega) _ _ _ _ _ _ _ rfl rfl rfl
        (by rw [k2_off8_eq]; show k.val + 1 = _; omega) (by rw [k2_off8_eq]; rfl)
    · unfold t2_step.sl.r_3 k2_pay4
      exact lane_step R 0 0 3 a3 k.val (by omega) _ _ _ _ _ _ _ rfl rfl rfl
        (by rw [k2_off9_eq]; show k.val + 1 = _; omega) (by rw [k2_off9_eq]; rfl)
    · unfold t2_step.sl.r_4 k2_pay5
      exact lane_step R 0 0 4 a4 k.val (by omega) _ _ _ _ _ _ _ rfl rfl rfl
        (by rw [k2_off10_eq]; show k.val + 1 = _; omega) (by rw [k2_off10_eq]; rfl)
    · unfold k2_pay49
      exact lane_step R 0 0 5 a5 k.val (by omega) _ _ _ _ _ _ _ rfl rfl rfl
        (by rw [k2_off11_eq]; show k.val + 1 = _; omega) (by rw [k2_off11_eq]; rfl)
    · unfold k2_pay50
      exact lane_step R 0 0 6 a6 k.val (by omega) _ _ _ _ _ _ _ rfl rfl rfl
        (by rw [k2_off12_eq]; show k.val + 1 = _; omega) (by rw [k2_off12_eq]; rfl)
    · unfold k2_pay51
      exact lane_step R 0 0 7 a7 k.val (by omega) _ _ _ _ _ _ _ rfl rfl rfl
        (by rw [k2_off13_eq]; show k.val + 1 = _; omega) (by rw [k2_off13_eq]; rfl)
  · iexact HR

/-- The loop over rows 1..31 of node 0 of slot 0, the slot alone held (at any share, unchanged; the other
    slots may be in use elsewhere): the eight running values become their folds. -/
theorem t2_run (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦[(slotK0).view.set]{q} R : sProp 𝕄)
      ⊢ wp frame (wpE (defs₀ (F := F)) 𝒱₀ (thrV d i) none) Set.univ
          (Scf.Loop.for k2_t2_loop k2_t2_ok (a0, a1, a2, a3, a4, a5, a6, a7)
            (k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 1#32 1#32))
          fun r => iprop(⌜r = (rowsAcc R 0 0 0 a0, rowsAcc R 0 0 1 a1, rowsAcc R 0 0 2 a2, rowsAcc R 0 0 3 a3,
                rowsAcc R 0 0 4 a4, rowsAcc R 0 0 5 a5, rowsAcc R 0 0 6 a6, rowsAcc R 0 0 7 a7)⌝
            ∗ (rowsV).view.loc (thrV d i) ↦[(slotK0).view.set]{q} R) := by
  show (((slotK0).view.loc (thrV d i) ↦[(slotK0).view.set]{q} R) : sProp 𝕄) ⊢ _
  iintro HR
  sl_for (sInv R ((slotK0).view.loc (thrV d i) ↦[(slotK0).view.set]{q} R) 0 0 a0 a1 a2 a3 a4 a5 a6 a7) $$ [HR]
  case region => intro k acc; exact t2_step d i q R a0 a1 a2 a3 a4 a5 a6 a7 k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t2_frame (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦[(slotK0).view.set]{q} R : sProp 𝕄)
      ⊢ wp frame (wpE (defs₀ (F := F)) 𝒱₀ (thrV d i) none) Set.univ
          (Scf.Loop.for k2_t2_loop k2_t2_ok (a0, a1, a2, a3, a4, a5, a6, a7)
            (k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 1#32 1#32))
          fun _ => (rowsV).view.loc (thrV d i) ↦[(slotK0).view.set]{q} R := by
  iintro HR
  iapply (wp_wand_r frame (wpE (defs₀ (F := F)) 𝒱₀ (thrV d i) none) Set.univ)
  isplitl [HR]
  · iapply (t2_run d i q R a0 a1 a2 a3 a4 a5 a6 a7); iexact HR
  · iintro %r ⟨-, HR⟩; iexact HR

/-- One trip of the loop over rows 33..63 of slot 0, the slot alone held: from the folds after k rows to the
    folds after k + 1. -/
theorem t3_step (d : Dev nD) (i : grid2.Coords) (q : PosShare TreeShare) (R : Buf (Elt F) ((thrV d i).loc cc2_scratch1))
    (a0 a1 a2 a3 a4 a5 a6 a7 : FVec F S16 .f32) (c : BitVec 32) (k : Fin k2_t3_loop.trips)
    (acc : FVec F S16 .f32 × FVec F S16 .f32 × FVec F S16 .f32 × FVec F S16 .f32 × FVec F S16 .f32 × FVec F S16 .f32 × FVec F S16 .f32 × FVec F S16 .f32) :
    sInv R ((slotK0).view.loc (thrV d i) ↦[(slotK0).view.set]{q} R) 0 32 a0 a1 a2 a3 a4 a5 a6 a7 k.val acc
      ⊢ wp frame (wpE (defs₀ (F := F)) 𝒱₀ (thrV d i) none) Set.univ
          ((k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c) k acc)
          (sInv R ((slotK0).view.loc (thrV d i) ↦[(slotK0).view.set]{q} R) 0 32 a0 a1 a2 a3 a4 a5 a6 a7 (k.val + 1)) := by
  have hk : k.val < 31 := k.isLt
  unfold sInv
  iintro ⟨%hacc, HR⟩
  subst hacc
  unfold k2_t3_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t3_step.sl.r k2_pay6
      exact lane_step R 0 32 0 a0 k.val (by omega) _ _ _ _ _ _ _ rfl rfl rfl
        (by rw [k2_off14_eq]; show k.val + 33 = _; omega) (by rw [k2_off14_eq]; rfl)
    · unfold t3_step.sl.r_1 k2_pay7
      exact lane_step R 0 32 1 a1 k.val (by omega) _ _ _ _ _ _ _ rfl rfl rfl
        (by rw [k2_off15_eq]; show k.val + 33 = _; omega) (by rw [k2_off15_eq]; rfl)
    · unfold t3_step.sl.r_2 k2_pay8
      exact lane_step R 0 32 2 a2 k.val (by omega) _ _ _ _ _ _ _ rfl rfl rfl
        (by rw [k2_off16_eq]; show k.val + 33 = _; omega) (by rw [k2_off16_eq]; rfl)
    · unfold t3_step.sl.r_3 k2_pay9
      exact lane_step R 0 32 3 a3 k.val (by omega) _ _ _ _ _ _ _ rfl rfl rfl
        (by rw [k2_off17_eq]; show k.val + 33 = _; omega) (by rw [k2_off17_eq]; rfl)
    · unfold t3_step.sl.r_4 k2_pay10
      exact lane_step R 0 32 4 a4 k.val (by omega) _ _ _ _ _ _ _ rfl rfl rfl
        (by rw [k2_off18_eq]; show k.val + 33 = _; omega) (by rw [k2_off18_eq]; rfl)
    · unfold k2_pay68
      exact lane_step R 0 32 5 a5 k.val (by omega) _ _ _ _ _ _ _ rfl rfl rfl
        (by rw [k2_off19_eq]; show k.val + 33 = _; omega) (by rw [k2_off19_eq]; rfl)
    · unfold k2_pay69
      exact lane_step R 0 32 6 a6 k.val (by omega) _ _ _ _ _ _ _ rfl rfl rfl
        (by rw [k2_off20_eq]; show k.val + 33 = _; omega) (by rw [k2_off20_eq]; rfl)
    · unfold k2_pay70
      exact lane_step R 0 32 7 a7 k.val (by omega) _ _ _ _ _ _ _ rfl rfl rfl
        (by rw [k2_off21_eq]; show k.val + 33 = _; omega) (by rw [k2_off21_eq]; rfl)
  · iexact HR

/-- The loop over rows 1..31 of node 1 of slot 0 (the slot's rows 33..63), the slot alone held (at any share, unchanged; the other
    slots may be in use elsewhere): the eight running values become their folds. The word c is a constant the region binds
    and never reads. -/
theorem t3_run (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK0).view.set]{q} R : sProp 𝕄)
      ⊢ wp frame (wpE (defs₀ (F := F)) 𝒱₀ (thrV d i) none) Set.univ
          (Scf.Loop.for k2_t3_loop k2_t3_ok (a0, a1, a2, a3, a4, a5, a6, a7)
            (k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun r => iprop(⌜r = (rowsAcc R 0 32 0 a0, rowsAcc R 0 32 1 a1, rowsAcc R 0 32 2 a2, rowsAcc R 0 32 3 a3,
                rowsAcc R 0 32 4 a4, rowsAcc R 0 32 5 a5, rowsAcc R 0 32 6 a6, rowsAcc R 0 32 7 a7)⌝
            ∗ (rowsV).view.loc (thrV d i) ↦[(slotK0).view.set]{q} R) := by
  show (((slotK0).view.loc (thrV d i) ↦[(slotK0).view.set]{q} R) : sProp 𝕄) ⊢ _
  iintro HR
  sl_for (sInv R ((slotK0).view.loc (thrV d i) ↦[(slotK0).view.set]{q} R) 0 32 a0 a1 a2 a3 a4 a5 a6 a7) $$ [HR]
  case region => intro k acc; exact t3_step d i q R a0 a1 a2 a3 a4 a5 a6 a7 c k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t3_frame (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK0).view.set]{q} R : sProp 𝕄)
      ⊢ wp frame (wpE (defs₀ (F := F)) 𝒱₀ (thrV d i) none) Set.univ
          (Scf.Loop.for k2_t3_loop k2_t3_ok (a0, a1, a2, a3, a4, a5, a6, a7)
            (k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun _ => (rowsV).view.loc (thrV d i) ↦[(slotK0).view.set]{q} R := by
  iintro HR
  iapply (wp_wand_r frame (wpE (defs₀ (F := F)) 𝒱₀ (thrV d i) none) Set.univ)
  isplitl [HR]
  · iapply (t3_run d i q R a0 a1 a2 a3 a4 a5 a6 a7 c); iexact HR
  · iintro %r ⟨-, HR⟩; iexact HR

/-- One trip of the loop over rows 1..31 of slot 1, the slot alone held: from the folds after k rows to the
    folds after k + 1. -/
theorem t4_step (d : Dev nD) (i : grid2.Coords) (q : PosShare TreeShare) (R : Buf (Elt F) ((thrV d i).loc cc2_scratch1))
    (a0 a1 a2 a3 a4 a5 a6 a7 : FVec F S16 .f32) (c : BitVec 32) (k : Fin k2_t4_loop.trips)
    (acc : FVec F S16 .f32 × FVec F S16 .f32 × FVec F S16 .f32 × FVec F S16 .f32 × FVec F S16 .f32 × FVec F S16 .f32 × FVec F S16 .f32 × FVec F S16 .f32) :
    sInv R ((slotK1).view.loc (thrV d i) ↦[(slotK1).view.set]{q} R) 1 0 a0 a1 a2 a3 a4 a5 a6 a7 k.val acc
      ⊢ wp frame (wpE (defs₀ (F := F)) 𝒱₀ (thrV d i) none) Set.univ
          ((k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c) k acc)
          (sInv R ((slotK1).view.loc (thrV d i) ↦[(slotK1).view.set]{q} R) 1 0 a0 a1 a2 a3 a4 a5 a6 a7 (k.val + 1)) := by
  have hk : k.val < 31 := k.isLt
  unfold sInv
  iintro ⟨%hacc, HR⟩
  subst hacc
  unfold k2_t4_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t4_step.sl.r k2_pay11
      exact lane_step R 1 0 0 a0 k.val (by omega) _ _ _ _ _ _ _ rfl rfl rfl
        (by rw [k2_off24_eq]; show k.val + 1 = _; omega) (by rw [k2_off24_eq]; rfl)
    · unfold t4_step.sl.r_1 k2_pay12
      exact lane_step R 1 0 1 a1 k.val (by omega) _ _ _ _ _ _ _ rfl rfl rfl
        (by rw [k2_off25_eq]; show k.val + 1 = _; omega) (by rw [k2_off25_eq]; rfl)
    · unfold t4_step.sl.r_2 k2_pay13
      exact lane_step R 1 0 2 a2 k.val (by omega) _ _ _ _ _ _ _ rfl rfl rfl
        (by rw [k2_off26_eq]; show k.val + 1 = _; omega) (by rw [k2_off26_eq]; rfl)
    · unfold t4_step.sl.r_3 k2_pay14
      exact lane_step R 1 0 3 a3 k.val (by omega) _ _ _ _ _ _ _ rfl rfl rfl
        (by rw [k2_off27_eq]; show k.val + 1 = _; omega) (by rw [k2_off27_eq]; rfl)
    · unfold t4_step.sl.r_4 k2_pay15
      exact lane_step R 1 0 4 a4 k.val (by omega) _ _ _ _ _ _ _ rfl rfl rfl
        (by rw [k2_off28_eq]; show k.val + 1 = _; omega) (by rw [k2_off28_eq]; rfl)
    · unfold k2_pay87
      exact lane_step R 1 0 5 a5 k.val (by omega) _ _ _ _ _ _ _ rfl rfl rfl
        (by rw [k2_off29_eq]; show k.val + 1 = _; omega) (by rw [k2_off29_eq]; rfl)
    · unfold k2_pay88
      exact lane_step R 1 0 6 a6 k.val (by omega) _ _ _ _ _ _ _ rfl rfl rfl
        (by rw [k2_off30_eq]; show k.val + 1 = _; omega) (by rw [k2_off30_eq]; rfl)
    · unfold k2_pay89
      exact lane_step R 1 0 7 a7 k.val (by omega) _ _ _ _ _ _ _ rfl rfl rfl
        (by rw [k2_off31_eq]; show k.val + 1 = _; omega) (by rw [k2_off31_eq]; rfl)
  · iexact HR

/-- The loop over rows 1..31 of node 0 of slot 1, the slot alone held (at any share, unchanged; the other
    slots may be in use elsewhere): the eight running values become their folds. The word c is a constant the region binds
    and never reads. -/
theorem t4_run (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK1).view.set]{q} R : sProp 𝕄)
      ⊢ wp frame (wpE (defs₀ (F := F)) 𝒱₀ (thrV d i) none) Set.univ
          (Scf.Loop.for k2_t4_loop k2_t4_ok (a0, a1, a2, a3, a4, a5, a6, a7)
            (k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun r => iprop(⌜r = (rowsAcc R 1 0 0 a0, rowsAcc R 1 0 1 a1, rowsAcc R 1 0 2 a2, rowsAcc R 1 0 3 a3,
                rowsAcc R 1 0 4 a4, rowsAcc R 1 0 5 a5, rowsAcc R 1 0 6 a6, rowsAcc R 1 0 7 a7)⌝
            ∗ (rowsV).view.loc (thrV d i) ↦[(slotK1).view.set]{q} R) := by
  show (((slotK1).view.loc (thrV d i) ↦[(slotK1).view.set]{q} R) : sProp 𝕄) ⊢ _
  iintro HR
  sl_for (sInv R ((slotK1).view.loc (thrV d i) ↦[(slotK1).view.set]{q} R) 1 0 a0 a1 a2 a3 a4 a5 a6 a7) $$ [HR]
  case region => intro k acc; exact t4_step d i q R a0 a1 a2 a3 a4 a5 a6 a7 c k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t4_frame (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK1).view.set]{q} R : sProp 𝕄)
      ⊢ wp frame (wpE (defs₀ (F := F)) 𝒱₀ (thrV d i) none) Set.univ
          (Scf.Loop.for k2_t4_loop k2_t4_ok (a0, a1, a2, a3, a4, a5, a6, a7)
            (k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun _ => (rowsV).view.loc (thrV d i) ↦[(slotK1).view.set]{q} R := by
  iintro HR
  iapply (wp_wand_r frame (wpE (defs₀ (F := F)) 𝒱₀ (thrV d i) none) Set.univ)
  isplitl [HR]
  · iapply (t4_run d i q R a0 a1 a2 a3 a4 a5 a6 a7 c); iexact HR
  · iintro %r ⟨-, HR⟩; iexact HR

/-- One trip of the loop over rows 33..63 of slot 1, the slot alone held: from the folds after k rows to the
    folds after k + 1. -/
theorem t5_step (d : Dev nD) (i : grid2.Coords) (q : PosShare TreeShare) (R : Buf (Elt F) ((thrV d i).loc cc2_scratch1))
    (a0 a1 a2 a3 a4 a5 a6 a7 : FVec F S16 .f32) (c : BitVec 32) (k : Fin k2_t5_loop.trips)
    (acc : FVec F S16 .f32 × FVec F S16 .f32 × FVec F S16 .f32 × FVec F S16 .f32 × FVec F S16 .f32 × FVec F S16 .f32 × FVec F S16 .f32 × FVec F S16 .f32) :
    sInv R ((slotK1).view.loc (thrV d i) ↦[(slotK1).view.set]{q} R) 1 32 a0 a1 a2 a3 a4 a5 a6 a7 k.val acc
      ⊢ wp frame (wpE (defs₀ (F := F)) 𝒱₀ (thrV d i) none) Set.univ
          ((k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c) k acc)
          (sInv R ((slotK1).view.loc (thrV d i) ↦[(slotK1).view.set]{q} R) 1 32 a0 a1 a2 a3 a4 a5 a6 a7 (k.val + 1)) := by
  have hk : k.val < 31 := k.isLt
  unfold sInv
  iintro ⟨%hacc, HR⟩
  subst hacc
  unfold k2_t5_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t5_step.sl.r k2_pay16
      exact lane_step R 1 32 0 a0 k.val (by omega) _ _ _ _ _ _ _ rfl rfl rfl
        (by rw [k2_off32_eq]; show k.val + 33 = _; omega) (by rw [k2_off32_eq]; rfl)
    · unfold t5_step.sl.r_1 k2_pay17
      exact lane_step R 1 32 1 a1 k.val (by omega) _ _ _ _ _ _ _ rfl rfl rfl
        (by rw [k2_off33_eq]; show k.val + 33 = _; omega) (by rw [k2_off33_eq]; rfl)
    · unfold t5_step.sl.r_2 k2_pay18
      exact lane_step R 1 32 2 a2 k.val (by omega) _ _ _ _ _ _ _ rfl rfl rfl
        (by rw [k2_off34_eq]; show k.val + 33 = _; omega) (by rw [k2_off34_eq]; rfl)
    · unfold t5_step.sl.r_3 k2_pay19
      exact lane_step R 1 32 3 a3 k.val (by omega) _ _ _ _ _ _ _ rfl rfl rfl
        (by rw [k2_off35_eq]; show k.val + 33 = _; omega) (by rw [k2_off35_eq]; rfl)
    · unfold t5_step.sl.r_4 k2_pay20
      exact lane_step R 1 32 4 a4 k.val (by omega) _ _ _ _ _ _ _ rfl rfl rfl
        (by rw [k2_off36_eq]; show k.val + 33 = _; omega) (by rw [k2_off36_eq]; rfl)
    · unfold k2_pay106
      exact lane_step R 1 32 5 a5 k.val (by omega) _ _ _ _ _ _ _ rfl rfl rfl
        (by rw [k2_off37_eq]; show k.val + 33 = _; omega) (by rw [k2_off37_eq]; rfl)
    · unfold k2_pay107
      exact lane_step R 1 32 6 a6 k.val (by omega) _ _ _ _ _ _ _ rfl rfl rfl
        (by rw [k2_off38_eq]; show k.val + 33 = _; omega) (by rw [k2_off38_eq]; rfl)
    · unfold k2_pay108
      exact lane_step R 1 32 7 a7 k.val (by omega) _ _ _ _ _ _ _ rfl rfl rfl
        (by rw [k2_off39_eq]; show k.val + 33 = _; omega) (by rw [k2_off39_eq]; rfl)
  · iexact HR

/-- The loop over rows 1..31 of node 1 of slot 1 (the slot's rows 33..63), the slot alone held (at any share, unchanged; the other
    slots may be in use elsewhere): the eight running values become their folds. The word c is a constant the region binds
    and never reads. -/
theorem t5_run (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK1).view.set]{q} R : sProp 𝕄)
      ⊢ wp frame (wpE (defs₀ (F := F)) 𝒱₀ (thrV d i) none) Set.univ
          (Scf.Loop.for k2_t5_loop k2_t5_ok (a0, a1, a2, a3, a4, a5, a6, a7)
            (k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c))
          fun r => iprop(⌜r = (rowsAcc R 1 32 0 a0, rowsAcc R 1 32 1 a1, rowsAcc R 1 32 2 a2, rowsAcc R 1 32 3 a3,
                rowsAcc R 1 32 4 a4, rowsAcc R 1 32 5 a5, rowsAcc R 1 32 6 a6, rowsAcc R 1 32 7 a7)⌝
            ∗ (rowsV).view.loc (thrV d i) ↦[(slotK1).view.set]{q} R) := by
  show (((slotK1).view.loc (thrV d i) ↦[(slotK1).view.set]{q} R) : sProp 𝕄) ⊢ _
  iintro HR
  sl_for (sInv R ((slotK1).view.loc (thrV d i) ↦[(slotK1).view.set]{q} R) 1 32 a0 a1 a2 a3 a4 a5 a6 a7) $$ [HR]
  case region => intro k acc; exact t5_step d i q R a0 a1 a2 a3 a4 a5 a6 a7 c k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t5_frame (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK1).view.set]{q} R : sProp 𝕄)
      ⊢ wp frame (wpE (defs₀ (F := F)) 𝒱₀ (thrV d i) none) Set.univ
          (Scf.Loop.for k2_t5_loop k2_t5_ok (a0, a1, a2, a3, a4, a5, a6, a7)
            (k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c))
          fun _ => (rowsV).view.loc (thrV d i) ↦[(slotK1).view.set]{q} R := by
  iintro HR
  iapply (wp_wand_r frame (wpE (defs₀ (F := F)) 𝒱₀ (thrV d i) none) Set.univ)
  isplitl [HR]
  · iapply (t5_run d i q R a0 a1 a2 a3 a4 a5 a6 a7 c); iexact HR
  · iintro %r ⟨-, HR⟩; iexact HR

/-- One trip of the loop over rows 1..31 of slot 2, the slot alone held: from the folds after k rows to the
    folds after k + 1. -/
theorem t6_step (d : Dev nD) (i : grid2.Coords) (q : PosShare TreeShare) (R : Buf (Elt F) ((thrV d i).loc cc2_scratch1))
    (a0 a1 a2 a3 a4 a5 a6 a7 : FVec F S16 .f32) (c : BitVec 32) (k : Fin k2_t6_loop.trips)
    (acc : FVec F S16 .f32 × FVec F S16 .f32 × FVec F S16 .f32 × FVec F S16 .f32 × FVec F S16 .f32 × FVec F S16 .f32 × FVec F S16 .f32 × FVec F S16 .f32) :
    sInv R ((slotK2).view.loc (thrV d i) ↦[(slotK2).view.set]{q} R) 2 0 a0 a1 a2 a3 a4 a5 a6 a7 k.val acc
      ⊢ wp frame (wpE (defs₀ (F := F)) 𝒱₀ (thrV d i) none) Set.univ
          ((k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c) k acc)
          (sInv R ((slotK2).view.loc (thrV d i) ↦[(slotK2).view.set]{q} R) 2 0 a0 a1 a2 a3 a4 a5 a6 a7 (k.val + 1)) := by
  have hk : k.val < 31 := k.isLt
  unfold sInv
  iintro ⟨%hacc, HR⟩
  subst hacc
  unfold k2_t6_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t6_step.sl.r k2_pay21
      exact lane_step R 2 0 0 a0 k.val (by omega) _ _ _ _ _ _ _ rfl rfl rfl
        (by rw [k2_off43_eq]; show k.val + 1 = _; omega) (by rw [k2_off43_eq]; rfl)
    · unfold t6_step.sl.r_1 k2_pay22
      exact lane_step R 2 0 1 a1 k.val (by omega) _ _ _ _ _ _ _ rfl rfl rfl
        (by rw [k2_off44_eq]; show k.val + 1 = _; omega) (by rw [k2_off44_eq]; rfl)
    · unfold t6_step.sl.r_2 k2_pay23
      exact lane_step R 2 0 2 a2 k.val (by omega) _ _ _ _ _ _ _ rfl rfl rfl
        (by rw [k2_off45_eq]; show k.val + 1 = _; omega) (by rw [k2_off45_eq]; rfl)
    · unfold t6_step.sl.r_3 k2_pay24
      exact lane_step R 2 0 3 a3 k.val (by omega) _ _ _ _ _ _ _ rfl rfl rfl
        (by rw [k2_off46_eq]; show k.val + 1 = _; omega) (by rw [k2_off46_eq]; rfl)
    · unfold t6_step.sl.r_4 k2_pay25
      exact lane_step R 2 0 4 a4 k.val (by omega) _ _ _ _ _ _ _ rfl rfl rfl
        (by rw [k2_off47_eq]; show k.val + 1 = _; omega) (by rw [k2_off47_eq]; rfl)
    · unfold k2_pay125
      exact lane_step R 2 0 5 a5 k.val (by omega) _ _ _ _ _ _ _ rfl rfl rfl
        (by rw [k2_off48_eq]; show k.val + 1 = _; omega) (by rw [k2_off48_eq]; rfl)
    · unfold k2_pay126
      exact lane_step R 2 0 6 a6 k.val (by omega) _ _ _ _ _ _ _ rfl rfl rfl
        (by rw [k2_off49_eq]; show k.val + 1 = _; omega) (by rw [k2_off49_eq]; rfl)
    · unfold k2_pay127
      exact lane_step R 2 0 7 a7 k.val (by omega) _ _ _ _ _ _ _ rfl rfl rfl
        (by rw [k2_off50_eq]; show k.val + 1 = _; omega) (by rw [k2_off50_eq]; rfl)
  · iexact HR

/-- The loop over rows 1..31 of node 0 of slot 2, the slot alone held (at any share, unchanged; the other
    slots may be in use elsewhere): the eight running values become their folds. The word c is a constant the region binds
    and never reads. -/
theorem t6_run (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK2).view.set]{q} R : sProp 𝕄)
      ⊢ wp frame (wpE (defs₀ (F := F)) 𝒱₀ (thrV d i) none) Set.univ
          (Scf.Loop.for k2_t6_loop k2_t6_ok (a0, a1, a2, a3, a4, a5, a6, a7)
            (k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c))
          fun r => iprop(⌜r = (rowsAcc R 2 0 0 a0, rowsAcc R 2 0 1 a1, rowsAcc R 2 0 2 a2, rowsAcc R 2 0 3 a3,
                rowsAcc R 2 0 4 a4, rowsAcc R 2 0 5 a5, rowsAcc R 2 0 6 a6, rowsAcc R 2 0 7 a7)⌝
            ∗ (rowsV).view.loc (thrV d i) ↦[(slotK2).view.set]{q} R) := by
  show (((slotK2).view.loc (thrV d i) ↦[(slotK2).view.set]{q} R) : sProp 𝕄) ⊢ _
  iintro HR
  sl_for (sInv R ((slotK2).view.loc (thrV d i) ↦[(slotK2).view.set]{q} R) 2 0 a0 a1 a2 a3 a4 a5 a6 a7) $$ [HR]
  case region => intro k acc; exact t6_step d i q R a0 a1 a2 a3 a4 a5 a6 a7 c k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t6_frame (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK2).view.set]{q} R : sProp 𝕄)
      ⊢ wp frame (wpE (defs₀ (F := F)) 𝒱₀ (thrV d i) none) Set.univ
          (Scf.Loop.for k2_t6_loop k2_t6_ok (a0, a1, a2, a3, a4, a5, a6, a7)
            (k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c))
          fun _ => (rowsV).view.loc (thrV d i) ↦[(slotK2).view.set]{q} R := by
  iintro HR
  iapply (wp_wand_r frame (wpE (defs₀ (F := F)) 𝒱₀ (thrV d i) none) Set.univ)
  isplitl [HR]
  · iapply (t6_run d i q R a0 a1 a2 a3 a4 a5 a6 a7 c); iexact HR
  · iintro %r ⟨-, HR⟩; iexact HR

/-- One trip of the loop over rows 33..63 of slot 2, the slot alone held: from the folds after k rows to the
    folds after k + 1. -/
theorem t7_step (d : Dev nD) (i : grid2.Coords) (q : PosShare TreeShare) (R : Buf (Elt F) ((thrV d i).loc cc2_scratch1))
    (a0 a1 a2 a3 a4 a5 a6 a7 : FVec F S16 .f32) (c : BitVec 32) (k : Fin k2_t7_loop.trips)
    (acc : FVec F S16 .f32 × FVec F S16 .f32 × FVec F S16 .f32 × FVec F S16 .f32 × FVec F S16 .f32 × FVec F S16 .f32 × FVec F S16 .f32 × FVec F S16 .f32) :
    sInv R ((slotK2).view.loc (thrV d i) ↦[(slotK2).view.set]{q} R) 2 32 a0 a1 a2 a3 a4 a5 a6 a7 k.val acc
      ⊢ wp frame (wpE (defs₀ (F := F)) 𝒱₀ (thrV d i) none) Set.univ
          ((k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c) k acc)
          (sInv R ((slotK2).view.loc (thrV d i) ↦[(slotK2).view.set]{q} R) 2 32 a0 a1 a2 a3 a4 a5 a6 a7 (k.val + 1)) := by
  have hk : k.val < 31 := k.isLt
  unfold sInv
  iintro ⟨%hacc, HR⟩
  subst hacc
  unfold k2_t7_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t7_step.sl.r k2_pay26
      exact lane_step R 2 32 0 a0 k.val (by omega) _ _ _ _ _ _ _ rfl rfl rfl
        (by rw [k2_off51_eq]; show k.val + 33 = _; omega) (by rw [k2_off51_eq]; rfl)
    · unfold t7_step.sl.r_1 k2_pay27
      exact lane_step R 2 32 1 a1 k.val (by omega) _ _ _ _ _ _ _ rfl rfl rfl
        (by rw [k2_off52_eq]; show k.val + 33 = _; omega) (by rw [k2_off52_eq]; rfl)
    · unfold t7_step.sl.r_2 k2_pay28
      exact lane_step R 2 32 2 a2 k.val (by omega) _ _ _ _ _ _ _ rfl rfl rfl
        (by rw [k2_off53_eq]; show k.val + 33 = _; omega) (by rw [k2_off53_eq]; rfl)
    · unfold t7_step.sl.r_3 k2_pay29
      exact lane_step R 2 32 3 a3 k.val (by omega) _ _ _ _ _ _ _ rfl rfl rfl
        (by rw [k2_off54_eq]; show k.val + 33 = _; omega) (by rw [k2_off54_eq]; rfl)
    · unfold t7_step.sl.r_4 k2_pay30
      exact lane_step R 2 32 4 a4 k.val (by omega) _ _ _ _ _ _ _ rfl rfl rfl
        (by rw [k2_off55_eq]; show k.val + 33 = _; omega) (by rw [k2_off55_eq]; rfl)
    · unfold k2_pay144
      exact lane_step R 2 32 5 a5 k.val (by omega) _ _ _ _ _ _ _ rfl rfl rfl
        (by rw [k2_off56_eq]; show k.val + 33 = _; omega) (by rw [k2_off56_eq]; rfl)
    · unfold k2_pay145
      exact lane_step R 2 32 6 a6 k.val (by omega) _ _ _ _ _ _ _ rfl rfl rfl
        (by rw [k2_off57_eq]; show k.val + 33 = _; omega) (by rw [k2_off57_eq]; rfl)
    · unfold k2_pay146
      exact lane_step R 2 32 7 a7 k.val (by omega) _ _ _ _ _ _ _ rfl rfl rfl
        (by rw [k2_off58_eq]; show k.val + 33 = _; omega) (by rw [k2_off58_eq]; rfl)
  · iexact HR

/-- The loop over rows 1..31 of node 1 of slot 2 (the slot's rows 33..63), the slot alone held (at any share, unchanged; the other
    slots may be in use elsewhere): the eight running values become their folds. The word c is a constant the region binds
    and never reads. -/
theorem t7_run (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK2).view.set]{q} R : sProp 𝕄)
      ⊢ wp frame (wpE (defs₀ (F := F)) 𝒱₀ (thrV d i) none) Set.univ
          (Scf.Loop.for k2_t7_loop k2_t7_ok (a0, a1, a2, a3, a4, a5, a6, a7)
            (k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c))
          fun r => iprop(⌜r = (rowsAcc R 2 32 0 a0, rowsAcc R 2 32 1 a1, rowsAcc R 2 32 2 a2, rowsAcc R 2 32 3 a3,
                rowsAcc R 2 32 4 a4, rowsAcc R 2 32 5 a5, rowsAcc R 2 32 6 a6, rowsAcc R 2 32 7 a7)⌝
            ∗ (rowsV).view.loc (thrV d i) ↦[(slotK2).view.set]{q} R) := by
  show (((slotK2).view.loc (thrV d i) ↦[(slotK2).view.set]{q} R) : sProp 𝕄) ⊢ _
  iintro HR
  sl_for (sInv R ((slotK2).view.loc (thrV d i) ↦[(slotK2).view.set]{q} R) 2 32 a0 a1 a2 a3 a4 a5 a6 a7) $$ [HR]
  case region => intro k acc; exact t7_step d i q R a0 a1 a2 a3 a4 a5 a6 a7 c k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t7_frame (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦[(slotK2).view.set]{q} R : sProp 𝕄)
      ⊢ wp frame (wpE (defs₀ (F := F)) 𝒱₀ (thrV d i) none) Set.univ
          (Scf.Loop.for k2_t7_loop k2_t7_ok (a0, a1, a2, a3, a4, a5, a6, a7)
            (k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c))
          fun _ => (rowsV).view.loc (thrV d i) ↦[(slotK2).view.set]{q} R := by
  iintro HR
  iapply (wp_wand_r frame (wpE (defs₀ (F := F)) 𝒱₀ (thrV d i) none) Set.univ)
  isplitl [HR]
  · iapply (t7_run d i q R a0 a1 a2 a3 a4 a5 a6 a7 c); iexact HR
  · iintro %r ⟨-, HR⟩; iexact HR

/-- One trip of the loop over rows 1..31 of slot 3, the slot alone held: from the folds after k rows to the
    folds after k + 1. -/
theorem t8_step (d : Dev nD) (i : grid2.Coords) (q : PosShare TreeShare) (R : Buf (Elt F) ((thrV d i).loc cc2_scratch1))
    (a0 a1 a2 a3 a4 a5 a6 a7 : FVec F S16 .f32) (k : Fin k2_t8_loop.trips)
    (acc : FVec F S16 .f32 × FVec F S16 .f32 × FVec F S16 .f32 × FVec F S16 .f32 × FVec F S16 .f32 × FVec F S16 .f32 × FVec F S16 .f32 × FVec F S16 .f32) :
    sInv R ((slotK3).view.loc (thrV d i) ↦[(slotK3).view.set]{q} R) 3 0 a0 a1 a2 a3 a4 a5 a6 a7 k.val acc
      ⊢ wp frame (wpE (defs₀ (F := F)) 𝒱₀ (thrV d i) none) Set.univ
          ((k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4) k acc)
          (sInv R ((slotK3).view.loc (thrV d i) ↦[(slotK3).view.set]{q} R) 3 0 a0 a1 a2 a3 a4 a5 a6 a7 (k.val + 1)) := by
  have hk : k.val < 31 := k.isLt
  unfold sInv
  iintro ⟨%hacc, HR⟩
  subst hacc
  unfold k2_t8_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t8_step.sl.r k2_pay31
      exact lane_step R 3 0 0 a0 k.val (by omega) _ _ _ _ _ _ _ rfl rfl rfl
        (by rw [k2_off60_eq]; show k.val + 1 = _; omega) (by rw [k2_off60_eq]; rfl)
    · unfold t8_step.sl.r_1 k2_pay32
      exact lane_step R 3 0 1 a1 k.val (by omega) _ _ _ _ _ _ _ rfl rfl rfl
        (by rw [k2_off61_eq]; show k.val + 1 = _; omega) (by rw [k2_off61_eq]; rfl)
    · unfold t8_step.sl.r_2 k2_pay33
      exact lane_step R 3 0 2 a2 k.val (by omega) _ _ _ _ _ _ _ rfl rfl rfl
        (by rw [k2_off62_eq]; show k.val + 1 = _; omega) (by rw [k2_off62_eq]; rfl)
    · unfold t8_step.sl.r_3 k2_pay34
      exact lane_step R 3 0 3 a3 k.val (by omega) _ _ _ _ _ _ _ rfl rfl rfl
        (by rw [k2_off63_eq]; show k.val + 1 = _; omega) (by rw [k2_off63_eq]; rfl)
    · unfold t8_step.sl.r_4 k2_pay35
      exact lane_step R 3 0 4 a4 k.val (by omega) _ _ _ _ _ _ _ rfl rfl rfl
        (by rw [k2_off64_eq]; show k.val + 1 = _; omega) (by rw [k2_off64_eq]; rfl)
    · unfold k2_pay163
      exact lane_step R 3 0 5 a5 k.val (by omega) _ _ _ _ _ _ _ rfl rfl rfl
        (by rw [k2_off65_eq]; show k.val + 1 = _; omega) (by rw [k2_off65_eq]; rfl)
    · unfold k2_pay164
      exact lane_step R 3 0 6 a6 k.val (by omega) _ _ _ _ _ _ _ rfl rfl rfl
        (by rw [k2_off66_eq]; show k.val + 1 = _; omega) (by rw [k2_off66_eq]; rfl)
    · unfold k2_pay165
      exact lane_step R 3 0 7 a7 k.val (by omega) _ _ _ _ _ _ _ rfl rfl rfl
        (by rw [k2_off67_eq]; show k.val + 1 = _; omega) (by rw [k2_off67_eq]; rfl)
  · iexact HR

/-- The loop over rows 1..31 of node 0 of slot 3, the slot alone held (at any share, unchanged; the other
    slots may be in use elsewhere): the eight running values become their folds. -/
theorem t8_run (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦[(slotK3).view.set]{q} R : sProp 𝕄)
      ⊢ wp frame (wpE (defs₀ (F := F)) 𝒱₀ (thrV d i) none) Set.univ
          (Scf.Loop.for k2_t8_loop k2_t8_ok (a0, a1, a2, a3, a4, a5, a6, a7)
            (k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4))
          fun r => iprop(⌜r = (rowsAcc R 3 0 0 a0, rowsAcc R 3 0 1 a1, rowsAcc R 3 0 2 a2, rowsAcc R 3 0 3 a3,
                rowsAcc R 3 0 4 a4, rowsAcc R 3 0 5 a5, rowsAcc R 3 0 6 a6, rowsAcc R 3 0 7 a7)⌝
            ∗ (rowsV).view.loc (thrV d i) ↦[(slotK3).view.set]{q} R) := by
  show (((slotK3).view.loc (thrV d i) ↦[(slotK3).view.set]{q} R) : sProp 𝕄) ⊢ _
  iintro HR
  sl_for (sInv R ((slotK3).view.loc (thrV d i) ↦[(slotK3).view.set]{q} R) 3 0 a0 a1 a2 a3 a4 a5 a6 a7) $$ [HR]
  case region => intro k acc; exact t8_step d i q R a0 a1 a2 a3 a4 a5 a6 a7 k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t8_frame (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦[(slotK3).view.set]{q} R : sProp 𝕄)
      ⊢ wp frame (wpE (defs₀ (F := F)) 𝒱₀ (thrV d i) none) Set.univ
          (Scf.Loop.for k2_t8_loop k2_t8_ok (a0, a1, a2, a3, a4, a5, a6, a7)
            (k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4))
          fun _ => (rowsV).view.loc (thrV d i) ↦[(slotK3).view.set]{q} R := by
  iintro HR
  iapply (wp_wand_r frame (wpE (defs₀ (F := F)) 𝒱₀ (thrV d i) none) Set.univ)
  isplitl [HR]
  · iapply (t8_run d i q R a0 a1 a2 a3 a4 a5 a6 a7); iexact HR
  · iintro %r ⟨-, HR⟩; iexact HR

/-- One trip of the loop over rows 33..63 of slot 3, the slot alone held: from the folds after k rows to the
    folds after k + 1. -/
theorem t9_step (d : Dev nD) (i : grid2.Coords) (q : PosShare TreeShare) (R : Buf (Elt F) ((thrV d i).loc cc2_scratch1))
    (a0 a1 a2 a3 a4 a5 a6 a7 : FVec F S16 .f32) (k : Fin k2_t9_loop.trips)
    (acc : FVec F S16 .f32 × FVec F S16 .f32 × FVec F S16 .f32 × FVec F S16 .f32 × FVec F S16 .f32 × FVec F S16 .f32 × FVec F S16 .f32 × FVec F S16 .f32) :
    sInv R ((slotK3).view.loc (thrV d i) ↦[(slotK3).view.set]{q} R) 3 32 a0 a1 a2 a3 a4 a5 a6 a7 k.val acc
      ⊢ wp frame (wpE (defs₀ (F := F)) 𝒱₀ (thrV d i) none) Set.univ
          ((k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6) k acc)
          (sInv R ((slotK3).view.loc (thrV d i) ↦[(slotK3).view.set]{q} R) 3 32 a0 a1 a2 a3 a4 a5 a6 a7 (k.val + 1)) := by
  have hk : k.val < 31 := k.isLt
  unfold sInv
  iintro ⟨%hacc, HR⟩
  subst hacc
  unfold k2_t9_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t9_step.sl.r k2_pay36
      exact lane_step R 3 32 0 a0 k.val (by omega) _ _ _ _ _ _ _ rfl rfl rfl
        (by rw [k2_off68_eq]; show k.val + 33 = _; omega) (by rw [k2_off68_eq]; rfl)
    · unfold t9_step.sl.r_1 k2_pay37
      exact lane_step R 3 32 1 a1 k.val (by omega) _ _ _ _ _ _ _ rfl rfl rfl
        (by rw [k2_off69_eq]; show k.val + 33 = _; omega) (by rw [k2_off69_eq]; rfl)
    · unfold t9_step.sl.r_2 k2_pay38
      exact lane_step R 3 32 2 a2 k.val (by omega) _ _ _ _ _ _ _ rfl rfl rfl
        (by rw [k2_off70_eq]; show k.val + 33 = _; omega) (by rw [k2_off70_eq]; rfl)
    · unfold t9_step.sl.r_3 k2_pay39
      exact lane_step R 3 32 3 a3 k.val (by omega) _ _ _ _ _ _ _ rfl rfl rfl
        (by rw [k2_off71_eq]; show k.val + 33 = _; omega) (by rw [k2_off71_eq]; rfl)
    · unfold t9_step.sl.r_4 k2_pay40
      exact lane_step R 3 32 4 a4 k.val (by omega) _ _ _ _ _ _ _ rfl rfl rfl
        (by rw [k2_off72_eq]; show k.val + 33 = _; omega) (by rw [k2_off72_eq]; rfl)
    · unfold k2_pay182
      exact lane_step R 3 32 5 a5 k.val (by omega) _ _ _ _ _ _ _ rfl rfl rfl
        (by rw [k2_off73_eq]; show k.val + 33 = _; omega) (by rw [k2_off73_eq]; rfl)
    · unfold k2_pay183
      exact lane_step R 3 32 6 a6 k.val (by omega) _ _ _ _ _ _ _ rfl rfl rfl
        (by rw [k2_off74_eq]; show k.val + 33 = _; omega) (by rw [k2_off74_eq]; rfl)
    · unfold k2_pay184
      exact lane_step R 3 32 7 a7 k.val (by omega) _ _ _ _ _ _ _ rfl rfl rfl
        (by rw [k2_off75_eq]; show k.val + 33 = _; omega) (by rw [k2_off75_eq]; rfl)
  · iexact HR

/-- The loop over rows 1..31 of node 1 of slot 3 (the slot's rows 33..63), the slot alone held (at any share, unchanged; the other
    slots may be in use elsewhere): the eight running values become their folds. -/
theorem t9_run (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦[(slotK3).view.set]{q} R : sProp 𝕄)
      ⊢ wp frame (wpE (defs₀ (F := F)) 𝒱₀ (thrV d i) none) Set.univ
          (Scf.Loop.for k2_t9_loop k2_t9_ok (a0, a1, a2, a3, a4, a5, a6, a7)
            (k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6))
          fun r => iprop(⌜r = (rowsAcc R 3 32 0 a0, rowsAcc R 3 32 1 a1, rowsAcc R 3 32 2 a2, rowsAcc R 3 32 3 a3,
                rowsAcc R 3 32 4 a4, rowsAcc R 3 32 5 a5, rowsAcc R 3 32 6 a6, rowsAcc R 3 32 7 a7)⌝
            ∗ (rowsV).view.loc (thrV d i) ↦[(slotK3).view.set]{q} R) := by
  show (((slotK3).view.loc (thrV d i) ↦[(slotK3).view.set]{q} R) : sProp 𝕄) ⊢ _
  iintro HR
  sl_for (sInv R ((slotK3).view.loc (thrV d i) ↦[(slotK3).view.set]{q} R) 3 32 a0 a1 a2 a3 a4 a5 a6 a7) $$ [HR]
  case region => intro k acc; exact t9_step d i q R a0 a1 a2 a3 a4 a5 a6 a7 k acc
  isplitl [HR]
  · unfold sInv
    isplitr [HR]
    · ipureintro; rfl
    · iexact HR
  iintro %acc HL
  unfold sInv
  icases HL with ⟨%hacc, HR⟩
  isplitr [HR]
  · ipureintro; exact hacc
  · iexact HR

/-- The same loop, saying only that the slot's rows are held as they were. -/
theorem t9_frame (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦[(slotK3).view.set]{q} R : sProp 𝕄)
      ⊢ wp frame (wpE (defs₀ (F := F)) 𝒱₀ (thrV d i) none) Set.univ
          (Scf.Loop.for k2_t9_loop k2_t9_ok (a0, a1, a2, a3, a4, a5, a6, a7)
            (k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6))
          fun _ => (rowsV).view.loc (thrV d i) ↦[(slotK3).view.set]{q} R := by
  iintro HR
  iapply (wp_wand_r frame (wpE (defs₀ (F := F)) 𝒱₀ (thrV d i) none) Set.univ)
  isplitl [HR]
  · iapply (t9_run d i q R a0 a1 a2 a3 a4 a5 a6 a7); iexact HR
  · iintro %r ⟨-, HR⟩; iexact HR

/-! ## The whole scratch held -/

/-- Before trip k of the loop over slot b from row base: the eight running values are the folds after k rows, and the
    gathered rows are held. -/
def tInv (d : Dev nD) (i : grid2.Coords) (q : PosShare TreeShare) (R : Buf (Elt F) ((thrV d i).loc cc2_scratch1))
    (b : Fin 4) (base : ℕ) (a0 a1 a2 a3 a4 a5 a6 a7 : FVec F S16 .f32) (k : ℕ)
    (acc : FVec F S16 .f32 × FVec F S16 .f32 × FVec F S16 .f32 × FVec F S16 .f32 × FVec F S16 .f32 × FVec F S16 .f32 × FVec F S16 .f32 × FVec F S16 .f32) :
    sProp 𝕄 :=
  iprop(⌜acc = (rowsAccK R b base 0 a0 k, rowsAccK R b base 1 a1 k, rowsAccK R b base 2 a2 k, rowsAccK R b base 3 a3 k,
        rowsAccK R b base 4 a4 k, rowsAccK R b base 5 a5 k, rowsAccK R b base 6 a6 k, rowsAccK R b base 7 a7 k)⌝
    ∗ (rowsV).view.loc (thrV d i) ↦{q} R)

/-- One trip of the loop over rows 1..31 of slot 0: from the folds after k rows to the folds after k + 1. -/
theorem t2_step_whole (d : Dev nD) (i : grid2.Coords) (q : PosShare TreeShare) (R : Buf (Elt F) ((thrV d i).loc cc2_scratch1))
    (a0 a1 a2 a3 a4 a5 a6 a7 : FVec F S16 .f32) (k : Fin k2_t2_loop.trips)
    (acc : FVec F S16 .f32 × FVec F S16 .f32 × FVec F S16 .f32 × FVec F S16 .f32 × FVec F S16 .f32 × FVec F S16 .f32 × FVec F S16 .f32 × FVec F S16 .f32) :
    tInv d i q R 0 0 a0 a1 a2 a3 a4 a5 a6 a7 k.val acc
      ⊢ wp frame (wpE (defs₀ (F := F)) 𝒱₀ (thrV d i) none) Set.univ
          ((k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 1#32 1#32) k acc)
          (tInv d i q R 0 0 a0 a1 a2 a3 a4 a5 a6 a7 (k.val + 1)) := by
  have hk : k.val < 31 := k.isLt
  unfold tInv
  iintro ⟨%hacc, HR⟩
  subst hacc
  unfold k2_t2_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t2_step_whole.sl.r t2_step_whole.sl.v768 k2_pay1
      exact lane_step R 0 0 0 a0 k.val (by omega) _ _ _ _ _ _ _ rfl rfl rfl
        (by rw [k2_off6_eq]; show k.val + 1 = _; omega) (by rw [k2_off6_eq]; rfl)
    · unfold t2_step_whole.sl.r_1 t2_step_whole.sl.v775 k2_pay2
      exact lane_step R 0 0 1 a1 k.val (by omega) _ _ _ _ _ _ _ rfl rfl rfl
        (by rw [k2_off7_eq]; show k.val + 1 = _; omega) (by rw [k2_off7_eq]; rfl)
    · unfold t2_step_whole.sl.r_2 t2_step_whole.sl.v782 k2_pay3
      exact lane_step R 0 0 2 a2 k.val (by omega) _ _ _ _ _ _ _ rfl rfl rfl
        (by rw [k2_off8_eq]; show k.val + 1 = _; omega) (by rw [k2_off8_eq]; rfl)
    · unfold t2_step_whole.sl.r_3 t2_step_whole.sl.v789 k2_pay4
      exact lane_step R 0 0 3 a3 k.val (by omega) _ _ _ _ _ _ _ rfl rfl rfl
        (by rw [k2_off9_eq]; show k.val + 1 = _; omega) (by rw [k2_off9_eq]; rfl)
    · unfold t2_step_whole.sl.r_4 t2_step_whole.sl.v796 k2_pay5
      exact lane_step R 0 0 4 a4 k.val (by omega) _ _ _ _ _ _ _ rfl rfl rfl
        (by rw [k2_off10_eq]; show k.val + 1 = _; omega) (by rw [k2_off10_eq]; rfl)
    · unfold t2_step_whole.sl.v803 k2_pay49
      exact lane_step R 0 0 5 a5 k.val (by omega) _ _ _ _ _ _ _ rfl rfl rfl
        (by rw [k2_off11_eq]; show k.val + 1 = _; omega) (by rw [k2_off11_eq]; rfl)
    · unfold t2_step_whole.sl.v810 k2_pay50
      exact lane_step R 0 0 6 a6 k.val (by omega) _ _ _ _ _ _ _ rfl rfl rfl
        (by rw [k2_off12_eq]; show k.val + 1 = _; omega) (by rw [k2_off12_eq]; rfl)
    · unfold t2_step_whole.sl.v817 k2_pay51
      exact lane_step R 0 0 7 a7 k.val (by omega) _ _ _ _ _ _ _ rfl rfl rfl
        (by rw [k2_off13_eq]; show k.val + 1 = _; omega) (by rw [k2_off13_eq]; rfl)
  · iexact HR

/-- The loop over rows 1..31 of node 0 of slot 0: the gathered rows held (at any share, unchanged), the eight running
    values become their folds. -/
theorem t2_run_whole (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦{q} R : sProp 𝕄)
      ⊢ wp frame (wpE (defs₀ (F := F)) 𝒱₀ (thrV d i) none) Set.univ
          (Scf.Loop.for k2_t2_loop k2_t2_ok (a0, a1, a2, a3, a4, a5, a6, a7)
            (k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 1#32 1#32))
          fun r => iprop(⌜r = (rowsAcc R 0 0 0 a0, rowsAcc R 0 0 1 a1, rowsAcc R 0 0 2 a2, rowsAcc R 0 0 3 a3,
                rowsAcc R 0 0 4 a4, rowsAcc R 0 0 5 a5, rowsAcc R 0 0 6 a6, rowsAcc R 0 0 7 a7)⌝
            ∗ (rowsV).view.loc (thrV d i) ↦{q} R) := by
  iintro HR
  sl_for (tInv d i q R 0 0 a0 a1 a2 a3 a4 a5 a6 a7) $$ [HR]
  case region => intro k acc; exact t2_step_whole d i q R a0 a1 a2 a3 a4 a5 a6 a7 k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t2_frame_whole (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦{q} R : sProp 𝕄)
      ⊢ wp frame (wpE (defs₀ (F := F)) 𝒱₀ (thrV d i) none) Set.univ
          (Scf.Loop.for k2_t2_loop k2_t2_ok (a0, a1, a2, a3, a4, a5, a6, a7)
            (k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 1#32 1#32))
          fun _ => (rowsV).view.loc (thrV d i) ↦{q} R := by
  iintro HR
  iapply (wp_wand_r frame (wpE (defs₀ (F := F)) 𝒱₀ (thrV d i) none) Set.univ)
  isplitl [HR]
  · iapply (t2_run_whole d i q R a0 a1 a2 a3 a4 a5 a6 a7); iexact HR
  · iintro %r ⟨-, HR⟩; iexact HR

/-- One trip of the loop over rows 33..63 of slot 0: from the folds after k rows to the folds after k + 1. -/
theorem t3_step_whole (d : Dev nD) (i : grid2.Coords) (q : PosShare TreeShare) (R : Buf (Elt F) ((thrV d i).loc cc2_scratch1))
    (a0 a1 a2 a3 a4 a5 a6 a7 : FVec F S16 .f32) (c : BitVec 32) (k : Fin k2_t3_loop.trips)
    (acc : FVec F S16 .f32 × FVec F S16 .f32 × FVec F S16 .f32 × FVec F S16 .f32 × FVec F S16 .f32 × FVec F S16 .f32 × FVec F S16 .f32 × FVec F S16 .f32) :
    tInv d i q R 0 32 a0 a1 a2 a3 a4 a5 a6 a7 k.val acc
      ⊢ wp frame (wpE (defs₀ (F := F)) 𝒱₀ (thrV d i) none) Set.univ
          ((k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c) k acc)
          (tInv d i q R 0 32 a0 a1 a2 a3 a4 a5 a6 a7 (k.val + 1)) := by
  have hk : k.val < 31 := k.isLt
  unfold tInv
  iintro ⟨%hacc, HR⟩
  subst hacc
  unfold k2_t3_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t3_step_whole.sl.r t3_step_whole.sl.v768 k2_pay6
      exact lane_step R 0 32 0 a0 k.val (by omega) _ _ _ _ _ _ _ rfl rfl rfl
        (by rw [k2_off14_eq]; show k.val + 33 = _; omega) (by rw [k2_off14_eq]; rfl)
    · unfold t3_step_whole.sl.r_1 t3_step_whole.sl.v775 k2_pay7
      exact lane_step R 0 32 1 a1 k.val (by omega) _ _ _ _ _ _ _ rfl rfl rfl
        (by rw [k2_off15_eq]; show k.val + 33 = _; omega) (by rw [k2_off15_eq]; rfl)
    · unfold t3_step_whole.sl.r_2 t3_step_whole.sl.v782 k2_pay8
      exact lane_step R 0 32 2 a2 k.val (by omega) _ _ _ _ _ _ _ rfl rfl rfl
        (by rw [k2_off16_eq]; show k.val + 33 = _; omega) (by rw [k2_off16_eq]; rfl)
    · unfold t3_step_whole.sl.r_3 t3_step_whole.sl.v789 k2_pay9
      exact lane_step R 0 32 3 a3 k.val (by omega) _ _ _ _ _ _ _ rfl rfl rfl
        (by rw [k2_off17_eq]; show k.val + 33 = _; omega) (by rw [k2_off17_eq]; rfl)
    · unfold t3_step_whole.sl.r_4 t3_step_whole.sl.v796 k2_pay10
      exact lane_step R 0 32 4 a4 k.val (by omega) _ _ _ _ _ _ _ rfl rfl rfl
        (by rw [k2_off18_eq]; show k.val + 33 = _; omega) (by rw [k2_off18_eq]; rfl)
    · unfold t3_step_whole.sl.v803 k2_pay68
      exact lane_step R 0 32 5 a5 k.val (by omega) _ _ _ _ _ _ _ rfl rfl rfl
        (by rw [k2_off19_eq]; show k.val + 33 = _; omega) (by rw [k2_off19_eq]; rfl)
    · unfold t3_step_whole.sl.v810 k2_pay69
      exact lane_step R 0 32 6 a6 k.val (by omega) _ _ _ _ _ _ _ rfl rfl rfl
        (by rw [k2_off20_eq]; show k.val + 33 = _; omega) (by rw [k2_off20_eq]; rfl)
    · unfold t3_step_whole.sl.v817 k2_pay70
      exact lane_step R 0 32 7 a7 k.val (by omega) _ _ _ _ _ _ _ rfl rfl rfl
        (by rw [k2_off21_eq]; show k.val + 33 = _; omega) (by rw [k2_off21_eq]; rfl)
  · iexact HR

/-- The loop over rows 1..31 of node 1 of slot 0 (the slot's rows 33..63): the gathered rows held (at any share, unchanged), the eight
    running values become their folds. The word c is a constant the region binds and never reads. -/
theorem t3_run_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t3_loop k2_t3_ok (a0, a1, a2, a3, a4, a5, a6, a7)
            (k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun r => iprop(⌜r = (rowsAcc R 0 32 0 a0, rowsAcc R 0 32 1 a1, rowsAcc R 0 32 2 a2, rowsAcc R 0 32 3 a3,
                rowsAcc R 0 32 4 a4, rowsAcc R 0 32 5 a5, rowsAcc R 0 32 6 a6, rowsAcc R 0 32 7 a7)⌝
            ∗ (rowsV).view.loc (thrV d i) ↦{q} R) := by
  iintro HR
  sl_for (tInv d i q R 0 32 a0 a1 a2 a3 a4 a5 a6 a7) $$ [HR]
  case region => intro k acc; exact t3_step_whole d i q R a0 a1 a2 a3 a4 a5 a6 a7 c k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t3_frame_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t3_loop k2_t3_ok (a0, a1, a2, a3, a4, a5, a6, a7)
            (k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun _ => (rowsV).view.loc (thrV d i) ↦{q} R := by
  iintro HR
  iapply (wp_wand_r frame (wpE (defs₀ (F := F)) 𝒱₀ (thrV d i) none) Set.univ)
  isplitl [HR]
  · iapply (t3_run_whole d i q R a0 a1 a2 a3 a4 a5 a6 a7 c); iexact HR
  · iintro %r ⟨-, HR⟩; iexact HR

/-- One trip of the loop over rows 1..31 of slot 1: from the folds after k rows to the folds after k + 1. -/
theorem t4_step_whole (d : Dev nD) (i : grid2.Coords) (q : PosShare TreeShare) (R : Buf (Elt F) ((thrV d i).loc cc2_scratch1))
    (a0 a1 a2 a3 a4 a5 a6 a7 : FVec F S16 .f32) (c : BitVec 32) (k : Fin k2_t4_loop.trips)
    (acc : FVec F S16 .f32 × FVec F S16 .f32 × FVec F S16 .f32 × FVec F S16 .f32 × FVec F S16 .f32 × FVec F S16 .f32 × FVec F S16 .f32 × FVec F S16 .f32) :
    tInv d i q R 1 0 a0 a1 a2 a3 a4 a5 a6 a7 k.val acc
      ⊢ wp frame (wpE (defs₀ (F := F)) 𝒱₀ (thrV d i) none) Set.univ
          ((k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c) k acc)
          (tInv d i q R 1 0 a0 a1 a2 a3 a4 a5 a6 a7 (k.val + 1)) := by
  have hk : k.val < 31 := k.isLt
  unfold tInv
  iintro ⟨%hacc, HR⟩
  subst hacc
  unfold k2_t4_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t4_step_whole.sl.r t4_step_whole.sl.v768 k2_pay11
      exact lane_step R 1 0 0 a0 k.val (by omega) _ _ _ _ _ _ _ rfl rfl rfl
        (by rw [k2_off24_eq]; show k.val + 1 = _; omega) (by rw [k2_off24_eq]; rfl)
    · unfold t4_step_whole.sl.r_1 t4_step_whole.sl.v775 k2_pay12
      exact lane_step R 1 0 1 a1 k.val (by omega) _ _ _ _ _ _ _ rfl rfl rfl
        (by rw [k2_off25_eq]; show k.val + 1 = _; omega) (by rw [k2_off25_eq]; rfl)
    · unfold t4_step_whole.sl.r_2 t4_step_whole.sl.v782 k2_pay13
      exact lane_step R 1 0 2 a2 k.val (by omega) _ _ _ _ _ _ _ rfl rfl rfl
        (by rw [k2_off26_eq]; show k.val + 1 = _; omega) (by rw [k2_off26_eq]; rfl)
    · unfold t4_step_whole.sl.r_3 t4_step_whole.sl.v789 k2_pay14
      exact lane_step R 1 0 3 a3 k.val (by omega) _ _ _ _ _ _ _ rfl rfl rfl
        (by rw [k2_off27_eq]; show k.val + 1 = _; omega) (by rw [k2_off27_eq]; rfl)
    · unfold t4_step_whole.sl.r_4 t4_step_whole.sl.v796 k2_pay15
      exact lane_step R 1 0 4 a4 k.val (by omega) _ _ _ _ _ _ _ rfl rfl rfl
        (by rw [k2_off28_eq]; show k.val + 1 = _; omega) (by rw [k2_off28_eq]; rfl)
    · unfold t4_step_whole.sl.v803 k2_pay87
      exact lane_step R 1 0 5 a5 k.val (by omega) _ _ _ _ _ _ _ rfl rfl rfl
        (by rw [k2_off29_eq]; show k.val + 1 = _; omega) (by rw [k2_off29_eq]; rfl)
    · unfold t4_step_whole.sl.v810 k2_pay88
      exact lane_step R 1 0 6 a6 k.val (by omega) _ _ _ _ _ _ _ rfl rfl rfl
        (by rw [k2_off30_eq]; show k.val + 1 = _; omega) (by rw [k2_off30_eq]; rfl)
    · unfold t4_step_whole.sl.v817 k2_pay89
      exact lane_step R 1 0 7 a7 k.val (by omega) _ _ _ _ _ _ _ rfl rfl rfl
        (by rw [k2_off31_eq]; show k.val + 1 = _; omega) (by rw [k2_off31_eq]; rfl)
  · iexact HR

/-- The loop over rows 1..31 of node 0 of slot 1: the gathered rows held (at any share, unchanged), the eight
    running values become their folds. The word c is a constant the region binds and never reads. -/
theorem t4_run_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t4_loop k2_t4_ok (a0, a1, a2, a3, a4, a5, a6, a7)
            (k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun r => iprop(⌜r = (rowsAcc R 1 0 0 a0, rowsAcc R 1 0 1 a1, rowsAcc R 1 0 2 a2, rowsAcc R 1 0 3 a3,
                rowsAcc R 1 0 4 a4, rowsAcc R 1 0 5 a5, rowsAcc R 1 0 6 a6, rowsAcc R 1 0 7 a7)⌝
            ∗ (rowsV).view.loc (thrV d i) ↦{q} R) := by
  iintro HR
  sl_for (tInv d i q R 1 0 a0 a1 a2 a3 a4 a5 a6 a7) $$ [HR]
  case region => intro k acc; exact t4_step_whole d i q R a0 a1 a2 a3 a4 a5 a6 a7 c k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t4_frame_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t4_loop k2_t4_ok (a0, a1, a2, a3, a4, a5, a6, a7)
            (k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c))
          fun _ => (rowsV).view.loc (thrV d i) ↦{q} R := by
  iintro HR
  iapply (wp_wand_r frame (wpE (defs₀ (F := F)) 𝒱₀ (thrV d i) none) Set.univ)
  isplitl [HR]
  · iapply (t4_run_whole d i q R a0 a1 a2 a3 a4 a5 a6 a7 c); iexact HR
  · iintro %r ⟨-, HR⟩; iexact HR

/-- One trip of the loop over rows 33..63 of slot 1: from the folds after k rows to the folds after k + 1. -/
theorem t5_step_whole (d : Dev nD) (i : grid2.Coords) (q : PosShare TreeShare) (R : Buf (Elt F) ((thrV d i).loc cc2_scratch1))
    (a0 a1 a2 a3 a4 a5 a6 a7 : FVec F S16 .f32) (c : BitVec 32) (k : Fin k2_t5_loop.trips)
    (acc : FVec F S16 .f32 × FVec F S16 .f32 × FVec F S16 .f32 × FVec F S16 .f32 × FVec F S16 .f32 × FVec F S16 .f32 × FVec F S16 .f32 × FVec F S16 .f32) :
    tInv d i q R 1 32 a0 a1 a2 a3 a4 a5 a6 a7 k.val acc
      ⊢ wp frame (wpE (defs₀ (F := F)) 𝒱₀ (thrV d i) none) Set.univ
          ((k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c) k acc)
          (tInv d i q R 1 32 a0 a1 a2 a3 a4 a5 a6 a7 (k.val + 1)) := by
  have hk : k.val < 31 := k.isLt
  unfold tInv
  iintro ⟨%hacc, HR⟩
  subst hacc
  unfold k2_t5_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t5_step_whole.sl.r t5_step_whole.sl.v768 k2_pay16
      exact lane_step R 1 32 0 a0 k.val (by omega) _ _ _ _ _ _ _ rfl rfl rfl
        (by rw [k2_off32_eq]; show k.val + 33 = _; omega) (by rw [k2_off32_eq]; rfl)
    · unfold t5_step_whole.sl.r_1 t5_step_whole.sl.v775 k2_pay17
      exact lane_step R 1 32 1 a1 k.val (by omega) _ _ _ _ _ _ _ rfl rfl rfl
        (by rw [k2_off33_eq]; show k.val + 33 = _; omega) (by rw [k2_off33_eq]; rfl)
    · unfold t5_step_whole.sl.r_2 t5_step_whole.sl.v782 k2_pay18
      exact lane_step R 1 32 2 a2 k.val (by omega) _ _ _ _ _ _ _ rfl rfl rfl
        (by rw [k2_off34_eq]; show k.val + 33 = _; omega) (by rw [k2_off34_eq]; rfl)
    · unfold t5_step_whole.sl.r_3 t5_step_whole.sl.v789 k2_pay19
      exact lane_step R 1 32 3 a3 k.val (by omega) _ _ _ _ _ _ _ rfl rfl rfl
        (by rw [k2_off35_eq]; show k.val + 33 = _; omega) (by rw [k2_off35_eq]; rfl)
    · unfold t5_step_whole.sl.r_4 t5_step_whole.sl.v796 k2_pay20
      exact lane_step R 1 32 4 a4 k.val (by omega) _ _ _ _ _ _ _ rfl rfl rfl
        (by rw [k2_off36_eq]; show k.val + 33 = _; omega) (by rw [k2_off36_eq]; rfl)
    · unfold t5_step_whole.sl.v803 k2_pay106
      exact lane_step R 1 32 5 a5 k.val (by omega) _ _ _ _ _ _ _ rfl rfl rfl
        (by rw [k2_off37_eq]; show k.val + 33 = _; omega) (by rw [k2_off37_eq]; rfl)
    · unfold t5_step_whole.sl.v810 k2_pay107
      exact lane_step R 1 32 6 a6 k.val (by omega) _ _ _ _ _ _ _ rfl rfl rfl
        (by rw [k2_off38_eq]; show k.val + 33 = _; omega) (by rw [k2_off38_eq]; rfl)
    · unfold t5_step_whole.sl.v817 k2_pay108
      exact lane_step R 1 32 7 a7 k.val (by omega) _ _ _ _ _ _ _ rfl rfl rfl
        (by rw [k2_off39_eq]; show k.val + 33 = _; omega) (by rw [k2_off39_eq]; rfl)
  · iexact HR

/-- The loop over rows 1..31 of node 1 of slot 1 (the slot's rows 33..63): the gathered rows held (at any share, unchanged), the eight
    running values become their folds. The word c is a constant the region binds and never reads. -/
theorem t5_run_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t5_loop k2_t5_ok (a0, a1, a2, a3, a4, a5, a6, a7)
            (k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c))
          fun r => iprop(⌜r = (rowsAcc R 1 32 0 a0, rowsAcc R 1 32 1 a1, rowsAcc R 1 32 2 a2, rowsAcc R 1 32 3 a3,
                rowsAcc R 1 32 4 a4, rowsAcc R 1 32 5 a5, rowsAcc R 1 32 6 a6, rowsAcc R 1 32 7 a7)⌝
            ∗ (rowsV).view.loc (thrV d i) ↦{q} R) := by
  iintro HR
  sl_for (tInv d i q R 1 32 a0 a1 a2 a3 a4 a5 a6 a7) $$ [HR]
  case region => intro k acc; exact t5_step_whole d i q R a0 a1 a2 a3 a4 a5 a6 a7 c k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t5_frame_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t5_loop k2_t5_ok (a0, a1, a2, a3, a4, a5, a6, a7)
            (k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c))
          fun _ => (rowsV).view.loc (thrV d i) ↦{q} R := by
  iintro HR
  iapply (wp_wand_r frame (wpE (defs₀ (F := F)) 𝒱₀ (thrV d i) none) Set.univ)
  isplitl [HR]
  · iapply (t5_run_whole d i q R a0 a1 a2 a3 a4 a5 a6 a7 c); iexact HR
  · iintro %r ⟨-, HR⟩; iexact HR

/-- One trip of the loop over rows 1..31 of slot 2: from the folds after k rows to the folds after k + 1. -/
theorem t6_step_whole (d : Dev nD) (i : grid2.Coords) (q : PosShare TreeShare) (R : Buf (Elt F) ((thrV d i).loc cc2_scratch1))
    (a0 a1 a2 a3 a4 a5 a6 a7 : FVec F S16 .f32) (c : BitVec 32) (k : Fin k2_t6_loop.trips)
    (acc : FVec F S16 .f32 × FVec F S16 .f32 × FVec F S16 .f32 × FVec F S16 .f32 × FVec F S16 .f32 × FVec F S16 .f32 × FVec F S16 .f32 × FVec F S16 .f32) :
    tInv d i q R 2 0 a0 a1 a2 a3 a4 a5 a6 a7 k.val acc
      ⊢ wp frame (wpE (defs₀ (F := F)) 𝒱₀ (thrV d i) none) Set.univ
          ((k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c) k acc)
          (tInv d i q R 2 0 a0 a1 a2 a3 a4 a5 a6 a7 (k.val + 1)) := by
  have hk : k.val < 31 := k.isLt
  unfold tInv
  iintro ⟨%hacc, HR⟩
  subst hacc
  unfold k2_t6_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t6_step_whole.sl.r t6_step_whole.sl.v768 k2_pay21
      exact lane_step R 2 0 0 a0 k.val (by omega) _ _ _ _ _ _ _ rfl rfl rfl
        (by rw [k2_off43_eq]; show k.val + 1 = _; omega) (by rw [k2_off43_eq]; rfl)
    · unfold t6_step_whole.sl.r_1 t6_step_whole.sl.v775 k2_pay22
      exact lane_step R 2 0 1 a1 k.val (by omega) _ _ _ _ _ _ _ rfl rfl rfl
        (by rw [k2_off44_eq]; show k.val + 1 = _; omega) (by rw [k2_off44_eq]; rfl)
    · unfold t6_step_whole.sl.r_2 t6_step_whole.sl.v782 k2_pay23
      exact lane_step R 2 0 2 a2 k.val (by omega) _ _ _ _ _ _ _ rfl rfl rfl
        (by rw [k2_off45_eq]; show k.val + 1 = _; omega) (by rw [k2_off45_eq]; rfl)
    · unfold t6_step_whole.sl.r_3 t6_step_whole.sl.v789 k2_pay24
      exact lane_step R 2 0 3 a3 k.val (by omega) _ _ _ _ _ _ _ rfl rfl rfl
        (by rw [k2_off46_eq]; show k.val + 1 = _; omega) (by rw [k2_off46_eq]; rfl)
    · unfold t6_step_whole.sl.r_4 t6_step_whole.sl.v796 k2_pay25
      exact lane_step R 2 0 4 a4 k.val (by omega) _ _ _ _ _ _ _ rfl rfl rfl
        (by rw [k2_off47_eq]; show k.val + 1 = _; omega) (by rw [k2_off47_eq]; rfl)
    · unfold t6_step_whole.sl.v803 k2_pay125
      exact lane_step R 2 0 5 a5 k.val (by omega) _ _ _ _ _ _ _ rfl rfl rfl
        (by rw [k2_off48_eq]; show k.val + 1 = _; omega) (by rw [k2_off48_eq]; rfl)
    · unfold t6_step_whole.sl.v810 k2_pay126
      exact lane_step R 2 0 6 a6 k.val (by omega) _ _ _ _ _ _ _ rfl rfl rfl
        (by rw [k2_off49_eq]; show k.val + 1 = _; omega) (by rw [k2_off49_eq]; rfl)
    · unfold t6_step_whole.sl.v817 k2_pay127
      exact lane_step R 2 0 7 a7 k.val (by omega) _ _ _ _ _ _ _ rfl rfl rfl
        (by rw [k2_off50_eq]; show k.val + 1 = _; omega) (by rw [k2_off50_eq]; rfl)
  · iexact HR

/-- The loop over rows 1..31 of node 0 of slot 2: the gathered rows held (at any share, unchanged), the eight
    running values become their folds. The word c is a constant the region binds and never reads. -/
theorem t6_run_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t6_loop k2_t6_ok (a0, a1, a2, a3, a4, a5, a6, a7)
            (k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c))
          fun r => iprop(⌜r = (rowsAcc R 2 0 0 a0, rowsAcc R 2 0 1 a1, rowsAcc R 2 0 2 a2, rowsAcc R 2 0 3 a3,
                rowsAcc R 2 0 4 a4, rowsAcc R 2 0 5 a5, rowsAcc R 2 0 6 a6, rowsAcc R 2 0 7 a7)⌝
            ∗ (rowsV).view.loc (thrV d i) ↦{q} R) := by
  iintro HR
  sl_for (tInv d i q R 2 0 a0 a1 a2 a3 a4 a5 a6 a7) $$ [HR]
  case region => intro k acc; exact t6_step_whole d i q R a0 a1 a2 a3 a4 a5 a6 a7 c k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t6_frame_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t6_loop k2_t6_ok (a0, a1, a2, a3, a4, a5, a6, a7)
            (k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c))
          fun _ => (rowsV).view.loc (thrV d i) ↦{q} R := by
  iintro HR
  iapply (wp_wand_r frame (wpE (defs₀ (F := F)) 𝒱₀ (thrV d i) none) Set.univ)
  isplitl [HR]
  · iapply (t6_run_whole d i q R a0 a1 a2 a3 a4 a5 a6 a7 c); iexact HR
  · iintro %r ⟨-, HR⟩; iexact HR

/-- One trip of the loop over rows 33..63 of slot 2: from the folds after k rows to the folds after k + 1. -/
theorem t7_step_whole (d : Dev nD) (i : grid2.Coords) (q : PosShare TreeShare) (R : Buf (Elt F) ((thrV d i).loc cc2_scratch1))
    (a0 a1 a2 a3 a4 a5 a6 a7 : FVec F S16 .f32) (c : BitVec 32) (k : Fin k2_t7_loop.trips)
    (acc : FVec F S16 .f32 × FVec F S16 .f32 × FVec F S16 .f32 × FVec F S16 .f32 × FVec F S16 .f32 × FVec F S16 .f32 × FVec F S16 .f32 × FVec F S16 .f32) :
    tInv d i q R 2 32 a0 a1 a2 a3 a4 a5 a6 a7 k.val acc
      ⊢ wp frame (wpE (defs₀ (F := F)) 𝒱₀ (thrV d i) none) Set.univ
          ((k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c) k acc)
          (tInv d i q R 2 32 a0 a1 a2 a3 a4 a5 a6 a7 (k.val + 1)) := by
  have hk : k.val < 31 := k.isLt
  unfold tInv
  iintro ⟨%hacc, HR⟩
  subst hacc
  unfold k2_t7_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t7_step_whole.sl.r t7_step_whole.sl.v768 k2_pay26
      exact lane_step R 2 32 0 a0 k.val (by omega) _ _ _ _ _ _ _ rfl rfl rfl
        (by rw [k2_off51_eq]; show k.val + 33 = _; omega) (by rw [k2_off51_eq]; rfl)
    · unfold t7_step_whole.sl.r_1 t7_step_whole.sl.v775 k2_pay27
      exact lane_step R 2 32 1 a1 k.val (by omega) _ _ _ _ _ _ _ rfl rfl rfl
        (by rw [k2_off52_eq]; show k.val + 33 = _; omega) (by rw [k2_off52_eq]; rfl)
    · unfold t7_step_whole.sl.r_2 t7_step_whole.sl.v782 k2_pay28
      exact lane_step R 2 32 2 a2 k.val (by omega) _ _ _ _ _ _ _ rfl rfl rfl
        (by rw [k2_off53_eq]; show k.val + 33 = _; omega) (by rw [k2_off53_eq]; rfl)
    · unfold t7_step_whole.sl.r_3 t7_step_whole.sl.v789 k2_pay29
      exact lane_step R 2 32 3 a3 k.val (by omega) _ _ _ _ _ _ _ rfl rfl rfl
        (by rw [k2_off54_eq]; show k.val + 33 = _; omega) (by rw [k2_off54_eq]; rfl)
    · unfold t7_step_whole.sl.r_4 t7_step_whole.sl.v796 k2_pay30
      exact lane_step R 2 32 4 a4 k.val (by omega) _ _ _ _ _ _ _ rfl rfl rfl
        (by rw [k2_off55_eq]; show k.val + 33 = _; omega) (by rw [k2_off55_eq]; rfl)
    · unfold t7_step_whole.sl.v803 k2_pay144
      exact lane_step R 2 32 5 a5 k.val (by omega) _ _ _ _ _ _ _ rfl rfl rfl
        (by rw [k2_off56_eq]; show k.val + 33 = _; omega) (by rw [k2_off56_eq]; rfl)
    · unfold t7_step_whole.sl.v810 k2_pay145
      exact lane_step R 2 32 6 a6 k.val (by omega) _ _ _ _ _ _ _ rfl rfl rfl
        (by rw [k2_off57_eq]; show k.val + 33 = _; omega) (by rw [k2_off57_eq]; rfl)
    · unfold t7_step_whole.sl.v817 k2_pay146
      exact lane_step R 2 32 7 a7 k.val (by omega) _ _ _ _ _ _ _ rfl rfl rfl
        (by rw [k2_off58_eq]; show k.val + 33 = _; omega) (by rw [k2_off58_eq]; rfl)
  · iexact HR

/-- The loop over rows 1..31 of node 1 of slot 2 (the slot's rows 33..63): the gathered rows held (at any share, unchanged), the eight
    running values become their folds. The word c is a constant the region binds and never reads. -/
theorem t7_run_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t7_loop k2_t7_ok (a0, a1, a2, a3, a4, a5, a6, a7)
            (k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c))
          fun r => iprop(⌜r = (rowsAcc R 2 32 0 a0, rowsAcc R 2 32 1 a1, rowsAcc R 2 32 2 a2, rowsAcc R 2 32 3 a3,
                rowsAcc R 2 32 4 a4, rowsAcc R 2 32 5 a5, rowsAcc R 2 32 6 a6, rowsAcc R 2 32 7 a7)⌝
            ∗ (rowsV).view.loc (thrV d i) ↦{q} R) := by
  iintro HR
  sl_for (tInv d i q R 2 32 a0 a1 a2 a3 a4 a5 a6 a7) $$ [HR]
  case region => intro k acc; exact t7_step_whole d i q R a0 a1 a2 a3 a4 a5 a6 a7 c k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t7_frame_whole (d : Dev nD) (i : grid2.Coords) (q : PosShare TreeShare) (R : Buf (Elt F) ((thrV d i).loc cc2_scratch1))
    (a0 a1 a2 a3 a4 a5 a6 a7 : FVec F S16 .f32) (c : BitVec 32) :
    ((rowsV).view.loc (thrV d i) ↦{q} R : sProp 𝕄)
      ⊢ wp frame (wpE (defs₀ (F := F)) 𝒱₀ (thrV d i) none) Set.univ
          (Scf.Loop.for k2_t7_loop k2_t7_ok (a0, a1, a2, a3, a4, a5, a6, a7)
            (k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c))
          fun _ => (rowsV).view.loc (thrV d i) ↦{q} R := by
  iintro HR
  iapply (wp_wand_r frame (wpE (defs₀ (F := F)) 𝒱₀ (thrV d i) none) Set.univ)
  isplitl [HR]
  · iapply (t7_run_whole d i q R a0 a1 a2 a3 a4 a5 a6 a7 c); iexact HR
  · iintro %r ⟨-, HR⟩; iexact HR

/-- One trip of the loop over rows 1..31 of slot 3: from the folds after k rows to the folds after k + 1. -/
theorem t8_step_whole (d : Dev nD) (i : grid2.Coords) (q : PosShare TreeShare) (R : Buf (Elt F) ((thrV d i).loc cc2_scratch1))
    (a0 a1 a2 a3 a4 a5 a6 a7 : FVec F S16 .f32) (k : Fin k2_t8_loop.trips)
    (acc : FVec F S16 .f32 × FVec F S16 .f32 × FVec F S16 .f32 × FVec F S16 .f32 × FVec F S16 .f32 × FVec F S16 .f32 × FVec F S16 .f32 × FVec F S16 .f32) :
    tInv d i q R 3 0 a0 a1 a2 a3 a4 a5 a6 a7 k.val acc
      ⊢ wp frame (wpE (defs₀ (F := F)) 𝒱₀ (thrV d i) none) Set.univ
          ((k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4) k acc)
          (tInv d i q R 3 0 a0 a1 a2 a3 a4 a5 a6 a7 (k.val + 1)) := by
  have hk : k.val < 31 := k.isLt
  unfold tInv
  iintro ⟨%hacc, HR⟩
  subst hacc
  unfold k2_t8_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t8_step_whole.sl.r t8_step_whole.sl.v768 k2_pay31
      exact lane_step R 3 0 0 a0 k.val (by omega) _ _ _ _ _ _ _ rfl rfl rfl
        (by rw [k2_off60_eq]; show k.val + 1 = _; omega) (by rw [k2_off60_eq]; rfl)
    · unfold t8_step_whole.sl.r_1 t8_step_whole.sl.v775 k2_pay32
      exact lane_step R 3 0 1 a1 k.val (by omega) _ _ _ _ _ _ _ rfl rfl rfl
        (by rw [k2_off61_eq]; show k.val + 1 = _; omega) (by rw [k2_off61_eq]; rfl)
    · unfold t8_step_whole.sl.r_2 t8_step_whole.sl.v782 k2_pay33
      exact lane_step R 3 0 2 a2 k.val (by omega) _ _ _ _ _ _ _ rfl rfl rfl
        (by rw [k2_off62_eq]; show k.val + 1 = _; omega) (by rw [k2_off62_eq]; rfl)
    · unfold t8_step_whole.sl.r_3 t8_step_whole.sl.v789 k2_pay34
      exact lane_step R 3 0 3 a3 k.val (by omega) _ _ _ _ _ _ _ rfl rfl rfl
        (by rw [k2_off63_eq]; show k.val + 1 = _; omega) (by rw [k2_off63_eq]; rfl)
    · unfold t8_step_whole.sl.r_4 t8_step_whole.sl.v796 k2_pay35
      exact lane_step R 3 0 4 a4 k.val (by omega) _ _ _ _ _ _ _ rfl rfl rfl
        (by rw [k2_off64_eq]; show k.val + 1 = _; omega) (by rw [k2_off64_eq]; rfl)
    · unfold t8_step_whole.sl.v803 k2_pay163
      exact lane_step R 3 0 5 a5 k.val (by omega) _ _ _ _ _ _ _ rfl rfl rfl
        (by rw [k2_off65_eq]; show k.val + 1 = _; omega) (by rw [k2_off65_eq]; rfl)
    · unfold t8_step_whole.sl.v810 k2_pay164
      exact lane_step R 3 0 6 a6 k.val (by omega) _ _ _ _ _ _ _ rfl rfl rfl
        (by rw [k2_off66_eq]; show k.val + 1 = _; omega) (by rw [k2_off66_eq]; rfl)
    · unfold t8_step_whole.sl.v817 k2_pay165
      exact lane_step R 3 0 7 a7 k.val (by omega) _ _ _ _ _ _ _ rfl rfl rfl
        (by rw [k2_off67_eq]; show k.val + 1 = _; omega) (by rw [k2_off67_eq]; rfl)
  · iexact HR

/-- The loop over rows 1..31 of node 0 of slot 3: the gathered rows held (at any share, unchanged), the eight
    running values become their folds. -/
theorem t8_run_whole (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦{q} R : sProp 𝕄)
      ⊢ wp frame (wpE (defs₀ (F := F)) 𝒱₀ (thrV d i) none) Set.univ
          (Scf.Loop.for k2_t8_loop k2_t8_ok (a0, a1, a2, a3, a4, a5, a6, a7)
            (k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4))
          fun r => iprop(⌜r = (rowsAcc R 3 0 0 a0, rowsAcc R 3 0 1 a1, rowsAcc R 3 0 2 a2, rowsAcc R 3 0 3 a3,
                rowsAcc R 3 0 4 a4, rowsAcc R 3 0 5 a5, rowsAcc R 3 0 6 a6, rowsAcc R 3 0 7 a7)⌝
            ∗ (rowsV).view.loc (thrV d i) ↦{q} R) := by
  iintro HR
  sl_for (tInv d i q R 3 0 a0 a1 a2 a3 a4 a5 a6 a7) $$ [HR]
  case region => intro k acc; exact t8_step_whole d i q R a0 a1 a2 a3 a4 a5 a6 a7 k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t8_frame_whole (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦{q} R : sProp 𝕄)
      ⊢ wp frame (wpE (defs₀ (F := F)) 𝒱₀ (thrV d i) none) Set.univ
          (Scf.Loop.for k2_t8_loop k2_t8_ok (a0, a1, a2, a3, a4, a5, a6, a7)
            (k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4))
          fun _ => (rowsV).view.loc (thrV d i) ↦{q} R := by
  iintro HR
  iapply (wp_wand_r frame (wpE (defs₀ (F := F)) 𝒱₀ (thrV d i) none) Set.univ)
  isplitl [HR]
  · iapply (t8_run_whole d i q R a0 a1 a2 a3 a4 a5 a6 a7); iexact HR
  · iintro %r ⟨-, HR⟩; iexact HR

/-- One trip of the loop over rows 33..63 of slot 3: from the folds after k rows to the folds after k + 1. -/
theorem t9_step_whole (d : Dev nD) (i : grid2.Coords) (q : PosShare TreeShare) (R : Buf (Elt F) ((thrV d i).loc cc2_scratch1))
    (a0 a1 a2 a3 a4 a5 a6 a7 : FVec F S16 .f32) (k : Fin k2_t9_loop.trips)
    (acc : FVec F S16 .f32 × FVec F S16 .f32 × FVec F S16 .f32 × FVec F S16 .f32 × FVec F S16 .f32 × FVec F S16 .f32 × FVec F S16 .f32 × FVec F S16 .f32) :
    tInv d i q R 3 32 a0 a1 a2 a3 a4 a5 a6 a7 k.val acc
      ⊢ wp frame (wpE (defs₀ (F := F)) 𝒱₀ (thrV d i) none) Set.univ
          ((k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6) k acc)
          (tInv d i q R 3 32 a0 a1 a2 a3 a4 a5 a6 a7 (k.val + 1)) := by
  have hk : k.val < 31 := k.isLt
  unfold tInv
  iintro ⟨%hacc, HR⟩
  subst hacc
  unfold k2_t9_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t9_step_whole.sl.r t9_step_whole.sl.v768 k2_pay36
      exact lane_step R 3 32 0 a0 k.val (by omega) _ _ _ _ _ _ _ rfl rfl rfl
        (by rw [k2_off68_eq]; show k.val + 33 = _; omega) (by rw [k2_off68_eq]; rfl)
    · unfold t9_step_whole.sl.r_1 t9_step_whole.sl.v775 k2_pay37
      exact lane_step R 3 32 1 a1 k.val (by omega) _ _ _ _ _ _ _ rfl rfl rfl
        (by rw [k2_off69_eq]; show k.val + 33 = _; omega) (by rw [k2_off69_eq]; rfl)
    · unfold t9_step_whole.sl.r_2 t9_step_whole.sl.v782 k2_pay38
      exact lane_step R 3 32 2 a2 k.val (by omega) _ _ _ _ _ _ _ rfl rfl rfl
        (by rw [k2_off70_eq]; show k.val + 33 = _; omega) (by rw [k2_off70_eq]; rfl)
    · unfold t9_step_whole.sl.r_3 t9_step_whole.sl.v789 k2_pay39
      exact lane_step R 3 32 3 a3 k.val (by omega) _ _ _ _ _ _ _ rfl rfl rfl
        (by rw [k2_off71_eq]; show k.val + 33 = _; omega) (by rw [k2_off71_eq]; rfl)
    · unfold t9_step_whole.sl.r_4 t9_step_whole.sl.v796 k2_pay40
      exact lane_step R 3 32 4 a4 k.val (by omega) _ _ _ _ _ _ _ rfl rfl rfl
        (by rw [k2_off72_eq]; show k.val + 33 = _; omega) (by rw [k2_off72_eq]; rfl)
    · unfold t9_step_whole.sl.v803 k2_pay182
      exact lane_step R 3 32 5 a5 k.val (by omega) _ _ _ _ _ _ _ rfl rfl rfl
        (by rw [k2_off73_eq]; show k.val + 33 = _; omega) (by rw [k2_off73_eq]; rfl)
    · unfold t9_step_whole.sl.v810 k2_pay183
      exact lane_step R 3 32 6 a6 k.val (by omega) _ _ _ _ _ _ _ rfl rfl rfl
        (by rw [k2_off74_eq]; show k.val + 33 = _; omega) (by rw [k2_off74_eq]; rfl)
    · unfold t9_step_whole.sl.v817 k2_pay184
      exact lane_step R 3 32 7 a7 k.val (by omega) _ _ _ _ _ _ _ rfl rfl rfl
        (by rw [k2_off75_eq]; show k.val + 33 = _; omega) (by rw [k2_off75_eq]; rfl)
  · iexact HR

/-- The loop over rows 1..31 of node 1 of slot 3 (the slot's rows 33..63): the gathered rows held (at any share, unchanged), the eight
    running values become their folds. -/
theorem t9_run_whole (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦{q} R : sProp 𝕄)
      ⊢ wp frame (wpE (defs₀ (F := F)) 𝒱₀ (thrV d i) none) Set.univ
          (Scf.Loop.for k2_t9_loop k2_t9_ok (a0, a1, a2, a3, a4, a5, a6, a7)
            (k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6))
          fun r => iprop(⌜r = (rowsAcc R 3 32 0 a0, rowsAcc R 3 32 1 a1, rowsAcc R 3 32 2 a2, rowsAcc R 3 32 3 a3,
                rowsAcc R 3 32 4 a4, rowsAcc R 3 32 5 a5, rowsAcc R 3 32 6 a6, rowsAcc R 3 32 7 a7)⌝
            ∗ (rowsV).view.loc (thrV d i) ↦{q} R) := by
  iintro HR
  sl_for (tInv d i q R 3 32 a0 a1 a2 a3 a4 a5 a6 a7) $$ [HR]
  case region => intro k acc; exact t9_step_whole d i q R a0 a1 a2 a3 a4 a5 a6 a7 k acc
  isplitl [HR]
  · unfold tInv
    isplitr [HR]
    · ipureintro; rfl
    · iexact HR
  iintro %acc HL
  unfold tInv
  icases HL with ⟨%hacc, HR⟩
  isplitr [HR]
  · ipureintro; exact hacc
  · iexact HR

/-- The same loop, saying only that the gathered rows are held as they were. -/
theorem t9_frame_whole (d : Dev nD) (i : grid2.Coords) (q : PosShare TreeShare) (R : Buf (Elt F) ((thrV d i).loc cc2_scratch1))
    (a0 a1 a2 a3 a4 a5 a6 a7 : FVec F S16 .f32) :
    ((rowsV).view.loc (thrV d i) ↦{q} R : sProp 𝕄)
      ⊢ wp frame (wpE (defs₀ (F := F)) 𝒱₀ (thrV d i) none) Set.univ
          (Scf.Loop.for k2_t9_loop k2_t9_ok (a0, a1, a2, a3, a4, a5, a6, a7)
            (k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6))
          fun _ => (rowsV).view.loc (thrV d i) ↦{q} R := by
  iintro HR
  iapply (wp_wand_r frame (wpE (defs₀ (F := F)) 𝒱₀ (thrV d i) none) Set.univ)
  isplitl [HR]
  · iapply (t9_run_whole d i q R a0 a1 a2 a3 a4 a5 a6 a7); iexact HR
  · iintro %r ⟨-, HR⟩; iexact HR

end Cert.Kernel.Hand

end
-- ==== Proof.KB.TileLoopInv.lean ====
/-
  The eight inner loops of the vector-subcore task registered for the executor, each at the invariant that the slot's rows
  are held and the carried values are the folds after k rows: a run meets the loop and goes through it.
-/
import proofs.«208586_g21955872817707_cont_8to1_688_77_alg».proof.Proof.KB.TileLoops

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "zV" => (Memref.whole Cert.Kernel.main_v8_scv : Memref Cert.Kernel.sig Kind.scVector Space.hbm Cert.Kernel.S10240x128 EltTy.f32)
local notation "iV" => (Memref.whole Cert.Kernel.main_v6_scv : Memref Cert.Kernel.sig Kind.scVector Space.hbm Cert.Kernel.S32x80x128 EltTy.i32)
local notation "mV" => (Memref.whole Cert.Kernel.main_v12_scv : Memref Cert.Kernel.sig Kind.scVector Space.hbm Cert.Kernel.S10240x128 EltTy.f32)
local notation "idxV" => (Memref.whole Cert.Kernel.cc2_scratch0 : Memref Cert.Kernel.sig Kind.scVector Space.vmem Cert.Kernel.S80x128 EltTy.i32)
local notation "rowsV" => (Memref.whole Cert.Kernel.cc2_scratch1 : Memref Cert.Kernel.sig Kind.scVector Space.vmem Cert.Kernel.S4x64x128 EltTy.f32)
local notation "outV" => (Memref.whole Cert.Kernel.cc2_scratch2 : Memref Cert.Kernel.sig Kind.scVector Space.vmem Cert.Kernel.S2x4x128 EltTy.f32)
local notation "shV" => (Memref.whole Cert.Kernel.cc2_scratch3 : Memref Cert.Kernel.sig Kind.scVector Space.shared Cert.Kernel.S10240x128 EltTy.f32)

/-! ## The trip counts -/

theorem k2_t2_trips : Scf.trips k2_t2_loop.lb k2_t2_loop.ub k2_t2_loop.st = 31 := rfl
theorem k2_t3_trips : Scf.trips k2_t3_loop.lb k2_t3_loop.ub k2_t3_loop.st = 31 := rfl
theorem k2_t4_trips : Scf.trips k2_t4_loop.lb k2_t4_loop.ub k2_t4_loop.st = 31 := rfl
theorem k2_t5_trips : Scf.trips k2_t5_loop.lb k2_t5_loop.ub k2_t5_loop.st = 31 := rfl
theorem k2_t6_trips : Scf.trips k2_t6_loop.lb k2_t6_loop.ub k2_t6_loop.st = 31 := rfl
theorem k2_t7_trips : Scf.trips k2_t7_loop.lb k2_t7_loop.ub k2_t7_loop.st = 31 := rfl
theorem k2_t8_trips : Scf.trips k2_t8_loop.lb k2_t8_loop.ub k2_t8_loop.st = 31 := rfl
theorem k2_t9_trips : Scf.trips k2_t9_loop.lb k2_t9_loop.ub k2_t9_loop.st = 31 := rfl

/-- At the trip count the fold stopped after k rows is the whole fold. -/
theorem rowsAccK_trips (R : S4x64x128.Idx → F .f32) (b : Fin 4) (base : ℕ) (g : Fin 8) (a : FVec F S16 .f32) {n : ℕ} (hn : n = 31) :
    rowsAccK R b base g a n = rowsAcc R b base g a := by subst hn; rfl

/-- One trip of the loop over rows 1..31 of slot 0, the slot alone held: from the folds after k rows to the
    folds after k + 1. -/
theorem t2_stepG (d : Dev nD) (i : grid2.Coords) (q : PosShare TreeShare) (R : Buf (Elt F) ((thrV d i).loc cc2_scratch1))
    (a0 a1 a2 a3 a4 a5 a6 a7 : FVec F S16 .f32) (c1 c2 : BitVec 32) (k : Fin k2_t2_loop.trips)
    (acc : FVec F S16 .f32 × FVec F S16 .f32 × FVec F S16 .f32 × FVec F S16 .f32 × FVec F S16 .f32 × FVec F S16 .f32 × FVec F S16 .f32 × FVec F S16 .f32) :
    sInv R ((slotK0).view.loc (thrV d i) ↦[(slotK0).view.set]{q} R) 0 0 a0 a1 a2 a3 a4 a5 a6 a7 k.val acc
      ⊢ wp frame (wpE (defs₀ (F := F)) 𝒱₀ (thrV d i) none) Set.univ
          ((k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 c1 c2) k acc)
          (sInv R ((slotK0).view.loc (thrV d i) ↦[(slotK0).view.set]{q} R) 0 0 a0 a1 a2 a3 a4 a5 a6 a7 (k.val + 1)) := by
  have hk : k.val < 31 := k.isLt
  unfold sInv
  iintro ⟨%hacc, HR⟩
  subst hacc
  unfold k2_t2_body
  sl_exec
  sl_step
  isplitr [HR]
  · ipureintro
    refine Prod.ext ?_ (Prod.ext ?_ (Prod.ext ?_ (Prod.ext ?_ (Prod.ext ?_ (Prod.ext ?_ (Prod.ext ?_ ?_))))))
    · unfold t2_stepG.sl.r k2_pay1
      exact lane_step R 0 0 0 a0 k.val (by omega) _ _ _ _ _ _ _ rfl rfl rfl
        (by rw [k2_off6_eq]; show k.val + 1 = _; omega) (by rw [k2_off6_eq]; rfl)
    · unfold t2_stepG.sl.r_1 k2_pay2
      exact lane_step R 0 0 1 a1 k.val (by omega) _ _ _ _ _ _ _ rfl rfl rfl
        (by rw [k2_off7_eq]; show k.val + 1 = _; omega) (by rw [k2_off7_eq]; rfl)
    · unfold t2_stepG.sl.r_2 k2_pay3
      exact lane_step R 0 0 2 a2 k.val (by omega) _ _ _ _ _ _ _ rfl rfl rfl
        (by rw [k2_off8_eq]; show k.val + 1 = _; omega) (by rw [k2_off8_eq]; rfl)
    · unfold t2_stepG.sl.r_3 k2_pay4
      exact lane_step R 0 0 3 a3 k.val (by omega) _ _ _ _ _ _ _ rfl rfl rfl
        (by rw [k2_off9_eq]; show k.val + 1 = _; omega) (by rw [k2_off9_eq]; rfl)
    · unfold t2_stepG.sl.r_4 k2_pay5
      exact lane_step R 0 0 4 a4 k.val (by omega) _ _ _ _ _ _ _ rfl rfl rfl
        (by rw [k2_off10_eq]; show k.val + 1 = _; omega) (by rw [k2_off10_eq]; rfl)
    · unfold k2_pay49
      exact lane_step R 0 0 5 a5 k.val (by omega) _ _ _ _ _ _ _ rfl rfl rfl
        (by rw [k2_off11_eq]; show k.val + 1 = _; omega) (by rw [k2_off11_eq]; rfl)
    · unfold k2_pay50
      exact lane_step R 0 0 6 a6 k.val (by omega) _ _ _ _ _ _ _ rfl rfl rfl
        (by rw [k2_off12_eq]; show k.val + 1 = _; omega) (by rw [k2_off12_eq]; rfl)
    · unfold k2_pay51
      exact lane_step R 0 0 7 a7 k.val (by omega) _ _ _ _ _ _ _ rfl rfl rfl
        (by rw [k2_off13_eq]; show k.val + 1 = _; omega) (by rw [k2_off13_eq]; rfl)
  · iexact HR

set_option warn.classDefReducibility false in
/-- The loop over slot 0 registered for the executor: the slot's rows are held and the carried values are the folds
    after k rows. -/
@[sl_loop] def loopInv_k2_t2 (d : Dev nD) (i : grid2.Coords) (q : PosShare TreeShare) (R : Buf (Elt F) ((thrV d i).loc cc2_scratch1))
    (a0 a1 a2 a3 a4 a5 a6 a7 : FVec F S16 .f32) (c1 c2 : BitVec 32) :
    Idealize.ShloMosaic.LoopInv (M := 𝕄) Idealize.ShloMosaic.frame (wpE (defs₀ (F := F)) 𝒱₀ (thrV d i) none) Set.univ
      k2_t2_loop.lb k2_t2_loop.ub k2_t2_loop.st k2_t2_ok (a0, a1, a2, a3, a4, a5, a6, a7)
      (k2_t2_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6 a7 c1 c2) where
  inv := sInv R ((slotK0).view.loc (thrV d i) ↦[(slotK0).view.set]{q} R) 0 0 a0 a1 a2 a3 a4 a5 a6 a7
  step k acc := t2_stepG d i q R a0 a1 a2 a3 a4 a5 a6 a7 c1 c2 k acc

set_option warn.classDefReducibility false in
/-- The loop over slot 0, second node, registered for the executor: the slot's rows are held and the carried values are the folds
    after k rows. -/
@[sl_loop] def loopInv_k2_t3 (d : Dev nD) (i : grid2.Coords) (q : PosShare TreeShare) (R : Buf (Elt F) ((thrV d i).loc cc2_scratch1))
    (a0 a1 a2 a3 a4 a5 a6 a7 : FVec F S16 .f32) (c : BitVec 32) :
    Idealize.ShloMosaic.LoopInv (M := 𝕄) Idealize.ShloMosaic.frame (wpE (defs₀ (F := F)) 𝒱₀ (thrV d i) none) Set.univ
      k2_t3_loop.lb k2_t3_loop.ub k2_t3_loop.st k2_t3_ok (a0, a1, a2, a3, a4, a5, a6, a7)
      (k2_t3_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c) where
  inv := sInv R ((slotK0).view.loc (thrV d i) ↦[(slotK0).view.set]{q} R) 0 32 a0 a1 a2 a3 a4 a5 a6 a7
  step k acc := t3_step d i q R a0 a1 a2 a3 a4 a5 a6 a7 c k acc

set_option warn.classDefReducibility false in
/-- The loop over slot 1 registered for the executor: the slot's rows are held and the carried values are the folds
    after k rows. -/
@[sl_loop] def loopInv_k2_t4 (d : Dev nD) (i : grid2.Coords) (q : PosShare TreeShare) (R : Buf (Elt F) ((thrV d i).loc cc2_scratch1))
    (a0 a1 a2 a3 a4 a5 a6 a7 : FVec F S16 .f32) (c : BitVec 32) :
    Idealize.ShloMosaic.LoopInv (M := 𝕄) Idealize.ShloMosaic.frame (wpE (defs₀ (F := F)) 𝒱₀ (thrV d i) none) Set.univ
      k2_t4_loop.lb k2_t4_loop.ub k2_t4_loop.st k2_t4_ok (a0, a1, a2, a3, a4, a5, a6, a7)
      (k2_t4_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 c) where
  inv := sInv R ((slotK1).view.loc (thrV d i) ↦[(slotK1).view.set]{q} R) 1 0 a0 a1 a2 a3 a4 a5 a6 a7
  step k acc := t4_step d i q R a0 a1 a2 a3 a4 a5 a6 a7 c k acc

set_option warn.classDefReducibility false in
/-- The loop over slot 1, second node, registered for the executor: the slot's rows are held and the carried values are the folds
    after k rows. -/
@[sl_loop] def loopInv_k2_t5 (d : Dev nD) (i : grid2.Coords) (q : PosShare TreeShare) (R : Buf (Elt F) ((thrV d i).loc cc2_scratch1))
    (a0 a1 a2 a3 a4 a5 a6 a7 : FVec F S16 .f32) (c : BitVec 32) :
    Idealize.ShloMosaic.LoopInv (M := 𝕄) Idealize.ShloMosaic.frame (wpE (defs₀ (F := F)) 𝒱₀ (thrV d i) none) Set.univ
      k2_t5_loop.lb k2_t5_loop.ub k2_t5_loop.st k2_t5_ok (a0, a1, a2, a3, a4, a5, a6, a7)
      (k2_t5_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 c) where
  inv := sInv R ((slotK1).view.loc (thrV d i) ↦[(slotK1).view.set]{q} R) 1 32 a0 a1 a2 a3 a4 a5 a6 a7
  step k acc := t5_step d i q R a0 a1 a2 a3 a4 a5 a6 a7 c k acc

set_option warn.classDefReducibility false in
/-- The loop over slot 2 registered for the executor: the slot's rows are held and the carried values are the folds
    after k rows. -/
@[sl_loop] def loopInv_k2_t6 (d : Dev nD) (i : grid2.Coords) (q : PosShare TreeShare) (R : Buf (Elt F) ((thrV d i).loc cc2_scratch1))
    (a0 a1 a2 a3 a4 a5 a6 a7 : FVec F S16 .f32) (c : BitVec 32) :
    Idealize.ShloMosaic.LoopInv (M := 𝕄) Idealize.ShloMosaic.frame (wpE (defs₀ (F := F)) 𝒱₀ (thrV d i) none) Set.univ
      k2_t6_loop.lb k2_t6_loop.ub k2_t6_loop.st k2_t6_ok (a0, a1, a2, a3, a4, a5, a6, a7)
      (k2_t6_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 c) where
  inv := sInv R ((slotK2).view.loc (thrV d i) ↦[(slotK2).view.set]{q} R) 2 0 a0 a1 a2 a3 a4 a5 a6 a7
  step k acc := t6_step d i q R a0 a1 a2 a3 a4 a5 a6 a7 c k acc

set_option warn.classDefReducibility false in
/-- The loop over slot 2, second node, registered for the executor: the slot's rows are held and the carried values are the folds
    after k rows. -/
@[sl_loop] def loopInv_k2_t7 (d : Dev nD) (i : grid2.Coords) (q : PosShare TreeShare) (R : Buf (Elt F) ((thrV d i).loc cc2_scratch1))
    (a0 a1 a2 a3 a4 a5 a6 a7 : FVec F S16 .f32) (c : BitVec 32) :
    Idealize.ShloMosaic.LoopInv (M := 𝕄) Idealize.ShloMosaic.frame (wpE (defs₀ (F := F)) 𝒱₀ (thrV d i) none) Set.univ
      k2_t7_loop.lb k2_t7_loop.ub k2_t7_loop.st k2_t7_ok (a0, a1, a2, a3, a4, a5, a6, a7)
      (k2_t7_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 c) where
  inv := sInv R ((slotK2).view.loc (thrV d i) ↦[(slotK2).view.set]{q} R) 2 32 a0 a1 a2 a3 a4 a5 a6 a7
  step k acc := t7_step d i q R a0 a1 a2 a3 a4 a5 a6 a7 c k acc

set_option warn.classDefReducibility false in
/-- The loop over slot 3 registered for the executor: the slot's rows are held and the carried values are the folds
    after k rows. -/
@[sl_loop] def loopInv_k2_t8 (d : Dev nD) (i : grid2.Coords) (q : PosShare TreeShare) (R : Buf (Elt F) ((thrV d i).loc cc2_scratch1))
    (a0 a1 a2 a3 a4 a5 a6 a7 : FVec F S16 .f32) :
    Idealize.ShloMosaic.LoopInv (M := 𝕄) Idealize.ShloMosaic.frame (wpE (defs₀ (F := F)) 𝒱₀ (thrV d i) none) Set.univ
      k2_t8_loop.lb k2_t8_loop.ub k2_t8_loop.st k2_t8_ok (a0, a1, a2, a3, a4, a5, a6, a7)
      (k2_t8_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4) where
  inv := sInv R ((slotK3).view.loc (thrV d i) ↦[(slotK3).view.set]{q} R) 3 0 a0 a1 a2 a3 a4 a5 a6 a7
  step k acc := t8_step d i q R a0 a1 a2 a3 a4 a5 a6 a7 k acc

set_option warn.classDefReducibility false in
/-- The loop over slot 3, second node, registered for the executor: the slot's rows are held and the carried values are the folds
    after k rows. -/
@[sl_loop] def loopInv_k2_t9 (d : Dev nD) (i : grid2.Coords) (q : PosShare TreeShare) (R : Buf (Elt F) ((thrV d i).loc cc2_scratch1))
    (a0 a1 a2 a3 a4 a5 a6 a7 : FVec F S16 .f32) :
    Idealize.ShloMosaic.LoopInv (M := 𝕄) Idealize.ShloMosaic.frame (wpE (defs₀ (F := F)) 𝒱₀ (thrV d i) none) Set.univ
      k2_t9_loop.lb k2_t9_loop.ub k2_t9_loop.st k2_t9_ok (a0, a1, a2, a3, a4, a5, a6, a7)
      (k2_t9_body i zV (Memref.isWhole_whole _) iV (Memref.isWhole_whole _) mV (Memref.isWhole_whole _) idxV (Memref.isWhole_whole _)
              rowsV (Memref.isWhole_whole _) outV (Memref.isWhole_whole _) shV (Memref.isWhole_whole _)
              cc2_scratch4 cc2_scratch5 cc2_scratch6 cc2_scratch7 cc2_scratch8 cc2_scratch9 cc2_scoped0 cc2_scoped1
              a0 a1 a2 a3 a4 a5 a6) where
  inv := sInv R ((slotK3).view.loc (thrV d i) ↦[(slotK3).view.set]{q} R) 3 32 a0 a1 a2 a3 a4 a5 a6 a7
  step k acc := t9_step d i q R a0 a1 a2 a3 a4 a5 a6 a7 k acc

end Cert.Kernel.Hand

end
-- ==== Proof.KB.TileInv.lean ====
/-
  The vector-subcore task: the slices it addresses, the barrier's payloads, the pipeline loop's invariant.
-/
import proofs.«208586_g21955872817707_cont_8to1_688_77_alg».proof.Proof.KB.TileSplit
import proofs.«208586_g21955872817707_cont_8to1_688_77_alg».proof.Proof.KB.TileSets
import proofs.«208586_g21955872817707_cont_8to1_688_77_alg».proof.Proof.KB.TileConds
import proofs.«208586_g21955872817707_cont_8to1_688_77_alg».proof.Proof.KB.TileLoops
import proofs.«208586_g21955872817707_cont_8to1_688_77_alg».proof.Proof.KB.TileLoopInv
import proofs.«208586_g21955872817707_cont_8to1_688_77_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.Kernel.main_v8_scv : Memref Cert.Kernel.sig Kind.scVector Space.hbm Cert.Kernel.S10240x128 EltTy.f32)
local notation "iV" => (Memref.whole Cert.Kernel.main_v6_scv : Memref Cert.Kernel.sig Kind.scVector Space.hbm Cert.Kernel.S32x80x128 EltTy.i32)
local notation "mV" => (Memref.whole Cert.Kernel.main_v12_scv : Memref Cert.Kernel.sig Kind.scVector Space.hbm Cert.Kernel.S10240x128 EltTy.f32)
local notation "idxV" => (Memref.whole Cert.Kernel.cc2_scratch0 : Memref Cert.Kernel.sig Kind.scVector Space.vmem Cert.Kernel.S80x128 EltTy.i32)
local notation "rowsV" => (Memref.whole Cert.Kernel.cc2_scratch1 : Memref Cert.Kernel.sig Kind.scVector Space.vmem Cert.Kernel.S4x64x128 EltTy.f32)
local notation "outV" => (Memref.whole Cert.Kernel.cc2_scratch2 : Memref Cert.Kernel.sig Kind.scVector Space.vmem Cert.Kernel.S2x4x128 EltTy.f32)
local notation "shV" => (Memref.whole Cert.Kernel.cc2_scratch3 : Memref Cert.Kernel.sig Kind.scVector Space.shared Cert.Kernel.S10240x128 EltTy.f32)

section Tile

variable (d : Dev nD) (L : grid2.Coords)

abbrev cV (L : grid2.Coords) : Fin τ.nSC := (L 0).castLE hcore2
abbrev jV (L : grid2.Coords) : Fin τ.nSub := (L 1).castLE hsub2
omit [FloatOps F] in
theorem bound_zero : grid2.bound 0 = 2 := rfl
abbrev jL (L : grid2.Coords) : Fin 16 := Fin.cast bound_one (L 1)
abbrev cL (L : grid2.Coords) : Fin 2 := Fin.cast bound_zero (L 0)

omit [FloatOps F] in
theorem ownSems0_V :
    (ownSems0 (V d (cV L) (jV L)) : sProp 𝕄)
      = iprop(semVal (V d (cV L) (jV L), SemLoc.dma cc2_scoped0.sem) 0 ∗ semVal (V d (cV L) (jV L), SemLoc.dma cc2_scoped1.sem) 0 ∗ semVal (V d (cV L) (jV L), SemLoc.dma cc2_scratch4.sem) 0 ∗ semVal (V d (cV L) (jV L), SemLoc.dma cc2_scratch5.sem) 0 ∗ semVal (V d (cV L) (jV L), SemLoc.dma cc2_scratch6.sem) 0 ∗ semVal (V d (cV L) (jV L), SemLoc.dma cc2_scratch7.sem) 0 ∗ semVal (V d (cV L) (jV L), SemLoc.dma cc2_scratch8.sem) 0 ∗ semVal (V d (cV L) (jV L), SemLoc.dma cc2_scratch9.sem) 0
          ∗ bigSep (((((((((ownCells (V d (cV L) (jV L))).erase (V d (cV L) (jV L), SemLoc.dma cc2_scoped0.sem)).erase (V d (cV L) (jV L), SemLoc.dma cc2_scoped1.sem)).erase (V d (cV L) (jV L), SemLoc.dma cc2_scratch4.sem)).erase (V d (cV L) (jV L), SemLoc.dma cc2_scratch5.sem)).erase (V d (cV L) (jV L), SemLoc.dma cc2_scratch6.sem)).erase (V d (cV L) (jV L), SemLoc.dma cc2_scratch7.sem)).erase (V d (cV L) (jV L), SemLoc.dma cc2_scratch8.sem)).erase (V d (cV L) (jV L), SemLoc.dma cc2_scratch9.sem)) fun g => semVal g 0) := by
  unfold SparseCore.Cfg.ownSems0
  rw [SparseCore.bigSep_erase' ((mem_ownCells (g := ((V d (cV L) (jV L), SemLoc.dma cc2_scoped0.sem) : GSem nD τ sig))).mpr ⟨rfl, by show (SemLoc.dma cc2_scoped0.sem : SemLoc sig).isScoped .scVector = true; decide⟩),
    SparseCore.bigSep_erase' (Finset.mem_erase.mpr ⟨fun e => absurd (congrArg Prod.snd e) (show (SemLoc.dma cc2_scoped1.sem : SemLoc sig) ≠ SemLoc.dma cc2_scoped0.sem by decide), (mem_ownCells (g := ((V d (cV L) (jV L), SemLoc.dma cc2_scoped1.sem) : GSem nD τ sig))).mpr ⟨rfl, by show (SemLoc.dma cc2_scoped1.sem : SemLoc sig).isScoped .scVector = true; decide⟩⟩),
    SparseCore.bigSep_erase' (Finset.mem_erase.mpr ⟨fun e => absurd (congrArg Prod.snd e) (show (SemLoc.dma cc2_scratch4.sem : SemLoc sig) ≠ SemLoc.dma cc2_scoped1.sem by decide), Finset.mem_erase.mpr ⟨fun e => absurd (congrArg Prod.snd e) (show (SemLoc.dma cc2_scratch4.sem : SemLoc sig) ≠ SemLoc.dma cc2_scoped0.sem by decide), (mem_ownCells (g := ((V d (cV L) (jV L), SemLoc.dma cc2_scratch4.sem) : GSem nD τ sig))).mpr ⟨rfl, by show (SemLoc.dma cc2_scratch4.sem : SemLoc sig).isScoped .scVector = true; decide⟩⟩⟩),
    SparseCore.bigSep_erase' (Finset.mem_erase.mpr ⟨fun e => absurd (congrArg Prod.snd e) (show (SemLoc.dma cc2_scratch5.sem : SemLoc sig) ≠ SemLoc.dma cc2_scratch4.sem by decide), Finset.mem_erase.mpr ⟨fun e => absurd (congrArg Prod.snd e) (show (SemLoc.dma cc2_scratch5.sem : SemLoc sig) ≠ SemLoc.dma cc2_scoped1.sem by decide), Finset.mem_erase.mpr ⟨fun e => absurd (congrArg Prod.snd e) (show (SemLoc.dma cc2_scratch5.sem : SemLoc sig) ≠ SemLoc.dma cc2_scoped0.sem by decide), (mem_ownCells (g := ((V d (cV L) (jV L), SemLoc.dma cc2_scratch5.sem) : GSem nD τ sig))).mpr ⟨rfl, by show (SemLoc.dma cc2_scratch5.sem : SemLoc sig).isScoped .scVector = true; decide⟩⟩⟩⟩),
    SparseCore.bigSep_erase' (Finset.mem_erase.mpr ⟨fun e => absurd (congrArg Prod.snd e) (show (SemLoc.dma cc2_scratch6.sem : SemLoc sig) ≠ SemLoc.dma cc2_scratch5.sem by decide), Finset.mem_erase.mpr ⟨fun e => absurd (congrArg Prod.snd e) (show (SemLoc.dma cc2_scratch6.sem : SemLoc sig) ≠ SemLoc.dma cc2_scratch4.sem by decide), Finset.mem_erase.mpr ⟨fun e => absurd (congrArg Prod.snd e) (show (SemLoc.dma cc2_scratch6.sem : SemLoc sig) ≠ SemLoc.dma cc2_scoped1.sem by decide), Finset.mem_erase.mpr ⟨fun e => absurd (congrArg Prod.snd e) (show (SemLoc.dma cc2_scratch6.sem : SemLoc sig) ≠ SemLoc.dma cc2_scoped0.sem by decide), (mem_ownCells (g := ((V d (cV L) (jV L), SemLoc.dma cc2_scratch6.sem) : GSem nD τ sig))).mpr ⟨rfl, by show (SemLoc.dma cc2_scratch6.sem : SemLoc sig).isScoped .scVector = true; decide⟩⟩⟩⟩⟩),
    SparseCore.bigSep_erase' (Finset.mem_erase.mpr ⟨fun e => absurd (congrArg Prod.snd e) (show (SemLoc.dma cc2_scratch7.sem : SemLoc sig) ≠ SemLoc.dma cc2_scratch6.sem by decide), Finset.mem_erase.mpr ⟨fun e => absurd (congrArg Prod.snd e) (show (SemLoc.dma cc2_scratch7.sem : SemLoc sig) ≠ SemLoc.dma cc2_scratch5.sem by decide), Finset.mem_erase.mpr ⟨fun e => absurd (congrArg Prod.snd e) (show (SemLoc.dma cc2_scratch7.sem : SemLoc sig) ≠ SemLoc.dma cc2_scratch4.sem by decide), Finset.mem_erase.mpr ⟨fun e => absurd (congrArg Prod.snd e) (show (SemLoc.dma cc2_scratch7.sem : SemLoc sig) ≠ SemLoc.dma cc2_scoped1.sem by decide), Finset.mem_erase.mpr ⟨fun e => absurd (congrArg Prod.snd e) (show (SemLoc.dma cc2_scratch7.sem : SemLoc sig) ≠ SemLoc.dma cc2_scoped0.sem by decide), (mem_ownCells (g := ((V d (cV L) (jV L), SemLoc.dma cc2_scratch7.sem) : GSem nD τ sig))).mpr ⟨rfl, by show (SemLoc.dma cc2_scratch7.sem : SemLoc sig).isScoped .scVector = true; decide⟩⟩⟩⟩⟩⟩),
    SparseCore.bigSep_erase' (Finset.mem_erase.mpr ⟨fun e => absurd (congrArg Prod.snd e) (show (SemLoc.dma cc2_scratch8.sem : SemLoc sig) ≠ SemLoc.dma cc2_scratch7.sem by decide), Finset.mem_erase.mpr ⟨fun e => absurd (congrArg Prod.snd e) (show (SemLoc.dma cc2_scratch8.sem : SemLoc sig) ≠ SemLoc.dma cc2_scratch6.sem by decide), Finset.mem_erase.mpr ⟨fun e => absurd (congrArg Prod.snd e) (show (SemLoc.dma cc2_scratch8.sem : SemLoc sig) ≠ SemLoc.dma cc2_scratch5.sem by decide), Finset.mem_erase.mpr ⟨fun e => absurd (congrArg Prod.snd e) (show (SemLoc.dma cc2_scratch8.sem : SemLoc sig) ≠ SemLoc.dma cc2_scratch4.sem by decide), Finset.mem_erase.mpr ⟨fun e => absurd (congrArg Prod.snd e) (show (SemLoc.dma cc2_scratch8.sem : SemLoc sig) ≠ SemLoc.dma cc2_scoped1.sem by decide), Finset.mem_erase.mpr ⟨fun e => absurd (congrArg Prod.snd e) (show (SemLoc.dma cc2_scratch8.sem : SemLoc sig) ≠ SemLoc.dma cc2_scoped0.sem by decide), (mem_ownCells (g := ((V d (cV L) (jV L), SemLoc.dma cc2_scratch8.sem) : GSem nD τ sig))).mpr ⟨rfl, by show (SemLoc.dma cc2_scratch8.sem : SemLoc sig).isScoped .scVector = true; decide⟩⟩⟩⟩⟩⟩⟩),
    SparseCore.bigSep_erase' (Finset.mem_erase.mpr ⟨fun e => absurd (congrArg Prod.snd e) (show (SemLoc.dma cc2_scratch9.sem : SemLoc sig) ≠ SemLoc.dma cc2_scratch8.sem by decide), Finset.mem_erase.mpr ⟨fun e => absurd (congrArg Prod.snd e) (show (SemLoc.dma cc2_scratch9.sem : SemLoc sig) ≠ SemLoc.dma cc2_scratch7.sem by decide), Finset.mem_erase.mpr ⟨fun e => absurd (congrArg Prod.snd e) (show (SemLoc.dma cc2_scratch9.sem : SemLoc sig) ≠ SemLoc.dma cc2_scratch6.sem by decide), Finset.mem_erase.mpr ⟨fun e => absurd (congrArg Prod.snd e) (show (SemLoc.dma cc2_scratch9.sem : SemLoc sig) ≠ SemLoc.dma cc2_scratch5.sem by decide), Finset.mem_erase.mpr ⟨fun e => absurd (congrArg Prod.snd e) (show (SemLoc.dma cc2_scratch9.sem : SemLoc sig) ≠ SemLoc.dma cc2_scratch4.sem by decide), Finset.mem_erase.mpr ⟨fun e => absurd (congrArg Prod.snd e) (show (SemLoc.dma cc2_scratch9.sem : SemLoc sig) ≠ SemLoc.dma cc2_scoped1.sem by decide), Finset.mem_erase.mpr ⟨fun e => absurd (congrArg Prod.snd e) (show (SemLoc.dma cc2_scratch9.sem : SemLoc sig) ≠ SemLoc.dma cc2_scoped0.sem by decide), (mem_ownCells (g := ((V d (cV L) (jV L), SemLoc.dma cc2_scratch9.sem) : GSem nD τ sig))).mpr ⟨rfl, by show (SemLoc.dma cc2_scratch9.sem : SemLoc sig).isScoped .scVector = true; decide⟩⟩⟩⟩⟩⟩⟩⟩)]

omit [FloatOps F] in
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f) ∗ (∃ f, (V d (cV L) (jV L)).loc cc2_scratch2 ↦{fullShare} f)
          ∗ bigSep ((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc2_scratch0)) rfl),
    SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (jV L)) (b := ((Proc.scVector (cV L) (jV L)).devRef cc2_scratch1)) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (jV L)) (b := ((Proc.scVector (cV L) (jV L)).devRef cc2_scratch2)) rfl⟩⟩)]

/-! ### The slices the task addresses -/

abbrev iRectK (L : grid2.Coords) : Rect S32x80x128 := Rect.unit (s := S32x80x128) (k2_off1 L) S1x80x128.size (k2_off1_inb L)
abbrev zRectK (L : grid2.Coords) : Rect S10240x128 := Rect.unit (s := S10240x128) (k2_off2 L) S640x128.size (k2_off2_inb L)
/-- The worker's row of the index array, squeezed; its slice of z; its slice of the shared copy: as the task addresses them. -/
abbrev iTileK (L : grid2.Coords) : Memref sig .scVector .hbm S80x128 .i32 := ((iV).slice (iRectK L) (fun _ => rfl)).squeeze S80x128 squeezes_S1x80x128_S80x128
abbrev zSliceK (L : grid2.Coords) : Memref sig .scVector .hbm S640x128 .f32 := (zV).slice (zRectK L) (fun _ => rfl)
abbrev shSliceK (L : grid2.Coords) : Memref sig .scVector .shared S640x128 .f32 := (shV).slice (zRectK L) (fun _ => rfl)

omit [FloatOps F] in
theorem iRectK_eq : iRectK L = Rect.part (s := S32x80x128) (a₀ := 0) hdivI (wid (cL L) (jL L)) := by
  unfold iRectK Rect.part Rect.block
  congr 1 <;> funext a
  · rw [k2_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem zRectK_eq : zRectK L = Rect.part (s := S10240x128) (a₀ := 0) hdiv16 (jL L) := by
  unfold zRectK Rect.part Rect.block
  congr 1 <;> funext a
  · rw [k2_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_iTileK : (iTileK L).view.set = iTile (wid (cL L) (jL L)) := by
  show (((View.whole (main_v6_scv : Ref sig .scVector)).slice (iRectK L)).reshape S80x128 squeezes_S1x80x128_S80x128.numel_eq).set = _
  rw [View.set_reshape, View.set_slice, show (iRectK L).set = iTile (wid (cL L) (jL L)) from congrArg (fun r : Rect S32x80x128 => r.set) (iRectK_eq L)]; exact Finset.map_refl
omit [FloatOps F] in
theorem set_zSliceK : (zSliceK L).view.set = zSlice (jL L) := by
  show ((View.whole (main_v8_scv : Ref sig .scVector)).slice (zRectK L)).set = _
  rw [View.set_slice, zRectK_eq]; exact Finset.map_refl
omit [FloatOps F] in
theorem set_shSliceK : (shSliceK L).view.set = zSlice (jL L) := by
  show ((View.whole (cc2_scratch3 : Ref sig .scVector)).slice (zRectK L)).set = _
  rw [View.set_slice, zRectK_eq]; exact Finset.map_refl

omit [FloatOps F] in
theorem pts_iTileK (q : PosShare TreeShare) (f : Buf (Elt F) (iLoc d)) :
    ((iTileK L).view.loc (V d (cV L) (jV L)) ↦[(iTileK L).view.set]{q} f : sProp 𝕄) = iLoc d ↦[iTile (wid (cL L) (jL L))]{q} f := by
  rw [set_iTileK]
omit [FloatOps F] in
theorem pts_zSliceK (q : PosShare TreeShare) (f : Buf (Elt F) (zLoc d)) :
    ((zSliceK L).view.loc (V d (cV L) (jV L)) ↦[(zSliceK L).view.set]{q} f : sProp 𝕄) = zLoc d ↦[zSlice (jL L)]{q} f := by
  rw [set_zSliceK]
omit [FloatOps F] in
theorem pts_shSliceK (q : PosShare TreeShare) (f : Buf (Elt F) (shLoc d (cV L))) :
    ((shSliceK L).view.loc (V d (cV L) (jV L)) ↦[(shSliceK L).view.set]{q} f : sProp 𝕄) = shLoc d (cV L) ↦[zSlice (jL L)]{q} f := by
  rw [set_shSliceK]; rfl
omit [FloatOps F] in
theorem pts_idxV (f : Buf (Elt F) ((V d (cV L) (jV L)).loc cc2_scratch0)) :
    ((idxV).view.loc (V d (cV L) (jV L)) ↦{fullShare} f : sProp 𝕄) = (V d (cV L) (jV L)).loc cc2_scratch0 ↦{fullShare} f := rfl
omit [FloatOps F] in
theorem pts_rowsV (f : Buf (Elt F) ((V d (cV L) (jV L)).loc cc2_scratch1)) :
    ((rowsV).view.loc (V d (cV L) (jV L)) ↦{fullShare} f : sProp 𝕄) = (V d (cV L) (jV L)).loc cc2_scratch1 ↦{fullShare} f := rfl
omit [FloatOps F] in
theorem pts_outV (f : Buf (Elt F) ((V d (cV L) (jV L)).loc cc2_scratch2)) :
    ((outV).view.loc (V d (cV L) (jV L)) ↦{fullShare} f : sProp 𝕄) = (V d (cV L) (jV L)).loc cc2_scratch2 ↦{fullShare} f := rfl

/-! ### The barrier's payloads -/

omit [FloatOps F] in
theorem jL_eq (h : (jV L).val < 16) : (⟨(jV L).val, h⟩ : Fin 16) = jL L := rfl

/-- Before the barrier, the staged slice is its remainder and a read share of it for every tile's round. -/
theorem pays_intro (f : Buf (Elt F) (shLoc d (cV L))) (hf : ZOn Zf (zSlice (jL L)) f) :
    (shLoc d (cV L) ↦[zSlice (jL L)]{fullShare} f : sProp 𝕄)
      ⊢ iprop((shLoc d (cV L) ↦[zSlice (jL L)]{shareDrop fullShare 16} f)
          ∗ bigSep Finset.univ fun j : Fin (grid2.bound 1) => (bRd Zf).payload (bcell d (cV L) (j.castLE hsub2)) 0 (jV L).val) := by
  refine (Transfers.pointsTo_toks_split fullShare 16).trans (sep_mono_right ?_)
  refine bigSep_mono' (F := F) fun j _ => ?_
  show _ ⊢ bPay Zf (bcell d (cV L) (j.castLE hsub2)) (jV L).val
  unfold bPay; dsimp only
  rw [dif_pos (show (jV L).val < 16 from (jV L).isLt)]
  unfold stagedSlice
  iintro H; iexists f; isplitr
  · ipureintro; exact hf
  · iexact H

/-- After it, what the tile's own round collected is the whole shared copy at its read share, z on its rows below 10000. -/
theorem pays_elim : (bigSep ((bRd Zf).duties (bcell d (cV L) (jV L)) 0 \ ∅) fun n => (bRd Zf).payload (bcell d (cV L) (jV L)) 0 n)
    ⊢ (iprop(∃ g : Buf (Elt F) (shLoc d (cV L)), ⌜ZOn Zf Finset.univ g⌝ ∗ shLoc d (cV L) ↦{shareTok fullShare 16 (jL L)} g) : sProp 𝕄) := by
  rw [Finset.sdiff_empty, bRd_duties₀]
  rw [show (Finset.univ : Finset (Fin τ.nSub)).image Fin.val = Finset.univ.map Fin.valEmbedding from (Finset.map_eq_image Fin.valEmbedding _).symm, bigSep_map]
  refine (bigSep_mono' (F := F) (Ψ := fun n : Fin 16 => iprop(∃ f : Buf (Elt F) (shLoc d (cV L)), ⌜ZOn Zf (zSlice n) f⌝ ∗ shLoc d (cV L) ↦[zSlice n]{shareTok fullShare 16 (jL L)} f)) fun n _ => ?_).trans ?_
  · show bPay Zf (bcell d (cV L) (jV L)) n.val ⊢ _
    unfold bPay; dsimp only
    rw [dif_pos (show n.val < 16 from n.isLt)]
    unfold stagedSlice
    exact BI.Entails.refl _
  · refine (rows_join (F := F) (ℓ := shLoc d (cV L)) Finset.univ zSlice (shareTok fullShare 16 (jL L)) (fun s f => ZOn Zf (zSlice s) f) (fun _ => Classical.choice inferInstance) zSlice_disjoint).trans ?_
    rw [zSlice_cover]
    iintro ⟨%g, %hg, Hg⟩
    iexists g; isplitr
    swap; · iexact Hg
    ipureintro
    intro y _
    obtain ⟨s, hs⟩ := Rect.exists_mem_part hdiv16 (emb y)
    obtain ⟨f, hf, hgf⟩ := hg s (Finset.mem_univ s)
    exact (hgf _ hs).trans (hf y hs)

/-- The whole shared copy, as the gathers address it. -/
abbrev shAllK : Memref sig .scVector .shared S10240x128 .f32 :=
  (shV).slice (Rect.unit (s := S10240x128) ![0, 0] S10240x128.size inb_S10240x128_S10240x128_0_0) (fun _ => rfl)
omit [FloatOps F] in
theorem set_shAllK : (shAllK).view.set = Finset.univ := by
  show ((View.whole (cc2_scratch3 : Ref sig .scVector)).slice (Rect.unit (s := S10240x128) ![0, 0] S10240x128.size inb_S10240x128_S10240x128_0_0)).set = _
  rw [View.set_slice]
  ext i
  simp only [Finset.mem_map, Finset.mem_univ, iff_true]
  refine ⟨i, Rect.mem_set_unit.mpr fun a => ?_, rfl⟩
  match a with
  | 0 => exact ⟨Nat.zero_le _, (Nat.zero_add _).symm ▸ (i 0).isLt⟩
  | 1 => exact ⟨Nat.zero_le _, (Nat.zero_add _).symm ▸ (i 1).isLt⟩
omit [FloatOps F] in
theorem pts_shAllK (q : PosShare TreeShare) (f : Buf (Elt F) (shLoc d (cV L))) :
    ((shAllK).view.loc (V d (cV L) (jV L)) ↦[(shAllK).view.set]{q} f : sProp 𝕄) = shLoc d (cV L) ↦{q} f := by
  rw [set_shAllK]; rfl

omit [FloatOps F] in
/-- Index words all below 10000 are in range of the shared copy's rows, read through any offset list. -/
theorem hin_of (off : Fin 2 → ℕ) (inb : ∀ a, off a + S1x64.size a ≤ S80x128.size a)
    (f : Buf (Elt F) ((V d (cV L) (jV L)).loc cc2_scratch0)) (hf : ∀ x, (f x).toNat < 10000) :
    ∀ j, ((offK off inb).view.read (Elt F) f j).toNat < S10240x128.size gathers_S10240x128_S64x128.axis := fun j => by
  rw [show (offK off inb).view.read (Elt F) f j = f ((offK off inb).view.emb j) from (View.read_apply _ _).trans (cast_eq _ _)]
  exact lt_of_lt_of_le (hf _) (by decide)

omit [FloatOps F] in
theorem toEnt {P Q : sProp 𝕄} (h : P ⊢ Q) : Idealize.SL.BI.Entails P Q := h

/-! ### Read shares of the shared copy, one per gather semaphore -/

/-- What is left of a share once the four gather semaphores' read tokens (cells 8 … 11) are split off. -/
def gRest {ℓ : Loc nD τ sig} (R : Finset (Idx ℓ)) (q : PosShare TreeShare) (f : Buf (Elt F) ℓ) : sProp 𝕄 :=
  iprop((ℓ ↦[R]{shareDrop q 12} f) ∗ bigSep (Finset.range 8) (fun i => ℓ ↦[R]{Transfers.shareTokN q i} f))

omit [FloatOps F] in
theorem gtoks {ℓ : Loc nD τ sig} (R : Finset (Idx ℓ)) (q : PosShare TreeShare) (f : Buf (Elt F) ℓ) :
    (ℓ ↦[R]{q} f : sProp 𝕄) ⊣⊢ iprop((ℓ ↦[R]{Transfers.shareTokN q 8} f) ∗ (ℓ ↦[R]{Transfers.shareTokN q 9} f) ∗ (ℓ ↦[R]{Transfers.shareTokN q 10} f)
        ∗ (ℓ ↦[R]{Transfers.shareTokN q 11} f) ∗ gRest R q f) := by
  have h := Transfers.pointsTo_toks_range (ℓ := ℓ) (S := R) (f := f) (Ix := HIx 1) (Name := ℕ) (U := UU) (Lvl := ℕ) q 12
  rw [show (12 : ℕ) = 8 + 1 + 1 + 1 + 1 from rfl, Finset.range_add_one, Finset.range_add_one, Finset.range_add_one, Finset.range_add_one,
    SparseCore.bigSep_insert' (by simp), SparseCore.bigSep_insert' (by simp), SparseCore.bigSep_insert' (by simp), SparseCore.bigSep_insert' (by simp)] at h
  unfold gRest
  constructor
  · refine h.1.trans ?_
    iintro ⟨Hd, H11, H10, H9, H8, Hr⟩
    isplitl [H8]; · iexact H8
    isplitl [H9]; · iexact H9
    isplitl [H10]; · iexact H10
    isplitl [H11]; · iexact H11
    isplitl [Hd]; · iexact Hd
    iexact Hr
  · refine BI.Entails.trans (toEnt (F := F) ?_) h.2
    iintro ⟨H8, H9, H10, H11, Hd, Hr⟩
    isplitl [Hd]; · iexact Hd
    isplitl [H11]; · iexact H11
    isplitl [H10]; · iexact H10
    isplitl [H9]; · iexact H9
    isplitl [H8]; · iexact H8
    iexact Hr

/-! ### A transfer in flight may deliver less -/

omit [FloatOps F] in
theorem Flight_mono {EC : UEmb Counters 𝕄} {c : Thread nD τ} {sm : SemLoc sig} {ι : HIx 1} {N : ℕ} {D D' : sProp 𝕄} (h : D ⊢ D') :
    Transfers.Flight EC c sm ι N D ⊢ Transfers.Flight EC c sm ι N D' := by
  unfold Transfers.Flight
  iintro ⟨⟨%R, HR, %hcap, %hpeek⟩, Hcred⟩
  isplitl [HR]
  · iexists R
    isplitl [HR]; · iexact HR
    isplitr
    · ipureintro; intro K
      refine BI.Entails.trans (toEnt (F := F) ?_) (hcap K)
      iintro ⟨HR, HK⟩
      isplitl [HR]; · iexact HR
      iintro ⟨Hv, HD⟩
      iapply HK
      isplitl [Hv]; · iexact Hv
      iapply h; iexact HD
    · ipureintro; exact hpeek
  · iexact Hcred

/-! ### The pipeline loop's invariant -/

section Inv
variable [FloatOps F]
variable (q : PosShare TreeShare) (g : Buf (Elt F) (shLoc d (cV L))) (fi : Buf (Elt F) ((V d (cV L) (jV L)).loc cc2_scratch0))
  (M0 : Buf (Elt F) (mLoc d)) (O : CellTallies nD τ sig (HIx 1)) (W0 : Waits sig (HIx 1))

/-- Group n of the worker's rows of the result holds its four nodes' values. -/
def GroupSpec (n : ℕ) (Mg : S10240x128.Idx → F .f32) : Prop :=
  v → ∀ hI : ∀ j, (I d j).toNat < 10000, ∀ (m : Fin 320) (ch : Fin 128), m.val / 4 = n →
    Mg (ix2 ⟨320 * (wid (cL L) (jL L)).val + m.val, by omega⟩ ch) = nodeVal Zf (I d) hI (wid (cL L) (jL L)) m ch

/-- The gather of a chunk in flight on gather semaphore b (cell 8 + b): it delivers slot b of the rows scratch written,
    the chunk's offset list and the read token of the shared copy back. -/
def gFlight (b : ℕ) (hb : 8 + b < 20) (row col : ℕ) : sProp 𝕄 :=
  Transfers.Flight countersEmb (V d (cV L) (jV L)) (SemLoc.dma ⟨8 + b, hb⟩) (default : HIx 1) 262144
    iprop(((∃ R : Buf (Elt F) ((V d (cV L) (jV L)).loc cc2_scratch1), (rowsV).view.loc (V d (cV L) (jV L)) ↦[slotSet b]{fullShare} R)
        ∗ ((idxV).view.loc (V d (cV L) (jV L)) ↦[offSet row col]{fullShare} fi))
      ∗ ((shAllK).view.loc (V d (cV L) (jV L)) ↦[(shAllK).view.set]{Transfers.shareTokN q (8 + b)} g))

/-- The write-back of group n in flight on write-back semaphore ob (cell 12 + ob): it delivers the group's rows of the
    result at its nodes' values and half ob of the output scratch back. -/
def wFlight (ob : ℕ) (hob : 12 + ob < 20) (n : ℕ) : sProp 𝕄 :=
  Transfers.Flight countersEmb (V d (cV L) (jV L)) (SemLoc.dma ⟨12 + ob, hob⟩) (default : HIx 1) 16384
    iprop((∃ Mg : Buf (Elt F) (mLoc d), ⌜GroupSpec v Zf I d L n Mg⌝ ∗ (mV).view.loc (V d (cV L) (jV L)) ↦[mGroupSet (wid (cL L) (jL L)) n]{fullShare} Mg)
      ∗ ∃ fo : Buf (Elt F) ((V d (cV L) (jV L)).loc cc2_scratch2), (outV).view.loc (V d (cV L) (jV L)) ↦[outSet ob]{fullShare} fo)

/-- The gathers' side before trip t: chunks 4 t, 4 t + 1, 4 t + 2 in flight on slots and semaphores 0, 1, 2, the rest of the
    rows and index scratches held; past the last trip, nothing in flight. -/
def gPart (t : ℕ) : sProp 𝕄 :=
  if t < 40 then
    iprop(gFlight d L q g fi 0 (by decide) (2 * t) 0 ∗ gFlight d L q g fi 1 (by decide) (2 * t) 64 ∗ gFlight d L q g fi 2 (by decide) (2 * t + 1) 0
      ∗ (∃ R : Buf (Elt F) ((V d (cV L) (jV L)).loc cc2_scratch1), (rowsV).view.loc (V d (cV L) (jV L)) ↦[slotSet 3]{fullShare} R)
      ∗ ((idxV).view.loc (V d (cV L) (jV L)) ↦[((Finset.univ \ offSet (2 * t) 0) \ offSet (2 * t) 64) \ offSet (2 * t + 1) 0]{fullShare} fi)
      ∗ ((shAllK).view.loc (V d (cV L) (jV L)) ↦[(shAllK).view.set]{Transfers.shareTokN q 11} g)
      ∗ semVal (V d (cV L) (jV L), SemLoc.dma cc2_scratch7.sem) 0)
  else
    iprop((∃ R : Buf (Elt F) ((V d (cV L) (jV L)).loc cc2_scratch1), (rowsV).view.loc (V d (cV L) (jV L)) ↦{fullShare} R)
      ∗ ((idxV).view.loc (V d (cV L) (jV L)) ↦{fullShare} fi)
      ∗ ((shAllK).view.loc (V d (cV L) (jV L)) ↦[(shAllK).view.set]{Transfers.shareTokN q 8} g)
      ∗ ((shAllK).view.loc (V d (cV L) (jV L)) ↦[(shAllK).view.set]{Transfers.shareTokN q 9} g)
      ∗ ((shAllK).view.loc (V d (cV L) (jV L)) ↦[(shAllK).view.set]{Transfers.shareTokN q 10} g)
      ∗ ((shAllK).view.loc (V d (cV L) (jV L)) ↦[(shAllK).view.set]{Transfers.shareTokN q 11} g)
      ∗ semVal (V d (cV L) (jV L), SemLoc.dma cc2_scratch4.sem) 0 ∗ semVal (V d (cV L) (jV L), SemLoc.dma cc2_scratch5.sem) 0
      ∗ semVal (V d (cV L) (jV L), SemLoc.dma cc2_scratch6.sem) 0 ∗ semVal (V d (cV L) (jV L), SemLoc.dma cc2_scratch7.sem) 0)

/-- The write-backs' side before trip t: groups below 2 t - 2 written, groups 2 t - 2 and 2 t - 1 in flight, the rest of
    the worker's rows of the result as they were. -/
def wPart (t : ℕ) : sProp 𝕄 :=
  iprop((bigSep (Finset.range (2 * t - 2)) fun n => iprop(∃ Mg : Buf (Elt F) (mLoc d), ⌜GroupSpec v Zf I d L n Mg⌝ ∗ (mV).view.loc (V d (cV L) (jV L)) ↦[mGroupSet (wid (cL L) (jL L)) n]{fullShare} Mg))
    ∗ (bigSep (Finset.Ico (2 * t) 80) fun n => (mV).view.loc (V d (cV L) (jV L)) ↦[mGroupSet (wid (cL L) (jL L)) n]{fullShare} M0)
    ∗ (if t = 0 then
        iprop((∃ fo : Buf (Elt F) ((V d (cV L) (jV L)).loc cc2_scratch2), (outV).view.loc (V d (cV L) (jV L)) ↦{fullShare} fo)
          ∗ semVal (V d (cV L) (jV L), SemLoc.dma cc2_scratch8.sem) 0 ∗ semVal (V d (cV L) (jV L), SemLoc.dma cc2_scratch9.sem) 0)
      else iprop(wFlight v Zf I d L 0 (by decide) (2 * t - 2) ∗ wFlight v Zf I d L 1 (by decide) (2 * t - 1))))

/-- The loop's invariant before trip t. -/
def inv (t : ℕ) (_ : PUnit) : sProp 𝕄 :=
  iprop(Transfers.MayWaits (V d (cV L) (jV L)) (default : HIx 1) O
    ∗ gPart d L q g fi t ∗ wPart v Zf I d L M0 t
    ∗ ∃ W', ⌜∀ p ∈ W', p ∈ W0 ∨ p.2 = none⌝ ∗ owes (V d (cV L) (jV L)) O W')

end Inv

section InvEnd
variable [FloatOps F]
variable (q : PosShare TreeShare) (g : Buf (Elt F) (shLoc d (cV L))) (fi : Buf (Elt F) ((V d (cV L) (jV L)).loc cc2_scratch0))
  (M0 : Buf (Elt F) (mLoc d)) (O : CellTallies nD τ sig (HIx 1)) (W0 : Waits sig (HIx 1))

/-- The invariant past the last trip, spelt out. -/
def invEnd : sProp 𝕄 :=
  iprop(Transfers.MayWaits (V d (cV L) (jV L)) (default : HIx 1) O
    ∗ ((∃ R : Buf (Elt F) ((V d (cV L) (jV L)).loc cc2_scratch1), (rowsV).view.loc (V d (cV L) (jV L)) ↦{fullShare} R)
      ∗ ((idxV).view.loc (V d (cV L) (jV L)) ↦{fullShare} fi)
      ∗ ((shAllK).view.loc (V d (cV L) (jV L)) ↦[(shAllK).view.set]{Transfers.shareTokN q 8} g)
      ∗ ((shAllK).view.loc (V d (cV L) (jV L)) ↦[(shAllK).view.set]{Transfers.shareTokN q 9} g)
      ∗ ((shAllK).view.loc (V d (cV L) (jV L)) ↦[(shAllK).view.set]{Transfers.shareTokN q 10} g)
      ∗ ((shAllK).view.loc (V d (cV L) (jV L)) ↦[(shAllK).view.set]{Transfers.shareTokN q 11} g)
      ∗ semVal (V d (cV L) (jV L), SemLoc.dma cc2_scratch4.sem) 0 ∗ semVal (V d (cV L) (jV L), SemLoc.dma cc2_scratch5.sem) 0
      ∗ semVal (V d (cV L) (jV L), SemLoc.dma cc2_scratch6.sem) 0 ∗ semVal (V d (cV L) (jV L), SemLoc.dma cc2_scratch7.sem) 0)
    ∗ ((bigSep (Finset.range 78) fun n => iprop(∃ Mg : Buf (Elt F) (mLoc d), ⌜GroupSpec v Zf I d L n Mg⌝ ∗ (mV).view.loc (V d (cV L) (jV L)) ↦[mGroupSet (wid (cL L) (jL L)) n]{fullShare} Mg))
      ∗ (bigSep (Finset.Ico 80 80) fun n => (mV).view.loc (V d (cV L) (jV L)) ↦[mGroupSet (wid (cL L) (jL L)) n]{fullShare} M0)
      ∗ wFlight v Zf I d L 0 (by decide) 78 ∗ wFlight v Zf I d L 1 (by decide) 79)
    ∗ ∃ W', ⌜∀ p ∈ W', p ∈ W0 ∨ p.2 = none⌝ ∗ owes (V d (cV L) (jV L)) O W')

theorem inv_end (a : PUnit) : inv v Zf I d L q g fi M0 O W0 40 a ⊢ invEnd v Zf I d L q g fi M0 O W0 := by
  unfold inv gPart wPart invEnd
  rw [if_neg (by decide), if_neg (by decide)]

end InvEnd

/-- What a gather delivers, with the slot's contents forgotten and the slices named as index sets. -/
theorem gDeliver (b : ℕ) (inbS : ∀ a, (![b, 0, 0] : Fin 3 → ℕ) a + S1x64x128.size a ≤ S4x64x128.size a)
    (off : Fin 2 → ℕ) (inbO : ∀ a, off a + S1x64.size a ≤ S80x128.size a)
    (X : Buf (Elt F) ((V d (cV L) (jV L)).loc cc2_scratch1)) (fi : Buf (Elt F) ((V d (cV L) (jV L)).loc cc2_scratch0))
    (q' : PosShare TreeShare) (g : Buf (Elt F) (shLoc d (cV L))) :
    iprop((((rowsV).view.loc (V d (cV L) (jV L)) ↦[(((rowsV).slice (Rect.unit (s := S4x64x128) ![b, 0, 0] S1x64x128.size inbS) (fun _ => rfl)).squeeze S64x128 squeezes_S1x64x128_S64x128).view.set]{fullShare} X)
          ∗ ((idxV).view.loc (V d (cV L) (jV L)) ↦[(offK off inbO).view.set]{fullShare} fi))
        ∗ ((shAllK).view.loc (V d (cV L) (jV L)) ↦[(shAllK).view.set]{q'} g))
      ⊢ (iprop(((∃ R : Buf (Elt F) ((V d (cV L) (jV L)).loc cc2_scratch1), (rowsV).view.loc (V d (cV L) (jV L)) ↦[slotSet b]{fullShare} R)
          ∗ ((idxV).view.loc (V d (cV L) (jV L)) ↦[offSet (off 0) (off 1)]{fullShare} fi))
        ∗ ((shAllK).view.loc (V d (cV L) (jV L)) ↦[(shAllK).view.set]{q'} g)) : sProp 𝕄) := by
  rw [set_slot, set_offK]
  iintro ⟨⟨H1, H2⟩, H3⟩
  isplitl [H1 H2]
  · isplitl [H1]; · iexists X; iexact H1
    iexact H2
  · iexact H3

/-! ### The groups join into the worker's rows; the halves of the output scratch into it -/

section Joins
variable [FloatOps F]

/-- The eighty groups, each at its four nodes' values, are the worker's rows at its nodes' values. -/
theorem m_join (M0 : Buf (Elt F) (mLoc d)) :
    (bigSep (Finset.range 80) fun n => iprop(∃ Mg : Buf (Elt F) (mLoc d), ⌜GroupSpec v Zf I d L n Mg⌝
        ∗ (mV).view.loc (V d (cV L) (jV L)) ↦[mGroupSet (wid (cL L) (jL L)) n]{fullShare} Mg))
      ⊢ (iprop(∃ Mf : Buf (Elt F) (mLoc d), ⌜TileSpec v Zf (I d) (wid (cL L) (jL L)) Mf⌝ ∗ mLoc d ↦[mTile (wid (cL L) (jL L))]{fullShare} Mf) : sProp 𝕄) := by
  refine (rows_join (F := F) (ℓ := mLoc d) (Finset.range 80) (mGroupSet (wid (cL L) (jL L))) fullShare (fun n Mg => GroupSpec v Zf I d L n Mg) M0
    (mGroup_disjoint _ _)).trans ?_
  rw [mGroup_cover]
  iintro ⟨%g, %hg, Hg⟩
  iexists g; isplitr
  swap; · iexact Hg
  ipureintro
  intro hv hI n ch
  obtain ⟨Mg, hMg, hgm⟩ := hg (n.val / 4) (Finset.mem_range.mpr (by omega))
  refine (hgm _ ?_).trans (hMg hv hI n ch rfl)
  simp only [mGroupSet, Finset.mem_filter, Finset.mem_univ, true_and]
  show 320 * (wid (cL L) (jL L)).val + 4 * (n.val / 4) ≤ 320 * (wid (cL L) (jL L)).val + n.val ∧ 320 * (wid (cL L) (jL L)).val + n.val < 320 * (wid (cL L) (jL L)).val + 4 * (n.val / 4) + 4
  omega

omit [FloatOps F] in
theorem out_join : iprop((∃ fo : Buf (Elt F) ((V d (cV L) (jV L)).loc cc2_scratch2), (outV).view.loc (V d (cV L) (jV L)) ↦[outSet 0]{fullShare} fo)
      ∗ (∃ fo : Buf (Elt F) ((V d (cV L) (jV L)).loc cc2_scratch2), (outV).view.loc (V d (cV L) (jV L)) ↦[outSet 1]{fullShare} fo))
    ⊢ (iprop(∃ f, (V d (cV L) (jV L)).loc cc2_scratch2 ↦{fullShare} f) : sProp 𝕄) := by
  iintro ⟨⟨%f0, H0⟩, ⟨%f1, H1⟩⟩
  ihave H := (rows_join (F := F) (ℓ := (V d (cV L) (jV L)).loc cc2_scratch2) Finset.univ (fun c : Fin 2 => outSet c.val) fullShare (fun _ _ => True) f0 outSet_disjoint) $$ [H0 H1]
  · rw [bigSep_univ_two]
    isplitl [H0]
    · iexists f0; isplitr; · ipureintro; trivial
      iexact H0
    · iexists f1; isplitr; · ipureintro; trivial
      iexact H1
  icases H with ⟨%f, -, Hf⟩
  rw [outSet_cover]
  iexists f; iexact Hf

end Joins

end Tile

end Cert.Kernel.Hand

end
-- ==== Proof.KB.TileGeom.lean ====
/-
  The index sets the vector-subcore task's pipeline loop addresses at a trip: each offset list of the index scratch and each
  group of four rows of the result, as the kernel computes their offsets, are the sets the loop's invariant names.
-/
import proofs.«208586_g21955872817707_cont_8to1_688_77_alg».proof.Proof.KB.TileSets
import proofs.«208586_g21955872817707_cont_8to1_688_77_alg».proof.Proof.Gen.Kernel

noncomputable section

namespace Cert.Kernel.Hand

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI

variable {F : FTy → Type}

local notation "𝕄" => MT nD τ sig (HIx 1) (Elt F) ℕ UU ℕ

local notation "mV" => (Memref.whole Cert.Kernel.main_v12_scv : Memref Cert.Kernel.sig Kind.scVector Space.hbm Cert.Kernel.S10240x128 EltTy.f32)

/-- The worker number of the tile at grid point L: 16 times its core's number plus its subcore's. -/
local notation "wL(" L ")" => wid (Fin.cast (rfl : grid2.bound 0 = 2) (L 0)) (Fin.cast bound_one (L 1))

/-! ## A buffer held on a set, the set renamed -/

/-- A buffer held on a set is held on any set equal to it. (To rename the set inside an assertion: the equations below
    are between sets whose type names the slice's view, which a rewrite under the assertion does not accept.) -/
theorem pts_set_congr {ℓ : Loc nD τ sig} {S S' : Finset (Idx ℓ)} (h : S = S') (q : PosShare TreeShare) (f : Buf (Elt F) ℓ) :
    (ℓ ↦[S]{q} f : sProp 𝕄) = ℓ ↦[S']{q} f := by subst h; rfl

/-! ## The conditions of the trip's guarded regions, as bounds on the trip -/

theorem cond1_iff : ∀ k : Fin k2_t1_loop.trips, k2_cond1 k = 1#1 ↔ 1 ≤ k.val := by decide +kernel
theorem cond2_all : ∀ k : Fin k2_t1_loop.trips, k2_cond2 k = 1#1 := by decide +kernel
theorem cond3_iff : ∀ k : Fin k2_t1_loop.trips, k2_cond3 k = 1#1 ↔ k.val < 39 := by decide +kernel
theorem cond4_iff : ∀ k : Fin k2_t1_loop.trips, k2_cond4 k = 1#1 ↔ 1 ≤ k.val := by decide +kernel
theorem cond5_iff : ∀ k : Fin k2_t1_loop.trips, k2_cond5 k = 1#1 ↔ k.val < 39 := by decide +kernel
theorem cond6_iff : ∀ k : Fin k2_t1_loop.trips, k2_cond6 k = 1#1 ↔ k.val < 39 := by decide +kernel

/-! ## The offset lists: rows 2 k … 2 k + 3 of the index scratch, halves 0 and 64 -/

/-- The list of the gather enqueued first in a trip: row 2 k + 1, words 64 … 127. -/
theorem set_off4 (k : Fin k2_t1_loop.trips) (h : k2_cond2 k = 1#1) :
    (offK (k2_off4 k) (k2_off4_inb k h)).view.set = offSet (2 * k.val + 1) 64 := by
  have e0 : k2_off4 k 0 = 2 * k.val + 1 := by rw [k2_off4_eq]; rfl
  have e1 : k2_off4 k 1 = 64 := by rw [k2_off4_eq]; rfl
  rw [set_offK, e0, e1]
/-- Row 2 k + 2, words 0 … 63. -/
theorem set_off22 (k : Fin k2_t1_loop.trips) (h : k2_cond3 k = 1#1) :
    (offK (k2_off22 k) (k2_off22_inb k h)).view.set = offSet (2 * k.val + 2) 0 := by
  have e0 : k2_off22 k 0 = 2 * k.val + 2 := by rw [k2_off22_eq]; rfl
  have e1 : k2_off22 k 1 = 0 := by rw [k2_off22_eq]; rfl
  rw [set_offK, e0, e1]
/-- Row 2 k + 2, words 64 … 127. -/
theorem set_off42 (k : Fin k2_t1_loop.trips) (h : k2_cond5 k = 1#1) :
    (offK (k2_off42 k) (k2_off42_inb k h)).view.set = offSet (2 * k.val + 2) 64 := by
  have e0 : k2_off42 k 0 = 2 * k.val + 2 := by rw [k2_off42_eq]; rfl
  have e1 : k2_off42 k 1 = 64 := by rw [k2_off42_eq]; rfl
  rw [set_offK, e0, e1]
/-- Row 2 k + 3, words 0 … 63. -/
theorem set_off59 (k : Fin k2_t1_loop.trips) (h : k2_cond6 k = 1#1) :
    (offK (k2_off59 k) (k2_off59_inb k h)).view.set = offSet (2 * k.val + 3) 0 := by
  have e0 : k2_off59 k 0 = 2 * k.val + 3 := by rw [k2_off59_eq]; rfl
  have e1 : k2_off59 k 1 = 0 := by rw [k2_off59_eq]; rfl
  rw [set_offK, e0, e1]
/-- The lists of the gathers waited for: row 2 k + r, words 0 … 63 and words 64 … 127. -/
theorem set_off5 (k : Fin k2_t1_loop.trips) (r : Fin 2) :
    (offK (k2_off5 k (BitVec.ofNat 32 r.val)) (k2_off5_inb k r)).view.set = offSet (2 * k.val + r.val) 0 := by
  have e0 : k2_off5 k (BitVec.ofNat 32 r.val) 0 = 2 * k.val + r.val := by rw [k2_off5_eq]; rfl
  have e1 : k2_off5 k (BitVec.ofNat 32 r.val) 1 = 0 := by rw [k2_off5_eq]; rfl
  rw [set_offK, e0, e1]

theorem set_off23 (k : Fin k2_t1_loop.trips) (r : Fin 2) :
    (offK (k2_off23 k (BitVec.ofNat 32 r.val)) (k2_off23_inb k r)).view.set = offSet (2 * k.val + r.val) 64 := by
  have e0 : k2_off23 k (BitVec.ofNat 32 r.val) 0 = 2 * k.val + r.val := by rw [k2_off23_eq]; rfl
  have e1 : k2_off23 k (BitVec.ofNat 32 r.val) 1 = 64 := by rw [k2_off23_eq]; rfl
  rw [set_offK, e0, e1]

/-! ## The groups of the result: four rows from row 320 w + 4 n of worker w -/

/-- A four-row slice of the result from row 320 w + 4 n is group n of worker w. -/
theorem set_mSlice (off : Fin 2 → ℕ) (inb : ∀ a, off a + S4x128.size a ≤ S10240x128.size a) (w : Fin 32) (n : ℕ)
    (h0 : off 0 = 320 * w.val + 4 * n) (h1 : off 1 = 0) :
    ((mV).slice (Rect.unit (s := S10240x128) off S4x128.size inb) (fun _ => rfl)).view.set = mGroupSet w n := by
  show ((View.whole (main_v12_scv : Ref sig .scVector)).slice (Rect.unit (s := S10240x128) off S4x128.size inb)).set = _
  rw [View.set_slice]
  refine (Finset.map_refl (s := (Rect.unit (s := S10240x128) off S4x128.size inb).set)).trans ?_
  ext y
  rw [Rect.mem_set_unit]
  simp only [mGroupSet, Finset.mem_filter, Finset.mem_univ, true_and]
  have hy1 : (y 1).val < 128 := (y 1).isLt
  constructor
  · intro h
    have h0' : off 0 ≤ (y 0).val ∧ (y 0).val < off 0 + 4 := h 0
    omega
  · intro h a
    match a with
    | 0 => exact ⟨by show off 0 ≤ (y 0).val; omega, by show (y 0).val < off 0 + 4; omega⟩
    | 1 => exact ⟨by show off 1 ≤ (y 1).val; omega, by show (y 1).val < off 1 + 128; omega⟩

/-- The worker's number, spelt out. -/
theorem wL_val (L : grid2.Coords) : wL(L).val = 16 * (L 0).val + (L 1).val := rfl

/-- The offsets of the write-backs waited for in a trip, in closed form: they are computed with a subtraction, so the
    form holds from the second trip on. -/
theorem k2_off3_eq : ∀ (i : grid2.Coords) (k : Fin k2_t1_loop.trips), k2_cond1 k = 1#1 →
    k2_off3 i k = ![5120 * (i 0).val + 320 * (i 1).val + 8 * k.val - 8, 0] := by decide +kernel
theorem k2_off41_eq : ∀ (i : grid2.Coords) (k : Fin k2_t1_loop.trips), k2_cond4 k = 1#1 →
    k2_off41 i k = ![5120 * (i 0).val + 320 * (i 1).val + 8 * k.val - 4, 0] := by decide +kernel

/-- The group written back in a trip's half r: group 2 k + r. -/
theorem set_mGroup40 (L : grid2.Coords) (k : Fin k2_t1_loop.trips) (r : Fin 2) :
    ((mV).slice (Rect.unit (s := S10240x128) (k2_off40 L k (BitVec.ofNat 32 r.val)) S4x128.size (k2_off40_inb L k r)) (fun _ => rfl)).view.set
      = mGroupSet wL(L) (2 * k.val + r.val) :=
  set_mSlice _ _ _ _ (by rw [k2_off40_eq, wL_val]; show 5120 * (L 0).val + 320 * (L 1).val + 8 * k.val + 4 * r.val = _; omega) (by rw [k2_off40_eq]; rfl)
/-- The same at the two halves as the trip spells them. -/
theorem set_mGroup40_0 (L : grid2.Coords) (k : Fin k2_t1_loop.trips) :
    ((mV).slice (Rect.unit (s := S10240x128) (k2_off40 L k 0#32) S4x128.size (k2_off40_inb L k 0)) (fun _ => rfl)).view.set
      = mGroupSet wL(L) (2 * k.val) := set_mGroup40 L k 0
theorem set_mGroup40_1 (L : grid2.Coords) (k : Fin k2_t1_loop.trips) :
    ((mV).slice (Rect.unit (s := S10240x128) (k2_off40 L k 1#32) S4x128.size (k2_off40_inb L k 1)) (fun _ => rfl)).view.set
      = mGroupSet wL(L) (2 * k.val + 1) := set_mGroup40 L k 1

/-- The write-backs a trip waits for (from the second trip on): groups 2 k - 2 and 2 k - 1. -/
theorem set_mGroup3 (L : grid2.Coords) (k : Fin k2_t1_loop.trips) (h : k2_cond1 k = 1#1) :
    ((mV).slice (Rect.unit (s := S10240x128) (k2_off3 L k) S4x128.size (k2_off3_inb L k h)) (fun _ => rfl)).view.set
      = mGroupSet wL(L) (2 * k.val - 2) := by
  have hk := (cond1_iff k).mp h
  exact set_mSlice _ _ _ _ (by rw [k2_off3_eq L k h, wL_val]; show 5120 * (L 0).val + 320 * (L 1).val + 8 * k.val - 8 = _; omega) (by rw [k2_off3_eq L k h]; rfl)
theorem set_mGroup41 (L : grid2.Coords) (k : Fin k2_t1_loop.trips) (h : k2_cond4 k = 1#1) :
    ((mV).slice (Rect.unit (s := S10240x128) (k2_off41 L k) S4x128.size (k2_off41_inb L k h)) (fun _ => rfl)).view.set
      = mGroupSet wL(L) (2 * k.val - 1) := by
  have hk := (cond4_iff k).mp h
  exact set_mSlice _ _ _ _ (by rw [k2_off41_eq L k h, wL_val]; show 5120 * (L 0).val + 320 * (L 1).val + 8 * k.val - 4 = _; omega) (by rw [k2_off41_eq L k h]; rfl)

/-- The last two write-backs, waited for after the loop: groups 78 and 79. -/
theorem set_mGroup76 (L : grid2.Coords) (r : Fin 2) :
    ((mV).slice (Rect.unit (s := S10240x128) (k2_off76 L (BitVec.ofNat 32 (312 + 4 * r.val))) S4x128.size (k2_off76_inb L r)) (fun _ => rfl)).view.set
      = mGroupSet wL(L) (78 + r.val) :=
  set_mSlice _ _ _ _ (by rw [k2_off76_eq, wL_val]; show 5120 * (L 0).val + 320 * (L 1).val + 4 * r.val + 312 = _; omega) (by rw [k2_off76_eq]; rfl)
theorem set_mGroup76_0 (L : grid2.Coords) :
    ((mV).slice (Rect.unit (s := S10240x128) (k2_off76 L 312#32) S4x128.size (k2_off76_inb L 0)) (fun _ => rfl)).view.set
      = mGroupSet wL(L) 78 := set_mGroup76 L 0
theorem set_mGroup76_1 (L : grid2.Coords) :
    ((mV).slice (Rect.unit (s := S10240x128) (k2_off76 L 316#32) S4x128.size (k2_off76_inb L 1)) (fun _ => rfl)).view.set
      = mGroupSet wL(L) 79 := set_mGroup76 L 1

end Cert.Kernel.Hand

end
-- ==== Proof.KB.TileGeomOut.lean ====
/-
  The output scratch of the vector-subcore task as sets of indices: each half as the task addresses it, the two halves
  complementary, and each sixteen-lane box of a half inside it.
-/
import proofs.«208586_g21955872817707_cont_8to1_688_77_alg».proof.Proof.KB.TileSets

noncomputable section

namespace Cert.Kernel.Hand

open Cert.Kernel Cert.Kernel.Gen

open Idealize.ShloMosaic
open Idealize.ShloMosaic.SparseCore (S V T)

local notation "outV" => (Memref.whole Cert.Kernel.cc2_scratch2 : Memref Cert.Kernel.sig Kind.scVector Space.vmem Cert.Kernel.S2x4x128 EltTy.f32)

/-- Half ob of the output scratch as the task addresses it: the half's slice, its unit axis dropped. -/
abbrev outK0 : Memref sig .scVector .vmem S4x128 .f32 :=
  ((outV).slice (Rect.unit (s := S2x4x128) ![0, 0, 0] S1x4x128.size inb_S2x4x128_S1x4x128_0_0_0) (fun _ => rfl)).squeeze S4x128 squeezes_S1x4x128_S4x128
abbrev outK1 : Memref sig .scVector .vmem S4x128 .f32 :=
  ((outV).slice (Rect.unit (s := S2x4x128) ![1, 0, 0] S1x4x128.size inb_S2x4x128_S1x4x128_1_0_0) (fun _ => rfl)).squeeze S4x128 squeezes_S1x4x128_S4x128

/-- The half's slice, squeezed, addresses the indices of half ob. -/
theorem set_outK (ob : ℕ) (inb : ∀ a, (![ob, 0, 0] : Fin 3 → ℕ) a + S1x4x128.size a ≤ S2x4x128.size a) :
    (((outV).slice (Rect.unit (s := S2x4x128) ![ob, 0, 0] S1x4x128.size inb) (fun _ => rfl)).squeeze S4x128 squeezes_S1x4x128_S4x128).view.set = outSet ob := by
  show (((View.whole (cc2_scratch2 : Ref sig .scVector)).slice (Rect.unit (s := S2x4x128) ![ob, 0, 0] S1x4x128.size inb)).reshape S4x128 squeezes_S1x4x128_S4x128.numel_eq).set = _
  rw [View.set_reshape, View.set_slice]
  refine (Finset.map_refl (s := (Rect.unit (s := S2x4x128) ![ob, 0, 0] S1x4x128.size inb).set)).trans ?_
  ext y
  rw [Rect.mem_set_unit]
  simp only [outSet, Finset.mem_filter, Finset.mem_univ, true_and]
  have hy1 : (y 1).val < 4 := (y 1).isLt
  have hy2 : (y 2).val < 128 := (y 2).isLt
  constructor
  · intro h
    have h0 : ob ≤ (y 0).val ∧ (y 0).val < ob + 1 := h 0
    omega
  · intro h a
    match a with
    | 0 => exact ⟨by show ob ≤ (y 0).val; omega, by show (y 0).val < ob + 1; omega⟩
    | 1 => exact ⟨by show 0 ≤ (y 1).val; omega, by show (y 1).val < 0 + 4; omega⟩
    | 2 => exact ⟨by show 0 ≤ (y 2).val; omega, by show (y 2).val < 0 + 128; omega⟩
theorem set_outK0 : (outK0).view.set = outSet 0 := set_outK 0 _
theorem set_outK1 : (outK1).view.set = outSet 1 := set_outK 1 _

/-- The two halves are each other's complement. -/
theorem univ_sdiff_outSet1 : (Finset.univ : Finset S2x4x128.Idx) \ outSet 1 = outSet 0 := by
  ext y
  have h2 : (y 0).val < 2 := (y 0).isLt
  simp only [outSet, Finset.mem_sdiff, Finset.mem_filter, Finset.mem_univ, true_and]
  omega
theorem univ_sdiff_outSet0 : (Finset.univ : Finset S2x4x128.Idx) \ outSet 0 = outSet 1 := by
  ext y
  have h2 : (y 0).val < 2 := (y 0).isLt
  simp only [outSet, Finset.mem_sdiff, Finset.mem_filter, Finset.mem_univ, true_and]
  omega

/-- A sixteen-lane box of half ob, addressed through the whole scratch, lies in the half. -/
theorem access_subset_outSet (ob r c : ℕ) (inb : ∀ a, (![ob, r, c] : Fin 3 → ℕ) a + S1x1x16.size a ≤ S2x4x128.size a) :
    ((outV).access (Rect.unit (s := S2x4x128) ![ob, r, c] S1x1x16.size inb)).set ⊆ outSet ob := by
  show ((View.whole (cc2_scratch2 : Ref sig .scVector)).slice (Rect.unit (s := S2x4x128) ![ob, r, c] S1x1x16.size inb)).set ⊆ _
  rw [View.set_slice]
  intro y hy
  have hy' : y ∈ (Rect.unit (s := S2x4x128) ![ob, r, c] S1x1x16.size inb).set :=
    (Finset.map_refl (s := (Rect.unit (s := S2x4x128) ![ob, r, c] S1x1x16.size inb).set)) ▸ hy
  rw [Rect.mem_set_unit] at hy'
  have h0 : ob ≤ (y 0).val ∧ (y 0).val < ob + 1 := hy' 0
  simp only [outSet, Finset.mem_filter, Finset.mem_univ, true_and]
  omega

/-- The same as an inclusion of rectangles of the whole scratch: the box within the half's rectangle. -/
theorem setOn_box_subset_half (ob r c : ℕ) (inb : ∀ a, (![ob, r, c] : Fin 3 → ℕ) a + S1x1x16.size a ≤ S2x4x128.size a)
    (inbH : ∀ a, (![ob, 0, 0] : Fin 3 → ℕ) a + S1x4x128.size a ≤ S2x4x128.size a) :
    (outV).view.setOn (Rect.unit (s := S2x4x128) ![ob, r, c] S1x1x16.size inb).set
      ⊆ (outV).view.setOn (Rect.unit (s := S2x4x128) ![ob, 0, 0] S1x4x128.size inbH).set := by
  refine Finset.map_subset_map.mpr fun y hy => ?_
  rw [Rect.mem_set_unit] at hy ⊢
  have hy1 : (y 1).val < 4 := (y 1).isLt
  have hy2 : (y 2).val < 128 := (y 2).isLt
  have h0 : ob ≤ (y 0).val ∧ (y 0).val < ob + 1 := hy 0
  intro a
  match a with
  | 0 => exact ⟨by show ob ≤ (y 0).val; omega, by show (y 0).val < ob + 1; omega⟩
  | 1 => exact ⟨by show 0 ≤ (y 1).val; omega, by show (y 1).val < 0 + 4; omega⟩
  | 2 => exact ⟨by show 0 ≤ (y 2).val; omega, by show (y 2).val < 0 + 128; omega⟩

end Cert.Kernel.Hand

end
-- ==== Proof.KB.TileJoin.lean ====
/-
  The reassemblies at the end of a trip of the vector-subcore task's pipeline loop: the index scratch from the four offset
  lists a trip gets back and what the next trip's lists left of it; the result's groups still to write, two fewer; the
  groups written, two more.
-/
import proofs.«208586_g21955872817707_cont_8to1_688_77_alg».proof.Proof.KB.TileSets

noncomputable section

namespace Cert.Kernel.Hand

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ
local notation "idxV" => (Memref.whole Cert.Kernel.cc2_scratch0 : Memref Cert.Kernel.sig Kind.scVector Space.vmem Cert.Kernel.S80x128 EltTy.i32)

/-- A library bi-entailment's direction, in the proof mode's syntax. -/
theorem entOf {P Q : sProp 𝕄} (h : Idealize.SL.BI.Entails P Q) : P ⊢ Q := h
/-- And back. -/
theorem toEntails {P Q : sProp 𝕄} (h : P ⊢ Q) : Idealize.SL.BI.Entails P Q := h

/-! ## Five pieces of one buffer joined -/

/-- Five pairwise disjoint sets of a buffer's elements, each held at the same contents, are their union held. -/
theorem pts_join5 {ℓ : Loc nD τ sig} {A B C D R T : Finset (Idx ℓ)} (hT : T = A ∪ B ∪ C ∪ D ∪ R)
    (hAB : Disjoint A B) (hC : Disjoint (A ∪ B) C) (hD : Disjoint (A ∪ B ∪ C) D) (hR : Disjoint (A ∪ B ∪ C ∪ D) R)
    (q : PosShare TreeShare) (f : Buf (Elt F) ℓ) :
    iprop((ℓ ↦[A]{q} f) ∗ (ℓ ↦[B]{q} f) ∗ (ℓ ↦[C]{q} f) ∗ (ℓ ↦[D]{q} f) ∗ (ℓ ↦[R]{q} f)) ⊢ (ℓ ↦[T]{q} f : sProp 𝕄) := by
  subst hT
  iintro ⟨HA, HB, HC, HD, HR⟩
  iapply (entOf (pointsTo_union hR).2)
  isplitl [HA HB HC HD]
  · iapply (entOf (pointsTo_union hD).2)
    isplitl [HA HB HC]
    · iapply (entOf (pointsTo_union hC).2)
      isplitl [HA HB]
      · iapply (entOf (pointsTo_union hAB).2)
        isplitl [HA]
        · iexact HA
        · iexact HB
      · iexact HC
    · iexact HD
  · iexact HR

/-! ## The index scratch at the end of a trip -/

theorem mem_offSet {row col : ℕ} {y : S80x128.Idx} : y ∈ offSet row col ↔ (y 0).val = row ∧ col ≤ (y 1).val ∧ (y 1).val < col + 64 := by
  simp only [offSet, Finset.mem_filter, Finset.mem_univ, _root_.true_and]

/-- Two offset lists are disjoint when their rows differ, or their halves. -/
theorem offSet_disjoint {r c r' c' : ℕ} (h : r ≠ r' ∨ c + 64 ≤ c' ∨ c' + 64 ≤ c) : Disjoint (offSet r c) (offSet r' c') := by
  refine Finset.disjoint_left.mpr fun y h1 h2 => ?_
  rw [mem_offSet] at h1 h2
  omega

/-- The four lists of rows 2 k and 2 k + 1. -/
abbrev lists4 (k : ℕ) : Finset S80x128.Idx := offSet (2 * k) 0 ∪ offSet (2 * k) 64 ∪ offSet (2 * k + 1) 0 ∪ offSet (2 * k + 1) 64

theorem lists_disjoint_AB (k : ℕ) : Disjoint (offSet (2 * k) 0) (offSet (2 * k) 64) := offSet_disjoint (Or.inr (Or.inl (by omega)))
theorem lists_disjoint_C (k : ℕ) : Disjoint (offSet (2 * k) 0 ∪ offSet (2 * k) 64) (offSet (2 * k + 1) 0) :=
  Finset.disjoint_union_left.mpr ⟨offSet_disjoint (Or.inl (by omega)), offSet_disjoint (Or.inl (by omega))⟩
theorem lists_disjoint_D (k : ℕ) : Disjoint (offSet (2 * k) 0 ∪ offSet (2 * k) 64 ∪ offSet (2 * k + 1) 0) (offSet (2 * k + 1) 64) :=
  Finset.disjoint_union_left.mpr ⟨Finset.disjoint_union_left.mpr ⟨offSet_disjoint (Or.inl (by omega)), offSet_disjoint (Or.inl (by omega))⟩,
    offSet_disjoint (Or.inr (Or.inl (by omega)))⟩

/-- What seven carvings leave, and what four leave. -/
abbrev rest7 (k : ℕ) : Finset S80x128.Idx :=
  ((((((Finset.univ \ offSet (2 * k) 0) \ offSet (2 * k) 64) \ offSet (2 * k + 1) 0) \ offSet (2 * k + 1) 64)
    \ offSet (2 * k + 2) 0) \ offSet (2 * k + 2) 64) \ offSet (2 * k + 3) 0
abbrev rest4 (k : ℕ) : Finset S80x128.Idx :=
  (((Finset.univ \ offSet (2 * k) 0) \ offSet (2 * k) 64) \ offSet (2 * k + 1) 0) \ offSet (2 * k + 1) 64

theorem lists_disjoint_rest7 (k : ℕ) : Disjoint (lists4 k) (rest7 k) := by
  refine Finset.disjoint_left.mpr fun y h1 h2 => ?_
  simp only [lists4, rest7, Finset.mem_union, Finset.mem_sdiff, Finset.mem_univ, _root_.true_and, mem_offSet] at h1 h2
  omega
theorem lists_disjoint_rest4 (k : ℕ) : Disjoint (lists4 k) (rest4 k) := by
  refine Finset.disjoint_left.mpr fun y h1 h2 => ?_
  simp only [lists4, rest4, Finset.mem_union, Finset.mem_sdiff, Finset.mem_univ, _root_.true_and, mem_offSet] at h1 h2
  omega

/-- The scratch less the three lists in flight before trip k + 1 is trip k's four lists and what seven carvings left. -/
theorem next_rest_eq (k : ℕ) :
    ((((Finset.univ : Finset S80x128.Idx) \ offSet (2 * (k + 1)) 0) \ offSet (2 * (k + 1)) 64) \ offSet (2 * (k + 1) + 1) 0) = lists4 k ∪ rest7 k := by
  ext y
  simp only [lists4, rest7, Finset.mem_union, Finset.mem_sdiff, Finset.mem_univ, _root_.true_and, mem_offSet]
  constructor <;> intro h <;> omega
theorem univ_eq (k : ℕ) : (Finset.univ : Finset S80x128.Idx) = lists4 k ∪ rest4 k := by
  ext y
  simp only [lists4, rest4, Finset.mem_union, Finset.mem_sdiff, Finset.mem_univ, _root_.true_and, mem_offSet]
  tauto

/-- The lists of trip k (rows 2 k and 2 k + 1, both halves) back, and what the carvings of the next trip's four lists left:
    the scratch less the three lists in flight before trip k + 1. -/
theorem idx_rejoin (d : Dev nD) (c : Fin τ.nSC) (j : Fin τ.nSub) (q : PosShare TreeShare) (f : Buf (Elt F) ((V d c j).loc cc2_scratch0)) (k : ℕ) :
    iprop(((idxV).view.loc (V d c j) ↦[offSet (2 * k) 0]{q} f) ∗ ((idxV).view.loc (V d c j) ↦[offSet (2 * k) 64]{q} f)
        ∗ ((idxV).view.loc (V d c j) ↦[offSet (2 * k + 1) 0]{q} f) ∗ ((idxV).view.loc (V d c j) ↦[offSet (2 * k + 1) 64]{q} f)
        ∗ ((idxV).view.loc (V d c j) ↦[((((((Finset.univ \ offSet (2 * k) 0) \ offSet (2 * k) 64) \ offSet (2 * k + 1) 0) \ offSet (2 * k + 1) 64)
              \ offSet (2 * k + 2) 0) \ offSet (2 * k + 2) 64) \ offSet (2 * k + 3) 0]{q} f))
      ⊢ ((idxV).view.loc (V d c j) ↦[((Finset.univ \ offSet (2 * (k + 1)) 0) \ offSet (2 * (k + 1)) 64) \ offSet (2 * (k + 1) + 1) 0]{q} f : sProp 𝕄) :=
  pts_join5 (next_rest_eq k) (lists_disjoint_AB k) (lists_disjoint_C k) (lists_disjoint_D k) (lists_disjoint_rest7 k) q f

/-- The same when only one list was carved (the last trip): the whole scratch back. -/
theorem idx_rejoin_last (d : Dev nD) (c : Fin τ.nSC) (j : Fin τ.nSub) (q : PosShare TreeShare) (f : Buf (Elt F) ((V d c j).loc cc2_scratch0)) (k : ℕ) :
    iprop(((idxV).view.loc (V d c j) ↦[offSet (2 * k) 0]{q} f) ∗ ((idxV).view.loc (V d c j) ↦[offSet (2 * k) 64]{q} f)
        ∗ ((idxV).view.loc (V d c j) ↦[offSet (2 * k + 1) 0]{q} f) ∗ ((idxV).view.loc (V d c j) ↦[offSet (2 * k + 1) 64]{q} f)
        ∗ ((idxV).view.loc (V d c j) ↦[(((Finset.univ \ offSet (2 * k) 0) \ offSet (2 * k) 64) \ offSet (2 * k + 1) 0) \ offSet (2 * k + 1) 64]{q} f))
      ⊢ ((idxV).view.loc (V d c j) ↦{q} f : sProp 𝕄) :=
  pts_join5 (univ_eq k) (lists_disjoint_AB k) (lists_disjoint_C k) (lists_disjoint_D k) (lists_disjoint_rest4 k) q f

/-! ## The groups still to write, and the groups written -/

/-- The groups from 2 k on: groups 2 k and 2 k + 1, and the groups from 2 (k + 1) on. -/
theorem groups_todo_succ (Φ : ℕ → sProp 𝕄) (k : ℕ) (hk : k < 40) :
    bigSep (Finset.Ico (2 * k) 80) Φ = iprop(Φ (2 * k) ∗ Φ (2 * k + 1) ∗ bigSep (Finset.Ico (2 * (k + 1)) 80) Φ) := by
  have e : Finset.Ico (2 * k) 80 = insert (2 * k) (insert (2 * k + 1) (Finset.Ico (2 * (k + 1)) 80)) := by
    ext x; simp only [Finset.mem_insert, Finset.mem_Ico]; omega
  rw [e, SparseCore.bigSep_insert' (by simp only [Finset.mem_insert, Finset.mem_Ico]; omega), SparseCore.bigSep_insert' (by simp only [Finset.mem_Ico]; omega)]

/-- The groups below 2 k - 2 with groups 2 k - 2 and 2 k - 1: the groups below 2 (k + 1) - 2 (from the second trip on). -/
theorem groups_done_succ (Φ : ℕ → sProp 𝕄) (k : ℕ) (hk : 1 ≤ k) :
    iprop(bigSep (Finset.range (2 * k - 2)) Φ ∗ Φ (2 * k - 2) ∗ Φ (2 * k - 1)) = bigSep (Finset.range (2 * (k + 1) - 2)) Φ := by
  have e : Finset.range (2 * (k + 1) - 2) = insert (2 * k - 1) (insert (2 * k - 2) (Finset.range (2 * k - 2))) := by
    ext x; simp only [Finset.mem_insert, Finset.mem_range]; omega
  rw [e, SparseCore.bigSep_insert' (by simp only [Finset.mem_insert, Finset.mem_range]; omega), SparseCore.bigSep_insert' (by simp only [Finset.mem_range]; omega)]
  refine equiv_iff.mp ⟨toEntails ?_, toEntails ?_⟩
  · iintro ⟨HR, HX, HY⟩
    isplitl [HY]; · iexact HY
    isplitl [HX]; · iexact HX
    iexact HR
  · iintro ⟨HY, HX, HR⟩
    isplitl [HR]; · iexact HR
    isplitl [HX]; · iexact HX
    iexact HY
/-- At the first trip no group is written before or after. -/
theorem groups_done_zero (Φ : ℕ → sProp 𝕄) : bigSep (Finset.range (2 * 0 - 2)) Φ = bigSep (Finset.range (2 * (0 + 1) - 2)) Φ := rfl

end Cert.Kernel.Hand

end
-- ==== Proof.KB.TileTrip.lean ====
/-
  One trip of the vector-subcore task's pipeline loop, from the loop's invariant to the invariant at the next trip.
-/
import proofs.«208586_g21955872817707_cont_8to1_688_77_alg».proof.Proof.KB.TileInv
import proofs.«208586_g21955872817707_cont_8to1_688_77_alg».proof.Proof.KB.TileGeom
import proofs.«208586_g21955872817707_cont_8to1_688_77_alg».proof.Proof.KB.TileGeomOut
import proofs.«208586_g21955872817707_cont_8to1_688_77_alg».proof.Proof.KB.TileJoin

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.Kernel.main_v8_scv : Memref Cert.Kernel.sig Kind.scVector Space.hbm Cert.Kernel.S10240x128 EltTy.f32)
local notation "iV" => (Memref.whole Cert.Kernel.main_v6_scv : Memref Cert.Kernel.sig Kind.scVector Space.hbm Cert.Kernel.S32x80x128 EltTy.i32)
local notation "mV" => (Memref.whole Cert.Kernel.main_v12_scv : Memref Cert.Kernel.sig Kind.scVector Space.hbm Cert.Kernel.S10240x128 EltTy.f32)
local notation "idxV" => (Memref.whole Cert.Kernel.cc2_scratch0 : Memref Cert.Kernel.sig Kind.scVector Space.vmem Cert.Kernel.S80x128 EltTy.i32)
local notation "rowsV" => (Memref.whole Cert.Kernel.cc2_scratch1 : Memref Cert.Kernel.sig Kind.scVector Space.vmem Cert.Kernel.S4x64x128 EltTy.f32)
local notation "outV" => (Memref.whole Cert.Kernel.cc2_scratch2 : Memref Cert.Kernel.sig Kind.scVector Space.vmem Cert.Kernel.S2x4x128 EltTy.f32)
local notation "shV" => (Memref.whole Cert.Kernel.cc2_scratch3 : Memref Cert.Kernel.sig Kind.scVector Space.shared Cert.Kernel.S10240x128 EltTy.f32)

section Trip

variable (d : Dev nD) (L : grid2.Coords)

/-- What a gather issued in the trip delivers, in the invariant's spelling: the slot's contents forgotten, the offset list and
    the slot named as index sets. -/
theorem gDeliver' (b : ℕ) (inbS : ∀ a, (![b, 0, 0] : Fin 3 → ℕ) a + S1x64x128.size a ≤ S4x64x128.size a)
    (off : Fin 2 → ℕ) (inbO : ∀ a, off a + S1x64.size a ≤ S80x128.size a) (S' : Finset S80x128.Idx) (hS : (offK off inbO).view.set = S')
    (X : Buf (Elt F) ((V d (cV L) (jV L)).loc cc2_scratch1)) (fi : Buf (Elt F) ((V d (cV L) (jV L)).loc cc2_scratch0))
    (q' : PosShare TreeShare) (g : Buf (Elt F) (shLoc d (cV L))) :
    iprop((((rowsV).view.loc (V d (cV L) (jV L)) ↦[(((rowsV).slice (Rect.unit (s := S4x64x128) ![b, 0, 0] S1x64x128.size inbS) (fun _ => rfl)).squeeze S64x128 squeezes_S1x64x128_S64x128).view.set]{fullShare} X)
          ∗ ((idxV).view.loc (V d (cV L) (jV L)) ↦[(offK off inbO).view.set]{fullShare} fi))
        ∗ ((shAllK).view.loc (V d (cV L) (jV L)) ↦[(shAllK).view.set]{q'} g))
      ⊢ (iprop(((∃ R : Buf (Elt F) ((V d (cV L) (jV L)).loc cc2_scratch1), (rowsV).view.loc (V d (cV L) (jV L)) ↦[slotSet b]{fullShare} R)
          ∗ ((idxV).view.loc (V d (cV L) (jV L)) ↦[S']{fullShare} fi))
        ∗ ((shAllK).view.loc (V d (cV L) (jV L)) ↦[(shAllK).view.set]{q'} g)) : sProp 𝕄) := by
  subst hS
  rw [set_slot]
  iintro ⟨⟨H1, H2⟩, H3⟩
  isplitl [H1 H2]
  · isplitl [H1]; · iexists X; iexact H1
    iexact H2
  · iexact H3

/-- What a write-back issued in the trip delivers, in the invariant's spelling (frame level: the value statement is vacuous). -/
theorem wDeliver (hv : ¬ v) (n : ℕ) (ob : ℕ) (inbO : ∀ a, (![ob, 0, 0] : Fin 3 → ℕ) a + S1x4x128.size a ≤ S2x4x128.size a)
    (off : Fin 2 → ℕ) (inbM : ∀ a, off a + S4x128.size a ≤ S10240x128.size a)
    (hM : ((mV).slice (Rect.unit (s := S10240x128) off S4x128.size inbM) (fun _ => rfl)).view.set = mGroupSet (wid (cL L) (jL L)) n)
    (X : Buf (Elt F) (mLoc d)) (Y : Buf (Elt F) ((V d (cV L) (jV L)).loc cc2_scratch2)) :
    iprop(((mV).view.loc (V d (cV L) (jV L)) ↦[((mV).slice (Rect.unit (s := S10240x128) off S4x128.size inbM) (fun _ => rfl)).view.set]{fullShare} X)
        ∗ ((outV).view.loc (V d (cV L) (jV L)) ↦[(((outV).slice (Rect.unit (s := S2x4x128) ![ob, 0, 0] S1x4x128.size inbO) (fun _ => rfl)).squeeze S4x128 squeezes_S1x4x128_S4x128).view.set]{fullShare} Y))
      ⊢ (iprop((∃ Mg : Buf (Elt F) (mLoc d), ⌜GroupSpec v Zf I d L n Mg⌝ ∗ (mV).view.loc (V d (cV L) (jV L)) ↦[mGroupSet (wid (cL L) (jL L)) n]{fullShare} Mg)
        ∗ ∃ fo : Buf (Elt F) ((V d (cV L) (jV L)).loc cc2_scratch2), (outV).view.loc (V d (cV L) (jV L)) ↦[outSet ob]{fullShare} fo) : sProp 𝕄) := by
  rw [pts_set_congr (F := F) (ℓ := (mV).view.loc (V d (cV L) (jV L))) hM, pts_set_congr (F := F) (ℓ := (outV).view.loc (V d (cV L) (jV L))) (set_outK ob inbO)]
  iintro ⟨H1, H2⟩
  isplitl [H1]
  · iexists X; isplitr
    · ipureintro; exact fun h => absurd h hv
    · iexact H1
  · iexists Y; iexact H2

set_option maxHeartbeats 4000000 in
/-- A trip in the middle of the loop (1 ≤ k ≤ 38): both write-back waits and all four look-ahead gathers happen. -/
theorem trip_mid (hv : ¬ v) (q : PosShare TreeShare) (g : Buf (Elt F) (shLoc d (cV L))) (fi : Buf (Elt F) ((V d (cV L) (jV L)).loc cc2_scratch0))
    (hidx : ∀ x, (fi x).toNat < 10000) (M0 : Buf (Elt F) (mLoc d)) (O : CellTallies nD τ sig (HIx 1)) (W0 : Waits sig (HIx 1)) (v1 : BitVec 32)
    (k : Fin k2_t1_loop.trips) (hk0 : k.val ≠ 0) (hk39 : k.val ≠ 39) (a : PUnit) :
    inv v Zf I d L q g fi M0 O W0 k.val a
      ⊢ wp frame (wpE (defs₀ (F := F)) 𝒱₀ (V d (cV L) (jV L)) none) Set.univ
          (k2_t1_body L zV (Memref.isWhole_whole _) iV (Memref.isWhole_whole _) mV (Memref.isWhole_whole _) idxV (Memref.isWhole_whole _)
            rowsV (Memref.isWhole_whole _) outV (Memref.isWhole_whole _) shV (Memref.isWhole_whole _)
            cc2_scratch4 cc2_scratch5 cc2_scratch6 cc2_scratch7 cc2_scratch8 cc2_scratch9 cc2_scoped0 cc2_scoped1 v1 k a)
          (inv v Zf I d L q g fi M0 O W0 (k.val + 1)) := by
  have hk40 : k.val < 40 := lt_of_lt_of_le k.isLt k2_t1_abs.2.1
  have hk1 : 1 ≤ k.val := Nat.pos_of_ne_zero hk0
  have hk38 : k.val < 39 := by omega
  have hc1 : k2_cond1 k = 1#1 := k2_cond1_of_pos k hk1
  have hc2 : k2_cond2 k = 1#1 := k2_cond2_true k
  have hc3 : k2_cond3 k = 1#1 := k2_cond3_of_lt k hk38
  have hc4 : k2_cond4 k = 1#1 := k2_cond4_of_pos k hk1
  have hc5 : k2_cond5 k = 1#1 := k2_cond5_of_lt k hk38
  have hc6 : k2_cond6 k = 1#1 := k2_cond6_of_lt k hk38
  -- the four offset lists this trip's gathers read, as index sets
  have hD : (offK (k2_off4 k) (k2_off4_inb k hc2)).view.set = offSet (2 * k.val + 1) 64 := (set_offK _ _).trans (by simp only [k2_off4_eq]; rfl)
  have hE : (offK (k2_off22 k) (k2_off22_inb k hc3)).view.set = offSet (2 * k.val + 2) 0 := (set_offK _ _).trans (by simp only [k2_off22_eq]; rfl)
  have hF : (offK (k2_off42 k) (k2_off42_inb k hc5)).view.set = offSet (2 * k.val + 2) 64 := (set_offK _ _).trans (by simp only [k2_off42_eq]; rfl)
  have hG : (offK (k2_off59 k) (k2_off59_inb k hc6)).view.set = offSet (2 * k.val + 3) 0 := (set_offK _ _).trans (by simp only [k2_off59_eq]; rfl)
  have hDs : offSet (2 * k.val + 1) 64 ⊆ ((Finset.univ \ offSet (2 * k.val) 0) \ offSet (2 * k.val) 64) \ offSet (2 * k.val + 1) 0 := fun y hy => by
    simp only [offSet, Finset.mem_sdiff, Finset.mem_filter, Finset.mem_univ, _root_.true_and] at hy ⊢; omega
  have hEs : offSet (2 * k.val + 2) 0 ⊆ (((Finset.univ \ offSet (2 * k.val) 0) \ offSet (2 * k.val) 64) \ offSet (2 * k.val + 1) 0) \ offSet (2 * k.val + 1) 64 := fun y hy => by
    simp only [offSet, Finset.mem_sdiff, Finset.mem_filter, Finset.mem_univ, _root_.true_and] at hy ⊢; omega
  have hFs : offSet (2 * k.val + 2) 64 ⊆ ((((Finset.univ \ offSet (2 * k.val) 0) \ offSet (2 * k.val) 64) \ offSet (2 * k.val + 1) 0) \ offSet (2 * k.val + 1) 64) \ offSet (2 * k.val + 2) 0 := fun y hy => by
    simp only [offSet, Finset.mem_sdiff, Finset.mem_filter, Finset.mem_univ, _root_.true_and] at hy ⊢; omega
  have hGs : offSet (2 * k.val + 3) 0 ⊆ (((((Finset.univ \ offSet (2 * k.val) 0) \ offSet (2 * k.val) 64) \ offSet (2 * k.val + 1) 0) \ offSet (2 * k.val + 1) 64) \ offSet (2 * k.val + 2) 0) \ offSet (2 * k.val + 2) 64 := fun y hy => by
    simp only [offSet, Finset.mem_sdiff, Finset.mem_filter, Finset.mem_univ, _root_.true_and] at hy ⊢; omega
  have hin3 := hin_of (F := F) d L (k2_off4 k) (k2_off4_inb k hc2) _ hidx
  have hin4 := hin_of (F := F) d L (k2_off22 k) (k2_off22_inb k hc3) _ hidx
  have hin5 := hin_of (F := F) d L (k2_off42 k) (k2_off42_inb k hc5) _ hidx
  have hin6 := hin_of (F := F) d L (k2_off59 k) (k2_off59_inb k hc6) _ hidx
  unfold inv gPart wPart
  rw [if_pos hk40, if_neg hk0]
  unfold gFlight wFlight k2_t1_body
  iintro ⟨#Hmw, ⟨Hf0, Hf1, Hf2, ⟨%R3, Hr3⟩, Hidx, Hg11, Hs7⟩, ⟨Hdone, Htodo, Hw0, Hw1⟩, %W', %hW', HO⟩
  -- carve this trip's four offset lists out of the index scratch, in the spelling the gathers address them by
  ihave H1 := (pointsTo_split_subset (q := fullShare) hDs).1 $$ Hidx
  icases H1 with ⟨HiD, Hidx⟩
  ihave H2 := (pointsTo_split_subset (q := fullShare) hEs).1 $$ Hidx
  icases H2 with ⟨HiE, Hidx⟩
  ihave H3 := (pointsTo_split_subset (q := fullShare) hFs).1 $$ Hidx
  icases H3 with ⟨HiF, Hidx⟩
  ihave H4 := (pointsTo_split_subset (q := fullShare) hGs).1 $$ Hidx
  icases H4 with ⟨HiG, Hidx⟩
  ihave HiD' := (Entails.of_eq (pts_set_congr (F := F) (ℓ := (offK (k2_off4 k) (k2_off4_inb k hc2)).view.loc (V d (cV L) (jV L))) hD.symm fullShare fi)) $$ [HiD]
  · iexact HiD
  ihave HiE' := (Entails.of_eq (pts_set_congr (F := F) (ℓ := (offK (k2_off22 k) (k2_off22_inb k hc3)).view.loc (V d (cV L) (jV L))) hE.symm fullShare fi)) $$ [HiE]
  · iexact HiE
  ihave HiF' := (Entails.of_eq (pts_set_congr (F := F) (ℓ := (offK (k2_off42 k) (k2_off42_inb k hc5)).view.loc (V d (cV L) (jV L))) hF.symm fullShare fi)) $$ [HiF]
  · iexact HiF
  ihave HiG' := (Entails.of_eq (pts_set_congr (F := F) (ℓ := (offK (k2_off59 k) (k2_off59_inb k hc6)).view.loc (V d (cV L) (jV L))) hG.symm fullShare fi)) $$ [HiG]
  · iexact HiG
  -- slot 3 in the spelling the gather addresses it by
  ihave Hr3' := (Entails.of_eq (show ((rowsV).view.loc (V d (cV L) (jV L)) ↦[slotSet 3]{fullShare} R3 : sProp 𝕄)
      = (slotK3).view.loc (V d (cV L) (jV L)) ↦[(slotK3).view.set]{fullShare} R3 from by rw [show (slotK3).view.set = slotSet 3 from set_slot 3 _])) $$ Hr3
  sl_exec
  -- the write-back of group 2 k - 2
  iapply (Transfers.wp_waitLocalO countersEmb 𝒱₀ (V d (cV L) (jV L)) none (default : HIx 1) (N := 16384) (by rfl)) $$ [Hw0 HO]
  · isplitl [Hw0]; · iexact Hw0
    isplitl [HO]; · iexact HO
    iapply (Transfers.MayWaits.elim (SemLoc.dma cc2_scratch8.sem)) $$ Hmw
  iintro ⟨⟨Hmg0, %fo0, Hout0⟩, Hs8, HO⟩
  sl_exec
  -- chunk 4 k has landed in slot 0 (the run took the wait): name its rows, respell the slot and half 0 of the output scratch
  icases Hf0_dst with ⟨⟨%R0, Hr0⟩, HiA⟩
  ihave Hr0' := (Entails.of_eq (show ((rowsV).view.loc (V d (cV L) (jV L)) ↦[slotSet 0]{fullShare} R0 : sProp 𝕄)
      = (slotK0).view.loc (V d (cV L) (jV L)) ↦[(slotK0).view.set]{fullShare} R0 from by rw [show (slotK0).view.set = slotSet 0 from set_slot 0 _])) $$ Hr0
  ihave Hout0' := (Entails.of_eq (pts_set_congr (F := F) (ℓ := (outK0).view.loc (V d (cV L) (jV L))) set_outK0.symm fullShare fo0)) $$ [Hout0]
  · iexact Hout0
  -- the two groups this trip writes, out of the rows still to do, in the spelling the write-backs address them by
  have hIco : Finset.Ico (2 * k.val) 80 = insert (2 * k.val) (insert (2 * k.val + 1) (Finset.Ico (2 * (k.val + 1)) 80)) := by
    ext n; simp only [Finset.mem_Ico, Finset.mem_insert]; omega
  ihave Ht := (Entails.of_eq (show (bigSep (Finset.Ico (2 * k.val) 80) fun n => ((mV).view.loc (V d (cV L) (jV L)) ↦[mGroupSet (wid (cL L) (jL L)) n]{fullShare} M0 : sProp 𝕄))
      = iprop(((mV).view.loc (V d (cV L) (jV L)) ↦[mGroupSet (wid (cL L) (jL L)) (2 * k.val)]{fullShare} M0)
          ∗ ((mV).view.loc (V d (cV L) (jV L)) ↦[mGroupSet (wid (cL L) (jL L)) (2 * k.val + 1)]{fullShare} M0)
          ∗ bigSep (Finset.Ico (2 * (k.val + 1)) 80) fun n => ((mV).view.loc (V d (cV L) (jV L)) ↦[mGroupSet (wid (cL L) (jL L)) n]{fullShare} M0 : sProp 𝕄)) from by
        rw [hIco, SparseCore.bigSep_insert' (by simp only [Finset.mem_insert, Finset.mem_Ico]; omega), SparseCore.bigSep_insert' (by simp only [Finset.mem_Ico]; omega)])) $$ Htodo
  icases Ht with ⟨Hma, Hmb, Htodo⟩
  ihave Hma' := (Entails.of_eq (pts_set_congr (F := F) (ℓ := ((mV).slice (Rect.unit (s := S10240x128) (k2_off40 L k 0#32) S4x128.size (k2_off40_inb L k 0)) (fun _ => rfl)).view.loc (V d (cV L) (jV L)))
      (set_mGroup40_0 L k).symm fullShare M0)) $$ [Hma]
  · iexact Hma
  ihave Hmb' := (Entails.of_eq (pts_set_congr (F := F) (ℓ := ((mV).slice (Rect.unit (s := S10240x128) (k2_off40 L k 1#32) S4x128.size (k2_off40_inb L k 1)) (fun _ => rfl)).view.loc (V d (cV L) (jV L)))
      (set_mGroup40_1 L k).symm fullShare M0)) $$ [Hmb]
  · iexact Hmb
  sl_exec
  -- chunk 4 k + 1 has landed in slot 1
  icases Hf1_dst with ⟨⟨%R1, Hr1⟩, HiB⟩
  ihave Hr1' := (Entails.of_eq (show ((rowsV).view.loc (V d (cV L) (jV L)) ↦[slotSet 1]{fullShare} R1 : sProp 𝕄)
      = (slotK1).view.loc (V d (cV L) (jV L)) ↦[(slotK1).view.set]{fullShare} R1 from by rw [show (slotK1).view.set = slotSet 1 from set_slot 1 _])) $$ Hr1
  sl_exec
  -- the write-back of group 2 k - 1
  iapply (Transfers.wp_waitLocalO countersEmb 𝒱₀ (V d (cV L) (jV L)) none (default : HIx 1) (N := 16384) (by rfl)) $$ [Hw1 HO]
  · isplitl [Hw1]; · iexact Hw1
    isplitl [HO]; · iexact HO
    iapply (Transfers.MayWaits.elim (SemLoc.dma cc2_scratch9.sem)) $$ Hmw
  iintro ⟨⟨Hmg1, %fo1, Hout1⟩, Hs9, HO⟩
  ihave Hout1' := (Entails.of_eq (pts_set_congr (F := F) (ℓ := (outK1).view.loc (V d (cV L) (jV L))) set_outK1.symm fullShare fo1)) $$ [Hout1]
  · iexact Hout1
  sl_exec
  -- chunk 4 k + 2 has landed in slot 2
  icases Hf2_dst with ⟨⟨%R2, Hr2⟩, HiC⟩
  ihave Hr2' := (Entails.of_eq (show ((rowsV).view.loc (V d (cV L) (jV L)) ↦[slotSet 2]{fullShare} R2 : sProp 𝕄)
      = (slotK2).view.loc (V d (cV L) (jV L)) ↦[(slotK2).view.set]{fullShare} R2 from by rw [show (slotK2).view.set = slotSet 2 from set_slot 2 _])) $$ Hr2
  sl_exec
  sl_step
  -- the invariant at the next trip
  rw [if_pos (show k.val + 1 < 40 by omega), if_neg (show ¬ k.val + 1 = 0 by omega)]
  have hE' : (offK (k2_off22 k) (k2_off22_inb k hc3)).view.set = offSet (2 * (k.val + 1)) 0 :=
    hE.trans (congrArg (fun r => offSet r 0) (by omega))
  have hF' : (offK (k2_off42 k) (k2_off42_inb k hc5)).view.set = offSet (2 * (k.val + 1)) 64 :=
    hF.trans (congrArg (fun r => offSet r 64) (by omega))
  have hG' : (offK (k2_off59 k) (k2_off59_inb k hc6)).view.set = offSet (2 * (k.val + 1) + 1) 0 :=
    hG.trans (congrArg (fun r => offSet r 0) (by omega))
  isplitr; · iexact Hmw
  isplitl [Hf0 Hf1 Hf2 Hr3' Hidx HiA HiB HiC HiD' Hg11 Hs7]
  · isplitl [Hf0]
    · iapply (Flight_mono (F := F) (gDeliver' (F := F) d L 0 inb_S4x64x128_S1x64x128_0_0_0 (k2_off22 k) (k2_off22_inb k hc3) _ hE' _ _ _ _))
      iexact Hf0
    isplitl [Hf1]
    · iapply (Flight_mono (F := F) (gDeliver' (F := F) d L 1 inb_S4x64x128_S1x64x128_1_0_0 (k2_off42 k) (k2_off42_inb k hc5) _ hF' _ _ _ _))
      iexact Hf1
    isplitl [Hf2]
    · iapply (Flight_mono (F := F) (gDeliver' (F := F) d L 2 inb_S4x64x128_S1x64x128_2_0_0 (k2_off59 k) (k2_off59_inb k hc6) _ hG' _ _ _ _))
      iexact Hf2
    isplitl [Hr3']
    · iexists _
      iapply (Entails.of_eq (show ((slotK3).view.loc (V d (cV L) (jV L)) ↦[(slotK3).view.set]{fullShare} _ : sProp 𝕄)
          = (rowsV).view.loc (V d (cV L) (jV L)) ↦[slotSet 3]{fullShare} _ from by rw [show (slotK3).view.set = slotSet 3 from set_slot 3 _]))
      iexact Hr3'
    isplitl [Hidx HiA HiB HiC HiD']
    · iapply (idx_rejoin (F := F) d (cV L) (jV L) fullShare fi k.val)
      isplitl [HiA]; · iexact HiA
      isplitl [HiB]; · iexact HiB
      isplitl [HiC]; · iexact HiC
      isplitl [HiD']
      · iapply (Entails.of_eq (pts_set_congr (F := F) (ℓ := (idxV).view.loc (V d (cV L) (jV L))) hD fullShare fi))
        iexact HiD'
      iexact Hidx
    isplitl [Hg11]; · iexact Hg11
    iexact Hs7
  isplitl [Hdone Hmg0 Hmg1 Htodo Hs8 Hs9]
  · isplitl [Hdone Hmg0 Hmg1]
    · rw [← groups_done_succ _ k.val hk1]
      isplitl [Hdone]; · iexact Hdone
      isplitl [Hmg0]; · iexact Hmg0
      iexact Hmg1
    isplitl [Htodo]; · iexact Htodo
    isplitl [Hs8]
    · iapply (Flight_mono (F := F) (wDeliver (F := F) v Zf I d L hv (2 * (k.val + 1) - 2) 0 inb_S2x4x128_S1x4x128_0_0_0 (k2_off40 L k 0#32) (k2_off40_inb L k 0)
        ((set_mGroup40_0 L k).trans (congrArg (mGroupSet (wid (cL L) (jL L))) (by omega))) _ _))
      iexact Hs8
    · iapply (Flight_mono (F := F) (wDeliver (F := F) v Zf I d L hv (2 * (k.val + 1) - 1) 1 inb_S2x4x128_S1x4x128_1_0_0 (k2_off40 L k 1#32) (k2_off40_inb L k 1)
        ((set_mGroup40_1 L k).trans (congrArg (mGroupSet (wid (cL L) (jL L))) (by omega))) _ _))
      iexact Hs9
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Trip

end Cert.Kernel.Hand

end
-- ==== Proof.KB.TileTripFirst.lean ====
/-
  The first trip of the vector-subcore task's pipeline loop (k = 0), from the loop's invariant to the invariant at the
  next trip: no write-back is in flight yet, so neither wait happens and the output scratch is held whole.
-/
import proofs.«208586_g21955872817707_cont_8to1_688_77_alg».proof.Proof.KB.TileTrip

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.Kernel.main_v8_scv : Memref Cert.Kernel.sig Kind.scVector Space.hbm Cert.Kernel.S10240x128 EltTy.f32)
local notation "iV" => (Memref.whole Cert.Kernel.main_v6_scv : Memref Cert.Kernel.sig Kind.scVector Space.hbm Cert.Kernel.S32x80x128 EltTy.i32)
local notation "mV" => (Memref.whole Cert.Kernel.main_v12_scv : Memref Cert.Kernel.sig Kind.scVector Space.hbm Cert.Kernel.S10240x128 EltTy.f32)
local notation "idxV" => (Memref.whole Cert.Kernel.cc2_scratch0 : Memref Cert.Kernel.sig Kind.scVector Space.vmem Cert.Kernel.S80x128 EltTy.i32)
local notation "rowsV" => (Memref.whole Cert.Kernel.cc2_scratch1 : Memref Cert.Kernel.sig Kind.scVector Space.vmem Cert.Kernel.S4x64x128 EltTy.f32)
local notation "outV" => (Memref.whole Cert.Kernel.cc2_scratch2 : Memref Cert.Kernel.sig Kind.scVector Space.vmem Cert.Kernel.S2x4x128 EltTy.f32)
local notation "shV" => (Memref.whole Cert.Kernel.cc2_scratch3 : Memref Cert.Kernel.sig Kind.scVector Space.shared Cert.Kernel.S10240x128 EltTy.f32)

section Trip

variable (d : Dev nD) (L : grid2.Coords)

set_option maxHeartbeats 4000000 in
/-- The first trip (k = 0): no write-back is in flight yet, so neither wait happens; all four look-ahead gathers do. -/
theorem trip_first (hv : ¬ v) (q : PosShare TreeShare) (g : Buf (Elt F) (shLoc d (cV L))) (fi : Buf (Elt F) ((V d (cV L) (jV L)).loc cc2_scratch0))
    (hidx : ∀ x, (fi x).toNat < 10000) (M0 : Buf (Elt F) (mLoc d)) (O : CellTallies nD τ sig (HIx 1)) (W0 : Waits sig (HIx 1)) (v1 : BitVec 32)
    (k : Fin k2_t1_loop.trips) (hk0 : k.val = 0) (a : PUnit) :
    inv v Zf I d L q g fi M0 O W0 k.val a
      ⊢ wp frame (wpE (defs₀ (F := F)) 𝒱₀ (V d (cV L) (jV L)) none) Set.univ
          (k2_t1_body L zV (Memref.isWhole_whole _) iV (Memref.isWhole_whole _) mV (Memref.isWhole_whole _) idxV (Memref.isWhole_whole _)
            rowsV (Memref.isWhole_whole _) outV (Memref.isWhole_whole _) shV (Memref.isWhole_whole _)
            cc2_scratch4 cc2_scratch5 cc2_scratch6 cc2_scratch7 cc2_scratch8 cc2_scratch9 cc2_scoped0 cc2_scoped1 v1 k a)
          (inv v Zf I d L q g fi M0 O W0 (k.val + 1)) := by
  have hk40 : k.val < 40 := lt_of_lt_of_le k.isLt k2_t1_abs.2.1
  have hk38 : k.val < 39 := by omega
  have hc1 : ¬ k2_cond1 k = 1#1 := k2_cond1_of_not_pos k (by omega)
  have hc2 : k2_cond2 k = 1#1 := k2_cond2_true k
  have hc3 : k2_cond3 k = 1#1 := k2_cond3_of_lt k hk38
  have hc4 : ¬ k2_cond4 k = 1#1 := k2_cond4_of_not_pos k (by omega)
  have hc5 : k2_cond5 k = 1#1 := k2_cond5_of_lt k hk38
  have hc6 : k2_cond6 k = 1#1 := k2_cond6_of_lt k hk38
  -- the four offset lists this trip's gathers read, as index sets
  have hD : (offK (k2_off4 k) (k2_off4_inb k hc2)).view.set = offSet (2 * k.val + 1) 64 := (set_offK _ _).trans (by simp only [k2_off4_eq]; rfl)
  have hE : (offK (k2_off22 k) (k2_off22_inb k hc3)).view.set = offSet (2 * k.val + 2) 0 := (set_offK _ _).trans (by simp only [k2_off22_eq]; rfl)
  have hF : (offK (k2_off42 k) (k2_off42_inb k hc5)).view.set = offSet (2 * k.val + 2) 64 := (set_offK _ _).trans (by simp only [k2_off42_eq]; rfl)
  have hG : (offK (k2_off59 k) (k2_off59_inb k hc6)).view.set = offSet (2 * k.val + 3) 0 := (set_offK _ _).trans (by simp only [k2_off59_eq]; rfl)
  have hDs : offSet (2 * k.val + 1) 64 ⊆ ((Finset.univ \ offSet (2 * k.val) 0) \ offSet (2 * k.val) 64) \ offSet (2 * k.val + 1) 0 := fun y hy => by
    simp only [offSet, Finset.mem_sdiff, Finset.mem_filter, Finset.mem_univ, _root_.true_and] at hy ⊢; omega
  have hEs : offSet (2 * k.val + 2) 0 ⊆ (((Finset.univ \ offSet (2 * k.val) 0) \ offSet (2 * k.val) 64) \ offSet (2 * k.val + 1) 0) \ offSet (2 * k.val + 1) 64 := fun y hy => by
    simp only [offSet, Finset.mem_sdiff, Finset.mem_filter, Finset.mem_univ, _root_.true_and] at hy ⊢; omega
  have hFs : offSet (2 * k.val + 2) 64 ⊆ ((((Finset.univ \ offSet (2 * k.val) 0) \ offSet (2 * k.val) 64) \ offSet (2 * k.val + 1) 0) \ offSet (2 * k.val + 1) 64) \ offSet (2 * k.val + 2) 0 := fun y hy => by
    simp only [offSet, Finset.mem_sdiff, Finset.mem_filter, Finset.mem_univ, _root_.true_and] at hy ⊢; omega
  have hGs : offSet (2 * k.val + 3) 0 ⊆ (((((Finset.univ \ offSet (2 * k.val) 0) \ offSet (2 * k.val) 64) \ offSet (2 * k.val + 1) 0) \ offSet (2 * k.val + 1) 64) \ offSet (2 * k.val + 2) 0) \ offSet (2 * k.val + 2) 64 := fun y hy => by
    simp only [offSet, Finset.mem_sdiff, Finset.mem_filter, Finset.mem_univ, _root_.true_and] at hy ⊢; omega
  have hin3 := hin_of (F := F) d L (k2_off4 k) (k2_off4_inb k hc2) _ hidx
  have hin4 := hin_of (F := F) d L (k2_off22 k) (k2_off22_inb k hc3) _ hidx
  have hin5 := hin_of (F := F) d L (k2_off42 k) (k2_off42_inb k hc5) _ hidx
  have hin6 := hin_of (F := F) d L (k2_off59 k) (k2_off59_inb k hc6) _ hidx
  unfold inv gPart wPart
  rw [if_pos hk40, if_pos hk0]
  unfold gFlight wFlight k2_t1_body
  iintro ⟨#Hmw, ⟨Hf0, Hf1, Hf2, ⟨%R3, Hr3⟩, Hidx, Hg11, Hs7⟩, ⟨Hdone, Htodo, ⟨%fo, Hout⟩, Hs8, Hs9⟩, %W', %hW', HO⟩
  -- the output scratch, held whole, as its two halves
  ihave Ho := (pointsTo_split_subset (q := fullShare) (Finset.subset_univ (outSet 0))).1 $$ Hout
  icases Ho with ⟨Hout0, Hout1⟩
  ihave Hout1 := (Entails.of_eq (pts_set_congr (F := F) (ℓ := (outV).view.loc (V d (cV L) (jV L))) univ_sdiff_outSet0 fullShare fo)) $$ [Hout1]
  · iexact Hout1
  -- carve this trip's four offset lists out of the index scratch, in the spelling the gathers address them by
  ihave H1 := (pointsTo_split_subset (q := fullShare) hDs).1 $$ Hidx
  icases H1 with ⟨HiD, Hidx⟩
  ihave H2 := (pointsTo_split_subset (q := fullShare) hEs).1 $$ Hidx
  icases H2 with ⟨HiE, Hidx⟩
  ihave H3 := (pointsTo_split_subset (q := fullShare) hFs).1 $$ Hidx
  icases H3 with ⟨HiF, Hidx⟩
  ihave H4 := (pointsTo_split_subset (q := fullShare) hGs).1 $$ Hidx
  icases H4 with ⟨HiG, Hidx⟩
  ihave HiD' := (Entails.of_eq (pts_set_congr (F := F) (ℓ := (offK (k2_off4 k) (k2_off4_inb k hc2)).view.loc (V d (cV L) (jV L))) hD.symm fullShare fi)) $$ [HiD]
  · iexact HiD
  ihave HiE' := (Entails.of_eq (pts_set_congr (F := F) (ℓ := (offK (k2_off22 k) (k2_off22_inb k hc3)).view.loc (V d (cV L) (jV L))) hE.symm fullShare fi)) $$ [HiE]
  · iexact HiE
  ihave HiF' := (Entails.of_eq (pts_set_congr (F := F) (ℓ := (offK (k2_off42 k) (k2_off42_inb k hc5)).view.loc (V d (cV L) (jV L))) hF.symm fullShare fi)) $$ [HiF]
  · iexact HiF
  ihave HiG' := (Entails.of_eq (pts_set_congr (F := F) (ℓ := (offK (k2_off59 k) (k2_off59_inb k hc6)).view.loc (V d (cV L) (jV L))) hG.symm fullShare fi)) $$ [HiG]
  · iexact HiG
  -- slot 3 in the spelling the gather addresses it by
  ihave Hr3' := (Entails.of_eq (show ((rowsV).view.loc (V d (cV L) (jV L)) ↦[slotSet 3]{fullShare} R3 : sProp 𝕄)
      = (slotK3).view.loc (V d (cV L) (jV L)) ↦[(slotK3).view.set]{fullShare} R3 from by rw [show (slotK3).view.set = slotSet 3 from set_slot 3 _])) $$ Hr3
  sl_exec
  -- chunk 4 k has landed in slot 0 (the run took the wait): name its rows, respell the slot and half 0 of the output scratch
  icases Hf0_dst with ⟨⟨%R0, Hr0⟩, HiA⟩
  ihave Hr0' := (Entails.of_eq (show ((rowsV).view.loc (V d (cV L) (jV L)) ↦[slotSet 0]{fullShare} R0 : sProp 𝕄)
      = (slotK0).view.loc (V d (cV L) (jV L)) ↦[(slotK0).view.set]{fullShare} R0 from by rw [show (slotK0).view.set = slotSet 0 from set_slot 0 _])) $$ Hr0
  ihave Hout0' := (Entails.of_eq (pts_set_congr (F := F) (ℓ := (outK0).view.loc (V d (cV L) (jV L))) set_outK0.symm fullShare fo)) $$ [Hout0]
  · iexact Hout0
  -- the two groups this trip writes, out of the rows still to do, in the spelling the write-backs address them by
  have hIco : Finset.Ico (2 * k.val) 80 = insert (2 * k.val) (insert (2 * k.val + 1) (Finset.Ico (2 * (k.val + 1)) 80)) := by
    ext n; simp only [Finset.mem_Ico, Finset.mem_insert]; omega
  ihave Ht := (Entails.of_eq (show (bigSep (Finset.Ico (2 * k.val) 80) fun n => ((mV).view.loc (V d (cV L) (jV L)) ↦[mGroupSet (wid (cL L) (jL L)) n]{fullShare} M0 : sProp 𝕄))
      = iprop(((mV).view.loc (V d (cV L) (jV L)) ↦[mGroupSet (wid (cL L) (jL L)) (2 * k.val)]{fullShare} M0)
          ∗ ((mV).view.loc (V d (cV L) (jV L)) ↦[mGroupSet (wid (cL L) (jL L)) (2 * k.val + 1)]{fullShare} M0)
          ∗ bigSep (Finset.Ico (2 * (k.val + 1)) 80) fun n => ((mV).view.loc (V d (cV L) (jV L)) ↦[mGroupSet (wid (cL L) (jL L)) n]{fullShare} M0 : sProp 𝕄)) from by
        rw [hIco, SparseCore.bigSep_insert' (by simp only [Finset.mem_insert, Finset.mem_Ico]; omega), SparseCore.bigSep_insert' (by simp only [Finset.mem_Ico]; omega)])) $$ Htodo
  icases Ht with ⟨Hma, Hmb, Htodo⟩
  ihave Hma' := (Entails.of_eq (pts_set_congr (F := F) (ℓ := ((mV).slice (Rect.unit (s := S10240x128) (k2_off40 L k 0#32) S4x128.size (k2_off40_inb L k 0)) (fun _ => rfl)).view.loc (V d (cV L) (jV L)))
      (set_mGroup40_0 L k).symm fullShare M0)) $$ [Hma]
  · iexact Hma
  ihave Hmb' := (Entails.of_eq (pts_set_congr (F := F) (ℓ := ((mV).slice (Rect.unit (s := S10240x128) (k2_off40 L k 1#32) S4x128.size (k2_off40_inb L k 1)) (fun _ => rfl)).view.loc (V d (cV L) (jV L)))
      (set_mGroup40_1 L k).symm fullShare M0)) $$ [Hmb]
  · iexact Hmb
  sl_exec
  -- chunk 4 k + 1 has landed in slot 1
  icases Hf1_dst with ⟨⟨%R1, Hr1⟩, HiB⟩
  ihave Hr1' := (Entails.of_eq (show ((rowsV).view.loc (V d (cV L) (jV L)) ↦[slotSet 1]{fullShare} R1 : sProp 𝕄)
      = (slotK1).view.loc (V d (cV L) (jV L)) ↦[(slotK1).view.set]{fullShare} R1 from by rw [show (slotK1).view.set = slotSet 1 from set_slot 1 _])) $$ Hr1
  ihave Hout1' := (Entails.of_eq (pts_set_congr (F := F) (ℓ := (outK1).view.loc (V d (cV L) (jV L))) set_outK1.symm fullShare fo)) $$ [Hout1]
  · iexact Hout1
  sl_exec
  -- chunk 4 k + 2 has landed in slot 2
  icases Hf2_dst with ⟨⟨%R2, Hr2⟩, HiC⟩
  ihave Hr2' := (Entails.of_eq (show ((rowsV).view.loc (V d (cV L) (jV L)) ↦[slotSet 2]{fullShare} R2 : sProp 𝕄)
      = (slotK2).view.loc (V d (cV L) (jV L)) ↦[(slotK2).view.set]{fullShare} R2 from by rw [show (slotK2).view.set = slotSet 2 from set_slot 2 _])) $$ Hr2
  sl_exec
  sl_step
  -- the invariant at the next trip
  rw [if_pos (show k.val + 1 < 40 by omega), if_neg (show ¬ k.val + 1 = 0 by omega)]
  have hE' : (offK (k2_off22 k) (k2_off22_inb k hc3)).view.set = offSet (2 * (k.val + 1)) 0 :=
    hE.trans (congrArg (fun r => offSet r 0) (by omega))
  have hF' : (offK (k2_off42 k) (k2_off42_inb k hc5)).view.set = offSet (2 * (k.val + 1)) 64 :=
    hF.trans (congrArg (fun r => offSet r 64) (by omega))
  have hG' : (offK (k2_off59 k) (k2_off59_inb k hc6)).view.set = offSet (2 * (k.val + 1) + 1) 0 :=
    hG.trans (congrArg (fun r => offSet r 0) (by omega))
  isplitr; · iexact Hmw
  isplitl [Hf0 Hf1 Hf2 Hr3' Hidx HiA HiB HiC HiD' Hg11 Hs7]
  · isplitl [Hf0]
    · iapply (Flight_mono (F := F) (gDeliver' (F := F) d L 0 inb_S4x64x128_S1x64x128_0_0_0 (k2_off22 k) (k2_off22_inb k hc3) _ hE' _ _ _ _))
      iexact Hf0
    isplitl [Hf1]
    · iapply (Flight_mono (F := F) (gDeliver' (F := F) d L 1 inb_S4x64x128_S1x64x128_1_0_0 (k2_off42 k) (k2_off42_inb k hc5) _ hF' _ _ _ _))
      iexact Hf1
    isplitl [Hf2]
    · iapply (Flight_mono (F := F) (gDeliver' (F := F) d L 2 inb_S4x64x128_S1x64x128_2_0_0 (k2_off59 k) (k2_off59_inb k hc6) _ hG' _ _ _ _))
      iexact Hf2
    isplitl [Hr3']
    · iexists _
      iapply (Entails.of_eq (show ((slotK3).view.loc (V d (cV L) (jV L)) ↦[(slotK3).view.set]{fullShare} _ : sProp 𝕄)
          = (rowsV).view.loc (V d (cV L) (jV L)) ↦[slotSet 3]{fullShare} _ from by rw [show (slotK3).view.set = slotSet 3 from set_slot 3 _]))
      iexact Hr3'
    isplitl [Hidx HiA HiB HiC HiD']
    · iapply (idx_rejoin (F := F) d (cV L) (jV L) fullShare fi k.val)
      isplitl [HiA]; · iexact HiA
      isplitl [HiB]; · iexact HiB
      isplitl [HiC]; · iexact HiC
      isplitl [HiD']
      · iapply (Entails.of_eq (pts_set_congr (F := F) (ℓ := (idxV).view.loc (V d (cV L) (jV L))) hD fullShare fi))
        iexact HiD'
      iexact Hidx
    isplitl [Hg11]; · iexact Hg11
    iexact Hs7
  isplitl [Hdone Htodo Hs8 Hs9]
  · isplitl [Hdone]
    · rw [show 2 * (k.val + 1) - 2 = 2 * k.val - 2 by omega]; iexact Hdone
    isplitl [Htodo]; · iexact Htodo
    isplitl [Hs8]
    · iapply (Flight_mono (F := F) (wDeliver (F := F) v Zf I d L hv (2 * (k.val + 1) - 2) 0 inb_S2x4x128_S1x4x128_0_0_0 (k2_off40 L k 0#32) (k2_off40_inb L k 0)
        ((set_mGroup40_0 L k).trans (congrArg (mGroupSet (wid (cL L) (jL L))) (by omega))) _ _))
      iexact Hs8
    · iapply (Flight_mono (F := F) (wDeliver (F := F) v Zf I d L hv (2 * (k.val + 1) - 1) 1 inb_S2x4x128_S1x4x128_1_0_0 (k2_off40 L k 1#32) (k2_off40_inb L k 1)
        ((set_mGroup40_1 L k).trans (congrArg (mGroupSet (wid (cL L) (jL L))) (by omega))) _ _))
      iexact Hs9
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Trip

end Cert.Kernel.Hand

end
-- ==== Proof.KB.TileTripLast.lean ====
/-
  The last trip of the vector-subcore task's pipeline loop, from the loop's invariant to the invariant past the loop: nothing
  is left in flight on the gathers' side.
-/
import proofs.«208586_g21955872817707_cont_8to1_688_77_alg».proof.Proof.KB.TileTrip
import proofs.«208586_g21955872817707_cont_8to1_688_77_alg».proof.Proof.KB.TileGeom
import proofs.«208586_g21955872817707_cont_8to1_688_77_alg».proof.Proof.KB.TileGeomOut
import proofs.«208586_g21955872817707_cont_8to1_688_77_alg».proof.Proof.KB.TileJoin

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.Kernel.main_v8_scv : Memref Cert.Kernel.sig Kind.scVector Space.hbm Cert.Kernel.S10240x128 EltTy.f32)
local notation "iV" => (Memref.whole Cert.Kernel.main_v6_scv : Memref Cert.Kernel.sig Kind.scVector Space.hbm Cert.Kernel.S32x80x128 EltTy.i32)
local notation "mV" => (Memref.whole Cert.Kernel.main_v12_scv : Memref Cert.Kernel.sig Kind.scVector Space.hbm Cert.Kernel.S10240x128 EltTy.f32)
local notation "idxV" => (Memref.whole Cert.Kernel.cc2_scratch0 : Memref Cert.Kernel.sig Kind.scVector Space.vmem Cert.Kernel.S80x128 EltTy.i32)
local notation "rowsV" => (Memref.whole Cert.Kernel.cc2_scratch1 : Memref Cert.Kernel.sig Kind.scVector Space.vmem Cert.Kernel.S4x64x128 EltTy.f32)
local notation "outV" => (Memref.whole Cert.Kernel.cc2_scratch2 : Memref Cert.Kernel.sig Kind.scVector Space.vmem Cert.Kernel.S2x4x128 EltTy.f32)
local notation "shV" => (Memref.whole Cert.Kernel.cc2_scratch3 : Memref Cert.Kernel.sig Kind.scVector Space.shared Cert.Kernel.S10240x128 EltTy.f32)

section Trip

variable (d : Dev nD) (L : grid2.Coords)

/-- The four slots of the gathered rows are pairwise disjoint and cover the scratch. -/
theorem slotSet_disjoint {b b' : ℕ} (h : b ≠ b') : Disjoint (slotSet b) (slotSet b') := by
  refine Finset.disjoint_left.mpr fun y h1 h2 => ?_
  simp only [slotSet, Finset.mem_filter, Finset.mem_univ, _root_.true_and] at h1 h2
  omega
theorem slots_disjoint2 : Disjoint (slotSet 0 ∪ slotSet 1) (slotSet 2) :=
  Finset.disjoint_union_left.mpr ⟨slotSet_disjoint (by decide), slotSet_disjoint (by decide)⟩
theorem slots_disjoint3 : Disjoint (slotSet 0 ∪ slotSet 1 ∪ slotSet 2) (slotSet 3) :=
  Finset.disjoint_union_left.mpr ⟨Finset.disjoint_union_left.mpr ⟨slotSet_disjoint (by decide), slotSet_disjoint (by decide)⟩, slotSet_disjoint (by decide)⟩
theorem slots_cover : slotSet 0 ∪ slotSet 1 ∪ slotSet 2 ∪ slotSet 3 = (Finset.univ : Finset S4x64x128.Idx) := by
  ext y
  have h4 : (y 0).val < 4 := (y 0).isLt
  simp only [slotSet, Finset.mem_union, Finset.mem_filter, Finset.mem_univ, _root_.true_and, iff_true]
  omega

/-- The four slots held, each at contents of its own, are the whole scratch held at some contents. -/
theorem slots_join (c : Fin τ.nSC) (j : Fin τ.nSub) (q' : PosShare TreeShare) (R0 R1 R2 R3 : Buf (Elt F) ((V d c j).loc cc2_scratch1)) :
    iprop(((rowsV).view.loc (V d c j) ↦[slotSet 0]{q'} R0) ∗ ((rowsV).view.loc (V d c j) ↦[slotSet 1]{q'} R1)
        ∗ ((rowsV).view.loc (V d c j) ↦[slotSet 2]{q'} R2) ∗ ((rowsV).view.loc (V d c j) ↦[slotSet 3]{q'} R3))
      ⊢ (iprop(∃ R : Buf (Elt F) ((V d c j).loc cc2_scratch1), (rowsV).view.loc (V d c j) ↦{q'} R) : sProp 𝕄) := by
  iintro ⟨H0, H1, H2, H3⟩
  ihave H01 := (pointsTo_join (q := q') (f := R0) (g := R1) (slotSet_disjoint (show (0 : ℕ) ≠ 1 by decide))) $$ [H0 H1]
  · isplitl [H0]
    · iexact H0
    · iexact H1
  ihave H012 := (pointsTo_join (q := q') (g := R2) slots_disjoint2) $$ [H01 H2]
  · isplitl [H01]
    · iexact H01
    · iexact H2
  ihave H := (pointsTo_join (q := q') (g := R3) slots_disjoint3) $$ [H012 H3]
  · isplitl [H012]
    · iexact H012
    · iexact H3
  iexists _
  iapply (Entails.of_eq (pts_set_congr (F := F) (ℓ := (rowsV).view.loc (V d c j)) slots_cover q' _))
  iexact H

set_option maxHeartbeats 4000000 in
/-- The last trip of the loop (k = 39): both write-back waits happen, the gather into slot 3 is the only one issued, and
    nothing is left in flight on the gathers' side. -/
theorem trip_last (hv : ¬ v) (q : PosShare TreeShare) (g : Buf (Elt F) (shLoc d (cV L))) (fi : Buf (Elt F) ((V d (cV L) (jV L)).loc cc2_scratch0))
    (hidx : ∀ x, (fi x).toNat < 10000) (M0 : Buf (Elt F) (mLoc d)) (O : CellTallies nD τ sig (HIx 1)) (W0 : Waits sig (HIx 1)) (v1 : BitVec 32)
    (k : Fin k2_t1_loop.trips) (hk39 : k.val = 39) (a : PUnit) :
    inv v Zf I d L q g fi M0 O W0 k.val a
      ⊢ wp frame (wpE (defs₀ (F := F)) 𝒱₀ (V d (cV L) (jV L)) none) Set.univ
          (k2_t1_body L zV (Memref.isWhole_whole _) iV (Memref.isWhole_whole _) mV (Memref.isWhole_whole _) idxV (Memref.isWhole_whole _)
            rowsV (Memref.isWhole_whole _) outV (Memref.isWhole_whole _) shV (Memref.isWhole_whole _)
            cc2_scratch4 cc2_scratch5 cc2_scratch6 cc2_scratch7 cc2_scratch8 cc2_scratch9 cc2_scoped0 cc2_scoped1 v1 k a)
          (inv v Zf I d L q g fi M0 O W0 (k.val + 1)) := by
  have hk40 : k.val < 40 := by omega
  have hk0 : k.val ≠ 0 := by omega
  have hk1 : 1 ≤ k.val := by omega
  have hk38 : ¬ k.val < 39 := by omega
  have hc1 : k2_cond1 k = 1#1 := k2_cond1_of_pos k hk1
  have hc2 : k2_cond2 k = 1#1 := k2_cond2_true k
  have hc3 : ¬ k2_cond3 k = 1#1 := k2_cond3_of_not_lt k hk38
  have hc4 : k2_cond4 k = 1#1 := k2_cond4_of_pos k hk1
  have hc5 : ¬ k2_cond5 k = 1#1 := k2_cond5_of_not_lt k hk38
  have hc6 : ¬ k2_cond6 k = 1#1 := k2_cond6_of_not_lt k hk38
  -- the one offset list this trip's gather reads, as an index set
  have hD : (offK (k2_off4 k) (k2_off4_inb k hc2)).view.set = offSet (2 * k.val + 1) 64 := (set_offK _ _).trans (by simp only [k2_off4_eq]; rfl)
  have hDs : offSet (2 * k.val + 1) 64 ⊆ ((Finset.univ \ offSet (2 * k.val) 0) \ offSet (2 * k.val) 64) \ offSet (2 * k.val + 1) 0 := fun y hy => by
    simp only [offSet, Finset.mem_sdiff, Finset.mem_filter, Finset.mem_univ, _root_.true_and] at hy ⊢; omega
  have hin3 := hin_of (F := F) d L (k2_off4 k) (k2_off4_inb k hc2) _ hidx
  unfold inv gPart wPart
  rw [if_pos hk40, if_neg hk0]
  unfold gFlight wFlight k2_t1_body
  iintro ⟨#Hmw, ⟨Hf0, Hf1, Hf2, ⟨%R3, Hr3⟩, Hidx, Hg11, Hs7⟩, ⟨Hdone, Htodo, Hw0, Hw1⟩, %W', %hW', HO⟩
  -- carve this trip's offset list out of the index scratch, in the spelling the gather addresses it by
  ihave H1 := (pointsTo_split_subset (q := fullShare) hDs).1 $$ Hidx
  icases H1 with ⟨HiD, Hidx⟩
  ihave HiD' := (Entails.of_eq (pts_set_congr (F := F) (ℓ := (offK (k2_off4 k) (k2_off4_inb k hc2)).view.loc (V d (cV L) (jV L))) hD.symm fullShare fi)) $$ [HiD]
  · iexact HiD
  -- slot 3 in the spelling the gather addresses it by
  ihave Hr3' := (Entails.of_eq (show ((rowsV).view.loc (V d (cV L) (jV L)) ↦[slotSet 3]{fullShare} R3 : sProp 𝕄)
      = (slotK3).view.loc (V d (cV L) (jV L)) ↦[(slotK3).view.set]{fullShare} R3 from by rw [show (slotK3).view.set = slotSet 3 from set_slot 3 _])) $$ Hr3
  sl_exec
  -- the write-back of group 2 k - 2
  iapply (Transfers.wp_waitLocalO countersEmb 𝒱₀ (V d (cV L) (jV L)) none (default : HIx 1) (N := 16384) (by rfl)) $$ [Hw0 HO]
  · isplitl [Hw0]; · iexact Hw0
    isplitl [HO]; · iexact HO
    iapply (Transfers.MayWaits.elim (SemLoc.dma cc2_scratch8.sem)) $$ Hmw
  iintro ⟨⟨Hmg0, %fo0, Hout0⟩, Hs8, HO⟩
  sl_exec
  -- chunk 4 k has landed in slot 0 (the run took the wait): name its rows, respell the slot and half 0 of the output scratch
  icases Hf0_dst with ⟨⟨%R0, Hr0⟩, HiA⟩
  ihave Hr0' := (Entails.of_eq (show ((rowsV).view.loc (V d (cV L) (jV L)) ↦[slotSet 0]{fullShare} R0 : sProp 𝕄)
      = (slotK0).view.loc (V d (cV L) (jV L)) ↦[(slotK0).view.set]{fullShare} R0 from by rw [show (slotK0).view.set = slotSet 0 from set_slot 0 _])) $$ Hr0
  ihave Hout0' := (Entails.of_eq (pts_set_congr (F := F) (ℓ := (outK0).view.loc (V d (cV L) (jV L))) set_outK0.symm fullShare fo0)) $$ [Hout0]
  · iexact Hout0
  -- the two groups this trip writes, out of the rows still to do, in the spelling the write-backs address them by
  have hIco : Finset.Ico (2 * k.val) 80 = insert (2 * k.val) (insert (2 * k.val + 1) (Finset.Ico (2 * (k.val + 1)) 80)) := by
    ext n; simp only [Finset.mem_Ico, Finset.mem_insert]; omega
  ihave Ht := (Entails.of_eq (show (bigSep (Finset.Ico (2 * k.val) 80) fun n => ((mV).view.loc (V d (cV L) (jV L)) ↦[mGroupSet (wid (cL L) (jL L)) n]{fullShare} M0 : sProp 𝕄))
      = iprop(((mV).view.loc (V d (cV L) (jV L)) ↦[mGroupSet (wid (cL L) (jL L)) (2 * k.val)]{fullShare} M0)
          ∗ ((mV).view.loc (V d (cV L) (jV L)) ↦[mGroupSet (wid (cL L) (jL L)) (2 * k.val + 1)]{fullShare} M0)
          ∗ bigSep (Finset.Ico (2 * (k.val + 1)) 80) fun n => ((mV).view.loc (V d (cV L) (jV L)) ↦[mGroupSet (wid (cL L) (jL L)) n]{fullShare} M0 : sProp 𝕄)) from by
        rw [hIco, SparseCore.bigSep_insert' (by simp only [Finset.mem_insert, Finset.mem_Ico]; omega), SparseCore.bigSep_insert' (by simp only [Finset.mem_Ico]; omega)])) $$ Htodo
  icases Ht with ⟨Hma, Hmb, Htodo⟩
  ihave Hma' := (Entails.of_eq (pts_set_congr (F := F) (ℓ := ((mV).slice (Rect.unit (s := S10240x128) (k2_off40 L k 0#32) S4x128.size (k2_off40_inb L k 0)) (fun _ => rfl)).view.loc (V d (cV L) (jV L)))
      (set_mGroup40_0 L k).symm fullShare M0)) $$ [Hma]
  · iexact Hma
  ihave Hmb' := (Entails.of_eq (pts_set_congr (F := F) (ℓ := ((mV).slice (Rect.unit (s := S10240x128) (k2_off40 L k 1#32) S4x128.size (k2_off40_inb L k 1)) (fun _ => rfl)).view.loc (V d (cV L) (jV L)))
      (set_mGroup40_1 L k).symm fullShare M0)) $$ [Hmb]
  · iexact Hmb
  sl_exec
  -- chunk 4 k + 1 has landed in slot 1
  icases Hf1_dst with ⟨⟨%R1, Hr1⟩, HiB⟩
  ihave Hr1' := (Entails.of_eq (show ((rowsV).view.loc (V d (cV L) (jV L)) ↦[slotSet 1]{fullShare} R1 : sProp 𝕄)
      = (slotK1).view.loc (V d (cV L) (jV L)) ↦[(slotK1).view.set]{fullShare} R1 from by rw [show (slotK1).view.set = slotSet 1 from set_slot 1 _])) $$ Hr1
  sl_exec
  -- the write-back of group 2 k - 1
  iapply (Transfers.wp_waitLocalO countersEmb 𝒱₀ (V d (cV L) (jV L)) none (default : HIx 1) (N := 16384) (by rfl)) $$ [Hw1 HO]
  · isplitl [Hw1]; · iexact Hw1
    isplitl [HO]; · iexact HO
    iapply (Transfers.MayWaits.elim (SemLoc.dma cc2_scratch9.sem)) $$ Hmw
  iintro ⟨⟨Hmg1, %fo1, Hout1⟩, Hs9, HO⟩
  ihave Hout1' := (Entails.of_eq (pts_set_congr (F := F) (ℓ := (outK1).view.loc (V d (cV L) (jV L))) set_outK1.symm fullShare fo1)) $$ [Hout1]
  · iexact Hout1
  sl_exec
  -- chunk 4 k + 2 has landed in slot 2
  icases Hf2_dst with ⟨⟨%R2, Hr2⟩, HiC⟩
  ihave Hr2' := (Entails.of_eq (show ((rowsV).view.loc (V d (cV L) (jV L)) ↦[slotSet 2]{fullShare} R2 : sProp 𝕄)
      = (slotK2).view.loc (V d (cV L) (jV L)) ↦[(slotK2).view.set]{fullShare} R2 from by rw [show (slotK2).view.set = slotSet 2 from set_slot 2 _])) $$ Hr2
  sl_exec
  sl_step
  -- the invariant past the last trip: nothing in flight on the gathers' side
  rw [if_neg (show ¬ k.val + 1 < 40 by omega), if_neg (show ¬ k.val + 1 = 0 by omega)]
  isplitr; · iexact Hmw
  isplitl [Hr0' Hr1' Hr2' Hr3' Hidx HiA HiB HiC HiD' Hf0_src Hf1_src Hf2_src Hg11 Hf0 Hf1 Hf2 Hs7]
  · -- the four slots back in the invariant's spelling, joined
    isplitl [Hr0' Hr1' Hr2' Hr3']
    ·
      ihave Hr0 := (Entails.of_eq (show ((slotK0).view.loc (V d (cV L) (jV L)) ↦[(slotK0).view.set]{fullShare} R0 : sProp 𝕄)
          = (rowsV).view.loc (V d (cV L) (jV L)) ↦[slotSet 0]{fullShare} R0 from by rw [show (slotK0).view.set = slotSet 0 from set_slot 0 _])) $$ Hr0'
      ihave Hr1 := (Entails.of_eq (show ((slotK1).view.loc (V d (cV L) (jV L)) ↦[(slotK1).view.set]{fullShare} R1 : sProp 𝕄)
          = (rowsV).view.loc (V d (cV L) (jV L)) ↦[slotSet 1]{fullShare} R1 from by rw [show (slotK1).view.set = slotSet 1 from set_slot 1 _])) $$ Hr1'
      ihave Hr2 := (Entails.of_eq (show ((slotK2).view.loc (V d (cV L) (jV L)) ↦[(slotK2).view.set]{fullShare} R2 : sProp 𝕄)
          = (rowsV).view.loc (V d (cV L) (jV L)) ↦[slotSet 2]{fullShare} R2 from by rw [show (slotK2).view.set = slotSet 2 from set_slot 2 _])) $$ Hr2'
      ihave Hr3 := (Entails.of_eq (show ((slotK3).view.loc (V d (cV L) (jV L)) ↦[(slotK3).view.set]{fullShare} _ : sProp 𝕄)
          = (rowsV).view.loc (V d (cV L) (jV L)) ↦[slotSet 3]{fullShare} _ from by rw [show (slotK3).view.set = slotSet 3 from set_slot 3 _])) $$ Hr3'
      iapply (slots_join (F := F) d (cV L) (jV L) fullShare _ _ _ _)
      isplitl [Hr0]; · iexact Hr0
      isplitl [Hr1]; · iexact Hr1
      isplitl [Hr2]; · iexact Hr2
      iexact Hr3
    -- the index scratch: the four lists of rows 2 k and 2 k + 1, and what their carvings left
    isplitl [Hidx HiA HiB HiC HiD']
    · ihave HiD := (Entails.of_eq (pts_set_congr (F := F) (ℓ := (idxV).view.loc (V d (cV L) (jV L))) hD fullShare fi)) $$ [HiD']
      · iexact HiD'
      iapply (idx_rejoin_last (F := F) d (cV L) (jV L) fullShare fi k.val)
      isplitl [HiA]; · iexact HiA
      isplitl [HiB]; · iexact HiB
      isplitl [HiC]; · iexact HiC
      isplitl [HiD]; · iexact HiD
      iexact Hidx
    isplitl [Hf0_src]; · iexact Hf0_src
    isplitl [Hf1_src]; · iexact Hf1_src
    isplitl [Hf2_src]; · iexact Hf2_src
    isplitl [Hg11]; · iexact Hg11
    isplitl [Hf0]; · iexact Hf0
    isplitl [Hf1]; · iexact Hf1
    isplitl [Hf2]; · iexact Hf2
    iexact Hs7
  isplitl [Hdone Hmg0 Hmg1 Htodo Hs8 Hs9]
  · isplitl [Hdone Hmg0 Hmg1]
    · iapply (Entails.of_eq (groups_done_succ (F := F) (fun n => iprop(∃ Mg : Buf (Elt F) (mLoc d), ⌜GroupSpec v Zf I d L n Mg⌝
          ∗ (mV).view.loc (V d (cV L) (jV L)) ↦[mGroupSet (wid (cL L) (jL L)) n]{fullShare} Mg)) k.val hk1))
      isplitl [Hdone]; · iexact Hdone
      isplitl [Hmg0]; · iexact Hmg0
      iexact Hmg1
    isplitl [Htodo]; · iexact Htodo
    isplitl [Hs8]
    · iapply (Flight_mono (F := F) (wDeliver (F := F) v Zf I d L hv (2 * (k.val + 1) - 2) 0 inb_S2x4x128_S1x4x128_0_0_0 (k2_off40 L k 0#32) (k2_off40_inb L k 0)
        ((set_mGroup40_0 L k).trans (by congr 1)) _ _))
      iexact Hs8
    · iapply (Flight_mono (F := F) (wDeliver (F := F) v Zf I d L hv (2 * (k.val + 1) - 1) 1 inb_S2x4x128_S1x4x128_1_0_0 (k2_off40 L k 1#32) (k2_off40_inb L k 1)
        ((set_mGroup40_1 L k).trans (by congr 1)) _ _))
      iexact Hs9
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Trip

end Cert.Kernel.Hand

end
-- ==== Proof.KB.Tile.lean ====
/-
  The vector-subcore task: its body obligation.
-/
import proofs.«208586_g21955872817707_cont_8to1_688_77_alg».proof.Proof.KB.TileInv
import proofs.«208586_g21955872817707_cont_8to1_688_77_alg».proof.Proof.KB.TileTrip
import proofs.«208586_g21955872817707_cont_8to1_688_77_alg».proof.Proof.KB.TileTripFirst
import proofs.«208586_g21955872817707_cont_8to1_688_77_alg».proof.Proof.KB.TileTripLast

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.Kernel.main_v8_scv : Memref Cert.Kernel.sig Kind.scVector Space.hbm Cert.Kernel.S10240x128 EltTy.f32)
local notation "iV" => (Memref.whole Cert.Kernel.main_v6_scv : Memref Cert.Kernel.sig Kind.scVector Space.hbm Cert.Kernel.S32x80x128 EltTy.i32)
local notation "mV" => (Memref.whole Cert.Kernel.main_v12_scv : Memref Cert.Kernel.sig Kind.scVector Space.hbm Cert.Kernel.S10240x128 EltTy.f32)
local notation "idxV" => (Memref.whole Cert.Kernel.cc2_scratch0 : Memref Cert.Kernel.sig Kind.scVector Space.vmem Cert.Kernel.S80x128 EltTy.i32)
local notation "rowsV" => (Memref.whole Cert.Kernel.cc2_scratch1 : Memref Cert.Kernel.sig Kind.scVector Space.vmem Cert.Kernel.S4x64x128 EltTy.f32)
local notation "outV" => (Memref.whole Cert.Kernel.cc2_scratch2 : Memref Cert.Kernel.sig Kind.scVector Space.vmem Cert.Kernel.S2x4x128 EltTy.f32)
local notation "shV" => (Memref.whole Cert.Kernel.cc2_scratch3 : Memref Cert.Kernel.sig Kind.scVector Space.shared Cert.Kernel.S10240x128 EltTy.f32)

section Tile

variable (d : Dev nD) (L : grid2.Coords)

set_option maxHeartbeats 4000000 in
/-- The task on vector subcore (L 0, L 1) of device d. -/
theorem tile_body (hv : ¬ v) (hF : (K (F := F)).Facts) (hI : ∀ d j, (I d j).toNat < 10000) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit Zf d (cV L) (jV L)
        ∗ goC Zf I d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc2__sc_gather_max L zV (Memref.isWhole_whole _) iV (Memref.isWhole_whole _) mV (Memref.isWhole_whole _) idxV (Memref.isWhole_whole _)
            rowsV (Memref.isWhole_whole _) outV (Memref.isWhole_whole _) shV (Memref.isWhole_whole _)
            cc2_scratch4 cc2_scratch5 cc2_scratch6 cc2_scratch7 cc2_scratch8 cc2_scratch9 cc2_scoped0 cc2_scoped1)
          fun _ => iprop(tdC v Zf I d (cL L) (cV L) (jL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc2__sc_gather_max_eq_skeleton]; unfold cc2__sc_gather_max_skel
  rw [(K (F := F)).scopedBufs_V hF d (cV L) (jV L), SparseCore.Cfg.scopedSems0_V (Val := Elt F) d (cV L) (jV L), ownSems0_V, ownBufs_V]
  unfold bkit goC zPts
  iintro ⟨#Hlv, ⟨⟨%κ, #Hinv⟩, Htoks, #Hrch, Hat, Hcred⟩, ⟨⟨%Z, %hZ, Hz⟩, Hi, ⟨%M0, Hm⟩, %fsh, Hsh⟩, ⟨⟨%fidx, Hidx⟩, ⟨%frows, Hrows⟩, ⟨%fout, Hout⟩, Hbufs⟩, ⟨Hs0, Hs1, Hs4, Hs5, Hs6, Hs7, Hs8, Hs9, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iTileK (F := F) d L _ _).symm) $$ Hi
  ihave Hz' := (Entails.of_eq (pts_zSliceK (F := F) d L _ _).symm) $$ Hz
  ihave Hsh' := (Entails.of_eq (pts_shSliceK (F := F) d L _ _).symm) $$ Hsh
  ihave Hidx' := (Entails.of_eq (pts_idxV (F := F) d L _).symm) $$ Hidx
  ihave Hrows' := (Entails.of_eq (pts_rowsV (F := F) d L _).symm) $$ Hrows
  ihave Hout' := (Entails.of_eq (pts_outV (F := F) d L _).symm) $$ Hout
  sl_exec
  -- the staged slice holds z on its rows below 10000
  have hstage : ZOn Zf (zSlice (jL L)) ((shSliceK L).view.writes (Elt F) fsh [⟨Rect.whole S640x128, tile_body.sl.dma0_1 d L Z⟩]) := by
    intro y hy
    have hy' : emb y ∈ (shSliceK L).view.set := by rw [set_shSliceK]; exact hy
    obtain ⟨x, -, hx⟩ := Finset.mem_map.mp hy'
    have h1 := View.read_writes_cons_emb (shSliceK L).view fsh (Rect.whole S640x128) (tile_body.sl.dma0_1 d L Z) [] x
    rw [View.read_apply] at h1
    have h2 : (Rect.whole S640x128).emb x = x := by
      funext a; exact Fin.ext (by simp [Rect.whole])
    rw [h2, cast_eq, hx] at h1
    rw [h1]
    unfold tile_body.sl.dma0_1
    show View.read (Elt F) (zSliceK L).view Z x = Zf y
    rw [View.read_apply, cast_eq]
    have h3 : (zSliceK L).view.emb x = emb y := hx
    rw [h3]
    exact hZ y hy
  ihave Hsh2 := (Entails.of_eq (pts_shSliceK (F := F) d L _ _)) $$ Hsh'
  ihave Hp := (pays_intro Zf d L _ hstage) $$ Hsh2
  icases Hp with ⟨Hshd, Hpays⟩
  iapply (SparseCore.wp_subcoreBarrier 𝒱₀ none EB (bRd Zf) d (sc := cV L) (i := jV L) sc_bar0 (grid2.bound 1) hsub2 (L 1) rfl κ (fun _ => 0) (jV L).val
      (fun j => bRd_mem₀ Zf d _ _ _) (fun _ => rfl) (bRd_expect Zf d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim Zf d L) $$ Hgot
  icases Hall with ⟨%g, %hg, Hg⟩
  ihave Hg' := (Entails.of_eq (pts_shAllK (F := F) d L _ _).symm) $$ Hg
  -- every index word the tile fetched names a row of z
  have hidx : ∀ x, ((View.write (Elt F) (idxV).view fidx (tile_body.sl.dma0 I d L) Finset.univ) x).toNat < 10000 := by
    intro x
    show ((View.whole (cc2_scratch0 : Ref sig .scVector)).write (Elt F) fidx (tile_body.sl.dma0 I d L) Finset.univ x).toNat < 10000
    rw [View.write_whole_univ]
    unfold tile_body.sl.dma0
    show (View.read (Elt F) (iTileK L).view (I d) x).toNat < 10000
    rw [View.read_apply, cast_eq]
    exact hI d _
  have hin0 := hin_of (F := F) d L ![0, 0] inb_S80x128_S1x64_0_0 _ hidx
  have hin1 := hin_of (F := F) d L ![0, 64] inb_S80x128_S1x64_0_64 _ hidx
  have hin2 := hin_of (F := F) d L ![1, 0] inb_S80x128_S1x64_1_0 _ hidx
  ihave Hgs := (gtoks (F := F) _ _ _).1 $$ Hg'
  icases Hgs with ⟨Hg8, Hg9, Hg10, Hg11, Hgr⟩
  sl_exec
  -- the pipeline loop
  sl_for (inv v Zf I d L (shareTok fullShare 16 (jL L)) g (View.write (Elt F) (idxV).view fidx (tile_body.sl.dma0 I d L) Finset.univ) M0 O
      (insert (SemLoc.reg sc_bar0, some 0) (insert (SemLoc.dma cc2_scoped1.sem, default) (insert (SemLoc.dma cc2_scoped0.sem, default) W))))
    $$ [Hmw2 Hs4 Hs5 Hs6 Hs7 Hs8 Hs9 Hg8 Hg9 Hg10 Hg11 Hrows' Hidx' Hout' Hm HO]
  case region =>
    intro k a
    by_cases hk0 : k.val = 0
    · exact trip_first v Zf I d L hv _ g _ hidx M0 O _ (tile_body.sl.v1 L) k hk0 a
    by_cases hk39 : k.val = 39
    · exact trip_last v Zf I d L hv _ g _ hidx M0 O _ (tile_body.sl.v1 L) k hk39 a
    exact trip_mid v Zf I d L hv _ g _ hidx M0 O _ (tile_body.sl.v1 L) k hk0 hk39 a
  · unfold inv gPart wPart
    rw [if_pos (by decide), if_pos rfl]
    isplitl [Hmw2]; · iexact Hmw2
    isplitl [Hs4 Hs5 Hs6 Hs7 Hg11 Hrows' Hidx']
    · isplitl [Hs4]
      · unfold gFlight
        iapply (Flight_mono (F := F) (gDeliver (F := F) d L 0 inb_S4x64x128_S1x64x128_0_0_0 ![0, 0] inb_S80x128_S1x64_0_0 _ _ _ _))
        iexact Hs4
      isplitl [Hs5]
      · unfold gFlight
        iapply (Flight_mono (F := F) (gDeliver (F := F) d L 1 inb_S4x64x128_S1x64x128_1_0_0 ![0, 64] inb_S80x128_S1x64_0_64 _ _ _ _))
        iexact Hs5
      isplitl [Hs6]
      · unfold gFlight
        iapply (Flight_mono (F := F) (gDeliver (F := F) d L 2 inb_S4x64x128_S1x64x128_2_0_0 ![1, 0] inb_S80x128_S1x64_1_0 _ _ _ _))
        iexact Hs6
      isplitl [Hrows']
      · iexists _
        iapply (Entails.of_eq (congrArg (fun S => ((rowsV).view.loc (V d (cV L) (jV L)) ↦[S]{fullShare} _ : sProp 𝕄)) slots_rest))
        rw [← set_slot 0 inb_S4x64x128_S1x64x128_0_0_0, ← set_slot 1 inb_S4x64x128_S1x64x128_1_0_0, ← set_slot 2 inb_S4x64x128_S1x64x128_2_0_0]
        iexact Hrows'
      isplitl [Hidx']
      · rw [show offSet (2 * 0) 0 = (offK ![0, 0] inb_S80x128_S1x64_0_0).view.set from (set_offK _ _).symm,
          show offSet (2 * 0) 64 = (offK ![0, 64] inb_S80x128_S1x64_0_64).view.set from (set_offK _ _).symm,
          show offSet (2 * 0 + 1) 0 = (offK ![1, 0] inb_S80x128_S1x64_1_0).view.set from (set_offK _ _).symm]
        iexact Hidx'
      isplitl [Hg11]; · iexact Hg11
      iexact Hs7
    isplitl [Hm Hout' Hs8 Hs9]
    · isplitr; · rw [show Finset.range (2 * 0 - 2) = ∅ from rfl, bigSep_empty]; iempintro
      isplitl [Hm]
      · rw [show Finset.Ico (2 * 0) 80 = Finset.range 80 from by decide]
        iapply (Entails.of_eq (pointsTo_biUnion (Finset.range 80) (ℓ := mLoc d) (mGroupSet (wid (cL L) (jL L))) (mGroup_disjoint _ _)))
        rw [mGroup_cover]
        iexact Hm
      isplitl [Hout']; · iexists _; iexact Hout'
      isplitl [Hs8]; · iexact Hs8
      iexact Hs9
    iexists _; isplitr
    swap; · iexact HO
    ipureintro; exact fun p hp => .inl hp
  iintro %a HI
  have htr : Scf.trips k2_t1_loop.lb k2_t1_loop.ub k2_t1_loop.st = 40 := by decide
  rw [htr]
  ihave HI' := (inv_end v Zf I d L _ _ _ _ _ _ a) $$ HI
  unfold invEnd
  icases HI' with ⟨#Hmw, ⟨⟨%Rf, Hrows⟩, Hidx, Hg8, Hg9, Hg10, Hg11, Hs4, Hs5, Hs6, Hs7⟩, ⟨Hdone, Htodo, Hw0, Hw1⟩, %W', %hW', HO⟩
  -- the last two write-backs
  sl_exec
  unfold wFlight
  iapply (Transfers.wp_waitLocalO countersEmb 𝒱₀ (V d (cV L) (jV L)) none (default : HIx 1) (N := 16384) (by rfl)) $$ [Hw0 HO]
  · isplitl [Hw0]; · iexact Hw0
    isplitl [HO]; · iexact HO
    iapply (Transfers.MayWaits.elim (SemLoc.dma cc2_scratch8.sem)) $$ Hmw
  iintro ⟨⟨⟨%Mg78, %hM78, Hm78⟩, %fo0, Hout0⟩, Hs8, HO⟩
  sl_exec
  iapply (Transfers.wp_waitLocalO countersEmb 𝒱₀ (V d (cV L) (jV L)) none (default : HIx 1) (N := 16384) (by rfl)) $$ [Hw1 HO]
  · isplitl [Hw1]; · iexact Hw1
    isplitl [HO]; · iexact HO
    iapply (Transfers.MayWaits.elim (SemLoc.dma cc2_scratch9.sem)) $$ Hmw
  iintro ⟨⟨⟨%Mg79, %hM79, Hm79⟩, %fo1, Hout1⟩, Hs9, HO⟩
  sl_exec
  sl_step
  unfold tdC zPts
  isplitl [Hz' Hi' Hdone Hm78 Hm79 Hg8 Hg9 Hg10 Hg11 Hgr Hshd]
  · isplitl [Hz']
    · iexists Z; isplitr; · ipureintro; exact hZ
      iapply (Entails.of_eq (pts_zSliceK (F := F) d L _ _)); iexact Hz'
    isplitl [Hi']; · iapply (Entails.of_eq (pts_iTileK (F := F) d L _ _)); iexact Hi'
    isplitl [Hdone Hm78 Hm79]
    · iapply (m_join v Zf I d L M0)
      rw [show Finset.range 80 = insert 79 (insert 78 (Finset.range 78)) from by decide,
        SparseCore.bigSep_insert' (by decide), SparseCore.bigSep_insert' (by decide)]
      isplitl [Hm79]
      · iexists Mg79; isplitr; · ipureintro; exact hM79
        iexact Hm79
      isplitl [Hm78]
      · iexists Mg78; isplitr; · ipureintro; exact hM78
        iexact Hm78
      iexact Hdone
    isplitl [Hg8 Hg9 Hg10 Hg11 Hgr]
    · iexists g
      iapply (Entails.of_eq (pts_shAllK (F := F) d L _ _))
      iapply (gtoks (F := F) _ _ _).2
      isplitl [Hg8]; · iexact Hg8
      isplitl [Hg9]; · iexact Hg9
      isplitl [Hg10]; · iexact Hg10
      isplitl [Hg11]; · iexact Hg11
      iexact Hgr
    · iexists _; iexact Hshd
  isplitl [Hidx Hrows Hout0 Hout1 Hbufs]
  · isplitl [Hidx]; · iexists _; iexact Hidx
    isplitl [Hrows]; · iexists _; iexact Hrows
    isplitl [Hout0 Hout1]
    · iapply (out_join (F := F) d L)
      isplitl [Hout0]
      · iexists fo0; iexact Hout0
      · iexists fo1; iexact Hout1
    iexact Hbufs
  isplitl [Hs0 Hs1 Hs4 Hs5 Hs6 Hs7 Hs8 Hs9 Hsems]
  · isplitl [Hs0]; · iexact Hs0
    isplitl [Hs1]; · iexact Hs1
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__sc_gather_max (coordsV c s)
          zV (Memref.isWhole_whole _) iV (Memref.isWhole_whole _) mV (Memref.isWhole_whole _) idxV (Memref.isWhole_whole _)
          rowsV (Memref.isWhole_whole _) outV (Memref.isWhole_whole _) shV (Memref.isWhole_whole _)
          cc2_scratch4 cc2_scratch5 cc2_scratch6 cc2_scratch7 cc2_scratch8 cc2_scratch9 cc2_scoped0 cc2_scoped1) ⟨⟩ c s := rfl

set_option maxRecDepth 16384 in
theorem tileObl (hv : ¬ v) (hF : (K (F := F)).Facts) (hI : ∀ d j, (I d j).toNat < 10000) : (K (F := F)).TileObl (D (F := F)) 𝒱 (P v Zf I) v₀ 0 := by
  intro d c i O W hO hOlev _
  have hci : ((K (F := F)).core 0 c).val < grid2.bound 0 ∧ ((K (F := F)).sub 0 i).val < grid2.bound 1 := ⟨c.isLt, i.isLt⟩
  rw [ox_V, x_V, go_eq, td_eq]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body v Zf I d (coordsV ⟨_, hci.1⟩ ⟨_, hci.2⟩) hv hF hI O W hO hOlev

end Tile

end Cert.Kernel.Hand

end
-- ==== Proof.KI.TileValue1.lean ====
/-
  What a landed gather leaves in a slot of the gathered-rows scratch: row r of the slot is the source's row named by
  the r-th word of the gather's offset list, channel by channel; over a source that is z on its rows below 10000, and a
  word below 10000, it is z's row.
-/
import proofs.«208586_g21955872817707_cont_8to1_688_77_alg».proof.Proof.KI.TileSets
import Idealize.ShloMosaic.Lib.ValueLayout
import Idealize.ShloMosaic.Lib.SparseCore.Stream

noncomputable section

namespace Cert.KernelIdeal.Hand

open Cert.KernelIdeal Cert.KernelIdeal.Gen
open Idealize.ShloMosaic

variable {F : FTy → Type}

local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "shV" => (Memref.whole Cert.KernelIdeal.cc2_scratch3 : Memref Cert.KernelIdeal.sig Kind.scVector Space.shared Cert.KernelIdeal.S10240x128 EltTy.f32)

/-- A rank-one index is its row-major position. -/
theorem rowMajor_symm_one {n : ℕ} (q : Fin (⟨1, ![n]⟩ : Shape).numel) (h : q.val < n) :
    (⟨1, ![n]⟩ : Shape).rowMajor.symm q = ValueIdx.ix1 (⟨q.val, h⟩ : Fin n) := by
  rw [Equiv.symm_apply_eq]
  apply Fin.ext
  rw [Shape.rowMajor_val_one]
  rfl

/-- Word r of the 64-word offset list at (row, col) of the index scratch: the scratch's word (row, col + r). -/
abbrev offWord (fi : S80x128.Idx → BitVec 32) (off : Fin 2 → ℕ) (inb : ∀ a, off a + S1x64.size a ≤ S80x128.size a) (r : Fin 64) : BitVec 32 :=
  fi (ix2 (⟨off 0, by have := inb 0; simp at this; omega⟩ : Fin 80) (⟨off 1 + r.val, by have := inb 1; simp at this; omega⟩ : Fin 128))

/-- The offset list read at r is that word. -/
theorem offK_read (off : Fin 2 → ℕ) (inb : ∀ a, off a + S1x64.size a ≤ S80x128.size a) (fi : S80x128.Idx → BitVec 32) (r : Fin 64) :
    (offK off inb).view.read (Elt F) fi (ValueIdx.ix1 r) = offWord fi off inb r := by
  rw [View.read_apply]
  show fi ((Rect.unit (s := S80x128) off S1x64.size inb).emb (Shape.reshapeEquiv squeezes_S1x64_S64.numel_eq (ValueIdx.ix1 r))) = _
  have hJ : Shape.reshapeEquiv squeezes_S1x64_S64.numel_eq (ValueIdx.ix1 r) = (ValueIdx.ix2 (0 : Fin 1) r : S1x64.Idx) :=
    Shape.reshapeEquiv_eq_of_rowMajor _ (by
      rw [Shape.rowMajor_val_two, Shape.rowMajor_val_one]
      show 0 * 64 + r.val = r.val
      omega)
  rw [hJ]
  congr 1
  funext a
  apply Fin.ext
  match a with
  | ⟨0, _⟩ => show off 0 + 1 * 0 = off 0; omega
  | ⟨1, _⟩ => show off 1 + 1 * r.val = off 1 + r.val; omega

/-- Slot b of the gathered-rows scratch as the kernel addresses it: the slot's slice, its unit axis dropped. -/
abbrev slotAt (b : ℕ) (inbS : ∀ a, (![b, 0, 0] : Fin 3 → ℕ) a + S1x64x128.size a ≤ S4x64x128.size a) : Memref sig .scVector .vmem S64x128 .f32 :=
  ((rowsV).slice (Rect.unit (s := S4x64x128) ![b, 0, 0] S1x64x128.size inbS) (fun _ => rfl)).squeeze S64x128 squeezes_S1x64x128_S64x128

/-- Element (r, ch) of slot b is element (b, r, ch) of the scratch. -/
theorem slotAt_emb (b : ℕ) (hb : b < 4) (inbS : ∀ a, (![b, 0, 0] : Fin 3 → ℕ) a + S1x64x128.size a ≤ S4x64x128.size a)
    (r : Fin 64) (ch : Fin 128) :
    (slotAt b inbS).view.emb (ValueIdx.ix2 r ch) = ix3 (⟨b, hb⟩ : Fin 4) r ch := by
  show (Rect.unit (s := S4x64x128) ![b, 0, 0] S1x64x128.size inbS).emb
    (Shape.reshapeEquiv squeezes_S1x64x128_S64x128.numel_eq (ValueIdx.ix2 r ch)) = _
  rw [ValueIdx.reshapeEquiv_ix2_1ab]
  funext a
  apply Fin.ext
  match a with
  | ⟨0, _⟩ => show b + 1 * 0 = b; omega
  | ⟨1, _⟩ => show 0 + 1 * r.val = r.val; omega
  | ⟨2, _⟩ => show 0 + 1 * ch.val = ch.val; omega

/-- The whole shared copy read through its full slice is itself. -/
theorem shAll_read (hsh : ∀ a, (![0, 0] : Fin 2 → ℕ) a + S10240x128.size a ≤ S10240x128.size a)
    (g : S10240x128.Idx → Elt F .f32) (y : S10240x128.Idx) :
    ((shV).slice (Rect.unit (s := S10240x128) ![0, 0] S10240x128.size hsh) (fun _ => rfl)).view.read (Elt F) g y = g y := by
  rw [View.read_apply]
  show g ((Rect.unit (s := S10240x128) ![0, 0] S10240x128.size hsh).emb y) = g y
  congr 1
  funext a
  apply Fin.ext
  match a with
  | ⟨0, _⟩ => show 0 + 1 * (y 0).val = (y 0).val; omega
  | ⟨1, _⟩ => show 0 + 1 * (y 1).val = (y 1).val; omega

/-- WHAT A LANDED GATHER LEAVES: element (b, r, ch) of the gathered-rows scratch, after the gather into slot b through
    the 64-word offset list at (row, col) of the index scratch has landed, is the source's element at the row the
    list's r-th word names, channel ch. -/
theorem gather_slot_apply (b : ℕ) (hb : b < 4) (inbS : ∀ a, (![b, 0, 0] : Fin 3 → ℕ) a + S1x64x128.size a ≤ S4x64x128.size a)
    (off : Fin 2 → ℕ) (inbO : ∀ a, off a + S1x64.size a ≤ S80x128.size a)
    (hsh : ∀ a, (![0, 0] : Fin 2 → ℕ) a + S10240x128.size a ≤ S10240x128.size a)
    (X : S4x64x128.Idx → Elt F .f32) (fi : S80x128.Idx → BitVec 32) (g : S10240x128.Idx → Elt F .f32)
    (hn : S64.numel = S64x128.size gathers_S10240x128_S64x128.axis')
    (hin : ∀ x, ((offK off inbO).view.read (Elt F) fi x).toNat < S10240x128.size gathers_S10240x128_S64x128.axis)
    (r : Fin 64) (ch : Fin 128)
    (hw : (offWord fi off inbO r).toNat < 10240) :
    (slotAt b inbS).view.write (Elt F) X
        (SparseCore.gatherPayload gathers_S10240x128_S64x128
          (((shV).slice (Rect.unit (s := S10240x128) ![0, 0] S10240x128.size hsh) (fun _ => rfl)).view.read (Elt F) g)
          (SparseCore.rows ((offK off inbO).view.read (Elt F) fi) hn hin)) Finset.univ (ix3 (⟨b, hb⟩ : Fin 4) r ch)
      = g (ix2 (⟨(offWord fi off inbO r).toNat, hw⟩ : Fin 10240) ch) := by
  rw [← slotAt_emb b hb inbS r ch, View.write_emb_of_mem _ _ (Finset.mem_univ _)]
  rw [cast_eq]
  unfold SparseCore.gatherPayload
  rw [shAll_read]
  congr 1
  funext a
  match a with
  | ⟨0, _⟩ =>
    refine Fin.ext ?_
    show (gathers_S10240x128_S64x128.idx (SparseCore.rows ((offK off inbO).view.read (Elt F) fi) hn hin) (ValueIdx.ix2 r ch)
      gathers_S10240x128_S64x128.axis).val = (offWord fi off inbO r).toNat
    rw [Shape.Gathers.idx_axis]
    show ((offK off inbO).view.read (Elt F) fi (S64.rowMajor.symm ((r : Fin 64).cast hn.symm))).toNat = (offWord fi off inbO r).toNat
    rw [rowMajor_symm_one _ r.isLt]
    exact congrArg BitVec.toNat (offK_read (F := F) off inbO fi r)
  | ⟨1, _⟩ =>
    apply Fin.ext
    exact Shape.Gathers.idx_of_ne gathers_S10240x128_S64x128 _ (ValueIdx.ix2 r ch) ⟨1, by decide⟩ (by decide)

/-- The same over a source that is z on its rows below 10000, for a word below 10000: z at the named row. -/
theorem gather_slot_apply_Z (b : ℕ) (hb : b < 4) (inbS : ∀ a, (![b, 0, 0] : Fin 3 → ℕ) a + S1x64x128.size a ≤ S4x64x128.size a)
    (off : Fin 2 → ℕ) (inbO : ∀ a, off a + S1x64.size a ≤ S80x128.size a)
    (hsh : ∀ a, (![0, 0] : Fin 2 → ℕ) a + S10240x128.size a ≤ S10240x128.size a)
    (X : S4x64x128.Idx → Elt F .f32) (fi : S80x128.Idx → BitVec 32) (g : S10240x128.Idx → Elt F .f32)
    (Zf : S10000x128.Idx → Elt F .f32) (hZ : ZOn Zf Finset.univ g)
    (hn : S64.numel = S64x128.size gathers_S10240x128_S64x128.axis')
    (hin : ∀ x, ((offK off inbO).view.read (Elt F) fi x).toNat < S10240x128.size gathers_S10240x128_S64x128.axis)
    (r : Fin 64) (ch : Fin 128) (hw : (offWord fi off inbO r).toNat < 10000) :
    (slotAt b inbS).view.write (Elt F) X
        (SparseCore.gatherPayload gathers_S10240x128_S64x128
          (((shV).slice (Rect.unit (s := S10240x128) ![0, 0] S10240x128.size hsh) (fun _ => rfl)).view.read (Elt F) g)
          (SparseCore.rows ((offK off inbO).view.read (Elt F) fi) hn hin)) Finset.univ (ix3 (⟨b, hb⟩ : Fin 4) r ch)
      = Zf (ix2 (⟨(offWord fi off inbO r).toNat, hw⟩ : Fin 10000) ch) := by
  rw [gather_slot_apply (F := F) b hb inbS off inbO hsh X fi g hn hin r ch (by omega)]
  have he : (ix2 (⟨(offWord fi off inbO r).toNat, by omega⟩ : Fin 10240) ch : S10240x128.Idx)
      = emb (ix2 (⟨(offWord fi off inbO r).toNat, hw⟩ : Fin 10000) ch) := by
    funext a; match a with | ⟨0, _⟩ => rfl | ⟨1, _⟩ => rfl
  rw [he]
  exact hZ _ (Finset.mem_univ _)

end Cert.KernelIdeal.Hand

end
-- ==== Proof.KI.TileInvV.lean ====
/-
  The pipeline loop's invariant with the gathered rows' contents carried: a gather in flight delivers its slot of the
  rows scratch at contents that — when the value switch v is on — hold, on each of the slot's 64 rows, the row of z
  that the gather's offset list names there. Everything else is the frame-level invariant's.
-/
import proofs.«208586_g21955872817707_cont_8to1_688_77_alg».proof.Proof.KI.TileInv
import proofs.«208586_g21955872817707_cont_8to1_688_77_alg».proof.Proof.KI.TileValue1
import proofs.«208586_g21955872817707_cont_8to1_688_77_alg».proof.Proof.KI.TileGeom
import proofs.«208586_g21955872817707_cont_8to1_688_77_alg».proof.Proof.KI.TileGeomOut
import proofs.«208586_g21955872817707_cont_8to1_688_77_alg».proof.Proof.KI.TileJoin

noncomputable section

namespace Cert.KernelIdeal.Hand.Val

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "mV" => (Memref.whole Cert.KernelIdeal.main_v12_scv : Memref Cert.KernelIdeal.sig Kind.scVector Space.hbm Cert.KernelIdeal.S10240x128 EltTy.f32)
local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)
local notation "shV" => (Memref.whole Cert.KernelIdeal.cc2_scratch3 : Memref Cert.KernelIdeal.sig Kind.scVector Space.shared Cert.KernelIdeal.S10240x128 EltTy.f32)

section Tile

variable (d : Dev nD) (L : grid2.Coords)

/-- Slot b of the rows scratch holds what the gather through the 64-word list at (row, col) of the index words fi leaves:
    row r of the slot is the row of z that word (row, col + r) names, channel by channel — for every word below 10000. -/
def SlotSpec (fi : S80x128.Idx → BitVec 32) (b row col : ℕ) (R : S4x64x128.Idx → Elt F .f32) : Prop :=
  ∀ (hb : b < 4) (hrow : row < 80) (hcol : col + 64 ≤ 128) (r : Fin 64) (ch : Fin 128)
    (hw : (fi (ix2 (⟨row, hrow⟩ : Fin 80) (⟨col + r.val, by omega⟩ : Fin 128))).toNat < 10000),
    R (ix3 (⟨b, hb⟩ : Fin 4) r ch) = Zf (ix2 (⟨(fi (ix2 (⟨row, hrow⟩ : Fin 80) (⟨col + r.val, by omega⟩ : Fin 128))).toNat, hw⟩ : Fin 10000) ch)

section Inv
variable (q : PosShare TreeShare) (g : Buf (Elt F) (shLoc d (cV L))) (fi : Buf (Elt F) ((V d (cV L) (jV L)).loc cc2_scratch0))
  (M0 : Buf (Elt F) (mLoc d)) (O : CellTallies nD τ sig (HIx 1)) (W0 : Waits sig (HIx 1))

/-- The gather of a chunk in flight on gather semaphore b (cell 8 + b): it delivers slot b of the rows scratch written —
    at contents that, under v, are the rows of z its list names —, the chunk's offset list and the read token of the
    shared copy back. -/
def gFlight (b : ℕ) (hb : 8 + b < 20) (row col : ℕ) : sProp 𝕄 :=
  Transfers.Flight countersEmb (V d (cV L) (jV L)) (SemLoc.dma ⟨8 + b, hb⟩) (default : HIx 1) 262144
    iprop(((∃ R : Buf (Elt F) ((V d (cV L) (jV L)).loc cc2_scratch1), ⌜v → SlotSpec Zf fi b row col R⌝
          ∗ (rowsV).view.loc (V d (cV L) (jV L)) ↦[slotSet b]{fullShare} R)
        ∗ ((idxV).view.loc (V d (cV L) (jV L)) ↦[offSet row col]{fullShare} fi))
      ∗ ((shAllK).view.loc (V d (cV L) (jV L)) ↦[(shAllK).view.set]{Transfers.shareTokN q (8 + b)} g))

/-- The gathers' side before trip t, as at the frame level with the flights' deliveries specified. -/
def gPart (t : ℕ) : sProp 𝕄 :=
  if t < 40 then
    iprop(gFlight v Zf d L q g fi 0 (by decide) (2 * t) 0 ∗ gFlight v Zf d L q g fi 1 (by decide) (2 * t) 64 ∗ gFlight v Zf d L q g fi 2 (by decide) (2 * t + 1) 0
      ∗ (∃ R : Buf (Elt F) ((V d (cV L) (jV L)).loc cc2_scratch1), (rowsV).view.loc (V d (cV L) (jV L)) ↦[slotSet 3]{fullShare} R)
      ∗ ((idxV).view.loc (V d (cV L) (jV L)) ↦[((Finset.univ \ offSet (2 * t) 0) \ offSet (2 * t) 64) \ offSet (2 * t + 1) 0]{fullShare} fi)
      ∗ ((shAllK).view.loc (V d (cV L) (jV L)) ↦[(shAllK).view.set]{Transfers.shareTokN q 11} g)
      ∗ semVal (V d (cV L) (jV L), SemLoc.dma cc2_scratch7.sem) 0)
  else
    iprop((∃ R : Buf (Elt F) ((V d (cV L) (jV L)).loc cc2_scratch1), (rowsV).view.loc (V d (cV L) (jV L)) ↦{fullShare} R)
      ∗ ((idxV).view.loc (V d (cV L) (jV L)) ↦{fullShare} fi)
      ∗ ((shAllK).view.loc (V d (cV L) (jV L)) ↦[(shAllK).view.set]{Transfers.shareTokN q 8} g)
      ∗ ((shAllK).view.loc (V d (cV L) (jV L)) ↦[(shAllK).view.set]{Transfers.shareTokN q 9} g)
      ∗ ((shAllK).view.loc (V d (cV L) (jV L)) ↦[(shAllK).view.set]{Transfers.shareTokN q 10} g)
      ∗ ((shAllK).view.loc (V d (cV L) (jV L)) ↦[(shAllK).view.set]{Transfers.shareTokN q 11} g)
      ∗ semVal (V d (cV L) (jV L), SemLoc.dma cc2_scratch4.sem) 0 ∗ semVal (V d (cV L) (jV L), SemLoc.dma cc2_scratch5.sem) 0
      ∗ semVal (V d (cV L) (jV L), SemLoc.dma cc2_scratch6.sem) 0 ∗ semVal (V d (cV L) (jV L), SemLoc.dma cc2_scratch7.sem) 0)

/-- The loop's invariant before trip t: the frame-level one with the gathers' deliveries specified (the write-backs'
    side is the frame-level `wPart`, whose deliveries already carry the groups' values under v). -/
def inv (t : ℕ) (_ : PUnit) : sProp 𝕄 :=
  iprop(Transfers.MayWaits (V d (cV L) (jV L)) (default : HIx 1) O
    ∗ gPart v Zf d L q g fi t ∗ wPart v Zf I d L M0 t
    ∗ ∃ W', ⌜∀ p ∈ W', p ∈ W0 ∨ p.2 = none⌝ ∗ owes (V d (cV L) (jV L)) O W')

/-- Past the last trip nothing is in flight on the gathers' side: the invariant is the frame-level one's end. -/
theorem inv_end (a : PUnit) : inv v Zf I d L q g fi M0 O W0 40 a ⊢ invEnd v Zf I d L q g fi M0 O W0 := by
  unfold inv gPart wPart invEnd
  rw [if_neg (by decide), if_neg (by decide)]

/-- A specified flight is a frame-level flight: the slot's specification dropped. -/
theorem gFlight_forget (b : ℕ) (hb : 8 + b < 20) (row col : ℕ) :
    gFlight v Zf d L q g fi b hb row col ⊢ Hand.gFlight d L q g fi b hb row col := by
  unfold gFlight Hand.gFlight
  refine Flight_mono (F := F) ?_
  iintro ⟨⟨⟨%R, -, H1⟩, H2⟩, H3⟩
  isplitl [H1 H2]
  · isplitl [H1]; · iexists R; iexact H1
    iexact H2
  · iexact H3

end Inv

/-- What the gather's payload holds: element (r, ch) of it is the row of z the list's r-th word names. -/
theorem gatherPayload_apply_Z (off : Fin 2 → ℕ) (inbO : ∀ a, off a + S1x64.size a ≤ S80x128.size a)
    (hsh : ∀ a, (![0, 0] : Fin 2 → ℕ) a + S10240x128.size a ≤ S10240x128.size a)
    (fi : S80x128.Idx → BitVec 32) (g : S10240x128.Idx → Elt F .f32) (hZ : ZOn Zf Finset.univ g)
    (hn : S64.numel = S64x128.size gathers_S10240x128_S64x128.axis')
    (hin : ∀ x, ((offK off inbO).view.read (Elt F) fi x).toNat < S10240x128.size gathers_S10240x128_S64x128.axis)
    (r : Fin 64) (ch : Fin 128) (hw : (offWord fi off inbO r).toNat < 10000) :
    SparseCore.gatherPayload gathers_S10240x128_S64x128
        (((shV).slice (Rect.unit (s := S10240x128) ![0, 0] S10240x128.size hsh) (fun _ => rfl)).view.read (Elt F) g)
        (SparseCore.rows ((offK off inbO).view.read (Elt F) fi) hn hin) (ValueIdx.ix2 r ch)
      = Zf (ix2 (⟨(offWord fi off inbO r).toNat, hw⟩ : Fin 10000) ch) := by
  have h := gather_slot_apply_Z (F := F) 0 (by decide) inb_S4x64x128_S1x64x128_0_0_0 off inbO hsh (fun _ => g (ix2 (⟨0, by decide⟩ : Fin 10240) (⟨0, by decide⟩ : Fin 128))) fi g Zf hZ hn hin r ch hw
  rw [← slotAt_emb 0 (by decide) inb_S4x64x128_S1x64x128_0_0_0 r ch, View.write_emb_of_mem _ _ (Finset.mem_univ _), cast_eq] at h
  exact h

/-- THE SLOT AFTER A GATHER HAS LANDED, as the run leaves it (one whole-rectangle piece written over the slot): it holds
    the rows of z the list at (row, col) names, whatever it held before. -/
theorem slotSpec_writes (b : ℕ) (inbS : ∀ a, (![b, 0, 0] : Fin 3 → ℕ) a + S1x64x128.size a ≤ S4x64x128.size a)
    (off : Fin 2 → ℕ) (inbO : ∀ a, off a + S1x64.size a ≤ S80x128.size a) (row col : ℕ) (h0 : off 0 = row) (h1 : off 1 = col)
    (hsh : ∀ a, (![0, 0] : Fin 2 → ℕ) a + S10240x128.size a ≤ S10240x128.size a)
    (X : S4x64x128.Idx → Elt F .f32) (fi : S80x128.Idx → BitVec 32) (g : S10240x128.Idx → Elt F .f32) (hZ : ZOn Zf Finset.univ g)
    (hn : S64.numel = S64x128.size gathers_S10240x128_S64x128.axis')
    (hin : ∀ x, ((offK off inbO).view.read (Elt F) fi x).toNat < S10240x128.size gathers_S10240x128_S64x128.axis)
    (P : S64x128.Idx → Elt F .f32)
    (hP : P = SparseCore.gatherPayload gathers_S10240x128_S64x128
        (((shV).slice (Rect.unit (s := S10240x128) ![0, 0] S10240x128.size hsh) (fun _ => rfl)).view.read (Elt F) g)
        (SparseCore.rows ((offK off inbO).view.read (Elt F) fi) hn hin)) :
    SlotSpec Zf fi b row col ((slotAt b inbS).view.writes (Elt F) X [⟨Rect.whole S64x128, P⟩]) := by
  intro hb hrow hcol r ch hw
  subst h0 h1 hP
  have h1 := View.read_writes_cons_emb (slotAt b inbS).view X (Rect.whole S64x128)
    (SparseCore.gatherPayload gathers_S10240x128_S64x128
        (((shV).slice (Rect.unit (s := S10240x128) ![0, 0] S10240x128.size hsh) (fun _ => rfl)).view.read (Elt F) g)
        (SparseCore.rows ((offK off inbO).view.read (Elt F) fi) hn hin)) [] (ValueIdx.ix2 r ch)
  have h2 : (Rect.whole S64x128).emb (ValueIdx.ix2 r ch) = ValueIdx.ix2 r ch := by
    funext a; exact Fin.ext (by simp [Rect.whole])
  rw [View.read_apply, h2, cast_eq, slotAt_emb b hb inbS r ch] at h1
  rw [h1]
  exact gatherPayload_apply_Z Zf off inbO hsh fi g hZ hn hin r ch hw

/-- WHAT A GATHER ISSUED IN A TRIP DELIVERS, in the invariant's spelling, for any v: the slot at the contents X the run
    leaves, of which the caller shows the slot's specification (`slotSpec_writes`), the offset list and the slot named as
    index sets. -/
theorem gDeliver' (b : ℕ) (inbS : ∀ a, (![b, 0, 0] : Fin 3 → ℕ) a + S1x64x128.size a ≤ S4x64x128.size a)
    (off : Fin 2 → ℕ) (inbO : ∀ a, off a + S1x64.size a ≤ S80x128.size a) (S' : Finset S80x128.Idx) (hS : (offK off inbO).view.set = S')
    (row col : ℕ)
    (X : Buf (Elt F) ((V d (cV L) (jV L)).loc cc2_scratch1)) (fi : Buf (Elt F) ((V d (cV L) (jV L)).loc cc2_scratch0))
    (hX : v → SlotSpec Zf fi b row col X)
    (q' : PosShare TreeShare) (g : Buf (Elt F) (shLoc d (cV L))) :
    iprop((((rowsV).view.loc (V d (cV L) (jV L)) ↦[(((rowsV).slice (Rect.unit (s := S4x64x128) ![b, 0, 0] S1x64x128.size inbS) (fun _ => rfl)).squeeze S64x128 squeezes_S1x64x128_S64x128).view.set]{fullShare} X)
          ∗ ((idxV).view.loc (V d (cV L) (jV L)) ↦[(offK off inbO).view.set]{fullShare} fi))
        ∗ ((shAllK).view.loc (V d (cV L) (jV L)) ↦[(shAllK).view.set]{q'} g))
      ⊢ (iprop(((∃ R : Buf (Elt F) ((V d (cV L) (jV L)).loc cc2_scratch1), ⌜v → SlotSpec Zf fi b row col R⌝
            ∗ (rowsV).view.loc (V d (cV L) (jV L)) ↦[slotSet b]{fullShare} R)
          ∗ ((idxV).view.loc (V d (cV L) (jV L)) ↦[S']{fullShare} fi))
        ∗ ((shAllK).view.loc (V d (cV L) (jV L)) ↦[(shAllK).view.set]{q'} g)) : sProp 𝕄) := by
  subst hS
  rw [set_slot]
  iintro ⟨⟨H1, H2⟩, H3⟩
  isplitl [H1 H2]
  · isplitl [H1]
    · iexists X
      isplitr
      · ipureintro; exact hX
      · iexact H1
    iexact H2
  · iexact H3

/-- WHAT A WRITE-BACK ISSUED IN A TRIP DELIVERS, in the invariant's spelling, for any v: the group's rows at the contents X
    the run leaves, of which the caller shows the group's specification. -/
theorem wDeliver (n : ℕ) (ob : ℕ) (inbO : ∀ a, (![ob, 0, 0] : Fin 3 → ℕ) a + S1x4x128.size a ≤ S2x4x128.size a)
    (off : Fin 2 → ℕ) (inbM : ∀ a, off a + S4x128.size a ≤ S10240x128.size a)
    (hM : ((mV).slice (Rect.unit (s := S10240x128) off S4x128.size inbM) (fun _ => rfl)).view.set = mGroupSet (wid (cL L) (jL L)) n)
    (X : Buf (Elt F) (mLoc d)) (hX : GroupSpec v Zf I d L n X) (Y : Buf (Elt F) ((V d (cV L) (jV L)).loc cc2_scratch2)) :
    iprop(((mV).view.loc (V d (cV L) (jV L)) ↦[((mV).slice (Rect.unit (s := S10240x128) off S4x128.size inbM) (fun _ => rfl)).view.set]{fullShare} X)
        ∗ ((outV).view.loc (V d (cV L) (jV L)) ↦[(((outV).slice (Rect.unit (s := S2x4x128) ![ob, 0, 0] S1x4x128.size inbO) (fun _ => rfl)).squeeze S4x128 squeezes_S1x4x128_S4x128).view.set]{fullShare} Y))
      ⊢ (iprop((∃ Mg : Buf (Elt F) (mLoc d), ⌜GroupSpec v Zf I d L n Mg⌝ ∗ (mV).view.loc (V d (cV L) (jV L)) ↦[mGroupSet (wid (cL L) (jL L)) n]{fullShare} Mg)
        ∗ ∃ fo : Buf (Elt F) ((V d (cV L) (jV L)).loc cc2_scratch2), (outV).view.loc (V d (cV L) (jV L)) ↦[outSet ob]{fullShare} fo) : sProp 𝕄) := by
  rw [pts_set_congr (F := F) (ℓ := (mV).view.loc (V d (cV L) (jV L))) hM, pts_set_congr (F := F) (ℓ := (outV).view.loc (V d (cV L) (jV L))) (set_outK ob inbO)]
  iintro ⟨H1, H2⟩
  isplitl [H1]
  · iexists X; isplitr
    · ipureintro; exact hX
    · iexact H1
  · iexists Y; iexact H2

end Tile

end Cert.KernelIdeal.Hand.Val

end
-- ==== Proof.KI.TileValue2.lean ====
/-
  The value of the inner loops: when slot b of the gathered rows holds, on rows base … base + 31, the rows of z that a
  node's 32 index words name, the running maximum of the node's rows — started from row base's sixteen lanes of a lane
  group and folded over rows base + 1 … base + 31 in order — is the node's value on those sixteen channels.
-/
import proofs.«208586_g21955872817707_cont_8to1_688_77_alg».proof.Proof.KI.TileLoops

noncomputable section

namespace Cert.KernelIdeal.Hand

open Cert.KernelIdeal Cert.KernelIdeal.Gen

open Idealize.ShloMosaic

variable {F : FTy → Type} [FloatOps F]

/-- Two running maxima agree when they start from the same value and meet the same values at steps 1 … n. -/
theorem accMax_congr {a a' : F .f32} {z z' : ℕ → F .f32} (h0 : a = a') :
    ∀ n : ℕ, (∀ k, 1 ≤ k → k ≤ n → z k = z' k) → accMax a z n = accMax a' z' n
  | 0, _ => h0
  | n + 1, h => by
    show FloatOps.maximumf (accMax a z n) (z (n + 1)) = FloatOps.maximumf (accMax a' z' n) (z' (n + 1))
    rw [accMax_congr h0 n (fun k h1 h2 => h k h1 (Nat.le_succ_of_le h2)), h (n + 1) (Nat.succ_le_succ (Nat.zero_le n)) (Nat.le_refl _)]

/-- A remainder that changes nothing. -/
theorem fin_mod_eq {m x : ℕ} (h : x < m) (p : x % m < m) : (⟨x % m, p⟩ : Fin m) = ⟨x, h⟩ := Fin.ext (Nat.mod_eq_of_lt h)

/-- Channel 16 g + l is a channel. -/
theorem lane_lt (g : Fin 8) (l : S16.Idx) : 16 * g.val + (l 0).val < 128 := by
  have h1 : (l 0).val < 16 := (l 0).isLt
  have h2 := g.isLt
  omega

/-- The node's value on the sixteen channels of lane group g. -/
def nodeLanes (Zf : S10000x128.Idx → F .f32) (I : S32x80x128.Idx → BitVec 32) (hI : ∀ j, (I j).toNat < 10000)
    (w : Fin 32) (n : Fin 320) (g : Fin 8) : FVec F S16 .f32 :=
  fun l => nodeVal Zf I hI w n ⟨16 * g.val + (l 0).val, lane_lt g l⟩

/-- ONE LANE. Slot b's rows base … base + 31 hold the rows of z the node's words name (`hR`), and the lane group's
    starting value is row base's sixteen lanes (`ha`): then lane l of the fold is the node's value at channel 16 g + l. -/
theorem rowsAcc_apply_eq_nodeVal (R : S4x64x128.Idx → F .f32) (b : Fin 4) (base : ℕ) (hbase : base + 31 < 64)
    (Zf : S10000x128.Idx → F .f32) (I : S32x80x128.Idx → BitVec 32) (hI : ∀ j, (I j).toNat < 10000) (w : Fin 32) (n : Fin 320)
    (hR : ∀ (k : ℕ) (hk : k < 32) (ch : Fin 128),
      R (ix3 b ⟨base + k, by omega⟩ ch) = Zf (ix2 ⟨(nodeWord I w n k).toNat, hI _⟩ ch))
    (g : Fin 8) (a : FVec F S16 .f32)
    (ha : ∀ l : S16.Idx, a l = R (ix3 b ⟨base, by omega⟩ ⟨16 * g.val + (l 0).val, lane_lt g l⟩))
    (l : S16.Idx) :
    rowsAcc R b base g a l = nodeVal Zf I hI w n ⟨16 * g.val + (l 0).val, lane_lt g l⟩ := by
  unfold rowsAcc nodeVal
  rw [foldMax_eq_accMax]
  refine accMax_congr ?_ 31 ?_
  · rw [ha l]
    exact hR 0 (by omega) _
  · intro k h1 h2
    rw [fin_mod_eq (show base + k < 64 by omega), fin_mod_eq (lane_lt g l)]
    exact hR k (by omega) _

/-- ONE LANE GROUP: the fold's sixteen lanes are the node's values on channels 16 g … 16 g + 15. -/
theorem rowsAcc_eq_nodeLanes (R : S4x64x128.Idx → F .f32) (b : Fin 4) (base : ℕ) (hbase : base + 31 < 64)
    (Zf : S10000x128.Idx → F .f32) (I : S32x80x128.Idx → BitVec 32) (hI : ∀ j, (I j).toNat < 10000) (w : Fin 32) (n : Fin 320)
    (hR : ∀ (k : ℕ) (hk : k < 32) (ch : Fin 128),
      R (ix3 b ⟨base + k, by omega⟩ ch) = Zf (ix2 ⟨(nodeWord I w n k).toNat, hI _⟩ ch))
    (g : Fin 8) (a : FVec F S16 .f32)
    (ha : ∀ l : S16.Idx, a l = R (ix3 b ⟨base, by omega⟩ ⟨16 * g.val + (l 0).val, lane_lt g l⟩)) :
    rowsAcc R b base g a = nodeLanes Zf I hI w n g :=
  funext fun l => rowsAcc_apply_eq_nodeVal R b base hbase Zf I hI w n hR g a ha l

/-- ALL EIGHT LANE GROUPS, as the loop leaves them: the eight folds are the node's values on its 128 channels. -/
theorem rowsAcc8_eq_nodeLanes (R : S4x64x128.Idx → F .f32) (b : Fin 4) (base : ℕ) (hbase : base + 31 < 64)
    (Zf : S10000x128.Idx → F .f32) (I : S32x80x128.Idx → BitVec 32) (hI : ∀ j, (I j).toNat < 10000) (w : Fin 32) (n : Fin 320)
    (hR : ∀ (k : ℕ) (hk : k < 32) (ch : Fin 128),
      R (ix3 b ⟨base + k, by omega⟩ ch) = Zf (ix2 ⟨(nodeWord I w n k).toNat, hI _⟩ ch))
    (a0 a1 a2 a3 a4 a5 a6 a7 : FVec F S16 .f32)
    (h0 : ∀ l : S16.Idx, a0 l = R (ix3 b ⟨base, by omega⟩ ⟨16 * (0 : Fin 8).val + (l 0).val, lane_lt 0 l⟩))
    (h1 : ∀ l : S16.Idx, a1 l = R (ix3 b ⟨base, by omega⟩ ⟨16 * (1 : Fin 8).val + (l 0).val, lane_lt 1 l⟩))
    (h2 : ∀ l : S16.Idx, a2 l = R (ix3 b ⟨base, by omega⟩ ⟨16 * (2 : Fin 8).val + (l 0).val, lane_lt 2 l⟩))
    (h3 : ∀ l : S16.Idx, a3 l = R (ix3 b ⟨base, by omega⟩ ⟨16 * (3 : Fin 8).val + (l 0).val, lane_lt 3 l⟩))
    (h4 : ∀ l : S16.Idx, a4 l = R (ix3 b ⟨base, by omega⟩ ⟨16 * (4 : Fin 8).val + (l 0).val, lane_lt 4 l⟩))
    (h5 : ∀ l : S16.Idx, a5 l = R (ix3 b ⟨base, by omega⟩ ⟨16 * (5 : Fin 8).val + (l 0).val, lane_lt 5 l⟩))
    (h6 : ∀ l : S16.Idx, a6 l = R (ix3 b ⟨base, by omega⟩ ⟨16 * (6 : Fin 8).val + (l 0).val, lane_lt 6 l⟩))
    (h7 : ∀ l : S16.Idx, a7 l = R (ix3 b ⟨base, by omega⟩ ⟨16 * (7 : Fin 8).val + (l 0).val, lane_lt 7 l⟩)) :
    (rowsAcc R b base 0 a0, rowsAcc R b base 1 a1, rowsAcc R b base 2 a2, rowsAcc R b base 3 a3,
        rowsAcc R b base 4 a4, rowsAcc R b base 5 a5, rowsAcc R b base 6 a6, rowsAcc R b base 7 a7)
      = (nodeLanes Zf I hI w n 0, nodeLanes Zf I hI w n 1, nodeLanes Zf I hI w n 2, nodeLanes Zf I hI w n 3,
          nodeLanes Zf I hI w n 4, nodeLanes Zf I hI w n 5, nodeLanes Zf I hI w n 6, nodeLanes Zf I hI w n 7) := by
  rw [rowsAcc_eq_nodeLanes R b base hbase Zf I hI w n hR 0 a0 h0, rowsAcc_eq_nodeLanes R b base hbase Zf I hI w n hR 1 a1 h1,
    rowsAcc_eq_nodeLanes R b base hbase Zf I hI w n hR 2 a2 h2, rowsAcc_eq_nodeLanes R b base hbase Zf I hI w n hR 3 a3 h3,
    rowsAcc_eq_nodeLanes R b base hbase Zf I hI w n hR 4 a4 h4, rowsAcc_eq_nodeLanes R b base hbase Zf I hI w n hR 5 a5 h5,
    rowsAcc_eq_nodeLanes R b base hbase Zf I hI w n hR 6 a6 h6, rowsAcc_eq_nodeLanes R b base hbase Zf I hI w n hR 7 a7 h7]

/-- A lane of the node's lane group is the node's value at that channel. -/
theorem nodeLanes_apply (Zf : S10000x128.Idx → F .f32) (I : S32x80x128.Idx → BitVec 32) (hI : ∀ j, (I j).toNat < 10000)
    (w : Fin 32) (n : Fin 320) (g : Fin 8) (l : S16.Idx) :
    nodeLanes Zf I hI w n g l = nodeVal Zf I hI w n ⟨16 * g.val + (l 0).val, lane_lt g l⟩ := rfl

end Cert.KernelIdeal.Hand

end
-- ==== Proof.KI.TileValue3.lean ====
/-
  Where a node's index words sit. Worker w's 320 nodes take their 32 words each from row w of the index array, read
  as 80 rows of 128 words: node n from row n / 4, columns 32 (n mod 4) … 32 (n mod 4) + 31. The task fetches them in
  chunks of 64 words, two nodes at a time: chunk c is row c / 2, columns 64 (c mod 2) … + 63, and holds nodes 2 c and
  2 c + 1, node 2 c + p on the chunk's words 32 p … 32 p + 31. Trip t of the pipeline handles chunks 4 t … 4 t + 3.
-/
import proofs.«208586_g21955872817707_cont_8to1_688_77_alg».proof.Proof.KI.TilePay

noncomputable section

namespace Cert.KernelIdeal.Hand

open Cert.KernelIdeal Cert.KernelIdeal.Gen

open Idealize.ShloMosaic

/-- The node a chunk's half names: node 2 c + p of the worker, for chunk c < 160 and half p < 2. -/
def chunkNode (c p : ℕ) (hc : c < 160) (hp : p < 2) : Fin 320 := ⟨2 * c + p, by omega⟩

/-- Word k of node 2 c + p is the index array's word at row c / 2, column 64 (c mod 2) + 32 p + k of the worker. -/
theorem nodeWord_chunk (I : S32x80x128.Idx → BitVec 32) (w : Fin 32) (c p k : ℕ) (hc : c < 160) (hp : p < 2) (hk : k < 32) :
    nodeWord I w (chunkNode c p hc hp) k
      = I (ix3 w ⟨c / 2, by omega⟩ ⟨64 * (c % 2) + (32 * p + k), by omega⟩) := by
  unfold nodeWord chunkNode
  have e1 : (2 * c + p) / 4 = c / 2 := by omega
  have e2 : 32 * ((2 * c + p) % 4) + k % 32 = 64 * (c % 2) + (32 * p + k) := by omega
  congr 2
  · exact Fin.ext e1
  · exact Fin.ext e2

/-- The same for the chunk 4 t + i of trip t: row 2 t + i / 2, column 64 (i mod 2) + 32 p + k. -/
theorem nodeWord_trip (I : S32x80x128.Idx → BitVec 32) (w : Fin 32) (t i p k : ℕ) (ht : t < 40) (hi : i < 4) (hp : p < 2) (hk : k < 32) :
    nodeWord I w (chunkNode (4 * t + i) p (by omega) hp) k
      = I (ix3 w ⟨2 * t + i / 2, by omega⟩ ⟨64 * (i % 2) + (32 * p + k), by omega⟩) := by
  rw [nodeWord_chunk I w (4 * t + i) p k (by omega) hp hk]
  have e1 : (4 * t + i) / 2 = 2 * t + i / 2 := by omega
  have e2 : 64 * ((4 * t + i) % 2) + (32 * p + k) = 64 * (i % 2) + (32 * p + k) := by omega
  congr 2
  · exact Fin.ext e1
  · exact Fin.ext e2

/-- Through the worker's copy of its row (`fi`, the fetched index words: word (r, c) of it is word (w, r, c) of the
    index array): word k of node 2 (4 t + i) + p is word 32 p + k of the 64-word list at row 2 t + i / 2, column
    64 (i mod 2). -/
theorem nodeWord_list (I : S32x80x128.Idx → BitVec 32) (w : Fin 32) (fi : S80x128.Idx → BitVec 32)
    (hfi : ∀ (r : Fin 80) (c : Fin 128), fi (ix2 r c) = I (ix3 w r c))
    (t i p k : ℕ) (ht : t < 40) (hi : i < 4) (hp : p < 2) (hk : k < 32) :
    nodeWord I w (chunkNode (4 * t + i) p (by omega) hp) k
      = fi (ix2 ⟨2 * t + i / 2, by omega⟩ ⟨64 * (i % 2) + (32 * p + k), by omega⟩) := by
  rw [hfi]
  exact nodeWord_trip I w t i p k ht hi hp hk

/-- The nodes of a group of four rows of the result: group 2 t + ob (ob < 2) of the worker holds nodes
    8 t + 4 ob … 8 t + 4 ob + 3, which are the chunks 4 t + 2 ob and 4 t + 2 ob + 1 (two nodes each). -/
theorem group_node (t ob j p : ℕ) (ht : t < 40) (hob : ob < 2) (hj : j < 2) (hp : p < 2) :
    (chunkNode (4 * t + (2 * ob + j)) p (by omega) hp).val / 4 = 2 * t + ob
      ∧ (chunkNode (4 * t + (2 * ob + j)) p (by omega) hp).val = 4 * (2 * t + ob) + (2 * j + p) := by
  unfold chunkNode
  constructor <;> simp only <;> omega

/-- Every node of the worker is a chunk's half: node m is half m mod 2 of chunk m / 2. -/
theorem node_eq_chunkNode (m : Fin 320) : m = chunkNode (m.val / 2) (m.val % 2) (by omega) (by omega) :=
  Fin.ext (by unfold chunkNode; simp only; omega)

end Cert.KernelIdeal.Hand

end
-- ==== Proof.KI.TileValue4.lean ====
/-
  What the stores of a group's folds leave in a half of the output scratch, what a landed write-back of the half leaves
  in the result's rows, and the two together: the group's four rows of the result at its four nodes' values.
-/
import proofs.«208586_g21955872817707_cont_8to1_688_77_alg».proof.Proof.KI.TileSets
import Idealize.ShloMosaic.Lib.ValueLayout
import Idealize.ShloMosaic.Lib.Writes

noncomputable section

namespace Cert.KernelIdeal.Hand

open Cert.KernelIdeal Cert.KernelIdeal.Gen
open Idealize.ShloMosaic

variable {F : FTy → Type}

local notation "mV" => (Memref.whole Cert.KernelIdeal.main_v12_scv : Memref Cert.KernelIdeal.sig Kind.scVector Space.hbm Cert.KernelIdeal.S10240x128 EltTy.f32)
local notation "outV" => (Memref.whole Cert.KernelIdeal.cc2_scratch2 : Memref Cert.KernelIdeal.sig Kind.scVector Space.vmem Cert.KernelIdeal.S2x4x128 EltTy.f32)

/-! ## The stores of the nodes' folds into a half of the output scratch -/

/-- Sixteen lanes stored at (ob, q, c0 …) of the output scratch: the store's rectangle and payload. -/
abbrev outPiece (ob q c0 : ℕ) (inb : ∀ a, (![ob, q, c0] : Fin 3 → ℕ) a + S1x1x16.size a ≤ S2x4x128.size a)
    (a : FVec F S16 .f32) (hc : S16.ShapeCasts S1x1x16) : View.Piece (Elt F) S2x4x128 .f32 :=
  ⟨Rect.unit (s := S2x4x128) ![ob, q, c0] S1x1x16.size inb, shapeCast S1x1x16 a hc⟩

/-- Lane x of the piece sits at (ob, q, c0 + x). -/
theorem outPiece_emb (ob q c0 : ℕ) (inb : ∀ a, (![ob, q, c0] : Fin 3 → ℕ) a + S1x1x16.size a ≤ S2x4x128.size a)
    (x : S1x1x16.Idx) :
    (Rect.unit (s := S2x4x128) ![ob, q, c0] S1x1x16.size inb).emb x
      = ix3 (⟨ob, by have := inb 0; simp at this; omega⟩ : Fin 2) (⟨q, by have := inb 1; simp at this; omega⟩ : Fin 4)
          (⟨c0 + (x 2).val, by have := inb 2; have := (x 2).isLt; simp at *; omega⟩ : Fin 128) := by
  have h0 : (x 0).val = 0 := by have := (x 0).isLt; simp at this; omega
  have h1 : (x 1).val = 0 := by have := (x 1).isLt; simp at this; omega
  funext a
  apply Fin.ext
  match a with
  | ⟨0, _⟩ => show ob + 1 * (x 0).val = ob; omega
  | ⟨1, _⟩ => show q + 1 * (x 1).val = q; omega
  | ⟨2, _⟩ => show c0 + 1 * (x 2).val = c0 + (x 2).val; omega

/-- The payload at lane x is the vector's lane x. -/
theorem outPiece_val (a : FVec F S16 .f32) (hc : S16.ShapeCasts S1x1x16) (x : S1x1x16.Idx) :
    shapeCast S1x1x16 a hc x = a (ValueIdx.ix1 (⟨(x 2).val, (x 2).isLt⟩ : Fin 16)) := by
  have h0 : (x 0).val = 0 := by have := (x 0).isLt; simp at this; omega
  have h1 : (x 1).val = 0 := by have := (x 1).isLt; simp at this; omega
  refine shapeCast_apply a hc x _ ?_
  rw [Shape.rowMajor_val_three, Shape.rowMajor_val_one]
  show (x 2).val = ((x 0).val * 1 + (x 1).val) * 16 + (x 2).val
  rw [h0, h1]
  omega

/-- Row q, channel ch of the four nodes' folds laid out by lane groups. -/
def outG (acc : Fin 4 → Fin 8 → FVec F S16 .f32) (q : Fin 4) (ch : Fin 128) : F .f32 :=
  acc q (⟨ch.val / 16, by omega⟩ : Fin 8) (ValueIdx.ix1 (⟨ch.val % 16, by omega⟩ : Fin 16))

/-- WHAT THE STORES LEAVE: after stores each of which puts lane group gI of node row q's fold at (ob, q, 16 gI …),
    together covering the half, element (ob, q, ch) of the output scratch is the fold's lane, whatever it held. -/
theorem out_writes_apply (ob : Fin 2) (acc : Fin 4 → Fin 8 → FVec F S16 .f32) (fo : S2x4x128.Idx → Elt F .f32)
    (L : List (View.Piece (Elt F) S2x4x128 .f32))
    (hL : ∀ p ∈ L, ∃ (q : Fin 4) (gI : Fin 8) (inb : ∀ a, (![ob.val, q.val, 16 * gI.val] : Fin 3 → ℕ) a + S1x1x16.size a ≤ S2x4x128.size a)
      (hc : S16.ShapeCasts S1x1x16), p = outPiece ob.val q.val (16 * gI.val) inb (acc q gI) hc)
    (hcov : ∀ (q : Fin 4) (gI : Fin 8), ∃ p ∈ L, ∃ (inb : ∀ a, (![ob.val, q.val, 16 * gI.val] : Fin 3 → ℕ) a + S1x1x16.size a ≤ S2x4x128.size a),
      p.1 = Rect.unit (s := S2x4x128) ![ob.val, q.val, 16 * gI.val] S1x1x16.size inb)
    (q : Fin 4) (ch : Fin 128) :
    (outV).view.writes (Elt F) fo L (ix3 ob q ch) = outG acc q ch := by
  let G : S2x4x128.Idx → Elt F .f32 := fun y => outG acc (⟨(y 1).val, (y 1).isLt⟩ : Fin 4) (⟨(y 2).val, (y 2).isLt⟩ : Fin 128)
  have key := View.read_writes_apply_of_pieces (outV).view fo G L (fun p hp x => by
    obtain ⟨q', gI, inb, hc, rfl⟩ := hL p hp
    show shapeCast S1x1x16 (acc q' gI) hc x = G ((Rect.unit (s := S2x4x128) ![ob.val, q'.val, 16 * gI.val] S1x1x16.size inb).emb x)
    rw [outPiece_val, outPiece_emb]
    have hx : (x 2).val < 16 := (x 2).isLt
    have hg : gI.val < 8 := gI.isLt
    show acc q' gI _ = acc q' (⟨(16 * gI.val + (x 2).val) / 16, _⟩ : Fin 8) (ValueIdx.ix1 (⟨(16 * gI.val + (x 2).val) % 16, _⟩ : Fin 16))
    have e1 : (⟨(16 * gI.val + (x 2).val) / 16, by omega⟩ : Fin 8) = gI := Fin.ext (by show (16 * gI.val + (x 2).val) / 16 = gI.val; omega)
    have e2 : (⟨(16 * gI.val + (x 2).val) % 16, by omega⟩ : Fin 16) = ⟨(x 2).val, hx⟩ := Fin.ext (by show (16 * gI.val + (x 2).val) % 16 = (x 2).val; omega)
    rw [e1, e2]) (ix3 ob q ch) (by
    obtain ⟨p, hp, inb, hp1⟩ := hcov q (⟨ch.val / 16, by omega⟩ : Fin 8)
    refine ⟨p, hp, ?_⟩
    rw [hp1, Rect.mem_set_unit]
    intro a
    match a with
    | ⟨0, _⟩ => exact ⟨le_refl _, by show ob.val < ob.val + 1; omega⟩
    | ⟨1, _⟩ => exact ⟨le_refl _, by show q.val < q.val + 1; omega⟩
    | ⟨2, _⟩ => exact ⟨by show 16 * (ch.val / 16) ≤ ch.val; omega, by show ch.val < 16 * (ch.val / 16) + 16; omega⟩)
  rw [View.read_apply, cast_eq] at key
  exact key

/-- The thirty-two stores of a group's folds, the last store first: node rows 3 … 0, lane groups 7 … 0 of each. -/
def outList (ob : Fin 2) (acc : Fin 4 → Fin 8 → FVec F S16 .f32)
    (inb : ∀ (q : Fin 4) (gI : Fin 8) (a : Fin 3), (![ob.val, q.val, 16 * gI.val] : Fin 3 → ℕ) a + S1x1x16.size a ≤ S2x4x128.size a)
    (hc : S16.ShapeCasts S1x1x16) : List (View.Piece (Elt F) S2x4x128 .f32) :=
  (List.finRange 4).reverse.flatMap fun q => (List.finRange 8).reverse.map fun gI =>
    outPiece ob.val q.val (16 * gI.val) (inb q gI) (acc q gI) hc

/-- What those stores leave, whatever the scratch held. -/
theorem outList_apply (ob : Fin 2) (acc : Fin 4 → Fin 8 → FVec F S16 .f32) (fo : S2x4x128.Idx → Elt F .f32)
    (inb : ∀ (q : Fin 4) (gI : Fin 8) (a : Fin 3), (![ob.val, q.val, 16 * gI.val] : Fin 3 → ℕ) a + S1x1x16.size a ≤ S2x4x128.size a)
    (hc : S16.ShapeCasts S1x1x16) (q : Fin 4) (ch : Fin 128) :
    (outV).view.writes (Elt F) fo (outList ob acc inb hc) (ix3 ob q ch) = outG acc q ch := by
  refine out_writes_apply ob acc fo _ (fun p hp => ?_) (fun q' gI => ?_) q ch
  · unfold outList at hp
    obtain ⟨q', -, hp'⟩ := List.mem_flatMap.mp hp
    obtain ⟨gI, -, rfl⟩ := List.mem_map.mp hp'
    exact ⟨q', gI, inb q' gI, hc, rfl⟩
  · refine ⟨outPiece ob.val q'.val (16 * gI.val) (inb q' gI) (acc q' gI) hc, ?_, inb q' gI, rfl⟩
    unfold outList
    exact List.mem_flatMap.mpr ⟨q', List.mem_reverse.mpr (List.mem_finRange q'),
      List.mem_map.mpr ⟨gI, List.mem_reverse.mpr (List.mem_finRange gI), rfl⟩⟩

/-! ## The write-back of a half of the output scratch into a group of the result's rows -/

/-- Half ob of the output scratch as the write-back addresses it: the half's slice, its unit axis dropped. -/
abbrev outHalf (ob : ℕ) (inbO : ∀ a, (![ob, 0, 0] : Fin 3 → ℕ) a + S1x4x128.size a ≤ S2x4x128.size a) : Memref sig .scVector .vmem S4x128 .f32 :=
  ((outV).slice (Rect.unit (s := S2x4x128) ![ob, 0, 0] S1x4x128.size inbO) (fun _ => rfl)).squeeze S4x128 squeezes_S1x4x128_S4x128

/-- Four rows of the result at an offset. -/
abbrev mRowsAt (off : Fin 2 → ℕ) (inbM : ∀ a, off a + S4x128.size a ≤ S10240x128.size a) : Memref sig .scVector .hbm S4x128 .f32 :=
  (mV).slice (Rect.unit (s := S10240x128) off S4x128.size inbM) (fun _ => rfl)

/-- Element (q, ch) of half ob is element (ob, q, ch) of the output scratch. -/
theorem outHalf_emb (ob : ℕ) (hob : ob < 2) (inbO : ∀ a, (![ob, 0, 0] : Fin 3 → ℕ) a + S1x4x128.size a ≤ S2x4x128.size a)
    (q : Fin 4) (ch : Fin 128) :
    (outHalf ob inbO).view.emb (ValueIdx.ix2 q ch) = ix3 (⟨ob, hob⟩ : Fin 2) q ch := by
  show (Rect.unit (s := S2x4x128) ![ob, 0, 0] S1x4x128.size inbO).emb
    (Shape.reshapeEquiv squeezes_S1x4x128_S4x128.numel_eq (ValueIdx.ix2 q ch)) = _
  rw [ValueIdx.reshapeEquiv_ix2_1ab]
  funext a
  apply Fin.ext
  match a with
  | ⟨0, _⟩ => show ob + 1 * 0 = ob; omega
  | ⟨1, _⟩ => show 0 + 1 * q.val = q.val; omega
  | ⟨2, _⟩ => show 0 + 1 * ch.val = ch.val; omega

/-- Element (q, ch) of the four rows at an offset is element (off 0 + q, off 1 + ch) of the result. -/
theorem mRowsAt_emb (off : Fin 2 → ℕ) (inbM : ∀ a, off a + S4x128.size a ≤ S10240x128.size a) (q : Fin 4) (ch : Fin 128) :
    (mRowsAt off inbM).view.emb (ValueIdx.ix2 q ch)
      = ix2 (⟨off 0 + q.val, by have := inbM 0; simp at this; omega⟩ : Fin 10240) (⟨off 1 + ch.val, by have := inbM 1; simp at this; omega⟩ : Fin 128) := by
  show (Rect.unit (s := S10240x128) off S4x128.size inbM).emb (ValueIdx.ix2 q ch) = _
  funext a
  apply Fin.ext
  match a with
  | ⟨0, _⟩ => show off 0 + 1 * q.val = off 0 + q.val; omega
  | ⟨1, _⟩ => show off 1 + 1 * ch.val = off 1 + ch.val; omega

/-- WHAT A LANDED WRITE-BACK LEAVES: row off 0 + q of the result, at channel off 1 + ch, is element (ob, q, ch) of the
    output scratch as it was read. -/
theorem writeback_apply (off : Fin 2 → ℕ) (inbM : ∀ a, off a + S4x128.size a ≤ S10240x128.size a)
    (ob : ℕ) (hob : ob < 2) (inbO : ∀ a, (![ob, 0, 0] : Fin 3 → ℕ) a + S1x4x128.size a ≤ S2x4x128.size a)
    (M0 : S10240x128.Idx → Elt F .f32) (fo : S2x4x128.Idx → Elt F .f32) (q : Fin 4) (ch : Fin 128) :
    (mRowsAt off inbM).view.write (Elt F) M0 ((outHalf ob inbO).view.read (Elt F) fo) Finset.univ
        (ix2 (⟨off 0 + q.val, by have := inbM 0; simp at this; omega⟩ : Fin 10240) (⟨off 1 + ch.val, by have := inbM 1; simp at this; omega⟩ : Fin 128))
      = fo (ix3 (⟨ob, hob⟩ : Fin 2) q ch) := by
  rw [← mRowsAt_emb off inbM q ch, View.write_emb_of_mem _ _ (Finset.mem_univ _), cast_eq, View.read_apply, cast_eq,
    outHalf_emb ob hob inbO q ch]

/-- The same delivered as one whole-rectangle piece over the four rows. -/
theorem writeback_writes_apply (off : Fin 2 → ℕ) (inbM : ∀ a, off a + S4x128.size a ≤ S10240x128.size a)
    (ob : ℕ) (hob : ob < 2) (inbO : ∀ a, (![ob, 0, 0] : Fin 3 → ℕ) a + S1x4x128.size a ≤ S2x4x128.size a)
    (M0 : S10240x128.Idx → Elt F .f32) (fo : S2x4x128.Idx → Elt F .f32) (q : Fin 4) (ch : Fin 128) :
    (mRowsAt off inbM).view.writes (Elt F) M0 [⟨Rect.whole S4x128, (outHalf ob inbO).view.read (Elt F) fo⟩]
        (ix2 (⟨off 0 + q.val, by have := inbM 0; simp at this; omega⟩ : Fin 10240) (⟨off 1 + ch.val, by have := inbM 1; simp at this; omega⟩ : Fin 128))
      = fo (ix3 (⟨ob, hob⟩ : Fin 2) q ch) := by
  have h1 := View.read_writes_cons_emb (mRowsAt off inbM).view M0 (Rect.whole S4x128) ((outHalf ob inbO).view.read (Elt F) fo) [] (ValueIdx.ix2 q ch)
  have h2 : (Rect.whole S4x128).emb (ValueIdx.ix2 q ch) = ValueIdx.ix2 q ch := by
    funext a; exact Fin.ext (by simp [Rect.whole])
  rw [View.read_apply, h2, cast_eq, mRowsAt_emb off inbM q ch] at h1
  rw [h1, View.read_apply, cast_eq, outHalf_emb ob hob inbO q ch]

/-! ## A group of the worker's rows at its four nodes' values -/

section Group
variable [FloatOps F]

/-- If half ob of the output scratch holds the folds of the four nodes of group n of worker w, row by row, then once
    its write-back into rows 320 w + 4 n … has landed, every node m of the group has its value on row 320 w + m. -/
theorem group_rows (w : Fin 32) (n : ℕ) (hn : n < 80)
    (off : Fin 2 → ℕ) (inbM : ∀ a, off a + S4x128.size a ≤ S10240x128.size a) (h0 : off 0 = 320 * w.val + 4 * n) (h1 : off 1 = 0)
    (ob : ℕ) (hob : ob < 2) (inbO : ∀ a, (![ob, 0, 0] : Fin 3 → ℕ) a + S1x4x128.size a ≤ S2x4x128.size a)
    (M0 Mg : S10240x128.Idx → Elt F .f32) (fo : S2x4x128.Idx → Elt F .f32)
    (hMg : ∀ (q : Fin 4) (ch : Fin 128),
      Mg (ix2 (⟨off 0 + q.val, by have := inbM 0; simp at this; omega⟩ : Fin 10240) (⟨off 1 + ch.val, by have := inbM 1; simp at this; omega⟩ : Fin 128))
        = fo (ix3 (⟨ob, hob⟩ : Fin 2) q ch))
    (Zf : S10000x128.Idx → F .f32) (I : S32x80x128.Idx → BitVec 32) (hI : ∀ j, (I j).toNat < 10000)
    (hfo : ∀ (q : Fin 4) (ch : Fin 128), fo (ix3 (⟨ob, hob⟩ : Fin 2) q ch) = nodeVal Zf I hI w (⟨4 * n + q.val, by omega⟩ : Fin 320) ch)
    (m : Fin 320) (ch : Fin 128) (hm : m.val / 4 = n) :
    Mg (ix2 (⟨320 * w.val + m.val, by omega⟩ : Fin 10240) ch) = nodeVal Zf I hI w m ch := by
  have hq : m.val % 4 < 4 := Nat.mod_lt _ (by decide)
  have e := hMg (⟨m.val % 4, hq⟩ : Fin 4) ch
  have hfo' := hfo (⟨m.val % 4, hq⟩ : Fin 4) ch
  have em : (⟨4 * n + m.val % 4, by omega⟩ : Fin 320) = m := Fin.ext (by show 4 * n + m.val % 4 = m.val; omega)
  have ei : (ix2 (⟨off 0 + m.val % 4, by have := inbM 0; simp at this; omega⟩ : Fin 10240) (⟨off 1 + ch.val, by have := inbM 1; simp at this; omega⟩ : Fin 128) : S10240x128.Idx)
      = ix2 (⟨320 * w.val + m.val, by omega⟩ : Fin 10240) ch := by
    funext a
    apply Fin.ext
    match a with
    | ⟨0, _⟩ => show off 0 + m.val % 4 = 320 * w.val + m.val; omega
    | ⟨1, _⟩ => show off 1 + ch.val = ch.val; omega
  rw [← ei, e, hfo']
  exact congrArg (fun k => nodeVal Zf I hI w k ch) em

end Group

end Cert.KernelIdeal.Hand

end
-- ==== Proof.KI.TileValueGroup.lean ====
/-
  A group of the worker's rows of the result, end to end: the two chunks' slots hold z's rows named by the group's two
  lists of the tile's index words; the thirty-two folds over the slots' rows are the four nodes' values on their lane
  groups; the half of the output scratch holds the folds; the write-back lays the half on the group's four rows of the
  result. So those rows hold the group's nodes' values.
-/
import proofs.«208586_g21955872817707_cont_8to1_688_77_alg».proof.Proof.KI.TileValue1
import proofs.«208586_g21955872817707_cont_8to1_688_77_alg».proof.Proof.KI.TileValue2
import proofs.«208586_g21955872817707_cont_8to1_688_77_alg».proof.Proof.KI.TileValue3
import proofs.«208586_g21955872817707_cont_8to1_688_77_alg».proof.Proof.KI.TileValue4
import proofs.«208586_g21955872817707_cont_8to1_688_77_alg».proof.Proof.KI.TileInv

noncomputable section

namespace Cert.KernelIdeal.Hand

open Cert.KernelIdeal Cert.KernelIdeal.Gen
open Idealize.ShloMosaic

variable {F : FTy → Type} [FloatOps F]

local notation "mV" => (Memref.whole Cert.KernelIdeal.main_v12_scv : Memref Cert.KernelIdeal.sig Kind.scVector Space.hbm Cert.KernelIdeal.S10240x128 EltTy.f32)
local notation "outV" => (Memref.whole Cert.KernelIdeal.cc2_scratch2 : Memref Cert.KernelIdeal.sig Kind.scVector Space.vmem Cert.KernelIdeal.S2x4x128 EltTy.f32)
local notation "rowsV" => (Memref.whole Cert.KernelIdeal.cc2_scratch1 : Memref Cert.KernelIdeal.sig Kind.scVector Space.vmem Cert.KernelIdeal.S4x64x128 EltTy.f32)
local notation "shV" => (Memref.whole Cert.KernelIdeal.cc2_scratch3 : Memref Cert.KernelIdeal.sig Kind.scVector Space.shared Cert.KernelIdeal.S10240x128 EltTy.f32)

/-! ## A half of the output scratch at its group's four nodes' values -/

/-- Trip t, half ob: the half holds group 2 t + ob. Its chunk j (j = 0, 1) was gathered into slot 2 ob + j through the
    list at row 2 t + ob, column 64 j of the tile's index words; node row 2 j + p of the group is folded from the slot's
    rows 32 p … 32 p + 31. If the slots held z's rows named by the lists when they were folded, the folds started from
    row 32 p's lanes, and the half holds the folds, then row q of the half is node 4 (2 t + ob) + q's value. -/
theorem half_value (Zf : S10000x128.Idx → F .f32) (I0 : S32x80x128.Idx → BitVec 32) (hI : ∀ x, (I0 x).toNat < 10000) (w : Fin 32)
    (fi : S80x128.Idx → BitVec 32) (hfi : ∀ (r : Fin 80) (c : Fin 128), fi (ix2 r c) = I0 (ix3 w r c))
    (t : ℕ) (ht : t < 40) (ob : Fin 2)
    (R : Fin 2 → S4x64x128.Idx → F .f32)
    (hR : ∀ (j : Fin 2) (r : Fin 64) (ch : Fin 128)
      (hw : (fi (ix2 (⟨2 * t + ob.val, by omega⟩ : Fin 80) (⟨64 * j.val + r.val, by omega⟩ : Fin 128))).toNat < 10000),
      R j (ix3 (⟨2 * ob.val + j.val, by omega⟩ : Fin 4) r ch)
        = Zf (ix2 (⟨(fi (ix2 (⟨2 * t + ob.val, by omega⟩ : Fin 80) (⟨64 * j.val + r.val, by omega⟩ : Fin 128))).toNat, hw⟩ : Fin 10000) ch))
    (a : Fin 2 → Fin 2 → Fin 8 → FVec F S16 .f32)
    (ha : ∀ (j p : Fin 2) (g : Fin 8) (l : S16.Idx),
      a j p g l = R j (ix3 (⟨2 * ob.val + j.val, by omega⟩ : Fin 4) (⟨32 * p.val, by omega⟩ : Fin 64) ⟨16 * g.val + (l 0).val, lane_lt g l⟩))
    (acc : Fin 4 → Fin 8 → FVec F S16 .f32)
    (hacc : ∀ (j p : Fin 2) (g : Fin 8),
      acc (⟨2 * j.val + p.val, by omega⟩ : Fin 4) g = rowsAcc (R j) (⟨2 * ob.val + j.val, by omega⟩ : Fin 4) (32 * p.val) g (a j p g))
    (fo' : S2x4x128.Idx → F .f32) (hfo' : ∀ (q : Fin 4) (ch : Fin 128), fo' (ix3 ob q ch) = outG acc q ch)
    (q : Fin 4) (ch : Fin 128) :
    fo' (ix3 ob q ch) = nodeVal Zf I0 hI w (⟨4 * (2 * t + ob.val) + q.val, by omega⟩ : Fin 320) ch := by
  obtain ⟨j, p, rfl⟩ : ∃ (j p : Fin 2), q = (⟨2 * j.val + p.val, by omega⟩ : Fin 4) :=
    ⟨⟨q.val / 2, by omega⟩, ⟨q.val % 2, by omega⟩, Fin.ext (by show q.val = 2 * (q.val / 2) + q.val % 2; omega)⟩
  rw [hfo']
  unfold outG
  rw [hacc j p]
  have hg := group_node t ob.val j.val p.val ht ob.isLt j.isLt p.isLt
  have hRn : ∀ (k : ℕ) (hk : k < 32) (ch' : Fin 128),
      R j (ix3 (⟨2 * ob.val + j.val, by omega⟩ : Fin 4) (⟨32 * p.val + k, by omega⟩ : Fin 64) ch')
        = Zf (ix2 ⟨(nodeWord I0 w (chunkNode (4 * t + (2 * ob.val + j.val)) p.val (by omega) p.isLt) k).toNat, hI _⟩ ch') := fun k hk ch' => by
    have hword : nodeWord I0 w (chunkNode (4 * t + (2 * ob.val + j.val)) p.val (by omega) p.isLt) k
        = fi (ix2 (⟨2 * t + ob.val, by omega⟩ : Fin 80) (⟨64 * j.val + (32 * p.val + k), by omega⟩ : Fin 128)) := by
      rw [nodeWord_list I0 w fi hfi t (2 * ob.val + j.val) p.val k ht (by omega) p.isLt hk]
      have e1 : (⟨2 * t + (2 * ob.val + j.val) / 2, by omega⟩ : Fin 80) = ⟨2 * t + ob.val, by omega⟩ :=
        Fin.ext (by show 2 * t + (2 * ob.val + j.val) / 2 = 2 * t + ob.val; omega)
      have e2 : (⟨64 * ((2 * ob.val + j.val) % 2) + (32 * p.val + k), by omega⟩ : Fin 128) = ⟨64 * j.val + (32 * p.val + k), by omega⟩ :=
        Fin.ext (by show 64 * ((2 * ob.val + j.val) % 2) + (32 * p.val + k) = 64 * j.val + (32 * p.val + k); omega)
      rw [e1, e2]
    have hw : (fi (ix2 (⟨2 * t + ob.val, by omega⟩ : Fin 80) (⟨64 * j.val + (32 * p.val + k), by omega⟩ : Fin 128))).toNat < 10000 := by
      rw [← hword]; exact hI _
    rw [hR j (⟨32 * p.val + k, by omega⟩ : Fin 64) ch' hw]
    exact congrArg (fun x : Fin 10000 => Zf (ix2 x ch')) (Fin.ext (congrArg BitVec.toNat hword.symm))
  have key := rowsAcc_apply_eq_nodeVal (R j) (⟨2 * ob.val + j.val, by omega⟩ : Fin 4) (32 * p.val) (by omega) Zf I0 hI w
    (chunkNode (4 * t + (2 * ob.val + j.val)) p.val (by omega) p.isLt) hRn (⟨ch.val / 16, by omega⟩ : Fin 8)
    (a j p (⟨ch.val / 16, by omega⟩ : Fin 8)) (ha j p _) (ValueIdx.ix1 (⟨ch.val % 16, by omega⟩ : Fin 16))
  rw [key]
  have em : chunkNode (4 * t + (2 * ob.val + j.val)) p.val (by omega) p.isLt = (⟨4 * (2 * t + ob.val) + (2 * j.val + p.val), by omega⟩ : Fin 320) :=
    Fin.ext hg.2
  have ec : (⟨16 * (⟨ch.val / 16, by omega⟩ : Fin 8).val + ((ValueIdx.ix1 (⟨ch.val % 16, by omega⟩ : Fin 16) : S16.Idx) 0).val,
      lane_lt _ _⟩ : Fin 128) = ch := Fin.ext (by show 16 * (ch.val / 16) + ch.val % 16 = ch.val; omega)
  rw [em, ec]

/-! ## From the gather's delivered contents to the slot's rows -/

/-- What a landed gather leaves, with the list's place named by its row and column: row r of slot b is z's row named
    by word (row, col + r) of the tile's index words. -/
theorem slot_spec (b : ℕ) (hb : b < 4) (inbS : ∀ a, (![b, 0, 0] : Fin 3 → ℕ) a + S1x64x128.size a ≤ S4x64x128.size a)
    (off : Fin 2 → ℕ) (inbO : ∀ a, off a + S1x64.size a ≤ S80x128.size a)
    (hsh : ∀ a, (![0, 0] : Fin 2 → ℕ) a + S10240x128.size a ≤ S10240x128.size a)
    (X : S4x64x128.Idx → Elt F .f32) (fi : S80x128.Idx → BitVec 32) (g : S10240x128.Idx → Elt F .f32)
    (Zf : S10000x128.Idx → Elt F .f32) (hZ : ZOn Zf Finset.univ g)
    (hn : S64.numel = S64x128.size gathers_S10240x128_S64x128.axis')
    (hin : ∀ x, ((offK off inbO).view.read (Elt F) fi x).toNat < S10240x128.size gathers_S10240x128_S64x128.axis)
    (row col : ℕ) (hrow : row < 80) (hcol : col + 64 ≤ 128) (h0 : off 0 = row) (h1 : off 1 = col)
    (r : Fin 64) (ch : Fin 128)
    (hw : (fi (ix2 (⟨row, hrow⟩ : Fin 80) (⟨col + r.val, by omega⟩ : Fin 128))).toNat < 10000) :
    (slotAt b inbS).view.write (Elt F) X
        (SparseCore.gatherPayload gathers_S10240x128_S64x128
          (((shV).slice (Rect.unit (s := S10240x128) ![0, 0] S10240x128.size hsh) (fun _ => rfl)).view.read (Elt F) g)
          (SparseCore.rows ((offK off inbO).view.read (Elt F) fi) hn hin)) Finset.univ (ix3 (⟨b, hb⟩ : Fin 4) r ch)
      = Zf (ix2 (⟨(fi (ix2 (⟨row, hrow⟩ : Fin 80) (⟨col + r.val, by omega⟩ : Fin 128))).toNat, hw⟩ : Fin 10000) ch) := by
  subst h0 h1
  exact gather_slot_apply_Z (F := F) b hb inbS off inbO hsh X fi g Zf hZ hn hin r ch hw

/-! ## The group's rows of the result at its nodes' values -/

section Spec
variable (v : Prop) (Zf : S10000x128.Idx → Elt F .f32) (I : (d : Dev nD) → Buf (Elt F) (iLoc d)) (d : Dev nD) (L : grid2.Coords)

/-- THE GROUP, from pointwise facts: the tile's index words are its row of the index array; the two slots held z's rows
    named by the group's two lists when they were folded; the thirty-two folds started from the rows' lanes; the half
    of the output scratch holds the folds; and the written-back rows hold the half. Then the rows are the group's. -/
theorem group_spec (fi : S80x128.Idx → BitVec 32)
    (hfi : ∀ (r : Fin 80) (c : Fin 128), fi (ix2 r c) = I d (ix3 (wid (cL L) (jL L)) r c))
    (t : ℕ) (ht : t < 40) (ob : Fin 2)
    (R : Fin 2 → S4x64x128.Idx → F .f32)
    (hR : ∀ (j : Fin 2) (r : Fin 64) (ch : Fin 128)
      (hw : (fi (ix2 (⟨2 * t + ob.val, by omega⟩ : Fin 80) (⟨64 * j.val + r.val, by omega⟩ : Fin 128))).toNat < 10000),
      R j (ix3 (⟨2 * ob.val + j.val, by omega⟩ : Fin 4) r ch)
        = Zf (ix2 (⟨(fi (ix2 (⟨2 * t + ob.val, by omega⟩ : Fin 80) (⟨64 * j.val + r.val, by omega⟩ : Fin 128))).toNat, hw⟩ : Fin 10000) ch))
    (a : Fin 2 → Fin 2 → Fin 8 → FVec F S16 .f32)
    (ha : ∀ (j p : Fin 2) (g : Fin 8) (l : S16.Idx),
      a j p g l = R j (ix3 (⟨2 * ob.val + j.val, by omega⟩ : Fin 4) (⟨32 * p.val, by omega⟩ : Fin 64) ⟨16 * g.val + (l 0).val, lane_lt g l⟩))
    (acc : Fin 4 → Fin 8 → FVec F S16 .f32)
    (hacc : ∀ (j p : Fin 2) (g : Fin 8),
      acc (⟨2 * j.val + p.val, by omega⟩ : Fin 4) g = rowsAcc (R j) (⟨2 * ob.val + j.val, by omega⟩ : Fin 4) (32 * p.val) g (a j p g))
    (fo' : S2x4x128.Idx → F .f32) (hfo' : ∀ (q : Fin 4) (ch : Fin 128), fo' (ix3 ob q ch) = outG acc q ch)
    (off : Fin 2 → ℕ) (inbM : ∀ a, off a + S4x128.size a ≤ S10240x128.size a)
    (h0 : off 0 = 320 * (wid (cL L) (jL L)).val + 4 * (2 * t + ob.val)) (h1 : off 1 = 0)
    (Mg : S10240x128.Idx → F .f32)
    (hMg : ∀ (q : Fin 4) (ch : Fin 128),
      Mg (ix2 (⟨off 0 + q.val, by have := inbM 0; simp at this; omega⟩ : Fin 10240) (⟨off 1 + ch.val, by have := inbM 1; simp at this; omega⟩ : Fin 128))
        = fo' (ix3 ob q ch)) :
    GroupSpec v Zf I d L (2 * t + ob.val) Mg := by
  intro _ hI m ch hm
  have hq : m.val % 4 < 4 := Nat.mod_lt _ (by decide)
  have e := hMg (⟨m.val % 4, hq⟩ : Fin 4) ch
  have hv := half_value Zf (I d) hI (wid (cL L) (jL L)) fi hfi t ht ob R hR a ha acc hacc fo' hfo' (⟨m.val % 4, hq⟩ : Fin 4) ch
  have em : (⟨4 * (2 * t + ob.val) + m.val % 4, by omega⟩ : Fin 320) = m :=
    Fin.ext (by show 4 * (2 * t + ob.val) + m.val % 4 = m.val; omega)
  have ei : (ix2 (⟨off 0 + m.val % 4, by have := inbM 0; simp at this; omega⟩ : Fin 10240) (⟨off 1 + ch.val, by have := inbM 1; simp at this; omega⟩ : Fin 128) : S10240x128.Idx)
      = ix2 (⟨320 * (wid (cL L) (jL L)).val + m.val, by omega⟩ : Fin 10240) ch := by
    funext x
    apply Fin.ext
    match x with
    | ⟨0, _⟩ => show off 0 + m.val % 4 = 320 * (wid (cL L) (jL L)).val + m.val; omega
    | ⟨1, _⟩ => show off 1 + ch.val = ch.val; omega
  rw [← ei, e, hv]
  exact congrArg (fun k => nodeVal Zf (I d) hI (wid (cL L) (jL L)) k ch) em

/-- THE GROUP, at the contents the stores and the write-back leave: the half of the output scratch after the group's
    thirty-two stores (last store first), read through the half and written through the group's four rows. -/
theorem group_spec_write (fi : S80x128.Idx → BitVec 32)
    (hfi : ∀ (r : Fin 80) (c : Fin 128), fi (ix2 r c) = I d (ix3 (wid (cL L) (jL L)) r c))
    (t : ℕ) (ht : t < 40) (ob : Fin 2)
    (R : Fin 2 → S4x64x128.Idx → F .f32)
    (hR : ∀ (j : Fin 2) (r : Fin 64) (ch : Fin 128)
      (hw : (fi (ix2 (⟨2 * t + ob.val, by omega⟩ : Fin 80) (⟨64 * j.val + r.val, by omega⟩ : Fin 128))).toNat < 10000),
      R j (ix3 (⟨2 * ob.val + j.val, by omega⟩ : Fin 4) r ch)
        = Zf (ix2 (⟨(fi (ix2 (⟨2 * t + ob.val, by omega⟩ : Fin 80) (⟨64 * j.val + r.val, by omega⟩ : Fin 128))).toNat, hw⟩ : Fin 10000) ch))
    (a : Fin 2 → Fin 2 → Fin 8 → FVec F S16 .f32)
    (ha : ∀ (j p : Fin 2) (g : Fin 8) (l : S16.Idx),
      a j p g l = R j (ix3 (⟨2 * ob.val + j.val, by omega⟩ : Fin 4) (⟨32 * p.val, by omega⟩ : Fin 64) ⟨16 * g.val + (l 0).val, lane_lt g l⟩))
    (acc : Fin 4 → Fin 8 → FVec F S16 .f32)
    (hacc : ∀ (j p : Fin 2) (g : Fin 8),
      acc (⟨2 * j.val + p.val, by omega⟩ : Fin 4) g = rowsAcc (R j) (⟨2 * ob.val + j.val, by omega⟩ : Fin 4) (32 * p.val) g (a j p g))
    (fo : S2x4x128.Idx → F .f32)
    (inb : ∀ (q : Fin 4) (gI : Fin 8) (x : Fin 3), (![ob.val, q.val, 16 * gI.val] : Fin 3 → ℕ) x + S1x1x16.size x ≤ S2x4x128.size x)
    (hc : S16.ShapeCasts S1x1x16)
    (off : Fin 2 → ℕ) (inbM : ∀ x, off x + S4x128.size x ≤ S10240x128.size x)
    (h0 : off 0 = 320 * (wid (cL L) (jL L)).val + 4 * (2 * t + ob.val)) (h1 : off 1 = 0)
    (inbO : ∀ x, (![ob.val, 0, 0] : Fin 3 → ℕ) x + S1x4x128.size x ≤ S2x4x128.size x)
    (M0 : S10240x128.Idx → F .f32) :
    GroupSpec v Zf I d L (2 * t + ob.val)
      ((mRowsAt off inbM).view.write (Elt F) M0
        ((outHalf ob.val inbO).view.read (Elt F) ((outV).view.writes (Elt F) fo (outList ob acc inb hc))) Finset.univ) :=
  group_spec v Zf I d L fi hfi t ht ob R hR a ha acc hacc _ (outList_apply ob acc fo inb hc) off inbM h0 h1 _
    (fun q ch => writeback_apply off inbM ob.val ob.isLt inbO M0 _ q ch)

/-- The same with the write-back's delivery spelt as one whole-rectangle piece. -/
theorem group_spec_writes (fi : S80x128.Idx → BitVec 32)
    (hfi : ∀ (r : Fin 80) (c : Fin 128), fi (ix2 r c) = I d (ix3 (wid (cL L) (jL L)) r c))
    (t : ℕ) (ht : t < 40) (ob : Fin 2)
    (R : Fin 2 → S4x64x128.Idx → F .f32)
    (hR : ∀ (j : Fin 2) (r : Fin 64) (ch : Fin 128)
      (hw : (fi (ix2 (⟨2 * t + ob.val, by omega⟩ : Fin 80) (⟨64 * j.val + r.val, by omega⟩ : Fin 128))).toNat < 10000),
      R j (ix3 (⟨2 * ob.val + j.val, by omega⟩ : Fin 4) r ch)
        = Zf (ix2 (⟨(fi (ix2 (⟨2 * t + ob.val, by omega⟩ : Fin 80) (⟨64 * j.val + r.val, by omega⟩ : Fin 128))).toNat, hw⟩ : Fin 10000) ch))
    (a : Fin 2 → Fin 2 → Fin 8 → FVec F S16 .f32)
    (ha : ∀ (j p : Fin 2) (g : Fin 8) (l : S16.Idx),
      a j p g l = R j (ix3 (⟨2 * ob.val + j.val, by omega⟩ : Fin 4) (⟨32 * p.val, by omega⟩ : Fin 64) ⟨16 * g.val + (l 0).val, lane_lt g l⟩))
    (acc : Fin 4 → Fin 8 → FVec F S16 .f32)
    (hacc : ∀ (j p : Fin 2) (g : Fin 8),
      acc (⟨2 * j.val + p.val, by omega⟩ : Fin 4) g = rowsAcc (R j) (⟨2 * ob.val + j.val, by omega⟩ : Fin 4) (32 * p.val) g (a j p g))
    (fo : S2x4x128.Idx → F .f32)
    (inb : ∀ (q : Fin 4) (gI : Fin 8) (x : Fin 3), (![ob.val, q.val, 16 * gI.val] : Fin 3 → ℕ) x + S1x1x16.size x ≤ S2x4x128.size x)
    (hc : S16.ShapeCasts S1x1x16)
    (off : Fin 2 → ℕ) (inbM : ∀ x, off x + S4x128.size x ≤ S10240x128.size x)
    (h0 : off 0 = 320 * (wid (cL L) (jL L)).val + 4 * (2 * t + ob.val)) (h1 : off 1 = 0)
    (inbO : ∀ x, (![ob.val, 0, 0] : Fin 3 → ℕ) x + S1x4x128.size x ≤ S2x4x128.size x)
    (M0 : S10240x128.Idx → F .f32) :
    GroupSpec v Zf I d L (2 * t + ob.val)
      ((mRowsAt off inbM).view.writes (Elt F) M0
        [⟨Rect.whole S4x128, (outHalf ob.val inbO).view.read (Elt F) ((outV).view.writes (Elt F) fo (outList ob acc inb hc))⟩]) :=
  group_spec v Zf I d L fi hfi t ht ob R hR a ha acc hacc _ (outList_apply ob acc fo inb hc) off inbM h0 h1 _
    (fun q ch => writeback_writes_apply off inbM ob.val ob.isLt inbO M0 _ q ch)

end Spec

end Cert.KernelIdeal.Hand

end
-- ==== Proof.KI.TileValueRun.lean ====
/-
  From what the run leaves to the group's values. The task's thirty-two stores into a half of the output scratch put,
  at (node row q, lane group gI), the fold of lane group gI over the 32 rows of node row q's chunk half: rows
  32 (q mod 2) … + 31 of slot 2 ob + q / 2, started from the sixteen lanes loaded from the first of those rows. Written
  uniformly (`aRun`, `accRun`), the half's contents after the stores are the list of stores `outList` over `accRun`, and
  with the two slots holding the rows of z their lists name, the rows the write-back delivers are the group's values.
-/
import proofs.«208586_g21955872817707_cont_8to1_688_77_alg».proof.Proof.KI.TileInvV
import proofs.«208586_g21955872817707_cont_8to1_688_77_alg».proof.Proof.KI.TileValueGroup

noncomputable section

namespace Cert.KernelIdeal.Hand.Val

open Cert.KernelIdeal Cert.KernelIdeal.Gen Cert.KernelIdeal.Hand
open Idealize.ShloMosaic
open Idealize.ShloMosaic.SparseCore (S V T)

variable {F : FTy → Type} [FloatOps F]

local notation "mV" => (Memref.whole Cert.KernelIdeal.main_v12_scv : Memref Cert.KernelIdeal.sig Kind.scVector Space.hbm Cert.KernelIdeal.S10240x128 EltTy.f32)
local notation "outV" => (Memref.whole Cert.KernelIdeal.cc2_scratch2 : Memref Cert.KernelIdeal.sig Kind.scVector Space.vmem Cert.KernelIdeal.S2x4x128 EltTy.f32)

/-- Each store's sixteen lanes lie inside the output scratch. -/
theorem inbOut (ob : Fin 2) : ∀ (q : Fin 4) (gI : Fin 8) (x : Fin 3), (![ob.val, q.val, 16 * gI.val] : Fin 3 → ℕ) x + S1x1x16.size x ≤ S2x4x128.size x := by
  revert ob; decide
/-- Each half lies inside the output scratch. -/
theorem inbHalf (ob : Fin 2) : ∀ a, (![ob.val, 0, 0] : Fin 3 → ℕ) a + S1x4x128.size a ≤ S2x4x128.size a := by
  revert ob; decide
/-- Each slot lies inside the rows scratch. -/
theorem inbSlot (b : Fin 4) : ∀ a, (![b.val, 0, 0] : Fin 3 → ℕ) a + S1x64x128.size a ≤ S4x64x128.size a := by
  revert b; decide
/-- Each starting load lies inside its slot. -/
theorem inbLoad (p : Fin 2) (gI : Fin 8) : ∀ a, (![32 * p.val, 16 * gI.val] : Fin 2 → ℕ) a + S1x16.size a ≤ S64x128.size a := by
  revert p gI; decide

/-- The sixteen lanes of lane group gI of row 32 p of slot b, as the task loads them. -/
def aRun (R : S4x64x128.Idx → Elt F .f32) (b : Fin 4) (p : Fin 2) (gI : Fin 8) : FVec F S16 .f32 :=
  shapeCast S16 (View.readAt (Elt F) (slotAt b.val (inbSlot b)).view (Rect.unit (s := S64x128) ![32 * p.val, 16 * gI.val] S1x16.size (inbLoad p gI)).toLoadRect R) shapeCasts_S1x16_S16

/-- Lane l of that load is the slot's element (b, 32 p, 16 gI + l). -/
theorem aRun_apply (R : S4x64x128.Idx → Elt F .f32) (b : Fin 4) (p : Fin 2) (gI : Fin 8) (l : S16.Idx) :
    aRun R b p gI l = R (ix3 b (⟨32 * p.val, by omega⟩ : Fin 64) ⟨16 * gI.val + (l 0).val, lane_lt gI l⟩) :=
  read_lane R ![b.val, 0, 0] (inbSlot b) (fun _ => rfl) squeezes_S1x64x128_S64x128 ![32 * p.val, 16 * gI.val] (inbLoad p gI) shapeCasts_S1x16_S16 l
    b (⟨32 * p.val, by omega⟩ : Fin 64) ⟨16 * gI.val + (l 0).val, lane_lt gI l⟩ rfl rfl rfl rfl rfl

/-- The folds of the four nodes of half ob, by node row q and lane group gI. -/
def accRun (ob : Fin 2) (R : Fin 2 → S4x64x128.Idx → Elt F .f32) (q : Fin 4) (gI : Fin 8) : FVec F S16 .f32 :=
  rowsAcc (R ⟨q.val / 2, by omega⟩) ⟨2 * ob.val + q.val / 2, by omega⟩ (32 * (q.val % 2)) gI
    (aRun (R ⟨q.val / 2, by omega⟩) ⟨2 * ob.val + q.val / 2, by omega⟩ ⟨q.val % 2, by omega⟩ gI)

section Spec
variable (v : Prop) (Zf : S10000x128.Idx → Elt F .f32) (I : (d : Dev nD) → Buf (Elt F) (iLoc d)) (d : Dev nD) (L : grid2.Coords)

/-- THE GROUP FROM THE RUN: the two slots of half ob hold (under v) the rows of z their lists name; then the rows the
    write-back of the half — after the thirty-two stores of the folds `accRun` — delivers are group 2 t + ob's values. -/
theorem group_of_run (fi : S80x128.Idx → BitVec 32)
    (hfi : ∀ (r : Fin 80) (c : Fin 128), fi (ix2 r c) = I d (ix3 (wid (cL L) (jL L)) r c))
    (t : ℕ) (ht : t < 40) (ob : Fin 2) (R : Fin 2 → S4x64x128.Idx → Elt F .f32)
    (hS : v → ∀ j : Fin 2, SlotSpec Zf fi (2 * ob.val + j.val) (2 * t + ob.val) (64 * j.val) (R j))
    (fo : S2x4x128.Idx → Elt F .f32)
    (off : Fin 2 → ℕ) (inbM : ∀ x, off x + S4x128.size x ≤ S10240x128.size x)
    (h0 : off 0 = 320 * (wid (cL L) (jL L)).val + 4 * (2 * t + ob.val)) (h1 : off 1 = 0)
    (M0 : S10240x128.Idx → Elt F .f32) :
    GroupSpec v Zf I d L (2 * t + ob.val)
      ((mRowsAt off inbM).view.writes (Elt F) M0
        [⟨Rect.whole S4x128, (outHalf ob.val (inbHalf ob)).view.read (Elt F)
          ((outV).view.writes (Elt F) fo (outList ob (accRun ob R) (inbOut ob) shapeCasts_S16_S1x1x16))⟩]) := by
  intro hv
  refine group_spec_writes v Zf I d L fi hfi t ht ob R ?_
    (fun j p g => aRun (R j) ⟨2 * ob.val + j.val, by omega⟩ p g) (fun j p g l => aRun_apply (R j) _ p g l)
    (accRun ob R) ?_ fo (inbOut ob) shapeCasts_S16_S1x1x16 off inbM h0 h1 (inbHalf ob) M0 hv
  · intro j r ch hw
    exact hS hv j (by omega) (by omega) (by omega) r ch hw
  · intro j p g
    unfold accRun
    have e1 : (2 * j.val + p.val) / 2 = j.val := by omega
    have e2 : (2 * j.val + p.val) % 2 = p.val := by omega
    have ej : (⟨(2 * j.val + p.val) / 2, by omega⟩ : Fin 2) = j := Fin.ext e1
    have ep : (⟨(2 * j.val + p.val) % 2, by omega⟩ : Fin 2) = p := Fin.ext e2
    simp only [e1, e2, ej, ep]

/-- The write-back of half r of trip k goes to rows 320 w + 4 (2 k + r), all 128 channels. -/
theorem off40_row (L : grid2.Coords) (k : Fin k2_t1_loop.trips) (r : Fin 2) :
    k2_off40 L k (BitVec.ofNat 32 r.val) 0 = 320 * (wid (cL L) (jL L)).val + 4 * (2 * k.val + r.val) := by
  rw [k2_off40_eq]
  show 5120 * (L 0).val + 320 * (L 1).val + 8 * k.val + 4 * r.val = 320 * (16 * (L 0).val + (L 1).val) + 4 * (2 * k.val + r.val)
  omega
theorem off40_col (L : grid2.Coords) (k : Fin k2_t1_loop.trips) (r : Fin 2) :
    k2_off40 L k (BitVec.ofNat 32 r.val) 1 = 0 := by
  rw [k2_off40_eq]
  rfl

end Spec

end Cert.KernelIdeal.Hand.Val

end
-- ==== Proof.KI.TileTripV.lean ====
/-
  One trip of the vector-subcore task's pipeline loop with the gathered rows' contents carried, for any value switch v:
  from the invariant (whose gathers deliver their slots specified) to the invariant at the next trip; each write-back
  issued delivers its group of rows at the group's nodes' values, from the two slots its chunks were folded from.
-/
import proofs.«208586_g21955872817707_cont_8to1_688_77_alg».proof.Proof.KI.TileInvV
import proofs.«208586_g21955872817707_cont_8to1_688_77_alg».proof.Proof.KI.TileGeom
import proofs.«208586_g21955872817707_cont_8to1_688_77_alg».proof.Proof.KI.TileGeomOut
import proofs.«208586_g21955872817707_cont_8to1_688_77_alg».proof.Proof.KI.TileJoin
import proofs.«208586_g21955872817707_cont_8to1_688_77_alg».proof.Proof.KI.TileValueRun

noncomputable section

namespace Cert.KernelIdeal.Hand.Val

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.KernelIdeal.main_v8_scv : Memref Cert.KernelIdeal.sig Kind.scVector Space.hbm Cert.KernelIdeal.S10240x128 EltTy.f32)
local notation "iV" => (Memref.whole Cert.KernelIdeal.main_v6_scv : Memref Cert.KernelIdeal.sig Kind.scVector Space.hbm Cert.KernelIdeal.S32x80x128 EltTy.i32)
local notation "mV" => (Memref.whole Cert.KernelIdeal.main_v12_scv : Memref Cert.KernelIdeal.sig Kind.scVector Space.hbm Cert.KernelIdeal.S10240x128 EltTy.f32)
local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)
local notation "shV" => (Memref.whole Cert.KernelIdeal.cc2_scratch3 : Memref Cert.KernelIdeal.sig Kind.scVector Space.shared Cert.KernelIdeal.S10240x128 EltTy.f32)

section Trip

variable (d : Dev nD) (L : grid2.Coords)

set_option maxRecDepth 8192 in
set_option maxHeartbeats 4000000 in
/-- A trip in the middle of the loop (1 ≤ k ≤ 38): both write-back waits and all four look-ahead gathers happen. -/
theorem trip_midV (q : PosShare TreeShare) (g : Buf (Elt F) (shLoc d (cV L))) (fi : Buf (Elt F) ((V d (cV L) (jV L)).loc cc2_scratch0))
    (hidx : ∀ x, (fi x).toNat < 10000) (hZ : ZOn Zf Finset.univ g)
    (hfi : ∀ (r : Fin 80) (c : Fin 128), fi (ix2 r c) = I d (ix3 (wid (cL L) (jL L)) r c)) (M0 : Buf (Elt F) (mLoc d)) (O : CellTallies nD τ sig (HIx 1)) (W0 : Waits sig (HIx 1)) (v1 : BitVec 32)
    (k : Fin k2_t1_loop.trips) (hk0 : k.val ≠ 0) (hk39 : k.val ≠ 39) (a : PUnit) :
    inv v Zf I d L q g fi M0 O W0 k.val a
      ⊢ wp frame (wpE (defs₀ (F := F)) 𝒱₀ (V d (cV L) (jV L)) none) Set.univ
          (k2_t1_body L zV (Memref.isWhole_whole _) iV (Memref.isWhole_whole _) mV (Memref.isWhole_whole _) idxV (Memref.isWhole_whole _)
            rowsV (Memref.isWhole_whole _) outV (Memref.isWhole_whole _) shV (Memref.isWhole_whole _)
            cc2_scratch4 cc2_scratch5 cc2_scratch6 cc2_scratch7 cc2_scratch8 cc2_scratch9 cc2_scoped0 cc2_scoped1 v1 k a)
          (inv v Zf I d L q g fi M0 O W0 (k.val + 1)) := by
  have hk40 : k.val < 40 := lt_of_lt_of_le k.isLt k2_t1_abs.2.1
  have hk1 : 1 ≤ k.val := Nat.pos_of_ne_zero hk0
  have hk38 : k.val < 39 := by omega
  have hc1 : k2_cond1 k = 1#1 := k2_cond1_of_pos k hk1
  have hc2 : k2_cond2 k = 1#1 := k2_cond2_true k
  have hc3 : k2_cond3 k = 1#1 := k2_cond3_of_lt k hk38
  have hc4 : k2_cond4 k = 1#1 := k2_cond4_of_pos k hk1
  have hc5 : k2_cond5 k = 1#1 := k2_cond5_of_lt k hk38
  have hc6 : k2_cond6 k = 1#1 := k2_cond6_of_lt k hk38
  -- the four offset lists this trip's gathers read, as index sets
  have hD : (offK (k2_off4 k) (k2_off4_inb k hc2)).view.set = offSet (2 * k.val + 1) 64 := (set_offK _ _).trans (by simp only [k2_off4_eq]; rfl)
  have hE : (offK (k2_off22 k) (k2_off22_inb k hc3)).view.set = offSet (2 * k.val + 2) 0 := (set_offK _ _).trans (by simp only [k2_off22_eq]; rfl)
  have hF : (offK (k2_off42 k) (k2_off42_inb k hc5)).view.set = offSet (2 * k.val + 2) 64 := (set_offK _ _).trans (by simp only [k2_off42_eq]; rfl)
  have hG : (offK (k2_off59 k) (k2_off59_inb k hc6)).view.set = offSet (2 * k.val + 3) 0 := (set_offK _ _).trans (by simp only [k2_off59_eq]; rfl)
  have hDs : offSet (2 * k.val + 1) 64 ⊆ ((Finset.univ \ offSet (2 * k.val) 0) \ offSet (2 * k.val) 64) \ offSet (2 * k.val + 1) 0 := fun y hy => by
    simp only [offSet, Finset.mem_sdiff, Finset.mem_filter, Finset.mem_univ, _root_.true_and] at hy ⊢; omega
  have hEs : offSet (2 * k.val + 2) 0 ⊆ (((Finset.univ \ offSet (2 * k.val) 0) \ offSet (2 * k.val) 64) \ offSet (2 * k.val + 1) 0) \ offSet (2 * k.val + 1) 64 := fun y hy => by
    simp only [offSet, Finset.mem_sdiff, Finset.mem_filter, Finset.mem_univ, _root_.true_and] at hy ⊢; omega
  have hFs : offSet (2 * k.val + 2) 64 ⊆ ((((Finset.univ \ offSet (2 * k.val) 0) \ offSet (2 * k.val) 64) \ offSet (2 * k.val + 1) 0) \ offSet (2 * k.val + 1) 64) \ offSet (2 * k.val + 2) 0 := fun y hy => by
    simp only [offSet, Finset.mem_sdiff, Finset.mem_filter, Finset.mem_univ, _root_.true_and] at hy ⊢; omega
  have hGs : offSet (2 * k.val + 3) 0 ⊆ (((((Finset.univ \ offSet (2 * k.val) 0) \ offSet (2 * k.val) 64) \ offSet (2 * k.val + 1) 0) \ offSet (2 * k.val + 1) 64) \ offSet (2 * k.val + 2) 0) \ offSet (2 * k.val + 2) 64 := fun y hy => by
    simp only [offSet, Finset.mem_sdiff, Finset.mem_filter, Finset.mem_univ, _root_.true_and] at hy ⊢; omega
  have hin3 := hin_of (F := F) d L (k2_off4 k) (k2_off4_inb k hc2) _ hidx
  have hin4 := hin_of (F := F) d L (k2_off22 k) (k2_off22_inb k hc3) _ hidx
  have hin5 := hin_of (F := F) d L (k2_off42 k) (k2_off42_inb k hc5) _ hidx
  have hin6 := hin_of (F := F) d L (k2_off59 k) (k2_off59_inb k hc6) _ hidx
  unfold inv gPart wPart
  rw [if_pos hk40, if_neg hk0]
  unfold gFlight wFlight k2_t1_body
  iintro ⟨#Hmw, ⟨Hf0, Hf1, Hf2, ⟨%R3, Hr3⟩, Hidx, Hg11, Hs7⟩, ⟨Hdone, Htodo, Hw0, Hw1⟩, %W', %hW', HO⟩
  -- carve this trip's four offset lists out of the index scratch, in the spelling the gathers address them by
  ihave H1 := (pointsTo_split_subset (q := fullShare) hDs).1 $$ Hidx
  icases H1 with ⟨HiD, Hidx⟩
  ihave H2 := (pointsTo_split_subset (q := fullShare) hEs).1 $$ Hidx
  icases H2 with ⟨HiE, Hidx⟩
  ihave H3 := (pointsTo_split_subset (q := fullShare) hFs).1 $$ Hidx
  icases H3 with ⟨HiF, Hidx⟩
  ihave H4 := (pointsTo_split_subset (q := fullShare) hGs).1 $$ Hidx
  icases H4 with ⟨HiG, Hidx⟩
  ihave HiD' := (Entails.of_eq (pts_set_congr (F := F) (ℓ := (offK (k2_off4 k) (k2_off4_inb k hc2)).view.loc (V d (cV L) (jV L))) hD.symm fullShare fi)) $$ [HiD]
  · iexact HiD
  ihave HiE' := (Entails.of_eq (pts_set_congr (F := F) (ℓ := (offK (k2_off22 k) (k2_off22_inb k hc3)).view.loc (V d (cV L) (jV L))) hE.symm fullShare fi)) $$ [HiE]
  · iexact HiE
  ihave HiF' := (Entails.of_eq (pts_set_congr (F := F) (ℓ := (offK (k2_off42 k) (k2_off42_inb k hc5)).view.loc (V d (cV L) (jV L))) hF.symm fullShare fi)) $$ [HiF]
  · iexact HiF
  ihave HiG' := (Entails.of_eq (pts_set_congr (F := F) (ℓ := (offK (k2_off59 k) (k2_off59_inb k hc6)).view.loc (V d (cV L) (jV L))) hG.symm fullShare fi)) $$ [HiG]
  · iexact HiG
  -- slot 3 in the spelling the gather addresses it by
  ihave Hr3' := (Entails.of_eq (show ((rowsV).view.loc (V d (cV L) (jV L)) ↦[slotSet 3]{fullShare} R3 : sProp 𝕄)
      = (slotK3).view.loc (V d (cV L) (jV L)) ↦[(slotK3).view.set]{fullShare} R3 from by rw [show (slotK3).view.set = slotSet 3 from set_slot 3 _])) $$ Hr3
  sl_exec
  -- the write-back of group 2 k - 2
  iapply (Transfers.wp_waitLocalO countersEmb 𝒱₀ (V d (cV L) (jV L)) none (default : HIx 1) (N := 16384) (by rfl)) $$ [Hw0 HO]
  · isplitl [Hw0]; · iexact Hw0
    isplitl [HO]; · iexact HO
    iapply (Transfers.MayWaits.elim (SemLoc.dma cc2_scratch8.sem)) $$ Hmw
  iintro ⟨⟨Hmg0, %fo0, Hout0⟩, Hs8, HO⟩
  sl_exec
  -- chunk 4 k has landed in slot 0 (the run took the wait): name its rows, respell the slot and half 0 of the output scratch
  icases Hf0_dst with ⟨⟨%R0, %hR0, Hr0⟩, HiA⟩
  ihave Hr0' := (Entails.of_eq (show ((rowsV).view.loc (V d (cV L) (jV L)) ↦[slotSet 0]{fullShare} R0 : sProp 𝕄)
      = (slotK0).view.loc (V d (cV L) (jV L)) ↦[(slotK0).view.set]{fullShare} R0 from by rw [show (slotK0).view.set = slotSet 0 from set_slot 0 _])) $$ Hr0
  ihave Hout0' := (Entails.of_eq (pts_set_congr (F := F) (ℓ := (outK0).view.loc (V d (cV L) (jV L))) set_outK0.symm fullShare fo0)) $$ [Hout0]
  · iexact Hout0
  -- the two groups this trip writes, out of the rows still to do, in the spelling the write-backs address them by
  have hIco : Finset.Ico (2 * k.val) 80 = insert (2 * k.val) (insert (2 * k.val + 1) (Finset.Ico (2 * (k.val + 1)) 80)) := by
    ext n; simp only [Finset.mem_Ico, Finset.mem_insert]; omega
  ihave Ht := (Entails.of_eq (show (bigSep (Finset.Ico (2 * k.val) 80) fun n => ((mV).view.loc (V d (cV L) (jV L)) ↦[mGroupSet (wid (cL L) (jL L)) n]{fullShare} M0 : sProp 𝕄))
      = iprop(((mV).view.loc (V d (cV L) (jV L)) ↦[mGroupSet (wid (cL L) (jL L)) (2 * k.val)]{fullShare} M0)
          ∗ ((mV).view.loc (V d (cV L) (jV L)) ↦[mGroupSet (wid (cL L) (jL L)) (2 * k.val + 1)]{fullShare} M0)
          ∗ bigSep (Finset.Ico (2 * (k.val + 1)) 80) fun n => ((mV).view.loc (V d (cV L) (jV L)) ↦[mGroupSet (wid (cL L) (jL L)) n]{fullShare} M0 : sProp 𝕄)) from by
        rw [hIco, SparseCore.bigSep_insert' (by simp only [Finset.mem_insert, Finset.mem_Ico]; omega), SparseCore.bigSep_insert' (by simp only [Finset.mem_Ico]; omega)])) $$ Htodo
  icases Ht with ⟨Hma, Hmb, Htodo⟩
  ihave Hma' := (Entails.of_eq (pts_set_congr (F := F) (ℓ := ((mV).slice (Rect.unit (s := S10240x128) (k2_off40 L k 0#32) S4x128.size (k2_off40_inb L k 0)) (fun _ => rfl)).view.loc (V d (cV L) (jV L)))
      (set_mGroup40_0 L k).symm fullShare M0)) $$ [Hma]
  · iexact Hma
  ihave Hmb' := (Entails.of_eq (pts_set_congr (F := F) (ℓ := ((mV).slice (Rect.unit (s := S10240x128) (k2_off40 L k 1#32) S4x128.size (k2_off40_inb L k 1)) (fun _ => rfl)).view.loc (V d (cV L) (jV L)))
      (set_mGroup40_1 L k).symm fullShare M0)) $$ [Hmb]
  · iexact Hmb
  sl_exec
  -- chunk 4 k + 1 has landed in slot 1
  icases Hf1_dst with ⟨⟨%R1, %hR1, Hr1⟩, HiB⟩
  ihave Hr1' := (Entails.of_eq (show ((rowsV).view.loc (V d (cV L) (jV L)) ↦[slotSet 1]{fullShare} R1 : sProp 𝕄)
      = (slotK1).view.loc (V d (cV L) (jV L)) ↦[(slotK1).view.set]{fullShare} R1 from by rw [show (slotK1).view.set = slotSet 1 from set_slot 1 _])) $$ Hr1
  sl_exec
  -- the write-back of group 2 k - 1
  iapply (Transfers.wp_waitLocalO countersEmb 𝒱₀ (V d (cV L) (jV L)) none (default : HIx 1) (N := 16384) (by rfl)) $$ [Hw1 HO]
  · isplitl [Hw1]; · iexact Hw1
    isplitl [HO]; · iexact HO
    iapply (Transfers.MayWaits.elim (SemLoc.dma cc2_scratch9.sem)) $$ Hmw
  iintro ⟨⟨Hmg1, %fo1, Hout1⟩, Hs9, HO⟩
  ihave Hout1' := (Entails.of_eq (pts_set_congr (F := F) (ℓ := (outK1).view.loc (V d (cV L) (jV L))) set_outK1.symm fullShare fo1)) $$ [Hout1]
  · iexact Hout1
  sl_exec
  -- chunk 4 k + 2 has landed in slot 2
  icases Hf2_dst with ⟨⟨%R2, %hR2, Hr2⟩, HiC⟩
  ihave Hr2' := (Entails.of_eq (show ((rowsV).view.loc (V d (cV L) (jV L)) ↦[slotSet 2]{fullShare} R2 : sProp 𝕄)
      = (slotK2).view.loc (V d (cV L) (jV L)) ↦[(slotK2).view.set]{fullShare} R2 from by rw [show (slotK2).view.set = slotSet 2 from set_slot 2 _])) $$ Hr2
  sl_exec
  sl_step
  -- the invariant at the next trip
  rw [if_pos (show k.val + 1 < 40 by omega), if_neg (show ¬ k.val + 1 = 0 by omega)]
  have hE' : (offK (k2_off22 k) (k2_off22_inb k hc3)).view.set = offSet (2 * (k.val + 1)) 0 :=
    hE.trans (congrArg (fun r => offSet r 0) (by omega))
  have hF' : (offK (k2_off42 k) (k2_off42_inb k hc5)).view.set = offSet (2 * (k.val + 1)) 64 :=
    hF.trans (congrArg (fun r => offSet r 64) (by omega))
  have hG' : (offK (k2_off59 k) (k2_off59_inb k hc6)).view.set = offSet (2 * (k.val + 1) + 1) 0 :=
    hG.trans (congrArg (fun r => offSet r 0) (by omega))
  -- the two value obligations of the trip: the rows each write-back delivers are the group's nodes' values — group 2 k from
  -- slots 0 and 1, group 2 k + 1 from slot 2 and the slot 3 this trip's own gather wrote
  have hG0 : GroupSpec v Zf I d L (2 * (k.val + 1) - 2)
      (((mV).slice (Rect.unit (s := S10240x128) (k2_off40 L k 0#32) S4x128.size (k2_off40_inb L k 0)) (fun _ => rfl)).view.writes (Elt F) M0
        [⟨Rect.whole _, trip_midV.sl.dma16 d L fo0 R0 R1⟩]) := by
    have hn : 2 * (k.val + 1) - 2 = 2 * k.val + (0 : Fin 2).val := by show _ = 2 * k.val + 0; omega
    rw [hn]
    exact group_of_run (F := F) v Zf I d L fi hfi k.val hk40 0 (fun j => if j.val = 0 then R0 else R1)
      (fun hv' j => by
        rcases j with ⟨_ | _ | n, hj⟩
        · exact hR0 hv'
        · exact hR1 hv'
        · exact absurd hj (by omega))
      fo0 (k2_off40 L k 0#32) (k2_off40_inb L k 0) (off40_row L k 0) (off40_col L k 0) M0
  have hG1 : GroupSpec v Zf I d L (2 * (k.val + 1) - 1)
      (((mV).slice (Rect.unit (s := S10240x128) (k2_off40 L k 1#32) S4x128.size (k2_off40_inb L k 1)) (fun _ => rfl)).view.writes (Elt F) M0
        [⟨Rect.whole _, trip_midV.sl.dma16_1 d L g fi k hc2 hin3 fo1 R2⟩]) := by
    have hn : 2 * (k.val + 1) - 1 = 2 * k.val + (1 : Fin 2).val := by show _ = 2 * k.val + 1; omega
    rw [hn]
    exact group_of_run (F := F) v Zf I d L fi hfi k.val hk40 1
      (fun j => if j.val = 0 then R2 else (slotK3).view.writes (Elt F) (slotK3).view.junk [⟨Rect.whole S64x128, trip_midV.sl.gather0 d L g fi k hc2 hin3⟩])
      (fun hv' j => by
        rcases j with ⟨_ | _ | n, hj⟩
        · exact hR2 hv'
        · exact slotSpec_writes (F := F) Zf 3 inb_S4x64x128_S1x64x128_3_0_0 (k2_off4 k) (k2_off4_inb k hc2) (2 * k.val + 1) 64
            (by rw [k2_off4_eq]; rfl) (by rw [k2_off4_eq]; rfl) _ _ fi g hZ _ hin3 _ rfl
        · exact absurd hj (by omega))
      fo1 (k2_off40 L k 1#32) (k2_off40_inb L k 1) (off40_row L k 1) (off40_col L k 1) M0
  isplitr; · iexact Hmw
  isplitl [Hf0 Hf1 Hf2 Hr3' Hidx HiA HiB HiC HiD' Hg11 Hs7]
  · isplitl [Hf0]
    · iapply (Flight_mono (F := F) (gDeliver' (F := F) v Zf d L 0 inb_S4x64x128_S1x64x128_0_0_0 (k2_off22 k) (k2_off22_inb k hc3) _ hE' (2 * (k.val + 1)) 0 _ fi
        (fun _ => slotSpec_writes (F := F) Zf 0 inb_S4x64x128_S1x64x128_0_0_0 (k2_off22 k) (k2_off22_inb k hc3) (2 * (k.val + 1)) 0
          (by rw [k2_off22_eq]; show 2 * k.val + 2 = 2 * (k.val + 1); omega) (by rw [k2_off22_eq]; rfl) _ _ fi g hZ _ hin4 _ rfl) _ _))
      iexact Hf0
    isplitl [Hf1]
    · iapply (Flight_mono (F := F) (gDeliver' (F := F) v Zf d L 1 inb_S4x64x128_S1x64x128_1_0_0 (k2_off42 k) (k2_off42_inb k hc5) _ hF' (2 * (k.val + 1)) 64 _ fi
        (fun _ => slotSpec_writes (F := F) Zf 1 inb_S4x64x128_S1x64x128_1_0_0 (k2_off42 k) (k2_off42_inb k hc5) (2 * (k.val + 1)) 64
          (by rw [k2_off42_eq]; show 2 * k.val + 2 = 2 * (k.val + 1); omega) (by rw [k2_off42_eq]; rfl) _ _ fi g hZ _ hin5 _ rfl) _ _))
      iexact Hf1
    isplitl [Hf2]
    · iapply (Flight_mono (F := F) (gDeliver' (F := F) v Zf d L 2 inb_S4x64x128_S1x64x128_2_0_0 (k2_off59 k) (k2_off59_inb k hc6) _ hG' (2 * (k.val + 1) + 1) 0 _ fi
        (fun _ => slotSpec_writes (F := F) Zf 2 inb_S4x64x128_S1x64x128_2_0_0 (k2_off59 k) (k2_off59_inb k hc6) (2 * (k.val + 1) + 1) 0
          (by rw [k2_off59_eq]; show 2 * k.val + 3 = 2 * (k.val + 1) + 1; omega) (by rw [k2_off59_eq]; rfl) _ _ fi g hZ _ hin6 _ rfl) _ _))
      iexact Hf2
    isplitl [Hr3']
    · iexists _
      iapply (Entails.of_eq (show ((slotK3).view.loc (V d (cV L) (jV L)) ↦[(slotK3).view.set]{fullShare} _ : sProp 𝕄)
          = (rowsV).view.loc (V d (cV L) (jV L)) ↦[slotSet 3]{fullShare} _ from by rw [show (slotK3).view.set = slotSet 3 from set_slot 3 _]))
      iexact Hr3'
    isplitl [Hidx HiA HiB HiC HiD']
    · iapply (idx_rejoin (F := F) d (cV L) (jV L) fullShare fi k.val)
      isplitl [HiA]; · iexact HiA
      isplitl [HiB]; · iexact HiB
      isplitl [HiC]; · iexact HiC
      isplitl [HiD']
      · iapply (Entails.of_eq (pts_set_congr (F := F) (ℓ := (idxV).view.loc (V d (cV L) (jV L))) hD fullShare fi))
        iexact HiD'
      iexact Hidx
    isplitl [Hg11]; · iexact Hg11
    iexact Hs7
  isplitl [Hdone Hmg0 Hmg1 Htodo Hs8 Hs9]
  · isplitl [Hdone Hmg0 Hmg1]
    · rw [← groups_done_succ _ k.val hk1]
      isplitl [Hdone]; · iexact Hdone
      isplitl [Hmg0]; · iexact Hmg0
      iexact Hmg1
    isplitl [Htodo]; · iexact Htodo
    isplitl [Hs8]
    · iapply (Flight_mono (F := F) (wDeliver (F := F) v Zf I d L (2 * (k.val + 1) - 2) 0 inb_S2x4x128_S1x4x128_0_0_0 (k2_off40 L k 0#32) (k2_off40_inb L k 0)
        ((set_mGroup40_0 L k).trans (congrArg (mGroupSet (wid (cL L) (jL L))) (by omega))) _ hG0 _))
      iexact Hs8
    · iapply (Flight_mono (F := F) (wDeliver (F := F) v Zf I d L (2 * (k.val + 1) - 1) 1 inb_S2x4x128_S1x4x128_1_0_0 (k2_off40 L k 1#32) (k2_off40_inb L k 1)
        ((set_mGroup40_1 L k).trans (congrArg (mGroupSet (wid (cL L) (jL L))) (by omega))) _ hG1 _))
      iexact Hs9
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Trip

end Cert.KernelIdeal.Hand.Val

end
-- ==== Proof.KI.TileTripFirstV.lean ====
/-
  The first trip of the vector-subcore task's pipeline loop (k = 0) at the value level: each gather in flight delivers
  its slot holding the rows of z its offset list names, and each write-back its group's rows at the nodes' values.
-/
import proofs.«208586_g21955872817707_cont_8to1_688_77_alg».proof.Proof.KI.TileInvV
import proofs.«208586_g21955872817707_cont_8to1_688_77_alg».proof.Proof.KI.TileValueRun

noncomputable section

namespace Cert.KernelIdeal.Hand.Val

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.KernelIdeal.main_v8_scv : Memref Cert.KernelIdeal.sig Kind.scVector Space.hbm Cert.KernelIdeal.S10240x128 EltTy.f32)
local notation "iV" => (Memref.whole Cert.KernelIdeal.main_v6_scv : Memref Cert.KernelIdeal.sig Kind.scVector Space.hbm Cert.KernelIdeal.S32x80x128 EltTy.i32)
local notation "mV" => (Memref.whole Cert.KernelIdeal.main_v12_scv : Memref Cert.KernelIdeal.sig Kind.scVector Space.hbm Cert.KernelIdeal.S10240x128 EltTy.f32)
local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)
local notation "shV" => (Memref.whole Cert.KernelIdeal.cc2_scratch3 : Memref Cert.KernelIdeal.sig Kind.scVector Space.shared Cert.KernelIdeal.S10240x128 EltTy.f32)

section Trip

variable (d : Dev nD) (L : grid2.Coords)

set_option maxHeartbeats 8000000 in
set_option maxRecDepth 8192 in
/-- The first trip (k = 0): no write-back is in flight yet, so neither wait happens; all four look-ahead gathers do. -/
theorem trip_firstV (q : PosShare TreeShare) (g : Buf (Elt F) (shLoc d (cV L))) (fi : Buf (Elt F) ((V d (cV L) (jV L)).loc cc2_scratch0))
    (hidx : ∀ x, (fi x).toNat < 10000) (hZ : ZOn Zf Finset.univ g)
    (hfi : ∀ (r : Fin 80) (c : Fin 128), fi (ix2 r c) = I d (ix3 (wid (cL L) (jL L)) r c)) (M0 : Buf (Elt F) (mLoc d)) (O : CellTallies nD τ sig (HIx 1)) (W0 : Waits sig (HIx 1)) (v1 : BitVec 32)
    (k : Fin k2_t1_loop.trips) (hk0 : k.val = 0) (a : PUnit) :
    inv v Zf I d L q g fi M0 O W0 k.val a
      ⊢ wp frame (wpE (defs₀ (F := F)) 𝒱₀ (V d (cV L) (jV L)) none) Set.univ
          (k2_t1_body L zV (Memref.isWhole_whole _) iV (Memref.isWhole_whole _) mV (Memref.isWhole_whole _) idxV (Memref.isWhole_whole _)
            rowsV (Memref.isWhole_whole _) outV (Memref.isWhole_whole _) shV (Memref.isWhole_whole _)
            cc2_scratch4 cc2_scratch5 cc2_scratch6 cc2_scratch7 cc2_scratch8 cc2_scratch9 cc2_scoped0 cc2_scoped1 v1 k a)
          (inv v Zf I d L q g fi M0 O W0 (k.val + 1)) := by
  have hk40 : k.val < 40 := lt_of_lt_of_le k.isLt k2_t1_abs.2.1
  have hk38 : k.val < 39 := by omega
  have hc1 : ¬ k2_cond1 k = 1#1 := k2_cond1_of_not_pos k (by omega)
  have hc2 : k2_cond2 k = 1#1 := k2_cond2_true k
  have hc3 : k2_cond3 k = 1#1 := k2_cond3_of_lt k hk38
  have hc4 : ¬ k2_cond4 k = 1#1 := k2_cond4_of_not_pos k (by omega)
  have hc5 : k2_cond5 k = 1#1 := k2_cond5_of_lt k hk38
  have hc6 : k2_cond6 k = 1#1 := k2_cond6_of_lt k hk38
  -- the four offset lists this trip's gathers read, as index sets
  have hD : (offK (k2_off4 k) (k2_off4_inb k hc2)).view.set = offSet (2 * k.val + 1) 64 := (set_offK _ _).trans (by simp only [k2_off4_eq]; rfl)
  have hE : (offK (k2_off22 k) (k2_off22_inb k hc3)).view.set = offSet (2 * k.val + 2) 0 := (set_offK _ _).trans (by simp only [k2_off22_eq]; rfl)
  have hF : (offK (k2_off42 k) (k2_off42_inb k hc5)).view.set = offSet (2 * k.val + 2) 64 := (set_offK _ _).trans (by simp only [k2_off42_eq]; rfl)
  have hG : (offK (k2_off59 k) (k2_off59_inb k hc6)).view.set = offSet (2 * k.val + 3) 0 := (set_offK _ _).trans (by simp only [k2_off59_eq]; rfl)
  have hDs : offSet (2 * k.val + 1) 64 ⊆ ((Finset.univ \ offSet (2 * k.val) 0) \ offSet (2 * k.val) 64) \ offSet (2 * k.val + 1) 0 := fun y hy => by
    simp only [offSet, Finset.mem_sdiff, Finset.mem_filter, Finset.mem_univ, _root_.true_and] at hy ⊢; omega
  have hEs : offSet (2 * k.val + 2) 0 ⊆ (((Finset.univ \ offSet (2 * k.val) 0) \ offSet (2 * k.val) 64) \ offSet (2 * k.val + 1) 0) \ offSet (2 * k.val + 1) 64 := fun y hy => by
    simp only [offSet, Finset.mem_sdiff, Finset.mem_filter, Finset.mem_univ, _root_.true_and] at hy ⊢; omega
  have hFs : offSet (2 * k.val + 2) 64 ⊆ ((((Finset.univ \ offSet (2 * k.val) 0) \ offSet (2 * k.val) 64) \ offSet (2 * k.val + 1) 0) \ offSet (2 * k.val + 1) 64) \ offSet (2 * k.val + 2) 0 := fun y hy => by
    simp only [offSet, Finset.mem_sdiff, Finset.mem_filter, Finset.mem_univ, _root_.true_and] at hy ⊢; omega
  have hGs : offSet (2 * k.val + 3) 0 ⊆ (((((Finset.univ \ offSet (2 * k.val) 0) \ offSet (2 * k.val) 64) \ offSet (2 * k.val + 1) 0) \ offSet (2 * k.val + 1) 64) \ offSet (2 * k.val + 2) 0) \ offSet (2 * k.val + 2) 64 := fun y hy => by
    simp only [offSet, Finset.mem_sdiff, Finset.mem_filter, Finset.mem_univ, _root_.true_and] at hy ⊢; omega
  have o22_0 : k2_off22 k 0 = 2 * (k.val + 1) := by rw [k2_off22_eq]; show 2 * k.val + 2 = _; omega
  have o22_1 : k2_off22 k 1 = 0 := by rw [k2_off22_eq]; rfl
  have o42_0 : k2_off42 k 0 = 2 * (k.val + 1) := by rw [k2_off42_eq]; show 2 * k.val + 2 = _; omega
  have o42_1 : k2_off42 k 1 = 64 := by rw [k2_off42_eq]; rfl
  have o59_0 : k2_off59 k 0 = 2 * (k.val + 1) + 1 := by rw [k2_off59_eq]; show 2 * k.val + 3 = _; omega
  have o59_1 : k2_off59 k 1 = 0 := by rw [k2_off59_eq]; rfl
  have hin3 := hin_of (F := F) d L (k2_off4 k) (k2_off4_inb k hc2) _ hidx
  have hin4 := hin_of (F := F) d L (k2_off22 k) (k2_off22_inb k hc3) _ hidx
  have hin5 := hin_of (F := F) d L (k2_off42 k) (k2_off42_inb k hc5) _ hidx
  have hin6 := hin_of (F := F) d L (k2_off59 k) (k2_off59_inb k hc6) _ hidx
  unfold inv gPart wPart
  rw [if_pos hk40, if_pos hk0]
  unfold gFlight wFlight k2_t1_body
  iintro ⟨#Hmw, ⟨Hf0, Hf1, Hf2, ⟨%R3, Hr3⟩, Hidx, Hg11, Hs7⟩, ⟨Hdone, Htodo, ⟨%fo, Hout⟩, Hs8, Hs9⟩, %W', %hW', HO⟩
  -- the output scratch, held whole, as its two halves
  ihave Ho := (pointsTo_split_subset (q := fullShare) (Finset.subset_univ (outSet 0))).1 $$ Hout
  icases Ho with ⟨Hout0, Hout1⟩
  ihave Hout1 := (Entails.of_eq (pts_set_congr (F := F) (ℓ := (outV).view.loc (V d (cV L) (jV L))) univ_sdiff_outSet0 fullShare fo)) $$ [Hout1]
  · iexact Hout1
  -- carve this trip's four offset lists out of the index scratch, in the spelling the gathers address them by
  ihave H1 := (pointsTo_split_subset (q := fullShare) hDs).1 $$ Hidx
  icases H1 with ⟨HiD, Hidx⟩
  ihave H2 := (pointsTo_split_subset (q := fullShare) hEs).1 $$ Hidx
  icases H2 with ⟨HiE, Hidx⟩
  ihave H3 := (pointsTo_split_subset (q := fullShare) hFs).1 $$ Hidx
  icases H3 with ⟨HiF, Hidx⟩
  ihave H4 := (pointsTo_split_subset (q := fullShare) hGs).1 $$ Hidx
  icases H4 with ⟨HiG, Hidx⟩
  ihave HiD' := (Entails.of_eq (pts_set_congr (F := F) (ℓ := (offK (k2_off4 k) (k2_off4_inb k hc2)).view.loc (V d (cV L) (jV L))) hD.symm fullShare fi)) $$ [HiD]
  · iexact HiD
  ihave HiE' := (Entails.of_eq (pts_set_congr (F := F) (ℓ := (offK (k2_off22 k) (k2_off22_inb k hc3)).view.loc (V d (cV L) (jV L))) hE.symm fullShare fi)) $$ [HiE]
  · iexact HiE
  ihave HiF' := (Entails.of_eq (pts_set_congr (F := F) (ℓ := (offK (k2_off42 k) (k2_off42_inb k hc5)).view.loc (V d (cV L) (jV L))) hF.symm fullShare fi)) $$ [HiF]
  · iexact HiF
  ihave HiG' := (Entails.of_eq (pts_set_congr (F := F) (ℓ := (offK (k2_off59 k) (k2_off59_inb k hc6)).view.loc (V d (cV L) (jV L))) hG.symm fullShare fi)) $$ [HiG]
  · iexact HiG
  -- slot 3 in the spelling the gather addresses it by
  ihave Hr3' := (Entails.of_eq (show ((rowsV).view.loc (V d (cV L) (jV L)) ↦[slotSet 3]{fullShare} R3 : sProp 𝕄)
      = (slotK3).view.loc (V d (cV L) (jV L)) ↦[(slotK3).view.set]{fullShare} R3 from by rw [show (slotK3).view.set = slotSet 3 from set_slot 3 _])) $$ Hr3
  sl_exec
  -- chunk 4 k has landed in slot 0 (the run took the wait): name its rows, respell the slot and half 0 of the output scratch
  icases Hf0_dst with ⟨⟨%R0, %hR0, Hr0⟩, HiA⟩
  ihave Hr0' := (Entails.of_eq (show ((rowsV).view.loc (V d (cV L) (jV L)) ↦[slotSet 0]{fullShare} R0 : sProp 𝕄)
      = (slotK0).view.loc (V d (cV L) (jV L)) ↦[(slotK0).view.set]{fullShare} R0 from by rw [show (slotK0).view.set = slotSet 0 from set_slot 0 _])) $$ Hr0
  ihave Hout0' := (Entails.of_eq (pts_set_congr (F := F) (ℓ := (outK0).view.loc (V d (cV L) (jV L))) set_outK0.symm fullShare fo)) $$ [Hout0]
  · iexact Hout0
  -- the two groups this trip writes, out of the rows still to do, in the spelling the write-backs address them by
  have hIco : Finset.Ico (2 * k.val) 80 = insert (2 * k.val) (insert (2 * k.val + 1) (Finset.Ico (2 * (k.val + 1)) 80)) := by
    ext n; simp only [Finset.mem_Ico, Finset.mem_insert]; omega
  ihave Ht := (Entails.of_eq (show (bigSep (Finset.Ico (2 * k.val) 80) fun n => ((mV).view.loc (V d (cV L) (jV L)) ↦[mGroupSet (wid (cL L) (jL L)) n]{fullShare} M0 : sProp 𝕄))
      = iprop(((mV).view.loc (V d (cV L) (jV L)) ↦[mGroupSet (wid (cL L) (jL L)) (2 * k.val)]{fullShare} M0)
          ∗ ((mV).view.loc (V d (cV L) (jV L)) ↦[mGroupSet (wid (cL L) (jL L)) (2 * k.val + 1)]{fullShare} M0)
          ∗ bigSep (Finset.Ico (2 * (k.val + 1)) 80) fun n => ((mV).view.loc (V d (cV L) (jV L)) ↦[mGroupSet (wid (cL L) (jL L)) n]{fullShare} M0 : sProp 𝕄)) from by
        rw [hIco, SparseCore.bigSep_insert' (by simp only [Finset.mem_insert, Finset.mem_Ico]; omega), SparseCore.bigSep_insert' (by simp only [Finset.mem_Ico]; omega)])) $$ Htodo
  icases Ht with ⟨Hma, Hmb, Htodo⟩
  ihave Hma' := (Entails.of_eq (pts_set_congr (F := F) (ℓ := ((mV).slice (Rect.unit (s := S10240x128) (k2_off40 L k 0#32) S4x128.size (k2_off40_inb L k 0)) (fun _ => rfl)).view.loc (V d (cV L) (jV L)))
      (set_mGroup40_0 L k).symm fullShare M0)) $$ [Hma]
  · iexact Hma
  ihave Hmb' := (Entails.of_eq (pts_set_congr (F := F) (ℓ := ((mV).slice (Rect.unit (s := S10240x128) (k2_off40 L k 1#32) S4x128.size (k2_off40_inb L k 1)) (fun _ => rfl)).view.loc (V d (cV L) (jV L)))
      (set_mGroup40_1 L k).symm fullShare M0)) $$ [Hmb]
  · iexact Hmb
  sl_exec
  -- chunk 4 k + 1 has landed in slot 1
  icases Hf1_dst with ⟨⟨%R1, %hR1, Hr1⟩, HiB⟩
  ihave Hr1' := (Entails.of_eq (show ((rowsV).view.loc (V d (cV L) (jV L)) ↦[slotSet 1]{fullShare} R1 : sProp 𝕄)
      = (slotK1).view.loc (V d (cV L) (jV L)) ↦[(slotK1).view.set]{fullShare} R1 from by rw [show (slotK1).view.set = slotSet 1 from set_slot 1 _])) $$ Hr1
  ihave Hout1' := (Entails.of_eq (pts_set_congr (F := F) (ℓ := (outK1).view.loc (V d (cV L) (jV L))) set_outK1.symm fullShare fo)) $$ [Hout1]
  · iexact Hout1
  sl_exec
  -- chunk 4 k + 2 has landed in slot 2
  icases Hf2_dst with ⟨⟨%R2, %hR2, Hr2⟩, HiC⟩
  ihave Hr2' := (Entails.of_eq (show ((rowsV).view.loc (V d (cV L) (jV L)) ↦[slotSet 2]{fullShare} R2 : sProp 𝕄)
      = (slotK2).view.loc (V d (cV L) (jV L)) ↦[(slotK2).view.set]{fullShare} R2 from by rw [show (slotK2).view.set = slotSet 2 from set_slot 2 _])) $$ Hr2
  sl_exec
  sl_step
  -- the two value obligations of the trip: the rows each write-back delivers are the group's nodes' values — group 2 k from
  -- slots 0 and 1, group 2 k + 1 from slot 2 and the slot 3 this trip's own gather wrote
  have hG0 : GroupSpec v Zf I d L (2 * (k.val + 1) - 2)
      (((mV).slice (Rect.unit (s := S10240x128) (k2_off40 L k 0#32) S4x128.size (k2_off40_inb L k 0)) (fun _ => rfl)).view.writes (Elt F) M0
        [⟨Rect.whole _, trip_firstV.sl.dma16 d L fo R0 R1⟩]) := by
    have hn : 2 * (k.val + 1) - 2 = 2 * k.val + (0 : Fin 2).val := by show _ = 2 * k.val + 0; omega
    rw [hn]
    exact group_of_run (F := F) v Zf I d L fi hfi k.val hk40 0 (fun j => if j.val = 0 then R0 else R1)
      (fun hv' j => by
        rcases j with ⟨_ | _ | n, hj⟩
        · exact hR0 hv'
        · exact hR1 hv'
        · exact absurd hj (by omega))
      fo (k2_off40 L k 0#32) (k2_off40_inb L k 0) (off40_row L k 0) (off40_col L k 0) M0
  have hG1 : GroupSpec v Zf I d L (2 * (k.val + 1) - 1)
      (((mV).slice (Rect.unit (s := S10240x128) (k2_off40 L k 1#32) S4x128.size (k2_off40_inb L k 1)) (fun _ => rfl)).view.writes (Elt F) M0
        [⟨Rect.whole _, trip_firstV.sl.dma16_1 d L g fi k hc2 hin3 fo R2⟩]) := by
    have hn : 2 * (k.val + 1) - 1 = 2 * k.val + (1 : Fin 2).val := by show _ = 2 * k.val + 1; omega
    rw [hn]
    exact group_of_run (F := F) v Zf I d L fi hfi k.val hk40 1
      (fun j => if j.val = 0 then R2 else (slotK3).view.writes (Elt F) (slotK3).view.junk [⟨Rect.whole S64x128, trip_firstV.sl.gather0 d L g fi k hc2 hin3⟩])
      (fun hv' j => by
        rcases j with ⟨_ | _ | n, hj⟩
        · exact hR2 hv'
        · exact slotSpec_writes (F := F) Zf 3 inb_S4x64x128_S1x64x128_3_0_0 (k2_off4 k) (k2_off4_inb k hc2) (2 * k.val + 1) 64
            (by rw [k2_off4_eq]; rfl) (by rw [k2_off4_eq]; rfl) _ _ fi g hZ _ hin3 _ rfl
        · exact absurd hj (by omega))
      fo (k2_off40 L k 1#32) (k2_off40_inb L k 1) (off40_row L k 1) (off40_col L k 1) M0
  -- the invariant at the next trip
  rw [if_pos (show k.val + 1 < 40 by omega), if_neg (show ¬ k.val + 1 = 0 by omega)]
  have hE' : (offK (k2_off22 k) (k2_off22_inb k hc3)).view.set = offSet (2 * (k.val + 1)) 0 :=
    hE.trans (congrArg (fun r => offSet r 0) (by omega))
  have hF' : (offK (k2_off42 k) (k2_off42_inb k hc5)).view.set = offSet (2 * (k.val + 1)) 64 :=
    hF.trans (congrArg (fun r => offSet r 64) (by omega))
  have hG' : (offK (k2_off59 k) (k2_off59_inb k hc6)).view.set = offSet (2 * (k.val + 1) + 1) 0 :=
    hG.trans (congrArg (fun r => offSet r 0) (by omega))
  isplitr; · iexact Hmw
  isplitl [Hf0 Hf1 Hf2 Hr3' Hidx HiA HiB HiC HiD' Hg11 Hs7]
  · isplitl [Hf0]
    · iapply (Flight_mono (F := F) (gDeliver' (F := F) v Zf d L 0 inb_S4x64x128_S1x64x128_0_0_0 (k2_off22 k) (k2_off22_inb k hc3) _ hE' (2 * (k.val + 1)) 0 _ _
        (fun _ => slotSpec_writes Zf 0 inb_S4x64x128_S1x64x128_0_0_0 (k2_off22 k) (k2_off22_inb k hc3) (2 * (k.val + 1)) 0 o22_0 o22_1 _ _ fi g hZ _ hin4 _ rfl) _ _))
      iexact Hf0
    isplitl [Hf1]
    · iapply (Flight_mono (F := F) (gDeliver' (F := F) v Zf d L 1 inb_S4x64x128_S1x64x128_1_0_0 (k2_off42 k) (k2_off42_inb k hc5) _ hF' (2 * (k.val + 1)) 64 _ _
        (fun _ => slotSpec_writes Zf 1 inb_S4x64x128_S1x64x128_1_0_0 (k2_off42 k) (k2_off42_inb k hc5) (2 * (k.val + 1)) 64 o42_0 o42_1 _ _ fi g hZ _ hin5 _ rfl) _ _))
      iexact Hf1
    isplitl [Hf2]
    · iapply (Flight_mono (F := F) (gDeliver' (F := F) v Zf d L 2 inb_S4x64x128_S1x64x128_2_0_0 (k2_off59 k) (k2_off59_inb k hc6) _ hG' (2 * (k.val + 1) + 1) 0 _ _
        (fun _ => slotSpec_writes Zf 2 inb_S4x64x128_S1x64x128_2_0_0 (k2_off59 k) (k2_off59_inb k hc6) (2 * (k.val + 1) + 1) 0 o59_0 o59_1 _ _ fi g hZ _ hin6 _ rfl) _ _))
      iexact Hf2
    isplitl [Hr3']
    · iexists _
      iapply (Entails.of_eq (show ((slotK3).view.loc (V d (cV L) (jV L)) ↦[(slotK3).view.set]{fullShare} _ : sProp 𝕄)
          = (rowsV).view.loc (V d (cV L) (jV L)) ↦[slotSet 3]{fullShare} _ from by rw [show (slotK3).view.set = slotSet 3 from set_slot 3 _]))
      iexact Hr3'
    isplitl [Hidx HiA HiB HiC HiD']
    · iapply (idx_rejoin (F := F) d (cV L) (jV L) fullShare fi k.val)
      isplitl [HiA]; · iexact HiA
      isplitl [HiB]; · iexact HiB
      isplitl [HiC]; · iexact HiC
      isplitl [HiD']
      · iapply (Entails.of_eq (pts_set_congr (F := F) (ℓ := (idxV).view.loc (V d (cV L) (jV L))) hD fullShare fi))
        iexact HiD'
      iexact Hidx
    isplitl [Hg11]; · iexact Hg11
    iexact Hs7
  isplitl [Hdone Htodo Hs8 Hs9]
  · isplitl [Hdone]
    · rw [show 2 * (k.val + 1) - 2 = 2 * k.val - 2 by omega]; iexact Hdone
    isplitl [Htodo]; · iexact Htodo
    isplitl [Hs8]
    · iapply (Flight_mono (F := F) (wDeliver (F := F) v Zf I d L (2 * (k.val + 1) - 2) 0 inb_S2x4x128_S1x4x128_0_0_0 (k2_off40 L k 0#32) (k2_off40_inb L k 0)
        ((set_mGroup40_0 L k).trans (congrArg (mGroupSet (wid (cL L) (jL L))) (by omega))) _ hG0 _))
      iexact Hs8
    · iapply (Flight_mono (F := F) (wDeliver (F := F) v Zf I d L (2 * (k.val + 1) - 1) 1 inb_S2x4x128_S1x4x128_1_0_0 (k2_off40 L k 1#32) (k2_off40_inb L k 1)
        ((set_mGroup40_1 L k).trans (congrArg (mGroupSet (wid (cL L) (jL L))) (by omega))) _ hG1 _))
      iexact Hs9
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Trip

end Cert.KernelIdeal.Hand.Val

end
-- ==== Proof.KI.TileTripLastV.lean ====
/-
  The last trip of the vector-subcore task's pipeline loop at the invariant that carries the gathered rows' contents: the
  write-backs it issues deliver their groups at their nodes' values.
-/
import proofs.«208586_g21955872817707_cont_8to1_688_77_alg».proof.Proof.KI.TileInvV
import proofs.«208586_g21955872817707_cont_8to1_688_77_alg».proof.Proof.KI.TileTripLast
import proofs.«208586_g21955872817707_cont_8to1_688_77_alg».proof.Proof.KI.TileValueGroup
import proofs.«208586_g21955872817707_cont_8to1_688_77_alg».proof.Proof.KI.TileValueRun

noncomputable section

namespace Cert.KernelIdeal.Hand.Val

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.KernelIdeal.main_v8_scv : Memref Cert.KernelIdeal.sig Kind.scVector Space.hbm Cert.KernelIdeal.S10240x128 EltTy.f32)
local notation "iV" => (Memref.whole Cert.KernelIdeal.main_v6_scv : Memref Cert.KernelIdeal.sig Kind.scVector Space.hbm Cert.KernelIdeal.S32x80x128 EltTy.i32)
local notation "mV" => (Memref.whole Cert.KernelIdeal.main_v12_scv : Memref Cert.KernelIdeal.sig Kind.scVector Space.hbm Cert.KernelIdeal.S10240x128 EltTy.f32)
local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)
local notation "shV" => (Memref.whole Cert.KernelIdeal.cc2_scratch3 : Memref Cert.KernelIdeal.sig Kind.scVector Space.shared Cert.KernelIdeal.S10240x128 EltTy.f32)

section Trip

variable (d : Dev nD) (L : grid2.Coords)

set_option maxHeartbeats 4000000 in
set_option maxRecDepth 8192 in
/-- The last trip of the loop (k = 39) at the invariant that carries the gathered rows' contents. -/
theorem trip_lastV (q : PosShare TreeShare) (g : Buf (Elt F) (shLoc d (cV L))) (fi : Buf (Elt F) ((V d (cV L) (jV L)).loc cc2_scratch0))
    (hidx : ∀ x, (fi x).toNat < 10000) (hZ : ZOn Zf Finset.univ g)
    (hfi : ∀ (r : Fin 80) (c : Fin 128), fi (ix2 r c) = I d (ix3 (wid (cL L) (jL L)) r c))
    (M0 : Buf (Elt F) (mLoc d)) (O : CellTallies nD τ sig (HIx 1)) (W0 : Waits sig (HIx 1)) (v1 : BitVec 32)
    (k : Fin k2_t1_loop.trips) (hk39 : k.val = 39) (a : PUnit) :
    inv v Zf I d L q g fi M0 O W0 k.val a
      ⊢ wp frame (wpE (defs₀ (F := F)) 𝒱₀ (V d (cV L) (jV L)) none) Set.univ
          (k2_t1_body L zV (Memref.isWhole_whole _) iV (Memref.isWhole_whole _) mV (Memref.isWhole_whole _) idxV (Memref.isWhole_whole _)
            rowsV (Memref.isWhole_whole _) outV (Memref.isWhole_whole _) shV (Memref.isWhole_whole _)
            cc2_scratch4 cc2_scratch5 cc2_scratch6 cc2_scratch7 cc2_scratch8 cc2_scratch9 cc2_scoped0 cc2_scoped1 v1 k a)
          (inv v Zf I d L q g fi M0 O W0 (k.val + 1)) := by
  have hk40 : k.val < 40 := by omega
  have hk0 : k.val ≠ 0 := by omega
  have hk1 : 1 ≤ k.val := by omega
  have hk38 : ¬ k.val < 39 := by omega
  have hc1 : k2_cond1 k = 1#1 := k2_cond1_of_pos k hk1
  have hc2 : k2_cond2 k = 1#1 := k2_cond2_true k
  have hc3 : ¬ k2_cond3 k = 1#1 := k2_cond3_of_not_lt k hk38
  have hc4 : k2_cond4 k = 1#1 := k2_cond4_of_pos k hk1
  have hc5 : ¬ k2_cond5 k = 1#1 := k2_cond5_of_not_lt k hk38
  have hc6 : ¬ k2_cond6 k = 1#1 := k2_cond6_of_not_lt k hk38
  -- the one offset list this trip's gather reads, as an index set
  have hD : (offK (k2_off4 k) (k2_off4_inb k hc2)).view.set = offSet (2 * k.val + 1) 64 := (set_offK _ _).trans (by simp only [k2_off4_eq]; rfl)
  have hDs : offSet (2 * k.val + 1) 64 ⊆ ((Finset.univ \ offSet (2 * k.val) 0) \ offSet (2 * k.val) 64) \ offSet (2 * k.val + 1) 0 := fun y hy => by
    simp only [offSet, Finset.mem_sdiff, Finset.mem_filter, Finset.mem_univ, _root_.true_and] at hy ⊢; omega
  have hin3 := hin_of (F := F) d L (k2_off4 k) (k2_off4_inb k hc2) _ hidx
  unfold inv gPart wPart
  rw [if_pos hk40, if_neg hk0]
  unfold gFlight wFlight k2_t1_body
  iintro ⟨#Hmw, ⟨Hf0, Hf1, Hf2, ⟨%R3, Hr3⟩, Hidx, Hg11, Hs7⟩, ⟨Hdone, Htodo, Hw0, Hw1⟩, %W', %hW', HO⟩
  -- carve this trip's offset list out of the index scratch, in the spelling the gather addresses it by
  ihave H1 := (pointsTo_split_subset (q := fullShare) hDs).1 $$ Hidx
  icases H1 with ⟨HiD, Hidx⟩
  ihave HiD' := (Entails.of_eq (pts_set_congr (F := F) (ℓ := (offK (k2_off4 k) (k2_off4_inb k hc2)).view.loc (V d (cV L) (jV L))) hD.symm fullShare fi)) $$ [HiD]
  · iexact HiD
  -- slot 3 in the spelling the gather addresses it by
  ihave Hr3' := (Entails.of_eq (show ((rowsV).view.loc (V d (cV L) (jV L)) ↦[slotSet 3]{fullShare} R3 : sProp 𝕄)
      = (slotK3).view.loc (V d (cV L) (jV L)) ↦[(slotK3).view.set]{fullShare} R3 from by rw [show (slotK3).view.set = slotSet 3 from set_slot 3 _])) $$ Hr3
  sl_exec
  -- the write-back of group 2 k - 2
  iapply (Transfers.wp_waitLocalO countersEmb 𝒱₀ (V d (cV L) (jV L)) none (default : HIx 1) (N := 16384) (by rfl)) $$ [Hw0 HO]
  · isplitl [Hw0]; · iexact Hw0
    isplitl [HO]; · iexact HO
    iapply (Transfers.MayWaits.elim (SemLoc.dma cc2_scratch8.sem)) $$ Hmw
  iintro ⟨⟨Hmg0, %fo0, Hout0⟩, Hs8, HO⟩
  sl_exec
  -- chunk 4 k has landed in slot 0 (the run took the wait): name its rows, respell the slot and half 0 of the output scratch
  icases Hf0_dst with ⟨⟨%R0, %hR0, Hr0⟩, HiA⟩
  ihave Hr0' := (Entails.of_eq (show ((rowsV).view.loc (V d (cV L) (jV L)) ↦[slotSet 0]{fullShare} R0 : sProp 𝕄)
      = (slotK0).view.loc (V d (cV L) (jV L)) ↦[(slotK0).view.set]{fullShare} R0 from by rw [show (slotK0).view.set = slotSet 0 from set_slot 0 _])) $$ Hr0
  ihave Hout0' := (Entails.of_eq (pts_set_congr (F := F) (ℓ := (outK0).view.loc (V d (cV L) (jV L))) set_outK0.symm fullShare fo0)) $$ [Hout0]
  · iexact Hout0
  -- the two groups this trip writes, out of the rows still to do, in the spelling the write-backs address them by
  have hIco : Finset.Ico (2 * k.val) 80 = insert (2 * k.val) (insert (2 * k.val + 1) (Finset.Ico (2 * (k.val + 1)) 80)) := by
    ext n; simp only [Finset.mem_Ico, Finset.mem_insert]; omega
  ihave Ht := (Entails.of_eq (show (bigSep (Finset.Ico (2 * k.val) 80) fun n => ((mV).view.loc (V d (cV L) (jV L)) ↦[mGroupSet (wid (cL L) (jL L)) n]{fullShare} M0 : sProp 𝕄))
      = iprop(((mV).view.loc (V d (cV L) (jV L)) ↦[mGroupSet (wid (cL L) (jL L)) (2 * k.val)]{fullShare} M0)
          ∗ ((mV).view.loc (V d (cV L) (jV L)) ↦[mGroupSet (wid (cL L) (jL L)) (2 * k.val + 1)]{fullShare} M0)
          ∗ bigSep (Finset.Ico (2 * (k.val + 1)) 80) fun n => ((mV).view.loc (V d (cV L) (jV L)) ↦[mGroupSet (wid (cL L) (jL L)) n]{fullShare} M0 : sProp 𝕄)) from by
        rw [hIco, SparseCore.bigSep_insert' (by simp only [Finset.mem_insert, Finset.mem_Ico]; omega), SparseCore.bigSep_insert' (by simp only [Finset.mem_Ico]; omega)])) $$ Htodo
  icases Ht with ⟨Hma, Hmb, Htodo⟩
  ihave Hma' := (Entails.of_eq (pts_set_congr (F := F) (ℓ := ((mV).slice (Rect.unit (s := S10240x128) (k2_off40 L k 0#32) S4x128.size (k2_off40_inb L k 0)) (fun _ => rfl)).view.loc (V d (cV L) (jV L)))
      (set_mGroup40_0 L k).symm fullShare M0)) $$ [Hma]
  · iexact Hma
  ihave Hmb' := (Entails.of_eq (pts_set_congr (F := F) (ℓ := ((mV).slice (Rect.unit (s := S10240x128) (k2_off40 L k 1#32) S4x128.size (k2_off40_inb L k 1)) (fun _ => rfl)).view.loc (V d (cV L) (jV L)))
      (set_mGroup40_1 L k).symm fullShare M0)) $$ [Hmb]
  · iexact Hmb
  sl_exec
  -- chunk 4 k + 1 has landed in slot 1
  icases Hf1_dst with ⟨⟨%R1, %hR1, Hr1⟩, HiB⟩
  ihave Hr1' := (Entails.of_eq (show ((rowsV).view.loc (V d (cV L) (jV L)) ↦[slotSet 1]{fullShare} R1 : sProp 𝕄)
      = (slotK1).view.loc (V d (cV L) (jV L)) ↦[(slotK1).view.set]{fullShare} R1 from by rw [show (slotK1).view.set = slotSet 1 from set_slot 1 _])) $$ Hr1
  sl_exec
  -- the write-back of group 2 k - 1
  iapply (Transfers.wp_waitLocalO countersEmb 𝒱₀ (V d (cV L) (jV L)) none (default : HIx 1) (N := 16384) (by rfl)) $$ [Hw1 HO]
  · isplitl [Hw1]; · iexact Hw1
    isplitl [HO]; · iexact HO
    iapply (Transfers.MayWaits.elim (SemLoc.dma cc2_scratch9.sem)) $$ Hmw
  iintro ⟨⟨Hmg1, %fo1, Hout1⟩, Hs9, HO⟩
  ihave Hout1' := (Entails.of_eq (pts_set_congr (F := F) (ℓ := (outK1).view.loc (V d (cV L) (jV L))) set_outK1.symm fullShare fo1)) $$ [Hout1]
  · iexact Hout1
  sl_exec
  -- chunk 4 k + 2 has landed in slot 2
  icases Hf2_dst with ⟨⟨%R2, %hR2, Hr2⟩, HiC⟩
  ihave Hr2' := (Entails.of_eq (show ((rowsV).view.loc (V d (cV L) (jV L)) ↦[slotSet 2]{fullShare} R2 : sProp 𝕄)
      = (slotK2).view.loc (V d (cV L) (jV L)) ↦[(slotK2).view.set]{fullShare} R2 from by rw [show (slotK2).view.set = slotSet 2 from set_slot 2 _])) $$ Hr2
  sl_exec
  sl_step
  -- the two groups this trip writes back hold their nodes' values
  have hG0 : GroupSpec v Zf I d L (2 * (k.val + 1) - 2) (((mV).slice (Rect.unit (s := S10240x128) (k2_off40 L k 0#32) S4x128.size (k2_off40_inb L k 0)) (fun _ => rfl)).view.writes (Elt F) M0
      [⟨Rect.whole _, trip_lastV.sl.dma16 d L fo0 R0 R1⟩]) := by
    have hn : 2 * (k.val + 1) - 2 = 2 * k.val + (0 : Fin 2).val := by show _ = 2 * k.val + 0; omega
    rw [hn]
    exact group_of_run (F := F) v Zf I d L fi hfi k.val hk40 0 (fun j => if j.val = 0 then R0 else R1)
      (fun hv' j => by
        rcases j with ⟨_ | _ | n, hj⟩
        · exact hR0 hv'
        · exact hR1 hv'
        · exact absurd hj (by omega))
      fo0 (k2_off40 L k 0#32) (k2_off40_inb L k 0) (off40_row L k 0) (off40_col L k 0) M0
  have hG1 : GroupSpec v Zf I d L (2 * (k.val + 1) - 1) (((mV).slice (Rect.unit (s := S10240x128) (k2_off40 L k 1#32) S4x128.size (k2_off40_inb L k 1)) (fun _ => rfl)).view.writes (Elt F) M0
      [⟨Rect.whole _, trip_lastV.sl.dma16_1 d L g fi k hc2 hin3 fo1 R2⟩]) := by
    have hn : 2 * (k.val + 1) - 1 = 2 * k.val + (1 : Fin 2).val := by show _ = 2 * k.val + 1; omega
    rw [hn]
    exact group_of_run (F := F) v Zf I d L fi hfi k.val hk40 1
      (fun j => if j.val = 0 then R2 else (slotK3).view.writes (Elt F) (slotK3).view.junk [⟨Rect.whole S64x128, trip_lastV.sl.gather0 d L g fi k hc2 hin3⟩])
      (fun hv' j => by
        rcases j with ⟨_ | _ | n, hj⟩
        · exact hR2 hv'
        · exact slotSpec_writes (F := F) Zf 3 inb_S4x64x128_S1x64x128_3_0_0 (k2_off4 k) (k2_off4_inb k hc2) (2 * k.val + 1) 64
            (by rw [k2_off4_eq]; rfl) (by rw [k2_off4_eq]; rfl) _ _ fi g hZ _ hin3 _ rfl
        · exact absurd hj (by omega))
      fo1 (k2_off40 L k 1#32) (k2_off40_inb L k 1) (off40_row L k 1) (off40_col L k 1) M0
  -- the invariant past the last trip: nothing in flight on the gathers' side
  rw [if_neg (show ¬ k.val + 1 < 40 by omega), if_neg (show ¬ k.val + 1 = 0 by omega)]
  isplitr; · iexact Hmw
  isplitl [Hr0' Hr1' Hr2' Hr3' Hidx HiA HiB HiC HiD' Hf0_src Hf1_src Hf2_src Hg11 Hf0 Hf1 Hf2 Hs7]
  · -- the four slots back in the invariant's spelling, joined
    isplitl [Hr0' Hr1' Hr2' Hr3']
    ·
      ihave Hr0 := (Entails.of_eq (show ((slotK0).view.loc (V d (cV L) (jV L)) ↦[(slotK0).view.set]{fullShare} R0 : sProp 𝕄)
          = (rowsV).view.loc (V d (cV L) (jV L)) ↦[slotSet 0]{fullShare} R0 from by rw [show (slotK0).view.set = slotSet 0 from set_slot 0 _])) $$ Hr0'
      ihave Hr1 := (Entails.of_eq (show ((slotK1).view.loc (V d (cV L) (jV L)) ↦[(slotK1).view.set]{fullShare} R1 : sProp 𝕄)
          = (rowsV).view.loc (V d (cV L) (jV L)) ↦[slotSet 1]{fullShare} R1 from by rw [show (slotK1).view.set = slotSet 1 from set_slot 1 _])) $$ Hr1'
      ihave Hr2 := (Entails.of_eq (show ((slotK2).view.loc (V d (cV L) (jV L)) ↦[(slotK2).view.set]{fullShare} R2 : sProp 𝕄)
          = (rowsV).view.loc (V d (cV L) (jV L)) ↦[slotSet 2]{fullShare} R2 from by rw [show (slotK2).view.set = slotSet 2 from set_slot 2 _])) $$ Hr2'
      ihave Hr3 := (Entails.of_eq (show ((slotK3).view.loc (V d (cV L) (jV L)) ↦[(slotK3).view.set]{fullShare} _ : sProp 𝕄)
          = (rowsV).view.loc (V d (cV L) (jV L)) ↦[slotSet 3]{fullShare} _ from by rw [show (slotK3).view.set = slotSet 3 from set_slot 3 _])) $$ Hr3'
      iapply (slots_join (F := F) d (cV L) (jV L) fullShare _ _ _ _)
      isplitl [Hr0]; · iexact Hr0
      isplitl [Hr1]; · iexact Hr1
      isplitl [Hr2]; · iexact Hr2
      iexact Hr3
    -- the index scratch: the four lists of rows 2 k and 2 k + 1, and what their carvings left
    isplitl [Hidx HiA HiB HiC HiD']
    · ihave HiD := (Entails.of_eq (pts_set_congr (F := F) (ℓ := (idxV).view.loc (V d (cV L) (jV L))) hD fullShare fi)) $$ [HiD']
      · iexact HiD'
      iapply (idx_rejoin_last (F := F) d (cV L) (jV L) fullShare fi k.val)
      isplitl [HiA]; · iexact HiA
      isplitl [HiB]; · iexact HiB
      isplitl [HiC]; · iexact HiC
      isplitl [HiD]; · iexact HiD
      iexact Hidx
    isplitl [Hf0_src]; · iexact Hf0_src
    isplitl [Hf1_src]; · iexact Hf1_src
    isplitl [Hf2_src]; · iexact Hf2_src
    isplitl [Hg11]; · iexact Hg11
    isplitl [Hf0]; · iexact Hf0
    isplitl [Hf1]; · iexact Hf1
    isplitl [Hf2]; · iexact Hf2
    iexact Hs7
  isplitl [Hdone Hmg0 Hmg1 Htodo Hs8 Hs9]
  · isplitl [Hdone Hmg0 Hmg1]
    · iapply (Entails.of_eq (groups_done_succ (F := F) (fun n => iprop(∃ Mg : Buf (Elt F) (mLoc d), ⌜GroupSpec v Zf I d L n Mg⌝
          ∗ (mV).view.loc (V d (cV L) (jV L)) ↦[mGroupSet (wid (cL L) (jL L)) n]{fullShare} Mg)) k.val hk1))
      isplitl [Hdone]; · iexact Hdone
      isplitl [Hmg0]; · iexact Hmg0
      iexact Hmg1
    isplitl [Htodo]; · iexact Htodo
    isplitl [Hs8]
    · iapply (Flight_mono (F := F) (wDeliver (F := F) v Zf I d L (2 * (k.val + 1) - 2) 0 inb_S2x4x128_S1x4x128_0_0_0 (k2_off40 L k 0#32) (k2_off40_inb L k 0)
        ((set_mGroup40_0 L k).trans (by congr 1)) _ hG0 _))
      iexact Hs8
    · iapply (Flight_mono (F := F) (wDeliver (F := F) v Zf I d L (2 * (k.val + 1) - 1) 1 inb_S2x4x128_S1x4x128_1_0_0 (k2_off40 L k 1#32) (k2_off40_inb L k 1)
        ((set_mGroup40_1 L k).trans (by congr 1)) _ hG1 _))
      iexact Hs9
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Trip

end Cert.KernelIdeal.Hand.Val

end
-- ==== Proof.KI.TileValue3b.lean ====
/-
  The worker's copy of its index words, as the task fetched it: word (r, c) of the copy is word (w, r, c) of the
  index array, the copy being read through the slice of the index array at the worker's row, its unit axis dropped.
-/
import proofs.«208586_g21955872817707_cont_8to1_688_77_alg».proof.Proof.KI.TileLoops

noncomputable section

namespace Cert.KernelIdeal.Hand

open Cert.KernelIdeal Cert.KernelIdeal.Gen

open Idealize.ShloMosaic

/-- The index array's slice at row w (offsets (w, 0, 0)), its unit axis dropped, addresses word (w, r, c) at (r, c). -/
theorem iRow_emb (off : Fin 3 → ℕ) (inb : ∀ a, off a + S1x80x128.size a ≤ S32x80x128.size a)
    (hs : ∀ a, (Rect.unit (s := S32x80x128) off S1x80x128.size inb).stride a = 1) (sq : S1x80x128.Squeezes S80x128)
    (w : Fin 32) (h0 : off 0 = w.val) (h1 : off 1 = 0) (h2 : off 2 = 0) (r : Fin 80) (c : Fin 128) :
    (((Memref.whole main_v6_scv : Memref sig Kind.scVector Space.hbm S32x80x128 EltTy.i32).slice
        (Rect.unit (s := S32x80x128) off S1x80x128.size inb) hs).squeeze S80x128 sq).view.emb (ix2 r c) = ix3 w r c := by
  show (Rect.unit (s := S32x80x128) off S1x80x128.size inb).emb (Shape.reshapeEquiv sq.numel_eq (ix2 r c)) = _
  have e : (ix2 r c : S80x128.Idx) = ValueIdx.ix2 r c := by
    funext a
    match a with
    | ⟨0, _⟩ => rfl
    | ⟨1, _⟩ => rfl
  rw [e, ValueIdx.reshapeEquiv_ix2_1ab]
  funext a
  apply Fin.ext
  match a with
  | ⟨0, _⟩ => show off 0 + 1 * 0 = w.val; omega
  | ⟨1, _⟩ => show off 1 + 1 * r.val = r.val; omega
  | ⟨2, _⟩ => show off 2 + 1 * c.val = c.val; omega

/-- Every index of the 80 × 128 copy is (row, column). -/
theorem eq_ix2_80x128 (x : S80x128.Idx) : x = ix2 (x 0) (x 1) := by
  funext a
  match a with
  | ⟨0, _⟩ => rfl
  | ⟨1, _⟩ => rfl

end Cert.KernelIdeal.Hand

end
-- ==== Proof.KI.TileV.lean ====
/-
  The vector-subcore task: its body obligation with the values carried — every node's row of the result is the fold of its
  gathered rows of z (under the switch v).
-/
import proofs.«208586_g21955872817707_cont_8to1_688_77_alg».proof.Proof.KI.TileInv
import proofs.«208586_g21955872817707_cont_8to1_688_77_alg».proof.Proof.KI.TileTrip
import proofs.«208586_g21955872817707_cont_8to1_688_77_alg».proof.Proof.KI.TileInvV
import proofs.«208586_g21955872817707_cont_8to1_688_77_alg».proof.Proof.KI.TileTripV
import proofs.«208586_g21955872817707_cont_8to1_688_77_alg».proof.Proof.KI.TileTripFirstV
import proofs.«208586_g21955872817707_cont_8to1_688_77_alg».proof.Proof.KI.TileTripLastV
import proofs.«208586_g21955872817707_cont_8to1_688_77_alg».proof.Proof.KI.TileValueGroup
import proofs.«208586_g21955872817707_cont_8to1_688_77_alg».proof.Proof.KI.TileValue3b

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

variable (v : Prop) (Zf : S10000x128.Idx → Elt F .f32) (I : (d : Dev nD) → Buf (Elt F) (iLoc d))

local notation "zV" => (Memref.whole Cert.KernelIdeal.main_v8_scv : Memref Cert.KernelIdeal.sig Kind.scVector Space.hbm Cert.KernelIdeal.S10240x128 EltTy.f32)
local notation "iV" => (Memref.whole Cert.KernelIdeal.main_v6_scv : Memref Cert.KernelIdeal.sig Kind.scVector Space.hbm Cert.KernelIdeal.S32x80x128 EltTy.i32)
local notation "mV" => (Memref.whole Cert.KernelIdeal.main_v12_scv : Memref Cert.KernelIdeal.sig Kind.scVector Space.hbm Cert.KernelIdeal.S10240x128 EltTy.f32)
local notation "idxV" => (Memref.whole Cert.KernelIdeal.cc2_scratch0 : Memref Cert.KernelIdeal.sig Kind.scVector Space.vmem Cert.KernelIdeal.S80x128 EltTy.i32)
local notation "rowsV" => (Memref.whole Cert.KernelIdeal.cc2_scratch1 : Memref Cert.KernelIdeal.sig Kind.scVector Space.vmem Cert.KernelIdeal.S4x64x128 EltTy.f32)
local notation "outV" => (Memref.whole Cert.KernelIdeal.cc2_scratch2 : Memref Cert.KernelIdeal.sig Kind.scVector Space.vmem Cert.KernelIdeal.S2x4x128 EltTy.f32)
local notation "shV" => (Memref.whole Cert.KernelIdeal.cc2_scratch3 : Memref Cert.KernelIdeal.sig Kind.scVector Space.shared Cert.KernelIdeal.S10240x128 EltTy.f32)

section Tile

variable (d : Dev nD) (L : grid2.Coords)

set_option maxHeartbeats 4000000 in
/-- The task on vector subcore (L 0, L 1) of device d. -/
theorem tile_bodyV (hF : (K (F := F)).Facts) (hI : ∀ d j, (I d j).toNat < 10000) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit Zf d (cV L) (jV L)
        ∗ goC Zf I d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc2__sc_gather_max L zV (Memref.isWhole_whole _) iV (Memref.isWhole_whole _) mV (Memref.isWhole_whole _) idxV (Memref.isWhole_whole _)
            rowsV (Memref.isWhole_whole _) outV (Memref.isWhole_whole _) shV (Memref.isWhole_whole _)
            cc2_scratch4 cc2_scratch5 cc2_scratch6 cc2_scratch7 cc2_scratch8 cc2_scratch9 cc2_scoped0 cc2_scoped1)
          fun _ => iprop(tdC v Zf I d (cL L) (cV L) (jL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc2__sc_gather_max_eq_skeleton]; unfold cc2__sc_gather_max_skel
  rw [(K (F := F)).scopedBufs_V hF d (cV L) (jV L), SparseCore.Cfg.scopedSems0_V (Val := Elt F) d (cV L) (jV L), ownSems0_V, ownBufs_V]
  unfold bkit goC zPts
  iintro ⟨#Hlv, ⟨⟨%κ, #Hinv⟩, Htoks, #Hrch, Hat, Hcred⟩, ⟨⟨%Z, %hZ, Hz⟩, Hi, ⟨%M0, Hm⟩, %fsh, Hsh⟩, ⟨⟨%fidx, Hidx⟩, ⟨%frows, Hrows⟩, ⟨%fout, Hout⟩, Hbufs⟩, ⟨Hs0, Hs1, Hs4, Hs5, Hs6, Hs7, Hs8, Hs9, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iTileK (F := F) d L _ _).symm) $$ Hi
  ihave Hz' := (Entails.of_eq (pts_zSliceK (F := F) d L _ _).symm) $$ Hz
  ihave Hsh' := (Entails.of_eq (pts_shSliceK (F := F) d L _ _).symm) $$ Hsh
  ihave Hidx' := (Entails.of_eq (pts_idxV (F := F) d L _).symm) $$ Hidx
  ihave Hrows' := (Entails.of_eq (pts_rowsV (F := F) d L _).symm) $$ Hrows
  ihave Hout' := (Entails.of_eq (pts_outV (F := F) d L _).symm) $$ Hout
  sl_exec
  -- the staged slice holds z on its rows below 10000
  have hstage : ZOn Zf (zSlice (jL L)) ((shSliceK L).view.writes (Elt F) fsh [⟨Rect.whole S640x128, tile_bodyV.sl.dma0_1 d L Z⟩]) := by
    intro y hy
    have hy' : emb y ∈ (shSliceK L).view.set := by rw [set_shSliceK]; exact hy
    obtain ⟨x, -, hx⟩ := Finset.mem_map.mp hy'
    have h1 := View.read_writes_cons_emb (shSliceK L).view fsh (Rect.whole S640x128) (tile_bodyV.sl.dma0_1 d L Z) [] x
    rw [View.read_apply] at h1
    have h2 : (Rect.whole S640x128).emb x = x := by
      funext a; exact Fin.ext (by simp [Rect.whole])
    rw [h2, cast_eq, hx] at h1
    rw [h1]
    unfold tile_bodyV.sl.dma0_1
    show View.read (Elt F) (zSliceK L).view Z x = Zf y
    rw [View.read_apply, cast_eq]
    have h3 : (zSliceK L).view.emb x = emb y := hx
    rw [h3]
    exact hZ y hy
  ihave Hsh2 := (Entails.of_eq (pts_shSliceK (F := F) d L _ _)) $$ Hsh'
  ihave Hp := (pays_intro Zf d L _ hstage) $$ Hsh2
  icases Hp with ⟨Hshd, Hpays⟩
  iapply (SparseCore.wp_subcoreBarrier 𝒱₀ none EB (bRd Zf) d (sc := cV L) (i := jV L) sc_bar0 (grid2.bound 1) hsub2 (L 1) rfl κ (fun _ => 0) (jV L).val
      (fun j => bRd_mem₀ Zf d _ _ _) (fun _ => rfl) (bRd_expect Zf d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim Zf d L) $$ Hgot
  icases Hall with ⟨%g, %hg, Hg⟩
  ihave Hg' := (Entails.of_eq (pts_shAllK (F := F) d L _ _).symm) $$ Hg
  -- every index word the tile fetched names a row of z
  have hidx : ∀ x, ((View.write (Elt F) (idxV).view fidx (tile_bodyV.sl.dma0 I d L) Finset.univ) x).toNat < 10000 := by
    intro x
    show ((View.whole (cc2_scratch0 : Ref sig .scVector)).write (Elt F) fidx (tile_bodyV.sl.dma0 I d L) Finset.univ x).toNat < 10000
    rw [View.write_whole_univ]
    unfold tile_bodyV.sl.dma0
    show (View.read (Elt F) (iTileK L).view (I d) x).toNat < 10000
    rw [View.read_apply, cast_eq]
    exact hI d _
  have hfi : ∀ (r : Fin 80) (c : Fin 128), (View.write (Elt F) (idxV).view fidx (tile_bodyV.sl.dma0 I d L) Finset.univ) (ix2 r c) = I d (ix3 (wid (cL L) (jL L)) r c) := by
    intro r c
    show ((View.whole (cc2_scratch0 : Ref sig .scVector)).write (Elt F) fidx (tile_bodyV.sl.dma0 I d L) Finset.univ (ix2 r c)) = _
    rw [View.write_whole_univ]
    unfold tile_bodyV.sl.dma0
    show View.read (Elt F) (iTileK L).view (I d) (ix2 r c) = _
    rw [View.read_apply, cast_eq]
    exact congrArg (I d) (iRow_emb (k2_off1 L) (k2_off1_inb L) (fun _ => rfl) squeezes_S1x80x128_S80x128 (wid (cL L) (jL L)) (by rw [k2_off1_eq]; rfl) (by rw [k2_off1_eq]; rfl) (by rw [k2_off1_eq]; rfl) r c)
  have hin0 := hin_of (F := F) d L ![0, 0] inb_S80x128_S1x64_0_0 _ hidx
  have hin1 := hin_of (F := F) d L ![0, 64] inb_S80x128_S1x64_0_64 _ hidx
  have hin2 := hin_of (F := F) d L ![1, 0] inb_S80x128_S1x64_1_0 _ hidx
  ihave Hgs := (gtoks (F := F) _ _ _).1 $$ Hg'
  icases Hgs with ⟨Hg8, Hg9, Hg10, Hg11, Hgr⟩
  sl_exec
  -- the pipeline loop
  sl_for (Val.inv v Zf I d L (shareTok fullShare 16 (jL L)) g (View.write (Elt F) (idxV).view fidx (tile_bodyV.sl.dma0 I d L) Finset.univ) M0 O
      (insert (SemLoc.reg sc_bar0, some 0) (insert (SemLoc.dma cc2_scoped1.sem, default) (insert (SemLoc.dma cc2_scoped0.sem, default) W))))
    $$ [Hmw2 Hs4 Hs5 Hs6 Hs7 Hs8 Hs9 Hg8 Hg9 Hg10 Hg11 Hrows' Hidx' Hout' Hm HO]
  case region =>
    intro k a
    by_cases hk0 : k.val = 0
    · exact Val.trip_firstV v Zf I d L _ g _ hidx hg hfi M0 O _ (tile_bodyV.sl.v1 L) k hk0 a
    by_cases hk39 : k.val = 39
    · exact Val.trip_lastV v Zf I d L _ g _ hidx hg hfi M0 O _ (tile_bodyV.sl.v1 L) k hk39 a
    exact Val.trip_midV v Zf I d L _ g _ hidx hg hfi M0 O _ (tile_bodyV.sl.v1 L) k hk0 hk39 a
  · unfold Val.inv Val.gPart wPart
    rw [if_pos (by decide), if_pos rfl]
    isplitl [Hmw2]; · iexact Hmw2
    isplitl [Hs4 Hs5 Hs6 Hs7 Hg11 Hrows' Hidx']
    · isplitl [Hs4]
      · unfold Val.gFlight
        iapply (Flight_mono (F := F) (Val.gDeliver' (F := F) v Zf d L 0 inb_S4x64x128_S1x64x128_0_0_0 ![0, 0] inb_S80x128_S1x64_0_0 _ (set_offK _ _) (2 * 0) 0 _ _
          (fun _ hb hrow hcol r ch hw => slot_spec (F := F) 0 hb inb_S4x64x128_S1x64x128_0_0_0 ![0, 0] inb_S80x128_S1x64_0_0 inb_S10240x128_S10240x128_0_0 _ _ g Zf hg _ hin0 (2 * 0) 0 hrow hcol rfl rfl r ch hw) _ _))
        iexact Hs4
      isplitl [Hs5]
      · unfold Val.gFlight
        iapply (Flight_mono (F := F) (Val.gDeliver' (F := F) v Zf d L 1 inb_S4x64x128_S1x64x128_1_0_0 ![0, 64] inb_S80x128_S1x64_0_64 _ (set_offK _ _) (2 * 0) 64 _ _
          (fun _ hb hrow hcol r ch hw => slot_spec (F := F) 1 hb inb_S4x64x128_S1x64x128_1_0_0 ![0, 64] inb_S80x128_S1x64_0_64 inb_S10240x128_S10240x128_0_0 _ _ g Zf hg _ hin1 (2 * 0) 64 hrow hcol rfl rfl r ch hw) _ _))
        iexact Hs5
      isplitl [Hs6]
      · unfold Val.gFlight
        iapply (Flight_mono (F := F) (Val.gDeliver' (F := F) v Zf d L 2 inb_S4x64x128_S1x64x128_2_0_0 ![1, 0] inb_S80x128_S1x64_1_0 _ (set_offK _ _) (2 * 0 + 1) 0 _ _
          (fun _ hb hrow hcol r ch hw => slot_spec (F := F) 2 hb inb_S4x64x128_S1x64x128_2_0_0 ![1, 0] inb_S80x128_S1x64_1_0 inb_S10240x128_S10240x128_0_0 _ _ g Zf hg _ hin2 (2 * 0 + 1) 0 hrow hcol rfl rfl r ch hw) _ _))
        iexact Hs6
      isplitl [Hrows']
      · iexists _
        iapply (Entails.of_eq (congrArg (fun S => ((rowsV).view.loc (V d (cV L) (jV L)) ↦[S]{fullShare} _ : sProp 𝕄)) slots_rest))
        rw [← set_slot 0 inb_S4x64x128_S1x64x128_0_0_0, ← set_slot 1 inb_S4x64x128_S1x64x128_1_0_0, ← set_slot 2 inb_S4x64x128_S1x64x128_2_0_0]
        iexact Hrows'
      isplitl [Hidx']
      · rw [show offSet (2 * 0) 0 = (offK ![0, 0] inb_S80x128_S1x64_0_0).view.set from (set_offK _ _).symm,
          show offSet (2 * 0) 64 = (offK ![0, 64] inb_S80x128_S1x64_0_64).view.set from (set_offK _ _).symm,
          show offSet (2 * 0 + 1) 0 = (offK ![1, 0] inb_S80x128_S1x64_1_0).view.set from (set_offK _ _).symm]
        iexact Hidx'
      isplitl [Hg11]; · iexact Hg11
      iexact Hs7
    isplitl [Hm Hout' Hs8 Hs9]
    · isplitr; · rw [show Finset.range (2 * 0 - 2) = ∅ from rfl, bigSep_empty]; iempintro
      isplitl [Hm]
      · rw [show Finset.Ico (2 * 0) 80 = Finset.range 80 from by decide]
        iapply (Entails.of_eq (pointsTo_biUnion (Finset.range 80) (ℓ := mLoc d) (mGroupSet (wid (cL L) (jL L))) (mGroup_disjoint _ _)))
        rw [mGroup_cover]
        iexact Hm
      isplitl [Hout']; · iexists _; iexact Hout'
      isplitl [Hs8]; · iexact Hs8
      iexact Hs9
    iexists _; isplitr
    swap; · iexact HO
    ipureintro; exact fun p hp => .inl hp
  iintro %a HI
  have htr : Scf.trips k2_t1_loop.lb k2_t1_loop.ub k2_t1_loop.st = 40 := by decide
  rw [htr]
  ihave HI' := (Val.inv_end v Zf I d L _ _ _ _ _ _ a) $$ HI
  unfold invEnd
  icases HI' with ⟨#Hmw, ⟨⟨%Rf, Hrows⟩, Hidx, Hg8, Hg9, Hg10, Hg11, Hs4, Hs5, Hs6, Hs7⟩, ⟨Hdone, Htodo, Hw0, Hw1⟩, %W', %hW', HO⟩
  -- the last two write-backs
  sl_exec
  unfold wFlight
  iapply (Transfers.wp_waitLocalO countersEmb 𝒱₀ (V d (cV L) (jV L)) none (default : HIx 1) (N := 16384) (by rfl)) $$ [Hw0 HO]
  · isplitl [Hw0]; · iexact Hw0
    isplitl [HO]; · iexact HO
    iapply (Transfers.MayWaits.elim (SemLoc.dma cc2_scratch8.sem)) $$ Hmw
  iintro ⟨⟨⟨%Mg78, %hM78, Hm78⟩, %fo0, Hout0⟩, Hs8, HO⟩
  sl_exec
  iapply (Transfers.wp_waitLocalO countersEmb 𝒱₀ (V d (cV L) (jV L)) none (default : HIx 1) (N := 16384) (by rfl)) $$ [Hw1 HO]
  · isplitl [Hw1]; · iexact Hw1
    isplitl [HO]; · iexact HO
    iapply (Transfers.MayWaits.elim (SemLoc.dma cc2_scratch9.sem)) $$ Hmw
  iintro ⟨⟨⟨%Mg79, %hM79, Hm79⟩, %fo1, Hout1⟩, Hs9, HO⟩
  sl_exec
  sl_step
  unfold tdC zPts
  isplitl [Hz' Hi' Hdone Hm78 Hm79 Hg8 Hg9 Hg10 Hg11 Hgr Hshd]
  · isplitl [Hz']
    · iexists Z; isplitr; · ipureintro; exact hZ
      iapply (Entails.of_eq (pts_zSliceK (F := F) d L _ _)); iexact Hz'
    isplitl [Hi']; · iapply (Entails.of_eq (pts_iTileK (F := F) d L _ _)); iexact Hi'
    isplitl [Hdone Hm78 Hm79]
    · iapply (m_join v Zf I d L M0)
      rw [show Finset.range 80 = insert 79 (insert 78 (Finset.range 78)) from by decide,
        SparseCore.bigSep_insert' (by decide), SparseCore.bigSep_insert' (by decide)]
      isplitl [Hm79]
      · iexists Mg79; isplitr; · ipureintro; exact hM79
        iexact Hm79
      isplitl [Hm78]
      · iexists Mg78; isplitr; · ipureintro; exact hM78
        iexact Hm78
      iexact Hdone
    isplitl [Hg8 Hg9 Hg10 Hg11 Hgr]
    · iexists g
      iapply (Entails.of_eq (pts_shAllK (F := F) d L _ _))
      iapply (gtoks (F := F) _ _ _).2
      isplitl [Hg8]; · iexact Hg8
      isplitl [Hg9]; · iexact Hg9
      isplitl [Hg10]; · iexact Hg10
      isplitl [Hg11]; · iexact Hg11
      iexact Hgr
    · iexists _; iexact Hshd
  isplitl [Hidx Hrows Hout0 Hout1 Hbufs]
  · isplitl [Hidx]; · iexists _; iexact Hidx
    isplitl [Hrows]; · iexists _; iexact Hrows
    isplitl [Hout0 Hout1]
    · iapply (out_join (F := F) d L)
      isplitl [Hout0]
      · iexists fo0; iexact Hout0
      · iexists fo1; iexact Hout1
    iexact Hbufs
  isplitl [Hs0 Hs1 Hs4 Hs5 Hs6 Hs7 Hs8 Hs9 Hsems]
  · isplitl [Hs0]; · iexact Hs0
    isplitl [Hs1]; · iexact Hs1
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

/-! ## The obligation -/

def coordsV' (c : Fin (grid2.bound 0)) (s : Fin (grid2.bound 1)) : grid2.Coords :=
  fun | 0 => c | 1 => s | ⟨_ + 2, h⟩ => absurd h (Nat.not_lt.2 (Nat.le_add_left _ _))

theorem defs₀_vector' (c : Fin τ.nSC) (s : Fin τ.nSub) :
    defs₀ (F := F) (.scVector c s) 2 ()
      = SparseCore.onTile hcore2 hsub2 (fun c s => cc2__sc_gather_max (coordsV' c s)
          zV (Memref.isWhole_whole _) iV (Memref.isWhole_whole _) mV (Memref.isWhole_whole _) idxV (Memref.isWhole_whole _)
          rowsV (Memref.isWhole_whole _) outV (Memref.isWhole_whole _) shV (Memref.isWhole_whole _)
          cc2_scratch4 cc2_scratch5 cc2_scratch6 cc2_scratch7 cc2_scratch8 cc2_scratch9 cc2_scoped0 cc2_scoped1) ⟨⟩ c s := rfl

set_option maxRecDepth 16384 in
theorem tileOblV (hF : (K (F := F)).Facts) (hI : ∀ d j, (I d j).toNat < 10000) : (K (F := F)).TileObl (D (F := F)) 𝒱 (P v Zf I) v₀ 0 := by
  intro d c i O W hO hOlev _
  have hci : ((K (F := F)).core 0 c).val < grid2.bound 0 ∧ ((K (F := F)).sub 0 i).val < grid2.bound 1 := ⟨c.isLt, i.isLt⟩
  rw [ox_V, x_V, go_eq, td_eq]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector']; simp only [SparseCore.onTile, hci, and_self, ↓reduceDIte]
  exact tile_bodyV v Zf I d (coordsV' ⟨_, hci.1⟩ ⟨_, hci.2⟩) hF hI O W hO hOlev

end Tile

end Cert.KernelIdeal.Hand

end
-- ==== Proof.PreRange.lean ====
/-
  What the precondition says of the edge list. The precondition is one truth value computed from the six arguments:
  every float argument finite in absolute value, and every entry of the edge list within 0 … 9999 as a signed number,
  all joined by `and`. Its last conjunct is the `and`-reduction over the whole edge list of
  (entry ≥ 0) and (entry ≤ 9999); when the precondition is 1, that reduction is 1, so every entry passes both tests.
-/
import proofs.«208586_g21955872817707_cont_8to1_688_77_alg».proof.Pre_input_domain
import proofs.«208586_g21955872817707_cont_8to1_688_77_alg».proof.Proof.Gen.Pre_input_domain
import Idealize.ShloMosaic.Lib.ReduceAll
import Idealize.ShloMosaic.Lib.ValueIdx

namespace Cert.PreRange

open Cert.Pre_input_domain Cert.Pre_input_domain.Gen Idealize.ShloMosaic

/-- The rank-zero shape has one index. -/
instance : Subsingleton S_.Idx := ⟨fun a b => funext fun d => d.elim0⟩

/-- When the precondition is all ones, every entry of the edge list lies within 0 … 9999 as a signed number. -/
theorem signed_range_of_pre {F : FTy → Type} [FloatOps F] (x : FVec F S1x128x10000x1 .f32) (e : IVec S2x1x10000x32 32)
    (w1 : FVec F S128x128 .f32) (b1 : FVec F S128 .f32) (w2 : FVec F S128x256 .f32) (b2 : FVec F S128 .f32)
    (h : Cert.Pre_input_domain.fn (F := F) x e w1 b1 w2 b2 = fun _ => 1#1) :
    ∀ i, 0 ≤ (e i).toInt ∧ (e i).toInt ≤ 9999 := by
  intro i
  have h0 := congrFun h ValueIdx.ix0
  dsimp only [Cert.Pre_input_domain.fn, Cert.Pre_input_domain.fn_part1] at h0
  change IntOp.andi _ _ = 1#1 at h0
  obtain ⟨-, hall⟩ := IntOp.andi_eq_one.1 h0
  have hi := Host.reduce_andi_all _ _ _ _ _ hall i
  change IntOp.andi (IntOp.cmpi .sge (e i) 0#32) (IntOp.cmpi .sle (e i) 9999#32) = 1#1 at hi
  obtain ⟨hge, hle⟩ := IntOp.andi_eq_one.1 hi
  have a := IntOp.cmpi_sge.1 hge
  have b := IntOp.cmpi_sle.1 hle
  have z : (0#32 : BitVec 32).toInt = 0 := by decide
  have n : (9999#32 : BitVec 32).toInt = 9999 := by decide
  rw [z] at a
  rw [n] at b
  exact ⟨a, b⟩

/-- The same as natural numbers: every entry, read unsigned, is below 10000. -/
theorem range_of_pre {F : FTy → Type} [FloatOps F] (x : FVec F S1x128x10000x1 .f32) (e : IVec S2x1x10000x32 32)
    (w1 : FVec F S128x128 .f32) (b1 : FVec F S128 .f32) (w2 : FVec F S128x256 .f32) (b2 : FVec F S128 .f32)
    (h : Cert.Pre_input_domain.fn (F := F) x e w1 b1 w2 b2 = fun _ => 1#1) :
    ∀ i, (e i).toNat < 10000 := by
  intro i
  obtain ⟨a, b⟩ := signed_range_of_pre x e w1 b1 w2 b2 h i
  rw [BitVec.toInt_eq_toNat_cond] at a b
  have := (e i).isLt
  split at a <;> omega

end Cert.PreRange
-- ==== Proof.lean ====
/-
  The certificate's five claims. The three frames: the printed kernel and its idealization run to the end from the
  SparseCore launch — @main on the TensorCore through its host operations, its three pallas_calls entered as
  regions and the SparseCore call, the sequencers, and the thirty-two tiles each staging its slice of z, meeting its
  siblings at the barrier and folding its nodes' gathered rows — and the reference by its straight line of host
  operations; none writes an argument array. The idealization rewrote nothing. And at the extended reals the
  kernel's result is the reference's: entry (o, n) is the rectified sum of node n's affine image under the first half
  of the second weights and of the image of its neighbours' pooled features under the second half — the same sum of
  256 products split in two, the bias added in another place, the maximum over the 32 neighbours folded in order
  instead of reduced from −∞.
-/
import proofs.«208586_g21955872817707_cont_8to1_688_77_alg».proof.Defs
import proofs.«208586_g21955872817707_cont_8to1_688_77_alg».proof.Proof.Gen.Kernel
import proofs.«208586_g21955872817707_cont_8to1_688_77_alg».proof.Proof.Gen.KernelIdeal
import proofs.«208586_g21955872817707_cont_8to1_688_77_alg».proof.Proof.Gen.ReferenceIdeal
import proofs.«208586_g21955872817707_cont_8to1_688_77_alg».proof.Proof.Gen.Pre_input_domain
import proofs.«208586_g21955872817707_cont_8to1_688_77_alg».proof.Proof.KI.FrameK
import proofs.«208586_g21955872817707_cont_8to1_688_77_alg».proof.Proof.KI.ValueChain
import proofs.«208586_g21955872817707_cont_8to1_688_77_alg».proof.Proof.KI.ValueNode
import proofs.«208586_g21955872817707_cont_8to1_688_77_alg».proof.Proof.KB.FrameK
import proofs.«208586_g21955872817707_cont_8to1_688_77_alg».proof.Proof.KB.ValueHost
import proofs.«208586_g21955872817707_cont_8to1_688_77_alg».proof.Proof.KI.Tile
import proofs.«208586_g21955872817707_cont_8to1_688_77_alg».proof.Proof.KB.Tile
import proofs.«208586_g21955872817707_cont_8to1_688_77_alg».proof.Proof.KI.TileV
import proofs.«208586_g21955872817707_cont_8to1_688_77_alg».proof.Proof.RefRun
import proofs.«208586_g21955872817707_cont_8to1_688_77_alg».proof.Proof.RefRead
import proofs.«208586_g21955872817707_cont_8to1_688_77_alg».proof.Proof.PreRange
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_input_domain.Gen.facts

/-! ## The index range, from the precondition -/

theorem rangeKI (m : (ℓ : Loc Cert.KernelIdeal.nD Cert.KernelIdeal.τ Cert.KernelIdeal.sig) → Buf (Elt Ideal) ℓ) (hpre : Cert.Pre_KernelIdeal m) (d : Dev Cert.KernelIdeal.nD) :
    ∀ i, 0 ≤ ((m (d, Cert.KernelIdeal.Hand.dv Cert.KernelIdeal.main_arg1) : Cert.KernelIdeal.S2x1x10000x32.Idx → BitVec 32) i).toInt
      ∧ ((m (d, Cert.KernelIdeal.Hand.dv Cert.KernelIdeal.main_arg1) : Cert.KernelIdeal.S2x1x10000x32.Idx → BitVec 32) i).toInt ≤ 9999 :=
  Cert.PreRange.signed_range_of_pre _ _ _ _ _ _ (hpre d)

theorem idxKI (m : (ℓ : Loc Cert.KernelIdeal.nD Cert.KernelIdeal.τ Cert.KernelIdeal.sig) → Buf (Elt Ideal) ℓ) (hpre : Cert.Pre_KernelIdeal m) :
    ∀ d j, (Cert.KernelIdeal.Hand.Iarr m d j).toNat < 10000 :=
  fun d => Cert.KernelIdeal.Hand.idx_lt m d (Cert.PreRange.range_of_pre _ _ _ _ _ _ (hpre d))

theorem idxKB (m : (ℓ : Loc Cert.Kernel.nD Cert.Kernel.τ Cert.Kernel.sig) → Buf (Elt Bits) ℓ) (hpre : Cert.Pre_Kernel m) :
    ∀ d j, (Cert.Kernel.Hand.Iarr m d j).toNat < 10000 :=
  fun d => Cert.Kernel.Hand.idx_lt m d (Cert.PreRange.range_of_pre _ _ _ _ _ _ (hpre d))

/-! ## The frames -/

/-- The printed kernel runs to the end and leaves its arguments. -/
theorem frame_K : Cert.frame_Kernel := fun m g hpre =>
  (θ_run (Cert.Kernel.defs (F := Bits)) _ _).mono (fun r h c => Cert.Kernel.Hand.frame_post m r h c)
    (Cert.Kernel.Hand.kernel_run0 (F := Bits) False m g
      (Cert.Kernel.Hand.tileObl False _ _ not_false Cert.Kernel.Hand.facts (idxKB m hpre)))

/-- Its idealization likewise. -/
theorem frame_KI : Cert.frame_KernelIdeal := fun m g hpre =>
  (θ_run (Cert.KernelIdeal.defs (F := Ideal)) _ _).mono (fun r h c => Cert.KernelIdeal.Hand.frame_post m r h c)
    (Cert.KernelIdeal.Hand.kernel_run0 (F := Ideal) False m g
      (Cert.KernelIdeal.Hand.tileObl False _ _ not_false Cert.KernelIdeal.Hand.facts (idxKI m hpre)))

/-- The reference: its run with the result dropped. -/
theorem frame_RI : Cert.frame_ReferenceIdeal := Cert.ReferenceIdeal.RefRun.frame

/-- The ideal pass rewrote no operation. -/
theorem preserves : Cert.preserves_Kernel_KernelIdeal := trivial

/-! ## The two results are one function of the arguments -/

/-- The value the two programs agree on, per device: the reference's result term of the kernel's argument arrays. -/
abbrev vOut (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v16) :=
  Cert.ReferenceIdeal.RefRun.refOut (F := Ideal)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))

theorem algebraic : Cert.algebraic_KernelIdeal_ReferenceIdeal := by
  intro m g m' g' hpre hagree
  refine ⟨vOut m, ?_, ?_⟩
  · refine (θ_run (Cert.KernelIdeal.defs (F := Ideal)) _ _).mono (fun r h c => ?_)
      (Cert.KernelIdeal.Hand.kernel_runC0 (F := Ideal) True m g (Cert.KernelIdeal.Hand.tileOblV True _ _ Cert.KernelIdeal.Hand.facts (idxKI m hpre)))
    obtain ⟨Wn, hch, hr⟩ := h c
    have hE := fun (n : Fin 10000) (k : Fin 32) => rangeKI m hpre c (Idealize.ShloMosaic.ValueIdx.ix4 (0 : Fin 2) (0 : Fin 1) n k)
    refine ⟨(hr _ (Cert.KernelIdeal.Hand.dv_mem_UC Cert.KernelIdeal.main_v16 (by decide))).trans
      (Cert.KernelIdeal.Hand.chain_value m c (idxKI m hpre c) hE
        (fun n ch => Cert.KernelIdeal.Hand.nodeVal_eq_pool m c hE (idxKI m hpre c) n ch) hch), ?_⟩
    exact Cert.KernelIdeal.Hand.frame_post m r (fun d => ⟨_, Cert.KernelIdeal.Hand.chain_args0 True m (h d).choose_spec.1, (h d).choose_spec.2⟩) c
  · refine (θ_run (Cert.ReferenceIdeal.defs (F := Ideal)) _ _).mono (fun r h c => ⟨?_, (h c).2⟩) (Cert.ReferenceIdeal.RefRun.run (F := Ideal) m' g')
    rw [(h c).1, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_input_domain.Gen.facts,
    frame_K, frame_KI, frame_RI, preserves, algebraic⟩

end Cert.Proof

end
